-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000 : Shape := ⟨1, ![1000000]⟩
abbrev S3x64x64 : Shape := ⟨3, ![3, 64, 64]⟩
abbrev S3x64 : Shape := ⟨2, ![3, 64]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3 .f32) (main_arg7 : FVec F S3x64 .f32) (main_arg8 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : FVec F S50000x64 .f32) (main_arg1 : IVec S1000000 32) (main_arg2 : IVec S1000000 32) (main_arg3 : FVec F S1000000 .f32) (main_arg4 : FVec F S3x64x64 .f32) (main_arg5 : FVec F S3x64 .f32) (main_arg6 : FVec F S3 .f32) (main_arg7 : FVec F S3x64 .f32) (main_arg8 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_v13 main_v16
-- ==== Kernel.lean ====
abbrev S50000x64 : Shape := ⟨2, ![50000, 64]⟩
abbrev S1000000 : Shape := ⟨1, ![1000000]⟩
abbrev S3x64x64 : Shape := ⟨3, ![3, 64, 64]⟩
abbrev S3x64 : Shape := ⟨2, ![3, 64]⟩
abbrev S3 : Shape := ⟨1, ![3]⟩
abbrev S1x64x64 : Shape := ⟨3, ![1, 64, 64]⟩
abbrev S64x64 : Shape := ⟨2, ![64, 64]⟩
abbrev S5000x64 : Shape := ⟨2, ![5000, 64]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩
abbrev S64 : Shape := ⟨1, ![64]⟩
abbrev S1 : Shape := ⟨1, ![1]⟩
abbrev S1x1 : Shape := ⟨2, ![1, 1]⟩

abbrev nBuf : Space → Nat
  | .hbm => 138
  | .vmem => 73
  | .smem => 0
  | _ => 0

abbrev hbmTy0_0 (i : Nat) : BufTy := match i % 128 with
  | 0 => ⟨S50000x64, .f32⟩
  | 1 => ⟨S1000000, .i32⟩
  | 2 => ⟨S1000000, .i32⟩
  | 3 => ⟨S1000000, .f32⟩
  | 4 => ⟨S3x64x64, .f32⟩
  | 5 => ⟨S3x64, .f32⟩
  | 6 => ⟨S3, .f32⟩
  | 7 => ⟨S3x64, .f32⟩
  | 8 => ⟨S3x64, .f32⟩
  | 9 => ⟨S1x64x64, .f32⟩
  | 10 => ⟨S64x64, .f32⟩
  | 11 => ⟨S50000x64, .f32⟩
  | 12 => ⟨S1000000x1, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S1000000x64, .f32⟩
  | 23 => ⟨S1000000x64, .f32⟩
  | 24 => ⟨S_, .f32⟩
  | 25 => ⟨S50000x64, .f32⟩
  | 26 => ⟨S1000000x1, .i32⟩
  | 27 => ⟨S50000x64, .f32⟩
  | 28 => ⟨S1x64, .f32⟩
  | 29 => ⟨S64, .f32⟩
  | 30 => ⟨S1x64, .f32⟩
  | 31 => ⟨S1, .f32⟩
  | 32 => ⟨S_, .f32⟩
  | 33 => ⟨S1x1, .f32⟩
  | 34 => ⟨S50000x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S50000x64, .f32⟩
  | 52 => ⟨S1x64x64, .f32⟩
  | 53 => ⟨S64x64, .f32⟩
  | 54 => ⟨S50000x64, .f32⟩
  | 55 => ⟨S1000000x1, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S1000000x64, .f32⟩
  | 66 => ⟨S1000000x64, .f32⟩
  | 67 => ⟨S_, .f32⟩
  | 68 => ⟨S50000x64, .f32⟩
  | 69 => ⟨S1000000x1, .i32⟩
  | 70 => ⟨S50000x64, .f32⟩
  | 71 => ⟨S1x64, .f32⟩
  | 72 => ⟨S64, .f32⟩
  | 73 => ⟨S1x64, .f32⟩
  | 74 => ⟨S1, .f32⟩
  | 75 => ⟨S_, .f32⟩
  | 76 => ⟨S1x1, .f32⟩
  | 77 => ⟨S50000x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S64, .f32⟩
  | 90 => ⟨S1x64, .f32⟩
  | 91 => ⟨S1x64, .f32⟩
  | 92 => ⟨S64, .f32⟩
  | 93 => ⟨S1x64, .f32⟩
  | 94 => ⟨S50000x64, .f32⟩
  | 95 => ⟨S1x64x64, .f32⟩
  | 96 => ⟨S64x64, .f32⟩
  | 97 => ⟨S50000x64, .f32⟩
  | 98 => ⟨S1000000x1, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x64, .f32⟩
  | 108 => ⟨S1000000x64, .f32⟩
  | 109 => ⟨S1000000x64, .f32⟩
  | 110 => ⟨S_, .f32⟩
  | 111 => ⟨S50000x64, .f32⟩
  | 112 => ⟨S1000000x1, .i32⟩
  | 113 => ⟨S50000x64, .f32⟩
  | 114 => ⟨S1x64, .f32⟩
  | 115 => ⟨S64, .f32⟩
  | 116 => ⟨S1x64, .f32⟩
  | 117 => ⟨S1, .f32⟩
  | 118 => ⟨S_, .f32⟩
  | 119 => ⟨S1x1, .f32⟩
  | 120 => ⟨S50000x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S_, .f32⟩
  | 127 => ⟨S1x64, .f32⟩
  | _ => ⟨S50000x64, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S64, .f32⟩
  | 5 => ⟨S1x64, .f32⟩
  | 6 => ⟨S1x64, .f32⟩
  | 7 => ⟨S64, .f32⟩
  | 8 => ⟨S1x64, .f32⟩
  | 9 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x1, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x1, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S1x64, .f32⟩
  | .local _ .vmem, ⟨56, _⟩ => ⟨S1x1, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S5000x64, .f32⟩
  | .local _ .vmem, ⟨66, _⟩ => ⟨S5000x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S5000x64, .f32⟩
  | .local _ .vmem, ⟨72, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_3 : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_8 : Ref sig .tc := ⟨.hbm, 99, rfl⟩
abbrev main_v76 : Ref sig .tc := ⟨.hbm, 100, rfl⟩
abbrev main_v77 : Ref sig .tc := ⟨.hbm, 101, rfl⟩
abbrev main_c_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94_0 : Ref sig .tc := ⟨.hbm, 120, rfl⟩
abbrev main_v94_1 : Ref sig .tc := ⟨.hbm, 121, rfl⟩
abbrev main_v94_2 : Ref sig .tc := ⟨.hbm, 122, rfl⟩
abbrev main_cst_11 : Ref sig .tc := ⟨.hbm, 123, rfl⟩
abbrev main_v95 : Ref sig .tc := ⟨.hbm, 124, rfl⟩
abbrev main_v96 : Ref sig .tc := ⟨.hbm, 125, rfl⟩
abbrev main_cst_12 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg6_0 : Ref sig .tc := ⟨.vmem, 37, rfl⟩
abbrev cc4_scratch0 : Ref sig .tc := ⟨.vmem, 38, rfl⟩
abbrev cc4_scratch1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg4_1 : Ref sig .tc := ⟨.vmem, 60, rfl⟩
abbrev cc7_stg5_0 : Ref sig .tc := ⟨.vmem, 61, rfl⟩
abbrev cc7_stg6_0 : Ref sig .tc := ⟨.vmem, 62, rfl⟩
abbrev cc7_scratch0 : Ref sig .tc := ⟨.vmem, 63, rfl⟩
abbrev cc7_scratch1 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg5_1 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem6_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem3_0 : DmaSem sig := 53
abbrev cc7_sem3_1 : DmaSem sig := 54
abbrev cc7_sem4_0 : DmaSem sig := 55
abbrev cc7_sem4_1 : DmaSem sig := 56
abbrev cc7_sem5_0 : DmaSem sig := 57
abbrev cc7_sem6_0 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc8_sem5_1 : DmaSem sig := 66

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_20 : BitVec 32 := 0#32
  let v37 : BitVec 1 := Scalar.cmpi .ne v36 c0_i32_20
  v37

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_20 : BitVec 32 := 0#32
  let v37 : BitVec 1 := Scalar.cmpi .ne v36 c0_i32_20
  v37

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  shapeCasts_S64_S1x64 : S64.ShapeCasts S1x64
  slices_S3_S1_0 : S3.Slices ![0] S1
  shapeCasts_S1_S_ : S1.ShapeCasts S_
  shapeCasts_S_S1x1 : S_.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S5000x64_S64 : S5000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  dot_S5000x64_S64x64_S5000x64_1_0_0_1_n_n_wf : DotDims.WF S5000x64 S64x64 S5000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v22_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v58_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v58_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v58_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v71) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v87) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v71) S5000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v94_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v94_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v94_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v94_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v96) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v100) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v103) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v106) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v107) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x64 : Shape := ⟨2, ![50000, 64]⟩
abbrev S1000000 : Shape := ⟨1, ![1000000]⟩
abbrev S3x64x64 : Shape := ⟨3, ![3, 64, 64]⟩
abbrev S3x64 : Shape := ⟨2, ![3, 64]⟩
abbrev S3 : Shape := ⟨1, ![3]⟩
abbrev S1x64x64 : Shape := ⟨3, ![1, 64, 64]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩
abbrev S64 : Shape := ⟨1, ![64]⟩
abbrev S1 : Shape := ⟨1, ![1]⟩

abbrev nBuf : Space → Nat
  | .hbm => 209
  | .vmem => 0
  | .smem => 0
  | _ => 0

abbrev hbmTy0_0 (i : Nat) : BufTy := match i % 128 with
  | 0 => ⟨S50000x64, .f32⟩
  | 1 => ⟨S1000000, .i32⟩
  | 2 => ⟨S1000000, .i32⟩
  | 3 => ⟨S1000000, .f32⟩
  | 4 => ⟨S3x64x64, .f32⟩
  | 5 => ⟨S3x64, .f32⟩
  | 6 => ⟨S3, .f32⟩
  | 7 => ⟨S3x64, .f32⟩
  | 8 => ⟨S3x64, .f32⟩
  | 9 => ⟨S1x64x64, .f32⟩
  | 10 => ⟨S64x64, .f32⟩
  | 11 => ⟨S50000x64, .f32⟩
  | 12 => ⟨S1000000x1, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S1000000x64, .f32⟩
  | 23 => ⟨S1000000x64, .f32⟩
  | 24 => ⟨S_, .f32⟩
  | 25 => ⟨S50000x64, .f32⟩
  | 26 => ⟨S1000000x1, .i32⟩
  | 27 => ⟨S50000x64, .f32⟩
  | 28 => ⟨S1x64, .f32⟩
  | 29 => ⟨S64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .i1⟩
  | 36 => ⟨S1, .f32⟩
  | 37 => ⟨S_, .f32⟩
  | 38 => ⟨S50000x64, .f32⟩
  | 39 => ⟨S50000x64, .f32⟩
  | 40 => ⟨S50000x64, .f32⟩
  | 41 => ⟨S_, .f32⟩
  | 42 => ⟨S64, .f32⟩
  | 43 => ⟨S_, .f32⟩
  | 44 => ⟨S64, .f32⟩
  | 45 => ⟨S64, .f32⟩
  | 46 => ⟨S1x64, .f32⟩
  | 47 => ⟨S50000x64, .f32⟩
  | 48 => ⟨S50000x64, .f32⟩
  | 49 => ⟨S50000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S64, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S1x64, .f32⟩
  | 71 => ⟨S64, .f32⟩
  | 72 => ⟨S1x64, .f32⟩
  | 73 => ⟨S50000x64, .f32⟩
  | 74 => ⟨S50000x64, .f32⟩
  | 75 => ⟨S1x64x64, .f32⟩
  | 76 => ⟨S64x64, .f32⟩
  | 77 => ⟨S50000x64, .f32⟩
  | 78 => ⟨S1000000x1, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S1000000x64, .f32⟩
  | 89 => ⟨S1000000x64, .f32⟩
  | 90 => ⟨S_, .f32⟩
  | 91 => ⟨S50000x64, .f32⟩
  | 92 => ⟨S1000000x1, .i32⟩
  | 93 => ⟨S50000x64, .f32⟩
  | 94 => ⟨S1x64, .f32⟩
  | 95 => ⟨S64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .i1⟩
  | 102 => ⟨S1, .f32⟩
  | 103 => ⟨S_, .f32⟩
  | 104 => ⟨S50000x64, .f32⟩
  | 105 => ⟨S50000x64, .f32⟩
  | 106 => ⟨S50000x64, .f32⟩
  | 107 => ⟨S50000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S50000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S64, .f32⟩
  | 4 => ⟨S64, .f32⟩
  | 5 => ⟨S64, .f32⟩
  | 6 => ⟨S1x64, .f32⟩
  | 7 => ⟨S50000x64, .f32⟩
  | 8 => ⟨S50000x64, .f32⟩
  | 9 => ⟨S1x64, .f32⟩
  | 10 => ⟨S64, .f32⟩
  | 11 => ⟨S1x64, .f32⟩
  | 12 => ⟨S50000x64, .f32⟩
  | 13 => ⟨S50000x64, .f32⟩
  | 14 => ⟨S1x64x64, .f32⟩
  | 15 => ⟨S64x64, .f32⟩
  | 16 => ⟨S50000x64, .f32⟩
  | 17 => ⟨S1000000x1, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S1000000x64, .f32⟩
  | 28 => ⟨S1000000x64, .f32⟩
  | 29 => ⟨S_, .f32⟩
  | 30 => ⟨S50000x64, .f32⟩
  | 31 => ⟨S1000000x1, .i32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .i1⟩
  | 41 => ⟨S1, .f32⟩
  | 42 => ⟨S_, .f32⟩
  | 43 => ⟨S50000x64, .f32⟩
  | 44 => ⟨S50000x64, .f32⟩
  | 45 => ⟨S50000x64, .f32⟩
  | 46 => ⟨S50000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S50000x64, .f32⟩
  | 54 => ⟨S50000x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S64, .f32⟩
  | 63 => ⟨S1x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S64, .f32⟩
  | 71 => ⟨S64, .f32⟩
  | 72 => ⟨S64, .f32⟩
  | 73 => ⟨S1x64, .f32⟩
  | 74 => ⟨S50000x64, .f32⟩
  | 75 => ⟨S50000x64, .f32⟩
  | 76 => ⟨S1x64, .f32⟩
  | 77 => ⟨S64, .f32⟩
  | 78 => ⟨S1x64, .f32⟩
  | 79 => ⟨S50000x64, .f32⟩
  | 80 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_11 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_15 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_c_16 : Ref sig .tc := ⟨.hbm, 146, rfl⟩
abbrev main_v119 : Ref sig .tc := ⟨.hbm, 147, rfl⟩
abbrev main_v120 : Ref sig .tc := ⟨.hbm, 148, rfl⟩
abbrev main_c_17 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_18 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_19 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_20 : Ref sig .tc := ⟨.hbm, 175, rfl⟩
abbrev main_v144 : Ref sig .tc := ⟨.hbm, 176, rfl⟩
abbrev main_cst_21 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_22 : Ref sig .tc := ⟨.hbm, 184, rfl⟩
abbrev main_v151 : Ref sig .tc := ⟨.hbm, 185, rfl⟩
abbrev main_cst_23 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_24 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3_S1_0 : S3.Slices ![0] S1
  shapeCasts_S1_S_ : S1.ShapeCasts S_
  reducesTo_S50000x64_S64_d0 : S50000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

class Facts : Prop extends Facts₀ where

variable [Facts]
-- ==== Proof.K.MatmulBody0.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first matrix product, one row block at a time

The first call multiplies the node features `h : [50000, 64]` by the first weight matrix `W₀ : [64, 64]`, ten grid
points of 5000 rows each. At point `t` the body is handed rows `5000·t … 5000·t + 4999` of `h` (window 0), the whole of
`W₀` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows of `h` for point `t` are in window 0's buffer when the body starts, for any proof data over `V`'s arrays
    whose body leaves that buffer as found: the window is brought in afresh at every point. -/
theorem rows_in_place0 {c : Dev nD} (dat : Dat τ (Elt F) Unit ℕ (UR sig nD τ) ℕ cfg0 c)
    (hA : dat.A 0 = V c (Pipeline.arrRef spec0 0)) (hafter : ∀ t, dat.after 0 t = blockAt0 V c 0 t)
    (t : Fin cfg0.N) (d) : dat.before 0 t d = blockAt0 V c 0 t :=
  (dat.before_in_eq_fetched 0 rfl (fun _ => rfl) (fun _ _ _ => rfl)
      (fun t => by rw [hafter]; unfold Dat.blockOf blockAt0; rw [hA]; try rfl) t d).trans
    (by unfold Dat.fetched Dat.blockOf blockAt0; rw [hA]; try rfl)

/-- The weight matrix is in window 1's buffer when the body starts, at every point: brought in at the first point, and
    at the later ones the window's block index has not moved and the body left the buffer as found. -/
theorem weights_in_place0 {c : Dev nD} (dat : Dat τ (Elt F) Unit ℕ (UR sig nD τ) ℕ cfg0 c)
    (hA : dat.A 1 = V c (Pipeline.arrRef spec0 1)) (hafter : ∀ t, dat.after 1 t = blockAt0 V c 1 t)
    (t : Fin cfg0.N) (d) : dat.before 1 t d = blockAt0 V c 1 t :=
  (dat.before_in_eq_fetched 1 rfl (fun _ => rfl) (fun _ _ _ => rfl)
      (fun t => by rw [hafter]; unfold Dat.blockOf blockAt0; rw [hA]; try rfl) t d).trans
    (by unfold Dat.fetched Dat.blockOf blockAt0; rw [hA]; try rfl)

/-! ## What the body stores -/

/-- The whole of a 5000 × 64 block, and the whole of the 64 × 64 weight block: the only rectangles the body touches. -/
abbrev wholeRows0 : Rect S5000x64 := Rect.unit (s := S5000x64) ![0, 0] S5000x64.size inb_S5000x64_S5000x64_0_0
abbrev wholeWeights0 : Rect S64x64 := Rect.unit (s := S64x64) ![0, 0] S64x64.size inb_S64x64_S64x64_0_0

/-- The output block after the body: its one store, of the product of the two loaded blocks, over the whole block. -/
def productBlock0 (x : Vec F S5000x64 .f32) (wt : Vec F S64x64 .f32) : Vec F S5000x64 .f32 :=
  View.canon [⟨wholeRows0, k0_pay1 (View.ld x wholeRows0) (View.ld wt wholeWeights0)⟩]

/-- That one store covers the block. -/
theorem product_covers0 (p : Vec F S5000x64 .f32) (y : S5000x64.Idx) :
    ∃ pc ∈ ([⟨wholeRows0, p⟩] : List (View.Piece (Elt F) S5000x64 .f32)), y ∈ pc.1.set :=
  View.cover_of_tiled [⟨wholeRows0, p⟩] S5000x64.size (by rfl) y

/-! ## The body's triple -/

set_option maxHeartbeats 1000000 in
/-- On whole buffers — the two inputs at contents `x`, `wt`, the output at anything — the body runs to its continuation
    with the inputs as they were and the output at `productBlock0 x wt`. -/
theorem matmul_body0 (c : Dev nD) (E : Set ℕ) (i : grid0.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock0 x wt)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers0 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => productBlock0 (blockAt0 V c 0 t) (blockAt0 V c 1 t)
  Φ _ := Pipeline.ΦA spec0 c
  q _ := fullShare
  owed _ := 0

theorem productData0_A (c : Dev nD) (w : Fin cfg0.W) : (productData0 V c).A w = V c (Pipeline.arrRef spec0 w) := by
  dsimp only [productData0]

theorem productData0_after_rows (c : Dev nD) (t : Fin cfg0.N) : (productData0 V c).after 0 t = blockAt0 V c 0 t := by
  dsimp only [productData0]
theorem productData0_after_weights (c : Dev nD) (t : Fin cfg0.N) : (productData0 V c).after 1 t = blockAt0 V c 1 t := by
  dsimp only [productData0]
theorem productData0_after_out (c : Dev nD) (t : Fin cfg0.N) :
    (productData0 V c).after 2 t = productBlock0 (blockAt0 V c 0 t) (blockAt0 V c 1 t) := by
  dsimp only [productData0]

theorem productData0_before_rows (c : Dev nD) (t : Fin cfg0.N) (d) : (productData0 V c).before 0 t d = blockAt0 V c 0 t :=
  rows_in_place0 V (productData0 V c) (productData0_A V c 0) (productData0_after_rows V c) t d
theorem productData0_before_weights (c : Dev nD) (t : Fin cfg0.N) (d) : (productData0 V c).before 1 t d = blockAt0 V c 1 t :=
  weights_in_place0 V (productData0 V c) (productData0_A V c 1) (productData0_after_weights V c) t d

/-! ## The body obligation -/

/-- What the body is called with at point `t`: the invariant, the core's dues, and the three windows' current buffers. -/
def bodyGiven0 (c : Dev nD) (t : Fin cfg0.N) : sProp 𝕄 :=
  iprop((productData0 V c).Φ t.castSucc ∗ (productData0 V c).owesAt () t.castSucc
    ∗ (∃ d, owns (c : Thread nD τ) (st0_0 t) fullShare ((productData0 V c).before 0 t d))
    ∗ (∃ d, owns (c : Thread nD τ) (st0_1 t) fullShare ((productData0 V c).before 1 t d))
    ∗ (∃ d, owns (c : Thread nD τ) (st0_2 t) fullShare ((productData0 V c).before 2 t d)))

/-- What it returns. -/
def bodyLeaves0 (c : Dev nD) (t : Fin cfg0.N) : sProp 𝕄 :=
  iprop((productData0 V c).Φ t.succ ∗ (productData0 V c).owesAt () t.succ
    ∗ owns (c : Thread nD τ) (st0_0 t) fullShare ((productData0 V c).after 0 t)
    ∗ owns (c : Thread nD τ) (st0_1 t) fullShare ((productData0 V c).after 1 t)
    ∗ owns (c : Thread nD τ) (st0_2 t) fullShare ((productData0 V c).after 2 t))

/-- At any point the input buffers hold their blocks, so the body's triple applies; the invariant and the dues pass
    through untouched. -/
theorem body_at_point0 (c : Dev nD) (t : Fin cfg0.N) :
    bodyGiven0 V c t ⊢ wp frame (wpE (defs₀ (F := F)) Variants.none c none) Set.univ (bodyAt0 t) (fun _ => bodyLeaves0 V c t) := by
  unfold bodyGiven0 bodyLeaves0 bodyAt0
  simp only [productData0_before_rows, productData0_before_weights]
  rw [show (productData0 V c).Φ t.succ = (productData0 V c).Φ t.castSucc from rfl,
    show (productData0 V c).owesAt () t.succ = (productData0 V c).owesAt () t.castSucc from rfl,
    productData0_after_rows, productData0_after_weights, productData0_after_out]
  iintro ⟨HΦ, Ho, ⟨%d0, H0⟩, ⟨%d1, H1⟩, ⟨%d2, H2⟩⟩
  iapply (matmul_body0 c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation0 (c : Dev nD) :
    BodyObligation (productData0 (F := F) V c) (defs₀ (F := F)) Variants.none () Set.univ := fun t => by
  rw [bigSep_W0, bigSep_W0]
  exact body_at_point0 V c t

end Cert.Kernel.Hand

end
-- ==== Proof.K.StatsRuns1.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first layer's activation and column statistics: the body, case by case

At each of ten grid points the body is handed a 5000-row block of the aggregated messages (window 0), the bias row
(window 1) and the one-entry slope of the activation (window 2); it owns two rows of 64 running totals (the column sums and
the column sums of squares) that live across the points. It

* at the FIRST point only, sets both running rows to zero;
* at EVERY point stores the activated block `where(x + b ≥ 0, x + b, a·(x + b))` into the output block (window 3) and
  adds the block's column sums, and the column sums of its squares, to the two running rows;
* at the LAST point only, copies the two running rows into the two row outputs (windows 4 and 5).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst1 (i : grid1.Coords) : Prop :=
  (Scalar.cmpi .ne (Scalar.extui (Scalar.cmpi .eq (BitVec.ofNat 32 (i 0).val) 0#32)) 0#32) = 1#1
/-- It holds at point 0 of the ten and nowhere else. -/
theorem atFirst1_iff : ∀ t : Fin cfg1.N, atFirst1 (grid1.coords t) ↔ t.val % 10 = 0 :=
  (by decide +kernel : ∀ t : Fin grid1.N, atFirst1 (grid1.coords t) ↔ t.val % 10 = 0)

/-- "This is the last point", as the body computes it. -/
abbrev atLast1 (i : grid1.Coords) : Prop := k1_cond2 i = 1#1
/-- It holds at point 9 of the ten and nowhere else. -/
theorem atLast1_iff : ∀ t : Fin cfg1.N, atLast1 (grid1.coords t) ↔ t.val % 10 = 9 :=
  (by decide +kernel : ∀ t : Fin grid1.N, atLast1 (grid1.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun1_middle (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : ¬atLast1 i) (x0 : Vec F S5000x64 .f32) (x1 : Vec F S1x64 .f32) (x2 : Vec F S1x1 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare yS ∗ owns (c : Thread nD τ) arg6 fullShare yQ
            ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ owns (c : Thread nD τ) arg5 fullShare yS ∗ owns (c : Thread nD τ) arg6 fullShare yQ
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, fun yS yQ E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun1_first (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : atFirst1 i) (hc1 : ¬atLast1 i) (x0 : Vec F S5000x64 .f32) (x1 : Vec F S1x64 .f32) (x2 : Vec F S1x1 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare yS ∗ owns (c : Thread nD τ) arg6 fullShare yQ
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ owns (c : Thread nD τ) arg5 fullShare yS ∗ owns (c : Thread nD τ) arg6 fullShare yQ
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, fun yS yQ E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

/-! ## The last point: the running rows are added to, then copied out -/

set_option maxHeartbeats 2000000 in
/-- Inputs at their blocks; the running rows at `s`, `q`; the two row outputs at anything. The body stores into the output
    block, into both running rows, and into both row outputs. -/
noncomputable def statsRun1_last (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LYS) ∗ (∃ f, arg6.view.loc (c : Thread nD τ) ↦[arg6.view.set]{fullShare} arg6.view.writes (Elt F) f LYQ)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Hand

end
-- ==== Proof.K.StatsData1.lean ====
import proofs.«123467_j2559800508646_1_alg».proof.Proof.K.StatsRuns1

/-!
# The first layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 3) is stored whole and written back at every point. The two row outputs (windows 4 and 5) are
stored at the last point only; at the other nine the body leaves their buffers as found and the pipeline does not write
them back, so nothing is claimed of them there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The block of aggregated messages is in window 0's buffer when the body starts: brought in afresh at every point. -/
theorem agg_in_place1 {c : Dev nD} (dat : Dat τ (Elt F) Unit ℕ (UR sig nD τ) ℕ cfg1 c)
    (hA : dat.A 0 = V c (Pipeline.arrRef spec1 0)) (hafter : ∀ t, dat.after 0 t = blockAt1 V c 0 t)
    (t : Fin cfg1.N) (d) : dat.before 0 t d = blockAt1 V c 0 t :=
  (dat.before_in_eq_fetched 0 rfl (fun _ => rfl) (fun _ _ _ => rfl)
      (fun t => by rw [hafter]; unfold Dat.blockOf blockAt1; rw [hA]; try rfl) t d).trans
    (by unfold Dat.fetched Dat.blockOf blockAt1; rw [hA]; try rfl)

/-- The bias row is in window 1's buffer when the body starts, at every point: brought in at the first point and left as found. -/
theorem bias_in_place1 {c : Dev nD} (dat : Dat τ (Elt F) Unit ℕ (UR sig nD τ) ℕ cfg1 c)
    (hA : dat.A 1 = V c (Pipeline.arrRef spec1 1)) (hafter : ∀ t, dat.after 1 t = blockAt1 V c 1 t)
    (t : Fin cfg1.N) (d) : dat.before 1 t d = blockAt1 V c 1 t :=
  (dat.before_in_eq_fetched 1 rfl (fun _ => rfl) (fun _ _ _ => rfl)
      (fun t => by rw [hafter]; unfold Dat.blockOf blockAt1; rw [hA]; try rfl) t d).trans
    (by unfold Dat.fetched Dat.blockOf blockAt1; rw [hA]; try rfl)

/-- The activation's slope is in window 2's buffer when the body starts, at every point: brought in at the first point and left as found. -/
theorem slope_in_place1 {c : Dev nD} (dat : Dat τ (Elt F) Unit ℕ (UR sig nD τ) ℕ cfg1 c)
    (hA : dat.A 2 = V c (Pipeline.arrRef spec1 2)) (hafter : ∀ t, dat.after 2 t = blockAt1 V c 2 t)
    (t : Fin cfg1.N) (d) : dat.before 2 t d = blockAt1 V c 2 t :=
  (dat.before_in_eq_fetched 2 rfl (fun _ => rfl) (fun _ _ _ => rfl)
      (fun t => by rw [hafter]; unfold Dat.blockOf blockAt1; rw [hA]; try rfl) t d).trans
    (by unfold Dat.fetched Dat.blockOf blockAt1; rw [hA]; try rfl)

/-! ## The memrefs the body is called with -/

abbrev mem1_0 (t : Fin cfg1.N) : Memref sig .tc .vmem S5000x64 .f32 := win1_0.stage (cfg1.slots t 0)
abbrev hmem1_0 (t : Fin cfg1.N) : (mem1_0 t).IsWhole := hstage1_0 ((cfg1.slots t 0).cast nbuf1_0)
abbrev mem1_1 (t : Fin cfg1.N) : Memref sig .tc .vmem S1x64 .f32 := win1_1.stage (cfg1.slots t 1)
abbrev hmem1_1 (t : Fin cfg1.N) : (mem1_1 t).IsWhole := hstage1_1 ((cfg1.slots t 1).cast nbuf1_1)
abbrev mem1_2 (t : Fin cfg1.N) : Memref sig .tc .vmem S1x1 .f32 := win1_2.stage (cfg1.slots t 2)
abbrev hmem1_2 (t : Fin cfg1.N) : (mem1_2 t).IsWhole := hstage1_2 ((cfg1.slots t 2).cast nbuf1_2)
abbrev mem1_3 (t : Fin cfg1.N) : Memref sig .tc .vmem S5000x64 .f32 := win1_3.stage (cfg1.slots t 3)
abbrev hmem1_3 (t : Fin cfg1.N) : (mem1_3 t).IsWhole := hstage1_3 ((cfg1.slots t 3).cast nbuf1_3)
abbrev mem1_4 (t : Fin cfg1.N) : Memref sig .tc .vmem S1x64 .f32 := win1_4.stage (cfg1.slots t 4)
abbrev hmem1_4 (t : Fin cfg1.N) : (mem1_4 t).IsWhole := hstage1_4 ((cfg1.slots t 4).cast nbuf1_4)
abbrev mem1_5 (t : Fin cfg1.N) : Memref sig .tc .vmem S1x64 .f32 := win1_5.stage (cfg1.slots t 5)
abbrev hmem1_5 (t : Fin cfg1.N) : (mem1_5 t).IsWhole := hstage1_5 ((cfg1.slots t 5).cast nbuf1_5)
/-- The two running rows: whole scoped buffers of the kernel's own. -/
abbrev sumRow1 : Memref sig .tc .vmem S1x64 .f32 := Memref.whole cc1_scratch0
abbrev sqRow1 : Memref sig .tc .vmem S1x64 .f32 := Memref.whole cc1_scratch1

/-- Contents are stated through one fixed view per shape: a list of pieces written over anything, read back. When the
    pieces cover the shape the result depends on neither the view nor the prior contents. -/
abbrev blockView1 : View sig .tc .vmem S5000x64 .f32 := (Memref.whole cc1_stg3_0 : Memref sig .tc .vmem S5000x64 .f32).view
abbrev rowView1 : View sig .tc .vmem S1x64 .f32 := sumRow1.view
def blockOfPieces1 (L : List (View.Piece (Elt F) S5000x64 .f32)) : Vec F S5000x64 .f32 :=
  blockView1.read (Elt F) (blockView1.writes (Elt F) blockView1.junk L)
def rowOfPieces1 (L : List (View.Piece (Elt F) S1x64 .f32)) : Vec F S1x64 .f32 :=
  rowView1.read (Elt F) (rowView1.writes (Elt F) rowView1.junk L)

/-- The kernel's scoped buffers at anything, with the two running rows singled out. -/
theorem invariant_open1 (c : Dev nD) :
    (Pipeline.ΦA spec1 c : sProp 𝕄)
      = iprop(iprop(iprop((∃ d, owns (c : Thread nD τ) sumRow1 fullShare d) ∗ (∃ d, owns (c : Thread nD τ) sqRow1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sumRow1, sqRow1, owns_whole]; try rfl

/-! ## Which case a point is in -/

theorem first_of_zero1 (t : Fin cfg1.N) (h : t.val = 0) : atFirst1 (grid1.coords t) :=
  (atFirst1_iff t).mpr (by rw [h])
theorem not_first_of_pos1 (t : Fin cfg1.N) (h : t.val ≠ 0) : ¬atFirst1 (grid1.coords t) := fun hf => by
  have h0 := (atFirst1_iff t).mp hf
  have hN : t.val < 10 := lt_of_lt_of_eq t.isLt (show cfg1.N = 10 from N_1)
  omega
theorem last_of1 (t : Fin cfg1.N) (h : t.val % 10 = 9) : atLast1 (grid1.coords t) := (atLast1_iff t).mpr h
theorem not_last_of1 (t : Fin cfg1.N) (h : ¬t.val % 10 = 9) : ¬atLast1 (grid1.coords t) :=
  fun hl => h ((atLast1_iff t).mp hl)

/-- The row outputs are idle, and not written back, away from the last point; live at it. The other windows never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬t.val % 10 = 9 → cfg1.idle 4 (grid1.coords t) = true := by decide +kernel
theorem noflush1_4 : ∀ t : Fin cfg1.N, ¬t.val % 10 = 9 → (cfg1.win 4).flush t = false := by decide +kernel
theorem live1_4 : ∀ t : Fin cfg1.N, t.val % 10 = 9 → cfg1.idle 4 (grid1.coords t) = false := by decide +kernel
theorem idle1_5 : ∀ t : Fin cfg1.N, ¬t.val % 10 = 9 → cfg1.idle 5 (grid1.coords t) = true := by decide +kernel
theorem noflush1_5 : ∀ t : Fin cfg1.N, ¬t.val % 10 = 9 → (cfg1.win 5).flush t = false := by decide +kernel
theorem live1_5 : ∀ t : Fin cfg1.N, t.val % 10 = 9 → cfg1.idle 5 (grid1.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter1 (c : Dev nD) : (n : ℕ) → n < cfg1.N →
    Vec F S5000x64 .f32 × Vec F S1x64 .f32 × Vec F S1x64 .f32 × Vec F S1x64 .f32 × Vec F S1x64 .f32
  | 0, hn =>
    let t : Fin cfg1.N := ⟨0, hn⟩
    let R := statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
      (first_of_zero1 t rfl) (not_last_of1 t (by show ¬(0 : ℕ) % 10 = 9; decide)) (blockAt1 V c 0 t) (blockAt1 V c 1 t) (blockAt1 V c 2 t)
    (blockOfPieces1 R.1, rowOfPieces1 [], rowOfPieces1 [], rowOfPieces1 R.2.1, rowOfPieces1 R.2.2.1)
  | n + 1, hn =>
    let t : Fin cfg1.N := ⟨n + 1, hn⟩
    let prev := stateAfter1 c n (Nat.lt_of_succ_lt hn)
    if h9 : (n + 1) % 10 = 9 then
      let R := statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
        (not_first_of_pos1 t (Nat.succ_ne_zero n)) (last_of1 t h9) (blockAt1 V c 0 t) (blockAt1 V c 1 t) (blockAt1 V c 2 t) prev.2.2.2.1 prev.2.2.2.2
      (blockOfPieces1 R.1, rowOfPieces1 R.2.1, rowOfPieces1 R.2.2.1, rowOfPieces1 R.2.2.2.1, rowOfPieces1 R.2.2.2.2.1)
    else
      let R := statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
        (not_first_of_pos1 t (Nat.succ_ne_zero n)) (not_last_of1 t h9) (blockAt1 V c 0 t) (blockAt1 V c 1 t) (blockAt1 V c 2 t) prev.2.2.2.1 prev.2.2.2.2
      (blockOfPieces1 R.1, rowOfPieces1 [], rowOfPieces1 [], rowOfPieces1 R.2.1, rowOfPieces1 R.2.2.1)

/-! ## The recursion, case by case -/

/-- At the first point: the first run's pieces, from anything. -/
theorem stateAfter1_first (c : Dev nD) (t : Fin cfg1.N) (h0 : t.val = 0) (h9 : ¬t.val % 10 = 9) :
    stateAfter1 V c t.val t.isLt =
      (blockOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).1, rowOfPieces1 [], rowOfPieces1 [],
        rowOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).2.1, rowOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).2.2.1) := by
  obtain ⟨n, hn⟩ := t
  cases n with
  | zero => rfl
  | succ n => exact absurd h0 (Nat.succ_ne_zero n)

/-- At a middle point: the middle run's pieces, from the running rows the point before left. -/
theorem stateAfter1_middle (c : Dev nD) (t : Fin cfg1.N) (h0 : t.val ≠ 0) (h9 : ¬t.val % 10 = 9) :
    stateAfter1 V c t.val t.isLt =
      (blockOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).1, rowOfPieces1 [], rowOfPieces1 [],
        rowOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.1, rowOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter1_last (c : Dev nD) (t : Fin cfg1.N) (h0 : t.val ≠ 0) (h9 : t.val % 10 = 9) :
    stateAfter1 V c t.val t.isLt =
      (blockOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.1,
        rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.2.1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt1 (c : Dev nD) : (n : ℕ) → n ≤ cfg1.N → sProp 𝕄
  | 0, _ => Pipeline.ΦA spec1 c
  | n + 1, hn =>
    iprop(iprop(iprop(owns (c : Thread nD τ) sumRow1 fullShare (stateAfter1 V c n hn).2.2.2.1
          ∗ owns (c : Thread nD τ) sqRow1 fullShare (stateAfter1 V c n hn).2.2.2.2)
        ∗ Pipeline.scopedRestBut (Ix := Unit) (Name := ℕ) (U := UR sig nD τ) (Lvl := ℕ) (Val := Elt F) spec1 c [cc1_scratch0, cc1_scratch1])
      ∗ (∃ r, prngReg c r))

theorem invariantAt1_zero (c : Dev nD) (n : ℕ) (h : n ≤ cfg1.N) (hz : n = 0) :
    invariantAt1 V c n h = Pipeline.ΦA spec1 c := by subst hz; rfl

theorem invariantAt1_succ (c : Dev nD) (n : ℕ) (hn : n < cfg1.N) :
    invariantAt1 V c (n + 1) hn =
      iprop(iprop(iprop(owns (c : Thread nD τ) sumRow1 fullShare (stateAfter1 V c n hn).2.2.2.1
          ∗ owns (c : Thread nD τ) sqRow1 fullShare (stateAfter1 V c n hn).2.2.2.2)
        ∗ Pipeline.scopedRestBut (Ix := Unit) (Name := ℕ) (U := UR sig nD τ) (Lvl := ℕ) (Val := Elt F) spec1 c [cc1_scratch0, cc1_scratch1])
      ∗ (∃ r, prngReg c r)) := rfl

theorem invariantAt1_pos (c : Dev nD) (n : ℕ) (h : n ≤ cfg1.N) (hz : n ≠ 0) :
    invariantAt1 V c n h =
      iprop(iprop(iprop(owns (c : Thread nD τ) sumRow1 fullShare (stateAfter1 V c (n - 1) (by omega)).2.2.2.1
          ∗ owns (c : Thread nD τ) sqRow1 fullShare (stateAfter1 V c (n - 1) (by omega)).2.2.2.2)
        ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => (stateAfter1 V c t.val t.isLt).1
    | ⟨4, _⟩ => (stateAfter1 V c t.val t.isLt).2.1
    | ⟨5, _⟩ => (stateAfter1 V c t.val t.isLt).2.2.1
  Φ t := invariantAt1 V c t.val (Nat.le_of_lt_succ t.isLt)
  q _ := fullShare
  owed _ := 0

theorem statsData1_A (c : Dev nD) (w : Fin cfg1.W) : (statsData1 V c).A w = V c (Pipeline.arrRef spec1 w) := by
  dsimp only [statsData1]
theorem statsData1_inv (c : Dev nD) (t : Fin cfg1.N) :
    (statsData1 V c).Φ t.castSucc = invariantAt1 V c t.val (Nat.le_of_lt t.isLt) := by
  dsimp only [statsData1]; simp only [Fin.coe_castSucc]
theorem statsData1_after0 (c : Dev nD) (t : Fin cfg1.N) : (statsData1 V c).after 0 t = blockAt1 V c 0 t := by dsimp only [statsData1]
theorem statsData1_after1 (c : Dev nD) (t : Fin cfg1.N) : (statsData1 V c).after 1 t = blockAt1 V c 1 t := by dsimp only [statsData1]
theorem statsData1_after2 (c : Dev nD) (t : Fin cfg1.N) : (statsData1 V c).after 2 t = blockAt1 V c 2 t := by dsimp only [statsData1]
theorem statsData1_after3 (c : Dev nD) (t : Fin cfg1.N) : (statsData1 V c).after 3 t = (stateAfter1 V c t.val t.isLt).1 := by dsimp only [statsData1]
theorem statsData1_after4 (c : Dev nD) (t : Fin cfg1.N) : (statsData1 V c).after 4 t = (stateAfter1 V c t.val t.isLt).2.1 := by dsimp only [statsData1]
theorem statsData1_after5 (c : Dev nD) (t : Fin cfg1.N) : (statsData1 V c).after 5 t = (stateAfter1 V c t.val t.isLt).2.2.1 := by dsimp only [statsData1]
theorem statsData1_before0 (c : Dev nD) (t : Fin cfg1.N) (d) : (statsData1 V c).before 0 t d = blockAt1 V c 0 t :=
  agg_in_place1 V (statsData1 V c) (statsData1_A V c 0) (statsData1_after0 V c) t d
theorem statsData1_before1 (c : Dev nD) (t : Fin cfg1.N) (d) : (statsData1 V c).before 1 t d = blockAt1 V c 1 t :=
  bias_in_place1 V (statsData1 V c) (statsData1_A V c 1) (statsData1_after1 V c) t d
theorem statsData1_before2 (c : Dev nD) (t : Fin cfg1.N) (d) : (statsData1 V c).before 2 t d = blockAt1 V c 2 t :=
  slope_in_place1 V (statsData1 V c) (statsData1_A V c 2) (statsData1_after2 V c) t d

/-! ## The body obligation -/

/-- What the body is called with at point `t`: the invariant, the core's dues, and the windows' current buffers. -/
def bodyGiven1 (c : Dev nD) (t : Fin cfg1.N) : sProp 𝕄 :=
  iprop((statsData1 V c).Φ t.castSucc ∗ (statsData1 V c).owesAt () t.castSucc
    ∗ (∃ d, owns (c : Thread nD τ) (mem1_0 t) fullShare ((statsData1 V c).before 0 t d))
    ∗ (∃ d, owns (c : Thread nD τ) (mem1_1 t) fullShare ((statsData1 V c).before 1 t d))
    ∗ (∃ d, owns (c : Thread nD τ) (mem1_2 t) fullShare ((statsData1 V c).before 2 t d))
    ∗ (∃ d, owns (c : Thread nD τ) (mem1_3 t) fullShare ((statsData1 V c).before 3 t d))
    ∗ (∃ d, owns (c : Thread nD τ) (mem1_4 t) fullShare ((statsData1 V c).before 4 t d))
    ∗ (∃ d, owns (c : Thread nD τ) (mem1_5 t) fullShare ((statsData1 V c).before 5 t d)))

/-- What it returns: the invariant after the point, the dues, and each window's buffer as the obligation describes it —
    at the named contents where the window is live or written back, as found where it is idle. -/
def bodyLeaves1 (c : Dev nD) (t : Fin cfg1.N) : sProp 𝕄 :=
  iprop((statsData1 V c).Φ t.succ ∗ (statsData1 V c).owesAt () t.succ
    ∗ (statsData1 V c).leavesExact 0 t
    ∗ (statsData1 V c).leavesExact 1 t
    ∗ (statsData1 V c).leavesExact 2 t
    ∗ (statsData1 V c).leavesExact 3 t
    ∗ (statsData1 V c).leavesExact 4 t
    ∗ (statsData1 V c).leavesExact 5 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point1 (c : Dev nD) (t : Fin cfg1.N) :
    bodyGiven1 V c t ⊢ wp frame (wpE (defs₀ (F := F)) Variants.none c none) Set.univ (bodyAt1 t) (fun _ => bodyLeaves1 V c t) := by
  unfold bodyGiven1 bodyLeaves1 bodyAt1
  simp only [statsData1_before0, statsData1_before1, statsData1_before2]
  rw [show (statsData1 V c).owesAt () t.succ = (statsData1 V c).owesAt () t.castSucc from rfl]
  rw [show (statsData1 V c).Φ t.succ = invariantAt1 V c (t.val + 1) t.isLt from rfl, invariantAt1_succ]
  rw [show (statsData1 V c).leavesExact 0 t = owns (c : Thread nD τ) (mem1_0 t) fullShare ((statsData1 V c).after 0 t) from by
    unfold Dat.leavesExact; rw [live1_0 t], statsData1_after0]
  rw [show (statsData1 V c).leavesExact 1 t = owns (c : Thread nD τ) (mem1_1 t) fullShare ((statsData1 V c).after 1 t) from by
    unfold Dat.leavesExact; rw [live1_1 t], statsData1_after1]
  rw [show (statsData1 V c).leavesExact 2 t = owns (c : Thread nD τ) (mem1_2 t) fullShare ((statsData1 V c).after 2 t) from by
    unfold Dat.leavesExact; rw [live1_2 t], statsData1_after2]
  rw [show (statsData1 V c).leavesExact 3 t = owns (c : Thread nD τ) (mem1_3 t) fullShare ((statsData1 V c).after 3 t) from by
    unfold Dat.leavesExact; rw [live1_3 t], statsData1_after3]
  have hN : t.val < 10 := lt_of_lt_of_eq t.isLt (show cfg1.N = 10 from N_1)
  by_cases h9 : t.val % 10 = 9
  · -- the last point
    have h0 : t.val ≠ 0 := by omega
    rw [show (statsData1 V c).leavesExact 4 t = owns (c : Thread nD τ) (mem1_4 t) fullShare ((statsData1 V c).after 4 t) from by
      unfold Dat.leavesExact; rw [live1_4 t h9], statsData1_after4]
    rw [show (statsData1 V c).leavesExact 5 t = owns (c : Thread nD τ) (mem1_5 t) fullShare ((statsData1 V c).after 5 t) from by
      unfold Dat.leavesExact; rw [live1_5 t h9], statsData1_after5]
    rw [stateAfter1_last V c t h0 h9]
    (try dsimp only)
    rw [statsData1_inv V c t, invariantAt1_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
    iapply ((statsRun1_last (F := F) c (grid1.coords t) _ _ _ _ _ _ _ _ _ _ _ _ _ _ _ _ (not_first_of_pos1 t h0) (last_of1 t h9) (blockAt1 V c 0 t) (blockAt1 V c 1 t) (blockAt1 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    isplitl [HQ]; · iexact HQ
    iintro ⟨H0, H1, H2, ⟨%e3, H3⟩, ⟨%e4, H4⟩, ⟨%e5, H5⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · (unfold owns; iexists _; isplitr; swap; iexact H3; ipureintro; exact View.read_writes_of_cover _ _ _ _ _ (fun y => View.cover_of_tiledL _ S5000x64.size (by sl_kernel_rfl) y))
    isplitl [H4]; · (unfold owns; iexists _; isplitr; swap; iexact H4; ipureintro; exact View.read_writes_of_cover _ _ _ _ _ (fun y => View.cover_of_tiledL _ S1x64.size (by sl_kernel_rfl) y))
    (unfold owns; iexists _; isplitr; swap; iexact H5; ipureintro; exact View.read_writes_of_cover _ _ _ _ _ (fun y => View.cover_of_tiledL _ S1x64.size (by sl_kernel_rfl) y))
  · -- not the last point: the two row outputs go back as found
    rw [Dat.leavesExact_idle (statsData1 V c) 4 t (idle1_4 t h9) (noflush1_4 t h9)]
    rw [Dat.leavesExact_idle (statsData1 V c) 5 t (idle1_5 t h9) (noflush1_5 t h9)]
    by_cases h0 : t.val = 0
    · -- the first point
      rw [stateAfter1_first V c t h0 h9]
      (try dsimp only)
      rw [statsData1_inv V c t, invariantAt1_zero V c _ _ h0, invariant_open1]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
      iapply ((statsRun1_first (F := F) c (grid1.coords t) _ _ _ _ _ _ _ _ _ _ _ _ _ _ _ _ (first_of_zero1 t h0) (not_last_of1 t h9) (blockAt1 V c 0 t) (blockAt1 V c 1 t) (blockAt1 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexact HS
      isplitl [HQ]; · iexact HQ
      iintro ⟨H0, H1, H2, ⟨%e3, H3⟩, H4, H5, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · (unfold owns; iexists _; isplitr; swap; iexact H3; ipureintro; exact View.read_writes_of_cover _ _ _ _ _ (fun y => View.cover_of_tiledL _ S5000x64.size (by sl_kernel_rfl) y))
      isplitl [H4]; · iexists _; iexact H4
      iexists _; iexact H5
    · -- a middle point
      rw [stateAfter1_middle V c t h0 h9]
      (try dsimp only)
      rw [statsData1_inv V c t, invariantAt1_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
      iapply ((statsRun1_middle (F := F) c (grid1.coords t) _ _ _ _ _ _ _ _ _ _ _ _ _ _ _ _ (not_first_of_pos1 t h0) (not_last_of1 t h9) (blockAt1 V c 0 t) (blockAt1 V c 1 t) (blockAt1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexact HS
      isplitl [HQ]; · iexact HQ
      iintro ⟨H0, H1, H2, ⟨%e3, H3⟩, H4, H5, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · (unfold owns; iexists _; isplitr; swap; iexact H3; ipureintro; exact View.read_writes_of_cover _ _ _ _ _ (fun y => View.cover_of_tiledL _ S5000x64.size (by sl_kernel_rfl) y))
      isplitl [H4]; · iexists _; iexact H4
      iexists _; iexact H5

/-- The library's body obligation for the call, at every point. -/
theorem body_obligation1 (c : Dev nD) :
    BodyObligation (statsData1 (F := F) V c) (defs₀ (F := F)) Variants.none () Set.univ := fun t => by
  rw [bigSep_W1, bigSep_W1]
  exact body_at_point1 V c t

/-- What the call is handed on entry is the invariant before the first point. -/
theorem invariant_in1 (c : Dev nD) : Pipeline.ΦA spec1 c ⊢ (statsData1 V c).Φ 0 := by
  rw [show (statsData1 V c).Φ 0 = invariantAt1 V c 0 (Nat.zero_le _) from rfl, invariantAt1_zero V c 0 _ rfl]
  try exact Idealize.SL.BI.Entails.refl _

/-- After the last point the invariant gives the kernel's scoped buffers back at anything: the running rows' values are
    forgotten. -/
theorem invariant_out1 (c : Dev nD) : (statsData1 V c).Φ (Fin.last cfg1.N) ⊢ Pipeline.ΦA spec1 c := by
  have hne : (Fin.last cfg1.N).val ≠ 0 := by rw [Fin.val_last]; have : cfg1.N = 10 := N_1; omega
  rw [show (statsData1 V c).Φ (Fin.last cfg1.N) = invariantAt1 V c (Fin.last cfg1.N).val (Nat.le_of_lt_succ (Fin.last cfg1.N).isLt) from rfl,
    invariantAt1_pos V c _ _ hne, invariant_open1]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.Kernel.Hand

end
-- ==== Proof.K.NormBody2.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows of `h` for point `t` are in window 0's buffer when the body starts, for any proof data over `V`'s arrays
    whose body leaves that buffer as found: the window is brought in afresh at every point. -/
theorem rows_in_place2 {c : Dev nD} (dat : Dat τ (Elt F) Unit ℕ (UR sig nD τ) ℕ cfg2 c)
    (hA : dat.A 0 = V c (Pipeline.arrRef spec2 0)) (hafter : ∀ t, dat.after 0 t = blockAt2 V c 0 t)
    (t : Fin cfg2.N) (d) : dat.before 0 t d = blockAt2 V c 0 t :=
  (dat.before_in_eq_fetched 0 rfl (fun _ => rfl) (fun _ _ _ => rfl)
      (fun t => by rw [hafter]; unfold Dat.blockOf blockAt2; rw [hA]; try rfl) t d).trans
    (by unfold Dat.fetched Dat.blockOf blockAt2; rw [hA]; try rfl)

/-- The mean row is in window 1's buffer when the body starts, at every point: brought in at the first point, and at the
    later ones the window's block index has not moved and the body left the buffer as found. -/
theorem mean_in_place2 {c : Dev nD} (dat : Dat τ (Elt F) Unit ℕ (UR sig nD τ) ℕ cfg2 c)
    (hA : dat.A 1 = V c (Pipeline.arrRef spec2 1)) (hafter : ∀ t, dat.after 1 t = blockAt2 V c 1 t)
    (t : Fin cfg2.N) (d) : dat.before 1 t d = blockAt2 V c 1 t :=
  (dat.before_in_eq_fetched 1 rfl (fun _ => rfl) (fun _ _ _ => rfl)
      (fun t => by rw [hafter]; unfold Dat.blockOf blockAt2; rw [hA]; try rfl) t d).trans
    (by unfold Dat.fetched Dat.blockOf blockAt2; rw [hA]; try rfl)

/-- The variance row is in window 2's buffer when the body starts, at every point: brought in at the first point, and at the
    later ones the window's block index has not moved and the body left the buffer as found. -/
theorem variance_in_place2 {c : Dev nD} (dat : Dat τ (Elt F) Unit ℕ (UR sig nD τ) ℕ cfg2 c)
    (hA : dat.A 2 = V c (Pipeline.arrRef spec2 2)) (hafter : ∀ t, dat.after 2 t = blockAt2 V c 2 t)
    (t : Fin cfg2.N) (d) : dat.before 2 t d = blockAt2 V c 2 t :=
  (dat.before_in_eq_fetched 2 rfl (fun _ => rfl) (fun _ _ _ => rfl)
      (fun t => by rw [hafter]; unfold Dat.blockOf blockAt2; rw [hA]; try rfl) t d).trans
    (by unfold Dat.fetched Dat.blockOf blockAt2; rw [hA]; try rfl)

/-- The gamma row is in window 3's buffer when the body starts, at every point: brought in at the first point, and at the
    later ones the window's block index has not moved and the body left the buffer as found. -/
theorem gamma_in_place2 {c : Dev nD} (dat : Dat τ (Elt F) Unit ℕ (UR sig nD τ) ℕ cfg2 c)
    (hA : dat.A 3 = V c (Pipeline.arrRef spec2 3)) (hafter : ∀ t, dat.after 3 t = blockAt2 V c 3 t)
    (t : Fin cfg2.N) (d) : dat.before 3 t d = blockAt2 V c 3 t :=
  (dat.before_in_eq_fetched 3 rfl (fun _ => rfl) (fun _ _ _ => rfl)
      (fun t => by rw [hafter]; unfold Dat.blockOf blockAt2; rw [hA]; try rfl) t d).trans
    (by unfold Dat.fetched Dat.blockOf blockAt2; rw [hA]; try rfl)

/-- The beta row is in window 4's buffer when the body starts, at every point: brought in at the first point, and at the
    later ones the window's block index has not moved and the body left the buffer as found. -/
theorem beta_in_place2 {c : Dev nD} (dat : Dat τ (Elt F) Unit ℕ (UR sig nD τ) ℕ cfg2 c)
    (hA : dat.A 4 = V c (Pipeline.arrRef spec2 4)) (hafter : ∀ t, dat.after 4 t = blockAt2 V c 4 t)
    (t : Fin cfg2.N) (d) : dat.before 4 t d = blockAt2 V c 4 t :=
  (dat.before_in_eq_fetched 4 rfl (fun _ => rfl) (fun _ _ _ => rfl)
      (fun t => by rw [hafter]; unfold Dat.blockOf blockAt2; rw [hA]; try rfl) t d).trans
    (by unfold Dat.fetched Dat.blockOf blockAt2; rw [hA]; try rfl)

/-! ## What the body stores -/

/-- The whole of a 5000 × 64 block and the whole of a 1 × 64 row: the only rectangles the body touches. -/
abbrev wholeRows2 : Rect S5000x64 := Rect.unit (s := S5000x64) ![0, 0] S5000x64.size inb_S5000x64_S5000x64_0_0
abbrev wholeRow2 : Rect S1x64 := Rect.unit (s := S1x64) ![0, 0] S1x64.size inb_S1x64_S1x64_0_0

/-- The output block after the body: its one store, of the normalised rows, over the whole block. -/
def normalisedBlock2 (x : Vec F S5000x64 .f32) (mu vr ga be : Vec F S1x64 .f32) : Vec F S5000x64 .f32 :=
  View.canon [⟨wholeRows2, k2_pay1 (View.ld vr wholeRow2) (View.ld ga wholeRow2) (View.ld x wholeRows2)
    (View.ld mu wholeRow2) (View.ld be wholeRow2)⟩]

/-- That one store covers the block. -/
theorem normalised_covers2 (p : Vec F S5000x64 .f32) (y : S5000x64.Idx) :
    ∃ pc ∈ ([⟨wholeRows2, p⟩] : List (View.Piece (Elt F) S5000x64 .f32)), y ∈ pc.1.set :=
  View.cover_of_tiled [⟨wholeRows2, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock2 x mu vr ga be`. -/
theorem bn_body2 (c : Dev nD) (E : Set ℕ) (i : grid2.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock2 x mu vr ga be)) -∗ K ⟨⟩))
      ⊢ wp frame (wpE (defs₀ (F := F)) Variants.none c none) E
          (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers2 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => normalisedBlock2 (blockAt2 V c 0 t) (blockAt2 V c 1 t) (blockAt2 V c 2 t) (blockAt2 V c 3 t) (blockAt2 V c 4 t)
  Φ _ := Pipeline.ΦA spec2 c
  q _ := fullShare
  owed _ := 0

theorem normData2_A (c : Dev nD) (w : Fin cfg2.W) : (normData2 V c).A w = V c (Pipeline.arrRef spec2 w) := by
  dsimp only [normData2]

theorem normData2_after0 (c : Dev nD) (t : Fin cfg2.N) : (normData2 V c).after 0 t = blockAt2 V c 0 t := by dsimp only [normData2]
theorem normData2_after1 (c : Dev nD) (t : Fin cfg2.N) : (normData2 V c).after 1 t = blockAt2 V c 1 t := by dsimp only [normData2]
theorem normData2_after2 (c : Dev nD) (t : Fin cfg2.N) : (normData2 V c).after 2 t = blockAt2 V c 2 t := by dsimp only [normData2]
theorem normData2_after3 (c : Dev nD) (t : Fin cfg2.N) : (normData2 V c).after 3 t = blockAt2 V c 3 t := by dsimp only [normData2]
theorem normData2_after4 (c : Dev nD) (t : Fin cfg2.N) : (normData2 V c).after 4 t = blockAt2 V c 4 t := by dsimp only [normData2]
theorem normData2_after_out (c : Dev nD) (t : Fin cfg2.N) :
    (normData2 V c).after 5 t = normalisedBlock2 (blockAt2 V c 0 t) (blockAt2 V c 1 t) (blockAt2 V c 2 t)
      (blockAt2 V c 3 t) (blockAt2 V c 4 t) := by
  dsimp only [normData2]

theorem normData2_before0 (c : Dev nD) (t : Fin cfg2.N) (d) : (normData2 V c).before 0 t d = blockAt2 V c 0 t :=
  rows_in_place2 V (normData2 V c) (normData2_A V c 0) (normData2_after0 V c) t d
theorem normData2_before1 (c : Dev nD) (t : Fin cfg2.N) (d) : (normData2 V c).before 1 t d = blockAt2 V c 1 t :=
  mean_in_place2 V (normData2 V c) (normData2_A V c 1) (normData2_after1 V c) t d
theorem normData2_before2 (c : Dev nD) (t : Fin cfg2.N) (d) : (normData2 V c).before 2 t d = blockAt2 V c 2 t :=
  variance_in_place2 V (normData2 V c) (normData2_A V c 2) (normData2_after2 V c) t d
theorem normData2_before3 (c : Dev nD) (t : Fin cfg2.N) (d) : (normData2 V c).before 3 t d = blockAt2 V c 3 t :=
  gamma_in_place2 V (normData2 V c) (normData2_A V c 3) (normData2_after3 V c) t d
theorem normData2_before4 (c : Dev nD) (t : Fin cfg2.N) (d) : (normData2 V c).before 4 t d = blockAt2 V c 4 t :=
  beta_in_place2 V (normData2 V c) (normData2_A V c 4) (normData2_after4 V c) t d

/-! ## The body obligation -/

/-- What the body is called with at point `t`: the invariant, the core's dues, and the six windows' current buffers. -/
def bodyGiven2 (c : Dev nD) (t : Fin cfg2.N) : sProp 𝕄 :=
  iprop((normData2 V c).Φ t.castSucc ∗ (normData2 V c).owesAt () t.castSucc
    ∗ (∃ d, owns (c : Thread nD τ) (st2_0 t) fullShare ((normData2 V c).before 0 t d))
    ∗ (∃ d, owns (c : Thread nD τ) (st2_1 t) fullShare ((normData2 V c).before 1 t d))
    ∗ (∃ d, owns (c : Thread nD τ) (st2_2 t) fullShare ((normData2 V c).before 2 t d))
    ∗ (∃ d, owns (c : Thread nD τ) (st2_3 t) fullShare ((normData2 V c).before 3 t d))
    ∗ (∃ d, owns (c : Thread nD τ) (st2_4 t) fullShare ((normData2 V c).before 4 t d))
    ∗ (∃ d, owns (c : Thread nD τ) (st2_5 t) fullShare ((normData2 V c).before 5 t d)))

/-- What it returns. -/
def bodyLeaves2 (c : Dev nD) (t : Fin cfg2.N) : sProp 𝕄 :=
  iprop((normData2 V c).Φ t.succ ∗ (normData2 V c).owesAt () t.succ
    ∗ owns (c : Thread nD τ) (st2_0 t) fullShare ((normData2 V c).after 0 t)
    ∗ owns (c : Thread nD τ) (st2_1 t) fullShare ((normData2 V c).after 1 t)
    ∗ owns (c : Thread nD τ) (st2_2 t) fullShare ((normData2 V c).after 2 t)
    ∗ owns (c : Thread nD τ) (st2_3 t) fullShare ((normData2 V c).after 3 t)
    ∗ owns (c : Thread nD τ) (st2_4 t) fullShare ((normData2 V c).after 4 t)
    ∗ owns (c : Thread nD τ) (st2_5 t) fullShare ((normData2 V c).after 5 t))

/-- At any point the input buffers hold their blocks, so the body's triple applies; the invariant and the dues pass
    through untouched. -/
theorem body_at_point2 (c : Dev nD) (t : Fin cfg2.N) :
    bodyGiven2 V c t ⊢ wp frame (wpE (defs₀ (F := F)) Variants.none c none) Set.univ (bodyAt2 t) (fun _ => bodyLeaves2 V c t) := by
  unfold bodyGiven2 bodyLeaves2 bodyAt2
  simp only [normData2_before0, normData2_before1, normData2_before2, normData2_before3, normData2_before4]
  rw [show (normData2 V c).Φ t.succ = (normData2 V c).Φ t.castSucc from rfl,
    show (normData2 V c).owesAt () t.succ = (normData2 V c).owesAt () t.castSucc from rfl,
    normData2_after0, normData2_after1, normData2_after2, normData2_after3, normData2_after4, normData2_after_out]
  iintro ⟨HΦ, Ho, ⟨%d0, H0⟩, ⟨%d1, H1⟩, ⟨%d2, H2⟩, ⟨%d3, H3⟩, ⟨%d4, H4⟩, ⟨%d5, H5⟩⟩
  iapply (bn_body2 c Set.univ _ _ _ _ _ _ _ _ _ _ _ _ _ (blockAt2 V c 0 t) (blockAt2 V c 1 t) (blockAt2 V c 2 t)
    (blockAt2 V c 3 t) (blockAt2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation2 (c : Dev nD) :
    BodyObligation (normData2 (F := F) V c) (defs₀ (F := F)) Variants.none () Set.univ := fun t => by
  rw [bigSep_W2, bigSep_W2]
  exact body_at_point2 V c t

end Cert.Kernel.Hand

end
-- ==== Proof.K.MatmulBody3.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second matrix product, one row block at a time

The second product multiplies the previous layer's normalised features `h : [50000, 64]` by the second weight matrix `W₁ : [64, 64]`, ten grid
points of 5000 rows each. At point `t` the body is handed rows `5000·t … 5000·t + 4999` of `h` (window 0), the whole of
`W₁` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows of `h` for point `t` are in window 0's buffer when the body starts, for any proof data over `V`'s arrays
    whose body leaves that buffer as found: the window is brought in afresh at every point. -/
theorem rows_in_place3 {c : Dev nD} (dat : Dat τ (Elt F) Unit ℕ (UR sig nD τ) ℕ cfg3 c)
    (hA : dat.A 0 = V c (Pipeline.arrRef spec3 0)) (hafter : ∀ t, dat.after 0 t = blockAt3 V c 0 t)
    (t : Fin cfg3.N) (d) : dat.before 0 t d = blockAt3 V c 0 t :=
  (dat.before_in_eq_fetched 0 rfl (fun _ => rfl) (fun _ _ _ => rfl)
      (fun t => by rw [hafter]; unfold Dat.blockOf blockAt3; rw [hA]; try rfl) t d).trans
    (by unfold Dat.fetched Dat.blockOf blockAt3; rw [hA]; try rfl)

/-- The weight matrix is in window 1's buffer when the body starts, at every point: brought in at the first point, and
    at the later ones the window's block index has not moved and the body left the buffer as found. -/
theorem weights_in_place3 {c : Dev nD} (dat : Dat τ (Elt F) Unit ℕ (UR sig nD τ) ℕ cfg3 c)
    (hA : dat.A 1 = V c (Pipeline.arrRef spec3 1)) (hafter : ∀ t, dat.after 1 t = blockAt3 V c 1 t)
    (t : Fin cfg3.N) (d) : dat.before 1 t d = blockAt3 V c 1 t :=
  (dat.before_in_eq_fetched 1 rfl (fun _ => rfl) (fun _ _ _ => rfl)
      (fun t => by rw [hafter]; unfold Dat.blockOf blockAt3; rw [hA]; try rfl) t d).trans
    (by unfold Dat.fetched Dat.blockOf blockAt3; rw [hA]; try rfl)

/-! ## What the body stores -/

/-- The whole of a 5000 × 64 block, and the whole of the 64 × 64 weight block: the only rectangles the body touches. -/
abbrev wholeRows3 : Rect S5000x64 := Rect.unit (s := S5000x64) ![0, 0] S5000x64.size inb_S5000x64_S5000x64_0_0
abbrev wholeWeights3 : Rect S64x64 := Rect.unit (s := S64x64) ![0, 0] S64x64.size inb_S64x64_S64x64_0_0

/-- The output block after the body: its one store, of the product of the two loaded blocks, over the whole block. -/
def productBlock3 (x : Vec F S5000x64 .f32) (wt : Vec F S64x64 .f32) : Vec F S5000x64 .f32 :=
  View.canon [⟨wholeRows3, k3_pay1 (View.ld x wholeRows3) (View.ld wt wholeWeights3)⟩]

/-- That one store covers the block. -/
theorem product_covers3 (p : Vec F S5000x64 .f32) (y : S5000x64.Idx) :
    ∃ pc ∈ ([⟨wholeRows3, p⟩] : List (View.Piece (Elt F) S5000x64 .f32)), y ∈ pc.1.set :=
  View.cover_of_tiled [⟨wholeRows3, p⟩] S5000x64.size (by rfl) y

/-! ## The body's triple -/

set_option maxHeartbeats 1000000 in
/-- On whole buffers — the two inputs at contents `x`, `wt`, the output at anything — the body runs to its continuation
    with the inputs as they were and the output at `productBlock3 x wt`. -/
theorem matmul_body3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock3 x wt)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers3 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => productBlock3 (blockAt3 V c 0 t) (blockAt3 V c 1 t)
  Φ _ := Pipeline.ΦA spec3 c
  q _ := fullShare
  owed _ := 0

theorem productData3_A (c : Dev nD) (w : Fin cfg3.W) : (productData3 V c).A w = V c (Pipeline.arrRef spec3 w) := by
  dsimp only [productData3]

theorem productData3_after_rows (c : Dev nD) (t : Fin cfg3.N) : (productData3 V c).after 0 t = blockAt3 V c 0 t := by
  dsimp only [productData3]
theorem productData3_after_weights (c : Dev nD) (t : Fin cfg3.N) : (productData3 V c).after 1 t = blockAt3 V c 1 t := by
  dsimp only [productData3]
theorem productData3_after_out (c : Dev nD) (t : Fin cfg3.N) :
    (productData3 V c).after 2 t = productBlock3 (blockAt3 V c 0 t) (blockAt3 V c 1 t) := by
  dsimp only [productData3]

theorem productData3_before_rows (c : Dev nD) (t : Fin cfg3.N) (d) : (productData3 V c).before 0 t d = blockAt3 V c 0 t :=
  rows_in_place3 V (productData3 V c) (productData3_A V c 0) (productData3_after_rows V c) t d
theorem productData3_before_weights (c : Dev nD) (t : Fin cfg3.N) (d) : (productData3 V c).before 1 t d = blockAt3 V c 1 t :=
  weights_in_place3 V (productData3 V c) (productData3_A V c 1) (productData3_after_weights V c) t d

/-! ## The body obligation -/

/-- What the body is called with at point `t`: the invariant, the core's dues, and the three windows' current buffers. -/
def bodyGiven3 (c : Dev nD) (t : Fin cfg3.N) : sProp 𝕄 :=
  iprop((productData3 V c).Φ t.castSucc ∗ (productData3 V c).owesAt () t.castSucc
    ∗ (∃ d, owns (c : Thread nD τ) (st3_0 t) fullShare ((productData3 V c).before 0 t d))
    ∗ (∃ d, owns (c : Thread nD τ) (st3_1 t) fullShare ((productData3 V c).before 1 t d))
    ∗ (∃ d, owns (c : Thread nD τ) (st3_2 t) fullShare ((productData3 V c).before 2 t d)))

/-- What it returns. -/
def bodyLeaves3 (c : Dev nD) (t : Fin cfg3.N) : sProp 𝕄 :=
  iprop((productData3 V c).Φ t.succ ∗ (productData3 V c).owesAt () t.succ
    ∗ owns (c : Thread nD τ) (st3_0 t) fullShare ((productData3 V c).after 0 t)
    ∗ owns (c : Thread nD τ) (st3_1 t) fullShare ((productData3 V c).after 1 t)
    ∗ owns (c : Thread nD τ) (st3_2 t) fullShare ((productData3 V c).after 2 t))

/-- At any point the input buffers hold their blocks, so the body's triple applies; the invariant and the dues pass
    through untouched. -/
theorem body_at_point3 (c : Dev nD) (t : Fin cfg3.N) :
    bodyGiven3 V c t ⊢ wp frame (wpE (defs₀ (F := F)) Variants.none c none) Set.univ (bodyAt3 t) (fun _ => bodyLeaves3 V c t) := by
  unfold bodyGiven3 bodyLeaves3 bodyAt3
  simp only [productData3_before_rows, productData3_before_weights]
  rw [show (productData3 V c).Φ t.succ = (productData3 V c).Φ t.castSucc from rfl,
    show (productData3 V c).owesAt () t.succ = (productData3 V c).owesAt () t.castSucc from rfl,
    productData3_after_rows, productData3_after_weights, productData3_after_out]
  iintro ⟨HΦ, Ho, ⟨%d0, H0⟩, ⟨%d1, H1⟩, ⟨%d2, H2⟩⟩
  iapply (matmul_body3 c Set.univ _ _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation3 (c : Dev nD) :
    BodyObligation (productData3 (F := F) V c) (defs₀ (F := F)) Variants.none () Set.univ := fun t => by
  rw [bigSep_W3, bigSep_W3]
  exact body_at_point3 V c t

end Cert.Kernel.Hand

end
-- ==== Proof.K.StatsRuns4.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second layer's activation and column statistics: the body, case by case

At each of ten grid points the body is handed a 5000-row block of the aggregated messages (window 0), the bias row
(window 1), the one-entry slope of the activation (window 2) and the matching block of the layer's input (window 3); it owns two rows of 64 running totals (the column sums and
the column sums of squares) that live across the points. It

* at the FIRST point only, sets both running rows to zero;
* at EVERY point stores the activated block `where(x + b ≥ 0, x + b, a·(x + b))`, plus the layer's input block, into the output block (window 4) and
  adds the block's column sums, and the column sums of its squares, to the two running rows;
* at the LAST point only, copies the two running rows into the two row outputs (windows 5 and 6).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst4 (i : grid4.Coords) : Prop :=
  (Scalar.cmpi .ne (Scalar.extui (Scalar.cmpi .eq (BitVec.ofNat 32 (i 0).val) 0#32)) 0#32) = 1#1
/-- It holds at point 0 of the ten and nowhere else. -/
theorem atFirst4_iff : ∀ t : Fin cfg4.N, atFirst4 (grid4.coords t) ↔ t.val % 10 = 0 :=
  (by decide +kernel : ∀ t : Fin grid4.N, atFirst4 (grid4.coords t) ↔ t.val % 10 = 0)

/-- "This is the last point", as the body computes it. -/
abbrev atLast4 (i : grid4.Coords) : Prop := k4_cond2 i = 1#1
/-- It holds at point 9 of the ten and nowhere else. -/
theorem atLast4_iff : ∀ t : Fin cfg4.N, atLast4 (grid4.coords t) ↔ t.val % 10 = 9 :=
  (by decide +kernel : ∀ t : Fin grid4.N, atLast4 (grid4.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun4_middle (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : ¬atLast4 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun4_first (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst4 i) (hc1 : ¬atLast4 i) (x0 : Vec F S5000x64 .f32) (x1 : Vec F S1x64 .f32) (x2 : Vec F S1x1 .f32) (x3 : Vec F S5000x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The last point: the running rows are added to, then copied out -/

set_option maxHeartbeats 2000000 in
/-- Inputs at their blocks; the running rows at `s`, `q`; the two row outputs at anything. The body stores into the output
    block, into both running rows, and into both row outputs. -/
noncomputable def statsRun4_last (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LYS) ∗ (∃ f, arg7.view.loc (c : Thread nD τ) ↦[arg7.view.set]{fullShare} arg7.view.writes (Elt F) f LYQ)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.StatsData4.lean ====
import proofs.«123467_j2559800508646_1_alg».proof.Proof.K.StatsRuns4

/-!
# The second layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 4) is stored whole and written back at every point. The two row outputs (windows 5 and 6) are
stored at the last point only; at the other nine the body leaves their buffers as found and the pipeline does not write
them back, so nothing is claimed of them there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The block of aggregated messages is in window 0's buffer when the body starts: brought in afresh at every point. -/
theorem agg_in_place4 {c : Dev nD} (dat : Dat τ (Elt F) Unit ℕ (UR sig nD τ) ℕ cfg4 c)
    (hA : dat.A 0 = V c (Pipeline.arrRef spec4 0)) (hafter : ∀ t, dat.after 0 t = blockAt4 V c 0 t)
    (t : Fin cfg4.N) (d) : dat.before 0 t d = blockAt4 V c 0 t :=
  (dat.before_in_eq_fetched 0 rfl (fun _ => rfl) (fun _ _ _ => rfl)
      (fun t => by rw [hafter]; unfold Dat.blockOf blockAt4; rw [hA]; try rfl) t d).trans
    (by unfold Dat.fetched Dat.blockOf blockAt4; rw [hA]; try rfl)

/-- The bias row is in window 1's buffer when the body starts, at every point: brought in at the first point and left as found. -/
theorem bias_in_place4 {c : Dev nD} (dat : Dat τ (Elt F) Unit ℕ (UR sig nD τ) ℕ cfg4 c)
    (hA : dat.A 1 = V c (Pipeline.arrRef spec4 1)) (hafter : ∀ t, dat.after 1 t = blockAt4 V c 1 t)
    (t : Fin cfg4.N) (d) : dat.before 1 t d = blockAt4 V c 1 t :=
  (dat.before_in_eq_fetched 1 rfl (fun _ => rfl) (fun _ _ _ => rfl)
      (fun t => by rw [hafter]; unfold Dat.blockOf blockAt4; rw [hA]; try rfl) t d).trans
    (by unfold Dat.fetched Dat.blockOf blockAt4; rw [hA]; try rfl)

/-- The activation's slope is in window 2's buffer when the body starts, at every point: brought in at the first point and left as found. -/
theorem slope_in_place4 {c : Dev nD} (dat : Dat τ (Elt F) Unit ℕ (UR sig nD τ) ℕ cfg4 c)
    (hA : dat.A 2 = V c (Pipeline.arrRef spec4 2)) (hafter : ∀ t, dat.after 2 t = blockAt4 V c 2 t)
    (t : Fin cfg4.N) (d) : dat.before 2 t d = blockAt4 V c 2 t :=
  (dat.before_in_eq_fetched 2 rfl (fun _ => rfl) (fun _ _ _ => rfl)
      (fun t => by rw [hafter]; unfold Dat.blockOf blockAt4; rw [hA]; try rfl) t d).trans
    (by unfold Dat.fetched Dat.blockOf blockAt4; rw [hA]; try rfl)

/-- The block of the layer's input is in window 3's buffer when the body starts: brought in afresh at every point. -/
theorem residual_in_place4 {c : Dev nD} (dat : Dat τ (Elt F) Unit ℕ (UR sig nD τ) ℕ cfg4 c)
    (hA : dat.A 3 = V c (Pipeline.arrRef spec4 3)) (hafter : ∀ t, dat.after 3 t = blockAt4 V c 3 t)
    (t : Fin cfg4.N) (d) : dat.before 3 t d = blockAt4 V c 3 t :=
  (dat.before_in_eq_fetched 3 rfl (fun _ => rfl) (fun _ _ _ => rfl)
      (fun t => by rw [hafter]; unfold Dat.blockOf blockAt4; rw [hA]; try rfl) t d).trans
    (by unfold Dat.fetched Dat.blockOf blockAt4; rw [hA]; try rfl)

/-! ## The memrefs the body is called with -/

abbrev mem4_0 (t : Fin cfg4.N) : Memref sig .tc .vmem S5000x64 .f32 := win4_0.stage (cfg4.slots t 0)
abbrev hmem4_0 (t : Fin cfg4.N) : (mem4_0 t).IsWhole := hstage4_0 ((cfg4.slots t 0).cast nbuf4_0)
abbrev mem4_1 (t : Fin cfg4.N) : Memref sig .tc .vmem S1x64 .f32 := win4_1.stage (cfg4.slots t 1)
abbrev hmem4_1 (t : Fin cfg4.N) : (mem4_1 t).IsWhole := hstage4_1 ((cfg4.slots t 1).cast nbuf4_1)
abbrev mem4_2 (t : Fin cfg4.N) : Memref sig .tc .vmem S1x1 .f32 := win4_2.stage (cfg4.slots t 2)
abbrev hmem4_2 (t : Fin cfg4.N) : (mem4_2 t).IsWhole := hstage4_2 ((cfg4.slots t 2).cast nbuf4_2)
abbrev mem4_3 (t : Fin cfg4.N) : Memref sig .tc .vmem S5000x64 .f32 := win4_3.stage (cfg4.slots t 3)
abbrev hmem4_3 (t : Fin cfg4.N) : (mem4_3 t).IsWhole := hstage4_3 ((cfg4.slots t 3).cast nbuf4_3)
abbrev mem4_4 (t : Fin cfg4.N) : Memref sig .tc .vmem S5000x64 .f32 := win4_4.stage (cfg4.slots t 4)
abbrev hmem4_4 (t : Fin cfg4.N) : (mem4_4 t).IsWhole := hstage4_4 ((cfg4.slots t 4).cast nbuf4_4)
abbrev mem4_5 (t : Fin cfg4.N) : Memref sig .tc .vmem S1x64 .f32 := win4_5.stage (cfg4.slots t 5)
abbrev hmem4_5 (t : Fin cfg4.N) : (mem4_5 t).IsWhole := hstage4_5 ((cfg4.slots t 5).cast nbuf4_5)
abbrev mem4_6 (t : Fin cfg4.N) : Memref sig .tc .vmem S1x64 .f32 := win4_6.stage (cfg4.slots t 6)
abbrev hmem4_6 (t : Fin cfg4.N) : (mem4_6 t).IsWhole := hstage4_6 ((cfg4.slots t 6).cast nbuf4_6)
/-- The two running rows: whole scoped buffers of the kernel's own. -/
abbrev sumRow4 : Memref sig .tc .vmem S1x64 .f32 := Memref.whole cc4_scratch0
abbrev sqRow4 : Memref sig .tc .vmem S1x64 .f32 := Memref.whole cc4_scratch1

/-- Contents are stated through one fixed view per shape: a list of pieces written over anything, read back. When the
    pieces cover the shape the result depends on neither the view nor the prior contents. -/
abbrev blockView4 : View sig .tc .vmem S5000x64 .f32 := (Memref.whole cc4_stg4_0 : Memref sig .tc .vmem S5000x64 .f32).view
abbrev rowView4 : View sig .tc .vmem S1x64 .f32 := sumRow4.view
def blockOfPieces4 (L : List (View.Piece (Elt F) S5000x64 .f32)) : Vec F S5000x64 .f32 :=
  blockView4.read (Elt F) (blockView4.writes (Elt F) blockView4.junk L)
def rowOfPieces4 (L : List (View.Piece (Elt F) S1x64 .f32)) : Vec F S1x64 .f32 :=
  rowView4.read (Elt F) (rowView4.writes (Elt F) rowView4.junk L)

/-- The kernel's scoped buffers at anything, with the two running rows singled out. -/
theorem invariant_open4 (c : Dev nD) :
    (Pipeline.ΦA spec4 c : sProp 𝕄)
      = iprop(iprop(iprop((∃ d, owns (c : Thread nD τ) sumRow4 fullShare d) ∗ (∃ d, owns (c : Thread nD τ) sqRow4 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sumRow4, sqRow4, owns_whole]; try rfl

/-! ## Which case a point is in -/

theorem first_of_zero4 (t : Fin cfg4.N) (h : t.val = 0) : atFirst4 (grid4.coords t) :=
  (atFirst4_iff t).mpr (by rw [h])
theorem not_first_of_pos4 (t : Fin cfg4.N) (h : t.val ≠ 0) : ¬atFirst4 (grid4.coords t) := fun hf => by
  have h0 := (atFirst4_iff t).mp hf
  have hN : t.val < 10 := lt_of_lt_of_eq t.isLt (show cfg4.N = 10 from N_4)
  omega
theorem last_of4 (t : Fin cfg4.N) (h : t.val % 10 = 9) : atLast4 (grid4.coords t) := (atLast4_iff t).mpr h
theorem not_last_of4 (t : Fin cfg4.N) (h : ¬t.val % 10 = 9) : ¬atLast4 (grid4.coords t) :=
  fun hl => h ((atLast4_iff t).mp hl)

/-- The row outputs are idle, and not written back, away from the last point; live at it. The other windows never idle. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem idle4_5 : ∀ t : Fin cfg4.N, ¬t.val % 10 = 9 → cfg4.idle 5 (grid4.coords t) = true := by decide +kernel
theorem noflush4_5 : ∀ t : Fin cfg4.N, ¬t.val % 10 = 9 → (cfg4.win 5).flush t = false := by decide +kernel
theorem live4_5 : ∀ t : Fin cfg4.N, t.val % 10 = 9 → cfg4.idle 5 (grid4.coords t) = false := by decide +kernel
theorem idle4_6 : ∀ t : Fin cfg4.N, ¬t.val % 10 = 9 → cfg4.idle 6 (grid4.coords t) = true := by decide +kernel
theorem noflush4_6 : ∀ t : Fin cfg4.N, ¬t.val % 10 = 9 → (cfg4.win 6).flush t = false := by decide +kernel
theorem live4_6 : ∀ t : Fin cfg4.N, t.val % 10 = 9 → cfg4.idle 6 (grid4.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter4 (c : Dev nD) : (n : ℕ) → n < cfg4.N →
    Vec F S5000x64 .f32 × Vec F S1x64 .f32 × Vec F S1x64 .f32 × Vec F S1x64 .f32 × Vec F S1x64 .f32
  | 0, hn =>
    let t : Fin cfg4.N := ⟨0, hn⟩
    let R := statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
      (first_of_zero4 t rfl) (not_last_of4 t (by show ¬(0 : ℕ) % 10 = 9; decide)) (blockAt4 V c 0 t) (blockAt4 V c 1 t) (blockAt4 V c 2 t) (blockAt4 V c 3 t)
    (blockOfPieces4 R.1, rowOfPieces4 [], rowOfPieces4 [], rowOfPieces4 R.2.1, rowOfPieces4 R.2.2.1)
  | n + 1, hn =>
    let t : Fin cfg4.N := ⟨n + 1, hn⟩
    let prev := stateAfter4 c n (Nat.lt_of_succ_lt hn)
    if h9 : (n + 1) % 10 = 9 then
      let R := statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
        (not_first_of_pos4 t (Nat.succ_ne_zero n)) (last_of4 t h9) (blockAt4 V c 0 t) (blockAt4 V c 1 t) (blockAt4 V c 2 t) (blockAt4 V c 3 t) prev.2.2.2.1 prev.2.2.2.2
      (blockOfPieces4 R.1, rowOfPieces4 R.2.1, rowOfPieces4 R.2.2.1, rowOfPieces4 R.2.2.2.1, rowOfPieces4 R.2.2.2.2.1)
    else
      let R := statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
        (not_first_of_pos4 t (Nat.succ_ne_zero n)) (not_last_of4 t h9) (blockAt4 V c 0 t) (blockAt4 V c 1 t) (blockAt4 V c 2 t) (blockAt4 V c 3 t) prev.2.2.2.1 prev.2.2.2.2
      (blockOfPieces4 R.1, rowOfPieces4 [], rowOfPieces4 [], rowOfPieces4 R.2.1, rowOfPieces4 R.2.2.1)

/-! ## The recursion, case by case -/

/-- At the first point: the first run's pieces, from anything. -/
theorem stateAfter4_first (c : Dev nD) (t : Fin cfg4.N) (h0 : t.val = 0) (h9 : ¬t.val % 10 = 9) :
    stateAfter4 V c t.val t.isLt =
      (blockOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).1, rowOfPieces4 [], rowOfPieces4 [],
        rowOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).2.1, rowOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).2.2.1) := by
  obtain ⟨n, hn⟩ := t
  cases n with
  | zero => rfl
  | succ n => exact absurd h0 (Nat.succ_ne_zero n)

/-- At a middle point: the middle run's pieces, from the running rows the point before left. -/
theorem stateAfter4_middle (c : Dev nD) (t : Fin cfg4.N) (h0 : t.val ≠ 0) (h9 : ¬t.val % 10 = 9) :
    stateAfter4 V c t.val t.isLt =
      (blockOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).1, rowOfPieces4 [], rowOfPieces4 [],
        rowOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.1, rowOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter4_last (c : Dev nD) (t : Fin cfg4.N) (h0 : t.val ≠ 0) (h9 : t.val % 10 = 9) :
    stateAfter4 V c t.val t.isLt =
      (blockOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.1,
        rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.2.1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt4 (c : Dev nD) : (n : ℕ) → n ≤ cfg4.N → sProp 𝕄
  | 0, _ => Pipeline.ΦA spec4 c
  | n + 1, hn =>
    iprop(iprop(iprop(owns (c : Thread nD τ) sumRow4 fullShare (stateAfter4 V c n hn).2.2.2.1
          ∗ owns (c : Thread nD τ) sqRow4 fullShare (stateAfter4 V c n hn).2.2.2.2)
        ∗ Pipeline.scopedRestBut (Ix := Unit) (Name := ℕ) (U := UR sig nD τ) (Lvl := ℕ) (Val := Elt F) spec4 c [cc4_scratch0, cc4_scratch1])
      ∗ (∃ r, prngReg c r))

theorem invariantAt4_zero (c : Dev nD) (n : ℕ) (h : n ≤ cfg4.N) (hz : n = 0) :
    invariantAt4 V c n h = Pipeline.ΦA spec4 c := by subst hz; rfl

theorem invariantAt4_succ (c : Dev nD) (n : ℕ) (hn : n < cfg4.N) :
    invariantAt4 V c (n + 1) hn =
      iprop(iprop(iprop(owns (c : Thread nD τ) sumRow4 fullShare (stateAfter4 V c n hn).2.2.2.1
          ∗ owns (c : Thread nD τ) sqRow4 fullShare (stateAfter4 V c n hn).2.2.2.2)
        ∗ Pipeline.scopedRestBut (Ix := Unit) (Name := ℕ) (U := UR sig nD τ) (Lvl := ℕ) (Val := Elt F) spec4 c [cc4_scratch0, cc4_scratch1])
      ∗ (∃ r, prngReg c r)) := rfl

theorem invariantAt4_pos (c : Dev nD) (n : ℕ) (h : n ≤ cfg4.N) (hz : n ≠ 0) :
    invariantAt4 V c n h =
      iprop(iprop(iprop(owns (c : Thread nD τ) sumRow4 fullShare (stateAfter4 V c (n - 1) (by omega)).2.2.2.1
          ∗ owns (c : Thread nD τ) sqRow4 fullShare (stateAfter4 V c (n - 1) (by omega)).2.2.2.2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => blockAt4 V c 3 t
    | ⟨4, _⟩ => (stateAfter4 V c t.val t.isLt).1
    | ⟨5, _⟩ => (stateAfter4 V c t.val t.isLt).2.1
    | ⟨6, _⟩ => (stateAfter4 V c t.val t.isLt).2.2.1
  Φ t := invariantAt4 V c t.val (Nat.le_of_lt_succ t.isLt)
  q _ := fullShare
  owed _ := 0

theorem statsData4_A (c : Dev nD) (w : Fin cfg4.W) : (statsData4 V c).A w = V c (Pipeline.arrRef spec4 w) := by
  dsimp only [statsData4]
theorem statsData4_inv (c : Dev nD) (t : Fin cfg4.N) :
    (statsData4 V c).Φ t.castSucc = invariantAt4 V c t.val (Nat.le_of_lt t.isLt) := by
  dsimp only [statsData4]; simp only [Fin.coe_castSucc]
theorem statsData4_after0 (c : Dev nD) (t : Fin cfg4.N) : (statsData4 V c).after 0 t = blockAt4 V c 0 t := by dsimp only [statsData4]
theorem statsData4_after1 (c : Dev nD) (t : Fin cfg4.N) : (statsData4 V c).after 1 t = blockAt4 V c 1 t := by dsimp only [statsData4]
theorem statsData4_after2 (c : Dev nD) (t : Fin cfg4.N) : (statsData4 V c).after 2 t = blockAt4 V c 2 t := by dsimp only [statsData4]
theorem statsData4_after3 (c : Dev nD) (t : Fin cfg4.N) : (statsData4 V c).after 3 t = blockAt4 V c 3 t := by dsimp only [statsData4]
theorem statsData4_after4 (c : Dev nD) (t : Fin cfg4.N) : (statsData4 V c).after 4 t = (stateAfter4 V c t.val t.isLt).1 := by dsimp only [statsData4]
theorem statsData4_after5 (c : Dev nD) (t : Fin cfg4.N) : (statsData4 V c).after 5 t = (stateAfter4 V c t.val t.isLt).2.1 := by dsimp only [statsData4]
theorem statsData4_after6 (c : Dev nD) (t : Fin cfg4.N) : (statsData4 V c).after 6 t = (stateAfter4 V c t.val t.isLt).2.2.1 := by dsimp only [statsData4]
theorem statsData4_before0 (c : Dev nD) (t : Fin cfg4.N) (d) : (statsData4 V c).before 0 t d = blockAt4 V c 0 t :=
  agg_in_place4 V (statsData4 V c) (statsData4_A V c 0) (statsData4_after0 V c) t d
theorem statsData4_before1 (c : Dev nD) (t : Fin cfg4.N) (d) : (statsData4 V c).before 1 t d = blockAt4 V c 1 t :=
  bias_in_place4 V (statsData4 V c) (statsData4_A V c 1) (statsData4_after1 V c) t d
theorem statsData4_before2 (c : Dev nD) (t : Fin cfg4.N) (d) : (statsData4 V c).before 2 t d = blockAt4 V c 2 t :=
  slope_in_place4 V (statsData4 V c) (statsData4_A V c 2) (statsData4_after2 V c) t d
theorem statsData4_before3 (c : Dev nD) (t : Fin cfg4.N) (d) : (statsData4 V c).before 3 t d = blockAt4 V c 3 t :=
  residual_in_place4 V (statsData4 V c) (statsData4_A V c 3) (statsData4_after3 V c) t d

/-! ## The body obligation -/

/-- What the body is called with at point `t`: the invariant, the core's dues, and the windows' current buffers. -/
def bodyGiven4 (c : Dev nD) (t : Fin cfg4.N) : sProp 𝕄 :=
  iprop((statsData4 V c).Φ t.castSucc ∗ (statsData4 V c).owesAt () t.castSucc
    ∗ (∃ d, owns (c : Thread nD τ) (mem4_0 t) fullShare ((statsData4 V c).before 0 t d))
    ∗ (∃ d, owns (c : Thread nD τ) (mem4_1 t) fullShare ((statsData4 V c).before 1 t d))
    ∗ (∃ d, owns (c : Thread nD τ) (mem4_2 t) fullShare ((statsData4 V c).before 2 t d))
    ∗ (∃ d, owns (c : Thread nD τ) (mem4_3 t) fullShare ((statsData4 V c).before 3 t d))
    ∗ (∃ d, owns (c : Thread nD τ) (mem4_4 t) fullShare ((statsData4 V c).before 4 t d))
    ∗ (∃ d, owns (c : Thread nD τ) (mem4_5 t) fullShare ((statsData4 V c).before 5 t d))
    ∗ (∃ d, owns (c : Thread nD τ) (mem4_6 t) fullShare ((statsData4 V c).before 6 t d)))

/-- What it returns: the invariant after the point, the dues, and each window's buffer as the obligation describes it —
    at the named contents where the window is live or written back, as found where it is idle. -/
def bodyLeaves4 (c : Dev nD) (t : Fin cfg4.N) : sProp 𝕄 :=
  iprop((statsData4 V c).Φ t.succ ∗ (statsData4 V c).owesAt () t.succ
    ∗ (statsData4 V c).leavesExact 0 t
    ∗ (statsData4 V c).leavesExact 1 t
    ∗ (statsData4 V c).leavesExact 2 t
    ∗ (statsData4 V c).leavesExact 3 t
    ∗ (statsData4 V c).leavesExact 4 t
    ∗ (statsData4 V c).leavesExact 5 t
    ∗ (statsData4 V c).leavesExact 6 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point4 (c : Dev nD) (t : Fin cfg4.N) :
    bodyGiven4 V c t ⊢ wp frame (wpE (defs₀ (F := F)) Variants.none c none) Set.univ (bodyAt4 t) (fun _ => bodyLeaves4 V c t) := by
  unfold bodyGiven4 bodyLeaves4 bodyAt4
  simp only [statsData4_before0, statsData4_before1, statsData4_before2, statsData4_before3]
  rw [show (statsData4 V c).owesAt () t.succ = (statsData4 V c).owesAt () t.castSucc from rfl]
  rw [show (statsData4 V c).Φ t.succ = invariantAt4 V c (t.val + 1) t.isLt from rfl, invariantAt4_succ]
  rw [show (statsData4 V c).leavesExact 0 t = owns (c : Thread nD τ) (mem4_0 t) fullShare ((statsData4 V c).after 0 t) from by
    unfold Dat.leavesExact; rw [live4_0 t], statsData4_after0]
  rw [show (statsData4 V c).leavesExact 1 t = owns (c : Thread nD τ) (mem4_1 t) fullShare ((statsData4 V c).after 1 t) from by
    unfold Dat.leavesExact; rw [live4_1 t], statsData4_after1]
  rw [show (statsData4 V c).leavesExact 2 t = owns (c : Thread nD τ) (mem4_2 t) fullShare ((statsData4 V c).after 2 t) from by
    unfold Dat.leavesExact; rw [live4_2 t], statsData4_after2]
  rw [show (statsData4 V c).leavesExact 3 t = owns (c : Thread nD τ) (mem4_3 t) fullShare ((statsData4 V c).after 3 t) from by
    unfold Dat.leavesExact; rw [live4_3 t], statsData4_after3]
  rw [show (statsData4 V c).leavesExact 4 t = owns (c : Thread nD τ) (mem4_4 t) fullShare ((statsData4 V c).after 4 t) from by
    unfold Dat.leavesExact; rw [live4_4 t], statsData4_after4]
  have hN : t.val < 10 := lt_of_lt_of_eq t.isLt (show cfg4.N = 10 from N_4)
  by_cases h9 : t.val % 10 = 9
  · -- the last point
    have h0 : t.val ≠ 0 := by omega
    rw [show (statsData4 V c).leavesExact 5 t = owns (c : Thread nD τ) (mem4_5 t) fullShare ((statsData4 V c).after 5 t) from by
      unfold Dat.leavesExact; rw [live4_5 t h9], statsData4_after5]
    rw [show (statsData4 V c).leavesExact 6 t = owns (c : Thread nD τ) (mem4_6 t) fullShare ((statsData4 V c).after 6 t) from by
      unfold Dat.leavesExact; rw [live4_6 t h9], statsData4_after6]
    rw [stateAfter4_last V c t h0 h9]
    (try dsimp only)
    rw [statsData4_inv V c t, invariantAt4_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((statsRun4_last (F := F) c (grid4.coords t) _ _ _ _ _ _ _ _ _ _ _ _ _ _ _ _ _ _ (not_first_of_pos4 t h0) (last_of4 t h9) (blockAt4 V c 0 t) (blockAt4 V c 1 t) (blockAt4 V c 2 t) (blockAt4 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    isplitl [HQ]; · iexact HQ
    iintro ⟨H0, H1, H2, H3, ⟨%e4, H4⟩, ⟨%e5, H5⟩, ⟨%e6, H6⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · iexact H3
    isplitl [H4]; · (unfold owns; iexists _; isplitr; swap; iexact H4; ipureintro; exact View.read_writes_of_cover _ _ _ _ _ (fun y => View.cover_of_tiledL _ S5000x64.size (by sl_kernel_rfl) y))
    isplitl [H5]; · (unfold owns; iexists _; isplitr; swap; iexact H5; ipureintro; exact View.read_writes_of_cover _ _ _ _ _ (fun y => View.cover_of_tiledL _ S1x64.size (by sl_kernel_rfl) y))
    (unfold owns; iexists _; isplitr; swap; iexact H6; ipureintro; exact View.read_writes_of_cover _ _ _ _ _ (fun y => View.cover_of_tiledL _ S1x64.size (by sl_kernel_rfl) y))
  · -- not the last point: the two row outputs go back as found
    rw [Dat.leavesExact_idle (statsData4 V c) 5 t (idle4_5 t h9) (noflush4_5 t h9)]
    rw [Dat.leavesExact_idle (statsData4 V c) 6 t (idle4_6 t h9) (noflush4_6 t h9)]
    by_cases h0 : t.val = 0
    · -- the first point
      rw [stateAfter4_first V c t h0 h9]
      (try dsimp only)
      rw [statsData4_inv V c t, invariantAt4_zero V c _ _ h0, invariant_open4]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun4_first (F := F) c (grid4.coords t) _ _ _ _ _ _ _ _ _ _ _ _ _ _ _ _ _ _ (first_of_zero4 t h0) (not_last_of4 t h9) (blockAt4 V c 0 t) (blockAt4 V c 1 t) (blockAt4 V c 2 t) (blockAt4 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6
    · -- a middle point
      rw [stateAfter4_middle V c t h0 h9]
      (try dsimp only)
      rw [statsData4_inv V c t, invariantAt4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun4_middle (F := F) c (grid4.coords t) _ _ _ _ _ _ _ _ _ _ _ _ _ _ _ _ _ _ (not_first_of_pos4 t h0) (not_last_of4 t h9) (blockAt4 V c 0 t) (blockAt4 V c 1 t) (blockAt4 V c 2 t) (blockAt4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6

/-- The library's body obligation for the call, at every point. -/
theorem body_obligation4 (c : Dev nD) :
    BodyObligation (statsData4 (F := F) V c) (defs₀ (F := F)) Variants.none () Set.univ := fun t => by
  rw [bigSep_W4, bigSep_W4]
  exact body_at_point4 V c t

/-- What the call is handed on entry is the invariant before the first point. -/
theorem invariant_in4 (c : Dev nD) : Pipeline.ΦA spec4 c ⊢ (statsData4 V c).Φ 0 := by
  rw [show (statsData4 V c).Φ 0 = invariantAt4 V c 0 (Nat.zero_le _) from rfl, invariantAt4_zero V c 0 _ rfl]
  try exact Idealize.SL.BI.Entails.refl _

/-- After the last point the invariant gives the kernel's scoped buffers back at anything: the running rows' values are
    forgotten. -/
theorem invariant_out4 (c : Dev nD) : (statsData4 V c).Φ (Fin.last cfg4.N) ⊢ Pipeline.ΦA spec4 c := by
  have hne : (Fin.last cfg4.N).val ≠ 0 := by rw [Fin.val_last]; have : cfg4.N = 10 := N_4; omega
  rw [show (statsData4 V c).Φ (Fin.last cfg4.N) = invariantAt4 V c (Fin.last cfg4.N).val (Nat.le_of_lt_succ (Fin.last cfg4.N).isLt) from rfl,
    invariantAt4_pos V c _ _ hne, invariant_open4]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.Kernel.Hand

end
-- ==== Proof.K.NormBody5.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The rows of `h` for point `t` are in window 0's buffer when the body starts, for any proof data over `V`'s arrays
    whose body leaves that buffer as found: the window is brought in afresh at every point. -/
theorem rows_in_place5 {c : Dev nD} (dat : Dat τ (Elt F) Unit ℕ (UR sig nD τ) ℕ cfg5 c)
    (hA : dat.A 0 = V c (Pipeline.arrRef spec5 0)) (hafter : ∀ t, dat.after 0 t = blockAt5 V c 0 t)
    (t : Fin cfg5.N) (d) : dat.before 0 t d = blockAt5 V c 0 t :=
  (dat.before_in_eq_fetched 0 rfl (fun _ => rfl) (fun _ _ _ => rfl)
      (fun t => by rw [hafter]; unfold Dat.blockOf blockAt5; rw [hA]; try rfl) t d).trans
    (by unfold Dat.fetched Dat.blockOf blockAt5; rw [hA]; try rfl)

/-- The mean row is in window 1's buffer when the body starts, at every point: brought in at the first point, and at the
    later ones the window's block index has not moved and the body left the buffer as found. -/
theorem mean_in_place5 {c : Dev nD} (dat : Dat τ (Elt F) Unit ℕ (UR sig nD τ) ℕ cfg5 c)
    (hA : dat.A 1 = V c (Pipeline.arrRef spec5 1)) (hafter : ∀ t, dat.after 1 t = blockAt5 V c 1 t)
    (t : Fin cfg5.N) (d) : dat.before 1 t d = blockAt5 V c 1 t :=
  (dat.before_in_eq_fetched 1 rfl (fun _ => rfl) (fun _ _ _ => rfl)
      (fun t => by rw [hafter]; unfold Dat.blockOf blockAt5; rw [hA]; try rfl) t d).trans
    (by unfold Dat.fetched Dat.blockOf blockAt5; rw [hA]; try rfl)

/-- The variance row is in window 2's buffer when the body starts, at every point: brought in at the first point, and at the
    later ones the window's block index has not moved and the body left the buffer as found. -/
theorem variance_in_place5 {c : Dev nD} (dat : Dat τ (Elt F) Unit ℕ (UR sig nD τ) ℕ cfg5 c)
    (hA : dat.A 2 = V c (Pipeline.arrRef spec5 2)) (hafter : ∀ t, dat.after 2 t = blockAt5 V c 2 t)
    (t : Fin cfg5.N) (d) : dat.before 2 t d = blockAt5 V c 2 t :=
  (dat.before_in_eq_fetched 2 rfl (fun _ => rfl) (fun _ _ _ => rfl)
      (fun t => by rw [hafter]; unfold Dat.blockOf blockAt5; rw [hA]; try rfl) t d).trans
    (by unfold Dat.fetched Dat.blockOf blockAt5; rw [hA]; try rfl)

/-- The gamma row is in window 3's buffer when the body starts, at every point: brought in at the first point, and at the
    later ones the window's block index has not moved and the body left the buffer as found. -/
theorem gamma_in_place5 {c : Dev nD} (dat : Dat τ (Elt F) Unit ℕ (UR sig nD τ) ℕ cfg5 c)
    (hA : dat.A 3 = V c (Pipeline.arrRef spec5 3)) (hafter : ∀ t, dat.after 3 t = blockAt5 V c 3 t)
    (t : Fin cfg5.N) (d) : dat.before 3 t d = blockAt5 V c 3 t :=
  (dat.before_in_eq_fetched 3 rfl (fun _ => rfl) (fun _ _ _ => rfl)
      (fun t => by rw [hafter]; unfold Dat.blockOf blockAt5; rw [hA]; try rfl) t d).trans
    (by unfold Dat.fetched Dat.blockOf blockAt5; rw [hA]; try rfl)

/-- The beta row is in window 4's buffer when the body starts, at every point: brought in at the first point, and at the
    later ones the window's block index has not moved and the body left the buffer as found. -/
theorem beta_in_place5 {c : Dev nD} (dat : Dat τ (Elt F) Unit ℕ (UR sig nD τ) ℕ cfg5 c)
    (hA : dat.A 4 = V c (Pipeline.arrRef spec5 4)) (hafter : ∀ t, dat.after 4 t = blockAt5 V c 4 t)
    (t : Fin cfg5.N) (d) : dat.before 4 t d = blockAt5 V c 4 t :=
  (dat.before_in_eq_fetched 4 rfl (fun _ => rfl) (fun _ _ _ => rfl)
      (fun t => by rw [hafter]; unfold Dat.blockOf blockAt5; rw [hA]; try rfl) t d).trans
    (by unfold Dat.fetched Dat.blockOf blockAt5; rw [hA]; try rfl)

/-! ## What the body stores -/

/-- The whole of a 5000 × 64 block and the whole of a 1 × 64 row: the only rectangles the body touches. -/
abbrev wholeRows5 : Rect S5000x64 := Rect.unit (s := S5000x64) ![0, 0] S5000x64.size inb_S5000x64_S5000x64_0_0
abbrev wholeRow5 : Rect S1x64 := Rect.unit (s := S1x64) ![0, 0] S1x64.size inb_S1x64_S1x64_0_0

/-- The output block after the body: its one store, of the normalised rows, over the whole block. -/
def normalisedBlock5 (x : Vec F S5000x64 .f32) (mu vr ga be : Vec F S1x64 .f32) : Vec F S5000x64 .f32 :=
  View.canon [⟨wholeRows5, k5_pay1 (View.ld vr wholeRow5) (View.ld ga wholeRow5) (View.ld x wholeRows5)
    (View.ld mu wholeRow5) (View.ld be wholeRow5)⟩]

/-- That one store covers the block. -/
theorem normalised_covers5 (p : Vec F S5000x64 .f32) (y : S5000x64.Idx) :
    ∃ pc ∈ ([⟨wholeRows5, p⟩] : List (View.Piece (Elt F) S5000x64 .f32)), y ∈ pc.1.set :=
  View.cover_of_tiled [⟨wholeRows5, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock5 x mu vr ga be`. -/
theorem bn_body5 (c : Dev nD) (E : Set ℕ) (i : grid5.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock5 x mu vr ga be)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers5 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => blockAt5 V c 2 t
    | ⟨3, _⟩ => blockAt5 V c 3 t
    | ⟨4, _⟩ => blockAt5 V c 4 t
    | ⟨5, _⟩ => normalisedBlock5 (blockAt5 V c 0 t) (blockAt5 V c 1 t) (blockAt5 V c 2 t) (blockAt5 V c 3 t) (blockAt5 V c 4 t)
  Φ _ := Pipeline.ΦA spec5 c
  q _ := fullShare
  owed _ := 0

theorem normData5_A (c : Dev nD) (w : Fin cfg5.W) : (normData5 V c).A w = V c (Pipeline.arrRef spec5 w) := by
  dsimp only [normData5]

theorem normData5_after0 (c : Dev nD) (t : Fin cfg5.N) : (normData5 V c).after 0 t = blockAt5 V c 0 t := by dsimp only [normData5]
theorem normData5_after1 (c : Dev nD) (t : Fin cfg5.N) : (normData5 V c).after 1 t = blockAt5 V c 1 t := by dsimp only [normData5]
theorem normData5_after2 (c : Dev nD) (t : Fin cfg5.N) : (normData5 V c).after 2 t = blockAt5 V c 2 t := by dsimp only [normData5]
theorem normData5_after3 (c : Dev nD) (t : Fin cfg5.N) : (normData5 V c).after 3 t = blockAt5 V c 3 t := by dsimp only [normData5]
theorem normData5_after4 (c : Dev nD) (t : Fin cfg5.N) : (normData5 V c).after 4 t = blockAt5 V c 4 t := by dsimp only [normData5]
theorem normData5_after_out (c : Dev nD) (t : Fin cfg5.N) :
    (normData5 V c).after 5 t = normalisedBlock5 (blockAt5 V c 0 t) (blockAt5 V c 1 t) (blockAt5 V c 2 t)
      (blockAt5 V c 3 t) (blockAt5 V c 4 t) := by
  dsimp only [normData5]

theorem normData5_before0 (c : Dev nD) (t : Fin cfg5.N) (d) : (normData5 V c).before 0 t d = blockAt5 V c 0 t :=
  rows_in_place5 V (normData5 V c) (normData5_A V c 0) (normData5_after0 V c) t d
theorem normData5_before1 (c : Dev nD) (t : Fin cfg5.N) (d) : (normData5 V c).before 1 t d = blockAt5 V c 1 t :=
  mean_in_place5 V (normData5 V c) (normData5_A V c 1) (normData5_after1 V c) t d
theorem normData5_before2 (c : Dev nD) (t : Fin cfg5.N) (d) : (normData5 V c).before 2 t d = blockAt5 V c 2 t :=
  variance_in_place5 V (normData5 V c) (normData5_A V c 2) (normData5_after2 V c) t d
theorem normData5_before3 (c : Dev nD) (t : Fin cfg5.N) (d) : (normData5 V c).before 3 t d = blockAt5 V c 3 t :=
  gamma_in_place5 V (normData5 V c) (normData5_A V c 3) (normData5_after3 V c) t d
theorem normData5_before4 (c : Dev nD) (t : Fin cfg5.N) (d) : (normData5 V c).before 4 t d = blockAt5 V c 4 t :=
  beta_in_place5 V (normData5 V c) (normData5_A V c 4) (normData5_after4 V c) t d

/-! ## The body obligation -/

/-- What the body is called with at point `t`: the invariant, the core's dues, and the six windows' current buffers. -/
def bodyGiven5 (c : Dev nD) (t : Fin cfg5.N) : sProp 𝕄 :=
  iprop((normData5 V c).Φ t.castSucc ∗ (normData5 V c).owesAt () t.castSucc
    ∗ (∃ d, owns (c : Thread nD τ) (st5_0 t) fullShare ((normData5 V c).before 0 t d))
    ∗ (∃ d, owns (c : Thread nD τ) (st5_1 t) fullShare ((normData5 V c).before 1 t d))
    ∗ (∃ d, owns (c : Thread nD τ) (st5_2 t) fullShare ((normData5 V c).before 2 t d))
    ∗ (∃ d, owns (c : Thread nD τ) (st5_3 t) fullShare ((normData5 V c).before 3 t d))
    ∗ (∃ d, owns (c : Thread nD τ) (st5_4 t) fullShare ((normData5 V c).before 4 t d))
    ∗ (∃ d, owns (c : Thread nD τ) (st5_5 t) fullShare ((normData5 V c).before 5 t d)))

/-- What it returns. -/
def bodyLeaves5 (c : Dev nD) (t : Fin cfg5.N) : sProp 𝕄 :=
  iprop((normData5 V c).Φ t.succ ∗ (normData5 V c).owesAt () t.succ
    ∗ owns (c : Thread nD τ) (st5_0 t) fullShare ((normData5 V c).after 0 t)
    ∗ owns (c : Thread nD τ) (st5_1 t) fullShare ((normData5 V c).after 1 t)
    ∗ owns (c : Thread nD τ) (st5_2 t) fullShare ((normData5 V c).after 2 t)
    ∗ owns (c : Thread nD τ) (st5_3 t) fullShare ((normData5 V c).after 3 t)
    ∗ owns (c : Thread nD τ) (st5_4 t) fullShare ((normData5 V c).after 4 t)
    ∗ owns (c : Thread nD τ) (st5_5 t) fullShare ((normData5 V c).after 5 t))

/-- At any point the input buffers hold their blocks, so the body's triple applies; the invariant and the dues pass
    through untouched. -/
theorem body_at_point5 (c : Dev nD) (t : Fin cfg5.N) :
    bodyGiven5 V c t ⊢ wp frame (wpE (defs₀ (F := F)) Variants.none c none) Set.univ (bodyAt5 t) (fun _ => bodyLeaves5 V c t) := by
  unfold bodyGiven5 bodyLeaves5 bodyAt5
  simp only [normData5_before0, normData5_before1, normData5_before2, normData5_before3, normData5_before4]
  rw [show (normData5 V c).Φ t.succ = (normData5 V c).Φ t.castSucc from rfl,
    show (normData5 V c).owesAt () t.succ = (normData5 V c).owesAt () t.castSucc from rfl,
    normData5_after0, normData5_after1, normData5_after2, normData5_after3, normData5_after4, normData5_after_out]
  iintro ⟨HΦ, Ho, ⟨%d0, H0⟩, ⟨%d1, H1⟩, ⟨%d2, H2⟩, ⟨%d3, H3⟩, ⟨%d4, H4⟩, ⟨%d5, H5⟩⟩
  iapply (bn_body5 c Set.univ _ _ _ _ _ _ _ _ _ _ _ _ _ (blockAt5 V c 0 t) (blockAt5 V c 1 t) (blockAt5 V c 2 t)
    (blockAt5 V c 3 t) (blockAt5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation5 (c : Dev nD) :
    BodyObligation (normData5 (F := F) V c) (defs₀ (F := F)) Variants.none () Set.univ := fun t => by
  rw [bigSep_W5, bigSep_W5]
  exact body_at_point5 V c t

end Cert.Kernel.Hand

end
-- ==== Proof.K.MatmulBody6.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third matrix product, one row block at a time

The third product multiplies the previous layer's normalised features `h : [50000, 64]` by the third weight matrix `W₂ : [64, 64]`, ten grid
points of 5000 rows each. At point `t` the body is handed rows `5000·t … 5000·t + 4999` of `h` (window 0), the whole of
`W₂` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The rows of `h` for point `t` are in window 0's buffer when the body starts, for any proof data over `V`'s arrays
    whose body leaves that buffer as found: the window is brought in afresh at every point. -/
theorem rows_in_place6 {c : Dev nD} (dat : Dat τ (Elt F) Unit ℕ (UR sig nD τ) ℕ cfg6 c)
    (hA : dat.A 0 = V c (Pipeline.arrRef spec6 0)) (hafter : ∀ t, dat.after 0 t = blockAt6 V c 0 t)
    (t : Fin cfg6.N) (d) : dat.before 0 t d = blockAt6 V c 0 t :=
  (dat.before_in_eq_fetched 0 rfl (fun _ => rfl) (fun _ _ _ => rfl)
      (fun t => by rw [hafter]; unfold Dat.blockOf blockAt6; rw [hA]; try rfl) t d).trans
    (by unfold Dat.fetched Dat.blockOf blockAt6; rw [hA]; try rfl)

/-- The weight matrix is in window 1's buffer when the body starts, at every point: brought in at the first point, and
    at the later ones the window's block index has not moved and the body left the buffer as found. -/
theorem weights_in_place6 {c : Dev nD} (dat : Dat τ (Elt F) Unit ℕ (UR sig nD τ) ℕ cfg6 c)
    (hA : dat.A 1 = V c (Pipeline.arrRef spec6 1)) (hafter : ∀ t, dat.after 1 t = blockAt6 V c 1 t)
    (t : Fin cfg6.N) (d) : dat.before 1 t d = blockAt6 V c 1 t :=
  (dat.before_in_eq_fetched 1 rfl (fun _ => rfl) (fun _ _ _ => rfl)
      (fun t => by rw [hafter]; unfold Dat.blockOf blockAt6; rw [hA]; try rfl) t d).trans
    (by unfold Dat.fetched Dat.blockOf blockAt6; rw [hA]; try rfl)

/-! ## What the body stores -/

/-- The whole of a 5000 × 64 block, and the whole of the 64 × 64 weight block: the only rectangles the body touches. -/
abbrev wholeRows6 : Rect S5000x64 := Rect.unit (s := S5000x64) ![0, 0] S5000x64.size inb_S5000x64_S5000x64_0_0
abbrev wholeWeights6 : Rect S64x64 := Rect.unit (s := S64x64) ![0, 0] S64x64.size inb_S64x64_S64x64_0_0

/-- The output block after the body: its one store, of the product of the two loaded blocks, over the whole block. -/
def productBlock6 (x : Vec F S5000x64 .f32) (wt : Vec F S64x64 .f32) : Vec F S5000x64 .f32 :=
  View.canon [⟨wholeRows6, k6_pay1 (View.ld x wholeRows6) (View.ld wt wholeWeights6)⟩]

/-- That one store covers the block. -/
theorem product_covers6 (p : Vec F S5000x64 .f32) (y : S5000x64.Idx) :
    ∃ pc ∈ ([⟨wholeRows6, p⟩] : List (View.Piece (Elt F) S5000x64 .f32)), y ∈ pc.1.set :=
  View.cover_of_tiled [⟨wholeRows6, p⟩] S5000x64.size (by rfl) y

/-! ## The body's triple -/

set_option maxHeartbeats 1000000 in
/-- On whole buffers — the two inputs at contents `x`, `wt`, the output at anything — the body runs to its continuation
    with the inputs as they were and the output at `productBlock6 x wt`. -/
theorem matmul_body6 (c : Dev nD) (E : Set ℕ) (i : grid6.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock6 x wt)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers6 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => productBlock6 (blockAt6 V c 0 t) (blockAt6 V c 1 t)
  Φ _ := Pipeline.ΦA spec6 c
  q _ := fullShare
  owed _ := 0

theorem productData6_A (c : Dev nD) (w : Fin cfg6.W) : (productData6 V c).A w = V c (Pipeline.arrRef spec6 w) := by
  dsimp only [productData6]

theorem productData6_after_rows (c : Dev nD) (t : Fin cfg6.N) : (productData6 V c).after 0 t = blockAt6 V c 0 t := by
  dsimp only [productData6]
theorem productData6_after_weights (c : Dev nD) (t : Fin cfg6.N) : (productData6 V c).after 1 t = blockAt6 V c 1 t := by
  dsimp only [productData6]
theorem productData6_after_out (c : Dev nD) (t : Fin cfg6.N) :
    (productData6 V c).after 2 t = productBlock6 (blockAt6 V c 0 t) (blockAt6 V c 1 t) := by
  dsimp only [productData6]

theorem productData6_before_rows (c : Dev nD) (t : Fin cfg6.N) (d) : (productData6 V c).before 0 t d = blockAt6 V c 0 t :=
  rows_in_place6 V (productData6 V c) (productData6_A V c 0) (productData6_after_rows V c) t d
theorem productData6_before_weights (c : Dev nD) (t : Fin cfg6.N) (d) : (productData6 V c).before 1 t d = blockAt6 V c 1 t :=
  weights_in_place6 V (productData6 V c) (productData6_A V c 1) (productData6_after_weights V c) t d

/-! ## The body obligation -/

/-- What the body is called with at point `t`: the invariant, the core's dues, and the three windows' current buffers. -/
def bodyGiven6 (c : Dev nD) (t : Fin cfg6.N) : sProp 𝕄 :=
  iprop((productData6 V c).Φ t.castSucc ∗ (productData6 V c).owesAt () t.castSucc
    ∗ (∃ d, owns (c : Thread nD τ) (st6_0 t) fullShare ((productData6 V c).before 0 t d))
    ∗ (∃ d, owns (c : Thread nD τ) (st6_1 t) fullShare ((productData6 V c).before 1 t d))
    ∗ (∃ d, owns (c : Thread nD τ) (st6_2 t) fullShare ((productData6 V c).before 2 t d)))

/-- What it returns. -/
def bodyLeaves6 (c : Dev nD) (t : Fin cfg6.N) : sProp 𝕄 :=
  iprop((productData6 V c).Φ t.succ ∗ (productData6 V c).owesAt () t.succ
    ∗ owns (c : Thread nD τ) (st6_0 t) fullShare ((productData6 V c).after 0 t)
    ∗ owns (c : Thread nD τ) (st6_1 t) fullShare ((productData6 V c).after 1 t)
    ∗ owns (c : Thread nD τ) (st6_2 t) fullShare ((productData6 V c).after 2 t))

/-- At any point the input buffers hold their blocks, so the body's triple applies; the invariant and the dues pass
    through untouched. -/
theorem body_at_point6 (c : Dev nD) (t : Fin cfg6.N) :
    bodyGiven6 V c t ⊢ wp frame (wpE (defs₀ (F := F)) Variants.none c none) Set.univ (bodyAt6 t) (fun _ => bodyLeaves6 V c t) := by
  unfold bodyGiven6 bodyLeaves6 bodyAt6
  simp only [productData6_before_rows, productData6_before_weights]
  rw [show (productData6 V c).Φ t.succ = (productData6 V c).Φ t.castSucc from rfl,
    show (productData6 V c).owesAt () t.succ = (productData6 V c).owesAt () t.castSucc from rfl,
    productData6_after_rows, productData6_after_weights, productData6_after_out]
  iintro ⟨HΦ, Ho, ⟨%d0, H0⟩, ⟨%d1, H1⟩, ⟨%d2, H2⟩⟩
  iapply (matmul_body6 c Set.univ _ _ _ _ _ _ _ (blockAt6 V c 0 t) (blockAt6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation6 (c : Dev nD) :
    BodyObligation (productData6 (F := F) V c) (defs₀ (F := F)) Variants.none () Set.univ := fun t => by
  rw [bigSep_W6, bigSep_W6]
  exact body_at_point6 V c t

end Cert.Kernel.Hand

end
-- ==== Proof.K.StatsRuns7.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third layer's activation and column statistics: the body, case by case

At each of ten grid points the body is handed a 5000-row block of the aggregated messages (window 0), the bias row
(window 1), the one-entry slope of the activation (window 2) and the matching block of the layer's input (window 3); it owns two rows of 64 running totals (the column sums and
the column sums of squares) that live across the points. It

* at the FIRST point only, sets both running rows to zero;
* at EVERY point stores the activated block `where(x + b ≥ 0, x + b, a·(x + b))`, plus the layer's input block, into the output block (window 4) and
  adds the block's column sums, and the column sums of its squares, to the two running rows;
* at the LAST point only, copies the two running rows into the two row outputs (windows 5 and 6).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst7 (i : grid7.Coords) : Prop :=
  (Scalar.cmpi .ne (Scalar.extui (Scalar.cmpi .eq (BitVec.ofNat 32 (i 0).val) 0#32)) 0#32) = 1#1
/-- It holds at point 0 of the ten and nowhere else. -/
theorem atFirst7_iff : ∀ t : Fin cfg7.N, atFirst7 (grid7.coords t) ↔ t.val % 10 = 0 :=
  (by decide +kernel : ∀ t : Fin grid7.N, atFirst7 (grid7.coords t) ↔ t.val % 10 = 0)

/-- "This is the last point", as the body computes it. -/
abbrev atLast7 (i : grid7.Coords) : Prop := k7_cond2 i = 1#1
/-- It holds at point 9 of the ten and nowhere else. -/
theorem atLast7_iff : ∀ t : Fin cfg7.N, atLast7 (grid7.coords t) ↔ t.val % 10 = 9 :=
  (by decide +kernel : ∀ t : Fin grid7.N, atLast7 (grid7.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun7_middle (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun7_first (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i) (x0 : Vec F S5000x64 .f32) (x1 : Vec F S1x64 .f32) (x2 : Vec F S1x1 .f32) (x3 : Vec F S5000x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The last point: the running rows are added to, then copied out -/

set_option maxHeartbeats 2000000 in
/-- Inputs at their blocks; the running rows at `s`, `q`; the two row outputs at anything. The body stores into the output
    block, into both running rows, and into both row outputs. -/
noncomputable def statsRun7_last (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LYS) ∗ (∃ f, arg7.view.loc (c : Thread nD τ) ↦[arg7.view.set]{fullShare} arg7.view.writes (Elt F) f LYQ)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.StatsData7.lean ====
import proofs.«123467_j2559800508646_1_alg».proof.Proof.K.StatsRuns7

/-!
# The third layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 4) is stored whole and written back at every point. The two row outputs (windows 5 and 6) are
stored at the last point only; at the other nine the body leaves their buffers as found and the pipeline does not write
them back, so nothing is claimed of them there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The block of aggregated messages is in window 0's buffer when the body starts: brought in afresh at every point. -/
theorem agg_in_place7 {c : Dev nD} (dat : Dat τ (Elt F) Unit ℕ (UR sig nD τ) ℕ cfg7 c)
    (hA : dat.A 0 = V c (Pipeline.arrRef spec7 0)) (hafter : ∀ t, dat.after 0 t = blockAt7 V c 0 t)
    (t : Fin cfg7.N) (d) : dat.before 0 t d = blockAt7 V c 0 t :=
  (dat.before_in_eq_fetched 0 rfl (fun _ => rfl) (fun _ _ _ => rfl)
      (fun t => by rw [hafter]; unfold Dat.blockOf blockAt7; rw [hA]; try rfl) t d).trans
    (by unfold Dat.fetched Dat.blockOf blockAt7; rw [hA]; try rfl)

/-- The bias row is in window 1's buffer when the body starts, at every point: brought in at the first point and left as found. -/
theorem bias_in_place7 {c : Dev nD} (dat : Dat τ (Elt F) Unit ℕ (UR sig nD τ) ℕ cfg7 c)
    (hA : dat.A 1 = V c (Pipeline.arrRef spec7 1)) (hafter : ∀ t, dat.after 1 t = blockAt7 V c 1 t)
    (t : Fin cfg7.N) (d) : dat.before 1 t d = blockAt7 V c 1 t :=
  (dat.before_in_eq_fetched 1 rfl (fun _ => rfl) (fun _ _ _ => rfl)
      (fun t => by rw [hafter]; unfold Dat.blockOf blockAt7; rw [hA]; try rfl) t d).trans
    (by unfold Dat.fetched Dat.blockOf blockAt7; rw [hA]; try rfl)

/-- The activation's slope is in window 2's buffer when the body starts, at every point: brought in at the first point and left as found. -/
theorem slope_in_place7 {c : Dev nD} (dat : Dat τ (Elt F) Unit ℕ (UR sig nD τ) ℕ cfg7 c)
    (hA : dat.A 2 = V c (Pipeline.arrRef spec7 2)) (hafter : ∀ t, dat.after 2 t = blockAt7 V c 2 t)
    (t : Fin cfg7.N) (d) : dat.before 2 t d = blockAt7 V c 2 t :=
  (dat.before_in_eq_fetched 2 rfl (fun _ => rfl) (fun _ _ _ => rfl)
      (fun t => by rw [hafter]; unfold Dat.blockOf blockAt7; rw [hA]; try rfl) t d).trans
    (by unfold Dat.fetched Dat.blockOf blockAt7; rw [hA]; try rfl)

/-- The block of the layer's input is in window 3's buffer when the body starts: brought in afresh at every point. -/
theorem residual_in_place7 {c : Dev nD} (dat : Dat τ (Elt F) Unit ℕ (UR sig nD τ) ℕ cfg7 c)
    (hA : dat.A 3 = V c (Pipeline.arrRef spec7 3)) (hafter : ∀ t, dat.after 3 t = blockAt7 V c 3 t)
    (t : Fin cfg7.N) (d) : dat.before 3 t d = blockAt7 V c 3 t :=
  (dat.before_in_eq_fetched 3 rfl (fun _ => rfl) (fun _ _ _ => rfl)
      (fun t => by rw [hafter]; unfold Dat.blockOf blockAt7; rw [hA]; try rfl) t d).trans
    (by unfold Dat.fetched Dat.blockOf blockAt7; rw [hA]; try rfl)

/-! ## The memrefs the body is called with -/

abbrev mem7_0 (t : Fin cfg7.N) : Memref sig .tc .vmem S5000x64 .f32 := win7_0.stage (cfg7.slots t 0)
abbrev hmem7_0 (t : Fin cfg7.N) : (mem7_0 t).IsWhole := hstage7_0 ((cfg7.slots t 0).cast nbuf7_0)
abbrev mem7_1 (t : Fin cfg7.N) : Memref sig .tc .vmem S1x64 .f32 := win7_1.stage (cfg7.slots t 1)
abbrev hmem7_1 (t : Fin cfg7.N) : (mem7_1 t).IsWhole := hstage7_1 ((cfg7.slots t 1).cast nbuf7_1)
abbrev mem7_2 (t : Fin cfg7.N) : Memref sig .tc .vmem S1x1 .f32 := win7_2.stage (cfg7.slots t 2)
abbrev hmem7_2 (t : Fin cfg7.N) : (mem7_2 t).IsWhole := hstage7_2 ((cfg7.slots t 2).cast nbuf7_2)
abbrev mem7_3 (t : Fin cfg7.N) : Memref sig .tc .vmem S5000x64 .f32 := win7_3.stage (cfg7.slots t 3)
abbrev hmem7_3 (t : Fin cfg7.N) : (mem7_3 t).IsWhole := hstage7_3 ((cfg7.slots t 3).cast nbuf7_3)
abbrev mem7_4 (t : Fin cfg7.N) : Memref sig .tc .vmem S5000x64 .f32 := win7_4.stage (cfg7.slots t 4)
abbrev hmem7_4 (t : Fin cfg7.N) : (mem7_4 t).IsWhole := hstage7_4 ((cfg7.slots t 4).cast nbuf7_4)
abbrev mem7_5 (t : Fin cfg7.N) : Memref sig .tc .vmem S1x64 .f32 := win7_5.stage (cfg7.slots t 5)
abbrev hmem7_5 (t : Fin cfg7.N) : (mem7_5 t).IsWhole := hstage7_5 ((cfg7.slots t 5).cast nbuf7_5)
abbrev mem7_6 (t : Fin cfg7.N) : Memref sig .tc .vmem S1x64 .f32 := win7_6.stage (cfg7.slots t 6)
abbrev hmem7_6 (t : Fin cfg7.N) : (mem7_6 t).IsWhole := hstage7_6 ((cfg7.slots t 6).cast nbuf7_6)
/-- The two running rows: whole scoped buffers of the kernel's own. -/
abbrev sumRow7 : Memref sig .tc .vmem S1x64 .f32 := Memref.whole cc7_scratch0
abbrev sqRow7 : Memref sig .tc .vmem S1x64 .f32 := Memref.whole cc7_scratch1

/-- Contents are stated through one fixed view per shape: a list of pieces written over anything, read back. When the
    pieces cover the shape the result depends on neither the view nor the prior contents. -/
abbrev blockView7 : View sig .tc .vmem S5000x64 .f32 := (Memref.whole cc7_stg4_0 : Memref sig .tc .vmem S5000x64 .f32).view
abbrev rowView7 : View sig .tc .vmem S1x64 .f32 := sumRow7.view
def blockOfPieces7 (L : List (View.Piece (Elt F) S5000x64 .f32)) : Vec F S5000x64 .f32 :=
  blockView7.read (Elt F) (blockView7.writes (Elt F) blockView7.junk L)
def rowOfPieces7 (L : List (View.Piece (Elt F) S1x64 .f32)) : Vec F S1x64 .f32 :=
  rowView7.read (Elt F) (rowView7.writes (Elt F) rowView7.junk L)

/-- The kernel's scoped buffers at anything, with the two running rows singled out. -/
theorem invariant_open7 (c : Dev nD) :
    (Pipeline.ΦA spec7 c : sProp 𝕄)
      = iprop(iprop(iprop((∃ d, owns (c : Thread nD τ) sumRow7 fullShare d) ∗ (∃ d, owns (c : Thread nD τ) sqRow7 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [sumRow7, sqRow7, owns_whole]; try rfl

/-! ## Which case a point is in -/

theorem first_of_zero7 (t : Fin cfg7.N) (h : t.val = 0) : atFirst7 (grid7.coords t) :=
  (atFirst7_iff t).mpr (by rw [h])
theorem not_first_of_pos7 (t : Fin cfg7.N) (h : t.val ≠ 0) : ¬atFirst7 (grid7.coords t) := fun hf => by
  have h0 := (atFirst7_iff t).mp hf
  have hN : t.val < 10 := lt_of_lt_of_eq t.isLt (show cfg7.N = 10 from N_7)
  omega
theorem last_of7 (t : Fin cfg7.N) (h : t.val % 10 = 9) : atLast7 (grid7.coords t) := (atLast7_iff t).mpr h
theorem not_last_of7 (t : Fin cfg7.N) (h : ¬t.val % 10 = 9) : ¬atLast7 (grid7.coords t) :=
  fun hl => h ((atLast7_iff t).mp hl)

/-- The row outputs are idle, and not written back, away from the last point; live at it. The other windows never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
theorem idle7_5 : ∀ t : Fin cfg7.N, ¬t.val % 10 = 9 → cfg7.idle 5 (grid7.coords t) = true := by decide +kernel
theorem noflush7_5 : ∀ t : Fin cfg7.N, ¬t.val % 10 = 9 → (cfg7.win 5).flush t = false := by decide +kernel
theorem live7_5 : ∀ t : Fin cfg7.N, t.val % 10 = 9 → cfg7.idle 5 (grid7.coords t) = false := by decide +kernel
theorem idle7_6 : ∀ t : Fin cfg7.N, ¬t.val % 10 = 9 → cfg7.idle 6 (grid7.coords t) = true := by decide +kernel
theorem noflush7_6 : ∀ t : Fin cfg7.N, ¬t.val % 10 = 9 → (cfg7.win 6).flush t = false := by decide +kernel
theorem live7_6 : ∀ t : Fin cfg7.N, t.val % 10 = 9 → cfg7.idle 6 (grid7.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter7 (c : Dev nD) : (n : ℕ) → n < cfg7.N →
    Vec F S5000x64 .f32 × Vec F S1x64 .f32 × Vec F S1x64 .f32 × Vec F S1x64 .f32 × Vec F S1x64 .f32
  | 0, hn =>
    let t : Fin cfg7.N := ⟨0, hn⟩
    let R := statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
      (first_of_zero7 t rfl) (not_last_of7 t (by show ¬(0 : ℕ) % 10 = 9; decide)) (blockAt7 V c 0 t) (blockAt7 V c 1 t) (blockAt7 V c 2 t) (blockAt7 V c 3 t)
    (blockOfPieces7 R.1, rowOfPieces7 [], rowOfPieces7 [], rowOfPieces7 R.2.1, rowOfPieces7 R.2.2.1)
  | n + 1, hn =>
    let t : Fin cfg7.N := ⟨n + 1, hn⟩
    let prev := stateAfter7 c n (Nat.lt_of_succ_lt hn)
    if h9 : (n + 1) % 10 = 9 then
      let R := statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
        (not_first_of_pos7 t (Nat.succ_ne_zero n)) (last_of7 t h9) (blockAt7 V c 0 t) (blockAt7 V c 1 t) (blockAt7 V c 2 t) (blockAt7 V c 3 t) prev.2.2.2.1 prev.2.2.2.2
      (blockOfPieces7 R.1, rowOfPieces7 R.2.1, rowOfPieces7 R.2.2.1, rowOfPieces7 R.2.2.2.1, rowOfPieces7 R.2.2.2.2.1)
    else
      let R := statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
        (not_first_of_pos7 t (Nat.succ_ne_zero n)) (not_last_of7 t h9) (blockAt7 V c 0 t) (blockAt7 V c 1 t) (blockAt7 V c 2 t) (blockAt7 V c 3 t) prev.2.2.2.1 prev.2.2.2.2
      (blockOfPieces7 R.1, rowOfPieces7 [], rowOfPieces7 [], rowOfPieces7 R.2.1, rowOfPieces7 R.2.2.1)

/-! ## The recursion, case by case -/

/-- At the first point: the first run's pieces, from anything. -/
theorem stateAfter7_first (c : Dev nD) (t : Fin cfg7.N) (h0 : t.val = 0) (h9 : ¬t.val % 10 = 9) :
    stateAfter7 V c t.val t.isLt =
      (blockOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).1, rowOfPieces7 [], rowOfPieces7 [],
        rowOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).2.1, rowOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).2.2.1) := by
  obtain ⟨n, hn⟩ := t
  cases n with
  | zero => rfl
  | succ n => exact absurd h0 (Nat.succ_ne_zero n)

/-- At a middle point: the middle run's pieces, from the running rows the point before left. -/
theorem stateAfter7_middle (c : Dev nD) (t : Fin cfg7.N) (h0 : t.val ≠ 0) (h9 : ¬t.val % 10 = 9) :
    stateAfter7 V c t.val t.isLt =
      (blockOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).1, rowOfPieces7 [], rowOfPieces7 [],
        rowOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.1, rowOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter7_last (c : Dev nD) (t : Fin cfg7.N) (h0 : t.val ≠ 0) (h9 : t.val % 10 = 9) :
    stateAfter7 V c t.val t.isLt =
      (blockOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.1,
        rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.2.1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt7 (c : Dev nD) : (n : ℕ) → n ≤ cfg7.N → sProp 𝕄
  | 0, _ => Pipeline.ΦA spec7 c
  | n + 1, hn =>
    iprop(iprop(iprop(owns (c : Thread nD τ) sumRow7 fullShare (stateAfter7 V c n hn).2.2.2.1
          ∗ owns (c : Thread nD τ) sqRow7 fullShare (stateAfter7 V c n hn).2.2.2.2)
        ∗ Pipeline.scopedRestBut (Ix := Unit) (Name := ℕ) (U := UR sig nD τ) (Lvl := ℕ) (Val := Elt F) spec7 c [cc7_scratch0, cc7_scratch1])
      ∗ (∃ r, prngReg c r))

theorem invariantAt7_zero (c : Dev nD) (n : ℕ) (h : n ≤ cfg7.N) (hz : n = 0) :
    invariantAt7 V c n h = Pipeline.ΦA spec7 c := by subst hz; rfl

theorem invariantAt7_succ (c : Dev nD) (n : ℕ) (hn : n < cfg7.N) :
    invariantAt7 V c (n + 1) hn =
      iprop(iprop(iprop(owns (c : Thread nD τ) sumRow7 fullShare (stateAfter7 V c n hn).2.2.2.1
          ∗ owns (c : Thread nD τ) sqRow7 fullShare (stateAfter7 V c n hn).2.2.2.2)
        ∗ Pipeline.scopedRestBut (Ix := Unit) (Name := ℕ) (U := UR sig nD τ) (Lvl := ℕ) (Val := Elt F) spec7 c [cc7_scratch0, cc7_scratch1])
      ∗ (∃ r, prngReg c r)) := rfl

theorem invariantAt7_pos (c : Dev nD) (n : ℕ) (h : n ≤ cfg7.N) (hz : n ≠ 0) :
    invariantAt7 V c n h =
      iprop(iprop(iprop(owns (c : Thread nD τ) sumRow7 fullShare (stateAfter7 V c (n - 1) (by omega)).2.2.2.1
          ∗ owns (c : Thread nD τ) sqRow7 fullShare (stateAfter7 V c (n - 1) (by omega)).2.2.2.2)
        ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => blockAt7 V c 2 t
    | ⟨3, _⟩ => blockAt7 V c 3 t
    | ⟨4, _⟩ => (stateAfter7 V c t.val t.isLt).1
    | ⟨5, _⟩ => (stateAfter7 V c t.val t.isLt).2.1
    | ⟨6, _⟩ => (stateAfter7 V c t.val t.isLt).2.2.1
  Φ t := invariantAt7 V c t.val (Nat.le_of_lt_succ t.isLt)
  q _ := fullShare
  owed _ := 0

theorem statsData7_A (c : Dev nD) (w : Fin cfg7.W) : (statsData7 V c).A w = V c (Pipeline.arrRef spec7 w) := by
  dsimp only [statsData7]
theorem statsData7_inv (c : Dev nD) (t : Fin cfg7.N) :
    (statsData7 V c).Φ t.castSucc = invariantAt7 V c t.val (Nat.le_of_lt t.isLt) := by
  dsimp only [statsData7]; simp only [Fin.coe_castSucc]
theorem statsData7_after0 (c : Dev nD) (t : Fin cfg7.N) : (statsData7 V c).after 0 t = blockAt7 V c 0 t := by dsimp only [statsData7]
theorem statsData7_after1 (c : Dev nD) (t : Fin cfg7.N) : (statsData7 V c).after 1 t = blockAt7 V c 1 t := by dsimp only [statsData7]
theorem statsData7_after2 (c : Dev nD) (t : Fin cfg7.N) : (statsData7 V c).after 2 t = blockAt7 V c 2 t := by dsimp only [statsData7]
theorem statsData7_after3 (c : Dev nD) (t : Fin cfg7.N) : (statsData7 V c).after 3 t = blockAt7 V c 3 t := by dsimp only [statsData7]
theorem statsData7_after4 (c : Dev nD) (t : Fin cfg7.N) : (statsData7 V c).after 4 t = (stateAfter7 V c t.val t.isLt).1 := by dsimp only [statsData7]
theorem statsData7_after5 (c : Dev nD) (t : Fin cfg7.N) : (statsData7 V c).after 5 t = (stateAfter7 V c t.val t.isLt).2.1 := by dsimp only [statsData7]
theorem statsData7_after6 (c : Dev nD) (t : Fin cfg7.N) : (statsData7 V c).after 6 t = (stateAfter7 V c t.val t.isLt).2.2.1 := by dsimp only [statsData7]
theorem statsData7_before0 (c : Dev nD) (t : Fin cfg7.N) (d) : (statsData7 V c).before 0 t d = blockAt7 V c 0 t :=
  agg_in_place7 V (statsData7 V c) (statsData7_A V c 0) (statsData7_after0 V c) t d
theorem statsData7_before1 (c : Dev nD) (t : Fin cfg7.N) (d) : (statsData7 V c).before 1 t d = blockAt7 V c 1 t :=
  bias_in_place7 V (statsData7 V c) (statsData7_A V c 1) (statsData7_after1 V c) t d
theorem statsData7_before2 (c : Dev nD) (t : Fin cfg7.N) (d) : (statsData7 V c).before 2 t d = blockAt7 V c 2 t :=
  slope_in_place7 V (statsData7 V c) (statsData7_A V c 2) (statsData7_after2 V c) t d
theorem statsData7_before3 (c : Dev nD) (t : Fin cfg7.N) (d) : (statsData7 V c).before 3 t d = blockAt7 V c 3 t :=
  residual_in_place7 V (statsData7 V c) (statsData7_A V c 3) (statsData7_after3 V c) t d

/-! ## The body obligation -/

/-- What the body is called with at point `t`: the invariant, the core's dues, and the windows' current buffers. -/
def bodyGiven7 (c : Dev nD) (t : Fin cfg7.N) : sProp 𝕄 :=
  iprop((statsData7 V c).Φ t.castSucc ∗ (statsData7 V c).owesAt () t.castSucc
    ∗ (∃ d, owns (c : Thread nD τ) (mem7_0 t) fullShare ((statsData7 V c).before 0 t d))
    ∗ (∃ d, owns (c : Thread nD τ) (mem7_1 t) fullShare ((statsData7 V c).before 1 t d))
    ∗ (∃ d, owns (c : Thread nD τ) (mem7_2 t) fullShare ((statsData7 V c).before 2 t d))
    ∗ (∃ d, owns (c : Thread nD τ) (mem7_3 t) fullShare ((statsData7 V c).before 3 t d))
    ∗ (∃ d, owns (c : Thread nD τ) (mem7_4 t) fullShare ((statsData7 V c).before 4 t d))
    ∗ (∃ d, owns (c : Thread nD τ) (mem7_5 t) fullShare ((statsData7 V c).before 5 t d))
    ∗ (∃ d, owns (c : Thread nD τ) (mem7_6 t) fullShare ((statsData7 V c).before 6 t d)))

/-- What it returns: the invariant after the point, the dues, and each window's buffer as the obligation describes it —
    at the named contents where the window is live or written back, as found where it is idle. -/
def bodyLeaves7 (c : Dev nD) (t : Fin cfg7.N) : sProp 𝕄 :=
  iprop((statsData7 V c).Φ t.succ ∗ (statsData7 V c).owesAt () t.succ
    ∗ (statsData7 V c).leavesExact 0 t
    ∗ (statsData7 V c).leavesExact 1 t
    ∗ (statsData7 V c).leavesExact 2 t
    ∗ (statsData7 V c).leavesExact 3 t
    ∗ (statsData7 V c).leavesExact 4 t
    ∗ (statsData7 V c).leavesExact 5 t
    ∗ (statsData7 V c).leavesExact 6 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point7 (c : Dev nD) (t : Fin cfg7.N) :
    bodyGiven7 V c t ⊢ wp frame (wpE (defs₀ (F := F)) Variants.none c none) Set.univ (bodyAt7 t) (fun _ => bodyLeaves7 V c t) := by
  unfold bodyGiven7 bodyLeaves7 bodyAt7
  simp only [statsData7_before0, statsData7_before1, statsData7_before2, statsData7_before3]
  rw [show (statsData7 V c).owesAt () t.succ = (statsData7 V c).owesAt () t.castSucc from rfl]
  rw [show (statsData7 V c).Φ t.succ = invariantAt7 V c (t.val + 1) t.isLt from rfl, invariantAt7_succ]
  rw [show (statsData7 V c).leavesExact 0 t = owns (c : Thread nD τ) (mem7_0 t) fullShare ((statsData7 V c).after 0 t) from by
    unfold Dat.leavesExact; rw [live7_0 t], statsData7_after0]
  rw [show (statsData7 V c).leavesExact 1 t = owns (c : Thread nD τ) (mem7_1 t) fullShare ((statsData7 V c).after 1 t) from by
    unfold Dat.leavesExact; rw [live7_1 t], statsData7_after1]
  rw [show (statsData7 V c).leavesExact 2 t = owns (c : Thread nD τ) (mem7_2 t) fullShare ((statsData7 V c).after 2 t) from by
    unfold Dat.leavesExact; rw [live7_2 t], statsData7_after2]
  rw [show (statsData7 V c).leavesExact 3 t = owns (c : Thread nD τ) (mem7_3 t) fullShare ((statsData7 V c).after 3 t) from by
    unfold Dat.leavesExact; rw [live7_3 t], statsData7_after3]
  rw [show (statsData7 V c).leavesExact 4 t = owns (c : Thread nD τ) (mem7_4 t) fullShare ((statsData7 V c).after 4 t) from by
    unfold Dat.leavesExact; rw [live7_4 t], statsData7_after4]
  have hN : t.val < 10 := lt_of_lt_of_eq t.isLt (show cfg7.N = 10 from N_7)
  by_cases h9 : t.val % 10 = 9
  · -- the last point
    have h0 : t.val ≠ 0 := by omega
    rw [show (statsData7 V c).leavesExact 5 t = owns (c : Thread nD τ) (mem7_5 t) fullShare ((statsData7 V c).after 5 t) from by
      unfold Dat.leavesExact; rw [live7_5 t h9], statsData7_after5]
    rw [show (statsData7 V c).leavesExact 6 t = owns (c : Thread nD τ) (mem7_6 t) fullShare ((statsData7 V c).after 6 t) from by
      unfold Dat.leavesExact; rw [live7_6 t h9], statsData7_after6]
    rw [stateAfter7_last V c t h0 h9]
    (try dsimp only)
    rw [statsData7_inv V c t, invariantAt7_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((statsRun7_last (F := F) c (grid7.coords t) _ _ _ _ _ _ _ _ _ _ _ _ _ _ _ _ _ _ (not_first_of_pos7 t h0) (last_of7 t h9) (blockAt7 V c 0 t) (blockAt7 V c 1 t) (blockAt7 V c 2 t) (blockAt7 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    isplitl [HQ]; · iexact HQ
    iintro ⟨H0, H1, H2, H3, ⟨%e4, H4⟩, ⟨%e5, H5⟩, ⟨%e6, H6⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · iexact H3
    isplitl [H4]; · (unfold owns; iexists _; isplitr; swap; iexact H4; ipureintro; exact View.read_writes_of_cover _ _ _ _ _ (fun y => View.cover_of_tiledL _ S5000x64.size (by sl_kernel_rfl) y))
    isplitl [H5]; · (unfold owns; iexists _; isplitr; swap; iexact H5; ipureintro; exact View.read_writes_of_cover _ _ _ _ _ (fun y => View.cover_of_tiledL _ S1x64.size (by sl_kernel_rfl) y))
    (unfold owns; iexists _; isplitr; swap; iexact H6; ipureintro; exact View.read_writes_of_cover _ _ _ _ _ (fun y => View.cover_of_tiledL _ S1x64.size (by sl_kernel_rfl) y))
  · -- not the last point: the two row outputs go back as found
    rw [Dat.leavesExact_idle (statsData7 V c) 5 t (idle7_5 t h9) (noflush7_5 t h9)]
    rw [Dat.leavesExact_idle (statsData7 V c) 6 t (idle7_6 t h9) (noflush7_6 t h9)]
    by_cases h0 : t.val = 0
    · -- the first point
      rw [stateAfter7_first V c t h0 h9]
      (try dsimp only)
      rw [statsData7_inv V c t, invariantAt7_zero V c _ _ h0, invariant_open7]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun7_first (F := F) c (grid7.coords t) _ _ _ _ _ _ _ _ _ _ _ _ _ _ _ _ _ _ (first_of_zero7 t h0) (not_last_of7 t h9) (blockAt7 V c 0 t) (blockAt7 V c 1 t) (blockAt7 V c 2 t) (blockAt7 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6
    · -- a middle point
      rw [stateAfter7_middle V c t h0 h9]
      (try dsimp only)
      rw [statsData7_inv V c t, invariantAt7_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun7_middle (F := F) c (grid7.coords t) _ _ _ _ _ _ _ _ _ _ _ _ _ _ _ _ _ _ (not_first_of_pos7 t h0) (not_last_of7 t h9) (blockAt7 V c 0 t) (blockAt7 V c 1 t) (blockAt7 V c 2 t) (blockAt7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6

/-- The library's body obligation for the call, at every point. -/
theorem body_obligation7 (c : Dev nD) :
    BodyObligation (statsData7 (F := F) V c) (defs₀ (F := F)) Variants.none () Set.univ := fun t => by
  rw [bigSep_W7, bigSep_W7]
  exact body_at_point7 V c t

/-- What the call is handed on entry is the invariant before the first point. -/
theorem invariant_in7 (c : Dev nD) : Pipeline.ΦA spec7 c ⊢ (statsData7 V c).Φ 0 := by
  rw [show (statsData7 V c).Φ 0 = invariantAt7 V c 0 (Nat.zero_le _) from rfl, invariantAt7_zero V c 0 _ rfl]
  try exact Idealize.SL.BI.Entails.refl _

/-- After the last point the invariant gives the kernel's scoped buffers back at anything: the running rows' values are
    forgotten. -/
theorem invariant_out7 (c : Dev nD) : (statsData7 V c).Φ (Fin.last cfg7.N) ⊢ Pipeline.ΦA spec7 c := by
  have hne : (Fin.last cfg7.N).val ≠ 0 := by rw [Fin.val_last]; have : cfg7.N = 10 := N_7; omega
  rw [show (statsData7 V c).Φ (Fin.last cfg7.N) = invariantAt7 V c (Fin.last cfg7.N).val (Nat.le_of_lt_succ (Fin.last cfg7.N).isLt) from rfl,
    invariantAt7_pos V c _ _ hne, invariant_open7]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.Kernel.Hand

end
-- ==== Proof.K.NormBody8.lean ====
import proofs.«123467_j2559800508646_1_alg».proof.Proof.Gen.Kernel.Launch
import proofs.«123467_j2559800508646_1_alg».proof.Proof.Gen.Kernel.Skeleton
import proofs.«123467_j2559800508646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The rows of `h` for point `t` are in window 0's buffer when the body starts, for any proof data over `V`'s arrays
    whose body leaves that buffer as found: the window is brought in afresh at every point. -/
theorem rows_in_place8 {c : Dev nD} (dat : Dat τ (Elt F) Unit ℕ (UR sig nD τ) ℕ cfg8 c)
    (hA : dat.A 0 = V c (Pipeline.arrRef spec8 0)) (hafter : ∀ t, dat.after 0 t = blockAt8 V c 0 t)
    (t : Fin cfg8.N) (d) : dat.before 0 t d = blockAt8 V c 0 t :=
  (dat.before_in_eq_fetched 0 rfl (fun _ => rfl) (fun _ _ _ => rfl)
      (fun t => by rw [hafter]; unfold Dat.blockOf blockAt8; rw [hA]; try rfl) t d).trans
    (by unfold Dat.fetched Dat.blockOf blockAt8; rw [hA]; try rfl)

/-- The mean row is in window 1's buffer when the body starts, at every point: brought in at the first point, and at the
    later ones the window's block index has not moved and the body left the buffer as found. -/
theorem mean_in_place8 {c : Dev nD} (dat : Dat τ (Elt F) Unit ℕ (UR sig nD τ) ℕ cfg8 c)
    (hA : dat.A 1 = V c (Pipeline.arrRef spec8 1)) (hafter : ∀ t, dat.after 1 t = blockAt8 V c 1 t)
    (t : Fin cfg8.N) (d) : dat.before 1 t d = blockAt8 V c 1 t :=
  (dat.before_in_eq_fetched 1 rfl (fun _ => rfl) (fun _ _ _ => rfl)
      (fun t => by rw [hafter]; unfold Dat.blockOf blockAt8; rw [hA]; try rfl) t d).trans
    (by unfold Dat.fetched Dat.blockOf blockAt8; rw [hA]; try rfl)

/-- The variance row is in window 2's buffer when the body starts, at every point: brought in at the first point, and at the
    later ones the window's block index has not moved and the body left the buffer as found. -/
theorem variance_in_place8 {c : Dev nD} (dat : Dat τ (Elt F) Unit ℕ (UR sig nD τ) ℕ cfg8 c)
    (hA : dat.A 2 = V c (Pipeline.arrRef spec8 2)) (hafter : ∀ t, dat.after 2 t = blockAt8 V c 2 t)
    (t : Fin cfg8.N) (d) : dat.before 2 t d = blockAt8 V c 2 t :=
  (dat.before_in_eq_fetched 2 rfl (fun _ => rfl) (fun _ _ _ => rfl)
      (fun t => by rw [hafter]; unfold Dat.blockOf blockAt8; rw [hA]; try rfl) t d).trans
    (by unfold Dat.fetched Dat.blockOf blockAt8; rw [hA]; try rfl)

/-- The gamma row is in window 3's buffer when the body starts, at every point: brought in at the first point, and at the
    later ones the window's block index has not moved and the body left the buffer as found. -/
theorem gamma_in_place8 {c : Dev nD} (dat : Dat τ (Elt F) Unit ℕ (UR sig nD τ) ℕ cfg8 c)
    (hA : dat.A 3 = V c (Pipeline.arrRef spec8 3)) (hafter : ∀ t, dat.after 3 t = blockAt8 V c 3 t)
    (t : Fin cfg8.N) (d) : dat.before 3 t d = blockAt8 V c 3 t :=
  (dat.before_in_eq_fetched 3 rfl (fun _ => rfl) (fun _ _ _ => rfl)
      (fun t => by rw [hafter]; unfold Dat.blockOf blockAt8; rw [hA]; try rfl) t d).trans
    (by unfold Dat.fetched Dat.blockOf blockAt8; rw [hA]; try rfl)

/-- The beta row is in window 4's buffer when the body starts, at every point: brought in at the first point, and at the
    later ones the window's block index has not moved and the body left the buffer as found. -/
theorem beta_in_place8 {c : Dev nD} (dat : Dat τ (Elt F) Unit ℕ (UR sig nD τ) ℕ cfg8 c)
    (hA : dat.A 4 = V c (Pipeline.arrRef spec8 4)) (hafter : ∀ t, dat.after 4 t = blockAt8 V c 4 t)
    (t : Fin cfg8.N) (d) : dat.before 4 t d = blockAt8 V c 4 t :=
  (dat.before_in_eq_fetched 4 rfl (fun _ => rfl) (fun _ _ _ => rfl)
      (fun t => by rw [hafter]; unfold Dat.blockOf blockAt8; rw [hA]; try rfl) t d).trans
    (by unfold Dat.fetched Dat.blockOf blockAt8; rw [hA]; try rfl)

/-! ## What the body stores -/

/-- The whole of a 5000 × 64 block and the whole of a 1 × 64 row: the only rectangles the body touches. -/
abbrev wholeRows8 : Rect S5000x64 := Rect.unit (s := S5000x64) ![0, 0] S5000x64.size inb_S5000x64_S5000x64_0_0
abbrev wholeRow8 : Rect S1x64 := Rect.unit (s := S1x64) ![0, 0] S1x64.size inb_S1x64_S1x64_0_0

/-- The output block after the body: its one store, of the normalised rows, over the whole block. -/
def normalisedBlock8 (x : Vec F S5000x64 .f32) (mu vr ga be : Vec F S1x64 .f32) : Vec F S5000x64 .f32 :=
  View.canon [⟨wholeRows8, k8_pay1 (View.ld vr wholeRow8) (View.ld ga wholeRow8) (View.ld x wholeRows8)
    (View.ld mu wholeRow8) (View.ld be wholeRow8)⟩]

/-- That one store covers the block. -/
theorem normalised_covers8 (p : Vec F S5000x64 .f32) (y : S5000x64.Idx) :
    ∃ pc ∈ ([⟨wholeRows8, p⟩] : List (View.Piece (Elt F) S5000x64 .f32)), y ∈ pc.1.set :=
  View.cover_of_tiled [⟨wholeRows8, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock8 x mu vr ga be`. -/
theorem bn_body8 (c : Dev nD) (E : Set ℕ) (i : grid8.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock8 x mu vr ga be)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers8 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => blockAt8 V c 2 t
    | ⟨3, _⟩ => blockAt8 V c 3 t
    | ⟨4, _⟩ => blockAt8 V c 4 t
    | ⟨5, _⟩ => normalisedBlock8 (blockAt8 V c 0 t) (blockAt8 V c 1 t) (blockAt8 V c 2 t) (blockAt8 V c 3 t) (blockAt8 V c 4 t)
  Φ _ := Pipeline.ΦA spec8 c
  q _ := fullShare
  owed _ := 0

theorem normData8_A (c : Dev nD) (w : Fin cfg8.W) : (normData8 V c).A w = V c (Pipeline.arrRef spec8 w) := by
  dsimp only [normData8]

theorem normData8_after0 (c : Dev nD) (t : Fin cfg8.N) : (normData8 V c).after 0 t = blockAt8 V c 0 t := by dsimp only [normData8]
theorem normData8_after1 (c : Dev nD) (t : Fin cfg8.N) : (normData8 V c).after 1 t = blockAt8 V c 1 t := by dsimp only [normData8]
theorem normData8_after2 (c : Dev nD) (t : Fin cfg8.N) : (normData8 V c).after 2 t = blockAt8 V c 2 t := by dsimp only [normData8]
theorem normData8_after3 (c : Dev nD) (t : Fin cfg8.N) : (normData8 V c).after 3 t = blockAt8 V c 3 t := by dsimp only [normData8]
theorem normData8_after4 (c : Dev nD) (t : Fin cfg8.N) : (normData8 V c).after 4 t = blockAt8 V c 4 t := by dsimp only [normData8]
theorem normData8_after_out (c : Dev nD) (t : Fin cfg8.N) :
    (normData8 V c).after 5 t = normalisedBlock8 (blockAt8 V c 0 t) (blockAt8 V c 1 t) (blockAt8 V c 2 t)
      (blockAt8 V c 3 t) (blockAt8 V c 4 t) := by
  dsimp only [normData8]

theorem normData8_before0 (c : Dev nD) (t : Fin cfg8.N) (d) : (normData8 V c).before 0 t d = blockAt8 V c 0 t :=
  rows_in_place8 V (normData8 V c) (normData8_A V c 0) (normData8_after0 V c) t d
theorem normData8_before1 (c : Dev nD) (t : Fin cfg8.N) (d) : (normData8 V c).before 1 t d = blockAt8 V c 1 t :=
  mean_in_place8 V (normData8 V c) (normData8_A V c 1) (normData8_after1 V c) t d
theorem normData8_before2 (c : Dev nD) (t : Fin cfg8.N) (d) : (normData8 V c).before 2 t d = blockAt8 V c 2 t :=
  variance_in_place8 V (normData8 V c) (normData8_A V c 2) (normData8_after2 V c) t d
theorem normData8_before3 (c : Dev nD) (t : Fin cfg8.N) (d) : (normData8 V c).before 3 t d = blockAt8 V c 3 t :=
  gamma_in_place8 V (normData8 V c) (normData8_A V c 3) (normData8_after3 V c) t d
theorem normData8_before4 (c : Dev nD) (t : Fin cfg8.N) (d) : (normData8 V c).before 4 t d = blockAt8 V c 4 t :=
  beta_in_place8 V (normData8 V c) (normData8_A V c 4) (normData8_after4 V c) t d

/-! ## The body obligation -/

/-- What the body is called with at point `t`: the invariant, the core's dues, and the six windows' current buffers. -/
def bodyGiven8 (c : Dev nD) (t : Fin cfg8.N) : sProp 𝕄 :=
  iprop((normData8 V c).Φ t.castSucc ∗ (normData8 V c).owesAt () t.castSucc
    ∗ (∃ d, owns (c : Thread nD τ) (st8_0 t) fullShare ((normData8 V c).before 0 t d))
    ∗ (∃ d, owns (c : Thread nD τ) (st8_1 t) fullShare ((normData8 V c).before 1 t d))
    ∗ (∃ d, owns (c : Thread nD τ) (st8_2 t) fullShare ((normData8 V c).before 2 t d))
    ∗ (∃ d, owns (c : Thread nD τ) (st8_3 t) fullShare ((normData8 V c).before 3 t d))
    ∗ (∃ d, owns (c : Thread nD τ) (st8_4 t) fullShare ((normData8 V c).before 4 t d))
    ∗ (∃ d, owns (c : Thread nD τ) (st8_5 t) fullShare ((normData8 V c).before 5 t d)))

/-- What it returns. -/
def bodyLeaves8 (c : Dev nD) (t : Fin cfg8.N) : sProp 𝕄 :=
  iprop((normData8 V c).Φ t.succ ∗ (normData8 V c).owesAt () t.succ
    ∗ owns (c : Thread nD τ) (st8_0 t) fullShare ((normData8 V c).after 0 t)
    ∗ owns (c : Thread nD τ) (st8_1 t) fullShare ((normData8 V c).after 1 t)
    ∗ owns (c : Thread nD τ) (st8_2 t) fullShare ((normData8 V c).after 2 t)
    ∗ owns (c : Thread nD τ) (st8_3 t) fullShare ((normData8 V c).after 3 t)
    ∗ owns (c : Thread nD τ) (st8_4 t) fullShare ((normData8 V c).after 4 t)
    ∗ owns (c : Thread nD τ) (st8_5 t) fullShare ((normData8 V c).after 5 t))

/-- At any point the input buffers hold their blocks, so the body's triple applies; the invariant and the dues pass
    through untouched. -/
theorem body_at_point8 (c : Dev nD) (t : Fin cfg8.N) :
    bodyGiven8 V c t ⊢ wp frame (wpE (defs₀ (F := F)) Variants.none c none) Set.univ (bodyAt8 t) (fun _ => bodyLeaves8 V c t) := by
  unfold bodyGiven8 bodyLeaves8 bodyAt8
  simp only [normData8_before0, normData8_before1, normData8_before2, normData8_before3, normData8_before4]
  rw [show (normData8 V c).Φ t.succ = (normData8 V c).Φ t.castSucc from rfl,
    show (normData8 V c).owesAt () t.succ = (normData8 V c).owesAt () t.castSucc from rfl,
    normData8_after0, normData8_after1, normData8_after2, normData8_after3, normData8_after4, normData8_after_out]
  iintro ⟨HΦ, Ho, ⟨%d0, H0⟩, ⟨%d1, H1⟩, ⟨%d2, H2⟩, ⟨%d3, H3⟩, ⟨%d4, H4⟩, ⟨%d5, H5⟩⟩
  iapply (bn_body8 c Set.univ _ _ _ _ _ _ _ _ _ _ _ _ _ (blockAt8 V c 0 t) (blockAt8 V c 1 t) (blockAt8 V c 2 t)
    (blockAt8 V c 3 t) (blockAt8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation8 (c : Dev nD) :
    BodyObligation (normData8 (F := F) V c) (defs₀ (F := F)) Variants.none () Set.univ := fun t => by
  rw [bigSep_W8, bigSep_W8]
  exact body_at_point8 V c t

end Cert.Kernel.Hand

end
-- ==== Proof.K.Boundaries.lean ====
import proofs.«123467_j2559800508646_1_alg».proof.Proof.K.MatmulBody0
import proofs.«123467_j2559800508646_1_alg».proof.Proof.K.StatsData1
import proofs.«123467_j2559800508646_1_alg».proof.Proof.K.NormBody2
import proofs.«123467_j2559800508646_1_alg».proof.Proof.K.MatmulBody3
import proofs.«123467_j2559800508646_1_alg».proof.Proof.K.StatsData4
import proofs.«123467_j2559800508646_1_alg».proof.Proof.K.NormBody5
import proofs.«123467_j2559800508646_1_alg».proof.Proof.K.MatmulBody6
import proofs.«123467_j2559800508646_1_alg».proof.Proof.K.StatsData7
import proofs.«123467_j2559800508646_1_alg».proof.Proof.K.NormBody8
import proofs.«123467_j2559800508646_1_alg».proof.Proof.Gen.Kernel.Regions

/-!
# The buffers' contents between the program's items

The program is nine kernel calls among ten stretches of host operations. Between two items every unscoped buffer of a
core holds definite contents: at launch the memory's; after a stretch of host operations, those operations applied to
what came before; after a kernel call, what came before with each array the call writes replaced by what its
write-backs leave there — which is a function of the call's proof data, hence of the contents it was entered from. So
the nineteen boundary contents are defined one after the other, each from the one before.

The conditional frame is stated over an unknown `outs`, "what the calls leave", read at fifteen (item, array) pairs.
Taking `outs n r` to be the n-th boundary's contents read at `r` makes its boundary contents the ones defined here.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The nineteen boundaries -/

/-- The core's unscoped buffers at launch, and after the first stretch of host operations. -/
def at0 (c : Dev nD) : Valuation τ sig (Elt F) := V0 m c
def at1 (c : Dev nD) : Valuation τ sig (Elt F) := StableHlo.after hostOps0 (at0 m c)

/-- Call 0's proof data, at the contents it is entered from. -/
abbrev data0 (c : Dev nD) : Dat τ (Elt F) Unit ℕ (UR sig nD τ) ℕ cfg0 c := productData0 (F := F) (fun c b => at1 m c b) c
/-- After call 0: each array it writes at what its write-backs leave, every other buffer as entered. -/
def at2 (c : Dev nD) : Valuation τ sig (Elt F) :=
  Function.update (at1 m c) main_v2 ((data0 m c).arrAt 2 cfg0.N)
/-- After the host operations that follow it. -/
def at3 (c : Dev nD) : Valuation τ sig (Elt F) := StableHlo.after hostOps1 (at2 m c)

/-- Call 1's proof data, at the contents it is entered from. -/
abbrev data1 (c : Dev nD) : Dat τ (Elt F) Unit ℕ (UR sig nD τ) ℕ cfg1 c := statsData1 (F := F) (fun c b => at3 m c b) c
/-- After call 1: each array it writes at what its write-backs leave, every other buffer as entered. -/
def at4 (c : Dev nD) : Valuation τ sig (Elt F) :=
  Function.update (Function.update (Function.update (at3 m c) main_v22_0 ((data1 m c).arrAt 3 cfg1.N)) main_v22_1 ((data1 m c).arrAt 4 cfg1.N)) main_v22_2 ((data1 m c).arrAt 5 cfg1.N)
/-- After the host operations that follow it. -/
def at5 (c : Dev nD) : Valuation τ sig (Elt F) := StableHlo.after hostOps2 (at4 m c)

/-- Call 2's proof data, at the contents it is entered from. -/
abbrev data2 (c : Dev nD) : Dat τ (Elt F) Unit ℕ (UR sig nD τ) ℕ cfg2 c := normData2 (F := F) (fun c b => at5 m c b) c
/-- After call 2: each array it writes at what its write-backs leave, every other buffer as entered. -/
def at6 (c : Dev nD) : Valuation τ sig (Elt F) :=
  Function.update (at5 m c) main_v35 ((data2 m c).arrAt 5 cfg2.N)
/-- After the host operations that follow it. -/
def at7 (c : Dev nD) : Valuation τ sig (Elt F) := StableHlo.after hostOps3 (at6 m c)

/-- Call 3's proof data, at the contents it is entered from. -/
abbrev data3 (c : Dev nD) : Dat τ (Elt F) Unit ℕ (UR sig nD τ) ℕ cfg3 c := productData3 (F := F) (fun c b => at7 m c b) c
/-- After call 3: each array it writes at what its write-backs leave, every other buffer as entered. -/
def at8 (c : Dev nD) : Valuation τ sig (Elt F) :=
  Function.update (at7 m c) main_v38 ((data3 m c).arrAt 2 cfg3.N)
/-- After the host operations that follow it. -/
def at9 (c : Dev nD) : Valuation τ sig (Elt F) := StableHlo.after hostOps4 (at8 m c)

/-- Call 4's proof data, at the contents it is entered from. -/
abbrev data4 (c : Dev nD) : Dat τ (Elt F) Unit ℕ (UR sig nD τ) ℕ cfg4 c := statsData4 (F := F) (fun c b => at9 m c b) c
/-- After call 4: each array it writes at what its write-backs leave, every other buffer as entered. -/
def at10 (c : Dev nD) : Valuation τ sig (Elt F) :=
  Function.update (Function.update (Function.update (at9 m c) main_v58_0 ((data4 m c).arrAt 4 cfg4.N)) main_v58_1 ((data4 m c).arrAt 5 cfg4.N)) main_v58_2 ((data4 m c).arrAt 6 cfg4.N)
/-- After the host operations that follow it. -/
def at11 (c : Dev nD) : Valuation τ sig (Elt F) := StableHlo.after hostOps5 (at10 m c)

/-- Call 5's proof data, at the contents it is entered from. -/
abbrev data5 (c : Dev nD) : Dat τ (Elt F) Unit ℕ (UR sig nD τ) ℕ cfg5 c := normData5 (F := F) (fun c b => at11 m c b) c
/-- After call 5: each array it writes at what its write-backs leave, every other buffer as entered. -/
def at12 (c : Dev nD) : Valuation τ sig (Elt F) :=
  Function.update (at11 m c) main_v71 ((data5 m c).arrAt 5 cfg5.N)
/-- After the host operations that follow it. -/
def at13 (c : Dev nD) : Valuation τ sig (Elt F) := StableHlo.after hostOps6 (at12 m c)

/-- Call 6's proof data, at the contents it is entered from. -/
abbrev data6 (c : Dev nD) : Dat τ (Elt F) Unit ℕ (UR sig nD τ) ℕ cfg6 c := productData6 (F := F) (fun c b => at13 m c b) c
/-- After call 6: each array it writes at what its write-backs leave, every other buffer as entered. -/
def at14 (c : Dev nD) : Valuation τ sig (Elt F) :=
  Function.update (at13 m c) main_v74 ((data6 m c).arrAt 2 cfg6.N)
/-- After the host operations that follow it. -/
def at15 (c : Dev nD) : Valuation τ sig (Elt F) := StableHlo.after hostOps7 (at14 m c)

/-- Call 7's proof data, at the contents it is entered from. -/
abbrev data7 (c : Dev nD) : Dat τ (Elt F) Unit ℕ (UR sig nD τ) ℕ cfg7 c := statsData7 (F := F) (fun c b => at15 m c b) c
/-- After call 7: each array it writes at what its write-backs leave, every other buffer as entered. -/
def at16 (c : Dev nD) : Valuation τ sig (Elt F) :=
  Function.update (Function.update (Function.update (at15 m c) main_v94_0 ((data7 m c).arrAt 4 cfg7.N)) main_v94_1 ((data7 m c).arrAt 5 cfg7.N)) main_v94_2 ((data7 m c).arrAt 6 cfg7.N)
/-- After the host operations that follow it. -/
def at17 (c : Dev nD) : Valuation τ sig (Elt F) := StableHlo.after hostOps8 (at16 m c)

/-- Call 8's proof data, at the contents it is entered from. -/
abbrev data8 (c : Dev nD) : Dat τ (Elt F) Unit ℕ (UR sig nD τ) ℕ cfg8 c := normData8 (F := F) (fun c b => at17 m c b) c
/-- After call 8: each array it writes at what its write-backs leave, every other buffer as entered. -/
def at18 (c : Dev nD) : Valuation τ sig (Elt F) :=
  Function.update (at17 m c) main_v107 ((data8 m c).arrAt 5 cfg8.N)

/-- What the calls leave, as the conditional frame reads it: the boundary after item `n − 1`, read at `r`. -/
def boundaryOuts : Outs (F := F) := fun n r c =>
  match n with
  | 2 => at2 m c r
  | 4 => at4 m c r
  | 6 => at6 m c r
  | 8 => at8 m c r
  | 10 => at10 m c r
  | 12 => at12 m c r
  | 14 => at14 m c r
  | 16 => at16 m c r
  | 18 => at18 m c r
  | _ => at0 m c r

/-! ## The conditional frame's boundaries are these -/

theorem at1_eq (c : Dev nD) : V1 m c = at1 m c := rfl

/-- After call 0 the conditional frame's contents, read with `boundaryOuts`, are the ones defined here. -/
theorem at2_eq (c : Dev nD) : V2 m (boundaryOuts m) c = at2 m c := by
  show Function.update (V1 m c) main_v2 (boundaryOuts m 2 main_v2 c) = at2 m c
  rw [at1_eq]
  unfold at2
  simp only [boundaryOuts, at2, Function.update_self]
theorem at3_eq (c : Dev nD) : V3 m (boundaryOuts m) c = at3 m c := by
  show StableHlo.after hostOps1 (V2 m (boundaryOuts m) c) = _
  rw [at2_eq]
  rfl

/-- After call 1 the conditional frame's contents, read with `boundaryOuts`, are the ones defined here. -/
theorem at4_eq (c : Dev nD) : V4 m (boundaryOuts m) c = at4 m c := by
  show Function.update (Function.update (Function.update (V3 m (boundaryOuts m) c) main_v22_0 (boundaryOuts m 4 main_v22_0 c)) main_v22_1 (boundaryOuts m 4 main_v22_1 c)) main_v22_2 (boundaryOuts m 4 main_v22_2 c) = at4 m c
  rw [at3_eq]
  have hne0 : (Proc.devRef .tc main_v22_0 : DevRef τ sig) ≠ Proc.devRef .tc main_v22_1 := StableHlo.devRef_ne_of_ne (by decide)
  have hne1 : (Proc.devRef .tc main_v22_0 : DevRef τ sig) ≠ Proc.devRef .tc main_v22_2 := StableHlo.devRef_ne_of_ne (by decide)
  have hne2 : (Proc.devRef .tc main_v22_1 : DevRef τ sig) ≠ Proc.devRef .tc main_v22_0 := StableHlo.devRef_ne_of_ne (by decide)
  have hne3 : (Proc.devRef .tc main_v22_1 : DevRef τ sig) ≠ Proc.devRef .tc main_v22_2 := StableHlo.devRef_ne_of_ne (by decide)
  have hne4 : (Proc.devRef .tc main_v22_2 : DevRef τ sig) ≠ Proc.devRef .tc main_v22_0 := StableHlo.devRef_ne_of_ne (by decide)
  have hne5 : (Proc.devRef .tc main_v22_2 : DevRef τ sig) ≠ Proc.devRef .tc main_v22_1 := StableHlo.devRef_ne_of_ne (by decide)
  unfold at4
  simp only [boundaryOuts, at4, Function.update_self, Function.update_of_ne hne0, Function.update_of_ne hne1, Function.update_of_ne hne2, Function.update_of_ne hne3, Function.update_of_ne hne4, Function.update_of_ne hne5]
theorem at5_eq (c : Dev nD) : V5 m (boundaryOuts m) c = at5 m c := by
  show StableHlo.after hostOps2 (V4 m (boundaryOuts m) c) = _
  rw [at4_eq]
  rfl

/-- After call 2 the conditional frame's contents, read with `boundaryOuts`, are the ones defined here. -/
theorem at6_eq (c : Dev nD) : V6 m (boundaryOuts m) c = at6 m c := by
  show Function.update (V5 m (boundaryOuts m) c) main_v35 (boundaryOuts m 6 main_v35 c) = at6 m c
  rw [at5_eq]
  unfold at6
  simp only [boundaryOuts, at6, Function.update_self]
theorem at7_eq (c : Dev nD) : V7 m (boundaryOuts m) c = at7 m c := by
  show StableHlo.after hostOps3 (V6 m (boundaryOuts m) c) = _
  rw [at6_eq]
  rfl

/-- After call 3 the conditional frame's contents, read with `boundaryOuts`, are the ones defined here. -/
theorem at8_eq (c : Dev nD) : V8 m (boundaryOuts m) c = at8 m c := by
  show Function.update (V7 m (boundaryOuts m) c) main_v38 (boundaryOuts m 8 main_v38 c) = at8 m c
  rw [at7_eq]
  unfold at8
  simp only [boundaryOuts, at8, Function.update_self]
theorem at9_eq (c : Dev nD) : V9 m (boundaryOuts m) c = at9 m c := by
  show StableHlo.after hostOps4 (V8 m (boundaryOuts m) c) = _
  rw [at8_eq]
  rfl

/-- After call 4 the conditional frame's contents, read with `boundaryOuts`, are the ones defined here. -/
theorem at10_eq (c : Dev nD) : V10 m (boundaryOuts m) c = at10 m c := by
  show Function.update (Function.update (Function.update (V9 m (boundaryOuts m) c) main_v58_0 (boundaryOuts m 10 main_v58_0 c)) main_v58_1 (boundaryOuts m 10 main_v58_1 c)) main_v58_2 (boundaryOuts m 10 main_v58_2 c) = at10 m c
  rw [at9_eq]
  have hne0 : (Proc.devRef .tc main_v58_0 : DevRef τ sig) ≠ Proc.devRef .tc main_v58_1 := StableHlo.devRef_ne_of_ne (by decide)
  have hne1 : (Proc.devRef .tc main_v58_0 : DevRef τ sig) ≠ Proc.devRef .tc main_v58_2 := StableHlo.devRef_ne_of_ne (by decide)
  have hne2 : (Proc.devRef .tc main_v58_1 : DevRef τ sig) ≠ Proc.devRef .tc main_v58_0 := StableHlo.devRef_ne_of_ne (by decide)
  have hne3 : (Proc.devRef .tc main_v58_1 : DevRef τ sig) ≠ Proc.devRef .tc main_v58_2 := StableHlo.devRef_ne_of_ne (by decide)
  have hne4 : (Proc.devRef .tc main_v58_2 : DevRef τ sig) ≠ Proc.devRef .tc main_v58_0 := StableHlo.devRef_ne_of_ne (by decide)
  have hne5 : (Proc.devRef .tc main_v58_2 : DevRef τ sig) ≠ Proc.devRef .tc main_v58_1 := StableHlo.devRef_ne_of_ne (by decide)
  unfold at10
  simp only [boundaryOuts, at10, Function.update_self, Function.update_of_ne hne0, Function.update_of_ne hne1, Function.update_of_ne hne2, Function.update_of_ne hne3, Function.update_of_ne hne4, Function.update_of_ne hne5]
theorem at11_eq (c : Dev nD) : V11 m (boundaryOuts m) c = at11 m c := by
  show StableHlo.after hostOps5 (V10 m (boundaryOuts m) c) = _
  rw [at10_eq]
  rfl

/-- After call 5 the conditional frame's contents, read with `boundaryOuts`, are the ones defined here. -/
theorem at12_eq (c : Dev nD) : V12 m (boundaryOuts m) c = at12 m c := by
  show Function.update (V11 m (boundaryOuts m) c) main_v71 (boundaryOuts m 12 main_v71 c) = at12 m c
  rw [at11_eq]
  unfold at12
  simp only [boundaryOuts, at12, Function.update_self]
theorem at13_eq (c : Dev nD) : V13 m (boundaryOuts m) c = at13 m c := by
  show StableHlo.after hostOps6 (V12 m (boundaryOuts m) c) = _
  rw [at12_eq]
  rfl

/-- After call 6 the conditional frame's contents, read with `boundaryOuts`, are the ones defined here. -/
theorem at14_eq (c : Dev nD) : V14 m (boundaryOuts m) c = at14 m c := by
  show Function.update (V13 m (boundaryOuts m) c) main_v74 (boundaryOuts m 14 main_v74 c) = at14 m c
  rw [at13_eq]
  unfold at14
  simp only [boundaryOuts, at14, Function.update_self]
theorem at15_eq (c : Dev nD) : V15 m (boundaryOuts m) c = at15 m c := by
  show StableHlo.after hostOps7 (V14 m (boundaryOuts m) c) = _
  rw [at14_eq]
  rfl

/-- After call 7 the conditional frame's contents, read with `boundaryOuts`, are the ones defined here. -/
theorem at16_eq (c : Dev nD) : V16 m (boundaryOuts m) c = at16 m c := by
  show Function.update (Function.update (Function.update (V15 m (boundaryOuts m) c) main_v94_0 (boundaryOuts m 16 main_v94_0 c)) main_v94_1 (boundaryOuts m 16 main_v94_1 c)) main_v94_2 (boundaryOuts m 16 main_v94_2 c) = at16 m c
  rw [at15_eq]
  have hne0 : (Proc.devRef .tc main_v94_0 : DevRef τ sig) ≠ Proc.devRef .tc main_v94_1 := StableHlo.devRef_ne_of_ne (by decide)
  have hne1 : (Proc.devRef .tc main_v94_0 : DevRef τ sig) ≠ Proc.devRef .tc main_v94_2 := StableHlo.devRef_ne_of_ne (by decide)
  have hne2 : (Proc.devRef .tc main_v94_1 : DevRef τ sig) ≠ Proc.devRef .tc main_v94_0 := StableHlo.devRef_ne_of_ne (by decide)
  have hne3 : (Proc.devRef .tc main_v94_1 : DevRef τ sig) ≠ Proc.devRef .tc main_v94_2 := StableHlo.devRef_ne_of_ne (by decide)
  have hne4 : (Proc.devRef .tc main_v94_2 : DevRef τ sig) ≠ Proc.devRef .tc main_v94_0 := StableHlo.devRef_ne_of_ne (by decide)
  have hne5 : (Proc.devRef .tc main_v94_2 : DevRef τ sig) ≠ Proc.devRef .tc main_v94_1 := StableHlo.devRef_ne_of_ne (by decide)
  unfold at16
  simp only [boundaryOuts, at16, Function.update_self, Function.update_of_ne hne0, Function.update_of_ne hne1, Function.update_of_ne hne2, Function.update_of_ne hne3, Function.update_of_ne hne4, Function.update_of_ne hne5]
theorem at17_eq (c : Dev nD) : V17 m (boundaryOuts m) c = at17 m c := by
  show StableHlo.after hostOps8 (V16 m (boundaryOuts m) c) = _
  rw [at16_eq]
  rfl

/-- After call 8 the conditional frame's contents, read with `boundaryOuts`, are the ones defined here. -/
theorem at18_eq (c : Dev nD) : V18 m (boundaryOuts m) c = at18 m c := by
  show Function.update (V17 m (boundaryOuts m) c) main_v107 (boundaryOuts m 18 main_v107 c) = at18 m c
  rw [at17_eq]
  unfold at18
  simp only [boundaryOuts, at18, Function.update_self]

/-! ## The family of proof data -/

/-- Every call's proof data, each at the contents it is entered from: a literal match, so that the configuration of
    call `p` at a numeral reduces to the printed one. -/
def family : (p : Fin 9) → (c : Dev nD) → Dat τ (Elt F) Unit ℕ (UR sig nD τ) ℕ (cfgs p) c
  | ⟨0, _⟩ => fun c => data0 m c
  | ⟨1, _⟩ => fun c => data1 m c
  | ⟨2, _⟩ => fun c => data2 m c
  | ⟨3, _⟩ => fun c => data3 m c
  | ⟨4, _⟩ => fun c => data4 m c
  | ⟨5, _⟩ => fun c => data5 m c
  | ⟨6, _⟩ => fun c => data6 m c
  | ⟨7, _⟩ => fun c => data7 m c
  | ⟨8, _⟩ => fun c => data8 m c

end Cert.Kernel.Hand

end
-- ==== Proof.K.Runs.lean ====
import proofs.«123467_j2559800508646_1_alg».proof.Proof.K.Boundaries

/-!
# The program runs, and its arguments end as launched

Each of the nine kernel calls is a segment of the program: entered with every unscoped buffer of the core at the boundary
contents before it, left with them at the boundary contents after it. Given the nine segments, the host stretches
between them and the chaining are the generated conditional frame's; what remains is what rides beside the buffers
through every segment — the core's generator register at some state and its dues, at nothing — and the launch.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev noLevels : GSem nD τ sig → Finset Unit := fun _ => ∅
abbrev noLevel : GSem nD τ sig → Unit → ℕ := fun _ _ => 0
/-- What rides beside the buffers through every segment: the core's generator register at some state and its dues, at
    nothing. -/
abbrev riding (c : Dev nD) : sProp 𝕄 :=
  iprop((∃ r, prngReg c r) ∗ ∃ W, owes (c : Thread nD τ) (0 : CellTallies nD τ sig Unit) W)

/-! ## Call 0 -/

set_option maxHeartbeats 4000000 in
/-- After call 0 each of its arrays holds what the write-backs leave: an array it writes by the boundary's definition,
    an array it only reads because no write-back touches it. -/
theorem exit_arrays0 (c : Dev nD) : ∀ w : Fin cfg0.W,
    (data0 m c).arrAt w cfg0.N = (fun b : Ref sig .tc => at2 m c b) (Pipeline.arrRef spec0 w)
  | ⟨0, _⟩ => by
    show (data0 m c).arrAt 0 cfg0.N = at2 m c (Proc.devRef .tc (Pipeline.arrRef spec0 0))
    rw [(data0 m c).arrAt_in 0 rfl _, show (data0 m c).A 0 = at1 m c (Proc.devRef .tc (Pipeline.arrRef spec0 0)) from productData0_A _ c 0]
    unfold at2
    rw [Function.update_of_ne (StableHlo.devRef_ne_of_ne (show (Pipeline.arrRef spec0 0 : Ref sig .tc) ≠ main_v2 from by decide))]
  | ⟨1, _⟩ => by
    show (data0 m c).arrAt 1 cfg0.N = at2 m c (Proc.devRef .tc (Pipeline.arrRef spec0 1))
    rw [(data0 m c).arrAt_in 1 rfl _, show (data0 m c).A 1 = at1 m c (Proc.devRef .tc (Pipeline.arrRef spec0 1)) from productData0_A _ c 1]
    unfold at2
    rw [Function.update_of_ne (StableHlo.devRef_ne_of_ne (show (Pipeline.arrRef spec0 1 : Ref sig .tc) ≠ main_v2 from by decide))]
  | ⟨2, _⟩ => by
    show (data0 m c).arrAt 2 cfg0.N = at2 m c (Proc.devRef .tc main_v2)
    unfold at2
    rw [Function.update_self]

set_option maxHeartbeats 4000000 in
/-- Every buffer that is none of its arrays is as the call found it. -/
theorem exit_rest0 (c : Dev nD) : ∀ b : Ref sig .tc, b ∉ Finset.univ.image (Pipeline.arrRef spec0) →
    (fun b : Ref sig .tc => at2 m c b) b = (fun b : Ref sig .tc => at1 m c b) b := fun b hb => by
  show at2 m c (Proc.devRef .tc b) = at1 m c (Proc.devRef .tc b)
  unfold at2
  rw [Function.update_of_ne (StableHlo.devRef_ne_of_ne (fun e => hb (Finset.mem_image.mpr ⟨2, Finset.mem_univ _, by rw [e]⟩)))]

set_option backward.isDefEq.respectTransparency.types false in
/-- Call 0 as a segment of the program: entered with every unscoped buffer at the boundary before it, left with them at
    the boundary after it; its arrays are taken out of the unscoped buffers on entry and put back on exit; the generator
    register goes into the call's invariant and comes back; the core owes nothing and the kernel has no semaphore of its
    own. -/
def record0 : Pipeline.RegionSeg (pcfgs (F := F)) adm (family m) () defs₀ Variants.none noLevels noLevel 0 where
  win := launch0.win.to₀
  block_pos := launch0.block_pos
  stage_whole := launch0.stage_whole
  K := PEmpty
  osem k := k.elim
  ho := Pipeline.OwnSemFacts.none _
  hbody c := (body_obligation0 (fun c b => at1 m c b) c).loose
  hwaits := Pipeline.hwaits_of_owed_zero _ _ _ _ noLevels noLevel 0 fun _ _ => rfl
  pre c := iprop(StableHlo.held (c : Thread nD τ) (Pipeline.ucRefs τ sig) (at1 m c) ∗ riding c)
  post c := iprop(StableHlo.held (c : Thread nD τ) (Pipeline.ucRefs τ sig) (at2 m c) ∗ riding c)
  X c := iprop(∃ r, prngReg c r)
  Y c := iprop(∃ r, prngReg c r)
  Z c := Pipeline.unscopedRest (Ix := Unit) (Name := ℕ) (U := UR sig nD τ) (Lvl := ℕ) spec0 c (fun b : Ref sig .tc => at1 m c b)
  hentry c := by
    rw [Pipeline.ownSems0_none]
    have hsplit := Pipeline.arrays_of_unscopedBufs (p := 0) (pcfgs (F := F)) adm (family m) launch0.win launch0.arr_whole c
      ((family m 0 c).share_full fun _ => rfl) (fun b : Ref sig .tc => at1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 0 c).Φ 0 = Pipeline.ΦA spec0 c from rfl]; unfold Pipeline.ΦA
    iintro ⟨Hp, -, Hr⟩
    isplitl [Hr]; · iexact Hr
    iexact Hp
  hout c := by
    rw [Pipeline.ownSems0_none, show (family m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (family m) ((family m 0 c).share_full fun _ => rfl)
      (fun b : Ref sig .tc => at1 m c b) (fun b : Ref sig .tc => at2 m c b) ((family m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 -/

set_option maxHeartbeats 4000000 in
/-- After call 1 each of its arrays holds what the write-backs leave: an array it writes by the boundary's definition,
    an array it only reads because no write-back touches it. -/
theorem exit_arrays1 (c : Dev nD) : ∀ w : Fin cfg1.W,
    (data1 m c).arrAt w cfg1.N = (fun b : Ref sig .tc => at4 m c b) (Pipeline.arrRef spec1 w)
  | ⟨0, _⟩ => by
    show (data1 m c).arrAt 0 cfg1.N = at4 m c (Proc.devRef .tc (Pipeline.arrRef spec1 0))
    rw [(data1 m c).arrAt_in 0 rfl _, show (data1 m c).A 0 = at3 m c (Proc.devRef .tc (Pipeline.arrRef spec1 0)) from statsData1_A _ c 0]
    unfold at4
    rw [Function.update_of_ne (StableHlo.devRef_ne_of_ne (show (Pipeline.arrRef spec1 0 : Ref sig .tc) ≠ main_v22_2 from by decide)), Function.update_of_ne (StableHlo.devRef_ne_of_ne (show (Pipeline.arrRef spec1 0 : Ref sig .tc) ≠ main_v22_1 from by decide)), Function.update_of_ne (StableHlo.devRef_ne_of_ne (show (Pipeline.arrRef spec1 0 : Ref sig .tc) ≠ main_v22_0 from by decide))]
  | ⟨1, _⟩ => by
    show (data1 m c).arrAt 1 cfg1.N = at4 m c (Proc.devRef .tc (Pipeline.arrRef spec1 1))
    rw [(data1 m c).arrAt_in 1 rfl _, show (data1 m c).A 1 = at3 m c (Proc.devRef .tc (Pipeline.arrRef spec1 1)) from statsData1_A _ c 1]
    unfold at4
    rw [Function.update_of_ne (StableHlo.devRef_ne_of_ne (show (Pipeline.arrRef spec1 1 : Ref sig .tc) ≠ main_v22_2 from by decide)), Function.update_of_ne (StableHlo.devRef_ne_of_ne (show (Pipeline.arrRef spec1 1 : Ref sig .tc) ≠ main_v22_1 from by decide)), Function.update_of_ne (StableHlo.devRef_ne_of_ne (show (Pipeline.arrRef spec1 1 : Ref sig .tc) ≠ main_v22_0 from by decide))]
  | ⟨2, _⟩ => by
    show (data1 m c).arrAt 2 cfg1.N = at4 m c (Proc.devRef .tc (Pipeline.arrRef spec1 2))
    rw [(data1 m c).arrAt_in 2 rfl _, show (data1 m c).A 2 = at3 m c (Proc.devRef .tc (Pipeline.arrRef spec1 2)) from statsData1_A _ c 2]
    unfold at4
    rw [Function.update_of_ne (StableHlo.devRef_ne_of_ne (show (Pipeline.arrRef spec1 2 : Ref sig .tc) ≠ main_v22_2 from by decide)), Function.update_of_ne (StableHlo.devRef_ne_of_ne (show (Pipeline.arrRef spec1 2 : Ref sig .tc) ≠ main_v22_1 from by decide)), Function.update_of_ne (StableHlo.devRef_ne_of_ne (show (Pipeline.arrRef spec1 2 : Ref sig .tc) ≠ main_v22_0 from by decide))]
  | ⟨3, _⟩ => by
    show (data1 m c).arrAt 3 cfg1.N = at4 m c (Proc.devRef .tc main_v22_0)
    unfold at4
    rw [Function.update_of_ne (StableHlo.devRef_ne_of_ne (show (main_v22_0 : Ref sig .tc) ≠ main_v22_2 from by decide)), Function.update_of_ne (StableHlo.devRef_ne_of_ne (show (main_v22_0 : Ref sig .tc) ≠ main_v22_1 from by decide)), Function.update_self]
  | ⟨4, _⟩ => by
    show (data1 m c).arrAt 4 cfg1.N = at4 m c (Proc.devRef .tc main_v22_1)
    unfold at4
    rw [Function.update_of_ne (StableHlo.devRef_ne_of_ne (show (main_v22_1 : Ref sig .tc) ≠ main_v22_2 from by decide)), Function.update_self]
  | ⟨5, _⟩ => by
    show (data1 m c).arrAt 5 cfg1.N = at4 m c (Proc.devRef .tc main_v22_2)
    unfold at4
    rw [Function.update_self]

set_option maxHeartbeats 4000000 in
/-- Every buffer that is none of its arrays is as the call found it. -/
theorem exit_rest1 (c : Dev nD) : ∀ b : Ref sig .tc, b ∉ Finset.univ.image (Pipeline.arrRef spec1) →
    (fun b : Ref sig .tc => at4 m c b) b = (fun b : Ref sig .tc => at3 m c b) b := fun b hb => by
  show at4 m c (Proc.devRef .tc b) = at3 m c (Proc.devRef .tc b)
  unfold at4
  rw [Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩))), Function.update_of_ne (StableHlo.devRef_ne_of_ne (fun e => hb (Finset.mem_image.mpr ⟨3, Finset.mem_univ _, by rw [e]⟩)))]

set_option backward.isDefEq.respectTransparency.types false in
/-- Call 1 as a segment of the program: entered with every unscoped buffer at the boundary before it, left with them at
    the boundary after it; its arrays are taken out of the unscoped buffers on entry and put back on exit; the generator
    register goes into the call's invariant and comes back; the core owes nothing and the kernel has no semaphore of its
    own. -/
def record1 : Pipeline.RegionSeg (pcfgs (F := F)) adm (family m) () defs₀ Variants.none noLevels noLevel 1 where
  win := launch1.win.to₀
  block_pos := launch1.block_pos
  stage_whole := launch1.stage_whole
  K := PEmpty
  osem k := k.elim
  ho := Pipeline.OwnSemFacts.none _
  hbody c := (body_obligation1 (fun c b => at3 m c b) c).loose
  hwaits := Pipeline.hwaits_of_owed_zero _ _ _ _ noLevels noLevel 1 fun _ _ => rfl
  pre c := iprop(StableHlo.held (c : Thread nD τ) (Pipeline.ucRefs τ sig) (at3 m c) ∗ riding c)
  post c := iprop(StableHlo.held (c : Thread nD τ) (Pipeline.ucRefs τ sig) (at4 m c) ∗ riding c)
  X c := iprop(∃ r, prngReg c r)
  Y c := iprop(∃ r, prngReg c r)
  Z c := Pipeline.unscopedRest (Ix := Unit) (Name := ℕ) (U := UR sig nD τ) (Lvl := ℕ) spec1 c (fun b : Ref sig .tc => at3 m c b)
  hentry c := by
    rw [Pipeline.ownSems0_none]
    have hsplit := Pipeline.arrays_of_unscopedBufs (p := 1) (pcfgs (F := F)) adm (family m) launch1.win launch1.arr_whole c
      ((family m 1 c).share_full fun _ => rfl) (fun b : Ref sig .tc => at3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData1 (F := F) (fun c b => at3 m c b) c).Φ 0
    iintro ⟨Hp, -, Hr⟩
    iapply (invariant_in1 (fun c b => at3 m c b) c)
    unfold Pipeline.ΦA
    isplitl [Hr]; · iexact Hr
    iexact Hp
  hout c := by
    rw [Pipeline.ownSems0_none]
    show (statsData1 (F := F) (fun c b => at3 m c b) c).Φ (Fin.last cfg1.N) ⊢ _
    iintro H
    ihave H' := (invariant_out1 (fun c b => at3 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (family m) ((family m 1 c).share_full fun _ => rfl)
      (fun b : Ref sig .tc => at3 m c b) (fun b : Ref sig .tc => at4 m c b) ((family m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 -/

set_option maxHeartbeats 4000000 in
/-- After call 2 each of its arrays holds what the write-backs leave: an array it writes by the boundary's definition,
    an array it only reads because no write-back touches it. -/
theorem exit_arrays2 (c : Dev nD) : ∀ w : Fin cfg2.W,
    (data2 m c).arrAt w cfg2.N = (fun b : Ref sig .tc => at6 m c b) (Pipeline.arrRef spec2 w)
  | ⟨0, _⟩ => by
    show (data2 m c).arrAt 0 cfg2.N = at6 m c (Proc.devRef .tc (Pipeline.arrRef spec2 0))
    rw [(data2 m c).arrAt_in 0 rfl _, show (data2 m c).A 0 = at5 m c (Proc.devRef .tc (Pipeline.arrRef spec2 0)) from normData2_A _ c 0]
    unfold at6
    rw [Function.update_of_ne (StableHlo.devRef_ne_of_ne (show (Pipeline.arrRef spec2 0 : Ref sig .tc) ≠ main_v35 from by decide))]
  | ⟨1, _⟩ => by
    show (data2 m c).arrAt 1 cfg2.N = at6 m c (Proc.devRef .tc (Pipeline.arrRef spec2 1))
    rw [(data2 m c).arrAt_in 1 rfl _, show (data2 m c).A 1 = at5 m c (Proc.devRef .tc (Pipeline.arrRef spec2 1)) from normData2_A _ c 1]
    unfold at6
    rw [Function.update_of_ne (StableHlo.devRef_ne_of_ne (show (Pipeline.arrRef spec2 1 : Ref sig .tc) ≠ main_v35 from by decide))]
  | ⟨2, _⟩ => by
    show (data2 m c).arrAt 2 cfg2.N = at6 m c (Proc.devRef .tc (Pipeline.arrRef spec2 2))
    rw [(data2 m c).arrAt_in 2 rfl _, show (data2 m c).A 2 = at5 m c (Proc.devRef .tc (Pipeline.arrRef spec2 2)) from normData2_A _ c 2]
    unfold at6
    rw [Function.update_of_ne (StableHlo.devRef_ne_of_ne (show (Pipeline.arrRef spec2 2 : Ref sig .tc) ≠ main_v35 from by decide))]
  | ⟨3, _⟩ => by
    show (data2 m c).arrAt 3 cfg2.N = at6 m c (Proc.devRef .tc (Pipeline.arrRef spec2 3))
    rw [(data2 m c).arrAt_in 3 rfl _, show (data2 m c).A 3 = at5 m c (Proc.devRef .tc (Pipeline.arrRef spec2 3)) from normData2_A _ c 3]
    unfold at6
    rw [Function.update_of_ne (StableHlo.devRef_ne_of_ne (show (Pipeline.arrRef spec2 3 : Ref sig .tc) ≠ main_v35 from by decide))]
  | ⟨4, _⟩ => by
    show (data2 m c).arrAt 4 cfg2.N = at6 m c (Proc.devRef .tc (Pipeline.arrRef spec2 4))
    rw [(data2 m c).arrAt_in 4 rfl _, show (data2 m c).A 4 = at5 m c (Proc.devRef .tc (Pipeline.arrRef spec2 4)) from normData2_A _ c 4]
    unfold at6
    rw [Function.update_of_ne (StableHlo.devRef_ne_of_ne (show (Pipeline.arrRef spec2 4 : Ref sig .tc) ≠ main_v35 from by decide))]
  | ⟨5, _⟩ => by
    show (data2 m c).arrAt 5 cfg2.N = at6 m c (Proc.devRef .tc main_v35)
    unfold at6
    rw [Function.update_self]

set_option maxHeartbeats 4000000 in
/-- Every buffer that is none of its arrays is as the call found it. -/
theorem exit_rest2 (c : Dev nD) : ∀ b : Ref sig .tc, b ∉ Finset.univ.image (Pipeline.arrRef spec2) →
    (fun b : Ref sig .tc => at6 m c b) b = (fun b : Ref sig .tc => at5 m c b) b := fun b hb => by
  show at6 m c (Proc.devRef .tc b) = at5 m c (Proc.devRef .tc b)
  unfold at6
  rw [Function.update_of_ne (StableHlo.devRef_ne_of_ne (fun e => hb (Finset.mem_image.mpr ⟨5, Finset.mem_univ _, by rw [e]⟩)))]

set_option backward.isDefEq.respectTransparency.types false in
/-- Call 2 as a segment of the program: entered with every unscoped buffer at the boundary before it, left with them at
    the boundary after it; its arrays are taken out of the unscoped buffers on entry and put back on exit; the generator
    register goes into the call's invariant and comes back; the core owes nothing and the kernel has no semaphore of its
    own. -/
def record2 : Pipeline.RegionSeg (pcfgs (F := F)) adm (family m) () defs₀ Variants.none noLevels noLevel 2 where
  win := launch2.win.to₀
  block_pos := launch2.block_pos
  stage_whole := launch2.stage_whole
  K := PEmpty
  osem k := k.elim
  ho := Pipeline.OwnSemFacts.none _
  hbody c := (body_obligation2 (fun c b => at5 m c b) c).loose
  hwaits := Pipeline.hwaits_of_owed_zero _ _ _ _ noLevels noLevel 2 fun _ _ => rfl
  pre c := iprop(StableHlo.held (c : Thread nD τ) (Pipeline.ucRefs τ sig) (at5 m c) ∗ riding c)
  post c := iprop(StableHlo.held (c : Thread nD τ) (Pipeline.ucRefs τ sig) (at6 m c) ∗ riding c)
  X c := iprop(∃ r, prngReg c r)
  Y c := iprop(∃ r, prngReg c r)
  Z c := Pipeline.unscopedRest (Ix := Unit) (Name := ℕ) (U := UR sig nD τ) (Lvl := ℕ) spec2 c (fun b : Ref sig .tc => at5 m c b)
  hentry c := by
    rw [Pipeline.ownSems0_none]
    have hsplit := Pipeline.arrays_of_unscopedBufs (p := 2) (pcfgs (F := F)) adm (family m) launch2.win launch2.arr_whole c
      ((family m 2 c).share_full fun _ => rfl) (fun b : Ref sig .tc => at5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 2 c).Φ 0 = Pipeline.ΦA spec2 c from rfl]; unfold Pipeline.ΦA
    iintro ⟨Hp, -, Hr⟩
    isplitl [Hr]; · iexact Hr
    iexact Hp
  hout c := by
    rw [Pipeline.ownSems0_none, show (family m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (family m) ((family m 2 c).share_full fun _ => rfl)
      (fun b : Ref sig .tc => at5 m c b) (fun b : Ref sig .tc => at6 m c b) ((family m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 3 -/

set_option maxHeartbeats 4000000 in
/-- After call 3 each of its arrays holds what the write-backs leave: an array it writes by the boundary's definition,
    an array it only reads because no write-back touches it. -/
theorem exit_arrays3 (c : Dev nD) : ∀ w : Fin cfg3.W,
    (data3 m c).arrAt w cfg3.N = (fun b : Ref sig .tc => at8 m c b) (Pipeline.arrRef spec3 w)
  | ⟨0, _⟩ => by
    show (data3 m c).arrAt 0 cfg3.N = at8 m c (Proc.devRef .tc (Pipeline.arrRef spec3 0))
    rw [(data3 m c).arrAt_in 0 rfl _, show (data3 m c).A 0 = at7 m c (Proc.devRef .tc (Pipeline.arrRef spec3 0)) from productData3_A _ c 0]
    unfold at8
    rw [Function.update_of_ne (StableHlo.devRef_ne_of_ne (show (Pipeline.arrRef spec3 0 : Ref sig .tc) ≠ main_v38 from by decide))]
  | ⟨1, _⟩ => by
    show (data3 m c).arrAt 1 cfg3.N = at8 m c (Proc.devRef .tc (Pipeline.arrRef spec3 1))
    rw [(data3 m c).arrAt_in 1 rfl _, show (data3 m c).A 1 = at7 m c (Proc.devRef .tc (Pipeline.arrRef spec3 1)) from productData3_A _ c 1]
    unfold at8
    rw [Function.update_of_ne (StableHlo.devRef_ne_of_ne (show (Pipeline.arrRef spec3 1 : Ref sig .tc) ≠ main_v38 from by decide))]
  | ⟨2, _⟩ => by
    show (data3 m c).arrAt 2 cfg3.N = at8 m c (Proc.devRef .tc main_v38)
    unfold at8
    rw [Function.update_self]

set_option maxHeartbeats 4000000 in
/-- Every buffer that is none of its arrays is as the call found it. -/
theorem exit_rest3 (c : Dev nD) : ∀ b : Ref sig .tc, b ∉ Finset.univ.image (Pipeline.arrRef spec3) →
    (fun b : Ref sig .tc => at8 m c b) b = (fun b : Ref sig .tc => at7 m c b) b := fun b hb => by
  show at8 m c (Proc.devRef .tc b) = at7 m c (Proc.devRef .tc b)
  unfold at8
  rw [Function.update_of_ne (StableHlo.devRef_ne_of_ne (fun e => hb (Finset.mem_image.mpr ⟨2, Finset.mem_univ _, by rw [e]⟩)))]

set_option backward.isDefEq.respectTransparency.types false in
/-- Call 3 as a segment of the program: entered with every unscoped buffer at the boundary before it, left with them at
    the boundary after it; its arrays are taken out of the unscoped buffers on entry and put back on exit; the generator
    register goes into the call's invariant and comes back; the core owes nothing and the kernel has no semaphore of its
    own. -/
def record3 : Pipeline.RegionSeg (pcfgs (F := F)) adm (family m) () defs₀ Variants.none noLevels noLevel 3 where
  win := launch3.win.to₀
  block_pos := launch3.block_pos
  stage_whole := launch3.stage_whole
  K := PEmpty
  osem k := k.elim
  ho := Pipeline.OwnSemFacts.none _
  hbody c := (body_obligation3 (fun c b => at7 m c b) c).loose
  hwaits := Pipeline.hwaits_of_owed_zero _ _ _ _ noLevels noLevel 3 fun _ _ => rfl
  pre c := iprop(StableHlo.held (c : Thread nD τ) (Pipeline.ucRefs τ sig) (at7 m c) ∗ riding c)
  post c := iprop(StableHlo.held (c : Thread nD τ) (Pipeline.ucRefs τ sig) (at8 m c) ∗ riding c)
  X c := iprop(∃ r, prngReg c r)
  Y c := iprop(∃ r, prngReg c r)
  Z c := Pipeline.unscopedRest (Ix := Unit) (Name := ℕ) (U := UR sig nD τ) (Lvl := ℕ) spec3 c (fun b : Ref sig .tc => at7 m c b)
  hentry c := by
    rw [Pipeline.ownSems0_none]
    have hsplit := Pipeline.arrays_of_unscopedBufs (p := 3) (pcfgs (F := F)) adm (family m) launch3.win launch3.arr_whole c
      ((family m 3 c).share_full fun _ => rfl) (fun b : Ref sig .tc => at7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 3 c).Φ 0 = Pipeline.ΦA spec3 c from rfl]; unfold Pipeline.ΦA
    iintro ⟨Hp, -, Hr⟩
    isplitl [Hr]; · iexact Hr
    iexact Hp
  hout c := by
    rw [Pipeline.ownSems0_none, show (family m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (family m) ((family m 3 c).share_full fun _ => rfl)
      (fun b : Ref sig .tc => at7 m c b) (fun b : Ref sig .tc => at8 m c b) ((family m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 4 -/

set_option maxHeartbeats 4000000 in
/-- After call 4 each of its arrays holds what the write-backs leave: an array it writes by the boundary's definition,
    an array it only reads because no write-back touches it. -/
theorem exit_arrays4 (c : Dev nD) : ∀ w : Fin cfg4.W,
    (data4 m c).arrAt w cfg4.N = (fun b : Ref sig .tc => at10 m c b) (Pipeline.arrRef spec4 w)
  | ⟨0, _⟩ => by
    show (data4 m c).arrAt 0 cfg4.N = at10 m c (Proc.devRef .tc (Pipeline.arrRef spec4 0))
    rw [(data4 m c).arrAt_in 0 rfl _, show (data4 m c).A 0 = at9 m c (Proc.devRef .tc (Pipeline.arrRef spec4 0)) from statsData4_A _ c 0]
    unfold at10
    rw [Function.update_of_ne (StableHlo.devRef_ne_of_ne (show (Pipeline.arrRef spec4 0 : Ref sig .tc) ≠ main_v58_2 from by decide)), Function.update_of_ne (StableHlo.devRef_ne_of_ne (show (Pipeline.arrRef spec4 0 : Ref sig .tc) ≠ main_v58_1 from by decide)), Function.update_of_ne (StableHlo.devRef_ne_of_ne (show (Pipeline.arrRef spec4 0 : Ref sig .tc) ≠ main_v58_0 from by decide))]
  | ⟨1, _⟩ => by
    show (data4 m c).arrAt 1 cfg4.N = at10 m c (Proc.devRef .tc (Pipeline.arrRef spec4 1))
    rw [(data4 m c).arrAt_in 1 rfl _, show (data4 m c).A 1 = at9 m c (Proc.devRef .tc (Pipeline.arrRef spec4 1)) from statsData4_A _ c 1]
    unfold at10
    rw [Function.update_of_ne (StableHlo.devRef_ne_of_ne (show (Pipeline.arrRef spec4 1 : Ref sig .tc) ≠ main_v58_2 from by decide)), Function.update_of_ne (StableHlo.devRef_ne_of_ne (show (Pipeline.arrRef spec4 1 : Ref sig .tc) ≠ main_v58_1 from by decide)), Function.update_of_ne (StableHlo.devRef_ne_of_ne (show (Pipeline.arrRef spec4 1 : Ref sig .tc) ≠ main_v58_0 from by decide))]
  | ⟨2, _⟩ => by
    show (data4 m c).arrAt 2 cfg4.N = at10 m c (Proc.devRef .tc (Pipeline.arrRef spec4 2))
    rw [(data4 m c).arrAt_in 2 rfl _, show (data4 m c).A 2 = at9 m c (Proc.devRef .tc (Pipeline.arrRef spec4 2)) from statsData4_A _ c 2]
    unfold at10
    rw [Function.update_of_ne (StableHlo.devRef_ne_of_ne (show (Pipeline.arrRef spec4 2 : Ref sig .tc) ≠ main_v58_2 from by decide)), Function.update_of_ne (StableHlo.devRef_ne_of_ne (show (Pipeline.arrRef spec4 2 : Ref sig .tc) ≠ main_v58_1 from by decide)), Function.update_of_ne (StableHlo.devRef_ne_of_ne (show (Pipeline.arrRef spec4 2 : Ref sig .tc) ≠ main_v58_0 from by decide))]
  | ⟨3, _⟩ => by
    show (data4 m c).arrAt 3 cfg4.N = at10 m c (Proc.devRef .tc (Pipeline.arrRef spec4 3))
    rw [(data4 m c).arrAt_in 3 rfl _, show (data4 m c).A 3 = at9 m c (Proc.devRef .tc (Pipeline.arrRef spec4 3)) from statsData4_A _ c 3]
    unfold at10
    rw [Function.update_of_ne (StableHlo.devRef_ne_of_ne (show (Pipeline.arrRef spec4 3 : Ref sig .tc) ≠ main_v58_2 from by decide)), Function.update_of_ne (StableHlo.devRef_ne_of_ne (show (Pipeline.arrRef spec4 3 : Ref sig .tc) ≠ main_v58_1 from by decide)), Function.update_of_ne (StableHlo.devRef_ne_of_ne (show (Pipeline.arrRef spec4 3 : Ref sig .tc) ≠ main_v58_0 from by decide))]
  | ⟨4, _⟩ => by
    show (data4 m c).arrAt 4 cfg4.N = at10 m c (Proc.devRef .tc main_v58_0)
    unfold at10
    rw [Function.update_of_ne (StableHlo.devRef_ne_of_ne (show (main_v58_0 : Ref sig .tc) ≠ main_v58_2 from by decide)), Function.update_of_ne (StableHlo.devRef_ne_of_ne (show (main_v58_0 : Ref sig .tc) ≠ main_v58_1 from by decide)), Function.update_self]
  | ⟨5, _⟩ => by
    show (data4 m c).arrAt 5 cfg4.N = at10 m c (Proc.devRef .tc main_v58_1)
    unfold at10
    rw [Function.update_of_ne (StableHlo.devRef_ne_of_ne (show (main_v58_1 : Ref sig .tc) ≠ main_v58_2 from by decide)), Function.update_self]
  | ⟨6, _⟩ => by
    show (data4 m c).arrAt 6 cfg4.N = at10 m c (Proc.devRef .tc main_v58_2)
    unfold at10
    rw [Function.update_self]

set_option maxHeartbeats 4000000 in
/-- Every buffer that is none of its arrays is as the call found it. -/
theorem exit_rest4 (c : Dev nD) : ∀ b : Ref sig .tc, b ∉ Finset.univ.image (Pipeline.arrRef spec4) →
    (fun b : Ref sig .tc => at10 m c b) b = (fun b : Ref sig .tc => at9 m c b) b := fun b hb => by
  show at10 m c (Proc.devRef .tc b) = at9 m c (Proc.devRef .tc b)
  unfold at10
  rw [Function.update_of_ne (StableHlo.devRef_ne_of_ne (fun e => hb (Finset.mem_image.mpr ⟨6, Finset.mem_univ _, by rw [e]⟩))), Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩)))]

set_option backward.isDefEq.respectTransparency.types false in
/-- Call 4 as a segment of the program: entered with every unscoped buffer at the boundary before it, left with them at
    the boundary after it; its arrays are taken out of the unscoped buffers on entry and put back on exit; the generator
    register goes into the call's invariant and comes back; the core owes nothing and the kernel has no semaphore of its
    own. -/
def record4 : Pipeline.RegionSeg (pcfgs (F := F)) adm (family m) () defs₀ Variants.none noLevels noLevel 4 where
  win := launch4.win.to₀
  block_pos := launch4.block_pos
  stage_whole := launch4.stage_whole
  K := PEmpty
  osem k := k.elim
  ho := Pipeline.OwnSemFacts.none _
  hbody c := (body_obligation4 (fun c b => at9 m c b) c).loose
  hwaits := Pipeline.hwaits_of_owed_zero _ _ _ _ noLevels noLevel 4 fun _ _ => rfl
  pre c := iprop(StableHlo.held (c : Thread nD τ) (Pipeline.ucRefs τ sig) (at9 m c) ∗ riding c)
  post c := iprop(StableHlo.held (c : Thread nD τ) (Pipeline.ucRefs τ sig) (at10 m c) ∗ riding c)
  X c := iprop(∃ r, prngReg c r)
  Y c := iprop(∃ r, prngReg c r)
  Z c := Pipeline.unscopedRest (Ix := Unit) (Name := ℕ) (U := UR sig nD τ) (Lvl := ℕ) spec4 c (fun b : Ref sig .tc => at9 m c b)
  hentry c := by
    rw [Pipeline.ownSems0_none]
    have hsplit := Pipeline.arrays_of_unscopedBufs (p := 4) (pcfgs (F := F)) adm (family m) launch4.win launch4.arr_whole c
      ((family m 4 c).share_full fun _ => rfl) (fun b : Ref sig .tc => at9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData4 (F := F) (fun c b => at9 m c b) c).Φ 0
    iintro ⟨Hp, -, Hr⟩
    iapply (invariant_in4 (fun c b => at9 m c b) c)
    unfold Pipeline.ΦA
    isplitl [Hr]; · iexact Hr
    iexact Hp
  hout c := by
    rw [Pipeline.ownSems0_none]
    show (statsData4 (F := F) (fun c b => at9 m c b) c).Φ (Fin.last cfg4.N) ⊢ _
    iintro H
    ihave H' := (invariant_out4 (fun c b => at9 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (family m) ((family m 4 c).share_full fun _ => rfl)
      (fun b : Ref sig .tc => at9 m c b) (fun b : Ref sig .tc => at10 m c b) ((family m 4 c).arrAt · cfg4.N) (exit_arrays4 m c) (exit_rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 5 -/

set_option maxHeartbeats 4000000 in
/-- After call 5 each of its arrays holds what the write-backs leave: an array it writes by the boundary's definition,
    an array it only reads because no write-back touches it. -/
theorem exit_arrays5 (c : Dev nD) : ∀ w : Fin cfg5.W,
    (data5 m c).arrAt w cfg5.N = (fun b : Ref sig .tc => at12 m c b) (Pipeline.arrRef spec5 w)
  | ⟨0, _⟩ => by
    show (data5 m c).arrAt 0 cfg5.N = at12 m c (Proc.devRef .tc (Pipeline.arrRef spec5 0))
    rw [(data5 m c).arrAt_in 0 rfl _, show (data5 m c).A 0 = at11 m c (Proc.devRef .tc (Pipeline.arrRef spec5 0)) from normData5_A _ c 0]
    unfold at12
    rw [Function.update_of_ne (StableHlo.devRef_ne_of_ne (show (Pipeline.arrRef spec5 0 : Ref sig .tc) ≠ main_v71 from by decide))]
  | ⟨1, _⟩ => by
    show (data5 m c).arrAt 1 cfg5.N = at12 m c (Proc.devRef .tc (Pipeline.arrRef spec5 1))
    rw [(data5 m c).arrAt_in 1 rfl _, show (data5 m c).A 1 = at11 m c (Proc.devRef .tc (Pipeline.arrRef spec5 1)) from normData5_A _ c 1]
    unfold at12
    rw [Function.update_of_ne (StableHlo.devRef_ne_of_ne (show (Pipeline.arrRef spec5 1 : Ref sig .tc) ≠ main_v71 from by decide))]
  | ⟨2, _⟩ => by
    show (data5 m c).arrAt 2 cfg5.N = at12 m c (Proc.devRef .tc (Pipeline.arrRef spec5 2))
    rw [(data5 m c).arrAt_in 2 rfl _, show (data5 m c).A 2 = at11 m c (Proc.devRef .tc (Pipeline.arrRef spec5 2)) from normData5_A _ c 2]
    unfold at12
    rw [Function.update_of_ne (StableHlo.devRef_ne_of_ne (show (Pipeline.arrRef spec5 2 : Ref sig .tc) ≠ main_v71 from by decide))]
  | ⟨3, _⟩ => by
    show (data5 m c).arrAt 3 cfg5.N = at12 m c (Proc.devRef .tc (Pipeline.arrRef spec5 3))
    rw [(data5 m c).arrAt_in 3 rfl _, show (data5 m c).A 3 = at11 m c (Proc.devRef .tc (Pipeline.arrRef spec5 3)) from normData5_A _ c 3]
    unfold at12
    rw [Function.update_of_ne (StableHlo.devRef_ne_of_ne (show (Pipeline.arrRef spec5 3 : Ref sig .tc) ≠ main_v71 from by decide))]
  | ⟨4, _⟩ => by
    show (data5 m c).arrAt 4 cfg5.N = at12 m c (Proc.devRef .tc (Pipeline.arrRef spec5 4))
    rw [(data5 m c).arrAt_in 4 rfl _, show (data5 m c).A 4 = at11 m c (Proc.devRef .tc (Pipeline.arrRef spec5 4)) from normData5_A _ c 4]
    unfold at12
    rw [Function.update_of_ne (StableHlo.devRef_ne_of_ne (show (Pipeline.arrRef spec5 4 : Ref sig .tc) ≠ main_v71 from by decide))]
  | ⟨5, _⟩ => by
    show (data5 m c).arrAt 5 cfg5.N = at12 m c (Proc.devRef .tc main_v71)
    unfold at12
    rw [Function.update_self]

set_option maxHeartbeats 4000000 in
/-- Every buffer that is none of its arrays is as the call found it. -/
theorem exit_rest5 (c : Dev nD) : ∀ b : Ref sig .tc, b ∉ Finset.univ.image (Pipeline.arrRef spec5) →
    (fun b : Ref sig .tc => at12 m c b) b = (fun b : Ref sig .tc => at11 m c b) b := fun b hb => by
  show at12 m c (Proc.devRef .tc b) = at11 m c (Proc.devRef .tc b)
  unfold at12
  rw [Function.update_of_ne (StableHlo.devRef_ne_of_ne (fun e => hb (Finset.mem_image.mpr ⟨5, Finset.mem_univ _, by rw [e]⟩)))]

set_option backward.isDefEq.respectTransparency.types false in
/-- Call 5 as a segment of the program: entered with every unscoped buffer at the boundary before it, left with them at
    the boundary after it; its arrays are taken out of the unscoped buffers on entry and put back on exit; the generator
    register goes into the call's invariant and comes back; the core owes nothing and the kernel has no semaphore of its
    own. -/
def record5 : Pipeline.RegionSeg (pcfgs (F := F)) adm (family m) () defs₀ Variants.none noLevels noLevel 5 where
  win := launch5.win.to₀
  block_pos := launch5.block_pos
  stage_whole := launch5.stage_whole
  K := PEmpty
  osem k := k.elim
  ho := Pipeline.OwnSemFacts.none _
  hbody c := (body_obligation5 (fun c b => at11 m c b) c).loose
  hwaits := Pipeline.hwaits_of_owed_zero _ _ _ _ noLevels noLevel 5 fun _ _ => rfl
  pre c := iprop(StableHlo.held (c : Thread nD τ) (Pipeline.ucRefs τ sig) (at11 m c) ∗ riding c)
  post c := iprop(StableHlo.held (c : Thread nD τ) (Pipeline.ucRefs τ sig) (at12 m c) ∗ riding c)
  X c := iprop(∃ r, prngReg c r)
  Y c := iprop(∃ r, prngReg c r)
  Z c := Pipeline.unscopedRest (Ix := Unit) (Name := ℕ) (U := UR sig nD τ) (Lvl := ℕ) spec5 c (fun b : Ref sig .tc => at11 m c b)
  hentry c := by
    rw [Pipeline.ownSems0_none]
    have hsplit := Pipeline.arrays_of_unscopedBufs (p := 5) (pcfgs (F := F)) adm (family m) launch5.win launch5.arr_whole c
      ((family m 5 c).share_full fun _ => rfl) (fun b : Ref sig .tc => at11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 5 c).Φ 0 = Pipeline.ΦA spec5 c from rfl]; unfold Pipeline.ΦA
    iintro ⟨Hp, -, Hr⟩
    isplitl [Hr]; · iexact Hr
    iexact Hp
  hout c := by
    rw [Pipeline.ownSems0_none, show (family m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (family m) ((family m 5 c).share_full fun _ => rfl)
      (fun b : Ref sig .tc => at11 m c b) (fun b : Ref sig .tc => at12 m c b) ((family m 5 c).arrAt · cfg5.N) (exit_arrays5 m c) (exit_rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 6 -/

set_option maxHeartbeats 4000000 in
/-- After call 6 each of its arrays holds what the write-backs leave: an array it writes by the boundary's definition,
    an array it only reads because no write-back touches it. -/
theorem exit_arrays6 (c : Dev nD) : ∀ w : Fin cfg6.W,
    (data6 m c).arrAt w cfg6.N = (fun b : Ref sig .tc => at14 m c b) (Pipeline.arrRef spec6 w)
  | ⟨0, _⟩ => by
    show (data6 m c).arrAt 0 cfg6.N = at14 m c (Proc.devRef .tc (Pipeline.arrRef spec6 0))
    rw [(data6 m c).arrAt_in 0 rfl _, show (data6 m c).A 0 = at13 m c (Proc.devRef .tc (Pipeline.arrRef spec6 0)) from productData6_A _ c 0]
    unfold at14
    rw [Function.update_of_ne (StableHlo.devRef_ne_of_ne (show (Pipeline.arrRef spec6 0 : Ref sig .tc) ≠ main_v74 from by decide))]
  | ⟨1, _⟩ => by
    show (data6 m c).arrAt 1 cfg6.N = at14 m c (Proc.devRef .tc (Pipeline.arrRef spec6 1))
    rw [(data6 m c).arrAt_in 1 rfl _, show (data6 m c).A 1 = at13 m c (Proc.devRef .tc (Pipeline.arrRef spec6 1)) from productData6_A _ c 1]
    unfold at14
    rw [Function.update_of_ne (StableHlo.devRef_ne_of_ne (show (Pipeline.arrRef spec6 1 : Ref sig .tc) ≠ main_v74 from by decide))]
  | ⟨2, _⟩ => by
    show (data6 m c).arrAt 2 cfg6.N = at14 m c (Proc.devRef .tc main_v74)
    unfold at14
    rw [Function.update_self]

set_option maxHeartbeats 4000000 in
/-- Every buffer that is none of its arrays is as the call found it. -/
theorem exit_rest6 (c : Dev nD) : ∀ b : Ref sig .tc, b ∉ Finset.univ.image (Pipeline.arrRef spec6) →
    (fun b : Ref sig .tc => at14 m c b) b = (fun b : Ref sig .tc => at13 m c b) b := fun b hb => by
  show at14 m c (Proc.devRef .tc b) = at13 m c (Proc.devRef .tc b)
  unfold at14
  rw [Function.update_of_ne (StableHlo.devRef_ne_of_ne (fun e => hb (Finset.mem_image.mpr ⟨2, Finset.mem_univ _, by rw [e]⟩)))]

set_option backward.isDefEq.respectTransparency.types false in
/-- Call 6 as a segment of the program: entered with every unscoped buffer at the boundary before it, left with them at
    the boundary after it; its arrays are taken out of the unscoped buffers on entry and put back on exit; the generator
    register goes into the call's invariant and comes back; the core owes nothing and the kernel has no semaphore of its
    own. -/
def record6 : Pipeline.RegionSeg (pcfgs (F := F)) adm (family m) () defs₀ Variants.none noLevels noLevel 6 where
  win := launch6.win.to₀
  block_pos := launch6.block_pos
  stage_whole := launch6.stage_whole
  K := PEmpty
  osem k := k.elim
  ho := Pipeline.OwnSemFacts.none _
  hbody c := (body_obligation6 (fun c b => at13 m c b) c).loose
  hwaits := Pipeline.hwaits_of_owed_zero _ _ _ _ noLevels noLevel 6 fun _ _ => rfl
  pre c := iprop(StableHlo.held (c : Thread nD τ) (Pipeline.ucRefs τ sig) (at13 m c) ∗ riding c)
  post c := iprop(StableHlo.held (c : Thread nD τ) (Pipeline.ucRefs τ sig) (at14 m c) ∗ riding c)
  X c := iprop(∃ r, prngReg c r)
  Y c := iprop(∃ r, prngReg c r)
  Z c := Pipeline.unscopedRest (Ix := Unit) (Name := ℕ) (U := UR sig nD τ) (Lvl := ℕ) spec6 c (fun b : Ref sig .tc => at13 m c b)
  hentry c := by
    rw [Pipeline.ownSems0_none]
    have hsplit := Pipeline.arrays_of_unscopedBufs (p := 6) (pcfgs (F := F)) adm (family m) launch6.win launch6.arr_whole c
      ((family m 6 c).share_full fun _ => rfl) (fun b : Ref sig .tc => at13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 6 c).Φ 0 = Pipeline.ΦA spec6 c from rfl]; unfold Pipeline.ΦA
    iintro ⟨Hp, -, Hr⟩
    isplitl [Hr]; · iexact Hr
    iexact Hp
  hout c := by
    rw [Pipeline.ownSems0_none, show (family m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (family m) ((family m 6 c).share_full fun _ => rfl)
      (fun b : Ref sig .tc => at13 m c b) (fun b : Ref sig .tc => at14 m c b) ((family m 6 c).arrAt · cfg6.N) (exit_arrays6 m c) (exit_rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 7 -/

set_option maxHeartbeats 4000000 in
/-- After call 7 each of its arrays holds what the write-backs leave: an array it writes by the boundary's definition,
    an array it only reads because no write-back touches it. -/
theorem exit_arrays7 (c : Dev nD) : ∀ w : Fin cfg7.W,
    (data7 m c).arrAt w cfg7.N = (fun b : Ref sig .tc => at16 m c b) (Pipeline.arrRef spec7 w)
  | ⟨0, _⟩ => by
    show (data7 m c).arrAt 0 cfg7.N = at16 m c (Proc.devRef .tc (Pipeline.arrRef spec7 0))
    rw [(data7 m c).arrAt_in 0 rfl _, show (data7 m c).A 0 = at15 m c (Proc.devRef .tc (Pipeline.arrRef spec7 0)) from statsData7_A _ c 0]
    unfold at16
    rw [Function.update_of_ne (StableHlo.devRef_ne_of_ne (show (Pipeline.arrRef spec7 0 : Ref sig .tc) ≠ main_v94_2 from by decide)), Function.update_of_ne (StableHlo.devRef_ne_of_ne (show (Pipeline.arrRef spec7 0 : Ref sig .tc) ≠ main_v94_1 from by decide)), Function.update_of_ne (StableHlo.devRef_ne_of_ne (show (Pipeline.arrRef spec7 0 : Ref sig .tc) ≠ main_v94_0 from by decide))]
  | ⟨1, _⟩ => by
    show (data7 m c).arrAt 1 cfg7.N = at16 m c (Proc.devRef .tc (Pipeline.arrRef spec7 1))
    rw [(data7 m c).arrAt_in 1 rfl _, show (data7 m c).A 1 = at15 m c (Proc.devRef .tc (Pipeline.arrRef spec7 1)) from statsData7_A _ c 1]
    unfold at16
    rw [Function.update_of_ne (StableHlo.devRef_ne_of_ne (show (Pipeline.arrRef spec7 1 : Ref sig .tc) ≠ main_v94_2 from by decide)), Function.update_of_ne (StableHlo.devRef_ne_of_ne (show (Pipeline.arrRef spec7 1 : Ref sig .tc) ≠ main_v94_1 from by decide)), Function.update_of_ne (StableHlo.devRef_ne_of_ne (show (Pipeline.arrRef spec7 1 : Ref sig .tc) ≠ main_v94_0 from by decide))]
  | ⟨2, _⟩ => by
    show (data7 m c).arrAt 2 cfg7.N = at16 m c (Proc.devRef .tc (Pipeline.arrRef spec7 2))
    rw [(data7 m c).arrAt_in 2 rfl _, show (data7 m c).A 2 = at15 m c (Proc.devRef .tc (Pipeline.arrRef spec7 2)) from statsData7_A _ c 2]
    unfold at16
    rw [Function.update_of_ne (StableHlo.devRef_ne_of_ne (show (Pipeline.arrRef spec7 2 : Ref sig .tc) ≠ main_v94_2 from by decide)), Function.update_of_ne (StableHlo.devRef_ne_of_ne (show (Pipeline.arrRef spec7 2 : Ref sig .tc) ≠ main_v94_1 from by decide)), Function.update_of_ne (StableHlo.devRef_ne_of_ne (show (Pipeline.arrRef spec7 2 : Ref sig .tc) ≠ main_v94_0 from by decide))]
  | ⟨3, _⟩ => by
    show (data7 m c).arrAt 3 cfg7.N = at16 m c (Proc.devRef .tc (Pipeline.arrRef spec7 3))
    rw [(data7 m c).arrAt_in 3 rfl _, show (data7 m c).A 3 = at15 m c (Proc.devRef .tc (Pipeline.arrRef spec7 3)) from statsData7_A _ c 3]
    unfold at16
    rw [Function.update_of_ne (StableHlo.devRef_ne_of_ne (show (Pipeline.arrRef spec7 3 : Ref sig .tc) ≠ main_v94_2 from by decide)), Function.update_of_ne (StableHlo.devRef_ne_of_ne (show (Pipeline.arrRef spec7 3 : Ref sig .tc) ≠ main_v94_1 from by decide)), Function.update_of_ne (StableHlo.devRef_ne_of_ne (show (Pipeline.arrRef spec7 3 : Ref sig .tc) ≠ main_v94_0 from by decide))]
  | ⟨4, _⟩ => by
    show (data7 m c).arrAt 4 cfg7.N = at16 m c (Proc.devRef .tc main_v94_0)
    unfold at16
    rw [Function.update_of_ne (StableHlo.devRef_ne_of_ne (show (main_v94_0 : Ref sig .tc) ≠ main_v94_2 from by decide)), Function.update_of_ne (StableHlo.devRef_ne_of_ne (show (main_v94_0 : Ref sig .tc) ≠ main_v94_1 from by decide)), Function.update_self]
  | ⟨5, _⟩ => by
    show (data7 m c).arrAt 5 cfg7.N = at16 m c (Proc.devRef .tc main_v94_1)
    unfold at16
    rw [Function.update_of_ne (StableHlo.devRef_ne_of_ne (show (main_v94_1 : Ref sig .tc) ≠ main_v94_2 from by decide)), Function.update_self]
  | ⟨6, _⟩ => by
    show (data7 m c).arrAt 6 cfg7.N = at16 m c (Proc.devRef .tc main_v94_2)
    unfold at16
    rw [Function.update_self]

set_option maxHeartbeats 4000000 in
/-- Every buffer that is none of its arrays is as the call found it. -/
theorem exit_rest7 (c : Dev nD) : ∀ b : Ref sig .tc, b ∉ Finset.univ.image (Pipeline.arrRef spec7) →
    (fun b : Ref sig .tc => at16 m c b) b = (fun b : Ref sig .tc => at15 m c b) b := fun b hb => by
  show at16 m c (Proc.devRef .tc b) = at15 m c (Proc.devRef .tc b)
  unfold at16
  rw [Function.update_of_ne (StableHlo.devRef_ne_of_ne (fun e => hb (Finset.mem_image.mpr ⟨6, Finset.mem_univ _, by rw [e]⟩))), Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩)))]

set_option backward.isDefEq.respectTransparency.types false in
/-- Call 7 as a segment of the program: entered with every unscoped buffer at the boundary before it, left with them at
    the boundary after it; its arrays are taken out of the unscoped buffers on entry and put back on exit; the generator
    register goes into the call's invariant and comes back; the core owes nothing and the kernel has no semaphore of its
    own. -/
def record7 : Pipeline.RegionSeg (pcfgs (F := F)) adm (family m) () defs₀ Variants.none noLevels noLevel 7 where
  win := launch7.win.to₀
  block_pos := launch7.block_pos
  stage_whole := launch7.stage_whole
  K := PEmpty
  osem k := k.elim
  ho := Pipeline.OwnSemFacts.none _
  hbody c := (body_obligation7 (fun c b => at15 m c b) c).loose
  hwaits := Pipeline.hwaits_of_owed_zero _ _ _ _ noLevels noLevel 7 fun _ _ => rfl
  pre c := iprop(StableHlo.held (c : Thread nD τ) (Pipeline.ucRefs τ sig) (at15 m c) ∗ riding c)
  post c := iprop(StableHlo.held (c : Thread nD τ) (Pipeline.ucRefs τ sig) (at16 m c) ∗ riding c)
  X c := iprop(∃ r, prngReg c r)
  Y c := iprop(∃ r, prngReg c r)
  Z c := Pipeline.unscopedRest (Ix := Unit) (Name := ℕ) (U := UR sig nD τ) (Lvl := ℕ) spec7 c (fun b : Ref sig .tc => at15 m c b)
  hentry c := by
    rw [Pipeline.ownSems0_none]
    have hsplit := Pipeline.arrays_of_unscopedBufs (p := 7) (pcfgs (F := F)) adm (family m) launch7.win launch7.arr_whole c
      ((family m 7 c).share_full fun _ => rfl) (fun b : Ref sig .tc => at15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData7 (F := F) (fun c b => at15 m c b) c).Φ 0
    iintro ⟨Hp, -, Hr⟩
    iapply (invariant_in7 (fun c b => at15 m c b) c)
    unfold Pipeline.ΦA
    isplitl [Hr]; · iexact Hr
    iexact Hp
  hout c := by
    rw [Pipeline.ownSems0_none]
    show (statsData7 (F := F) (fun c b => at15 m c b) c).Φ (Fin.last cfg7.N) ⊢ _
    iintro H
    ihave H' := (invariant_out7 (fun c b => at15 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (family m) ((family m 7 c).share_full fun _ => rfl)
      (fun b : Ref sig .tc => at15 m c b) (fun b : Ref sig .tc => at16 m c b) ((family m 7 c).arrAt · cfg7.N) (exit_arrays7 m c) (exit_rest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 8 -/

set_option maxHeartbeats 4000000 in
/-- After call 8 each of its arrays holds what the write-backs leave: an array it writes by the boundary's definition,
    an array it only reads because no write-back touches it. -/
theorem exit_arrays8 (c : Dev nD) : ∀ w : Fin cfg8.W,
    (data8 m c).arrAt w cfg8.N = (fun b : Ref sig .tc => at18 m c b) (Pipeline.arrRef spec8 w)
  | ⟨0, _⟩ => by
    show (data8 m c).arrAt 0 cfg8.N = at18 m c (Proc.devRef .tc (Pipeline.arrRef spec8 0))
    rw [(data8 m c).arrAt_in 0 rfl _, show (data8 m c).A 0 = at17 m c (Proc.devRef .tc (Pipeline.arrRef spec8 0)) from normData8_A _ c 0]
    unfold at18
    rw [Function.update_of_ne (StableHlo.devRef_ne_of_ne (show (Pipeline.arrRef spec8 0 : Ref sig .tc) ≠ main_v107 from by decide))]
  | ⟨1, _⟩ => by
    show (data8 m c).arrAt 1 cfg8.N = at18 m c (Proc.devRef .tc (Pipeline.arrRef spec8 1))
    rw [(data8 m c).arrAt_in 1 rfl _, show (data8 m c).A 1 = at17 m c (Proc.devRef .tc (Pipeline.arrRef spec8 1)) from normData8_A _ c 1]
    unfold at18
    rw [Function.update_of_ne (StableHlo.devRef_ne_of_ne (show (Pipeline.arrRef spec8 1 : Ref sig .tc) ≠ main_v107 from by decide))]
  | ⟨2, _⟩ => by
    show (data8 m c).arrAt 2 cfg8.N = at18 m c (Proc.devRef .tc (Pipeline.arrRef spec8 2))
    rw [(data8 m c).arrAt_in 2 rfl _, show (data8 m c).A 2 = at17 m c (Proc.devRef .tc (Pipeline.arrRef spec8 2)) from normData8_A _ c 2]
    unfold at18
    rw [Function.update_of_ne (StableHlo.devRef_ne_of_ne (show (Pipeline.arrRef spec8 2 : Ref sig .tc) ≠ main_v107 from by decide))]
  | ⟨3, _⟩ => by
    show (data8 m c).arrAt 3 cfg8.N = at18 m c (Proc.devRef .tc (Pipeline.arrRef spec8 3))
    rw [(data8 m c).arrAt_in 3 rfl _, show (data8 m c).A 3 = at17 m c (Proc.devRef .tc (Pipeline.arrRef spec8 3)) from normData8_A _ c 3]
    unfold at18
    rw [Function.update_of_ne (StableHlo.devRef_ne_of_ne (show (Pipeline.arrRef spec8 3 : Ref sig .tc) ≠ main_v107 from by decide))]
  | ⟨4, _⟩ => by
    show (data8 m c).arrAt 4 cfg8.N = at18 m c (Proc.devRef .tc (Pipeline.arrRef spec8 4))
    rw [(data8 m c).arrAt_in 4 rfl _, show (data8 m c).A 4 = at17 m c (Proc.devRef .tc (Pipeline.arrRef spec8 4)) from normData8_A _ c 4]
    unfold at18
    rw [Function.update_of_ne (StableHlo.devRef_ne_of_ne (show (Pipeline.arrRef spec8 4 : Ref sig .tc) ≠ main_v107 from by decide))]
  | ⟨5, _⟩ => by
    show (data8 m c).arrAt 5 cfg8.N = at18 m c (Proc.devRef .tc main_v107)
    unfold at18
    rw [Function.update_self]

set_option maxHeartbeats 4000000 in
/-- Every buffer that is none of its arrays is as the call found it. -/
theorem exit_rest8 (c : Dev nD) : ∀ b : Ref sig .tc, b ∉ Finset.univ.image (Pipeline.arrRef spec8) →
    (fun b : Ref sig .tc => at18 m c b) b = (fun b : Ref sig .tc => at17 m c b) b := fun b hb => by
  show at18 m c (Proc.devRef .tc b) = at17 m c (Proc.devRef .tc b)
  unfold at18
  rw [Function.update_of_ne (StableHlo.devRef_ne_of_ne (fun e => hb (Finset.mem_image.mpr ⟨5, Finset.mem_univ _, by rw [e]⟩)))]

set_option backward.isDefEq.respectTransparency.types false in
/-- Call 8 as a segment of the program: entered with every unscoped buffer at the boundary before it, left with them at
    the boundary after it; its arrays are taken out of the unscoped buffers on entry and put back on exit; the generator
    register goes into the call's invariant and comes back; the core owes nothing and the kernel has no semaphore of its
    own. -/
def record8 : Pipeline.RegionSeg (pcfgs (F := F)) adm (family m) () defs₀ Variants.none noLevels noLevel 8 where
  win := launch8.win.to₀
  block_pos := launch8.block_pos
  stage_whole := launch8.stage_whole
  K := PEmpty
  osem k := k.elim
  ho := Pipeline.OwnSemFacts.none _
  hbody c := (body_obligation8 (fun c b => at17 m c b) c).loose
  hwaits := Pipeline.hwaits_of_owed_zero _ _ _ _ noLevels noLevel 8 fun _ _ => rfl
  pre c := iprop(StableHlo.held (c : Thread nD τ) (Pipeline.ucRefs τ sig) (at17 m c) ∗ riding c)
  post c := iprop(StableHlo.held (c : Thread nD τ) (Pipeline.ucRefs τ sig) (at18 m c) ∗ riding c)
  X c := iprop(∃ r, prngReg c r)
  Y c := iprop(∃ r, prngReg c r)
  Z c := Pipeline.unscopedRest (Ix := Unit) (Name := ℕ) (U := UR sig nD τ) (Lvl := ℕ) spec8 c (fun b : Ref sig .tc => at17 m c b)
  hentry c := by
    rw [Pipeline.ownSems0_none]
    have hsplit := Pipeline.arrays_of_unscopedBufs (p := 8) (pcfgs (F := F)) adm (family m) launch8.win launch8.arr_whole c
      ((family m 8 c).share_full fun _ => rfl) (fun b : Ref sig .tc => at17 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 8 c).Φ 0 = Pipeline.ΦA spec8 c from rfl]; unfold Pipeline.ΦA
    iintro ⟨Hp, -, Hr⟩
    isplitl [Hr]; · iexact Hr
    iexact Hp
  hout c := by
    rw [Pipeline.ownSems0_none, show (family m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (family m) ((family m 8 c).share_full fun _ => rfl)
      (fun b : Ref sig .tc => at17 m c b) (fun b : Ref sig .tc => at18 m c b) ((family m 8 c).arrAt · cfg8.N) (exit_arrays8 m c) (exit_rest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program on the cores terminates, nothing
    faulting, and every final memory holds each of the nine argument arrays as launched. -/
theorem runs_and_keeps_arguments : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) m emb₁ () Variants.none noLevels noLevel (fun _ _ => rfl) ρ (boundaryOuts m) (family m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => riding c)
    (hE0 := by
      have each : ∀ c : Dev nD,
          (iprop(unscopedSems0 c ∗ owes (c : Thread nD τ) (0 : CellTallies nD τ sig Unit) ∅
            ∗ Pipeline.launchCred (fun _ : Dev nD => (0 : CellTallies nD τ sig Unit)) c ∗ prngReg c (ρ c) ∗ emp) : sProp 𝕄) ⊢ riding c := fun c => by
        iintro ⟨-, HO, -, Hp, -⟩
        isplitl [Hp]; · iexists _; iexact Hp
        iexists ∅; iexact HO
      iintro ⟨H, -⟩
      imodintro
      iapply (show (bigSep Finset.univ fun c : Dev nD =>
            (iprop(unscopedSems0 c ∗ owes (c : Thread nD τ) (0 : CellTallies nD τ sig Unit) ∅
              ∗ Pipeline.launchCred (fun _ : Dev nD => (0 : CellTallies nD τ sig Unit)) c ∗ prngReg c (ρ c) ∗ emp) : sProp 𝕄))
          ⊢ (bigSep Finset.univ fun c : Dev nD => riding (F := F) c) from bigSep_mono fun c _ => each c)
      iexact H)
    (hE9 := fun c => by iintro ⟨-, H⟩; iexact H)
    (R0 := record0 m)
    (hpre0 := fun c => by rw [at1_eq]; exact .rfl)
    (hpost0 := fun c => by rw [at2_eq]; exact .rfl)
    (R1 := record1 m)
    (hpre1 := fun c => by rw [at3_eq]; exact .rfl)
    (hpost1 := fun c => by rw [at4_eq]; exact .rfl)
    (R2 := record2 m)
    (hpre2 := fun c => by rw [at5_eq]; exact .rfl)
    (hpost2 := fun c => by rw [at6_eq]; exact .rfl)
    (R3 := record3 m)
    (hpre3 := fun c => by rw [at7_eq]; exact .rfl)
    (hpost3 := fun c => by rw [at8_eq]; exact .rfl)
    (R4 := record4 m)
    (hpre4 := fun c => by rw [at9_eq]; exact .rfl)
    (hpost4 := fun c => by rw [at10_eq]; exact .rfl)
    (R5 := record5 m)
    (hpre5 := fun c => by rw [at11_eq]; exact .rfl)
    (hpost5 := fun c => by rw [at12_eq]; exact .rfl)
    (R6 := record6 m)
    (hpre6 := fun c => by rw [at13_eq]; exact .rfl)
    (hpost6 := fun c => by rw [at14_eq]; exact .rfl)
    (R7 := record7 m)
    (hpre7 := fun c => by rw [at15_eq]; exact .rfl)
    (hpost7 := fun c => by rw [at16_eq]; exact .rfl)
    (R8 := record8 m)
    (hpre8 := fun c => by rw [at17_eq]; exact .rfl)
    (hpost8 := fun c => by rw [at18_eq]; exact .rfl)

end Cert.Kernel.Hand

end
-- ==== Proof.KI.MatmulBody0.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first matrix product, one row block at a time

The first call multiplies the node features `h : [50000, 64]` by the first weight matrix `W₀ : [64, 64]`, ten grid
points of 5000 rows each. At point `t` the body is handed rows `5000·t … 5000·t + 4999` of `h` (window 0), the whole of
`W₀` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows of `h` for point `t` are in window 0's buffer when the body starts, for any proof data over `V`'s arrays
    whose body leaves that buffer as found: the window is brought in afresh at every point. -/
theorem rows_in_place0 {c : Dev nD} (dat : Dat τ (Elt F) Unit ℕ (UR sig nD τ) ℕ cfg0 c)
    (hA : dat.A 0 = V c (Pipeline.arrRef spec0 0)) (hafter : ∀ t, dat.after 0 t = blockAt0 V c 0 t)
    (t : Fin cfg0.N) (d) : dat.before 0 t d = blockAt0 V c 0 t :=
  (dat.before_in_eq_fetched 0 rfl (fun _ => rfl) (fun _ _ _ => rfl)
      (fun t => by rw [hafter]; unfold Dat.blockOf blockAt0; rw [hA]; try rfl) t d).trans
    (by unfold Dat.fetched Dat.blockOf blockAt0; rw [hA]; try rfl)

/-- The weight matrix is in window 1's buffer when the body starts, at every point: brought in at the first point, and
    at the later ones the window's block index has not moved and the body left the buffer as found. -/
theorem weights_in_place0 {c : Dev nD} (dat : Dat τ (Elt F) Unit ℕ (UR sig nD τ) ℕ cfg0 c)
    (hA : dat.A 1 = V c (Pipeline.arrRef spec0 1)) (hafter : ∀ t, dat.after 1 t = blockAt0 V c 1 t)
    (t : Fin cfg0.N) (d) : dat.before 1 t d = blockAt0 V c 1 t :=
  (dat.before_in_eq_fetched 1 rfl (fun _ => rfl) (fun _ _ _ => rfl)
      (fun t => by rw [hafter]; unfold Dat.blockOf blockAt0; rw [hA]; try rfl) t d).trans
    (by unfold Dat.fetched Dat.blockOf blockAt0; rw [hA]; try rfl)

/-! ## What the body stores -/

/-- The whole of a 5000 × 64 block, and the whole of the 64 × 64 weight block: the only rectangles the body touches. -/
abbrev wholeRows0 : Rect S5000x64 := Rect.unit (s := S5000x64) ![0, 0] S5000x64.size inb_S5000x64_S5000x64_0_0
abbrev wholeWeights0 : Rect S64x64 := Rect.unit (s := S64x64) ![0, 0] S64x64.size inb_S64x64_S64x64_0_0

/-- The output block after the body: its one store, of the product of the two loaded blocks, over the whole block. -/
def productBlock0 (x : Vec F S5000x64 .f32) (wt : Vec F S64x64 .f32) : Vec F S5000x64 .f32 :=
  View.canon [⟨wholeRows0, k0_pay1 (View.ld x wholeRows0) (View.ld wt wholeWeights0)⟩]

/-- That one store covers the block. -/
theorem product_covers0 (p : Vec F S5000x64 .f32) (y : S5000x64.Idx) :
    ∃ pc ∈ ([⟨wholeRows0, p⟩] : List (View.Piece (Elt F) S5000x64 .f32)), y ∈ pc.1.set :=
  View.cover_of_tiled [⟨wholeRows0, p⟩] S5000x64.size (by rfl) y

/-! ## The body's triple -/

set_option maxHeartbeats 1000000 in
/-- On whole buffers — the two inputs at contents `x`, `wt`, the output at anything — the body runs to its continuation
    with the inputs as they were and the output at `productBlock0 x wt`. -/
theorem matmul_body0 (c : Dev nD) (E : Set ℕ) (i : grid0.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock0 x wt)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers0 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => productBlock0 (blockAt0 V c 0 t) (blockAt0 V c 1 t)
  Φ _ := Pipeline.ΦA spec0 c
  q _ := fullShare
  owed _ := 0

theorem productData0_A (c : Dev nD) (w : Fin cfg0.W) : (productData0 V c).A w = V c (Pipeline.arrRef spec0 w) := by
  dsimp only [productData0]

theorem productData0_after_rows (c : Dev nD) (t : Fin cfg0.N) : (productData0 V c).after 0 t = blockAt0 V c 0 t := by
  dsimp only [productData0]
theorem productData0_after_weights (c : Dev nD) (t : Fin cfg0.N) : (productData0 V c).after 1 t = blockAt0 V c 1 t := by
  dsimp only [productData0]
theorem productData0_after_out (c : Dev nD) (t : Fin cfg0.N) :
    (productData0 V c).after 2 t = productBlock0 (blockAt0 V c 0 t) (blockAt0 V c 1 t) := by
  dsimp only [productData0]

theorem productData0_before_rows (c : Dev nD) (t : Fin cfg0.N) (d) : (productData0 V c).before 0 t d = blockAt0 V c 0 t :=
  rows_in_place0 V (productData0 V c) (productData0_A V c 0) (productData0_after_rows V c) t d
theorem productData0_before_weights (c : Dev nD) (t : Fin cfg0.N) (d) : (productData0 V c).before 1 t d = blockAt0 V c 1 t :=
  weights_in_place0 V (productData0 V c) (productData0_A V c 1) (productData0_after_weights V c) t d

/-! ## The body obligation -/

/-- What the body is called with at point `t`: the invariant, the core's dues, and the three windows' current buffers. -/
def bodyGiven0 (c : Dev nD) (t : Fin cfg0.N) : sProp 𝕄 :=
  iprop((productData0 V c).Φ t.castSucc ∗ (productData0 V c).owesAt () t.castSucc
    ∗ (∃ d, owns (c : Thread nD τ) (st0_0 t) fullShare ((productData0 V c).before 0 t d))
    ∗ (∃ d, owns (c : Thread nD τ) (st0_1 t) fullShare ((productData0 V c).before 1 t d))
    ∗ (∃ d, owns (c : Thread nD τ) (st0_2 t) fullShare ((productData0 V c).before 2 t d)))

/-- What it returns. -/
def bodyLeaves0 (c : Dev nD) (t : Fin cfg0.N) : sProp 𝕄 :=
  iprop((productData0 V c).Φ t.succ ∗ (productData0 V c).owesAt () t.succ
    ∗ owns (c : Thread nD τ) (st0_0 t) fullShare ((productData0 V c).after 0 t)
    ∗ owns (c : Thread nD τ) (st0_1 t) fullShare ((productData0 V c).after 1 t)
    ∗ owns (c : Thread nD τ) (st0_2 t) fullShare ((productData0 V c).after 2 t))

/-- At any point the input buffers hold their blocks, so the body's triple applies; the invariant and the dues pass
    through untouched. -/
theorem body_at_point0 (c : Dev nD) (t : Fin cfg0.N) :
    bodyGiven0 V c t ⊢ wp frame (wpE (defs₀ (F := F)) Variants.none c none) Set.univ (bodyAt0 t) (fun _ => bodyLeaves0 V c t) := by
  unfold bodyGiven0 bodyLeaves0 bodyAt0
  simp only [productData0_before_rows, productData0_before_weights]
  rw [show (productData0 V c).Φ t.succ = (productData0 V c).Φ t.castSucc from rfl,
    show (productData0 V c).owesAt () t.succ = (productData0 V c).owesAt () t.castSucc from rfl,
    productData0_after_rows, productData0_after_weights, productData0_after_out]
  iintro ⟨HΦ, Ho, ⟨%d0, H0⟩, ⟨%d1, H1⟩, ⟨%d2, H2⟩⟩
  iapply (matmul_body0 c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation0 (c : Dev nD) :
    BodyObligation (productData0 (F := F) V c) (defs₀ (F := F)) Variants.none () Set.univ := fun t => by
  rw [bigSep_W0, bigSep_W0]
  exact body_at_point0 V c t

end Cert.KernelIdeal.Hand

end
-- ==== Proof.KI.StatsRuns1.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first layer's activation and column statistics: the body, case by case

At each of ten grid points the body is handed a 5000-row block of the aggregated messages (window 0), the bias row
(window 1) and the one-entry slope of the activation (window 2); it owns two rows of 64 running totals (the column sums and
the column sums of squares) that live across the points. It

* at the FIRST point only, sets both running rows to zero;
* at EVERY point stores the activated block `where(x + b ≥ 0, x + b, a·(x + b))` into the output block (window 3) and
  adds the block's column sums, and the column sums of its squares, to the two running rows;
* at the LAST point only, copies the two running rows into the two row outputs (windows 4 and 5).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst1 (i : grid1.Coords) : Prop :=
  (Scalar.cmpi .ne (Scalar.extui (Scalar.cmpi .eq (BitVec.ofNat 32 (i 0).val) 0#32)) 0#32) = 1#1
/-- It holds at point 0 of the ten and nowhere else. -/
theorem atFirst1_iff : ∀ t : Fin cfg1.N, atFirst1 (grid1.coords t) ↔ t.val % 10 = 0 :=
  (by decide +kernel : ∀ t : Fin grid1.N, atFirst1 (grid1.coords t) ↔ t.val % 10 = 0)

/-- "This is the last point", as the body computes it. -/
abbrev atLast1 (i : grid1.Coords) : Prop := k1_cond2 i = 1#1
/-- It holds at point 9 of the ten and nowhere else. -/
theorem atLast1_iff : ∀ t : Fin cfg1.N, atLast1 (grid1.coords t) ↔ t.val % 10 = 9 :=
  (by decide +kernel : ∀ t : Fin grid1.N, atLast1 (grid1.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun1_middle (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : ¬atLast1 i) (x0 : Vec F S5000x64 .f32) (x1 : Vec F S1x64 .f32) (x2 : Vec F S1x1 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare yS ∗ owns (c : Thread nD τ) arg6 fullShare yQ
            ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ owns (c : Thread nD τ) arg5 fullShare yS ∗ owns (c : Thread nD τ) arg6 fullShare yQ
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, fun yS yQ E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun1_first (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : atFirst1 i) (hc1 : ¬atLast1 i) (x0 : Vec F S5000x64 .f32) (x1 : Vec F S1x64 .f32) (x2 : Vec F S1x1 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare yS ∗ owns (c : Thread nD τ) arg6 fullShare yQ
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ owns (c : Thread nD τ) arg5 fullShare yS ∗ owns (c : Thread nD τ) arg6 fullShare yQ
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, fun yS yQ E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

/-! ## The last point: the running rows are added to, then copied out -/

set_option maxHeartbeats 2000000 in
/-- Inputs at their blocks; the running rows at `s`, `q`; the two row outputs at anything. The body stores into the output
    block, into both running rows, and into both row outputs. -/
noncomputable def statsRun1_last (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LYS) ∗ (∃ f, arg6.view.loc (c : Thread nD τ) ↦[arg6.view.set]{fullShare} arg6.view.writes (Elt F) f LYQ)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc1__stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__stats_kernel_eq_skeleton]; unfold cc1__stats_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Hand

end
-- ==== Proof.KI.StatsData1.lean ====
import proofs.«123467_j2559800508646_1_alg».proof.Proof.KI.StatsRuns1

/-!
# The first layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 3) is stored whole and written back at every point. The two row outputs (windows 4 and 5) are
stored at the last point only; at the other nine the body leaves their buffers as found and the pipeline does not write
them back, so nothing is claimed of them there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The block of aggregated messages is in window 0's buffer when the body starts: brought in afresh at every point. -/
theorem agg_in_place1 {c : Dev nD} (dat : Dat τ (Elt F) Unit ℕ (UR sig nD τ) ℕ cfg1 c)
    (hA : dat.A 0 = V c (Pipeline.arrRef spec1 0)) (hafter : ∀ t, dat.after 0 t = blockAt1 V c 0 t)
    (t : Fin cfg1.N) (d) : dat.before 0 t d = blockAt1 V c 0 t :=
  (dat.before_in_eq_fetched 0 rfl (fun _ => rfl) (fun _ _ _ => rfl)
      (fun t => by rw [hafter]; unfold Dat.blockOf blockAt1; rw [hA]; try rfl) t d).trans
    (by unfold Dat.fetched Dat.blockOf blockAt1; rw [hA]; try rfl)

/-- The bias row is in window 1's buffer when the body starts, at every point: brought in at the first point and left as found. -/
theorem bias_in_place1 {c : Dev nD} (dat : Dat τ (Elt F) Unit ℕ (UR sig nD τ) ℕ cfg1 c)
    (hA : dat.A 1 = V c (Pipeline.arrRef spec1 1)) (hafter : ∀ t, dat.after 1 t = blockAt1 V c 1 t)
    (t : Fin cfg1.N) (d) : dat.before 1 t d = blockAt1 V c 1 t :=
  (dat.before_in_eq_fetched 1 rfl (fun _ => rfl) (fun _ _ _ => rfl)
      (fun t => by rw [hafter]; unfold Dat.blockOf blockAt1; rw [hA]; try rfl) t d).trans
    (by unfold Dat.fetched Dat.blockOf blockAt1; rw [hA]; try rfl)

/-- The activation's slope is in window 2's buffer when the body starts, at every point: brought in at the first point and left as found. -/
theorem slope_in_place1 {c : Dev nD} (dat : Dat τ (Elt F) Unit ℕ (UR sig nD τ) ℕ cfg1 c)
    (hA : dat.A 2 = V c (Pipeline.arrRef spec1 2)) (hafter : ∀ t, dat.after 2 t = blockAt1 V c 2 t)
    (t : Fin cfg1.N) (d) : dat.before 2 t d = blockAt1 V c 2 t :=
  (dat.before_in_eq_fetched 2 rfl (fun _ => rfl) (fun _ _ _ => rfl)
      (fun t => by rw [hafter]; unfold Dat.blockOf blockAt1; rw [hA]; try rfl) t d).trans
    (by unfold Dat.fetched Dat.blockOf blockAt1; rw [hA]; try rfl)

/-! ## The memrefs the body is called with -/

abbrev mem1_0 (t : Fin cfg1.N) : Memref sig .tc .vmem S5000x64 .f32 := win1_0.stage (cfg1.slots t 0)
abbrev hmem1_0 (t : Fin cfg1.N) : (mem1_0 t).IsWhole := hstage1_0 ((cfg1.slots t 0).cast nbuf1_0)
abbrev mem1_1 (t : Fin cfg1.N) : Memref sig .tc .vmem S1x64 .f32 := win1_1.stage (cfg1.slots t 1)
abbrev hmem1_1 (t : Fin cfg1.N) : (mem1_1 t).IsWhole := hstage1_1 ((cfg1.slots t 1).cast nbuf1_1)
abbrev mem1_2 (t : Fin cfg1.N) : Memref sig .tc .vmem S1x1 .f32 := win1_2.stage (cfg1.slots t 2)
abbrev hmem1_2 (t : Fin cfg1.N) : (mem1_2 t).IsWhole := hstage1_2 ((cfg1.slots t 2).cast nbuf1_2)
abbrev mem1_3 (t : Fin cfg1.N) : Memref sig .tc .vmem S5000x64 .f32 := win1_3.stage (cfg1.slots t 3)
abbrev hmem1_3 (t : Fin cfg1.N) : (mem1_3 t).IsWhole := hstage1_3 ((cfg1.slots t 3).cast nbuf1_3)
abbrev mem1_4 (t : Fin cfg1.N) : Memref sig .tc .vmem S1x64 .f32 := win1_4.stage (cfg1.slots t 4)
abbrev hmem1_4 (t : Fin cfg1.N) : (mem1_4 t).IsWhole := hstage1_4 ((cfg1.slots t 4).cast nbuf1_4)
abbrev mem1_5 (t : Fin cfg1.N) : Memref sig .tc .vmem S1x64 .f32 := win1_5.stage (cfg1.slots t 5)
abbrev hmem1_5 (t : Fin cfg1.N) : (mem1_5 t).IsWhole := hstage1_5 ((cfg1.slots t 5).cast nbuf1_5)
/-- The two running rows: whole scoped buffers of the kernel's own. -/
abbrev sumRow1 : Memref sig .tc .vmem S1x64 .f32 := Memref.whole cc1_scratch0
abbrev sqRow1 : Memref sig .tc .vmem S1x64 .f32 := Memref.whole cc1_scratch1

/-- Contents are stated through one fixed view per shape: a list of pieces written over anything, read back. When the
    pieces cover the shape the result depends on neither the view nor the prior contents. -/
abbrev blockView1 : View sig .tc .vmem S5000x64 .f32 := (Memref.whole cc1_stg3_0 : Memref sig .tc .vmem S5000x64 .f32).view
abbrev rowView1 : View sig .tc .vmem S1x64 .f32 := sumRow1.view
def blockOfPieces1 (L : List (View.Piece (Elt F) S5000x64 .f32)) : Vec F S5000x64 .f32 :=
  blockView1.read (Elt F) (blockView1.writes (Elt F) blockView1.junk L)
def rowOfPieces1 (L : List (View.Piece (Elt F) S1x64 .f32)) : Vec F S1x64 .f32 :=
  rowView1.read (Elt F) (rowView1.writes (Elt F) rowView1.junk L)

/-- The kernel's scoped buffers at anything, with the two running rows singled out. -/
theorem invariant_open1 (c : Dev nD) :
    (Pipeline.ΦA spec1 c : sProp 𝕄)
      = iprop(iprop(iprop((∃ d, owns (c : Thread nD τ) sumRow1 fullShare d) ∗ (∃ d, owns (c : Thread nD τ) sqRow1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sumRow1, sqRow1, owns_whole]; try rfl

/-! ## Which case a point is in -/

theorem first_of_zero1 (t : Fin cfg1.N) (h : t.val = 0) : atFirst1 (grid1.coords t) :=
  (atFirst1_iff t).mpr (by rw [h])
theorem not_first_of_pos1 (t : Fin cfg1.N) (h : t.val ≠ 0) : ¬atFirst1 (grid1.coords t) := fun hf => by
  have h0 := (atFirst1_iff t).mp hf
  have hN : t.val < 10 := lt_of_lt_of_eq t.isLt (show cfg1.N = 10 from N_1)
  omega
theorem last_of1 (t : Fin cfg1.N) (h : t.val % 10 = 9) : atLast1 (grid1.coords t) := (atLast1_iff t).mpr h
theorem not_last_of1 (t : Fin cfg1.N) (h : ¬t.val % 10 = 9) : ¬atLast1 (grid1.coords t) :=
  fun hl => h ((atLast1_iff t).mp hl)

/-- The row outputs are idle, and not written back, away from the last point; live at it. The other windows never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬t.val % 10 = 9 → cfg1.idle 4 (grid1.coords t) = true := by decide +kernel
theorem noflush1_4 : ∀ t : Fin cfg1.N, ¬t.val % 10 = 9 → (cfg1.win 4).flush t = false := by decide +kernel
theorem live1_4 : ∀ t : Fin cfg1.N, t.val % 10 = 9 → cfg1.idle 4 (grid1.coords t) = false := by decide +kernel
theorem idle1_5 : ∀ t : Fin cfg1.N, ¬t.val % 10 = 9 → cfg1.idle 5 (grid1.coords t) = true := by decide +kernel
theorem noflush1_5 : ∀ t : Fin cfg1.N, ¬t.val % 10 = 9 → (cfg1.win 5).flush t = false := by decide +kernel
theorem live1_5 : ∀ t : Fin cfg1.N, t.val % 10 = 9 → cfg1.idle 5 (grid1.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter1 (c : Dev nD) : (n : ℕ) → n < cfg1.N →
    Vec F S5000x64 .f32 × Vec F S1x64 .f32 × Vec F S1x64 .f32 × Vec F S1x64 .f32 × Vec F S1x64 .f32
  | 0, hn =>
    let t : Fin cfg1.N := ⟨0, hn⟩
    let R := statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
      (first_of_zero1 t rfl) (not_last_of1 t (by show ¬(0 : ℕ) % 10 = 9; decide)) (blockAt1 V c 0 t) (blockAt1 V c 1 t) (blockAt1 V c 2 t)
    (blockOfPieces1 R.1, rowOfPieces1 [], rowOfPieces1 [], rowOfPieces1 R.2.1, rowOfPieces1 R.2.2.1)
  | n + 1, hn =>
    let t : Fin cfg1.N := ⟨n + 1, hn⟩
    let prev := stateAfter1 c n (Nat.lt_of_succ_lt hn)
    if h9 : (n + 1) % 10 = 9 then
      let R := statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
        (not_first_of_pos1 t (Nat.succ_ne_zero n)) (last_of1 t h9) (blockAt1 V c 0 t) (blockAt1 V c 1 t) (blockAt1 V c 2 t) prev.2.2.2.1 prev.2.2.2.2
      (blockOfPieces1 R.1, rowOfPieces1 R.2.1, rowOfPieces1 R.2.2.1, rowOfPieces1 R.2.2.2.1, rowOfPieces1 R.2.2.2.2.1)
    else
      let R := statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _)
        (not_first_of_pos1 t (Nat.succ_ne_zero n)) (not_last_of1 t h9) (blockAt1 V c 0 t) (blockAt1 V c 1 t) (blockAt1 V c 2 t) prev.2.2.2.1 prev.2.2.2.2
      (blockOfPieces1 R.1, rowOfPieces1 [], rowOfPieces1 [], rowOfPieces1 R.2.1, rowOfPieces1 R.2.2.1)

/-! ## The recursion, case by case -/

/-- At the first point: the first run's pieces, from anything. -/
theorem stateAfter1_first (c : Dev nD) (t : Fin cfg1.N) (h0 : t.val = 0) (h9 : ¬t.val % 10 = 9) :
    stateAfter1 V c t.val t.isLt =
      (blockOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).1, rowOfPieces1 [], rowOfPieces1 [],
        rowOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).2.1, rowOfPieces1 (statsRun1_first (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (first_of_zero1 t h0) (not_last_of1 t h9) (blockAt1 V c 0 t) (blockAt1 V c 1 t) (blockAt1 V c 2 t)).2.2.1) := by
  obtain ⟨n, hn⟩ := t
  cases n with
  | zero => rfl
  | succ n => exact absurd h0 (Nat.succ_ne_zero n)

/-- At a middle point: the middle run's pieces, from the running rows the point before left. -/
theorem stateAfter1_middle (c : Dev nD) (t : Fin cfg1.N) (h0 : t.val ≠ 0) (h9 : ¬t.val % 10 = 9) :
    stateAfter1 V c t.val t.isLt =
      (blockOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).1, rowOfPieces1 [], rowOfPieces1 [],
        rowOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.1, rowOfPieces1 (statsRun1_middle (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (not_last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter1_last (c : Dev nD) (t : Fin cfg1.N) (h0 : t.val ≠ 0) (h9 : t.val % 10 = 9) :
    stateAfter1 V c t.val t.isLt =
      (blockOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.1,
        rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.2.1, rowOfPieces1 (statsRun1_last (F := F) c (grid1.coords t) (mem1_0 t) (hmem1_0 t) (mem1_1 t) (hmem1_1 t) (mem1_2 t) (hmem1_2 t) (mem1_3 t) (hmem1_3 t) (mem1_4 t) (hmem1_4 t) (mem1_5 t) (hmem1_5 t) sumRow1 (Memref.isWhole_whole _) sqRow1 (Memref.isWhole_whole _) (not_first_of_pos1 t h0) (last_of1 t h9) (blockAt1 V c 0 t) (blockAt1 V c 1 t) (blockAt1 V c 2 t) (stateAfter1 V c (t.val - 1) (Nat.lt_of_le_of_lt (Nat.sub_le _ _) t.isLt)).2.2.2.1 (stateAfter1 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt1 (c : Dev nD) : (n : ℕ) → n ≤ cfg1.N → sProp 𝕄
  | 0, _ => Pipeline.ΦA spec1 c
  | n + 1, hn =>
    iprop(iprop(iprop(owns (c : Thread nD τ) sumRow1 fullShare (stateAfter1 V c n hn).2.2.2.1
          ∗ owns (c : Thread nD τ) sqRow1 fullShare (stateAfter1 V c n hn).2.2.2.2)
        ∗ Pipeline.scopedRestBut (Ix := Unit) (Name := ℕ) (U := UR sig nD τ) (Lvl := ℕ) (Val := Elt F) spec1 c [cc1_scratch0, cc1_scratch1])
      ∗ (∃ r, prngReg c r))

theorem invariantAt1_zero (c : Dev nD) (n : ℕ) (h : n ≤ cfg1.N) (hz : n = 0) :
    invariantAt1 V c n h = Pipeline.ΦA spec1 c := by subst hz; rfl

theorem invariantAt1_succ (c : Dev nD) (n : ℕ) (hn : n < cfg1.N) :
    invariantAt1 V c (n + 1) hn =
      iprop(iprop(iprop(owns (c : Thread nD τ) sumRow1 fullShare (stateAfter1 V c n hn).2.2.2.1
          ∗ owns (c : Thread nD τ) sqRow1 fullShare (stateAfter1 V c n hn).2.2.2.2)
        ∗ Pipeline.scopedRestBut (Ix := Unit) (Name := ℕ) (U := UR sig nD τ) (Lvl := ℕ) (Val := Elt F) spec1 c [cc1_scratch0, cc1_scratch1])
      ∗ (∃ r, prngReg c r)) := rfl

theorem invariantAt1_pos (c : Dev nD) (n : ℕ) (h : n ≤ cfg1.N) (hz : n ≠ 0) :
    invariantAt1 V c n h =
      iprop(iprop(iprop(owns (c : Thread nD τ) sumRow1 fullShare (stateAfter1 V c (n - 1) (by omega)).2.2.2.1
          ∗ owns (c : Thread nD τ) sqRow1 fullShare (stateAfter1 V c (n - 1) (by omega)).2.2.2.2)
        ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => (stateAfter1 V c t.val t.isLt).1
    | ⟨4, _⟩ => (stateAfter1 V c t.val t.isLt).2.1
    | ⟨5, _⟩ => (stateAfter1 V c t.val t.isLt).2.2.1
  Φ t := invariantAt1 V c t.val (Nat.le_of_lt_succ t.isLt)
  q _ := fullShare
  owed _ := 0

theorem statsData1_A (c : Dev nD) (w : Fin cfg1.W) : (statsData1 V c).A w = V c (Pipeline.arrRef spec1 w) := by
  dsimp only [statsData1]
theorem statsData1_inv (c : Dev nD) (t : Fin cfg1.N) :
    (statsData1 V c).Φ t.castSucc = invariantAt1 V c t.val (Nat.le_of_lt t.isLt) := by
  dsimp only [statsData1]; simp only [Fin.coe_castSucc]
theorem statsData1_after0 (c : Dev nD) (t : Fin cfg1.N) : (statsData1 V c).after 0 t = blockAt1 V c 0 t := by dsimp only [statsData1]
theorem statsData1_after1 (c : Dev nD) (t : Fin cfg1.N) : (statsData1 V c).after 1 t = blockAt1 V c 1 t := by dsimp only [statsData1]
theorem statsData1_after2 (c : Dev nD) (t : Fin cfg1.N) : (statsData1 V c).after 2 t = blockAt1 V c 2 t := by dsimp only [statsData1]
theorem statsData1_after3 (c : Dev nD) (t : Fin cfg1.N) : (statsData1 V c).after 3 t = (stateAfter1 V c t.val t.isLt).1 := by dsimp only [statsData1]
theorem statsData1_after4 (c : Dev nD) (t : Fin cfg1.N) : (statsData1 V c).after 4 t = (stateAfter1 V c t.val t.isLt).2.1 := by dsimp only [statsData1]
theorem statsData1_after5 (c : Dev nD) (t : Fin cfg1.N) : (statsData1 V c).after 5 t = (stateAfter1 V c t.val t.isLt).2.2.1 := by dsimp only [statsData1]
theorem statsData1_before0 (c : Dev nD) (t : Fin cfg1.N) (d) : (statsData1 V c).before 0 t d = blockAt1 V c 0 t :=
  agg_in_place1 V (statsData1 V c) (statsData1_A V c 0) (statsData1_after0 V c) t d
theorem statsData1_before1 (c : Dev nD) (t : Fin cfg1.N) (d) : (statsData1 V c).before 1 t d = blockAt1 V c 1 t :=
  bias_in_place1 V (statsData1 V c) (statsData1_A V c 1) (statsData1_after1 V c) t d
theorem statsData1_before2 (c : Dev nD) (t : Fin cfg1.N) (d) : (statsData1 V c).before 2 t d = blockAt1 V c 2 t :=
  slope_in_place1 V (statsData1 V c) (statsData1_A V c 2) (statsData1_after2 V c) t d

/-! ## The body obligation -/

/-- What the body is called with at point `t`: the invariant, the core's dues, and the windows' current buffers. -/
def bodyGiven1 (c : Dev nD) (t : Fin cfg1.N) : sProp 𝕄 :=
  iprop((statsData1 V c).Φ t.castSucc ∗ (statsData1 V c).owesAt () t.castSucc
    ∗ (∃ d, owns (c : Thread nD τ) (mem1_0 t) fullShare ((statsData1 V c).before 0 t d))
    ∗ (∃ d, owns (c : Thread nD τ) (mem1_1 t) fullShare ((statsData1 V c).before 1 t d))
    ∗ (∃ d, owns (c : Thread nD τ) (mem1_2 t) fullShare ((statsData1 V c).before 2 t d))
    ∗ (∃ d, owns (c : Thread nD τ) (mem1_3 t) fullShare ((statsData1 V c).before 3 t d))
    ∗ (∃ d, owns (c : Thread nD τ) (mem1_4 t) fullShare ((statsData1 V c).before 4 t d))
    ∗ (∃ d, owns (c : Thread nD τ) (mem1_5 t) fullShare ((statsData1 V c).before 5 t d)))

/-- What it returns: the invariant after the point, the dues, and each window's buffer as the obligation describes it —
    at the named contents where the window is live or written back, as found where it is idle. -/
def bodyLeaves1 (c : Dev nD) (t : Fin cfg1.N) : sProp 𝕄 :=
  iprop((statsData1 V c).Φ t.succ ∗ (statsData1 V c).owesAt () t.succ
    ∗ (statsData1 V c).leavesExact 0 t
    ∗ (statsData1 V c).leavesExact 1 t
    ∗ (statsData1 V c).leavesExact 2 t
    ∗ (statsData1 V c).leavesExact 3 t
    ∗ (statsData1 V c).leavesExact 4 t
    ∗ (statsData1 V c).leavesExact 5 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point1 (c : Dev nD) (t : Fin cfg1.N) :
    bodyGiven1 V c t ⊢ wp frame (wpE (defs₀ (F := F)) Variants.none c none) Set.univ (bodyAt1 t) (fun _ => bodyLeaves1 V c t) := by
  unfold bodyGiven1 bodyLeaves1 bodyAt1
  simp only [statsData1_before0, statsData1_before1, statsData1_before2]
  rw [show (statsData1 V c).owesAt () t.succ = (statsData1 V c).owesAt () t.castSucc from rfl]
  rw [show (statsData1 V c).Φ t.succ = invariantAt1 V c (t.val + 1) t.isLt from rfl, invariantAt1_succ]
  rw [show (statsData1 V c).leavesExact 0 t = owns (c : Thread nD τ) (mem1_0 t) fullShare ((statsData1 V c).after 0 t) from by
    unfold Dat.leavesExact; rw [live1_0 t], statsData1_after0]
  rw [show (statsData1 V c).leavesExact 1 t = owns (c : Thread nD τ) (mem1_1 t) fullShare ((statsData1 V c).after 1 t) from by
    unfold Dat.leavesExact; rw [live1_1 t], statsData1_after1]
  rw [show (statsData1 V c).leavesExact 2 t = owns (c : Thread nD τ) (mem1_2 t) fullShare ((statsData1 V c).after 2 t) from by
    unfold Dat.leavesExact; rw [live1_2 t], statsData1_after2]
  rw [show (statsData1 V c).leavesExact 3 t = owns (c : Thread nD τ) (mem1_3 t) fullShare ((statsData1 V c).after 3 t) from by
    unfold Dat.leavesExact; rw [live1_3 t], statsData1_after3]
  have hN : t.val < 10 := lt_of_lt_of_eq t.isLt (show cfg1.N = 10 from N_1)
  by_cases h9 : t.val % 10 = 9
  · -- the last point
    have h0 : t.val ≠ 0 := by omega
    rw [show (statsData1 V c).leavesExact 4 t = owns (c : Thread nD τ) (mem1_4 t) fullShare ((statsData1 V c).after 4 t) from by
      unfold Dat.leavesExact; rw [live1_4 t h9], statsData1_after4]
    rw [show (statsData1 V c).leavesExact 5 t = owns (c : Thread nD τ) (mem1_5 t) fullShare ((statsData1 V c).after 5 t) from by
      unfold Dat.leavesExact; rw [live1_5 t h9], statsData1_after5]
    rw [stateAfter1_last V c t h0 h9]
    (try dsimp only)
    rw [statsData1_inv V c t, invariantAt1_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
    iapply ((statsRun1_last (F := F) c (grid1.coords t) _ _ _ _ _ _ _ _ _ _ _ _ _ _ _ _ (not_first_of_pos1 t h0) (last_of1 t h9) (blockAt1 V c 0 t) (blockAt1 V c 1 t) (blockAt1 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    isplitl [HQ]; · iexact HQ
    iintro ⟨H0, H1, H2, ⟨%e3, H3⟩, ⟨%e4, H4⟩, ⟨%e5, H5⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · (unfold owns; iexists _; isplitr; swap; iexact H3; ipureintro; exact View.read_writes_of_cover _ _ _ _ _ (fun y => View.cover_of_tiledL _ S5000x64.size (by sl_kernel_rfl) y))
    isplitl [H4]; · (unfold owns; iexists _; isplitr; swap; iexact H4; ipureintro; exact View.read_writes_of_cover _ _ _ _ _ (fun y => View.cover_of_tiledL _ S1x64.size (by sl_kernel_rfl) y))
    (unfold owns; iexists _; isplitr; swap; iexact H5; ipureintro; exact View.read_writes_of_cover _ _ _ _ _ (fun y => View.cover_of_tiledL _ S1x64.size (by sl_kernel_rfl) y))
  · -- not the last point: the two row outputs go back as found
    rw [Dat.leavesExact_idle (statsData1 V c) 4 t (idle1_4 t h9) (noflush1_4 t h9)]
    rw [Dat.leavesExact_idle (statsData1 V c) 5 t (idle1_5 t h9) (noflush1_5 t h9)]
    by_cases h0 : t.val = 0
    · -- the first point
      rw [stateAfter1_first V c t h0 h9]
      (try dsimp only)
      rw [statsData1_inv V c t, invariantAt1_zero V c _ _ h0, invariant_open1]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
      iapply ((statsRun1_first (F := F) c (grid1.coords t) _ _ _ _ _ _ _ _ _ _ _ _ _ _ _ _ (first_of_zero1 t h0) (not_last_of1 t h9) (blockAt1 V c 0 t) (blockAt1 V c 1 t) (blockAt1 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexact HS
      isplitl [HQ]; · iexact HQ
      iintro ⟨H0, H1, H2, ⟨%e3, H3⟩, H4, H5, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · (unfold owns; iexists _; isplitr; swap; iexact H3; ipureintro; exact View.read_writes_of_cover _ _ _ _ _ (fun y => View.cover_of_tiledL _ S5000x64.size (by sl_kernel_rfl) y))
      isplitl [H4]; · iexists _; iexact H4
      iexists _; iexact H5
    · -- a middle point
      rw [stateAfter1_middle V c t h0 h9]
      (try dsimp only)
      rw [statsData1_inv V c t, invariantAt1_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩⟩
      iapply ((statsRun1_middle (F := F) c (grid1.coords t) _ _ _ _ _ _ _ _ _ _ _ _ _ _ _ _ (not_first_of_pos1 t h0) (not_last_of1 t h9) (blockAt1 V c 0 t) (blockAt1 V c 1 t) (blockAt1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexact HS
      isplitl [HQ]; · iexact HQ
      iintro ⟨H0, H1, H2, ⟨%e3, H3⟩, H4, H5, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · (unfold owns; iexists _; isplitr; swap; iexact H3; ipureintro; exact View.read_writes_of_cover _ _ _ _ _ (fun y => View.cover_of_tiledL _ S5000x64.size (by sl_kernel_rfl) y))
      isplitl [H4]; · iexists _; iexact H4
      iexists _; iexact H5

/-- The library's body obligation for the call, at every point. -/
theorem body_obligation1 (c : Dev nD) :
    BodyObligation (statsData1 (F := F) V c) (defs₀ (F := F)) Variants.none () Set.univ := fun t => by
  rw [bigSep_W1, bigSep_W1]
  exact body_at_point1 V c t

/-- What the call is handed on entry is the invariant before the first point. -/
theorem invariant_in1 (c : Dev nD) : Pipeline.ΦA spec1 c ⊢ (statsData1 V c).Φ 0 := by
  rw [show (statsData1 V c).Φ 0 = invariantAt1 V c 0 (Nat.zero_le _) from rfl, invariantAt1_zero V c 0 _ rfl]
  try exact Idealize.SL.BI.Entails.refl _

/-- After the last point the invariant gives the kernel's scoped buffers back at anything: the running rows' values are
    forgotten. -/
theorem invariant_out1 (c : Dev nD) : (statsData1 V c).Φ (Fin.last cfg1.N) ⊢ Pipeline.ΦA spec1 c := by
  have hne : (Fin.last cfg1.N).val ≠ 0 := by rw [Fin.val_last]; have : cfg1.N = 10 := N_1; omega
  rw [show (statsData1 V c).Φ (Fin.last cfg1.N) = invariantAt1 V c (Fin.last cfg1.N).val (Nat.le_of_lt_succ (Fin.last cfg1.N).isLt) from rfl,
    invariantAt1_pos V c _ _ hne, invariant_open1]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.KernelIdeal.Hand

end
-- ==== Proof.KI.NormBody2.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows of `h` for point `t` are in window 0's buffer when the body starts, for any proof data over `V`'s arrays
    whose body leaves that buffer as found: the window is brought in afresh at every point. -/
theorem rows_in_place2 {c : Dev nD} (dat : Dat τ (Elt F) Unit ℕ (UR sig nD τ) ℕ cfg2 c)
    (hA : dat.A 0 = V c (Pipeline.arrRef spec2 0)) (hafter : ∀ t, dat.after 0 t = blockAt2 V c 0 t)
    (t : Fin cfg2.N) (d) : dat.before 0 t d = blockAt2 V c 0 t :=
  (dat.before_in_eq_fetched 0 rfl (fun _ => rfl) (fun _ _ _ => rfl)
      (fun t => by rw [hafter]; unfold Dat.blockOf blockAt2; rw [hA]; try rfl) t d).trans
    (by unfold Dat.fetched Dat.blockOf blockAt2; rw [hA]; try rfl)

/-- The mean row is in window 1's buffer when the body starts, at every point: brought in at the first point, and at the
    later ones the window's block index has not moved and the body left the buffer as found. -/
theorem mean_in_place2 {c : Dev nD} (dat : Dat τ (Elt F) Unit ℕ (UR sig nD τ) ℕ cfg2 c)
    (hA : dat.A 1 = V c (Pipeline.arrRef spec2 1)) (hafter : ∀ t, dat.after 1 t = blockAt2 V c 1 t)
    (t : Fin cfg2.N) (d) : dat.before 1 t d = blockAt2 V c 1 t :=
  (dat.before_in_eq_fetched 1 rfl (fun _ => rfl) (fun _ _ _ => rfl)
      (fun t => by rw [hafter]; unfold Dat.blockOf blockAt2; rw [hA]; try rfl) t d).trans
    (by unfold Dat.fetched Dat.blockOf blockAt2; rw [hA]; try rfl)

/-- The variance row is in window 2's buffer when the body starts, at every point: brought in at the first point, and at the
    later ones the window's block index has not moved and the body left the buffer as found. -/
theorem variance_in_place2 {c : Dev nD} (dat : Dat τ (Elt F) Unit ℕ (UR sig nD τ) ℕ cfg2 c)
    (hA : dat.A 2 = V c (Pipeline.arrRef spec2 2)) (hafter : ∀ t, dat.after 2 t = blockAt2 V c 2 t)
    (t : Fin cfg2.N) (d) : dat.before 2 t d = blockAt2 V c 2 t :=
  (dat.before_in_eq_fetched 2 rfl (fun _ => rfl) (fun _ _ _ => rfl)
      (fun t => by rw [hafter]; unfold Dat.blockOf blockAt2; rw [hA]; try rfl) t d).trans
    (by unfold Dat.fetched Dat.blockOf blockAt2; rw [hA]; try rfl)

/-- The gamma row is in window 3's buffer when the body starts, at every point: brought in at the first point, and at the
    later ones the window's block index has not moved and the body left the buffer as found. -/
theorem gamma_in_place2 {c : Dev nD} (dat : Dat τ (Elt F) Unit ℕ (UR sig nD τ) ℕ cfg2 c)
    (hA : dat.A 3 = V c (Pipeline.arrRef spec2 3)) (hafter : ∀ t, dat.after 3 t = blockAt2 V c 3 t)
    (t : Fin cfg2.N) (d) : dat.before 3 t d = blockAt2 V c 3 t :=
  (dat.before_in_eq_fetched 3 rfl (fun _ => rfl) (fun _ _ _ => rfl)
      (fun t => by rw [hafter]; unfold Dat.blockOf blockAt2; rw [hA]; try rfl) t d).trans
    (by unfold Dat.fetched Dat.blockOf blockAt2; rw [hA]; try rfl)

/-- The beta row is in window 4's buffer when the body starts, at every point: brought in at the first point, and at the
    later ones the window's block index has not moved and the body left the buffer as found. -/
theorem beta_in_place2 {c : Dev nD} (dat : Dat τ (Elt F) Unit ℕ (UR sig nD τ) ℕ cfg2 c)
    (hA : dat.A 4 = V c (Pipeline.arrRef spec2 4)) (hafter : ∀ t, dat.after 4 t = blockAt2 V c 4 t)
    (t : Fin cfg2.N) (d) : dat.before 4 t d = blockAt2 V c 4 t :=
  (dat.before_in_eq_fetched 4 rfl (fun _ => rfl) (fun _ _ _ => rfl)
      (fun t => by rw [hafter]; unfold Dat.blockOf blockAt2; rw [hA]; try rfl) t d).trans
    (by unfold Dat.fetched Dat.blockOf blockAt2; rw [hA]; try rfl)

/-! ## What the body stores -/

/-- The whole of a 5000 × 64 block and the whole of a 1 × 64 row: the only rectangles the body touches. -/
abbrev wholeRows2 : Rect S5000x64 := Rect.unit (s := S5000x64) ![0, 0] S5000x64.size inb_S5000x64_S5000x64_0_0
abbrev wholeRow2 : Rect S1x64 := Rect.unit (s := S1x64) ![0, 0] S1x64.size inb_S1x64_S1x64_0_0

/-- The output block after the body: its one store, of the normalised rows, over the whole block. -/
def normalisedBlock2 (x : Vec F S5000x64 .f32) (mu vr ga be : Vec F S1x64 .f32) : Vec F S5000x64 .f32 :=
  View.canon [⟨wholeRows2, k2_pay1 (View.ld vr wholeRow2) (View.ld ga wholeRow2) (View.ld x wholeRows2)
    (View.ld mu wholeRow2) (View.ld be wholeRow2)⟩]

/-- That one store covers the block. -/
theorem normalised_covers2 (p : Vec F S5000x64 .f32) (y : S5000x64.Idx) :
    ∃ pc ∈ ([⟨wholeRows2, p⟩] : List (View.Piece (Elt F) S5000x64 .f32)), y ∈ pc.1.set :=
  View.cover_of_tiled [⟨wholeRows2, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock2 x mu vr ga be`. -/
theorem bn_body2 (c : Dev nD) (E : Set ℕ) (i : grid2.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock2 x mu vr ga be)) -∗ K ⟨⟩))
      ⊢ wp frame (wpE (defs₀ (F := F)) Variants.none c none) E
          (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers2 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => normalisedBlock2 (blockAt2 V c 0 t) (blockAt2 V c 1 t) (blockAt2 V c 2 t) (blockAt2 V c 3 t) (blockAt2 V c 4 t)
  Φ _ := Pipeline.ΦA spec2 c
  q _ := fullShare
  owed _ := 0

theorem normData2_A (c : Dev nD) (w : Fin cfg2.W) : (normData2 V c).A w = V c (Pipeline.arrRef spec2 w) := by
  dsimp only [normData2]

theorem normData2_after0 (c : Dev nD) (t : Fin cfg2.N) : (normData2 V c).after 0 t = blockAt2 V c 0 t := by dsimp only [normData2]
theorem normData2_after1 (c : Dev nD) (t : Fin cfg2.N) : (normData2 V c).after 1 t = blockAt2 V c 1 t := by dsimp only [normData2]
theorem normData2_after2 (c : Dev nD) (t : Fin cfg2.N) : (normData2 V c).after 2 t = blockAt2 V c 2 t := by dsimp only [normData2]
theorem normData2_after3 (c : Dev nD) (t : Fin cfg2.N) : (normData2 V c).after 3 t = blockAt2 V c 3 t := by dsimp only [normData2]
theorem normData2_after4 (c : Dev nD) (t : Fin cfg2.N) : (normData2 V c).after 4 t = blockAt2 V c 4 t := by dsimp only [normData2]
theorem normData2_after_out (c : Dev nD) (t : Fin cfg2.N) :
    (normData2 V c).after 5 t = normalisedBlock2 (blockAt2 V c 0 t) (blockAt2 V c 1 t) (blockAt2 V c 2 t)
      (blockAt2 V c 3 t) (blockAt2 V c 4 t) := by
  dsimp only [normData2]

theorem normData2_before0 (c : Dev nD) (t : Fin cfg2.N) (d) : (normData2 V c).before 0 t d = blockAt2 V c 0 t :=
  rows_in_place2 V (normData2 V c) (normData2_A V c 0) (normData2_after0 V c) t d
theorem normData2_before1 (c : Dev nD) (t : Fin cfg2.N) (d) : (normData2 V c).before 1 t d = blockAt2 V c 1 t :=
  mean_in_place2 V (normData2 V c) (normData2_A V c 1) (normData2_after1 V c) t d
theorem normData2_before2 (c : Dev nD) (t : Fin cfg2.N) (d) : (normData2 V c).before 2 t d = blockAt2 V c 2 t :=
  variance_in_place2 V (normData2 V c) (normData2_A V c 2) (normData2_after2 V c) t d
theorem normData2_before3 (c : Dev nD) (t : Fin cfg2.N) (d) : (normData2 V c).before 3 t d = blockAt2 V c 3 t :=
  gamma_in_place2 V (normData2 V c) (normData2_A V c 3) (normData2_after3 V c) t d
theorem normData2_before4 (c : Dev nD) (t : Fin cfg2.N) (d) : (normData2 V c).before 4 t d = blockAt2 V c 4 t :=
  beta_in_place2 V (normData2 V c) (normData2_A V c 4) (normData2_after4 V c) t d

/-! ## The body obligation -/

/-- What the body is called with at point `t`: the invariant, the core's dues, and the six windows' current buffers. -/
def bodyGiven2 (c : Dev nD) (t : Fin cfg2.N) : sProp 𝕄 :=
  iprop((normData2 V c).Φ t.castSucc ∗ (normData2 V c).owesAt () t.castSucc
    ∗ (∃ d, owns (c : Thread nD τ) (st2_0 t) fullShare ((normData2 V c).before 0 t d))
    ∗ (∃ d, owns (c : Thread nD τ) (st2_1 t) fullShare ((normData2 V c).before 1 t d))
    ∗ (∃ d, owns (c : Thread nD τ) (st2_2 t) fullShare ((normData2 V c).before 2 t d))
    ∗ (∃ d, owns (c : Thread nD τ) (st2_3 t) fullShare ((normData2 V c).before 3 t d))
    ∗ (∃ d, owns (c : Thread nD τ) (st2_4 t) fullShare ((normData2 V c).before 4 t d))
    ∗ (∃ d, owns (c : Thread nD τ) (st2_5 t) fullShare ((normData2 V c).before 5 t d)))

/-- What it returns. -/
def bodyLeaves2 (c : Dev nD) (t : Fin cfg2.N) : sProp 𝕄 :=
  iprop((normData2 V c).Φ t.succ ∗ (normData2 V c).owesAt () t.succ
    ∗ owns (c : Thread nD τ) (st2_0 t) fullShare ((normData2 V c).after 0 t)
    ∗ owns (c : Thread nD τ) (st2_1 t) fullShare ((normData2 V c).after 1 t)
    ∗ owns (c : Thread nD τ) (st2_2 t) fullShare ((normData2 V c).after 2 t)
    ∗ owns (c : Thread nD τ) (st2_3 t) fullShare ((normData2 V c).after 3 t)
    ∗ owns (c : Thread nD τ) (st2_4 t) fullShare ((normData2 V c).after 4 t)
    ∗ owns (c : Thread nD τ) (st2_5 t) fullShare ((normData2 V c).after 5 t))

/-- At any point the input buffers hold their blocks, so the body's triple applies; the invariant and the dues pass
    through untouched. -/
theorem body_at_point2 (c : Dev nD) (t : Fin cfg2.N) :
    bodyGiven2 V c t ⊢ wp frame (wpE (defs₀ (F := F)) Variants.none c none) Set.univ (bodyAt2 t) (fun _ => bodyLeaves2 V c t) := by
  unfold bodyGiven2 bodyLeaves2 bodyAt2
  simp only [normData2_before0, normData2_before1, normData2_before2, normData2_before3, normData2_before4]
  rw [show (normData2 V c).Φ t.succ = (normData2 V c).Φ t.castSucc from rfl,
    show (normData2 V c).owesAt () t.succ = (normData2 V c).owesAt () t.castSucc from rfl,
    normData2_after0, normData2_after1, normData2_after2, normData2_after3, normData2_after4, normData2_after_out]
  iintro ⟨HΦ, Ho, ⟨%d0, H0⟩, ⟨%d1, H1⟩, ⟨%d2, H2⟩, ⟨%d3, H3⟩, ⟨%d4, H4⟩, ⟨%d5, H5⟩⟩
  iapply (bn_body2 c Set.univ _ _ _ _ _ _ _ _ _ _ _ _ _ (blockAt2 V c 0 t) (blockAt2 V c 1 t) (blockAt2 V c 2 t)
    (blockAt2 V c 3 t) (blockAt2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation2 (c : Dev nD) :
    BodyObligation (normData2 (F := F) V c) (defs₀ (F := F)) Variants.none () Set.univ := fun t => by
  rw [bigSep_W2, bigSep_W2]
  exact body_at_point2 V c t

end Cert.KernelIdeal.Hand

end
-- ==== Proof.KI.MatmulBody3.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second matrix product, one row block at a time

The second product multiplies the previous layer's normalised features `h : [50000, 64]` by the second weight matrix `W₁ : [64, 64]`, ten grid
points of 5000 rows each. At point `t` the body is handed rows `5000·t … 5000·t + 4999` of `h` (window 0), the whole of
`W₁` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows of `h` for point `t` are in window 0's buffer when the body starts, for any proof data over `V`'s arrays
    whose body leaves that buffer as found: the window is brought in afresh at every point. -/
theorem rows_in_place3 {c : Dev nD} (dat : Dat τ (Elt F) Unit ℕ (UR sig nD τ) ℕ cfg3 c)
    (hA : dat.A 0 = V c (Pipeline.arrRef spec3 0)) (hafter : ∀ t, dat.after 0 t = blockAt3 V c 0 t)
    (t : Fin cfg3.N) (d) : dat.before 0 t d = blockAt3 V c 0 t :=
  (dat.before_in_eq_fetched 0 rfl (fun _ => rfl) (fun _ _ _ => rfl)
      (fun t => by rw [hafter]; unfold Dat.blockOf blockAt3; rw [hA]; try rfl) t d).trans
    (by unfold Dat.fetched Dat.blockOf blockAt3; rw [hA]; try rfl)

/-- The weight matrix is in window 1's buffer when the body starts, at every point: brought in at the first point, and
    at the later ones the window's block index has not moved and the body left the buffer as found. -/
theorem weights_in_place3 {c : Dev nD} (dat : Dat τ (Elt F) Unit ℕ (UR sig nD τ) ℕ cfg3 c)
    (hA : dat.A 1 = V c (Pipeline.arrRef spec3 1)) (hafter : ∀ t, dat.after 1 t = blockAt3 V c 1 t)
    (t : Fin cfg3.N) (d) : dat.before 1 t d = blockAt3 V c 1 t :=
  (dat.before_in_eq_fetched 1 rfl (fun _ => rfl) (fun _ _ _ => rfl)
      (fun t => by rw [hafter]; unfold Dat.blockOf blockAt3; rw [hA]; try rfl) t d).trans
    (by unfold Dat.fetched Dat.blockOf blockAt3; rw [hA]; try rfl)

/-! ## What the body stores -/

/-- The whole of a 5000 × 64 block, and the whole of the 64 × 64 weight block: the only rectangles the body touches. -/
abbrev wholeRows3 : Rect S5000x64 := Rect.unit (s := S5000x64) ![0, 0] S5000x64.size inb_S5000x64_S5000x64_0_0
abbrev wholeWeights3 : Rect S64x64 := Rect.unit (s := S64x64) ![0, 0] S64x64.size inb_S64x64_S64x64_0_0

/-- The output block after the body: its one store, of the product of the two loaded blocks, over the whole block. -/
def productBlock3 (x : Vec F S5000x64 .f32) (wt : Vec F S64x64 .f32) : Vec F S5000x64 .f32 :=
  View.canon [⟨wholeRows3, k3_pay1 (View.ld x wholeRows3) (View.ld wt wholeWeights3)⟩]

/-- That one store covers the block. -/
theorem product_covers3 (p : Vec F S5000x64 .f32) (y : S5000x64.Idx) :
    ∃ pc ∈ ([⟨wholeRows3, p⟩] : List (View.Piece (Elt F) S5000x64 .f32)), y ∈ pc.1.set :=
  View.cover_of_tiled [⟨wholeRows3, p⟩] S5000x64.size (by rfl) y

/-! ## The body's triple -/

set_option maxHeartbeats 1000000 in
/-- On whole buffers — the two inputs at contents `x`, `wt`, the output at anything — the body runs to its continuation
    with the inputs as they were and the output at `productBlock3 x wt`. -/
theorem matmul_body3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock3 x wt)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers3 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => productBlock3 (blockAt3 V c 0 t) (blockAt3 V c 1 t)
  Φ _ := Pipeline.ΦA spec3 c
  q _ := fullShare
  owed _ := 0

theorem productData3_A (c : Dev nD) (w : Fin cfg3.W) : (productData3 V c).A w = V c (Pipeline.arrRef spec3 w) := by
  dsimp only [productData3]

theorem productData3_after_rows (c : Dev nD) (t : Fin cfg3.N) : (productData3 V c).after 0 t = blockAt3 V c 0 t := by
  dsimp only [productData3]
theorem productData3_after_weights (c : Dev nD) (t : Fin cfg3.N) : (productData3 V c).after 1 t = blockAt3 V c 1 t := by
  dsimp only [productData3]
theorem productData3_after_out (c : Dev nD) (t : Fin cfg3.N) :
    (productData3 V c).after 2 t = productBlock3 (blockAt3 V c 0 t) (blockAt3 V c 1 t) := by
  dsimp only [productData3]

theorem productData3_before_rows (c : Dev nD) (t : Fin cfg3.N) (d) : (productData3 V c).before 0 t d = blockAt3 V c 0 t :=
  rows_in_place3 V (productData3 V c) (productData3_A V c 0) (productData3_after_rows V c) t d
theorem productData3_before_weights (c : Dev nD) (t : Fin cfg3.N) (d) : (productData3 V c).before 1 t d = blockAt3 V c 1 t :=
  weights_in_place3 V (productData3 V c) (productData3_A V c 1) (productData3_after_weights V c) t d

/-! ## The body obligation -/

/-- What the body is called with at point `t`: the invariant, the core's dues, and the three windows' current buffers. -/
def bodyGiven3 (c : Dev nD) (t : Fin cfg3.N) : sProp 𝕄 :=
  iprop((productData3 V c).Φ t.castSucc ∗ (productData3 V c).owesAt () t.castSucc
    ∗ (∃ d, owns (c : Thread nD τ) (st3_0 t) fullShare ((productData3 V c).before 0 t d))
    ∗ (∃ d, owns (c : Thread nD τ) (st3_1 t) fullShare ((productData3 V c).before 1 t d))
    ∗ (∃ d, owns (c : Thread nD τ) (st3_2 t) fullShare ((productData3 V c).before 2 t d)))

/-- What it returns. -/
def bodyLeaves3 (c : Dev nD) (t : Fin cfg3.N) : sProp 𝕄 :=
  iprop((productData3 V c).Φ t.succ ∗ (productData3 V c).owesAt () t.succ
    ∗ owns (c : Thread nD τ) (st3_0 t) fullShare ((productData3 V c).after 0 t)
    ∗ owns (c : Thread nD τ) (st3_1 t) fullShare ((productData3 V c).after 1 t)
    ∗ owns (c : Thread nD τ) (st3_2 t) fullShare ((productData3 V c).after 2 t))

/-- At any point the input buffers hold their blocks, so the body's triple applies; the invariant and the dues pass
    through untouched. -/
theorem body_at_point3 (c : Dev nD) (t : Fin cfg3.N) :
    bodyGiven3 V c t ⊢ wp frame (wpE (defs₀ (F := F)) Variants.none c none) Set.univ (bodyAt3 t) (fun _ => bodyLeaves3 V c t) := by
  unfold bodyGiven3 bodyLeaves3 bodyAt3
  simp only [productData3_before_rows, productData3_before_weights]
  rw [show (productData3 V c).Φ t.succ = (productData3 V c).Φ t.castSucc from rfl,
    show (productData3 V c).owesAt () t.succ = (productData3 V c).owesAt () t.castSucc from rfl,
    productData3_after_rows, productData3_after_weights, productData3_after_out]
  iintro ⟨HΦ, Ho, ⟨%d0, H0⟩, ⟨%d1, H1⟩, ⟨%d2, H2⟩⟩
  iapply (matmul_body3 c Set.univ _ _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation3 (c : Dev nD) :
    BodyObligation (productData3 (F := F) V c) (defs₀ (F := F)) Variants.none () Set.univ := fun t => by
  rw [bigSep_W3, bigSep_W3]
  exact body_at_point3 V c t

end Cert.KernelIdeal.Hand

end
-- ==== Proof.KI.StatsRuns4.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second layer's activation and column statistics: the body, case by case

At each of ten grid points the body is handed a 5000-row block of the aggregated messages (window 0), the bias row
(window 1), the one-entry slope of the activation (window 2) and the matching block of the layer's input (window 3); it owns two rows of 64 running totals (the column sums and
the column sums of squares) that live across the points. It

* at the FIRST point only, sets both running rows to zero;
* at EVERY point stores the activated block `where(x + b ≥ 0, x + b, a·(x + b))`, plus the layer's input block, into the output block (window 4) and
  adds the block's column sums, and the column sums of its squares, to the two running rows;
* at the LAST point only, copies the two running rows into the two row outputs (windows 5 and 6).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst4 (i : grid4.Coords) : Prop :=
  (Scalar.cmpi .ne (Scalar.extui (Scalar.cmpi .eq (BitVec.ofNat 32 (i 0).val) 0#32)) 0#32) = 1#1
/-- It holds at point 0 of the ten and nowhere else. -/
theorem atFirst4_iff : ∀ t : Fin cfg4.N, atFirst4 (grid4.coords t) ↔ t.val % 10 = 0 :=
  (by decide +kernel : ∀ t : Fin grid4.N, atFirst4 (grid4.coords t) ↔ t.val % 10 = 0)

/-- "This is the last point", as the body computes it. -/
abbrev atLast4 (i : grid4.Coords) : Prop := k4_cond2 i = 1#1
/-- It holds at point 9 of the ten and nowhere else. -/
theorem atLast4_iff : ∀ t : Fin cfg4.N, atLast4 (grid4.coords t) ↔ t.val % 10 = 9 :=
  (by decide +kernel : ∀ t : Fin grid4.N, atLast4 (grid4.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun4_middle (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : ¬atLast4 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun4_first (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst4 i) (hc1 : ¬atLast4 i) (x0 : Vec F S5000x64 .f32) (x1 : Vec F S1x64 .f32) (x2 : Vec F S1x1 .f32) (x3 : Vec F S5000x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The last point: the running rows are added to, then copied out -/

set_option maxHeartbeats 2000000 in
/-- Inputs at their blocks; the running rows at `s`, `q`; the two row outputs at anything. The body stores into the output
    block, into both running rows, and into both row outputs. -/
noncomputable def statsRun4_last (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LYS) ∗ (∃ f, arg7.view.loc (c : Thread nD τ) ↦[arg7.view.set]{fullShare} arg7.view.writes (Elt F) f LYQ)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc4__stats_kernel_res i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__stats_kernel_res_eq_skeleton]; unfold cc4__stats_kernel_res_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.StatsData4.lean ====
import proofs.«123467_j2559800508646_1_alg».proof.Proof.KI.StatsRuns4

/-!
# The second layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 4) is stored whole and written back at every point. The two row outputs (windows 5 and 6) are
stored at the last point only; at the other nine the body leaves their buffers as found and the pipeline does not write
them back, so nothing is claimed of them there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The block of aggregated messages is in window 0's buffer when the body starts: brought in afresh at every point. -/
theorem agg_in_place4 {c : Dev nD} (dat : Dat τ (Elt F) Unit ℕ (UR sig nD τ) ℕ cfg4 c)
    (hA : dat.A 0 = V c (Pipeline.arrRef spec4 0)) (hafter : ∀ t, dat.after 0 t = blockAt4 V c 0 t)
    (t : Fin cfg4.N) (d) : dat.before 0 t d = blockAt4 V c 0 t :=
  (dat.before_in_eq_fetched 0 rfl (fun _ => rfl) (fun _ _ _ => rfl)
      (fun t => by rw [hafter]; unfold Dat.blockOf blockAt4; rw [hA]; try rfl) t d).trans
    (by unfold Dat.fetched Dat.blockOf blockAt4; rw [hA]; try rfl)

/-- The bias row is in window 1's buffer when the body starts, at every point: brought in at the first point and left as found. -/
theorem bias_in_place4 {c : Dev nD} (dat : Dat τ (Elt F) Unit ℕ (UR sig nD τ) ℕ cfg4 c)
    (hA : dat.A 1 = V c (Pipeline.arrRef spec4 1)) (hafter : ∀ t, dat.after 1 t = blockAt4 V c 1 t)
    (t : Fin cfg4.N) (d) : dat.before 1 t d = blockAt4 V c 1 t :=
  (dat.before_in_eq_fetched 1 rfl (fun _ => rfl) (fun _ _ _ => rfl)
      (fun t => by rw [hafter]; unfold Dat.blockOf blockAt4; rw [hA]; try rfl) t d).trans
    (by unfold Dat.fetched Dat.blockOf blockAt4; rw [hA]; try rfl)

/-- The activation's slope is in window 2's buffer when the body starts, at every point: brought in at the first point and left as found. -/
theorem slope_in_place4 {c : Dev nD} (dat : Dat τ (Elt F) Unit ℕ (UR sig nD τ) ℕ cfg4 c)
    (hA : dat.A 2 = V c (Pipeline.arrRef spec4 2)) (hafter : ∀ t, dat.after 2 t = blockAt4 V c 2 t)
    (t : Fin cfg4.N) (d) : dat.before 2 t d = blockAt4 V c 2 t :=
  (dat.before_in_eq_fetched 2 rfl (fun _ => rfl) (fun _ _ _ => rfl)
      (fun t => by rw [hafter]; unfold Dat.blockOf blockAt4; rw [hA]; try rfl) t d).trans
    (by unfold Dat.fetched Dat.blockOf blockAt4; rw [hA]; try rfl)

/-- The block of the layer's input is in window 3's buffer when the body starts: brought in afresh at every point. -/
theorem residual_in_place4 {c : Dev nD} (dat : Dat τ (Elt F) Unit ℕ (UR sig nD τ) ℕ cfg4 c)
    (hA : dat.A 3 = V c (Pipeline.arrRef spec4 3)) (hafter : ∀ t, dat.after 3 t = blockAt4 V c 3 t)
    (t : Fin cfg4.N) (d) : dat.before 3 t d = blockAt4 V c 3 t :=
  (dat.before_in_eq_fetched 3 rfl (fun _ => rfl) (fun _ _ _ => rfl)
      (fun t => by rw [hafter]; unfold Dat.blockOf blockAt4; rw [hA]; try rfl) t d).trans
    (by unfold Dat.fetched Dat.blockOf blockAt4; rw [hA]; try rfl)

/-! ## The memrefs the body is called with -/

abbrev mem4_0 (t : Fin cfg4.N) : Memref sig .tc .vmem S5000x64 .f32 := win4_0.stage (cfg4.slots t 0)
abbrev hmem4_0 (t : Fin cfg4.N) : (mem4_0 t).IsWhole := hstage4_0 ((cfg4.slots t 0).cast nbuf4_0)
abbrev mem4_1 (t : Fin cfg4.N) : Memref sig .tc .vmem S1x64 .f32 := win4_1.stage (cfg4.slots t 1)
abbrev hmem4_1 (t : Fin cfg4.N) : (mem4_1 t).IsWhole := hstage4_1 ((cfg4.slots t 1).cast nbuf4_1)
abbrev mem4_2 (t : Fin cfg4.N) : Memref sig .tc .vmem S1x1 .f32 := win4_2.stage (cfg4.slots t 2)
abbrev hmem4_2 (t : Fin cfg4.N) : (mem4_2 t).IsWhole := hstage4_2 ((cfg4.slots t 2).cast nbuf4_2)
abbrev mem4_3 (t : Fin cfg4.N) : Memref sig .tc .vmem S5000x64 .f32 := win4_3.stage (cfg4.slots t 3)
abbrev hmem4_3 (t : Fin cfg4.N) : (mem4_3 t).IsWhole := hstage4_3 ((cfg4.slots t 3).cast nbuf4_3)
abbrev mem4_4 (t : Fin cfg4.N) : Memref sig .tc .vmem S5000x64 .f32 := win4_4.stage (cfg4.slots t 4)
abbrev hmem4_4 (t : Fin cfg4.N) : (mem4_4 t).IsWhole := hstage4_4 ((cfg4.slots t 4).cast nbuf4_4)
abbrev mem4_5 (t : Fin cfg4.N) : Memref sig .tc .vmem S1x64 .f32 := win4_5.stage (cfg4.slots t 5)
abbrev hmem4_5 (t : Fin cfg4.N) : (mem4_5 t).IsWhole := hstage4_5 ((cfg4.slots t 5).cast nbuf4_5)
abbrev mem4_6 (t : Fin cfg4.N) : Memref sig .tc .vmem S1x64 .f32 := win4_6.stage (cfg4.slots t 6)
abbrev hmem4_6 (t : Fin cfg4.N) : (mem4_6 t).IsWhole := hstage4_6 ((cfg4.slots t 6).cast nbuf4_6)
/-- The two running rows: whole scoped buffers of the kernel's own. -/
abbrev sumRow4 : Memref sig .tc .vmem S1x64 .f32 := Memref.whole cc4_scratch0
abbrev sqRow4 : Memref sig .tc .vmem S1x64 .f32 := Memref.whole cc4_scratch1

/-- Contents are stated through one fixed view per shape: a list of pieces written over anything, read back. When the
    pieces cover the shape the result depends on neither the view nor the prior contents. -/
abbrev blockView4 : View sig .tc .vmem S5000x64 .f32 := (Memref.whole cc4_stg4_0 : Memref sig .tc .vmem S5000x64 .f32).view
abbrev rowView4 : View sig .tc .vmem S1x64 .f32 := sumRow4.view
def blockOfPieces4 (L : List (View.Piece (Elt F) S5000x64 .f32)) : Vec F S5000x64 .f32 :=
  blockView4.read (Elt F) (blockView4.writes (Elt F) blockView4.junk L)
def rowOfPieces4 (L : List (View.Piece (Elt F) S1x64 .f32)) : Vec F S1x64 .f32 :=
  rowView4.read (Elt F) (rowView4.writes (Elt F) rowView4.junk L)

/-- The kernel's scoped buffers at anything, with the two running rows singled out. -/
theorem invariant_open4 (c : Dev nD) :
    (Pipeline.ΦA spec4 c : sProp 𝕄)
      = iprop(iprop(iprop((∃ d, owns (c : Thread nD τ) sumRow4 fullShare d) ∗ (∃ d, owns (c : Thread nD τ) sqRow4 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sumRow4, sqRow4, owns_whole]; try rfl

/-! ## Which case a point is in -/

theorem first_of_zero4 (t : Fin cfg4.N) (h : t.val = 0) : atFirst4 (grid4.coords t) :=
  (atFirst4_iff t).mpr (by rw [h])
theorem not_first_of_pos4 (t : Fin cfg4.N) (h : t.val ≠ 0) : ¬atFirst4 (grid4.coords t) := fun hf => by
  have h0 := (atFirst4_iff t).mp hf
  have hN : t.val < 10 := lt_of_lt_of_eq t.isLt (show cfg4.N = 10 from N_4)
  omega
theorem last_of4 (t : Fin cfg4.N) (h : t.val % 10 = 9) : atLast4 (grid4.coords t) := (atLast4_iff t).mpr h
theorem not_last_of4 (t : Fin cfg4.N) (h : ¬t.val % 10 = 9) : ¬atLast4 (grid4.coords t) :=
  fun hl => h ((atLast4_iff t).mp hl)

/-- The row outputs are idle, and not written back, away from the last point; live at it. The other windows never idle. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem idle4_5 : ∀ t : Fin cfg4.N, ¬t.val % 10 = 9 → cfg4.idle 5 (grid4.coords t) = true := by decide +kernel
theorem noflush4_5 : ∀ t : Fin cfg4.N, ¬t.val % 10 = 9 → (cfg4.win 5).flush t = false := by decide +kernel
theorem live4_5 : ∀ t : Fin cfg4.N, t.val % 10 = 9 → cfg4.idle 5 (grid4.coords t) = false := by decide +kernel
theorem idle4_6 : ∀ t : Fin cfg4.N, ¬t.val % 10 = 9 → cfg4.idle 6 (grid4.coords t) = true := by decide +kernel
theorem noflush4_6 : ∀ t : Fin cfg4.N, ¬t.val % 10 = 9 → (cfg4.win 6).flush t = false := by decide +kernel
theorem live4_6 : ∀ t : Fin cfg4.N, t.val % 10 = 9 → cfg4.idle 6 (grid4.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter4 (c : Dev nD) : (n : ℕ) → n < cfg4.N →
    Vec F S5000x64 .f32 × Vec F S1x64 .f32 × Vec F S1x64 .f32 × Vec F S1x64 .f32 × Vec F S1x64 .f32
  | 0, hn =>
    let t : Fin cfg4.N := ⟨0, hn⟩
    let R := statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
      (first_of_zero4 t rfl) (not_last_of4 t (by show ¬(0 : ℕ) % 10 = 9; decide)) (blockAt4 V c 0 t) (blockAt4 V c 1 t) (blockAt4 V c 2 t) (blockAt4 V c 3 t)
    (blockOfPieces4 R.1, rowOfPieces4 [], rowOfPieces4 [], rowOfPieces4 R.2.1, rowOfPieces4 R.2.2.1)
  | n + 1, hn =>
    let t : Fin cfg4.N := ⟨n + 1, hn⟩
    let prev := stateAfter4 c n (Nat.lt_of_succ_lt hn)
    if h9 : (n + 1) % 10 = 9 then
      let R := statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
        (not_first_of_pos4 t (Nat.succ_ne_zero n)) (last_of4 t h9) (blockAt4 V c 0 t) (blockAt4 V c 1 t) (blockAt4 V c 2 t) (blockAt4 V c 3 t) prev.2.2.2.1 prev.2.2.2.2
      (blockOfPieces4 R.1, rowOfPieces4 R.2.1, rowOfPieces4 R.2.2.1, rowOfPieces4 R.2.2.2.1, rowOfPieces4 R.2.2.2.2.1)
    else
      let R := statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _)
        (not_first_of_pos4 t (Nat.succ_ne_zero n)) (not_last_of4 t h9) (blockAt4 V c 0 t) (blockAt4 V c 1 t) (blockAt4 V c 2 t) (blockAt4 V c 3 t) prev.2.2.2.1 prev.2.2.2.2
      (blockOfPieces4 R.1, rowOfPieces4 [], rowOfPieces4 [], rowOfPieces4 R.2.1, rowOfPieces4 R.2.2.1)

/-! ## The recursion, case by case -/

/-- At the first point: the first run's pieces, from anything. -/
theorem stateAfter4_first (c : Dev nD) (t : Fin cfg4.N) (h0 : t.val = 0) (h9 : ¬t.val % 10 = 9) :
    stateAfter4 V c t.val t.isLt =
      (blockOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).1, rowOfPieces4 [], rowOfPieces4 [],
        rowOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).2.1, rowOfPieces4 (statsRun4_first (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (first_of_zero4 t h0) (not_last_of4 t h9) (blockAt4 V c 0 t) (blockAt4 V c 1 t) (blockAt4 V c 2 t) (blockAt4 V c 3 t)).2.2.1) := by
  obtain ⟨n, hn⟩ := t
  cases n with
  | zero => rfl
  | succ n => exact absurd h0 (Nat.succ_ne_zero n)

/-- At a middle point: the middle run's pieces, from the running rows the point before left. -/
theorem stateAfter4_middle (c : Dev nD) (t : Fin cfg4.N) (h0 : t.val ≠ 0) (h9 : ¬t.val % 10 = 9) :
    stateAfter4 V c t.val t.isLt =
      (blockOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).1, rowOfPieces4 [], rowOfPieces4 [],
        rowOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.1, rowOfPieces4 (statsRun4_middle (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (not_last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter4_last (c : Dev nD) (t : Fin cfg4.N) (h0 : t.val ≠ 0) (h9 : t.val % 10 = 9) :
    stateAfter4 V c t.val t.isLt =
      (blockOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.1,
        rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.2.1, rowOfPieces4 (statsRun4_last (F := F) c (grid4.coords t) (mem4_0 t) (hmem4_0 t) (mem4_1 t) (hmem4_1 t) (mem4_2 t) (hmem4_2 t) (mem4_3 t) (hmem4_3 t) (mem4_4 t) (hmem4_4 t) (mem4_5 t) (hmem4_5 t) (mem4_6 t) (hmem4_6 t) sumRow4 (Memref.isWhole_whole _) sqRow4 (Memref.isWhole_whole _) (not_first_of_pos4 t h0) (last_of4 t h9) (blockAt4 V c 0 t) (blockAt4 V c 1 t) (blockAt4 V c 2 t) (blockAt4 V c 3 t) (stateAfter4 V c (t.val - 1) (Nat.lt_of_le_of_lt (Nat.sub_le _ _) t.isLt)).2.2.2.1 (stateAfter4 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt4 (c : Dev nD) : (n : ℕ) → n ≤ cfg4.N → sProp 𝕄
  | 0, _ => Pipeline.ΦA spec4 c
  | n + 1, hn =>
    iprop(iprop(iprop(owns (c : Thread nD τ) sumRow4 fullShare (stateAfter4 V c n hn).2.2.2.1
          ∗ owns (c : Thread nD τ) sqRow4 fullShare (stateAfter4 V c n hn).2.2.2.2)
        ∗ Pipeline.scopedRestBut (Ix := Unit) (Name := ℕ) (U := UR sig nD τ) (Lvl := ℕ) (Val := Elt F) spec4 c [cc4_scratch0, cc4_scratch1])
      ∗ (∃ r, prngReg c r))

theorem invariantAt4_zero (c : Dev nD) (n : ℕ) (h : n ≤ cfg4.N) (hz : n = 0) :
    invariantAt4 V c n h = Pipeline.ΦA spec4 c := by subst hz; rfl

theorem invariantAt4_succ (c : Dev nD) (n : ℕ) (hn : n < cfg4.N) :
    invariantAt4 V c (n + 1) hn =
      iprop(iprop(iprop(owns (c : Thread nD τ) sumRow4 fullShare (stateAfter4 V c n hn).2.2.2.1
          ∗ owns (c : Thread nD τ) sqRow4 fullShare (stateAfter4 V c n hn).2.2.2.2)
        ∗ Pipeline.scopedRestBut (Ix := Unit) (Name := ℕ) (U := UR sig nD τ) (Lvl := ℕ) (Val := Elt F) spec4 c [cc4_scratch0, cc4_scratch1])
      ∗ (∃ r, prngReg c r)) := rfl

theorem invariantAt4_pos (c : Dev nD) (n : ℕ) (h : n ≤ cfg4.N) (hz : n ≠ 0) :
    invariantAt4 V c n h =
      iprop(iprop(iprop(owns (c : Thread nD τ) sumRow4 fullShare (stateAfter4 V c (n - 1) (by omega)).2.2.2.1
          ∗ owns (c : Thread nD τ) sqRow4 fullShare (stateAfter4 V c (n - 1) (by omega)).2.2.2.2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => blockAt4 V c 3 t
    | ⟨4, _⟩ => (stateAfter4 V c t.val t.isLt).1
    | ⟨5, _⟩ => (stateAfter4 V c t.val t.isLt).2.1
    | ⟨6, _⟩ => (stateAfter4 V c t.val t.isLt).2.2.1
  Φ t := invariantAt4 V c t.val (Nat.le_of_lt_succ t.isLt)
  q _ := fullShare
  owed _ := 0

theorem statsData4_A (c : Dev nD) (w : Fin cfg4.W) : (statsData4 V c).A w = V c (Pipeline.arrRef spec4 w) := by
  dsimp only [statsData4]
theorem statsData4_inv (c : Dev nD) (t : Fin cfg4.N) :
    (statsData4 V c).Φ t.castSucc = invariantAt4 V c t.val (Nat.le_of_lt t.isLt) := by
  dsimp only [statsData4]; simp only [Fin.coe_castSucc]
theorem statsData4_after0 (c : Dev nD) (t : Fin cfg4.N) : (statsData4 V c).after 0 t = blockAt4 V c 0 t := by dsimp only [statsData4]
theorem statsData4_after1 (c : Dev nD) (t : Fin cfg4.N) : (statsData4 V c).after 1 t = blockAt4 V c 1 t := by dsimp only [statsData4]
theorem statsData4_after2 (c : Dev nD) (t : Fin cfg4.N) : (statsData4 V c).after 2 t = blockAt4 V c 2 t := by dsimp only [statsData4]
theorem statsData4_after3 (c : Dev nD) (t : Fin cfg4.N) : (statsData4 V c).after 3 t = blockAt4 V c 3 t := by dsimp only [statsData4]
theorem statsData4_after4 (c : Dev nD) (t : Fin cfg4.N) : (statsData4 V c).after 4 t = (stateAfter4 V c t.val t.isLt).1 := by dsimp only [statsData4]
theorem statsData4_after5 (c : Dev nD) (t : Fin cfg4.N) : (statsData4 V c).after 5 t = (stateAfter4 V c t.val t.isLt).2.1 := by dsimp only [statsData4]
theorem statsData4_after6 (c : Dev nD) (t : Fin cfg4.N) : (statsData4 V c).after 6 t = (stateAfter4 V c t.val t.isLt).2.2.1 := by dsimp only [statsData4]
theorem statsData4_before0 (c : Dev nD) (t : Fin cfg4.N) (d) : (statsData4 V c).before 0 t d = blockAt4 V c 0 t :=
  agg_in_place4 V (statsData4 V c) (statsData4_A V c 0) (statsData4_after0 V c) t d
theorem statsData4_before1 (c : Dev nD) (t : Fin cfg4.N) (d) : (statsData4 V c).before 1 t d = blockAt4 V c 1 t :=
  bias_in_place4 V (statsData4 V c) (statsData4_A V c 1) (statsData4_after1 V c) t d
theorem statsData4_before2 (c : Dev nD) (t : Fin cfg4.N) (d) : (statsData4 V c).before 2 t d = blockAt4 V c 2 t :=
  slope_in_place4 V (statsData4 V c) (statsData4_A V c 2) (statsData4_after2 V c) t d
theorem statsData4_before3 (c : Dev nD) (t : Fin cfg4.N) (d) : (statsData4 V c).before 3 t d = blockAt4 V c 3 t :=
  residual_in_place4 V (statsData4 V c) (statsData4_A V c 3) (statsData4_after3 V c) t d

/-! ## The body obligation -/

/-- What the body is called with at point `t`: the invariant, the core's dues, and the windows' current buffers. -/
def bodyGiven4 (c : Dev nD) (t : Fin cfg4.N) : sProp 𝕄 :=
  iprop((statsData4 V c).Φ t.castSucc ∗ (statsData4 V c).owesAt () t.castSucc
    ∗ (∃ d, owns (c : Thread nD τ) (mem4_0 t) fullShare ((statsData4 V c).before 0 t d))
    ∗ (∃ d, owns (c : Thread nD τ) (mem4_1 t) fullShare ((statsData4 V c).before 1 t d))
    ∗ (∃ d, owns (c : Thread nD τ) (mem4_2 t) fullShare ((statsData4 V c).before 2 t d))
    ∗ (∃ d, owns (c : Thread nD τ) (mem4_3 t) fullShare ((statsData4 V c).before 3 t d))
    ∗ (∃ d, owns (c : Thread nD τ) (mem4_4 t) fullShare ((statsData4 V c).before 4 t d))
    ∗ (∃ d, owns (c : Thread nD τ) (mem4_5 t) fullShare ((statsData4 V c).before 5 t d))
    ∗ (∃ d, owns (c : Thread nD τ) (mem4_6 t) fullShare ((statsData4 V c).before 6 t d)))

/-- What it returns: the invariant after the point, the dues, and each window's buffer as the obligation describes it —
    at the named contents where the window is live or written back, as found where it is idle. -/
def bodyLeaves4 (c : Dev nD) (t : Fin cfg4.N) : sProp 𝕄 :=
  iprop((statsData4 V c).Φ t.succ ∗ (statsData4 V c).owesAt () t.succ
    ∗ (statsData4 V c).leavesExact 0 t
    ∗ (statsData4 V c).leavesExact 1 t
    ∗ (statsData4 V c).leavesExact 2 t
    ∗ (statsData4 V c).leavesExact 3 t
    ∗ (statsData4 V c).leavesExact 4 t
    ∗ (statsData4 V c).leavesExact 5 t
    ∗ (statsData4 V c).leavesExact 6 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point4 (c : Dev nD) (t : Fin cfg4.N) :
    bodyGiven4 V c t ⊢ wp frame (wpE (defs₀ (F := F)) Variants.none c none) Set.univ (bodyAt4 t) (fun _ => bodyLeaves4 V c t) := by
  unfold bodyGiven4 bodyLeaves4 bodyAt4
  simp only [statsData4_before0, statsData4_before1, statsData4_before2, statsData4_before3]
  rw [show (statsData4 V c).owesAt () t.succ = (statsData4 V c).owesAt () t.castSucc from rfl]
  rw [show (statsData4 V c).Φ t.succ = invariantAt4 V c (t.val + 1) t.isLt from rfl, invariantAt4_succ]
  rw [show (statsData4 V c).leavesExact 0 t = owns (c : Thread nD τ) (mem4_0 t) fullShare ((statsData4 V c).after 0 t) from by
    unfold Dat.leavesExact; rw [live4_0 t], statsData4_after0]
  rw [show (statsData4 V c).leavesExact 1 t = owns (c : Thread nD τ) (mem4_1 t) fullShare ((statsData4 V c).after 1 t) from by
    unfold Dat.leavesExact; rw [live4_1 t], statsData4_after1]
  rw [show (statsData4 V c).leavesExact 2 t = owns (c : Thread nD τ) (mem4_2 t) fullShare ((statsData4 V c).after 2 t) from by
    unfold Dat.leavesExact; rw [live4_2 t], statsData4_after2]
  rw [show (statsData4 V c).leavesExact 3 t = owns (c : Thread nD τ) (mem4_3 t) fullShare ((statsData4 V c).after 3 t) from by
    unfold Dat.leavesExact; rw [live4_3 t], statsData4_after3]
  rw [show (statsData4 V c).leavesExact 4 t = owns (c : Thread nD τ) (mem4_4 t) fullShare ((statsData4 V c).after 4 t) from by
    unfold Dat.leavesExact; rw [live4_4 t], statsData4_after4]
  have hN : t.val < 10 := lt_of_lt_of_eq t.isLt (show cfg4.N = 10 from N_4)
  by_cases h9 : t.val % 10 = 9
  · -- the last point
    have h0 : t.val ≠ 0 := by omega
    rw [show (statsData4 V c).leavesExact 5 t = owns (c : Thread nD τ) (mem4_5 t) fullShare ((statsData4 V c).after 5 t) from by
      unfold Dat.leavesExact; rw [live4_5 t h9], statsData4_after5]
    rw [show (statsData4 V c).leavesExact 6 t = owns (c : Thread nD τ) (mem4_6 t) fullShare ((statsData4 V c).after 6 t) from by
      unfold Dat.leavesExact; rw [live4_6 t h9], statsData4_after6]
    rw [stateAfter4_last V c t h0 h9]
    (try dsimp only)
    rw [statsData4_inv V c t, invariantAt4_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((statsRun4_last (F := F) c (grid4.coords t) _ _ _ _ _ _ _ _ _ _ _ _ _ _ _ _ _ _ (not_first_of_pos4 t h0) (last_of4 t h9) (blockAt4 V c 0 t) (blockAt4 V c 1 t) (blockAt4 V c 2 t) (blockAt4 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    isplitl [HQ]; · iexact HQ
    iintro ⟨H0, H1, H2, H3, ⟨%e4, H4⟩, ⟨%e5, H5⟩, ⟨%e6, H6⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · iexact H3
    isplitl [H4]; · (unfold owns; iexists _; isplitr; swap; iexact H4; ipureintro; exact View.read_writes_of_cover _ _ _ _ _ (fun y => View.cover_of_tiledL _ S5000x64.size (by sl_kernel_rfl) y))
    isplitl [H5]; · (unfold owns; iexists _; isplitr; swap; iexact H5; ipureintro; exact View.read_writes_of_cover _ _ _ _ _ (fun y => View.cover_of_tiledL _ S1x64.size (by sl_kernel_rfl) y))
    (unfold owns; iexists _; isplitr; swap; iexact H6; ipureintro; exact View.read_writes_of_cover _ _ _ _ _ (fun y => View.cover_of_tiledL _ S1x64.size (by sl_kernel_rfl) y))
  · -- not the last point: the two row outputs go back as found
    rw [Dat.leavesExact_idle (statsData4 V c) 5 t (idle4_5 t h9) (noflush4_5 t h9)]
    rw [Dat.leavesExact_idle (statsData4 V c) 6 t (idle4_6 t h9) (noflush4_6 t h9)]
    by_cases h0 : t.val = 0
    · -- the first point
      rw [stateAfter4_first V c t h0 h9]
      (try dsimp only)
      rw [statsData4_inv V c t, invariantAt4_zero V c _ _ h0, invariant_open4]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun4_first (F := F) c (grid4.coords t) _ _ _ _ _ _ _ _ _ _ _ _ _ _ _ _ _ _ (first_of_zero4 t h0) (not_last_of4 t h9) (blockAt4 V c 0 t) (blockAt4 V c 1 t) (blockAt4 V c 2 t) (blockAt4 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6
    · -- a middle point
      rw [stateAfter4_middle V c t h0 h9]
      (try dsimp only)
      rw [statsData4_inv V c t, invariantAt4_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun4_middle (F := F) c (grid4.coords t) _ _ _ _ _ _ _ _ _ _ _ _ _ _ _ _ _ _ (not_first_of_pos4 t h0) (not_last_of4 t h9) (blockAt4 V c 0 t) (blockAt4 V c 1 t) (blockAt4 V c 2 t) (blockAt4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6

/-- The library's body obligation for the call, at every point. -/
theorem body_obligation4 (c : Dev nD) :
    BodyObligation (statsData4 (F := F) V c) (defs₀ (F := F)) Variants.none () Set.univ := fun t => by
  rw [bigSep_W4, bigSep_W4]
  exact body_at_point4 V c t

/-- What the call is handed on entry is the invariant before the first point. -/
theorem invariant_in4 (c : Dev nD) : Pipeline.ΦA spec4 c ⊢ (statsData4 V c).Φ 0 := by
  rw [show (statsData4 V c).Φ 0 = invariantAt4 V c 0 (Nat.zero_le _) from rfl, invariantAt4_zero V c 0 _ rfl]
  try exact Idealize.SL.BI.Entails.refl _

/-- After the last point the invariant gives the kernel's scoped buffers back at anything: the running rows' values are
    forgotten. -/
theorem invariant_out4 (c : Dev nD) : (statsData4 V c).Φ (Fin.last cfg4.N) ⊢ Pipeline.ΦA spec4 c := by
  have hne : (Fin.last cfg4.N).val ≠ 0 := by rw [Fin.val_last]; have : cfg4.N = 10 := N_4; omega
  rw [show (statsData4 V c).Φ (Fin.last cfg4.N) = invariantAt4 V c (Fin.last cfg4.N).val (Nat.le_of_lt_succ (Fin.last cfg4.N).isLt) from rfl,
    invariantAt4_pos V c _ _ hne, invariant_open4]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.KernelIdeal.Hand

end
-- ==== Proof.KI.NormBody5.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The rows of `h` for point `t` are in window 0's buffer when the body starts, for any proof data over `V`'s arrays
    whose body leaves that buffer as found: the window is brought in afresh at every point. -/
theorem rows_in_place5 {c : Dev nD} (dat : Dat τ (Elt F) Unit ℕ (UR sig nD τ) ℕ cfg5 c)
    (hA : dat.A 0 = V c (Pipeline.arrRef spec5 0)) (hafter : ∀ t, dat.after 0 t = blockAt5 V c 0 t)
    (t : Fin cfg5.N) (d) : dat.before 0 t d = blockAt5 V c 0 t :=
  (dat.before_in_eq_fetched 0 rfl (fun _ => rfl) (fun _ _ _ => rfl)
      (fun t => by rw [hafter]; unfold Dat.blockOf blockAt5; rw [hA]; try rfl) t d).trans
    (by unfold Dat.fetched Dat.blockOf blockAt5; rw [hA]; try rfl)

/-- The mean row is in window 1's buffer when the body starts, at every point: brought in at the first point, and at the
    later ones the window's block index has not moved and the body left the buffer as found. -/
theorem mean_in_place5 {c : Dev nD} (dat : Dat τ (Elt F) Unit ℕ (UR sig nD τ) ℕ cfg5 c)
    (hA : dat.A 1 = V c (Pipeline.arrRef spec5 1)) (hafter : ∀ t, dat.after 1 t = blockAt5 V c 1 t)
    (t : Fin cfg5.N) (d) : dat.before 1 t d = blockAt5 V c 1 t :=
  (dat.before_in_eq_fetched 1 rfl (fun _ => rfl) (fun _ _ _ => rfl)
      (fun t => by rw [hafter]; unfold Dat.blockOf blockAt5; rw [hA]; try rfl) t d).trans
    (by unfold Dat.fetched Dat.blockOf blockAt5; rw [hA]; try rfl)

/-- The variance row is in window 2's buffer when the body starts, at every point: brought in at the first point, and at the
    later ones the window's block index has not moved and the body left the buffer as found. -/
theorem variance_in_place5 {c : Dev nD} (dat : Dat τ (Elt F) Unit ℕ (UR sig nD τ) ℕ cfg5 c)
    (hA : dat.A 2 = V c (Pipeline.arrRef spec5 2)) (hafter : ∀ t, dat.after 2 t = blockAt5 V c 2 t)
    (t : Fin cfg5.N) (d) : dat.before 2 t d = blockAt5 V c 2 t :=
  (dat.before_in_eq_fetched 2 rfl (fun _ => rfl) (fun _ _ _ => rfl)
      (fun t => by rw [hafter]; unfold Dat.blockOf blockAt5; rw [hA]; try rfl) t d).trans
    (by unfold Dat.fetched Dat.blockOf blockAt5; rw [hA]; try rfl)

/-- The gamma row is in window 3's buffer when the body starts, at every point: brought in at the first point, and at the
    later ones the window's block index has not moved and the body left the buffer as found. -/
theorem gamma_in_place5 {c : Dev nD} (dat : Dat τ (Elt F) Unit ℕ (UR sig nD τ) ℕ cfg5 c)
    (hA : dat.A 3 = V c (Pipeline.arrRef spec5 3)) (hafter : ∀ t, dat.after 3 t = blockAt5 V c 3 t)
    (t : Fin cfg5.N) (d) : dat.before 3 t d = blockAt5 V c 3 t :=
  (dat.before_in_eq_fetched 3 rfl (fun _ => rfl) (fun _ _ _ => rfl)
      (fun t => by rw [hafter]; unfold Dat.blockOf blockAt5; rw [hA]; try rfl) t d).trans
    (by unfold Dat.fetched Dat.blockOf blockAt5; rw [hA]; try rfl)

/-- The beta row is in window 4's buffer when the body starts, at every point: brought in at the first point, and at the
    later ones the window's block index has not moved and the body left the buffer as found. -/
theorem beta_in_place5 {c : Dev nD} (dat : Dat τ (Elt F) Unit ℕ (UR sig nD τ) ℕ cfg5 c)
    (hA : dat.A 4 = V c (Pipeline.arrRef spec5 4)) (hafter : ∀ t, dat.after 4 t = blockAt5 V c 4 t)
    (t : Fin cfg5.N) (d) : dat.before 4 t d = blockAt5 V c 4 t :=
  (dat.before_in_eq_fetched 4 rfl (fun _ => rfl) (fun _ _ _ => rfl)
      (fun t => by rw [hafter]; unfold Dat.blockOf blockAt5; rw [hA]; try rfl) t d).trans
    (by unfold Dat.fetched Dat.blockOf blockAt5; rw [hA]; try rfl)

/-! ## What the body stores -/

/-- The whole of a 5000 × 64 block and the whole of a 1 × 64 row: the only rectangles the body touches. -/
abbrev wholeRows5 : Rect S5000x64 := Rect.unit (s := S5000x64) ![0, 0] S5000x64.size inb_S5000x64_S5000x64_0_0
abbrev wholeRow5 : Rect S1x64 := Rect.unit (s := S1x64) ![0, 0] S1x64.size inb_S1x64_S1x64_0_0

/-- The output block after the body: its one store, of the normalised rows, over the whole block. -/
def normalisedBlock5 (x : Vec F S5000x64 .f32) (mu vr ga be : Vec F S1x64 .f32) : Vec F S5000x64 .f32 :=
  View.canon [⟨wholeRows5, k5_pay1 (View.ld vr wholeRow5) (View.ld ga wholeRow5) (View.ld x wholeRows5)
    (View.ld mu wholeRow5) (View.ld be wholeRow5)⟩]

/-- That one store covers the block. -/
theorem normalised_covers5 (p : Vec F S5000x64 .f32) (y : S5000x64.Idx) :
    ∃ pc ∈ ([⟨wholeRows5, p⟩] : List (View.Piece (Elt F) S5000x64 .f32)), y ∈ pc.1.set :=
  View.cover_of_tiled [⟨wholeRows5, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock5 x mu vr ga be`. -/
theorem bn_body5 (c : Dev nD) (E : Set ℕ) (i : grid5.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock5 x mu vr ga be)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers5 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => blockAt5 V c 2 t
    | ⟨3, _⟩ => blockAt5 V c 3 t
    | ⟨4, _⟩ => blockAt5 V c 4 t
    | ⟨5, _⟩ => normalisedBlock5 (blockAt5 V c 0 t) (blockAt5 V c 1 t) (blockAt5 V c 2 t) (blockAt5 V c 3 t) (blockAt5 V c 4 t)
  Φ _ := Pipeline.ΦA spec5 c
  q _ := fullShare
  owed _ := 0

theorem normData5_A (c : Dev nD) (w : Fin cfg5.W) : (normData5 V c).A w = V c (Pipeline.arrRef spec5 w) := by
  dsimp only [normData5]

theorem normData5_after0 (c : Dev nD) (t : Fin cfg5.N) : (normData5 V c).after 0 t = blockAt5 V c 0 t := by dsimp only [normData5]
theorem normData5_after1 (c : Dev nD) (t : Fin cfg5.N) : (normData5 V c).after 1 t = blockAt5 V c 1 t := by dsimp only [normData5]
theorem normData5_after2 (c : Dev nD) (t : Fin cfg5.N) : (normData5 V c).after 2 t = blockAt5 V c 2 t := by dsimp only [normData5]
theorem normData5_after3 (c : Dev nD) (t : Fin cfg5.N) : (normData5 V c).after 3 t = blockAt5 V c 3 t := by dsimp only [normData5]
theorem normData5_after4 (c : Dev nD) (t : Fin cfg5.N) : (normData5 V c).after 4 t = blockAt5 V c 4 t := by dsimp only [normData5]
theorem normData5_after_out (c : Dev nD) (t : Fin cfg5.N) :
    (normData5 V c).after 5 t = normalisedBlock5 (blockAt5 V c 0 t) (blockAt5 V c 1 t) (blockAt5 V c 2 t)
      (blockAt5 V c 3 t) (blockAt5 V c 4 t) := by
  dsimp only [normData5]

theorem normData5_before0 (c : Dev nD) (t : Fin cfg5.N) (d) : (normData5 V c).before 0 t d = blockAt5 V c 0 t :=
  rows_in_place5 V (normData5 V c) (normData5_A V c 0) (normData5_after0 V c) t d
theorem normData5_before1 (c : Dev nD) (t : Fin cfg5.N) (d) : (normData5 V c).before 1 t d = blockAt5 V c 1 t :=
  mean_in_place5 V (normData5 V c) (normData5_A V c 1) (normData5_after1 V c) t d
theorem normData5_before2 (c : Dev nD) (t : Fin cfg5.N) (d) : (normData5 V c).before 2 t d = blockAt5 V c 2 t :=
  variance_in_place5 V (normData5 V c) (normData5_A V c 2) (normData5_after2 V c) t d
theorem normData5_before3 (c : Dev nD) (t : Fin cfg5.N) (d) : (normData5 V c).before 3 t d = blockAt5 V c 3 t :=
  gamma_in_place5 V (normData5 V c) (normData5_A V c 3) (normData5_after3 V c) t d
theorem normData5_before4 (c : Dev nD) (t : Fin cfg5.N) (d) : (normData5 V c).before 4 t d = blockAt5 V c 4 t :=
  beta_in_place5 V (normData5 V c) (normData5_A V c 4) (normData5_after4 V c) t d

/-! ## The body obligation -/

/-- What the body is called with at point `t`: the invariant, the core's dues, and the six windows' current buffers. -/
def bodyGiven5 (c : Dev nD) (t : Fin cfg5.N) : sProp 𝕄 :=
  iprop((normData5 V c).Φ t.castSucc ∗ (normData5 V c).owesAt () t.castSucc
    ∗ (∃ d, owns (c : Thread nD τ) (st5_0 t) fullShare ((normData5 V c).before 0 t d))
    ∗ (∃ d, owns (c : Thread nD τ) (st5_1 t) fullShare ((normData5 V c).before 1 t d))
    ∗ (∃ d, owns (c : Thread nD τ) (st5_2 t) fullShare ((normData5 V c).before 2 t d))
    ∗ (∃ d, owns (c : Thread nD τ) (st5_3 t) fullShare ((normData5 V c).before 3 t d))
    ∗ (∃ d, owns (c : Thread nD τ) (st5_4 t) fullShare ((normData5 V c).before 4 t d))
    ∗ (∃ d, owns (c : Thread nD τ) (st5_5 t) fullShare ((normData5 V c).before 5 t d)))

/-- What it returns. -/
def bodyLeaves5 (c : Dev nD) (t : Fin cfg5.N) : sProp 𝕄 :=
  iprop((normData5 V c).Φ t.succ ∗ (normData5 V c).owesAt () t.succ
    ∗ owns (c : Thread nD τ) (st5_0 t) fullShare ((normData5 V c).after 0 t)
    ∗ owns (c : Thread nD τ) (st5_1 t) fullShare ((normData5 V c).after 1 t)
    ∗ owns (c : Thread nD τ) (st5_2 t) fullShare ((normData5 V c).after 2 t)
    ∗ owns (c : Thread nD τ) (st5_3 t) fullShare ((normData5 V c).after 3 t)
    ∗ owns (c : Thread nD τ) (st5_4 t) fullShare ((normData5 V c).after 4 t)
    ∗ owns (c : Thread nD τ) (st5_5 t) fullShare ((normData5 V c).after 5 t))

/-- At any point the input buffers hold their blocks, so the body's triple applies; the invariant and the dues pass
    through untouched. -/
theorem body_at_point5 (c : Dev nD) (t : Fin cfg5.N) :
    bodyGiven5 V c t ⊢ wp frame (wpE (defs₀ (F := F)) Variants.none c none) Set.univ (bodyAt5 t) (fun _ => bodyLeaves5 V c t) := by
  unfold bodyGiven5 bodyLeaves5 bodyAt5
  simp only [normData5_before0, normData5_before1, normData5_before2, normData5_before3, normData5_before4]
  rw [show (normData5 V c).Φ t.succ = (normData5 V c).Φ t.castSucc from rfl,
    show (normData5 V c).owesAt () t.succ = (normData5 V c).owesAt () t.castSucc from rfl,
    normData5_after0, normData5_after1, normData5_after2, normData5_after3, normData5_after4, normData5_after_out]
  iintro ⟨HΦ, Ho, ⟨%d0, H0⟩, ⟨%d1, H1⟩, ⟨%d2, H2⟩, ⟨%d3, H3⟩, ⟨%d4, H4⟩, ⟨%d5, H5⟩⟩
  iapply (bn_body5 c Set.univ _ _ _ _ _ _ _ _ _ _ _ _ _ (blockAt5 V c 0 t) (blockAt5 V c 1 t) (blockAt5 V c 2 t)
    (blockAt5 V c 3 t) (blockAt5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation5 (c : Dev nD) :
    BodyObligation (normData5 (F := F) V c) (defs₀ (F := F)) Variants.none () Set.univ := fun t => by
  rw [bigSep_W5, bigSep_W5]
  exact body_at_point5 V c t

end Cert.KernelIdeal.Hand

end
-- ==== Proof.KI.MatmulBody6.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third matrix product, one row block at a time

The third product multiplies the previous layer's normalised features `h : [50000, 64]` by the third weight matrix `W₂ : [64, 64]`, ten grid
points of 5000 rows each. At point `t` the body is handed rows `5000·t … 5000·t + 4999` of `h` (window 0), the whole of
`W₂` (window 1, brought in at the first point and left in place afterwards) and the output's row block (window 2); it
stores into the output block the product of the two loaded blocks and reads nothing else. So the output block after the
body is a function of the two input blocks alone, the inputs are left as found, and nothing is carried from one point to
the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The rows of `h` for point `t` are in window 0's buffer when the body starts, for any proof data over `V`'s arrays
    whose body leaves that buffer as found: the window is brought in afresh at every point. -/
theorem rows_in_place6 {c : Dev nD} (dat : Dat τ (Elt F) Unit ℕ (UR sig nD τ) ℕ cfg6 c)
    (hA : dat.A 0 = V c (Pipeline.arrRef spec6 0)) (hafter : ∀ t, dat.after 0 t = blockAt6 V c 0 t)
    (t : Fin cfg6.N) (d) : dat.before 0 t d = blockAt6 V c 0 t :=
  (dat.before_in_eq_fetched 0 rfl (fun _ => rfl) (fun _ _ _ => rfl)
      (fun t => by rw [hafter]; unfold Dat.blockOf blockAt6; rw [hA]; try rfl) t d).trans
    (by unfold Dat.fetched Dat.blockOf blockAt6; rw [hA]; try rfl)

/-- The weight matrix is in window 1's buffer when the body starts, at every point: brought in at the first point, and
    at the later ones the window's block index has not moved and the body left the buffer as found. -/
theorem weights_in_place6 {c : Dev nD} (dat : Dat τ (Elt F) Unit ℕ (UR sig nD τ) ℕ cfg6 c)
    (hA : dat.A 1 = V c (Pipeline.arrRef spec6 1)) (hafter : ∀ t, dat.after 1 t = blockAt6 V c 1 t)
    (t : Fin cfg6.N) (d) : dat.before 1 t d = blockAt6 V c 1 t :=
  (dat.before_in_eq_fetched 1 rfl (fun _ => rfl) (fun _ _ _ => rfl)
      (fun t => by rw [hafter]; unfold Dat.blockOf blockAt6; rw [hA]; try rfl) t d).trans
    (by unfold Dat.fetched Dat.blockOf blockAt6; rw [hA]; try rfl)

/-! ## What the body stores -/

/-- The whole of a 5000 × 64 block, and the whole of the 64 × 64 weight block: the only rectangles the body touches. -/
abbrev wholeRows6 : Rect S5000x64 := Rect.unit (s := S5000x64) ![0, 0] S5000x64.size inb_S5000x64_S5000x64_0_0
abbrev wholeWeights6 : Rect S64x64 := Rect.unit (s := S64x64) ![0, 0] S64x64.size inb_S64x64_S64x64_0_0

/-- The output block after the body: its one store, of the product of the two loaded blocks, over the whole block. -/
def productBlock6 (x : Vec F S5000x64 .f32) (wt : Vec F S64x64 .f32) : Vec F S5000x64 .f32 :=
  View.canon [⟨wholeRows6, k6_pay1 (View.ld x wholeRows6) (View.ld wt wholeWeights6)⟩]

/-- That one store covers the block. -/
theorem product_covers6 (p : Vec F S5000x64 .f32) (y : S5000x64.Idx) :
    ∃ pc ∈ ([⟨wholeRows6, p⟩] : List (View.Piece (Elt F) S5000x64 .f32)), y ∈ pc.1.set :=
  View.cover_of_tiled [⟨wholeRows6, p⟩] S5000x64.size (by rfl) y

/-! ## The body's triple -/

set_option maxHeartbeats 1000000 in
/-- On whole buffers — the two inputs at contents `x`, `wt`, the output at anything — the body runs to its continuation
    with the inputs as they were and the output at `productBlock6 x wt`. -/
theorem matmul_body6 (c : Dev nD) (E : Set ℕ) (i : grid6.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (productBlock6 x wt)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers6 _)

/-! ## The proof data of the call -/

/-- On core `c`: the windows' arrays are the contents the call finds; after the body at point `t` the two input buffers
    hold their blocks still and the output buffer holds the product of those blocks; the invariant between points is the
    scoped buffers the body never names and the generator register; nothing is owed to any other core. -/
def productData6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => productBlock6 (blockAt6 V c 0 t) (blockAt6 V c 1 t)
  Φ _ := Pipeline.ΦA spec6 c
  q _ := fullShare
  owed _ := 0

theorem productData6_A (c : Dev nD) (w : Fin cfg6.W) : (productData6 V c).A w = V c (Pipeline.arrRef spec6 w) := by
  dsimp only [productData6]

theorem productData6_after_rows (c : Dev nD) (t : Fin cfg6.N) : (productData6 V c).after 0 t = blockAt6 V c 0 t := by
  dsimp only [productData6]
theorem productData6_after_weights (c : Dev nD) (t : Fin cfg6.N) : (productData6 V c).after 1 t = blockAt6 V c 1 t := by
  dsimp only [productData6]
theorem productData6_after_out (c : Dev nD) (t : Fin cfg6.N) :
    (productData6 V c).after 2 t = productBlock6 (blockAt6 V c 0 t) (blockAt6 V c 1 t) := by
  dsimp only [productData6]

theorem productData6_before_rows (c : Dev nD) (t : Fin cfg6.N) (d) : (productData6 V c).before 0 t d = blockAt6 V c 0 t :=
  rows_in_place6 V (productData6 V c) (productData6_A V c 0) (productData6_after_rows V c) t d
theorem productData6_before_weights (c : Dev nD) (t : Fin cfg6.N) (d) : (productData6 V c).before 1 t d = blockAt6 V c 1 t :=
  weights_in_place6 V (productData6 V c) (productData6_A V c 1) (productData6_after_weights V c) t d

/-! ## The body obligation -/

/-- What the body is called with at point `t`: the invariant, the core's dues, and the three windows' current buffers. -/
def bodyGiven6 (c : Dev nD) (t : Fin cfg6.N) : sProp 𝕄 :=
  iprop((productData6 V c).Φ t.castSucc ∗ (productData6 V c).owesAt () t.castSucc
    ∗ (∃ d, owns (c : Thread nD τ) (st6_0 t) fullShare ((productData6 V c).before 0 t d))
    ∗ (∃ d, owns (c : Thread nD τ) (st6_1 t) fullShare ((productData6 V c).before 1 t d))
    ∗ (∃ d, owns (c : Thread nD τ) (st6_2 t) fullShare ((productData6 V c).before 2 t d)))

/-- What it returns. -/
def bodyLeaves6 (c : Dev nD) (t : Fin cfg6.N) : sProp 𝕄 :=
  iprop((productData6 V c).Φ t.succ ∗ (productData6 V c).owesAt () t.succ
    ∗ owns (c : Thread nD τ) (st6_0 t) fullShare ((productData6 V c).after 0 t)
    ∗ owns (c : Thread nD τ) (st6_1 t) fullShare ((productData6 V c).after 1 t)
    ∗ owns (c : Thread nD τ) (st6_2 t) fullShare ((productData6 V c).after 2 t))

/-- At any point the input buffers hold their blocks, so the body's triple applies; the invariant and the dues pass
    through untouched. -/
theorem body_at_point6 (c : Dev nD) (t : Fin cfg6.N) :
    bodyGiven6 V c t ⊢ wp frame (wpE (defs₀ (F := F)) Variants.none c none) Set.univ (bodyAt6 t) (fun _ => bodyLeaves6 V c t) := by
  unfold bodyGiven6 bodyLeaves6 bodyAt6
  simp only [productData6_before_rows, productData6_before_weights]
  rw [show (productData6 V c).Φ t.succ = (productData6 V c).Φ t.castSucc from rfl,
    show (productData6 V c).owesAt () t.succ = (productData6 V c).owesAt () t.castSucc from rfl,
    productData6_after_rows, productData6_after_weights, productData6_after_out]
  iintro ⟨HΦ, Ho, ⟨%d0, H0⟩, ⟨%d1, H1⟩, ⟨%d2, H2⟩⟩
  iapply (matmul_body6 c Set.univ _ _ _ _ _ _ _ (blockAt6 V c 0 t) (blockAt6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the call, at every point. -/
theorem body_obligation6 (c : Dev nD) :
    BodyObligation (productData6 (F := F) V c) (defs₀ (F := F)) Variants.none () Set.univ := fun t => by
  rw [bigSep_W6, bigSep_W6]
  exact body_at_point6 V c t

end Cert.KernelIdeal.Hand

end
-- ==== Proof.KI.StatsRuns7.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third layer's activation and column statistics: the body, case by case

At each of ten grid points the body is handed a 5000-row block of the aggregated messages (window 0), the bias row
(window 1), the one-entry slope of the activation (window 2) and the matching block of the layer's input (window 3); it owns two rows of 64 running totals (the column sums and
the column sums of squares) that live across the points. It

* at the FIRST point only, sets both running rows to zero;
* at EVERY point stores the activated block `where(x + b ≥ 0, x + b, a·(x + b))`, plus the layer's input block, into the output block (window 4) and
  adds the block's column sums, and the column sums of its squares, to the two running rows;
* at the LAST point only, copies the two running rows into the two row outputs (windows 5 and 6).

The grid has ten points, so the first and the last differ and there are three cases: first, middle, last. In each the
body is run once, symbolically, with the two conditionals decided by the case's hypotheses; what a buffer the body stored
into ends with is recorded as the list of pieces written (latest first), found by the run itself.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first point", as the body computes it from the grid coordinate. -/
abbrev atFirst7 (i : grid7.Coords) : Prop :=
  (Scalar.cmpi .ne (Scalar.extui (Scalar.cmpi .eq (BitVec.ofNat 32 (i 0).val) 0#32)) 0#32) = 1#1
/-- It holds at point 0 of the ten and nowhere else. -/
theorem atFirst7_iff : ∀ t : Fin cfg7.N, atFirst7 (grid7.coords t) ↔ t.val % 10 = 0 :=
  (by decide +kernel : ∀ t : Fin grid7.N, atFirst7 (grid7.coords t) ↔ t.val % 10 = 0)

/-- "This is the last point", as the body computes it. -/
abbrev atLast7 (i : grid7.Coords) : Prop := k7_cond2 i = 1#1
/-- It holds at point 9 of the ten and nowhere else. -/
theorem atLast7_iff : ∀ t : Fin cfg7.N, atLast7 (grid7.coords t) ↔ t.val % 10 = 9 :=
  (by decide +kernel : ∀ t : Fin grid7.N, atLast7 (grid7.coords t) ↔ t.val % 10 = 9)

/-! ## The middle points: neither conditional is taken -/

set_option maxHeartbeats 2000000 in
/-- Inputs at their blocks; the two row outputs at `yS`, `yQ`, untouched; the running rows at `s`, `q`. The body stores
    into the output block and into both running rows. -/
noncomputable def statsRun7_middle (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The first point: the running rows are zeroed, then added to -/

set_option maxHeartbeats 2000000 in
/-- Inputs at their blocks; the two row outputs at `yS`, `yQ`, untouched; the running rows at anything (nothing has been
    stored into them yet). The body stores into the output block and, twice each, into the running rows. -/
noncomputable def statsRun7_first (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i) (x0 : Vec F S5000x64 .f32) (x1 : Vec F S1x64 .f32) (x2 : Vec F S1x1 .f32) (x3 : Vec F S5000x64 .f32) :
    Σ' (LO : List (View.Piece (Elt F) S5000x64 .f32)) (LS : List (View.Piece (Elt F) S1x64 .f32)),
      { LQ : List (View.Piece (Elt F) S1x64 .f32) //
      ∀ (yS yQ : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare yS ∗ owns (c : Thread nD τ) arg7 fullShare yQ
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ owns (c : Thread nD τ) arg6 fullShare yS ∗ owns (c : Thread nD τ) arg7 fullShare yQ
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, fun yS yQ E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-! ## The last point: the running rows are added to, then copied out -/

set_option maxHeartbeats 2000000 in
/-- Inputs at their blocks; the running rows at `s`, `q`; the two row outputs at anything. The body stores into the output
    block, into both running rows, and into both row outputs. -/
noncomputable def statsRun7_last (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    Σ' (LO : List (View.Piece (Elt F) S5000x64 .f32)) (LYS LYQ LS : List (View.Piece (Elt F) S1x64 .f32)),
      { LQ : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LYS) ∗ (∃ f, arg7.view.loc (c : Thread nD τ) ↦[arg7.view.set]{fullShare} arg7.view.writes (Elt F) f LYQ)
                ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LQ)) -∗ K ⟨⟩))
          ⊢ wp frame (wpE (defs₀ (F := F)) Variants.none c none) E (cc7__stats_kernel_res i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__stats_kernel_res_eq_skeleton]; unfold cc7__stats_kernel_res_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.StatsData7.lean ====
import proofs.«123467_j2559800508646_1_alg».proof.Proof.KI.StatsRuns7

/-!
# The third layer's activation and column statistics: what each point leaves

The three runs of the body say what one point does to the buffers it is handed. Here they are chained over the ten
points. The two running rows are the kernel's own: nothing else touches them between points, so what point `n` finds in
them is what point `n − 1` left, and their contents after point `n` are defined by recursion on `n` — the first point's
run from anything, every later point's run from the previous contents. The invariant between points says exactly that:
before the first point the kernel's scoped buffers are at anything; after point `n` the two running rows hold the
recursion's values, and every other scoped buffer and the generator register are at anything.

The output block (window 4) is stored whole and written back at every point. The two row outputs (windows 5 and 6) are
stored at the last point only; at the other nine the body leaves their buffers as found and the pipeline does not write
them back, so nothing is claimed of them there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The block of aggregated messages is in window 0's buffer when the body starts: brought in afresh at every point. -/
theorem agg_in_place7 {c : Dev nD} (dat : Dat τ (Elt F) Unit ℕ (UR sig nD τ) ℕ cfg7 c)
    (hA : dat.A 0 = V c (Pipeline.arrRef spec7 0)) (hafter : ∀ t, dat.after 0 t = blockAt7 V c 0 t)
    (t : Fin cfg7.N) (d) : dat.before 0 t d = blockAt7 V c 0 t :=
  (dat.before_in_eq_fetched 0 rfl (fun _ => rfl) (fun _ _ _ => rfl)
      (fun t => by rw [hafter]; unfold Dat.blockOf blockAt7; rw [hA]; try rfl) t d).trans
    (by unfold Dat.fetched Dat.blockOf blockAt7; rw [hA]; try rfl)

/-- The bias row is in window 1's buffer when the body starts, at every point: brought in at the first point and left as found. -/
theorem bias_in_place7 {c : Dev nD} (dat : Dat τ (Elt F) Unit ℕ (UR sig nD τ) ℕ cfg7 c)
    (hA : dat.A 1 = V c (Pipeline.arrRef spec7 1)) (hafter : ∀ t, dat.after 1 t = blockAt7 V c 1 t)
    (t : Fin cfg7.N) (d) : dat.before 1 t d = blockAt7 V c 1 t :=
  (dat.before_in_eq_fetched 1 rfl (fun _ => rfl) (fun _ _ _ => rfl)
      (fun t => by rw [hafter]; unfold Dat.blockOf blockAt7; rw [hA]; try rfl) t d).trans
    (by unfold Dat.fetched Dat.blockOf blockAt7; rw [hA]; try rfl)

/-- The activation's slope is in window 2's buffer when the body starts, at every point: brought in at the first point and left as found. -/
theorem slope_in_place7 {c : Dev nD} (dat : Dat τ (Elt F) Unit ℕ (UR sig nD τ) ℕ cfg7 c)
    (hA : dat.A 2 = V c (Pipeline.arrRef spec7 2)) (hafter : ∀ t, dat.after 2 t = blockAt7 V c 2 t)
    (t : Fin cfg7.N) (d) : dat.before 2 t d = blockAt7 V c 2 t :=
  (dat.before_in_eq_fetched 2 rfl (fun _ => rfl) (fun _ _ _ => rfl)
      (fun t => by rw [hafter]; unfold Dat.blockOf blockAt7; rw [hA]; try rfl) t d).trans
    (by unfold Dat.fetched Dat.blockOf blockAt7; rw [hA]; try rfl)

/-- The block of the layer's input is in window 3's buffer when the body starts: brought in afresh at every point. -/
theorem residual_in_place7 {c : Dev nD} (dat : Dat τ (Elt F) Unit ℕ (UR sig nD τ) ℕ cfg7 c)
    (hA : dat.A 3 = V c (Pipeline.arrRef spec7 3)) (hafter : ∀ t, dat.after 3 t = blockAt7 V c 3 t)
    (t : Fin cfg7.N) (d) : dat.before 3 t d = blockAt7 V c 3 t :=
  (dat.before_in_eq_fetched 3 rfl (fun _ => rfl) (fun _ _ _ => rfl)
      (fun t => by rw [hafter]; unfold Dat.blockOf blockAt7; rw [hA]; try rfl) t d).trans
    (by unfold Dat.fetched Dat.blockOf blockAt7; rw [hA]; try rfl)

/-! ## The memrefs the body is called with -/

abbrev mem7_0 (t : Fin cfg7.N) : Memref sig .tc .vmem S5000x64 .f32 := win7_0.stage (cfg7.slots t 0)
abbrev hmem7_0 (t : Fin cfg7.N) : (mem7_0 t).IsWhole := hstage7_0 ((cfg7.slots t 0).cast nbuf7_0)
abbrev mem7_1 (t : Fin cfg7.N) : Memref sig .tc .vmem S1x64 .f32 := win7_1.stage (cfg7.slots t 1)
abbrev hmem7_1 (t : Fin cfg7.N) : (mem7_1 t).IsWhole := hstage7_1 ((cfg7.slots t 1).cast nbuf7_1)
abbrev mem7_2 (t : Fin cfg7.N) : Memref sig .tc .vmem S1x1 .f32 := win7_2.stage (cfg7.slots t 2)
abbrev hmem7_2 (t : Fin cfg7.N) : (mem7_2 t).IsWhole := hstage7_2 ((cfg7.slots t 2).cast nbuf7_2)
abbrev mem7_3 (t : Fin cfg7.N) : Memref sig .tc .vmem S5000x64 .f32 := win7_3.stage (cfg7.slots t 3)
abbrev hmem7_3 (t : Fin cfg7.N) : (mem7_3 t).IsWhole := hstage7_3 ((cfg7.slots t 3).cast nbuf7_3)
abbrev mem7_4 (t : Fin cfg7.N) : Memref sig .tc .vmem S5000x64 .f32 := win7_4.stage (cfg7.slots t 4)
abbrev hmem7_4 (t : Fin cfg7.N) : (mem7_4 t).IsWhole := hstage7_4 ((cfg7.slots t 4).cast nbuf7_4)
abbrev mem7_5 (t : Fin cfg7.N) : Memref sig .tc .vmem S1x64 .f32 := win7_5.stage (cfg7.slots t 5)
abbrev hmem7_5 (t : Fin cfg7.N) : (mem7_5 t).IsWhole := hstage7_5 ((cfg7.slots t 5).cast nbuf7_5)
abbrev mem7_6 (t : Fin cfg7.N) : Memref sig .tc .vmem S1x64 .f32 := win7_6.stage (cfg7.slots t 6)
abbrev hmem7_6 (t : Fin cfg7.N) : (mem7_6 t).IsWhole := hstage7_6 ((cfg7.slots t 6).cast nbuf7_6)
/-- The two running rows: whole scoped buffers of the kernel's own. -/
abbrev sumRow7 : Memref sig .tc .vmem S1x64 .f32 := Memref.whole cc7_scratch0
abbrev sqRow7 : Memref sig .tc .vmem S1x64 .f32 := Memref.whole cc7_scratch1

/-- Contents are stated through one fixed view per shape: a list of pieces written over anything, read back. When the
    pieces cover the shape the result depends on neither the view nor the prior contents. -/
abbrev blockView7 : View sig .tc .vmem S5000x64 .f32 := (Memref.whole cc7_stg4_0 : Memref sig .tc .vmem S5000x64 .f32).view
abbrev rowView7 : View sig .tc .vmem S1x64 .f32 := sumRow7.view
def blockOfPieces7 (L : List (View.Piece (Elt F) S5000x64 .f32)) : Vec F S5000x64 .f32 :=
  blockView7.read (Elt F) (blockView7.writes (Elt F) blockView7.junk L)
def rowOfPieces7 (L : List (View.Piece (Elt F) S1x64 .f32)) : Vec F S1x64 .f32 :=
  rowView7.read (Elt F) (rowView7.writes (Elt F) rowView7.junk L)

/-- The kernel's scoped buffers at anything, with the two running rows singled out. -/
theorem invariant_open7 (c : Dev nD) :
    (Pipeline.ΦA spec7 c : sProp 𝕄)
      = iprop(iprop(iprop((∃ d, owns (c : Thread nD τ) sumRow7 fullShare d) ∗ (∃ d, owns (c : Thread nD τ) sqRow7 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [sumRow7, sqRow7, owns_whole]; try rfl

/-! ## Which case a point is in -/

theorem first_of_zero7 (t : Fin cfg7.N) (h : t.val = 0) : atFirst7 (grid7.coords t) :=
  (atFirst7_iff t).mpr (by rw [h])
theorem not_first_of_pos7 (t : Fin cfg7.N) (h : t.val ≠ 0) : ¬atFirst7 (grid7.coords t) := fun hf => by
  have h0 := (atFirst7_iff t).mp hf
  have hN : t.val < 10 := lt_of_lt_of_eq t.isLt (show cfg7.N = 10 from N_7)
  omega
theorem last_of7 (t : Fin cfg7.N) (h : t.val % 10 = 9) : atLast7 (grid7.coords t) := (atLast7_iff t).mpr h
theorem not_last_of7 (t : Fin cfg7.N) (h : ¬t.val % 10 = 9) : ¬atLast7 (grid7.coords t) :=
  fun hl => h ((atLast7_iff t).mp hl)

/-- The row outputs are idle, and not written back, away from the last point; live at it. The other windows never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
theorem idle7_5 : ∀ t : Fin cfg7.N, ¬t.val % 10 = 9 → cfg7.idle 5 (grid7.coords t) = true := by decide +kernel
theorem noflush7_5 : ∀ t : Fin cfg7.N, ¬t.val % 10 = 9 → (cfg7.win 5).flush t = false := by decide +kernel
theorem live7_5 : ∀ t : Fin cfg7.N, t.val % 10 = 9 → cfg7.idle 5 (grid7.coords t) = false := by decide +kernel
theorem idle7_6 : ∀ t : Fin cfg7.N, ¬t.val % 10 = 9 → cfg7.idle 6 (grid7.coords t) = true := by decide +kernel
theorem noflush7_6 : ∀ t : Fin cfg7.N, ¬t.val % 10 = 9 → (cfg7.win 6).flush t = false := by decide +kernel
theorem live7_6 : ∀ t : Fin cfg7.N, t.val % 10 = 9 → cfg7.idle 6 (grid7.coords t) = false := by decide +kernel

/-! ## What the buffers hold after each point -/

set_option maxHeartbeats 4000000 in
/-- After point `n`: the output block, the two row outputs (placeholders away from the last point, where nothing is
    claimed of them), and the two running rows. The first point's run starts from anything; every later point's run
    starts from the running rows the point before left. -/
def stateAfter7 (c : Dev nD) : (n : ℕ) → n < cfg7.N →
    Vec F S5000x64 .f32 × Vec F S1x64 .f32 × Vec F S1x64 .f32 × Vec F S1x64 .f32 × Vec F S1x64 .f32
  | 0, hn =>
    let t : Fin cfg7.N := ⟨0, hn⟩
    let R := statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
      (first_of_zero7 t rfl) (not_last_of7 t (by show ¬(0 : ℕ) % 10 = 9; decide)) (blockAt7 V c 0 t) (blockAt7 V c 1 t) (blockAt7 V c 2 t) (blockAt7 V c 3 t)
    (blockOfPieces7 R.1, rowOfPieces7 [], rowOfPieces7 [], rowOfPieces7 R.2.1, rowOfPieces7 R.2.2.1)
  | n + 1, hn =>
    let t : Fin cfg7.N := ⟨n + 1, hn⟩
    let prev := stateAfter7 c n (Nat.lt_of_succ_lt hn)
    if h9 : (n + 1) % 10 = 9 then
      let R := statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
        (not_first_of_pos7 t (Nat.succ_ne_zero n)) (last_of7 t h9) (blockAt7 V c 0 t) (blockAt7 V c 1 t) (blockAt7 V c 2 t) (blockAt7 V c 3 t) prev.2.2.2.1 prev.2.2.2.2
      (blockOfPieces7 R.1, rowOfPieces7 R.2.1, rowOfPieces7 R.2.2.1, rowOfPieces7 R.2.2.2.1, rowOfPieces7 R.2.2.2.2.1)
    else
      let R := statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _)
        (not_first_of_pos7 t (Nat.succ_ne_zero n)) (not_last_of7 t h9) (blockAt7 V c 0 t) (blockAt7 V c 1 t) (blockAt7 V c 2 t) (blockAt7 V c 3 t) prev.2.2.2.1 prev.2.2.2.2
      (blockOfPieces7 R.1, rowOfPieces7 [], rowOfPieces7 [], rowOfPieces7 R.2.1, rowOfPieces7 R.2.2.1)

/-! ## The recursion, case by case -/

/-- At the first point: the first run's pieces, from anything. -/
theorem stateAfter7_first (c : Dev nD) (t : Fin cfg7.N) (h0 : t.val = 0) (h9 : ¬t.val % 10 = 9) :
    stateAfter7 V c t.val t.isLt =
      (blockOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).1, rowOfPieces7 [], rowOfPieces7 [],
        rowOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).2.1, rowOfPieces7 (statsRun7_first (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (first_of_zero7 t h0) (not_last_of7 t h9) (blockAt7 V c 0 t) (blockAt7 V c 1 t) (blockAt7 V c 2 t) (blockAt7 V c 3 t)).2.2.1) := by
  obtain ⟨n, hn⟩ := t
  cases n with
  | zero => rfl
  | succ n => exact absurd h0 (Nat.succ_ne_zero n)

/-- At a middle point: the middle run's pieces, from the running rows the point before left. -/
theorem stateAfter7_middle (c : Dev nD) (t : Fin cfg7.N) (h0 : t.val ≠ 0) (h9 : ¬t.val % 10 = 9) :
    stateAfter7 V c t.val t.isLt =
      (blockOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).1, rowOfPieces7 [], rowOfPieces7 [],
        rowOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.1, rowOfPieces7 (statsRun7_middle (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (not_last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.1) := by
  obtain ⟨n, hn⟩ := t
  cases n with
  | zero => exact absurd rfl h0
  | succ n => exact (dif_neg h9).trans rfl

/-- At the last point: the last run's pieces, from the running rows the point before left. -/
theorem stateAfter7_last (c : Dev nD) (t : Fin cfg7.N) (h0 : t.val ≠ 0) (h9 : t.val % 10 = 9) :
    stateAfter7 V c t.val t.isLt =
      (blockOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.1,
        rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.2.1, rowOfPieces7 (statsRun7_last (F := F) c (grid7.coords t) (mem7_0 t) (hmem7_0 t) (mem7_1 t) (hmem7_1 t) (mem7_2 t) (hmem7_2 t) (mem7_3 t) (hmem7_3 t) (mem7_4 t) (hmem7_4 t) (mem7_5 t) (hmem7_5 t) (mem7_6 t) (hmem7_6 t) sumRow7 (Memref.isWhole_whole _) sqRow7 (Memref.isWhole_whole _) (not_first_of_pos7 t h0) (last_of7 t h9) (blockAt7 V c 0 t) (blockAt7 V c 1 t) (blockAt7 V c 2 t) (blockAt7 V c 3 t) (stateAfter7 V c (t.val - 1) (Nat.lt_of_le_of_lt (Nat.sub_le _ _) t.isLt)).2.2.2.1 (stateAfter7 V c (t.val - 1) (Nat.lt_of_le_of_lt (Nat.sub_le _ _) t.isLt)).2.2.2.2).2.2.2.2.1) := by
  obtain ⟨n, hn⟩ := t
  cases n with
  | zero => exact absurd rfl h0
  | succ n => exact (dif_pos h9).trans rfl

/-! ## The invariant between points -/

/-- Before point `n`: at `n = 0` the kernel's scoped buffers at anything; afterwards the two running rows at what point
    `n − 1` left, every other scoped buffer at anything, the generator register at some state. -/
def invariantAt7 (c : Dev nD) : (n : ℕ) → n ≤ cfg7.N → sProp 𝕄
  | 0, _ => Pipeline.ΦA spec7 c
  | n + 1, hn =>
    iprop(iprop(iprop(owns (c : Thread nD τ) sumRow7 fullShare (stateAfter7 V c n hn).2.2.2.1
          ∗ owns (c : Thread nD τ) sqRow7 fullShare (stateAfter7 V c n hn).2.2.2.2)
        ∗ Pipeline.scopedRestBut (Ix := Unit) (Name := ℕ) (U := UR sig nD τ) (Lvl := ℕ) (Val := Elt F) spec7 c [cc7_scratch0, cc7_scratch1])
      ∗ (∃ r, prngReg c r))

theorem invariantAt7_zero (c : Dev nD) (n : ℕ) (h : n ≤ cfg7.N) (hz : n = 0) :
    invariantAt7 V c n h = Pipeline.ΦA spec7 c := by subst hz; rfl

theorem invariantAt7_succ (c : Dev nD) (n : ℕ) (hn : n < cfg7.N) :
    invariantAt7 V c (n + 1) hn =
      iprop(iprop(iprop(owns (c : Thread nD τ) sumRow7 fullShare (stateAfter7 V c n hn).2.2.2.1
          ∗ owns (c : Thread nD τ) sqRow7 fullShare (stateAfter7 V c n hn).2.2.2.2)
        ∗ Pipeline.scopedRestBut (Ix := Unit) (Name := ℕ) (U := UR sig nD τ) (Lvl := ℕ) (Val := Elt F) spec7 c [cc7_scratch0, cc7_scratch1])
      ∗ (∃ r, prngReg c r)) := rfl

theorem invariantAt7_pos (c : Dev nD) (n : ℕ) (h : n ≤ cfg7.N) (hz : n ≠ 0) :
    invariantAt7 V c n h =
      iprop(iprop(iprop(owns (c : Thread nD τ) sumRow7 fullShare (stateAfter7 V c (n - 1) (by omega)).2.2.2.1
          ∗ owns (c : Thread nD τ) sqRow7 fullShare (stateAfter7 V c (n - 1) (by omega)).2.2.2.2)
        ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

/-! ## The proof data of the call -/

/-- On core `c`: the windows' arrays are the contents the call finds; after the body at point `t` the input buffers
    hold their blocks still and the three output buffers hold the recursion's values; the invariant is the one above;
    nothing is owed to any other core. -/
def statsData7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => blockAt7 V c 2 t
    | ⟨3, _⟩ => blockAt7 V c 3 t
    | ⟨4, _⟩ => (stateAfter7 V c t.val t.isLt).1
    | ⟨5, _⟩ => (stateAfter7 V c t.val t.isLt).2.1
    | ⟨6, _⟩ => (stateAfter7 V c t.val t.isLt).2.2.1
  Φ t := invariantAt7 V c t.val (Nat.le_of_lt_succ t.isLt)
  q _ := fullShare
  owed _ := 0

theorem statsData7_A (c : Dev nD) (w : Fin cfg7.W) : (statsData7 V c).A w = V c (Pipeline.arrRef spec7 w) := by
  dsimp only [statsData7]
theorem statsData7_inv (c : Dev nD) (t : Fin cfg7.N) :
    (statsData7 V c).Φ t.castSucc = invariantAt7 V c t.val (Nat.le_of_lt t.isLt) := by
  dsimp only [statsData7]; simp only [Fin.coe_castSucc]
theorem statsData7_after0 (c : Dev nD) (t : Fin cfg7.N) : (statsData7 V c).after 0 t = blockAt7 V c 0 t := by dsimp only [statsData7]
theorem statsData7_after1 (c : Dev nD) (t : Fin cfg7.N) : (statsData7 V c).after 1 t = blockAt7 V c 1 t := by dsimp only [statsData7]
theorem statsData7_after2 (c : Dev nD) (t : Fin cfg7.N) : (statsData7 V c).after 2 t = blockAt7 V c 2 t := by dsimp only [statsData7]
theorem statsData7_after3 (c : Dev nD) (t : Fin cfg7.N) : (statsData7 V c).after 3 t = blockAt7 V c 3 t := by dsimp only [statsData7]
theorem statsData7_after4 (c : Dev nD) (t : Fin cfg7.N) : (statsData7 V c).after 4 t = (stateAfter7 V c t.val t.isLt).1 := by dsimp only [statsData7]
theorem statsData7_after5 (c : Dev nD) (t : Fin cfg7.N) : (statsData7 V c).after 5 t = (stateAfter7 V c t.val t.isLt).2.1 := by dsimp only [statsData7]
theorem statsData7_after6 (c : Dev nD) (t : Fin cfg7.N) : (statsData7 V c).after 6 t = (stateAfter7 V c t.val t.isLt).2.2.1 := by dsimp only [statsData7]
theorem statsData7_before0 (c : Dev nD) (t : Fin cfg7.N) (d) : (statsData7 V c).before 0 t d = blockAt7 V c 0 t :=
  agg_in_place7 V (statsData7 V c) (statsData7_A V c 0) (statsData7_after0 V c) t d
theorem statsData7_before1 (c : Dev nD) (t : Fin cfg7.N) (d) : (statsData7 V c).before 1 t d = blockAt7 V c 1 t :=
  bias_in_place7 V (statsData7 V c) (statsData7_A V c 1) (statsData7_after1 V c) t d
theorem statsData7_before2 (c : Dev nD) (t : Fin cfg7.N) (d) : (statsData7 V c).before 2 t d = blockAt7 V c 2 t :=
  slope_in_place7 V (statsData7 V c) (statsData7_A V c 2) (statsData7_after2 V c) t d
theorem statsData7_before3 (c : Dev nD) (t : Fin cfg7.N) (d) : (statsData7 V c).before 3 t d = blockAt7 V c 3 t :=
  residual_in_place7 V (statsData7 V c) (statsData7_A V c 3) (statsData7_after3 V c) t d

/-! ## The body obligation -/

/-- What the body is called with at point `t`: the invariant, the core's dues, and the windows' current buffers. -/
def bodyGiven7 (c : Dev nD) (t : Fin cfg7.N) : sProp 𝕄 :=
  iprop((statsData7 V c).Φ t.castSucc ∗ (statsData7 V c).owesAt () t.castSucc
    ∗ (∃ d, owns (c : Thread nD τ) (mem7_0 t) fullShare ((statsData7 V c).before 0 t d))
    ∗ (∃ d, owns (c : Thread nD τ) (mem7_1 t) fullShare ((statsData7 V c).before 1 t d))
    ∗ (∃ d, owns (c : Thread nD τ) (mem7_2 t) fullShare ((statsData7 V c).before 2 t d))
    ∗ (∃ d, owns (c : Thread nD τ) (mem7_3 t) fullShare ((statsData7 V c).before 3 t d))
    ∗ (∃ d, owns (c : Thread nD τ) (mem7_4 t) fullShare ((statsData7 V c).before 4 t d))
    ∗ (∃ d, owns (c : Thread nD τ) (mem7_5 t) fullShare ((statsData7 V c).before 5 t d))
    ∗ (∃ d, owns (c : Thread nD τ) (mem7_6 t) fullShare ((statsData7 V c).before 6 t d)))

/-- What it returns: the invariant after the point, the dues, and each window's buffer as the obligation describes it —
    at the named contents where the window is live or written back, as found where it is idle. -/
def bodyLeaves7 (c : Dev nD) (t : Fin cfg7.N) : sProp 𝕄 :=
  iprop((statsData7 V c).Φ t.succ ∗ (statsData7 V c).owesAt () t.succ
    ∗ (statsData7 V c).leavesExact 0 t
    ∗ (statsData7 V c).leavesExact 1 t
    ∗ (statsData7 V c).leavesExact 2 t
    ∗ (statsData7 V c).leavesExact 3 t
    ∗ (statsData7 V c).leavesExact 4 t
    ∗ (statsData7 V c).leavesExact 5 t
    ∗ (statsData7 V c).leavesExact 6 t)

set_option maxHeartbeats 8000000 in
/-- The body at any point. The inputs' buffers hold their blocks; the point's position says which of the three runs
    applies; the invariant hands the run the two running rows (at anything before the first point, at the previous
    point's values afterwards) and takes them back at this point's values, each read back from the pieces the run wrote,
    which cover the row. Away from the last point the two row outputs go back as found. -/
theorem body_at_point7 (c : Dev nD) (t : Fin cfg7.N) :
    bodyGiven7 V c t ⊢ wp frame (wpE (defs₀ (F := F)) Variants.none c none) Set.univ (bodyAt7 t) (fun _ => bodyLeaves7 V c t) := by
  unfold bodyGiven7 bodyLeaves7 bodyAt7
  simp only [statsData7_before0, statsData7_before1, statsData7_before2, statsData7_before3]
  rw [show (statsData7 V c).owesAt () t.succ = (statsData7 V c).owesAt () t.castSucc from rfl]
  rw [show (statsData7 V c).Φ t.succ = invariantAt7 V c (t.val + 1) t.isLt from rfl, invariantAt7_succ]
  rw [show (statsData7 V c).leavesExact 0 t = owns (c : Thread nD τ) (mem7_0 t) fullShare ((statsData7 V c).after 0 t) from by
    unfold Dat.leavesExact; rw [live7_0 t], statsData7_after0]
  rw [show (statsData7 V c).leavesExact 1 t = owns (c : Thread nD τ) (mem7_1 t) fullShare ((statsData7 V c).after 1 t) from by
    unfold Dat.leavesExact; rw [live7_1 t], statsData7_after1]
  rw [show (statsData7 V c).leavesExact 2 t = owns (c : Thread nD τ) (mem7_2 t) fullShare ((statsData7 V c).after 2 t) from by
    unfold Dat.leavesExact; rw [live7_2 t], statsData7_after2]
  rw [show (statsData7 V c).leavesExact 3 t = owns (c : Thread nD τ) (mem7_3 t) fullShare ((statsData7 V c).after 3 t) from by
    unfold Dat.leavesExact; rw [live7_3 t], statsData7_after3]
  rw [show (statsData7 V c).leavesExact 4 t = owns (c : Thread nD τ) (mem7_4 t) fullShare ((statsData7 V c).after 4 t) from by
    unfold Dat.leavesExact; rw [live7_4 t], statsData7_after4]
  have hN : t.val < 10 := lt_of_lt_of_eq t.isLt (show cfg7.N = 10 from N_7)
  by_cases h9 : t.val % 10 = 9
  · -- the last point
    have h0 : t.val ≠ 0 := by omega
    rw [show (statsData7 V c).leavesExact 5 t = owns (c : Thread nD τ) (mem7_5 t) fullShare ((statsData7 V c).after 5 t) from by
      unfold Dat.leavesExact; rw [live7_5 t h9], statsData7_after5]
    rw [show (statsData7 V c).leavesExact 6 t = owns (c : Thread nD τ) (mem7_6 t) fullShare ((statsData7 V c).after 6 t) from by
      unfold Dat.leavesExact; rw [live7_6 t h9], statsData7_after6]
    rw [stateAfter7_last V c t h0 h9]
    (try dsimp only)
    rw [statsData7_inv V c t, invariantAt7_pos V c _ _ h0]
    iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((statsRun7_last (F := F) c (grid7.coords t) _ _ _ _ _ _ _ _ _ _ _ _ _ _ _ _ _ _ (not_first_of_pos7 t h0) (last_of7 t h9) (blockAt7 V c 0 t) (blockAt7 V c 1 t) (blockAt7 V c 2 t) (blockAt7 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    isplitl [HQ]; · iexact HQ
    iintro ⟨H0, H1, H2, H3, ⟨%e4, H4⟩, ⟨%e5, H5⟩, ⟨%e6, H6⟩, ⟨%es, HS⟩, ⟨%eq, HQ⟩⟩
    isplitl [HS HQ Hrest Hg]
    · isplitl [HS HQ Hrest]
      · isplitl [HS HQ]
        · isplitl [HS]
          · (unfold owns; iexists _; isplitr; swap; iexact HS; ipureintro; exact View.read_writes_of_cover _ _ _ _ _ (fun y => View.cover_of_tiledL _ S1x64.size (by sl_kernel_rfl) y))
          · (unfold owns; iexists _; isplitr; swap; iexact HQ; ipureintro; exact View.read_writes_of_cover _ _ _ _ _ (fun y => View.cover_of_tiledL _ S1x64.size (by sl_kernel_rfl) y))
        iexact Hrest
      iexact Hg
    isplitl [Ho]; · iexact Ho
    isplitl [H0]; · iexact H0
    isplitl [H1]; · iexact H1
    isplitl [H2]; · iexact H2
    isplitl [H3]; · iexact H3
    isplitl [H4]; · (unfold owns; iexists _; isplitr; swap; iexact H4; ipureintro; exact View.read_writes_of_cover _ _ _ _ _ (fun y => View.cover_of_tiledL _ S5000x64.size (by sl_kernel_rfl) y))
    isplitl [H5]; · (unfold owns; iexists _; isplitr; swap; iexact H5; ipureintro; exact View.read_writes_of_cover _ _ _ _ _ (fun y => View.cover_of_tiledL _ S1x64.size (by sl_kernel_rfl) y))
    (unfold owns; iexists _; isplitr; swap; iexact H6; ipureintro; exact View.read_writes_of_cover _ _ _ _ _ (fun y => View.cover_of_tiledL _ S1x64.size (by sl_kernel_rfl) y))
  · -- not the last point: the two row outputs go back as found
    rw [Dat.leavesExact_idle (statsData7 V c) 5 t (idle7_5 t h9) (noflush7_5 t h9)]
    rw [Dat.leavesExact_idle (statsData7 V c) 6 t (idle7_6 t h9) (noflush7_6 t h9)]
    by_cases h0 : t.val = 0
    · -- the first point
      rw [stateAfter7_first V c t h0 h9]
      (try dsimp only)
      rw [statsData7_inv V c t, invariantAt7_zero V c _ _ h0, invariant_open7]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun7_first (F := F) c (grid7.coords t) _ _ _ _ _ _ _ _ _ _ _ _ _ _ _ _ _ _ (first_of_zero7 t h0) (not_last_of7 t h9) (blockAt7 V c 0 t) (blockAt7 V c 1 t) (blockAt7 V c 2 t) (blockAt7 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6
    · -- a middle point
      rw [stateAfter7_middle V c t h0 h9]
      (try dsimp only)
      rw [statsData7_inv V c t, invariantAt7_pos V c _ _ h0]
      iintro ⟨⟨⟨⟨HS, HQ⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((statsRun7_middle (F := F) c (grid7.coords t) _ _ _ _ _ _ _ _ _ _ _ _ _ _ _ _ _ _ (not_first_of_pos7 t h0) (not_last_of7 t h9) (blockAt7 V c 0 t) (blockAt7 V c 1 t) (blockAt7 V c 2 t) (blockAt7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS]; · iexact HS
      isplitl [HQ]; · iexact HQ
      iintro ⟨H0, H1, H2, H3, ⟨%e4, H4⟩, H5, H6, ⟨%es, HS⟩, ⟨%eq, HQ⟩⟩
      isplitl [HS HQ Hrest Hg]
      · isplitl [HS HQ Hrest]
        · isplitl [HS HQ]
          · isplitl [HS]
            · (unfold owns; iexists _; isplitr; swap; iexact HS; ipureintro; exact View.read_writes_of_cover _ _ _ _ _ (fun y => View.cover_of_tiledL _ S1x64.size (by sl_kernel_rfl) y))
            · (unfold owns; iexists _; isplitr; swap; iexact HQ; ipureintro; exact View.read_writes_of_cover _ _ _ _ _ (fun y => View.cover_of_tiledL _ S1x64.size (by sl_kernel_rfl) y))
          iexact Hrest
        iexact Hg
      isplitl [Ho]; · iexact Ho
      isplitl [H0]; · iexact H0
      isplitl [H1]; · iexact H1
      isplitl [H2]; · iexact H2
      isplitl [H3]; · iexact H3
      isplitl [H4]; · (unfold owns; iexists _; isplitr; swap; iexact H4; ipureintro; exact View.read_writes_of_cover _ _ _ _ _ (fun y => View.cover_of_tiledL _ S5000x64.size (by sl_kernel_rfl) y))
      isplitl [H5]; · iexists _; iexact H5
      iexists _; iexact H6

/-- The library's body obligation for the call, at every point. -/
theorem body_obligation7 (c : Dev nD) :
    BodyObligation (statsData7 (F := F) V c) (defs₀ (F := F)) Variants.none () Set.univ := fun t => by
  rw [bigSep_W7, bigSep_W7]
  exact body_at_point7 V c t

/-- What the call is handed on entry is the invariant before the first point. -/
theorem invariant_in7 (c : Dev nD) : Pipeline.ΦA spec7 c ⊢ (statsData7 V c).Φ 0 := by
  rw [show (statsData7 V c).Φ 0 = invariantAt7 V c 0 (Nat.zero_le _) from rfl, invariantAt7_zero V c 0 _ rfl]
  try exact Idealize.SL.BI.Entails.refl _

/-- After the last point the invariant gives the kernel's scoped buffers back at anything: the running rows' values are
    forgotten. -/
theorem invariant_out7 (c : Dev nD) : (statsData7 V c).Φ (Fin.last cfg7.N) ⊢ Pipeline.ΦA spec7 c := by
  have hne : (Fin.last cfg7.N).val ≠ 0 := by rw [Fin.val_last]; have : cfg7.N = 10 := N_7; omega
  rw [show (statsData7 V c).Φ (Fin.last cfg7.N) = invariantAt7 V c (Fin.last cfg7.N).val (Nat.le_of_lt_succ (Fin.last cfg7.N).isLt) from rfl,
    invariantAt7_pos V c _ _ hne, invariant_open7]
  iintro ⟨⟨⟨HS, HQ⟩, Hrest⟩, Hg⟩
  isplitl [HS HQ Hrest]
  · isplitl [HS HQ]
    · isplitl [HS]
      · iexists _; iexact HS
      · iexists _; iexact HQ
    iexact Hrest
  iexact Hg

end Cert.KernelIdeal.Hand

end
-- ==== Proof.KI.NormBody8.lean ====
import proofs.«123467_j2559800508646_1_alg».proof.Proof.Gen.KernelIdeal.Launch
import proofs.«123467_j2559800508646_1_alg».proof.Proof.Gen.KernelIdeal.Skeleton
import proofs.«123467_j2559800508646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third batch normalisation, one row block at a time

The call normalises the layer's activations `h : [50000, 64]` column by column: ten grid points of 5000 rows each. At
point `t` the body is handed rows `5000·t … 5000·t + 4999` of `h` (window 0), four rows of 64 entries — the column
means (window 1), the column variances (window 2), the scale `γ` (window 3) and the shift `β` (window 4), each brought
in at the first point and left in place afterwards — and the output's row block (window 5). It stores
`γ · (h − mean) · rsqrt(variance + ε) + β` into the output block, every row against the same four rows, and reads
nothing else. So the output block after the body is a function of the five input blocks alone, the inputs are left as
found, and nothing is carried from one point to the next.

Everything is stated at a parameter `V`, the contents of the core's buffers when the call is entered, and at any float
instance `F`: the statement is about which memory is read and written, not about the arithmetic.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the call finds it. -/
def blockAt8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The rows of `h` for point `t` are in window 0's buffer when the body starts, for any proof data over `V`'s arrays
    whose body leaves that buffer as found: the window is brought in afresh at every point. -/
theorem rows_in_place8 {c : Dev nD} (dat : Dat τ (Elt F) Unit ℕ (UR sig nD τ) ℕ cfg8 c)
    (hA : dat.A 0 = V c (Pipeline.arrRef spec8 0)) (hafter : ∀ t, dat.after 0 t = blockAt8 V c 0 t)
    (t : Fin cfg8.N) (d) : dat.before 0 t d = blockAt8 V c 0 t :=
  (dat.before_in_eq_fetched 0 rfl (fun _ => rfl) (fun _ _ _ => rfl)
      (fun t => by rw [hafter]; unfold Dat.blockOf blockAt8; rw [hA]; try rfl) t d).trans
    (by unfold Dat.fetched Dat.blockOf blockAt8; rw [hA]; try rfl)

/-- The mean row is in window 1's buffer when the body starts, at every point: brought in at the first point, and at the
    later ones the window's block index has not moved and the body left the buffer as found. -/
theorem mean_in_place8 {c : Dev nD} (dat : Dat τ (Elt F) Unit ℕ (UR sig nD τ) ℕ cfg8 c)
    (hA : dat.A 1 = V c (Pipeline.arrRef spec8 1)) (hafter : ∀ t, dat.after 1 t = blockAt8 V c 1 t)
    (t : Fin cfg8.N) (d) : dat.before 1 t d = blockAt8 V c 1 t :=
  (dat.before_in_eq_fetched 1 rfl (fun _ => rfl) (fun _ _ _ => rfl)
      (fun t => by rw [hafter]; unfold Dat.blockOf blockAt8; rw [hA]; try rfl) t d).trans
    (by unfold Dat.fetched Dat.blockOf blockAt8; rw [hA]; try rfl)

/-- The variance row is in window 2's buffer when the body starts, at every point: brought in at the first point, and at the
    later ones the window's block index has not moved and the body left the buffer as found. -/
theorem variance_in_place8 {c : Dev nD} (dat : Dat τ (Elt F) Unit ℕ (UR sig nD τ) ℕ cfg8 c)
    (hA : dat.A 2 = V c (Pipeline.arrRef spec8 2)) (hafter : ∀ t, dat.after 2 t = blockAt8 V c 2 t)
    (t : Fin cfg8.N) (d) : dat.before 2 t d = blockAt8 V c 2 t :=
  (dat.before_in_eq_fetched 2 rfl (fun _ => rfl) (fun _ _ _ => rfl)
      (fun t => by rw [hafter]; unfold Dat.blockOf blockAt8; rw [hA]; try rfl) t d).trans
    (by unfold Dat.fetched Dat.blockOf blockAt8; rw [hA]; try rfl)

/-- The gamma row is in window 3's buffer when the body starts, at every point: brought in at the first point, and at the
    later ones the window's block index has not moved and the body left the buffer as found. -/
theorem gamma_in_place8 {c : Dev nD} (dat : Dat τ (Elt F) Unit ℕ (UR sig nD τ) ℕ cfg8 c)
    (hA : dat.A 3 = V c (Pipeline.arrRef spec8 3)) (hafter : ∀ t, dat.after 3 t = blockAt8 V c 3 t)
    (t : Fin cfg8.N) (d) : dat.before 3 t d = blockAt8 V c 3 t :=
  (dat.before_in_eq_fetched 3 rfl (fun _ => rfl) (fun _ _ _ => rfl)
      (fun t => by rw [hafter]; unfold Dat.blockOf blockAt8; rw [hA]; try rfl) t d).trans
    (by unfold Dat.fetched Dat.blockOf blockAt8; rw [hA]; try rfl)

/-- The beta row is in window 4's buffer when the body starts, at every point: brought in at the first point, and at the
    later ones the window's block index has not moved and the body left the buffer as found. -/
theorem beta_in_place8 {c : Dev nD} (dat : Dat τ (Elt F) Unit ℕ (UR sig nD τ) ℕ cfg8 c)
    (hA : dat.A 4 = V c (Pipeline.arrRef spec8 4)) (hafter : ∀ t, dat.after 4 t = blockAt8 V c 4 t)
    (t : Fin cfg8.N) (d) : dat.before 4 t d = blockAt8 V c 4 t :=
  (dat.before_in_eq_fetched 4 rfl (fun _ => rfl) (fun _ _ _ => rfl)
      (fun t => by rw [hafter]; unfold Dat.blockOf blockAt8; rw [hA]; try rfl) t d).trans
    (by unfold Dat.fetched Dat.blockOf blockAt8; rw [hA]; try rfl)

/-! ## What the body stores -/

/-- The whole of a 5000 × 64 block and the whole of a 1 × 64 row: the only rectangles the body touches. -/
abbrev wholeRows8 : Rect S5000x64 := Rect.unit (s := S5000x64) ![0, 0] S5000x64.size inb_S5000x64_S5000x64_0_0
abbrev wholeRow8 : Rect S1x64 := Rect.unit (s := S1x64) ![0, 0] S1x64.size inb_S1x64_S1x64_0_0

/-- The output block after the body: its one store, of the normalised rows, over the whole block. -/
def normalisedBlock8 (x : Vec F S5000x64 .f32) (mu vr ga be : Vec F S1x64 .f32) : Vec F S5000x64 .f32 :=
  View.canon [⟨wholeRows8, k8_pay1 (View.ld vr wholeRow8) (View.ld ga wholeRow8) (View.ld x wholeRows8)
    (View.ld mu wholeRow8) (View.ld be wholeRow8)⟩]

/-- That one store covers the block. -/
theorem normalised_covers8 (p : Vec F S5000x64 .f32) (y : S5000x64.Idx) :
    ∃ pc ∈ ([⟨wholeRows8, p⟩] : List (View.Piece (Elt F) S5000x64 .f32)), y ∈ pc.1.set :=
  View.cover_of_tiled [⟨wholeRows8, p⟩] S5000x64.size (by rfl) y

/-! ## The body's triple -/

set_option maxHeartbeats 1000000 in
/-- On whole buffers — the five inputs at contents `x`, `mu`, `vr`, `ga`, `be`, the output at anything — the body runs to
    its continuation with the inputs as they were and the output at `normalisedBlock8 x mu vr ga be`. -/
theorem bn_body8 (c : Dev nD) (E : Set ℕ) (i : grid8.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (mu vr ga be : Vec F S1x64 .f32) (K : PUnit → sProp 𝕄) :
    iprop(owns (c : Thread nD τ) arg1 fullShare x ∗ owns (c : Thread nD τ) arg2 fullShare mu
        ∗ owns (c : Thread nD τ) arg3 fullShare vr ∗ owns (c : Thread nD τ) arg4 fullShare ga
        ∗ owns (c : Thread nD τ) arg5 fullShare be ∗ (∃ d, owns (c : Thread nD τ) arg6 fullShare d)
        ∗ (iprop(owns (c : Thread nD τ) arg1 fullShare x ∗ owns (c : Thread nD τ) arg2 fullShare mu
            ∗ owns (c : Thread nD τ) arg3 fullShare vr ∗ owns (c : Thread nD τ) arg4 fullShare ga
            ∗ owns (c : Thread nD τ) arg5 fullShare be
            ∗ owns (c : Thread nD τ) arg6 fullShare (normalisedBlock8 x mu vr ga be)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_covers8 _)

/-! ## The proof data of the call -/

/-- On core `c`: the windows' arrays are the contents the call finds; after the body at point `t` the five input
    buffers hold their blocks still and the output buffer holds the normalised rows; the invariant between points is
    the scoped buffers the body never names and the generator register; nothing is owed to any other core. -/
def normData8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => blockAt8 V c 2 t
    | ⟨3, _⟩ => blockAt8 V c 3 t
    | ⟨4, _⟩ => blockAt8 V c 4 t
    | ⟨5, _⟩ => normalisedBlock8 (blockAt8 V c 0 t) (blockAt8 V c 1 t) (blockAt8 V c 2 t) (blockAt8 V c 3 t) (blockAt8 V c 4 t)
  Φ _ := Pipeline.ΦA spec8 c
  q _ := fullShare
  owed _ := 0

theorem normData8_A (c : Dev nD) (w : Fin cfg8.W) : (normData8 V c).A w = V c (Pipeline.arrRef spec8 w) := by
  dsimp only [normData8]

theorem normData8_after0 (c : Dev nD) (t : Fin cfg8.N) : (normData8 V c).after 0 t = blockAt8 V c 0 t := by dsimp only [normData8]
theorem normData8_after1 (c : Dev nD) (t : Fin cfg8.N) : (normData8 V c).after 1 t = blockAt8 V c 1 t := by dsimp only [normData8]
theorem normData8_after2 (c : Dev nD) (t : Fin cfg8.N) : (normData8 V c).after 2 t = blockAt8 V c 2 t := by dsimp only [normData8]
theorem normData8_after3 (c : Dev nD) (t : Fin cfg8.N) : (normData8 V c).after 3 t = blockAt8 V c 3 t := by dsimp only [normData8]
theorem normData8_after4 (c : Dev nD) (t : Fin cfg8.N) : (normData8 V c).after 4 t = blockAt8 V c 4 t := by dsimp only [normData8]
theorem normData8_after_out (c : Dev nD) (t : Fin cfg8.N) :
    (normData8 V c).after 5 t = normalisedBlock8 (blockAt8 V c 0 t) (blockAt8 V c 1 t) (blockAt8 V c 2 t)
      (blockAt8 V c 3 t) (blockAt8 V c 4 t) := by
  dsimp only [normData8]

theorem normData8_before0 (c : Dev nD) (t : Fin cfg8.N) (d) : (normData8 V c).before 0 t d = blockAt8 V c 0 t :=
  rows_in_place8 V (normData8 V c) (normData8_A V c 0) (normData8_after0 V c) t d
theorem normData8_before1 (c : Dev nD) (t : Fin cfg8.N) (d) : (normData8 V c).before 1 t d = blockAt8 V c 1 t :=
  mean_in_place8 V (normData8 V c) (normData8_A V c 1) (normData8_after1 V c) t d
theorem normData8_before2 (c : Dev nD) (t : Fin cfg8.N) (d) : (normData8 V c).before 2 t d = blockAt8 V c 2 t :=
  variance_in_place8 V (normData8 V c) (normData8_A V c 2) (normData8_after2 V c) t d
theorem normData8_before3 (c : Dev nD) (t : Fin cfg8.N) (d) : (normData8 V c).before 3 t d = blockAt8 V c 3 t :=
  gamma_in_place8 V (normData8 V c) (normData8_A V c 3) (normData8_after3 V c) t d
theorem normData8_before4 (c : Dev nD) (t : Fin cfg8.N) (d) : (normData8 V c).before 4 t d = blockAt8 V c 4 t :=
  beta_in_place8 V (normData8 V c) (normData8_A V c 4) (normData8_after4 V c) t d

/-! ## The body obligation -/

/-- What the body is called with at point `t`: the invariant, the core's dues, and the six windows' current buffers. -/
def bodyGiven8 (c : Dev nD) (t : Fin cfg8.N) : sProp 𝕄 :=
  iprop((normData8 V c).Φ t.castSucc ∗ (normData8 V c).owesAt () t.castSucc
    ∗ (∃ d, owns (c : Thread nD τ) (st8_0 t) fullShare ((normData8 V c).before 0 t d))
    ∗ (∃ d, owns (c : Thread nD τ) (st8_1 t) fullShare ((normData8 V c).before 1 t d))
    ∗ (∃ d, owns (c : Thread nD τ) (st8_2 t) fullShare ((normData8 V c).before 2 t d))
    ∗ (∃ d, owns (c : Thread nD τ) (st8_3 t) fullShare ((normData8 V c).before 3 t d))
    ∗ (∃ d, owns (c : Thread nD τ) (st8_4 t) fullShare ((normData8 V c).before 4 t d))
    ∗ (∃ d, owns (c : Thread nD τ) (st8_5 t) fullShare ((normData8 V c).before 5 t d)))

/-- What it returns. -/
def bodyLeaves8 (c : Dev nD) (t : Fin cfg8.N) : sProp 𝕄 :=
  iprop((normData8 V c).Φ t.succ ∗ (normData8 V c).owesAt () t.succ
    ∗ owns (c : Thread nD τ) (st8_0 t) fullShare ((normData8 V c).after 0 t)
    ∗ owns (c : Thread nD τ) (st8_1 t) fullShare ((normData8 V c).after 1 t)
    ∗ owns (c : Thread nD τ) (st8_2 t) fullShare ((normData8 V c).after 2 t)
    ∗ owns (c : Thread nD τ) (st8_3 t) fullShare ((normData8 V c).after 3 t)
    ∗ owns (c : Thread nD τ) (st8_4 t) fullShare ((normData8 V c).after 4 t)
    ∗ owns (c : Thread nD τ) (st8_5 t) fullShare ((normData8 V c).after 5 t))

/-- At any point the input buffers hold their blocks, so the body's triple applies; the invariant and the dues pass
    through untouched. -/
theorem body_at_point8 (c : Dev nD) (t : Fin cfg8.N) :
    bodyGiven8 V c t ⊢ wp frame (wpE (defs₀ (F := F)) Variants.none c none) Set.univ (bodyAt8 t) (fun _ => bodyLeaves8 V c t) := by
  unfold bodyGiven8 bodyLeaves8 bodyAt8
  simp only [normData8_before0, normData8_before1, normData8_before2, normData8_before3, normData8_before4]
  rw [show (normData8 V c).Φ t.succ = (normData8 V c).Φ t.castSucc from rfl,
    show (normData8 V c).owesAt () t.succ = (normData8 V c).owesAt () t.castSucc from rfl,
    normData8_after0, normData8_after1, normData8_after2, normData8_after3, normData8_after4, normData8_after_out]
  iintro ⟨HΦ, Ho, ⟨%d0, H0⟩, ⟨%d1, H1⟩, ⟨%d2, H2⟩, ⟨%d3, H3⟩, ⟨%d4, H4⟩, ⟨%d5, H5⟩⟩
  iapply (bn_body8 c Set.univ _ _ _ _ _ _ _ _ _ _ _ _ _ (blockAt8 V c 0 t) (blockAt8 V c 1 t) (blockAt8 V c 2 t)
    (blockAt8 V c 3 t) (blockAt8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the call, at every point. -/
theorem body_obligation8 (c : Dev nD) :
    BodyObligation (normData8 (F := F) V c) (defs₀ (F := F)) Variants.none () Set.univ := fun t => by
  rw [bigSep_W8, bigSep_W8]
  exact body_at_point8 V c t

end Cert.KernelIdeal.Hand

end
-- ==== Proof.KI.Boundaries.lean ====
import proofs.«123467_j2559800508646_1_alg».proof.Proof.KI.MatmulBody0
import proofs.«123467_j2559800508646_1_alg».proof.Proof.KI.StatsData1
import proofs.«123467_j2559800508646_1_alg».proof.Proof.KI.NormBody2
import proofs.«123467_j2559800508646_1_alg».proof.Proof.KI.MatmulBody3
import proofs.«123467_j2559800508646_1_alg».proof.Proof.KI.StatsData4
import proofs.«123467_j2559800508646_1_alg».proof.Proof.KI.NormBody5
import proofs.«123467_j2559800508646_1_alg».proof.Proof.KI.MatmulBody6
import proofs.«123467_j2559800508646_1_alg».proof.Proof.KI.StatsData7
import proofs.«123467_j2559800508646_1_alg».proof.Proof.KI.NormBody8
import proofs.«123467_j2559800508646_1_alg».proof.Proof.Gen.KernelIdeal.Regions

/-!
# The buffers' contents between the program's items

The program is nine kernel calls among ten stretches of host operations. Between two items every unscoped buffer of a
core holds definite contents: at launch the memory's; after a stretch of host operations, those operations applied to
what came before; after a kernel call, what came before with each array the call writes replaced by what its
write-backs leave there — which is a function of the call's proof data, hence of the contents it was entered from. So
the nineteen boundary contents are defined one after the other, each from the one before.

The conditional frame is stated over an unknown `outs`, "what the calls leave", read at fifteen (item, array) pairs.
Taking `outs n r` to be the n-th boundary's contents read at `r` makes its boundary contents the ones defined here.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The nineteen boundaries -/

/-- The core's unscoped buffers at launch, and after the first stretch of host operations. -/
def at0 (c : Dev nD) : Valuation τ sig (Elt F) := V0 m c
def at1 (c : Dev nD) : Valuation τ sig (Elt F) := StableHlo.after hostOps0 (at0 m c)

/-- Call 0's proof data, at the contents it is entered from. -/
abbrev data0 (c : Dev nD) : Dat τ (Elt F) Unit ℕ (UR sig nD τ) ℕ cfg0 c := productData0 (F := F) (fun c b => at1 m c b) c
/-- After call 0: each array it writes at what its write-backs leave, every other buffer as entered. -/
def at2 (c : Dev nD) : Valuation τ sig (Elt F) :=
  Function.update (at1 m c) main_v2 ((data0 m c).arrAt 2 cfg0.N)
/-- After the host operations that follow it. -/
def at3 (c : Dev nD) : Valuation τ sig (Elt F) := StableHlo.after hostOps1 (at2 m c)

/-- Call 1's proof data, at the contents it is entered from. -/
abbrev data1 (c : Dev nD) : Dat τ (Elt F) Unit ℕ (UR sig nD τ) ℕ cfg1 c := statsData1 (F := F) (fun c b => at3 m c b) c
/-- After call 1: each array it writes at what its write-backs leave, every other buffer as entered. -/
def at4 (c : Dev nD) : Valuation τ sig (Elt F) :=
  Function.update (Function.update (Function.update (at3 m c) main_v22_0 ((data1 m c).arrAt 3 cfg1.N)) main_v22_1 ((data1 m c).arrAt 4 cfg1.N)) main_v22_2 ((data1 m c).arrAt 5 cfg1.N)
/-- After the host operations that follow it. -/
def at5 (c : Dev nD) : Valuation τ sig (Elt F) := StableHlo.after hostOps2 (at4 m c)

/-- Call 2's proof data, at the contents it is entered from. -/
abbrev data2 (c : Dev nD) : Dat τ (Elt F) Unit ℕ (UR sig nD τ) ℕ cfg2 c := normData2 (F := F) (fun c b => at5 m c b) c
/-- After call 2: each array it writes at what its write-backs leave, every other buffer as entered. -/
def at6 (c : Dev nD) : Valuation τ sig (Elt F) :=
  Function.update (at5 m c) main_v35 ((data2 m c).arrAt 5 cfg2.N)
/-- After the host operations that follow it. -/
def at7 (c : Dev nD) : Valuation τ sig (Elt F) := StableHlo.after hostOps3 (at6 m c)

/-- Call 3's proof data, at the contents it is entered from. -/
abbrev data3 (c : Dev nD) : Dat τ (Elt F) Unit ℕ (UR sig nD τ) ℕ cfg3 c := productData3 (F := F) (fun c b => at7 m c b) c
/-- After call 3: each array it writes at what its write-backs leave, every other buffer as entered. -/
def at8 (c : Dev nD) : Valuation τ sig (Elt F) :=
  Function.update (at7 m c) main_v38 ((data3 m c).arrAt 2 cfg3.N)
/-- After the host operations that follow it. -/
def at9 (c : Dev nD) : Valuation τ sig (Elt F) := StableHlo.after hostOps4 (at8 m c)

/-- Call 4's proof data, at the contents it is entered from. -/
abbrev data4 (c : Dev nD) : Dat τ (Elt F) Unit ℕ (UR sig nD τ) ℕ cfg4 c := statsData4 (F := F) (fun c b => at9 m c b) c
/-- After call 4: each array it writes at what its write-backs leave, every other buffer as entered. -/
def at10 (c : Dev nD) : Valuation τ sig (Elt F) :=
  Function.update (Function.update (Function.update (at9 m c) main_v58_0 ((data4 m c).arrAt 4 cfg4.N)) main_v58_1 ((data4 m c).arrAt 5 cfg4.N)) main_v58_2 ((data4 m c).arrAt 6 cfg4.N)
/-- After the host operations that follow it. -/
def at11 (c : Dev nD) : Valuation τ sig (Elt F) := StableHlo.after hostOps5 (at10 m c)

/-- Call 5's proof data, at the contents it is entered from. -/
abbrev data5 (c : Dev nD) : Dat τ (Elt F) Unit ℕ (UR sig nD τ) ℕ cfg5 c := normData5 (F := F) (fun c b => at11 m c b) c
/-- After call 5: each array it writes at what its write-backs leave, every other buffer as entered. -/
def at12 (c : Dev nD) : Valuation τ sig (Elt F) :=
  Function.update (at11 m c) main_v71 ((data5 m c).arrAt 5 cfg5.N)
/-- After the host operations that follow it. -/
def at13 (c : Dev nD) : Valuation τ sig (Elt F) := StableHlo.after hostOps6 (at12 m c)

/-- Call 6's proof data, at the contents it is entered from. -/
abbrev data6 (c : Dev nD) : Dat τ (Elt F) Unit ℕ (UR sig nD τ) ℕ cfg6 c := productData6 (F := F) (fun c b => at13 m c b) c
/-- After call 6: each array it writes at what its write-backs leave, every other buffer as entered. -/
def at14 (c : Dev nD) : Valuation τ sig (Elt F) :=
  Function.update (at13 m c) main_v74 ((data6 m c).arrAt 2 cfg6.N)
/-- After the host operations that follow it. -/
def at15 (c : Dev nD) : Valuation τ sig (Elt F) := StableHlo.after hostOps7 (at14 m c)

/-- Call 7's proof data, at the contents it is entered from. -/
abbrev data7 (c : Dev nD) : Dat τ (Elt F) Unit ℕ (UR sig nD τ) ℕ cfg7 c := statsData7 (F := F) (fun c b => at15 m c b) c
/-- After call 7: each array it writes at what its write-backs leave, every other buffer as entered. -/
def at16 (c : Dev nD) : Valuation τ sig (Elt F) :=
  Function.update (Function.update (Function.update (at15 m c) main_v94_0 ((data7 m c).arrAt 4 cfg7.N)) main_v94_1 ((data7 m c).arrAt 5 cfg7.N)) main_v94_2 ((data7 m c).arrAt 6 cfg7.N)
/-- After the host operations that follow it. -/
def at17 (c : Dev nD) : Valuation τ sig (Elt F) := StableHlo.after hostOps8 (at16 m c)

/-- Call 8's proof data, at the contents it is entered from. -/
abbrev data8 (c : Dev nD) : Dat τ (Elt F) Unit ℕ (UR sig nD τ) ℕ cfg8 c := normData8 (F := F) (fun c b => at17 m c b) c
/-- After call 8: each array it writes at what its write-backs leave, every other buffer as entered. -/
def at18 (c : Dev nD) : Valuation τ sig (Elt F) :=
  Function.update (at17 m c) main_v107 ((data8 m c).arrAt 5 cfg8.N)

/-- What the calls leave, as the conditional frame reads it: the boundary after item `n − 1`, read at `r`. -/
def boundaryOuts : Outs (F := F) := fun n r c =>
  match n with
  | 2 => at2 m c r
  | 4 => at4 m c r
  | 6 => at6 m c r
  | 8 => at8 m c r
  | 10 => at10 m c r
  | 12 => at12 m c r
  | 14 => at14 m c r
  | 16 => at16 m c r
  | 18 => at18 m c r
  | _ => at0 m c r

/-! ## The conditional frame's boundaries are these -/

theorem at1_eq (c : Dev nD) : V1 m c = at1 m c := rfl

/-- After call 0 the conditional frame's contents, read with `boundaryOuts`, are the ones defined here. -/
theorem at2_eq (c : Dev nD) : V2 m (boundaryOuts m) c = at2 m c := by
  show Function.update (V1 m c) main_v2 (boundaryOuts m 2 main_v2 c) = at2 m c
  rw [at1_eq]
  unfold at2
  simp only [boundaryOuts, at2, Function.update_self]
theorem at3_eq (c : Dev nD) : V3 m (boundaryOuts m) c = at3 m c := by
  show StableHlo.after hostOps1 (V2 m (boundaryOuts m) c) = _
  rw [at2_eq]
  rfl

/-- After call 1 the conditional frame's contents, read with `boundaryOuts`, are the ones defined here. -/
theorem at4_eq (c : Dev nD) : V4 m (boundaryOuts m) c = at4 m c := by
  show Function.update (Function.update (Function.update (V3 m (boundaryOuts m) c) main_v22_0 (boundaryOuts m 4 main_v22_0 c)) main_v22_1 (boundaryOuts m 4 main_v22_1 c)) main_v22_2 (boundaryOuts m 4 main_v22_2 c) = at4 m c
  rw [at3_eq]
  have hne0 : (Proc.devRef .tc main_v22_0 : DevRef τ sig) ≠ Proc.devRef .tc main_v22_1 := StableHlo.devRef_ne_of_ne (by decide)
  have hne1 : (Proc.devRef .tc main_v22_0 : DevRef τ sig) ≠ Proc.devRef .tc main_v22_2 := StableHlo.devRef_ne_of_ne (by decide)
  have hne2 : (Proc.devRef .tc main_v22_1 : DevRef τ sig) ≠ Proc.devRef .tc main_v22_0 := StableHlo.devRef_ne_of_ne (by decide)
  have hne3 : (Proc.devRef .tc main_v22_1 : DevRef τ sig) ≠ Proc.devRef .tc main_v22_2 := StableHlo.devRef_ne_of_ne (by decide)
  have hne4 : (Proc.devRef .tc main_v22_2 : DevRef τ sig) ≠ Proc.devRef .tc main_v22_0 := StableHlo.devRef_ne_of_ne (by decide)
  have hne5 : (Proc.devRef .tc main_v22_2 : DevRef τ sig) ≠ Proc.devRef .tc main_v22_1 := StableHlo.devRef_ne_of_ne (by decide)
  unfold at4
  simp only [boundaryOuts, at4, Function.update_self, Function.update_of_ne hne0, Function.update_of_ne hne1, Function.update_of_ne hne2, Function.update_of_ne hne3, Function.update_of_ne hne4, Function.update_of_ne hne5]
theorem at5_eq (c : Dev nD) : V5 m (boundaryOuts m) c = at5 m c := by
  show StableHlo.after hostOps2 (V4 m (boundaryOuts m) c) = _
  rw [at4_eq]
  rfl

/-- After call 2 the conditional frame's contents, read with `boundaryOuts`, are the ones defined here. -/
theorem at6_eq (c : Dev nD) : V6 m (boundaryOuts m) c = at6 m c := by
  show Function.update (V5 m (boundaryOuts m) c) main_v35 (boundaryOuts m 6 main_v35 c) = at6 m c
  rw [at5_eq]
  unfold at6
  simp only [boundaryOuts, at6, Function.update_self]
theorem at7_eq (c : Dev nD) : V7 m (boundaryOuts m) c = at7 m c := by
  show StableHlo.after hostOps3 (V6 m (boundaryOuts m) c) = _
  rw [at6_eq]
  rfl

/-- After call 3 the conditional frame's contents, read with `boundaryOuts`, are the ones defined here. -/
theorem at8_eq (c : Dev nD) : V8 m (boundaryOuts m) c = at8 m c := by
  show Function.update (V7 m (boundaryOuts m) c) main_v38 (boundaryOuts m 8 main_v38 c) = at8 m c
  rw [at7_eq]
  unfold at8
  simp only [boundaryOuts, at8, Function.update_self]
theorem at9_eq (c : Dev nD) : V9 m (boundaryOuts m) c = at9 m c := by
  show StableHlo.after hostOps4 (V8 m (boundaryOuts m) c) = _
  rw [at8_eq]
  rfl

/-- After call 4 the conditional frame's contents, read with `boundaryOuts`, are the ones defined here. -/
theorem at10_eq (c : Dev nD) : V10 m (boundaryOuts m) c = at10 m c := by
  show Function.update (Function.update (Function.update (V9 m (boundaryOuts m) c) main_v58_0 (boundaryOuts m 10 main_v58_0 c)) main_v58_1 (boundaryOuts m 10 main_v58_1 c)) main_v58_2 (boundaryOuts m 10 main_v58_2 c) = at10 m c
  rw [at9_eq]
  have hne0 : (Proc.devRef .tc main_v58_0 : DevRef τ sig) ≠ Proc.devRef .tc main_v58_1 := StableHlo.devRef_ne_of_ne (by decide)
  have hne1 : (Proc.devRef .tc main_v58_0 : DevRef τ sig) ≠ Proc.devRef .tc main_v58_2 := StableHlo.devRef_ne_of_ne (by decide)
  have hne2 : (Proc.devRef .tc main_v58_1 : DevRef τ sig) ≠ Proc.devRef .tc main_v58_0 := StableHlo.devRef_ne_of_ne (by decide)
  have hne3 : (Proc.devRef .tc main_v58_1 : DevRef τ sig) ≠ Proc.devRef .tc main_v58_2 := StableHlo.devRef_ne_of_ne (by decide)
  have hne4 : (Proc.devRef .tc main_v58_2 : DevRef τ sig) ≠ Proc.devRef .tc main_v58_0 := StableHlo.devRef_ne_of_ne (by decide)
  have hne5 : (Proc.devRef .tc main_v58_2 : DevRef τ sig) ≠ Proc.devRef .tc main_v58_1 := StableHlo.devRef_ne_of_ne (by decide)
  unfold at10
  simp only [boundaryOuts, at10, Function.update_self, Function.update_of_ne hne0, Function.update_of_ne hne1, Function.update_of_ne hne2, Function.update_of_ne hne3, Function.update_of_ne hne4, Function.update_of_ne hne5]
theorem at11_eq (c : Dev nD) : V11 m (boundaryOuts m) c = at11 m c := by
  show StableHlo.after hostOps5 (V10 m (boundaryOuts m) c) = _
  rw [at10_eq]
  rfl

/-- After call 5 the conditional frame's contents, read with `boundaryOuts`, are the ones defined here. -/
theorem at12_eq (c : Dev nD) : V12 m (boundaryOuts m) c = at12 m c := by
  show Function.update (V11 m (boundaryOuts m) c) main_v71 (boundaryOuts m 12 main_v71 c) = at12 m c
  rw [at11_eq]
  unfold at12
  simp only [boundaryOuts, at12, Function.update_self]
theorem at13_eq (c : Dev nD) : V13 m (boundaryOuts m) c = at13 m c := by
  show StableHlo.after hostOps6 (V12 m (boundaryOuts m) c) = _
  rw [at12_eq]
  rfl

/-- After call 6 the conditional frame's contents, read with `boundaryOuts`, are the ones defined here. -/
theorem at14_eq (c : Dev nD) : V14 m (boundaryOuts m) c = at14 m c := by
  show Function.update (V13 m (boundaryOuts m) c) main_v74 (boundaryOuts m 14 main_v74 c) = at14 m c
  rw [at13_eq]
  unfold at14
  simp only [boundaryOuts, at14, Function.update_self]
theorem at15_eq (c : Dev nD) : V15 m (boundaryOuts m) c = at15 m c := by
  show StableHlo.after hostOps7 (V14 m (boundaryOuts m) c) = _
  rw [at14_eq]
  rfl

/-- After call 7 the conditional frame's contents, read with `boundaryOuts`, are the ones defined here. -/
theorem at16_eq (c : Dev nD) : V16 m (boundaryOuts m) c = at16 m c := by
  show Function.update (Function.update (Function.update (V15 m (boundaryOuts m) c) main_v94_0 (boundaryOuts m 16 main_v94_0 c)) main_v94_1 (boundaryOuts m 16 main_v94_1 c)) main_v94_2 (boundaryOuts m 16 main_v94_2 c) = at16 m c
  rw [at15_eq]
  have hne0 : (Proc.devRef .tc main_v94_0 : DevRef τ sig) ≠ Proc.devRef .tc main_v94_1 := StableHlo.devRef_ne_of_ne (by decide)
  have hne1 : (Proc.devRef .tc main_v94_0 : DevRef τ sig) ≠ Proc.devRef .tc main_v94_2 := StableHlo.devRef_ne_of_ne (by decide)
  have hne2 : (Proc.devRef .tc main_v94_1 : DevRef τ sig) ≠ Proc.devRef .tc main_v94_0 := StableHlo.devRef_ne_of_ne (by decide)
  have hne3 : (Proc.devRef .tc main_v94_1 : DevRef τ sig) ≠ Proc.devRef .tc main_v94_2 := StableHlo.devRef_ne_of_ne (by decide)
  have hne4 : (Proc.devRef .tc main_v94_2 : DevRef τ sig) ≠ Proc.devRef .tc main_v94_0 := StableHlo.devRef_ne_of_ne (by decide)
  have hne5 : (Proc.devRef .tc main_v94_2 : DevRef τ sig) ≠ Proc.devRef .tc main_v94_1 := StableHlo.devRef_ne_of_ne (by decide)
  unfold at16
  simp only [boundaryOuts, at16, Function.update_self, Function.update_of_ne hne0, Function.update_of_ne hne1, Function.update_of_ne hne2, Function.update_of_ne hne3, Function.update_of_ne hne4, Function.update_of_ne hne5]
theorem at17_eq (c : Dev nD) : V17 m (boundaryOuts m) c = at17 m c := by
  show StableHlo.after hostOps8 (V16 m (boundaryOuts m) c) = _
  rw [at16_eq]
  rfl

/-- After call 8 the conditional frame's contents, read with `boundaryOuts`, are the ones defined here. -/
theorem at18_eq (c : Dev nD) : V18 m (boundaryOuts m) c = at18 m c := by
  show Function.update (V17 m (boundaryOuts m) c) main_v107 (boundaryOuts m 18 main_v107 c) = at18 m c
  rw [at17_eq]
  unfold at18
  simp only [boundaryOuts, at18, Function.update_self]

/-! ## The family of proof data -/

/-- Every call's proof data, each at the contents it is entered from: a literal match, so that the configuration of
    call `p` at a numeral reduces to the printed one. -/
def family : (p : Fin 9) → (c : Dev nD) → Dat τ (Elt F) Unit ℕ (UR sig nD τ) ℕ (cfgs p) c
  | ⟨0, _⟩ => fun c => data0 m c
  | ⟨1, _⟩ => fun c => data1 m c
  | ⟨2, _⟩ => fun c => data2 m c
  | ⟨3, _⟩ => fun c => data3 m c
  | ⟨4, _⟩ => fun c => data4 m c
  | ⟨5, _⟩ => fun c => data5 m c
  | ⟨6, _⟩ => fun c => data6 m c
  | ⟨7, _⟩ => fun c => data7 m c
  | ⟨8, _⟩ => fun c => data8 m c

end Cert.KernelIdeal.Hand

end
-- ==== Proof.KI.Runs.lean ====
import proofs.«123467_j2559800508646_1_alg».proof.Proof.KI.Boundaries

/-!
# The program runs, and its arguments end as launched

Each of the nine kernel calls is a segment of the program: entered with every unscoped buffer of the core at the boundary
contents before it, left with them at the boundary contents after it. Given the nine segments, the host stretches
between them and the chaining are the generated conditional frame's; what remains is what rides beside the buffers
through every segment — the core's generator register at some state and its dues, at nothing — and the launch.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev noLevels : GSem nD τ sig → Finset Unit := fun _ => ∅
abbrev noLevel : GSem nD τ sig → Unit → ℕ := fun _ _ => 0
/-- What rides beside the buffers through every segment: the core's generator register at some state and its dues, at
    nothing. -/
abbrev riding (c : Dev nD) : sProp 𝕄 :=
  iprop((∃ r, prngReg c r) ∗ ∃ W, owes (c : Thread nD τ) (0 : CellTallies nD τ sig Unit) W)

/-! ## Call 0 -/

set_option maxHeartbeats 4000000 in
/-- After call 0 each of its arrays holds what the write-backs leave: an array it writes by the boundary's definition,
    an array it only reads because no write-back touches it. -/
theorem exit_arrays0 (c : Dev nD) : ∀ w : Fin cfg0.W,
    (data0 m c).arrAt w cfg0.N = (fun b : Ref sig .tc => at2 m c b) (Pipeline.arrRef spec0 w)
  | ⟨0, _⟩ => by
    show (data0 m c).arrAt 0 cfg0.N = at2 m c (Proc.devRef .tc (Pipeline.arrRef spec0 0))
    rw [(data0 m c).arrAt_in 0 rfl _, show (data0 m c).A 0 = at1 m c (Proc.devRef .tc (Pipeline.arrRef spec0 0)) from productData0_A _ c 0]
    unfold at2
    rw [Function.update_of_ne (StableHlo.devRef_ne_of_ne (show (Pipeline.arrRef spec0 0 : Ref sig .tc) ≠ main_v2 from by decide))]
  | ⟨1, _⟩ => by
    show (data0 m c).arrAt 1 cfg0.N = at2 m c (Proc.devRef .tc (Pipeline.arrRef spec0 1))
    rw [(data0 m c).arrAt_in 1 rfl _, show (data0 m c).A 1 = at1 m c (Proc.devRef .tc (Pipeline.arrRef spec0 1)) from productData0_A _ c 1]
    unfold at2
    rw [Function.update_of_ne (StableHlo.devRef_ne_of_ne (show (Pipeline.arrRef spec0 1 : Ref sig .tc) ≠ main_v2 from by decide))]
  | ⟨2, _⟩ => by
    show (data0 m c).arrAt 2 cfg0.N = at2 m c (Proc.devRef .tc main_v2)
    unfold at2
    rw [Function.update_self]

set_option maxHeartbeats 4000000 in
/-- Every buffer that is none of its arrays is as the call found it. -/
theorem exit_rest0 (c : Dev nD) : ∀ b : Ref sig .tc, b ∉ Finset.univ.image (Pipeline.arrRef spec0) →
    (fun b : Ref sig .tc => at2 m c b) b = (fun b : Ref sig .tc => at1 m c b) b := fun b hb => by
  show at2 m c (Proc.devRef .tc b) = at1 m c (Proc.devRef .tc b)
  unfold at2
  rw [Function.update_of_ne (StableHlo.devRef_ne_of_ne (fun e => hb (Finset.mem_image.mpr ⟨2, Finset.mem_univ _, by rw [e]⟩)))]

set_option backward.isDefEq.respectTransparency.types false in
/-- Call 0 as a segment of the program: entered with every unscoped buffer at the boundary before it, left with them at
    the boundary after it; its arrays are taken out of the unscoped buffers on entry and put back on exit; the generator
    register goes into the call's invariant and comes back; the core owes nothing and the kernel has no semaphore of its
    own. -/
def record0 : Pipeline.RegionSeg (pcfgs (F := F)) adm (family m) () defs₀ Variants.none noLevels noLevel 0 where
  win := launch0.win.to₀
  block_pos := launch0.block_pos
  stage_whole := launch0.stage_whole
  K := PEmpty
  osem k := k.elim
  ho := Pipeline.OwnSemFacts.none _
  hbody c := (body_obligation0 (fun c b => at1 m c b) c).loose
  hwaits := Pipeline.hwaits_of_owed_zero _ _ _ _ noLevels noLevel 0 fun _ _ => rfl
  pre c := iprop(StableHlo.held (c : Thread nD τ) (Pipeline.ucRefs τ sig) (at1 m c) ∗ riding c)
  post c := iprop(StableHlo.held (c : Thread nD τ) (Pipeline.ucRefs τ sig) (at2 m c) ∗ riding c)
  X c := iprop(∃ r, prngReg c r)
  Y c := iprop(∃ r, prngReg c r)
  Z c := Pipeline.unscopedRest (Ix := Unit) (Name := ℕ) (U := UR sig nD τ) (Lvl := ℕ) spec0 c (fun b : Ref sig .tc => at1 m c b)
  hentry c := by
    rw [Pipeline.ownSems0_none]
    have hsplit := Pipeline.arrays_of_unscopedBufs (p := 0) (pcfgs (F := F)) adm (family m) launch0.win launch0.arr_whole c
      ((family m 0 c).share_full fun _ => rfl) (fun b : Ref sig .tc => at1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 0 c).Φ 0 = Pipeline.ΦA spec0 c from rfl]; unfold Pipeline.ΦA
    iintro ⟨Hp, -, Hr⟩
    isplitl [Hr]; · iexact Hr
    iexact Hp
  hout c := by
    rw [Pipeline.ownSems0_none, show (family m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (family m) ((family m 0 c).share_full fun _ => rfl)
      (fun b : Ref sig .tc => at1 m c b) (fun b : Ref sig .tc => at2 m c b) ((family m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 -/

set_option maxHeartbeats 4000000 in
/-- After call 1 each of its arrays holds what the write-backs leave: an array it writes by the boundary's definition,
    an array it only reads because no write-back touches it. -/
theorem exit_arrays1 (c : Dev nD) : ∀ w : Fin cfg1.W,
    (data1 m c).arrAt w cfg1.N = (fun b : Ref sig .tc => at4 m c b) (Pipeline.arrRef spec1 w)
  | ⟨0, _⟩ => by
    show (data1 m c).arrAt 0 cfg1.N = at4 m c (Proc.devRef .tc (Pipeline.arrRef spec1 0))
    rw [(data1 m c).arrAt_in 0 rfl _, show (data1 m c).A 0 = at3 m c (Proc.devRef .tc (Pipeline.arrRef spec1 0)) from statsData1_A _ c 0]
    unfold at4
    rw [Function.update_of_ne (StableHlo.devRef_ne_of_ne (show (Pipeline.arrRef spec1 0 : Ref sig .tc) ≠ main_v22_2 from by decide)), Function.update_of_ne (StableHlo.devRef_ne_of_ne (show (Pipeline.arrRef spec1 0 : Ref sig .tc) ≠ main_v22_1 from by decide)), Function.update_of_ne (StableHlo.devRef_ne_of_ne (show (Pipeline.arrRef spec1 0 : Ref sig .tc) ≠ main_v22_0 from by decide))]
  | ⟨1, _⟩ => by
    show (data1 m c).arrAt 1 cfg1.N = at4 m c (Proc.devRef .tc (Pipeline.arrRef spec1 1))
    rw [(data1 m c).arrAt_in 1 rfl _, show (data1 m c).A 1 = at3 m c (Proc.devRef .tc (Pipeline.arrRef spec1 1)) from statsData1_A _ c 1]
    unfold at4
    rw [Function.update_of_ne (StableHlo.devRef_ne_of_ne (show (Pipeline.arrRef spec1 1 : Ref sig .tc) ≠ main_v22_2 from by decide)), Function.update_of_ne (StableHlo.devRef_ne_of_ne (show (Pipeline.arrRef spec1 1 : Ref sig .tc) ≠ main_v22_1 from by decide)), Function.update_of_ne (StableHlo.devRef_ne_of_ne (show (Pipeline.arrRef spec1 1 : Ref sig .tc) ≠ main_v22_0 from by decide))]
  | ⟨2, _⟩ => by
    show (data1 m c).arrAt 2 cfg1.N = at4 m c (Proc.devRef .tc (Pipeline.arrRef spec1 2))
    rw [(data1 m c).arrAt_in 2 rfl _, show (data1 m c).A 2 = at3 m c (Proc.devRef .tc (Pipeline.arrRef spec1 2)) from statsData1_A _ c 2]
    unfold at4
    rw [Function.update_of_ne (StableHlo.devRef_ne_of_ne (show (Pipeline.arrRef spec1 2 : Ref sig .tc) ≠ main_v22_2 from by decide)), Function.update_of_ne (StableHlo.devRef_ne_of_ne (show (Pipeline.arrRef spec1 2 : Ref sig .tc) ≠ main_v22_1 from by decide)), Function.update_of_ne (StableHlo.devRef_ne_of_ne (show (Pipeline.arrRef spec1 2 : Ref sig .tc) ≠ main_v22_0 from by decide))]
  | ⟨3, _⟩ => by
    show (data1 m c).arrAt 3 cfg1.N = at4 m c (Proc.devRef .tc main_v22_0)
    unfold at4
    rw [Function.update_of_ne (StableHlo.devRef_ne_of_ne (show (main_v22_0 : Ref sig .tc) ≠ main_v22_2 from by decide)), Function.update_of_ne (StableHlo.devRef_ne_of_ne (show (main_v22_0 : Ref sig .tc) ≠ main_v22_1 from by decide)), Function.update_self]
  | ⟨4, _⟩ => by
    show (data1 m c).arrAt 4 cfg1.N = at4 m c (Proc.devRef .tc main_v22_1)
    unfold at4
    rw [Function.update_of_ne (StableHlo.devRef_ne_of_ne (show (main_v22_1 : Ref sig .tc) ≠ main_v22_2 from by decide)), Function.update_self]
  | ⟨5, _⟩ => by
    show (data1 m c).arrAt 5 cfg1.N = at4 m c (Proc.devRef .tc main_v22_2)
    unfold at4
    rw [Function.update_self]

set_option maxHeartbeats 4000000 in
/-- Every buffer that is none of its arrays is as the call found it. -/
theorem exit_rest1 (c : Dev nD) : ∀ b : Ref sig .tc, b ∉ Finset.univ.image (Pipeline.arrRef spec1) →
    (fun b : Ref sig .tc => at4 m c b) b = (fun b : Ref sig .tc => at3 m c b) b := fun b hb => by
  show at4 m c (Proc.devRef .tc b) = at3 m c (Proc.devRef .tc b)
  unfold at4
  rw [Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩))), Function.update_of_ne (StableHlo.devRef_ne_of_ne (fun e => hb (Finset.mem_image.mpr ⟨3, Finset.mem_univ _, by rw [e]⟩)))]

set_option backward.isDefEq.respectTransparency.types false in
/-- Call 1 as a segment of the program: entered with every unscoped buffer at the boundary before it, left with them at
    the boundary after it; its arrays are taken out of the unscoped buffers on entry and put back on exit; the generator
    register goes into the call's invariant and comes back; the core owes nothing and the kernel has no semaphore of its
    own. -/
def record1 : Pipeline.RegionSeg (pcfgs (F := F)) adm (family m) () defs₀ Variants.none noLevels noLevel 1 where
  win := launch1.win.to₀
  block_pos := launch1.block_pos
  stage_whole := launch1.stage_whole
  K := PEmpty
  osem k := k.elim
  ho := Pipeline.OwnSemFacts.none _
  hbody c := (body_obligation1 (fun c b => at3 m c b) c).loose
  hwaits := Pipeline.hwaits_of_owed_zero _ _ _ _ noLevels noLevel 1 fun _ _ => rfl
  pre c := iprop(StableHlo.held (c : Thread nD τ) (Pipeline.ucRefs τ sig) (at3 m c) ∗ riding c)
  post c := iprop(StableHlo.held (c : Thread nD τ) (Pipeline.ucRefs τ sig) (at4 m c) ∗ riding c)
  X c := iprop(∃ r, prngReg c r)
  Y c := iprop(∃ r, prngReg c r)
  Z c := Pipeline.unscopedRest (Ix := Unit) (Name := ℕ) (U := UR sig nD τ) (Lvl := ℕ) spec1 c (fun b : Ref sig .tc => at3 m c b)
  hentry c := by
    rw [Pipeline.ownSems0_none]
    have hsplit := Pipeline.arrays_of_unscopedBufs (p := 1) (pcfgs (F := F)) adm (family m) launch1.win launch1.arr_whole c
      ((family m 1 c).share_full fun _ => rfl) (fun b : Ref sig .tc => at3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData1 (F := F) (fun c b => at3 m c b) c).Φ 0
    iintro ⟨Hp, -, Hr⟩
    iapply (invariant_in1 (fun c b => at3 m c b) c)
    unfold Pipeline.ΦA
    isplitl [Hr]; · iexact Hr
    iexact Hp
  hout c := by
    rw [Pipeline.ownSems0_none]
    show (statsData1 (F := F) (fun c b => at3 m c b) c).Φ (Fin.last cfg1.N) ⊢ _
    iintro H
    ihave H' := (invariant_out1 (fun c b => at3 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (family m) ((family m 1 c).share_full fun _ => rfl)
      (fun b : Ref sig .tc => at3 m c b) (fun b : Ref sig .tc => at4 m c b) ((family m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 -/

set_option maxHeartbeats 4000000 in
/-- After call 2 each of its arrays holds what the write-backs leave: an array it writes by the boundary's definition,
    an array it only reads because no write-back touches it. -/
theorem exit_arrays2 (c : Dev nD) : ∀ w : Fin cfg2.W,
    (data2 m c).arrAt w cfg2.N = (fun b : Ref sig .tc => at6 m c b) (Pipeline.arrRef spec2 w)
  | ⟨0, _⟩ => by
    show (data2 m c).arrAt 0 cfg2.N = at6 m c (Proc.devRef .tc (Pipeline.arrRef spec2 0))
    rw [(data2 m c).arrAt_in 0 rfl _, show (data2 m c).A 0 = at5 m c (Proc.devRef .tc (Pipeline.arrRef spec2 0)) from normData2_A _ c 0]
    unfold at6
    rw [Function.update_of_ne (StableHlo.devRef_ne_of_ne (show (Pipeline.arrRef spec2 0 : Ref sig .tc) ≠ main_v35 from by decide))]
  | ⟨1, _⟩ => by
    show (data2 m c).arrAt 1 cfg2.N = at6 m c (Proc.devRef .tc (Pipeline.arrRef spec2 1))
    rw [(data2 m c).arrAt_in 1 rfl _, show (data2 m c).A 1 = at5 m c (Proc.devRef .tc (Pipeline.arrRef spec2 1)) from normData2_A _ c 1]
    unfold at6
    rw [Function.update_of_ne (StableHlo.devRef_ne_of_ne (show (Pipeline.arrRef spec2 1 : Ref sig .tc) ≠ main_v35 from by decide))]
  | ⟨2, _⟩ => by
    show (data2 m c).arrAt 2 cfg2.N = at6 m c (Proc.devRef .tc (Pipeline.arrRef spec2 2))
    rw [(data2 m c).arrAt_in 2 rfl _, show (data2 m c).A 2 = at5 m c (Proc.devRef .tc (Pipeline.arrRef spec2 2)) from normData2_A _ c 2]
    unfold at6
    rw [Function.update_of_ne (StableHlo.devRef_ne_of_ne (show (Pipeline.arrRef spec2 2 : Ref sig .tc) ≠ main_v35 from by decide))]
  | ⟨3, _⟩ => by
    show (data2 m c).arrAt 3 cfg2.N = at6 m c (Proc.devRef .tc (Pipeline.arrRef spec2 3))
    rw [(data2 m c).arrAt_in 3 rfl _, show (data2 m c).A 3 = at5 m c (Proc.devRef .tc (Pipeline.arrRef spec2 3)) from normData2_A _ c 3]
    unfold at6
    rw [Function.update_of_ne (StableHlo.devRef_ne_of_ne (show (Pipeline.arrRef spec2 3 : Ref sig .tc) ≠ main_v35 from by decide))]
  | ⟨4, _⟩ => by
    show (data2 m c).arrAt 4 cfg2.N = at6 m c (Proc.devRef .tc (Pipeline.arrRef spec2 4))
    rw [(data2 m c).arrAt_in 4 rfl _, show (data2 m c).A 4 = at5 m c (Proc.devRef .tc (Pipeline.arrRef spec2 4)) from normData2_A _ c 4]
    unfold at6
    rw [Function.update_of_ne (StableHlo.devRef_ne_of_ne (show (Pipeline.arrRef spec2 4 : Ref sig .tc) ≠ main_v35 from by decide))]
  | ⟨5, _⟩ => by
    show (data2 m c).arrAt 5 cfg2.N = at6 m c (Proc.devRef .tc main_v35)
    unfold at6
    rw [Function.update_self]

set_option maxHeartbeats 4000000 in
/-- Every buffer that is none of its arrays is as the call found it. -/
theorem exit_rest2 (c : Dev nD) : ∀ b : Ref sig .tc, b ∉ Finset.univ.image (Pipeline.arrRef spec2) →
    (fun b : Ref sig .tc => at6 m c b) b = (fun b : Ref sig .tc => at5 m c b) b := fun b hb => by
  show at6 m c (Proc.devRef .tc b) = at5 m c (Proc.devRef .tc b)
  unfold at6
  rw [Function.update_of_ne (StableHlo.devRef_ne_of_ne (fun e => hb (Finset.mem_image.mpr ⟨5, Finset.mem_univ _, by rw [e]⟩)))]

set_option backward.isDefEq.respectTransparency.types false in
/-- Call 2 as a segment of the program: entered with every unscoped buffer at the boundary before it, left with them at
    the boundary after it; its arrays are taken out of the unscoped buffers on entry and put back on exit; the generator
    register goes into the call's invariant and comes back; the core owes nothing and the kernel has no semaphore of its
    own. -/
def record2 : Pipeline.RegionSeg (pcfgs (F := F)) adm (family m) () defs₀ Variants.none noLevels noLevel 2 where
  win := launch2.win.to₀
  block_pos := launch2.block_pos
  stage_whole := launch2.stage_whole
  K := PEmpty
  osem k := k.elim
  ho := Pipeline.OwnSemFacts.none _
  hbody c := (body_obligation2 (fun c b => at5 m c b) c).loose
  hwaits := Pipeline.hwaits_of_owed_zero _ _ _ _ noLevels noLevel 2 fun _ _ => rfl
  pre c := iprop(StableHlo.held (c : Thread nD τ) (Pipeline.ucRefs τ sig) (at5 m c) ∗ riding c)
  post c := iprop(StableHlo.held (c : Thread nD τ) (Pipeline.ucRefs τ sig) (at6 m c) ∗ riding c)
  X c := iprop(∃ r, prngReg c r)
  Y c := iprop(∃ r, prngReg c r)
  Z c := Pipeline.unscopedRest (Ix := Unit) (Name := ℕ) (U := UR sig nD τ) (Lvl := ℕ) spec2 c (fun b : Ref sig .tc => at5 m c b)
  hentry c := by
    rw [Pipeline.ownSems0_none]
    have hsplit := Pipeline.arrays_of_unscopedBufs (p := 2) (pcfgs (F := F)) adm (family m) launch2.win launch2.arr_whole c
      ((family m 2 c).share_full fun _ => rfl) (fun b : Ref sig .tc => at5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 2 c).Φ 0 = Pipeline.ΦA spec2 c from rfl]; unfold Pipeline.ΦA
    iintro ⟨Hp, -, Hr⟩
    isplitl [Hr]; · iexact Hr
    iexact Hp
  hout c := by
    rw [Pipeline.ownSems0_none, show (family m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (family m) ((family m 2 c).share_full fun _ => rfl)
      (fun b : Ref sig .tc => at5 m c b) (fun b : Ref sig .tc => at6 m c b) ((family m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 3 -/

set_option maxHeartbeats 4000000 in
/-- After call 3 each of its arrays holds what the write-backs leave: an array it writes by the boundary's definition,
    an array it only reads because no write-back touches it. -/
theorem exit_arrays3 (c : Dev nD) : ∀ w : Fin cfg3.W,
    (data3 m c).arrAt w cfg3.N = (fun b : Ref sig .tc => at8 m c b) (Pipeline.arrRef spec3 w)
  | ⟨0, _⟩ => by
    show (data3 m c).arrAt 0 cfg3.N = at8 m c (Proc.devRef .tc (Pipeline.arrRef spec3 0))
    rw [(data3 m c).arrAt_in 0 rfl _, show (data3 m c).A 0 = at7 m c (Proc.devRef .tc (Pipeline.arrRef spec3 0)) from productData3_A _ c 0]
    unfold at8
    rw [Function.update_of_ne (StableHlo.devRef_ne_of_ne (show (Pipeline.arrRef spec3 0 : Ref sig .tc) ≠ main_v38 from by decide))]
  | ⟨1, _⟩ => by
    show (data3 m c).arrAt 1 cfg3.N = at8 m c (Proc.devRef .tc (Pipeline.arrRef spec3 1))
    rw [(data3 m c).arrAt_in 1 rfl _, show (data3 m c).A 1 = at7 m c (Proc.devRef .tc (Pipeline.arrRef spec3 1)) from productData3_A _ c 1]
    unfold at8
    rw [Function.update_of_ne (StableHlo.devRef_ne_of_ne (show (Pipeline.arrRef spec3 1 : Ref sig .tc) ≠ main_v38 from by decide))]
  | ⟨2, _⟩ => by
    show (data3 m c).arrAt 2 cfg3.N = at8 m c (Proc.devRef .tc main_v38)
    unfold at8
    rw [Function.update_self]

set_option maxHeartbeats 4000000 in
/-- Every buffer that is none of its arrays is as the call found it. -/
theorem exit_rest3 (c : Dev nD) : ∀ b : Ref sig .tc, b ∉ Finset.univ.image (Pipeline.arrRef spec3) →
    (fun b : Ref sig .tc => at8 m c b) b = (fun b : Ref sig .tc => at7 m c b) b := fun b hb => by
  show at8 m c (Proc.devRef .tc b) = at7 m c (Proc.devRef .tc b)
  unfold at8
  rw [Function.update_of_ne (StableHlo.devRef_ne_of_ne (fun e => hb (Finset.mem_image.mpr ⟨2, Finset.mem_univ _, by rw [e]⟩)))]

set_option backward.isDefEq.respectTransparency.types false in
/-- Call 3 as a segment of the program: entered with every unscoped buffer at the boundary before it, left with them at
    the boundary after it; its arrays are taken out of the unscoped buffers on entry and put back on exit; the generator
    register goes into the call's invariant and comes back; the core owes nothing and the kernel has no semaphore of its
    own. -/
def record3 : Pipeline.RegionSeg (pcfgs (F := F)) adm (family m) () defs₀ Variants.none noLevels noLevel 3 where
  win := launch3.win.to₀
  block_pos := launch3.block_pos
  stage_whole := launch3.stage_whole
  K := PEmpty
  osem k := k.elim
  ho := Pipeline.OwnSemFacts.none _
  hbody c := (body_obligation3 (fun c b => at7 m c b) c).loose
  hwaits := Pipeline.hwaits_of_owed_zero _ _ _ _ noLevels noLevel 3 fun _ _ => rfl
  pre c := iprop(StableHlo.held (c : Thread nD τ) (Pipeline.ucRefs τ sig) (at7 m c) ∗ riding c)
  post c := iprop(StableHlo.held (c : Thread nD τ) (Pipeline.ucRefs τ sig) (at8 m c) ∗ riding c)
  X c := iprop(∃ r, prngReg c r)
  Y c := iprop(∃ r, prngReg c r)
  Z c := Pipeline.unscopedRest (Ix := Unit) (Name := ℕ) (U := UR sig nD τ) (Lvl := ℕ) spec3 c (fun b : Ref sig .tc => at7 m c b)
  hentry c := by
    rw [Pipeline.ownSems0_none]
    have hsplit := Pipeline.arrays_of_unscopedBufs (p := 3) (pcfgs (F := F)) adm (family m) launch3.win launch3.arr_whole c
      ((family m 3 c).share_full fun _ => rfl) (fun b : Ref sig .tc => at7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 3 c).Φ 0 = Pipeline.ΦA spec3 c from rfl]; unfold Pipeline.ΦA
    iintro ⟨Hp, -, Hr⟩
    isplitl [Hr]; · iexact Hr
    iexact Hp
  hout c := by
    rw [Pipeline.ownSems0_none, show (family m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (family m) ((family m 3 c).share_full fun _ => rfl)
      (fun b : Ref sig .tc => at7 m c b) (fun b : Ref sig .tc => at8 m c b) ((family m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 4 -/

set_option maxHeartbeats 4000000 in
/-- After call 4 each of its arrays holds what the write-backs leave: an array it writes by the boundary's definition,
    an array it only reads because no write-back touches it. -/
theorem exit_arrays4 (c : Dev nD) : ∀ w : Fin cfg4.W,
    (data4 m c).arrAt w cfg4.N = (fun b : Ref sig .tc => at10 m c b) (Pipeline.arrRef spec4 w)
  | ⟨0, _⟩ => by
    show (data4 m c).arrAt 0 cfg4.N = at10 m c (Proc.devRef .tc (Pipeline.arrRef spec4 0))
    rw [(data4 m c).arrAt_in 0 rfl _, show (data4 m c).A 0 = at9 m c (Proc.devRef .tc (Pipeline.arrRef spec4 0)) from statsData4_A _ c 0]
    unfold at10
    rw [Function.update_of_ne (StableHlo.devRef_ne_of_ne (show (Pipeline.arrRef spec4 0 : Ref sig .tc) ≠ main_v58_2 from by decide)), Function.update_of_ne (StableHlo.devRef_ne_of_ne (show (Pipeline.arrRef spec4 0 : Ref sig .tc) ≠ main_v58_1 from by decide)), Function.update_of_ne (StableHlo.devRef_ne_of_ne (show (Pipeline.arrRef spec4 0 : Ref sig .tc) ≠ main_v58_0 from by decide))]
  | ⟨1, _⟩ => by
    show (data4 m c).arrAt 1 cfg4.N = at10 m c (Proc.devRef .tc (Pipeline.arrRef spec4 1))
    rw [(data4 m c).arrAt_in 1 rfl _, show (data4 m c).A 1 = at9 m c (Proc.devRef .tc (Pipeline.arrRef spec4 1)) from statsData4_A _ c 1]
    unfold at10
    rw [Function.update_of_ne (StableHlo.devRef_ne_of_ne (show (Pipeline.arrRef spec4 1 : Ref sig .tc) ≠ main_v58_2 from by decide)), Function.update_of_ne (StableHlo.devRef_ne_of_ne (show (Pipeline.arrRef spec4 1 : Ref sig .tc) ≠ main_v58_1 from by decide)), Function.update_of_ne (StableHlo.devRef_ne_of_ne (show (Pipeline.arrRef spec4 1 : Ref sig .tc) ≠ main_v58_0 from by decide))]
  | ⟨2, _⟩ => by
    show (data4 m c).arrAt 2 cfg4.N = at10 m c (Proc.devRef .tc (Pipeline.arrRef spec4 2))
    rw [(data4 m c).arrAt_in 2 rfl _, show (data4 m c).A 2 = at9 m c (Proc.devRef .tc (Pipeline.arrRef spec4 2)) from statsData4_A _ c 2]
    unfold at10
    rw [Function.update_of_ne (StableHlo.devRef_ne_of_ne (show (Pipeline.arrRef spec4 2 : Ref sig .tc) ≠ main_v58_2 from by decide)), Function.update_of_ne (StableHlo.devRef_ne_of_ne (show (Pipeline.arrRef spec4 2 : Ref sig .tc) ≠ main_v58_1 from by decide)), Function.update_of_ne (StableHlo.devRef_ne_of_ne (show (Pipeline.arrRef spec4 2 : Ref sig .tc) ≠ main_v58_0 from by decide))]
  | ⟨3, _⟩ => by
    show (data4 m c).arrAt 3 cfg4.N = at10 m c (Proc.devRef .tc (Pipeline.arrRef spec4 3))
    rw [(data4 m c).arrAt_in 3 rfl _, show (data4 m c).A 3 = at9 m c (Proc.devRef .tc (Pipeline.arrRef spec4 3)) from statsData4_A _ c 3]
    unfold at10
    rw [Function.update_of_ne (StableHlo.devRef_ne_of_ne (show (Pipeline.arrRef spec4 3 : Ref sig .tc) ≠ main_v58_2 from by decide)), Function.update_of_ne (StableHlo.devRef_ne_of_ne (show (Pipeline.arrRef spec4 3 : Ref sig .tc) ≠ main_v58_1 from by decide)), Function.update_of_ne (StableHlo.devRef_ne_of_ne (show (Pipeline.arrRef spec4 3 : Ref sig .tc) ≠ main_v58_0 from by decide))]
  | ⟨4, _⟩ => by
    show (data4 m c).arrAt 4 cfg4.N = at10 m c (Proc.devRef .tc main_v58_0)
    unfold at10
    rw [Function.update_of_ne (StableHlo.devRef_ne_of_ne (show (main_v58_0 : Ref sig .tc) ≠ main_v58_2 from by decide)), Function.update_of_ne (StableHlo.devRef_ne_of_ne (show (main_v58_0 : Ref sig .tc) ≠ main_v58_1 from by decide)), Function.update_self]
  | ⟨5, _⟩ => by
    show (data4 m c).arrAt 5 cfg4.N = at10 m c (Proc.devRef .tc main_v58_1)
    unfold at10
    rw [Function.update_of_ne (StableHlo.devRef_ne_of_ne (show (main_v58_1 : Ref sig .tc) ≠ main_v58_2 from by decide)), Function.update_self]
  | ⟨6, _⟩ => by
    show (data4 m c).arrAt 6 cfg4.N = at10 m c (Proc.devRef .tc main_v58_2)
    unfold at10
    rw [Function.update_self]

set_option maxHeartbeats 4000000 in
/-- Every buffer that is none of its arrays is as the call found it. -/
theorem exit_rest4 (c : Dev nD) : ∀ b : Ref sig .tc, b ∉ Finset.univ.image (Pipeline.arrRef spec4) →
    (fun b : Ref sig .tc => at10 m c b) b = (fun b : Ref sig .tc => at9 m c b) b := fun b hb => by
  show at10 m c (Proc.devRef .tc b) = at9 m c (Proc.devRef .tc b)
  unfold at10
  rw [Function.update_of_ne (StableHlo.devRef_ne_of_ne (fun e => hb (Finset.mem_image.mpr ⟨6, Finset.mem_univ _, by rw [e]⟩))), Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩)))]

set_option backward.isDefEq.respectTransparency.types false in
/-- Call 4 as a segment of the program: entered with every unscoped buffer at the boundary before it, left with them at
    the boundary after it; its arrays are taken out of the unscoped buffers on entry and put back on exit; the generator
    register goes into the call's invariant and comes back; the core owes nothing and the kernel has no semaphore of its
    own. -/
def record4 : Pipeline.RegionSeg (pcfgs (F := F)) adm (family m) () defs₀ Variants.none noLevels noLevel 4 where
  win := launch4.win.to₀
  block_pos := launch4.block_pos
  stage_whole := launch4.stage_whole
  K := PEmpty
  osem k := k.elim
  ho := Pipeline.OwnSemFacts.none _
  hbody c := (body_obligation4 (fun c b => at9 m c b) c).loose
  hwaits := Pipeline.hwaits_of_owed_zero _ _ _ _ noLevels noLevel 4 fun _ _ => rfl
  pre c := iprop(StableHlo.held (c : Thread nD τ) (Pipeline.ucRefs τ sig) (at9 m c) ∗ riding c)
  post c := iprop(StableHlo.held (c : Thread nD τ) (Pipeline.ucRefs τ sig) (at10 m c) ∗ riding c)
  X c := iprop(∃ r, prngReg c r)
  Y c := iprop(∃ r, prngReg c r)
  Z c := Pipeline.unscopedRest (Ix := Unit) (Name := ℕ) (U := UR sig nD τ) (Lvl := ℕ) spec4 c (fun b : Ref sig .tc => at9 m c b)
  hentry c := by
    rw [Pipeline.ownSems0_none]
    have hsplit := Pipeline.arrays_of_unscopedBufs (p := 4) (pcfgs (F := F)) adm (family m) launch4.win launch4.arr_whole c
      ((family m 4 c).share_full fun _ => rfl) (fun b : Ref sig .tc => at9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData4 (F := F) (fun c b => at9 m c b) c).Φ 0
    iintro ⟨Hp, -, Hr⟩
    iapply (invariant_in4 (fun c b => at9 m c b) c)
    unfold Pipeline.ΦA
    isplitl [Hr]; · iexact Hr
    iexact Hp
  hout c := by
    rw [Pipeline.ownSems0_none]
    show (statsData4 (F := F) (fun c b => at9 m c b) c).Φ (Fin.last cfg4.N) ⊢ _
    iintro H
    ihave H' := (invariant_out4 (fun c b => at9 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (family m) ((family m 4 c).share_full fun _ => rfl)
      (fun b : Ref sig .tc => at9 m c b) (fun b : Ref sig .tc => at10 m c b) ((family m 4 c).arrAt · cfg4.N) (exit_arrays4 m c) (exit_rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 5 -/

set_option maxHeartbeats 4000000 in
/-- After call 5 each of its arrays holds what the write-backs leave: an array it writes by the boundary's definition,
    an array it only reads because no write-back touches it. -/
theorem exit_arrays5 (c : Dev nD) : ∀ w : Fin cfg5.W,
    (data5 m c).arrAt w cfg5.N = (fun b : Ref sig .tc => at12 m c b) (Pipeline.arrRef spec5 w)
  | ⟨0, _⟩ => by
    show (data5 m c).arrAt 0 cfg5.N = at12 m c (Proc.devRef .tc (Pipeline.arrRef spec5 0))
    rw [(data5 m c).arrAt_in 0 rfl _, show (data5 m c).A 0 = at11 m c (Proc.devRef .tc (Pipeline.arrRef spec5 0)) from normData5_A _ c 0]
    unfold at12
    rw [Function.update_of_ne (StableHlo.devRef_ne_of_ne (show (Pipeline.arrRef spec5 0 : Ref sig .tc) ≠ main_v71 from by decide))]
  | ⟨1, _⟩ => by
    show (data5 m c).arrAt 1 cfg5.N = at12 m c (Proc.devRef .tc (Pipeline.arrRef spec5 1))
    rw [(data5 m c).arrAt_in 1 rfl _, show (data5 m c).A 1 = at11 m c (Proc.devRef .tc (Pipeline.arrRef spec5 1)) from normData5_A _ c 1]
    unfold at12
    rw [Function.update_of_ne (StableHlo.devRef_ne_of_ne (show (Pipeline.arrRef spec5 1 : Ref sig .tc) ≠ main_v71 from by decide))]
  | ⟨2, _⟩ => by
    show (data5 m c).arrAt 2 cfg5.N = at12 m c (Proc.devRef .tc (Pipeline.arrRef spec5 2))
    rw [(data5 m c).arrAt_in 2 rfl _, show (data5 m c).A 2 = at11 m c (Proc.devRef .tc (Pipeline.arrRef spec5 2)) from normData5_A _ c 2]
    unfold at12
    rw [Function.update_of_ne (StableHlo.devRef_ne_of_ne (show (Pipeline.arrRef spec5 2 : Ref sig .tc) ≠ main_v71 from by decide))]
  | ⟨3, _⟩ => by
    show (data5 m c).arrAt 3 cfg5.N = at12 m c (Proc.devRef .tc (Pipeline.arrRef spec5 3))
    rw [(data5 m c).arrAt_in 3 rfl _, show (data5 m c).A 3 = at11 m c (Proc.devRef .tc (Pipeline.arrRef spec5 3)) from normData5_A _ c 3]
    unfold at12
    rw [Function.update_of_ne (StableHlo.devRef_ne_of_ne (show (Pipeline.arrRef spec5 3 : Ref sig .tc) ≠ main_v71 from by decide))]
  | ⟨4, _⟩ => by
    show (data5 m c).arrAt 4 cfg5.N = at12 m c (Proc.devRef .tc (Pipeline.arrRef spec5 4))
    rw [(data5 m c).arrAt_in 4 rfl _, show (data5 m c).A 4 = at11 m c (Proc.devRef .tc (Pipeline.arrRef spec5 4)) from normData5_A _ c 4]
    unfold at12
    rw [Function.update_of_ne (StableHlo.devRef_ne_of_ne (show (Pipeline.arrRef spec5 4 : Ref sig .tc) ≠ main_v71 from by decide))]
  | ⟨5, _⟩ => by
    show (data5 m c).arrAt 5 cfg5.N = at12 m c (Proc.devRef .tc main_v71)
    unfold at12
    rw [Function.update_self]

set_option maxHeartbeats 4000000 in
/-- Every buffer that is none of its arrays is as the call found it. -/
theorem exit_rest5 (c : Dev nD) : ∀ b : Ref sig .tc, b ∉ Finset.univ.image (Pipeline.arrRef spec5) →
    (fun b : Ref sig .tc => at12 m c b) b = (fun b : Ref sig .tc => at11 m c b) b := fun b hb => by
  show at12 m c (Proc.devRef .tc b) = at11 m c (Proc.devRef .tc b)
  unfold at12
  rw [Function.update_of_ne (StableHlo.devRef_ne_of_ne (fun e => hb (Finset.mem_image.mpr ⟨5, Finset.mem_univ _, by rw [e]⟩)))]

set_option backward.isDefEq.respectTransparency.types false in
/-- Call 5 as a segment of the program: entered with every unscoped buffer at the boundary before it, left with them at
    the boundary after it; its arrays are taken out of the unscoped buffers on entry and put back on exit; the generator
    register goes into the call's invariant and comes back; the core owes nothing and the kernel has no semaphore of its
    own. -/
def record5 : Pipeline.RegionSeg (pcfgs (F := F)) adm (family m) () defs₀ Variants.none noLevels noLevel 5 where
  win := launch5.win.to₀
  block_pos := launch5.block_pos
  stage_whole := launch5.stage_whole
  K := PEmpty
  osem k := k.elim
  ho := Pipeline.OwnSemFacts.none _
  hbody c := (body_obligation5 (fun c b => at11 m c b) c).loose
  hwaits := Pipeline.hwaits_of_owed_zero _ _ _ _ noLevels noLevel 5 fun _ _ => rfl
  pre c := iprop(StableHlo.held (c : Thread nD τ) (Pipeline.ucRefs τ sig) (at11 m c) ∗ riding c)
  post c := iprop(StableHlo.held (c : Thread nD τ) (Pipeline.ucRefs τ sig) (at12 m c) ∗ riding c)
  X c := iprop(∃ r, prngReg c r)
  Y c := iprop(∃ r, prngReg c r)
  Z c := Pipeline.unscopedRest (Ix := Unit) (Name := ℕ) (U := UR sig nD τ) (Lvl := ℕ) spec5 c (fun b : Ref sig .tc => at11 m c b)
  hentry c := by
    rw [Pipeline.ownSems0_none]
    have hsplit := Pipeline.arrays_of_unscopedBufs (p := 5) (pcfgs (F := F)) adm (family m) launch5.win launch5.arr_whole c
      ((family m 5 c).share_full fun _ => rfl) (fun b : Ref sig .tc => at11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 5 c).Φ 0 = Pipeline.ΦA spec5 c from rfl]; unfold Pipeline.ΦA
    iintro ⟨Hp, -, Hr⟩
    isplitl [Hr]; · iexact Hr
    iexact Hp
  hout c := by
    rw [Pipeline.ownSems0_none, show (family m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (family m) ((family m 5 c).share_full fun _ => rfl)
      (fun b : Ref sig .tc => at11 m c b) (fun b : Ref sig .tc => at12 m c b) ((family m 5 c).arrAt · cfg5.N) (exit_arrays5 m c) (exit_rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 6 -/

set_option maxHeartbeats 4000000 in
/-- After call 6 each of its arrays holds what the write-backs leave: an array it writes by the boundary's definition,
    an array it only reads because no write-back touches it. -/
theorem exit_arrays6 (c : Dev nD) : ∀ w : Fin cfg6.W,
    (data6 m c).arrAt w cfg6.N = (fun b : Ref sig .tc => at14 m c b) (Pipeline.arrRef spec6 w)
  | ⟨0, _⟩ => by
    show (data6 m c).arrAt 0 cfg6.N = at14 m c (Proc.devRef .tc (Pipeline.arrRef spec6 0))
    rw [(data6 m c).arrAt_in 0 rfl _, show (data6 m c).A 0 = at13 m c (Proc.devRef .tc (Pipeline.arrRef spec6 0)) from productData6_A _ c 0]
    unfold at14
    rw [Function.update_of_ne (StableHlo.devRef_ne_of_ne (show (Pipeline.arrRef spec6 0 : Ref sig .tc) ≠ main_v74 from by decide))]
  | ⟨1, _⟩ => by
    show (data6 m c).arrAt 1 cfg6.N = at14 m c (Proc.devRef .tc (Pipeline.arrRef spec6 1))
    rw [(data6 m c).arrAt_in 1 rfl _, show (data6 m c).A 1 = at13 m c (Proc.devRef .tc (Pipeline.arrRef spec6 1)) from productData6_A _ c 1]
    unfold at14
    rw [Function.update_of_ne (StableHlo.devRef_ne_of_ne (show (Pipeline.arrRef spec6 1 : Ref sig .tc) ≠ main_v74 from by decide))]
  | ⟨2, _⟩ => by
    show (data6 m c).arrAt 2 cfg6.N = at14 m c (Proc.devRef .tc main_v74)
    unfold at14
    rw [Function.update_self]

set_option maxHeartbeats 4000000 in
/-- Every buffer that is none of its arrays is as the call found it. -/
theorem exit_rest6 (c : Dev nD) : ∀ b : Ref sig .tc, b ∉ Finset.univ.image (Pipeline.arrRef spec6) →
    (fun b : Ref sig .tc => at14 m c b) b = (fun b : Ref sig .tc => at13 m c b) b := fun b hb => by
  show at14 m c (Proc.devRef .tc b) = at13 m c (Proc.devRef .tc b)
  unfold at14
  rw [Function.update_of_ne (StableHlo.devRef_ne_of_ne (fun e => hb (Finset.mem_image.mpr ⟨2, Finset.mem_univ _, by rw [e]⟩)))]

set_option backward.isDefEq.respectTransparency.types false in
/-- Call 6 as a segment of the program: entered with every unscoped buffer at the boundary before it, left with them at
    the boundary after it; its arrays are taken out of the unscoped buffers on entry and put back on exit; the generator
    register goes into the call's invariant and comes back; the core owes nothing and the kernel has no semaphore of its
    own. -/
def record6 : Pipeline.RegionSeg (pcfgs (F := F)) adm (family m) () defs₀ Variants.none noLevels noLevel 6 where
  win := launch6.win.to₀
  block_pos := launch6.block_pos
  stage_whole := launch6.stage_whole
  K := PEmpty
  osem k := k.elim
  ho := Pipeline.OwnSemFacts.none _
  hbody c := (body_obligation6 (fun c b => at13 m c b) c).loose
  hwaits := Pipeline.hwaits_of_owed_zero _ _ _ _ noLevels noLevel 6 fun _ _ => rfl
  pre c := iprop(StableHlo.held (c : Thread nD τ) (Pipeline.ucRefs τ sig) (at13 m c) ∗ riding c)
  post c := iprop(StableHlo.held (c : Thread nD τ) (Pipeline.ucRefs τ sig) (at14 m c) ∗ riding c)
  X c := iprop(∃ r, prngReg c r)
  Y c := iprop(∃ r, prngReg c r)
  Z c := Pipeline.unscopedRest (Ix := Unit) (Name := ℕ) (U := UR sig nD τ) (Lvl := ℕ) spec6 c (fun b : Ref sig .tc => at13 m c b)
  hentry c := by
    rw [Pipeline.ownSems0_none]
    have hsplit := Pipeline.arrays_of_unscopedBufs (p := 6) (pcfgs (F := F)) adm (family m) launch6.win launch6.arr_whole c
      ((family m 6 c).share_full fun _ => rfl) (fun b : Ref sig .tc => at13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 6 c).Φ 0 = Pipeline.ΦA spec6 c from rfl]; unfold Pipeline.ΦA
    iintro ⟨Hp, -, Hr⟩
    isplitl [Hr]; · iexact Hr
    iexact Hp
  hout c := by
    rw [Pipeline.ownSems0_none, show (family m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (family m) ((family m 6 c).share_full fun _ => rfl)
      (fun b : Ref sig .tc => at13 m c b) (fun b : Ref sig .tc => at14 m c b) ((family m 6 c).arrAt · cfg6.N) (exit_arrays6 m c) (exit_rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 7 -/

set_option maxHeartbeats 4000000 in
/-- After call 7 each of its arrays holds what the write-backs leave: an array it writes by the boundary's definition,
    an array it only reads because no write-back touches it. -/
theorem exit_arrays7 (c : Dev nD) : ∀ w : Fin cfg7.W,
    (data7 m c).arrAt w cfg7.N = (fun b : Ref sig .tc => at16 m c b) (Pipeline.arrRef spec7 w)
  | ⟨0, _⟩ => by
    show (data7 m c).arrAt 0 cfg7.N = at16 m c (Proc.devRef .tc (Pipeline.arrRef spec7 0))
    rw [(data7 m c).arrAt_in 0 rfl _, show (data7 m c).A 0 = at15 m c (Proc.devRef .tc (Pipeline.arrRef spec7 0)) from statsData7_A _ c 0]
    unfold at16
    rw [Function.update_of_ne (StableHlo.devRef_ne_of_ne (show (Pipeline.arrRef spec7 0 : Ref sig .tc) ≠ main_v94_2 from by decide)), Function.update_of_ne (StableHlo.devRef_ne_of_ne (show (Pipeline.arrRef spec7 0 : Ref sig .tc) ≠ main_v94_1 from by decide)), Function.update_of_ne (StableHlo.devRef_ne_of_ne (show (Pipeline.arrRef spec7 0 : Ref sig .tc) ≠ main_v94_0 from by decide))]
  | ⟨1, _⟩ => by
    show (data7 m c).arrAt 1 cfg7.N = at16 m c (Proc.devRef .tc (Pipeline.arrRef spec7 1))
    rw [(data7 m c).arrAt_in 1 rfl _, show (data7 m c).A 1 = at15 m c (Proc.devRef .tc (Pipeline.arrRef spec7 1)) from statsData7_A _ c 1]
    unfold at16
    rw [Function.update_of_ne (StableHlo.devRef_ne_of_ne (show (Pipeline.arrRef spec7 1 : Ref sig .tc) ≠ main_v94_2 from by decide)), Function.update_of_ne (StableHlo.devRef_ne_of_ne (show (Pipeline.arrRef spec7 1 : Ref sig .tc) ≠ main_v94_1 from by decide)), Function.update_of_ne (StableHlo.devRef_ne_of_ne (show (Pipeline.arrRef spec7 1 : Ref sig .tc) ≠ main_v94_0 from by decide))]
  | ⟨2, _⟩ => by
    show (data7 m c).arrAt 2 cfg7.N = at16 m c (Proc.devRef .tc (Pipeline.arrRef spec7 2))
    rw [(data7 m c).arrAt_in 2 rfl _, show (data7 m c).A 2 = at15 m c (Proc.devRef .tc (Pipeline.arrRef spec7 2)) from statsData7_A _ c 2]
    unfold at16
    rw [Function.update_of_ne (StableHlo.devRef_ne_of_ne (show (Pipeline.arrRef spec7 2 : Ref sig .tc) ≠ main_v94_2 from by decide)), Function.update_of_ne (StableHlo.devRef_ne_of_ne (show (Pipeline.arrRef spec7 2 : Ref sig .tc) ≠ main_v94_1 from by decide)), Function.update_of_ne (StableHlo.devRef_ne_of_ne (show (Pipeline.arrRef spec7 2 : Ref sig .tc) ≠ main_v94_0 from by decide))]
  | ⟨3, _⟩ => by
    show (data7 m c).arrAt 3 cfg7.N = at16 m c (Proc.devRef .tc (Pipeline.arrRef spec7 3))
    rw [(data7 m c).arrAt_in 3 rfl _, show (data7 m c).A 3 = at15 m c (Proc.devRef .tc (Pipeline.arrRef spec7 3)) from statsData7_A _ c 3]
    unfold at16
    rw [Function.update_of_ne (StableHlo.devRef_ne_of_ne (show (Pipeline.arrRef spec7 3 : Ref sig .tc) ≠ main_v94_2 from by decide)), Function.update_of_ne (StableHlo.devRef_ne_of_ne (show (Pipeline.arrRef spec7 3 : Ref sig .tc) ≠ main_v94_1 from by decide)), Function.update_of_ne (StableHlo.devRef_ne_of_ne (show (Pipeline.arrRef spec7 3 : Ref sig .tc) ≠ main_v94_0 from by decide))]
  | ⟨4, _⟩ => by
    show (data7 m c).arrAt 4 cfg7.N = at16 m c (Proc.devRef .tc main_v94_0)
    unfold at16
    rw [Function.update_of_ne (StableHlo.devRef_ne_of_ne (show (main_v94_0 : Ref sig .tc) ≠ main_v94_2 from by decide)), Function.update_of_ne (StableHlo.devRef_ne_of_ne (show (main_v94_0 : Ref sig .tc) ≠ main_v94_1 from by decide)), Function.update_self]
  | ⟨5, _⟩ => by
    show (data7 m c).arrAt 5 cfg7.N = at16 m c (Proc.devRef .tc main_v94_1)
    unfold at16
    rw [Function.update_of_ne (StableHlo.devRef_ne_of_ne (show (main_v94_1 : Ref sig .tc) ≠ main_v94_2 from by decide)), Function.update_self]
  | ⟨6, _⟩ => by
    show (data7 m c).arrAt 6 cfg7.N = at16 m c (Proc.devRef .tc main_v94_2)
    unfold at16
    rw [Function.update_self]

set_option maxHeartbeats 4000000 in
/-- Every buffer that is none of its arrays is as the call found it. -/
theorem exit_rest7 (c : Dev nD) : ∀ b : Ref sig .tc, b ∉ Finset.univ.image (Pipeline.arrRef spec7) →
    (fun b : Ref sig .tc => at16 m c b) b = (fun b : Ref sig .tc => at15 m c b) b := fun b hb => by
  show at16 m c (Proc.devRef .tc b) = at15 m c (Proc.devRef .tc b)
  unfold at16
  rw [Function.update_of_ne (StableHlo.devRef_ne_of_ne (fun e => hb (Finset.mem_image.mpr ⟨6, Finset.mem_univ _, by rw [e]⟩))), Function.update_of_ne (StableHlo.devRef_ne_of_ne (fun e => hb (Finset.mem_image.mpr ⟨5, Finset.mem_univ _, by rw [e]⟩))), Function.update_of_ne (StableHlo.devRef_ne_of_ne (fun e => hb (Finset.mem_image.mpr ⟨4, Finset.mem_univ _, by rw [e]⟩)))]

set_option backward.isDefEq.respectTransparency.types false in
/-- Call 7 as a segment of the program: entered with every unscoped buffer at the boundary before it, left with them at
    the boundary after it; its arrays are taken out of the unscoped buffers on entry and put back on exit; the generator
    register goes into the call's invariant and comes back; the core owes nothing and the kernel has no semaphore of its
    own. -/
def record7 : Pipeline.RegionSeg (pcfgs (F := F)) adm (family m) () defs₀ Variants.none noLevels noLevel 7 where
  win := launch7.win.to₀
  block_pos := launch7.block_pos
  stage_whole := launch7.stage_whole
  K := PEmpty
  osem k := k.elim
  ho := Pipeline.OwnSemFacts.none _
  hbody c := (body_obligation7 (fun c b => at15 m c b) c).loose
  hwaits := Pipeline.hwaits_of_owed_zero _ _ _ _ noLevels noLevel 7 fun _ _ => rfl
  pre c := iprop(StableHlo.held (c : Thread nD τ) (Pipeline.ucRefs τ sig) (at15 m c) ∗ riding c)
  post c := iprop(StableHlo.held (c : Thread nD τ) (Pipeline.ucRefs τ sig) (at16 m c) ∗ riding c)
  X c := iprop(∃ r, prngReg c r)
  Y c := iprop(∃ r, prngReg c r)
  Z c := Pipeline.unscopedRest (Ix := Unit) (Name := ℕ) (U := UR sig nD τ) (Lvl := ℕ) spec7 c (fun b : Ref sig .tc => at15 m c b)
  hentry c := by
    rw [Pipeline.ownSems0_none]
    have hsplit := Pipeline.arrays_of_unscopedBufs (p := 7) (pcfgs (F := F)) adm (family m) launch7.win launch7.arr_whole c
      ((family m 7 c).share_full fun _ => rfl) (fun b : Ref sig .tc => at15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (statsData7 (F := F) (fun c b => at15 m c b) c).Φ 0
    iintro ⟨Hp, -, Hr⟩
    iapply (invariant_in7 (fun c b => at15 m c b) c)
    unfold Pipeline.ΦA
    isplitl [Hr]; · iexact Hr
    iexact Hp
  hout c := by
    rw [Pipeline.ownSems0_none]
    show (statsData7 (F := F) (fun c b => at15 m c b) c).Φ (Fin.last cfg7.N) ⊢ _
    iintro H
    ihave H' := (invariant_out7 (fun c b => at15 m c b) c) $$ H
    unfold Pipeline.ΦA
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (family m) ((family m 7 c).share_full fun _ => rfl)
      (fun b : Ref sig .tc => at15 m c b) (fun b : Ref sig .tc => at16 m c b) ((family m 7 c).arrAt · cfg7.N) (exit_arrays7 m c) (exit_rest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 8 -/

set_option maxHeartbeats 4000000 in
/-- After call 8 each of its arrays holds what the write-backs leave: an array it writes by the boundary's definition,
    an array it only reads because no write-back touches it. -/
theorem exit_arrays8 (c : Dev nD) : ∀ w : Fin cfg8.W,
    (data8 m c).arrAt w cfg8.N = (fun b : Ref sig .tc => at18 m c b) (Pipeline.arrRef spec8 w)
  | ⟨0, _⟩ => by
    show (data8 m c).arrAt 0 cfg8.N = at18 m c (Proc.devRef .tc (Pipeline.arrRef spec8 0))
    rw [(data8 m c).arrAt_in 0 rfl _, show (data8 m c).A 0 = at17 m c (Proc.devRef .tc (Pipeline.arrRef spec8 0)) from normData8_A _ c 0]
    unfold at18
    rw [Function.update_of_ne (StableHlo.devRef_ne_of_ne (show (Pipeline.arrRef spec8 0 : Ref sig .tc) ≠ main_v107 from by decide))]
  | ⟨1, _⟩ => by
    show (data8 m c).arrAt 1 cfg8.N = at18 m c (Proc.devRef .tc (Pipeline.arrRef spec8 1))
    rw [(data8 m c).arrAt_in 1 rfl _, show (data8 m c).A 1 = at17 m c (Proc.devRef .tc (Pipeline.arrRef spec8 1)) from normData8_A _ c 1]
    unfold at18
    rw [Function.update_of_ne (StableHlo.devRef_ne_of_ne (show (Pipeline.arrRef spec8 1 : Ref sig .tc) ≠ main_v107 from by decide))]
  | ⟨2, _⟩ => by
    show (data8 m c).arrAt 2 cfg8.N = at18 m c (Proc.devRef .tc (Pipeline.arrRef spec8 2))
    rw [(data8 m c).arrAt_in 2 rfl _, show (data8 m c).A 2 = at17 m c (Proc.devRef .tc (Pipeline.arrRef spec8 2)) from normData8_A _ c 2]
    unfold at18
    rw [Function.update_of_ne (StableHlo.devRef_ne_of_ne (show (Pipeline.arrRef spec8 2 : Ref sig .tc) ≠ main_v107 from by decide))]
  | ⟨3, _⟩ => by
    show (data8 m c).arrAt 3 cfg8.N = at18 m c (Proc.devRef .tc (Pipeline.arrRef spec8 3))
    rw [(data8 m c).arrAt_in 3 rfl _, show (data8 m c).A 3 = at17 m c (Proc.devRef .tc (Pipeline.arrRef spec8 3)) from normData8_A _ c 3]
    unfold at18
    rw [Function.update_of_ne (StableHlo.devRef_ne_of_ne (show (Pipeline.arrRef spec8 3 : Ref sig .tc) ≠ main_v107 from by decide))]
  | ⟨4, _⟩ => by
    show (data8 m c).arrAt 4 cfg8.N = at18 m c (Proc.devRef .tc (Pipeline.arrRef spec8 4))
    rw [(data8 m c).arrAt_in 4 rfl _, show (data8 m c).A 4 = at17 m c (Proc.devRef .tc (Pipeline.arrRef spec8 4)) from normData8_A _ c 4]
    unfold at18
    rw [Function.update_of_ne (StableHlo.devRef_ne_of_ne (show (Pipeline.arrRef spec8 4 : Ref sig .tc) ≠ main_v107 from by decide))]
  | ⟨5, _⟩ => by
    show (data8 m c).arrAt 5 cfg8.N = at18 m c (Proc.devRef .tc main_v107)
    unfold at18
    rw [Function.update_self]

set_option maxHeartbeats 4000000 in
/-- Every buffer that is none of its arrays is as the call found it. -/
theorem exit_rest8 (c : Dev nD) : ∀ b : Ref sig .tc, b ∉ Finset.univ.image (Pipeline.arrRef spec8) →
    (fun b : Ref sig .tc => at18 m c b) b = (fun b : Ref sig .tc => at17 m c b) b := fun b hb => by
  show at18 m c (Proc.devRef .tc b) = at17 m c (Proc.devRef .tc b)
  unfold at18
  rw [Function.update_of_ne (StableHlo.devRef_ne_of_ne (fun e => hb (Finset.mem_image.mpr ⟨5, Finset.mem_univ _, by rw [e]⟩)))]

set_option backward.isDefEq.respectTransparency.types false in
/-- Call 8 as a segment of the program: entered with every unscoped buffer at the boundary before it, left with them at
    the boundary after it; its arrays are taken out of the unscoped buffers on entry and put back on exit; the generator
    register goes into the call's invariant and comes back; the core owes nothing and the kernel has no semaphore of its
    own. -/
def record8 : Pipeline.RegionSeg (pcfgs (F := F)) adm (family m) () defs₀ Variants.none noLevels noLevel 8 where
  win := launch8.win.to₀
  block_pos := launch8.block_pos
  stage_whole := launch8.stage_whole
  K := PEmpty
  osem k := k.elim
  ho := Pipeline.OwnSemFacts.none _
  hbody c := (body_obligation8 (fun c b => at17 m c b) c).loose
  hwaits := Pipeline.hwaits_of_owed_zero _ _ _ _ noLevels noLevel 8 fun _ _ => rfl
  pre c := iprop(StableHlo.held (c : Thread nD τ) (Pipeline.ucRefs τ sig) (at17 m c) ∗ riding c)
  post c := iprop(StableHlo.held (c : Thread nD τ) (Pipeline.ucRefs τ sig) (at18 m c) ∗ riding c)
  X c := iprop(∃ r, prngReg c r)
  Y c := iprop(∃ r, prngReg c r)
  Z c := Pipeline.unscopedRest (Ix := Unit) (Name := ℕ) (U := UR sig nD τ) (Lvl := ℕ) spec8 c (fun b : Ref sig .tc => at17 m c b)
  hentry c := by
    rw [Pipeline.ownSems0_none]
    have hsplit := Pipeline.arrays_of_unscopedBufs (p := 8) (pcfgs (F := F)) adm (family m) launch8.win launch8.arr_whole c
      ((family m 8 c).share_full fun _ => rfl) (fun b : Ref sig .tc => at17 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 8 c).Φ 0 = Pipeline.ΦA spec8 c from rfl]; unfold Pipeline.ΦA
    iintro ⟨Hp, -, Hr⟩
    isplitl [Hr]; · iexact Hr
    iexact Hp
  hout c := by
    rw [Pipeline.ownSems0_none, show (family m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (family m) ((family m 8 c).share_full fun _ => rfl)
      (fun b : Ref sig .tc => at17 m c b) (fun b : Ref sig .tc => at18 m c b) ((family m 8 c).arrAt · cfg8.N) (exit_arrays8 m c) (exit_rest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program on the cores terminates, nothing
    faulting, and every final memory holds each of the nine argument arrays as launched. -/
theorem runs_and_keeps_arguments : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) m emb₁ () Variants.none noLevels noLevel (fun _ _ => rfl) ρ (boundaryOuts m) (family m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => riding c)
    (hE0 := by
      have each : ∀ c : Dev nD,
          (iprop(unscopedSems0 c ∗ owes (c : Thread nD τ) (0 : CellTallies nD τ sig Unit) ∅
            ∗ Pipeline.launchCred (fun _ : Dev nD => (0 : CellTallies nD τ sig Unit)) c ∗ prngReg c (ρ c) ∗ emp) : sProp 𝕄) ⊢ riding c := fun c => by
        iintro ⟨-, HO, -, Hp, -⟩
        isplitl [Hp]; · iexists _; iexact Hp
        iexists ∅; iexact HO
      iintro ⟨H, -⟩
      imodintro
      iapply (show (bigSep Finset.univ fun c : Dev nD =>
            (iprop(unscopedSems0 c ∗ owes (c : Thread nD τ) (0 : CellTallies nD τ sig Unit) ∅
              ∗ Pipeline.launchCred (fun _ : Dev nD => (0 : CellTallies nD τ sig Unit)) c ∗ prngReg c (ρ c) ∗ emp) : sProp 𝕄))
          ⊢ (bigSep Finset.univ fun c : Dev nD => riding (F := F) c) from bigSep_mono fun c _ => each c)
      iexact H)
    (hE9 := fun c => by iintro ⟨-, H⟩; iexact H)
    (R0 := record0 m)
    (hpre0 := fun c => by rw [at1_eq]; exact .rfl)
    (hpost0 := fun c => by rw [at2_eq]; exact .rfl)
    (R1 := record1 m)
    (hpre1 := fun c => by rw [at3_eq]; exact .rfl)
    (hpost1 := fun c => by rw [at4_eq]; exact .rfl)
    (R2 := record2 m)
    (hpre2 := fun c => by rw [at5_eq]; exact .rfl)
    (hpost2 := fun c => by rw [at6_eq]; exact .rfl)
    (R3 := record3 m)
    (hpre3 := fun c => by rw [at7_eq]; exact .rfl)
    (hpost3 := fun c => by rw [at8_eq]; exact .rfl)
    (R4 := record4 m)
    (hpre4 := fun c => by rw [at9_eq]; exact .rfl)
    (hpost4 := fun c => by rw [at10_eq]; exact .rfl)
    (R5 := record5 m)
    (hpre5 := fun c => by rw [at11_eq]; exact .rfl)
    (hpost5 := fun c => by rw [at12_eq]; exact .rfl)
    (R6 := record6 m)
    (hpre6 := fun c => by rw [at13_eq]; exact .rfl)
    (hpost6 := fun c => by rw [at14_eq]; exact .rfl)
    (R7 := record7 m)
    (hpre7 := fun c => by rw [at15_eq]; exact .rfl)
    (hpost7 := fun c => by rw [at16_eq]; exact .rfl)
    (R8 := record8 m)
    (hpre8 := fun c => by rw [at17_eq]; exact .rfl)
    (hpost8 := fun c => by rw [at18_eq]; exact .rfl)

end Cert.KernelIdeal.Hand

end
-- ==== Proof.KI.Result.lean ====
import proofs.«123467_j2559800508646_1_alg».proof.Proof.KI.Runs
import proofs.«123467_j2559800508646_1_alg».proof.Proof.KI.RegionsResult

/-!
# The kernel program's run, with its result

The same nine segments as for the frame, over the conditional frame whose post also names the result array: after the
run the result array holds the last boundary's contents at it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result array named -/

set_option backward.isDefEq.respectTransparency.types false in
/-- From any memory with zero counters every weakly fair execution of the program on the cores terminates, nothing
    faulting, and every final memory holds the result array at the last boundary's contents — what the last normalisation
    call's write-backs leave — and each of the nine argument arrays as launched. -/
theorem runs_with_result : θ_run defs (onTc (τ := τ) (main (F := F))) ⟨m, fun _ => 0, ρ⟩ (fun r => ∀ c : Dev nD,
      r.2.mem ((c.tc : Thread nD τ).loc main_v107) = at18 m c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (congrFun (at18_eq m c) _), (h c).2⟩) <|
  Cert.KernelIdeal.GenP.frame_cond_result (F := F) m emb₁ () Variants.none noLevels noLevel (fun _ _ => rfl) ρ (boundaryOuts m) (family m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => riding c)
    (hE0 := by
      have each : ∀ c : Dev nD,
          (iprop(unscopedSems0 c ∗ owes (c : Thread nD τ) (0 : CellTallies nD τ sig Unit) ∅
            ∗ Pipeline.launchCred (fun _ : Dev nD => (0 : CellTallies nD τ sig Unit)) c ∗ prngReg c (ρ c) ∗ emp) : sProp 𝕄) ⊢ riding c := fun c => by
        iintro ⟨-, HO, -, Hp, -⟩
        isplitl [Hp]; · iexists _; iexact Hp
        iexists ∅; iexact HO
      iintro ⟨H, -⟩
      imodintro
      iapply (show (bigSep Finset.univ fun c : Dev nD =>
            (iprop(unscopedSems0 c ∗ owes (c : Thread nD τ) (0 : CellTallies nD τ sig Unit) ∅
              ∗ Pipeline.launchCred (fun _ : Dev nD => (0 : CellTallies nD τ sig Unit)) c ∗ prngReg c (ρ c) ∗ emp) : sProp 𝕄))
          ⊢ (bigSep Finset.univ fun c : Dev nD => riding (F := F) c) from bigSep_mono fun c _ => each c)
      iexact H)
    (hE9 := fun c => by iintro ⟨-, H⟩; iexact H)
    (R0 := record0 m)
    (hpre0 := fun c => by rw [at1_eq]; exact .rfl)
    (hpost0 := fun c => by rw [at2_eq]; exact .rfl)
    (R1 := record1 m)
    (hpre1 := fun c => by rw [at3_eq]; exact .rfl)
    (hpost1 := fun c => by rw [at4_eq]; exact .rfl)
    (R2 := record2 m)
    (hpre2 := fun c => by rw [at5_eq]; exact .rfl)
    (hpost2 := fun c => by rw [at6_eq]; exact .rfl)
    (R3 := record3 m)
    (hpre3 := fun c => by rw [at7_eq]; exact .rfl)
    (hpost3 := fun c => by rw [at8_eq]; exact .rfl)
    (R4 := record4 m)
    (hpre4 := fun c => by rw [at9_eq]; exact .rfl)
    (hpost4 := fun c => by rw [at10_eq]; exact .rfl)
    (R5 := record5 m)
    (hpre5 := fun c => by rw [at11_eq]; exact .rfl)
    (hpost5 := fun c => by rw [at12_eq]; exact .rfl)
    (R6 := record6 m)
    (hpre6 := fun c => by rw [at13_eq]; exact .rfl)
    (hpost6 := fun c => by rw [at14_eq]; exact .rfl)
    (R7 := record7 m)
    (hpre7 := fun c => by rw [at15_eq]; exact .rfl)
    (hpost7 := fun c => by rw [at16_eq]; exact .rfl)
    (R8 := record8 m)
    (hpre8 := fun c => by rw [at17_eq]; exact .rfl)
    (hpost8 := fun c => by rw [at18_eq]; exact .rfl)

end Cert.KernelIdeal.Hand

end
-- ==== Proof.Ref.Norm.lean ====
import proofs.«123467_j2559800508646_1_alg».proof.Proof.Ref.Read
import Mathlib.Tactic

/-! # The reference's normalisation, read at an index

Each of the reference's three layers ends by normalising an array `h` of 50000 rows and 64 columns column by column:
with `n` = 50000 (the word `0x47435000`) and `ε` the word `0x3727C5AC`,

  `μ j  = (Σ_k h (k, j)) / n`,   `σ² j = (Σ_k (h (k, j) − μ j) · (h (k, j) − μ j)) / n`,
  `out (r, j) = γ j · (h (r, j) − μ j) · rsqrt (σ² j + ε) + β j`.

The reference writes this with whole-array operations: a column sum, a division by the splat of `n`, the column vector
spread over the rows (to one row of 64, then to 50000 rows), pointwise subtraction, product, reciprocal square root, sum.
`norm γ β h` is that composition, the same in the three layers; `norm_apply` reads it at row `r`, column `j` on the
extended reals, the variance in its CENTRED form; `layer1`, `layer2`, `layer3` say that the reference's three layer
outputs are `norm` of the layer's scale row, shift row and pre-normalisation array; the last section reads the two
constants as real numbers. -/

noncomputable section

namespace Cert.ReferenceIdeal.RefNorm

open Cert.ReferenceIdeal Cert.ReferenceIdeal.Gen Idealize.ShloMosaic Idealize.ShloMosaic.ValueIdx
open scoped BigOperators

section Composition

variable {F : FTy → Type} [FloatOps F]

/-- A vector of 64 column values spread over 50000 rows: first to one row of 64, then to every row. -/
def spread (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The column sums of an array (from the zero word), divided by the splat of `n`. -/
def colMean (h : (⟨S50000x64, .f32⟩ : BufTy).Contents (Elt F)) : (⟨S64, .f32⟩ : BufTy).Contents (Elt F) :=
  Host.divf (Host.reduceAdd h (constant S_ .f32 0x00000000#32) reducesTo_S50000x64_S64_d0 h_S_)
    (broadcastInDim S64 ![] bcast_S_S64 (constant S_ .f32 0x47435000#32))

/-- The column means of the squared distances from the column mean. -/
def colVar (h : (⟨S50000x64, .f32⟩ : BufTy).Contents (Elt F)) : (⟨S64, .f32⟩ : BufTy).Contents (Elt F) :=
  colMean (mulf (subf h (spread (colMean h))) (subf h (spread (colMean h))))

/-- The normalisation as the reference composes it from whole-array operations. -/
def norm (γ β : (⟨S64, .f32⟩ : BufTy).Contents (Elt F)) (h : (⟨S50000x64, .f32⟩ : BufTy).Contents (Elt F)) :
    (⟨S50000x64, .f32⟩ : BufTy).Contents (Elt F) :=
  addf (mulf (mulf (spread γ) (subf h (spread (colMean h))))
      (spread (Host.rsqrt (addf (colVar h) (broadcastInDim S64 ![] bcast_S_S64 (constant S_ .f32 0x3727C5AC#32))))))
    (spread β)

/-- The first layer's output is the normalisation of its pre-normalisation array by the first rows of the scale and shift tables. -/
theorem layer1 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v56 (F := F) x0 x1 x2 x3 x4 x5 x6 x7 x8
      = norm (ReadP.val_main_v39 (F := F) x7) (ReadP.val_main_v53 (F := F) x8) (ReadP.val_main_v27 (F := F) x0 x1 x2 x3 x4 x5 x6) := rfl

/-- The second layer's output: the second rows of the two tables, and the second layer's pre-normalisation array. -/
theorem layer2 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v114 (F := F) x0 x1 x2 x3 x4 x5 x6 x7 x8
      = norm (ReadP.val_main_v97 (F := F) x7) (ReadP.val_main_v111 (F := F) x8) (ReadP.val_main_v85 (F := F) x0 x1 x2 x3 x4 x5 x6 x7 x8) := rfl

/-- The third layer's output, which is the reference's result: the third rows, and the third pre-normalisation array. -/
theorem layer3 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v172 (F := F) x0 x1 x2 x3 x4 x5 x6 x7 x8
      = norm (ReadP.val_main_v155 (F := F) x7) (ReadP.val_main_v169 (F := F) x8) (ReadP.val_main_v143 (F := F) x0 x1 x2 x3 x4 x5 x6 x7 x8) := rfl

/-- A spread vector at row `r`, column `j` is the vector at `j`. -/
theorem spread_apply (v : (⟨S64, .f32⟩ : BufTy).Contents (Elt F)) (r : Fin 50000) (j : Fin 64) :
    spread v (ix2 r j) = v (ix1 j) := by
  unfold spread
  refine (broadcastInDim_apply _ bcast_S1x64_S50000x64_0_1 _ (ix2 r j) (ix2 (0 : Fin 1) j) (fun a => ?_)).trans
    (broadcastInDim_apply _ bcast_S64_S1x64_1 v (ix2 (0 : Fin 1) j) (ix1 j) (fun a => ?_))
  · match a with
    | ⟨0, _⟩ => show (0 : Nat) = if (1 : Nat) = 1 then 0 else r.val; rw [if_pos rfl]
    | ⟨1, _⟩ => show j.val = if (64 : Nat) = 1 then 0 else j.val; rw [if_neg (by decide)]
  · match a with
    | ⟨0, _⟩ => show j.val = if (64 : Nat) = 1 then 0 else j.val; rw [if_neg (by decide)]

end Composition

/-! ## On the extended reals -/

/-- The mean of column `j`: the sum of its 50000 entries over `n`. -/
def meanAt (h : (⟨S50000x64, .f32⟩ : BufTy).Contents (Elt Ideal)) (j : Fin 64) : EReal :=
  Ideal.div (∑ k : Fin 50000, h (ix2 k j)) (Ideal.ofBits .f32 0x47435000#32)

/-- The variance of column `j` in its centred form: the mean of the squared distances from the column's mean. -/
def varAt (h : (⟨S50000x64, .f32⟩ : BufTy).Contents (Elt Ideal)) (j : Fin 64) : EReal :=
  Ideal.div (∑ k : Fin 50000, (h (ix2 k j) - meanAt h j) * (h (ix2 k j) - meanAt h j)) (Ideal.ofBits .f32 0x47435000#32)

/-- A column sum from the zero word is the sum of the column's entries. -/
theorem colSum_apply (h : (⟨S50000x64, .f32⟩ : BufTy).Contents (Elt Ideal)) (j : Fin 64) :
    Host.reduceAdd (F := Ideal) h (constant S_ .f32 0x00000000#32) reducesTo_S50000x64_S64_d0 h_S_ (ix1 j)
      = ∑ k : Fin 50000, h (ix2 k j) := by
  simp only [Host.reduceAdd, Ideal.hostReduceAdd_def]
  rw [Ideal.hostReduceAdd_single reducesTo_S50000x64_S64_d0 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

/-- The column mean as the reference composes it is the mean of the column. -/
theorem colMean_apply (h : (⟨S50000x64, .f32⟩ : BufTy).Contents (Elt Ideal)) (j : Fin 64) : colMean (F := Ideal) h (ix1 j) = meanAt h j := by
  show Ideal.div (Host.reduceAdd (F := Ideal) h (constant S_ .f32 0x00000000#32) reducesTo_S50000x64_S64_d0 h_S_ (ix1 j))
    (Ideal.ofBits .f32 0x47435000#32) = _
  rw [colSum_apply]
  rfl

/-- The column variance as the reference composes it is the centred variance of the column. -/
theorem colVar_apply (h : (⟨S50000x64, .f32⟩ : BufTy).Contents (Elt Ideal)) (j : Fin 64) : colVar (F := Ideal) h (ix1 j) = varAt h j := by
  have e : ∀ k : Fin 50000,
      (mulf (subf h (spread (colMean (F := Ideal) h))) (subf h (spread (colMean (F := Ideal) h)))) (ix2 k j)
        = (h (ix2 k j) - meanAt h j) * (h (ix2 k j) - meanAt h j) := fun k => by
    show (h (ix2 k j) - spread (colMean (F := Ideal) h) (ix2 k j)) * (h (ix2 k j) - spread (colMean (F := Ideal) h) (ix2 k j)) = _
    rw [spread_apply, colMean_apply]
  unfold colVar
  rw [colMean_apply]
  show Ideal.div (∑ k : Fin 50000,
      (mulf (subf h (spread (colMean (F := Ideal) h))) (subf h (spread (colMean (F := Ideal) h)))) (ix2 k j)) _ = _
  simp only [e]
  rfl

/-- THE NORMALISATION AT ROW `r`, COLUMN `j`: scale times the distance from the column mean times the reciprocal square
    root of the centred column variance plus `ε`, plus shift. -/
theorem norm_apply (γ β : (⟨S64, .f32⟩ : BufTy).Contents (Elt Ideal)) (h : (⟨S50000x64, .f32⟩ : BufTy).Contents (Elt Ideal)) (r : Fin 50000) (j : Fin 64) :
    norm (F := Ideal) γ β h (ix2 r j)
      = γ (ix1 j) * (h (ix2 r j) - meanAt h j) * Ideal.rsqrt (varAt h j + Ideal.ofBits .f32 0x3727C5AC#32) + β (ix1 j) := by
  show spread γ (ix2 r j) * (h (ix2 r j) - spread (colMean (F := Ideal) h) (ix2 r j))
      * spread (Host.rsqrt (addf (colVar (F := Ideal) h) (broadcastInDim S64 ![] bcast_S_S64 (constant S_ .f32 0x3727C5AC#32)))) (ix2 r j)
      + spread β (ix2 r j) = _
  rw [spread_apply, spread_apply, spread_apply, spread_apply, colMean_apply]
  show _ * _ * Ideal.rsqrt (colVar (F := Ideal) h (ix1 j) + Ideal.ofBits .f32 0x3727C5AC#32) + _ = _
  rw [colVar_apply]

/-! ## The two constants as real numbers

`n` is the real number 50000, the number of rows; `ε` is the positive real `10995116 / 2 ^ 40` (about `1.0e-5`). -/

/-- The divisor word is the number of rows. -/
theorem n_word : Ideal.ofBits .f32 0x47435000#32 = ((50000 : ℝ) : EReal) := by
  simp [Ideal.ofBits, Ideal.ieee]
  rw [← EReal.coe_mul, EReal.coe_eq_coe_iff]
  norm_num

/-- The word added to the variance is a real number. -/
theorem eps_word : Ideal.ofBits .f32 0x3727C5AC#32 = ((10995116 / 2 ^ 40 : ℝ) : EReal) := by
  simp [Ideal.ofBits, Ideal.ieee]
  rw [← EReal.coe_mul, EReal.coe_eq_coe_iff]
  norm_num

/-- That real number is positive. -/
theorem eps_pos : (0 : ℝ) < 10995116 / 2 ^ 40 := by norm_num

end Cert.ReferenceIdeal.RefNorm

end
-- ==== Proof.Ref.Pre.lean ====
import proofs.«123467_j2559800508646_1_alg».proof.Proof.Ref.Norm

/-! # The array each layer normalises, read at an index

Before its normalisation a layer of the reference computes, from its input `h` (50000 rows of 64), its weight matrix
`W` (64 by 64), its bias row `b`, its slope `a` and the edge lists:

  `xw (r, j) = Σ_k h (r, k) · W (k, j)`,
  `g = agg xw` — the rows of `xw` taken at each edge's source, scaled by the edge's weight and summed into the row of the
  edge's destination —,
  `t (r, j) = g (r, j) + b j`, and `t` where `0 ≤ t`, `a · t` elsewhere;

layers two and three add their input `h` to that. `agg` is kept as ONE function of `xw` and the three edge arrays: nothing
here looks inside it. `act a b g` is the bias and the leaky rectifier as the reference composes them. -/

noncomputable section

namespace Cert.ReferenceIdeal.RefPre

open Cert.ReferenceIdeal Cert.ReferenceIdeal.Gen Cert.ReferenceIdeal.RefNorm Idealize.ShloMosaic Idealize.ShloMosaic.ValueIdx
open scoped BigOperators

section Composition

variable {F : FTy → Type} [FloatOps F]

/-- The edge aggregation: each edge takes the row of `xw` at its source (a negative source first moved up by 50000),
    scales it by its weight, and adds it into the row at its destination, starting from zero. -/
def agg (xw : (⟨S50000x64, .f32⟩ : BufTy).Contents (Elt F)) (src dst : (⟨S1000000, .i32⟩ : BufTy).Contents (Elt F)) (w : (⟨S1000000, .f32⟩ : BufTy).Contents (Elt F)) :
    (⟨S50000x64, .f32⟩ : BufTy).Contents (Elt F) :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 dst)
    (mulf
      (broadcastInDim S1000000x64 ![0, 1] bcast_S1000000x1_S1000000x64_0_1
        (broadcastInDim S1000000x1 ![0] bcast_S1000000_S1000000x1_0 w))
      (Host.gather gather_S50000x64_S1000000x1_S1000000x64_1_0_n_n_0_1_164 xw
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))

/-- The bias added to every row, then the leaky rectifier: the sum where it is at least zero, `a` times it elsewhere. -/
def act (a : (⟨S_, .f32⟩ : BufTy).Contents (Elt F)) (b : (⟨S64, .f32⟩ : BufTy).Contents (Elt F)) (g : (⟨S50000x64, .f32⟩ : BufTy).Contents (Elt F)) : (⟨S50000x64, .f32⟩ : BufTy).Contents (Elt F) :=
  select (cmpf .oge (addf g (spread b)) (broadcastInDim S50000x64 ![] bcast_S_S50000x64 (constant S_ .f32 0x00000000#32)))
    (addf g (spread b)) (mulf (broadcastInDim S50000x64 ![] bcast_S_S50000x64 a) (addf g (spread b)))

/-- Layer one aggregates the product of the first argument with the first weight matrix. -/
theorem agg1 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) :
    ReadP.val_main_v15 (F := F) x0 x1 x2 x3 x4 = agg (ReadP.val_main_v2 (F := F) x0 x4) x1 x2 x3 := rfl

/-- Layer two aggregates the product of layer one's output with the second weight matrix. -/
theorem agg2 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v72 (F := F) x0 x1 x2 x3 x4 x5 x6 x7 x8 = agg (ReadP.val_main_v59 (F := F) x0 x1 x2 x3 x4 x5 x6 x7 x8) x1 x2 x3 := rfl

/-- Layer three aggregates the product of layer two's output with the third weight matrix. -/
theorem agg3 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v130 (F := F) x0 x1 x2 x3 x4 x5 x6 x7 x8 = agg (ReadP.val_main_v117 (F := F) x0 x1 x2 x3 x4 x5 x6 x7 x8) x1 x2 x3 := rfl

/-- The array layer one normalises. -/
theorem pre1 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) :
    ReadP.val_main_v27 (F := F) x0 x1 x2 x3 x4 x5 x6
      = act (ReadP.val_main_v24 (F := F) x6) (ReadP.val_main_v17 (F := F) x5) (ReadP.val_main_v15 (F := F) x0 x1 x2 x3 x4) := rfl

/-- The array layer two normalises: the rectified aggregate plus layer one's output. -/
theorem pre2 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v85 (F := F) x0 x1 x2 x3 x4 x5 x6 x7 x8
      = addf (act (ReadP.val_main_v81 (F := F) x6) (ReadP.val_main_v74 (F := F) x5) (ReadP.val_main_v72 (F := F) x0 x1 x2 x3 x4 x5 x6 x7 x8))
          (ReadP.val_main_v56 (F := F) x0 x1 x2 x3 x4 x5 x6 x7 x8) := rfl

/-- The array layer three normalises: the rectified aggregate plus layer two's output. -/
theorem pre3 (x0 : (⟨S50000x64, .f32⟩ : BufTy).Contents (Elt F)) (x1 x2 : (⟨S1000000, .i32⟩ : BufTy).Contents (Elt F)) (x3 : (⟨S1000000, .f32⟩ : BufTy).Contents (Elt F)) (x4 : (⟨S3x64x64, .f32⟩ : BufTy).Contents (Elt F)) (x5 : (⟨S3x64, .f32⟩ : BufTy).Contents (Elt F)) (x6 : (⟨S3, .f32⟩ : BufTy).Contents (Elt F)) (x7 x8 : (⟨S3x64, .f32⟩ : BufTy).Contents (Elt F)) :
    ReadP.val_main_v143 (F := F) x0 x1 x2 x3 x4 x5 x6 x7 x8
      = addf (act (ReadP.val_main_v139 (F := F) x6) (ReadP.val_main_v132 (F := F) x5) (ReadP.val_main_v130 (F := F) x0 x1 x2 x3 x4 x5 x6 x7 x8))
          (ReadP.val_main_v114 (F := F) x0 x1 x2 x3 x4 x5 x6 x7 x8) := rfl

/-- The first layer's weight matrix is the first slab of the weight table. -/
theorem weight1 (x4 : (⟨S3x64x64, .f32⟩ : BufTy).Contents (Elt F)) (k j : Fin 64) :
    ReadP.val_main_v1 (F := F) x4 (ix2 k j) = x4 (ix3 (0 : Fin 3) k j) := by
  rw [ReadP.val_main_v1_apply, ReadP.val_main_v0_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The first layer's bias is the first row of the bias table. -/
theorem bias1 (x5 : (⟨S3x64, .f32⟩ : BufTy).Contents (Elt F)) (j : Fin 64) :
    ReadP.val_main_v17 (F := F) x5 (ix1 j) = x5 (ix2 (0 : Fin 3) j) := by
  rw [ReadP.val_main_v17_apply, ReadP.val_main_v16_apply]
  refine congrArg x5 (funext fun a => Fin.ext ?_)
  match a with
  | ⟨0, _⟩ => rfl
  | ⟨1, _⟩ => exact Nat.mod_eq_of_lt j.isLt

/-- The first layer's scale is the first row of the scale table. -/
theorem scale1 (x7 : (⟨S3x64, .f32⟩ : BufTy).Contents (Elt F)) (j : Fin 64) :
    ReadP.val_main_v39 (F := F) x7 (ix1 j) = x7 (ix2 (0 : Fin 3) j) := by
  rw [ReadP.val_main_v39_apply, ReadP.val_main_v38_apply]
  refine congrArg x7 (funext fun a => Fin.ext ?_)
  match a with
  | ⟨0, _⟩ => rfl
  | ⟨1, _⟩ => exact Nat.mod_eq_of_lt j.isLt

/-- The first layer's shift is the first row of the shift table. -/
theorem shift1 (x8 : (⟨S3x64, .f32⟩ : BufTy).Contents (Elt F)) (j : Fin 64) :
    ReadP.val_main_v53 (F := F) x8 (ix1 j) = x8 (ix2 (0 : Fin 3) j) := by
  rw [ReadP.val_main_v53_apply, ReadP.val_main_v52_apply]
  refine congrArg x8 (funext fun a => Fin.ext ?_)
  match a with
  | ⟨0, _⟩ => rfl
  | ⟨1, _⟩ => exact Nat.mod_eq_of_lt j.isLt

/-- The first layer's slope is the first entry of the slope table. -/
theorem slope1 (x6 : (⟨S3, .f32⟩ : BufTy).Contents (Elt F)) :
    ReadP.val_main_v24 (F := F) x6 ix0 = x6 (ix1 (0 : Fin 3)) := by
  have hk : (S1.rowMajor (ix1 (0 : Fin 1))).val = (S_.rowMajor ix0).val := by
    have h1 : (S1.rowMajor (ix1 (0 : Fin 1))).val < 1 := (S1.rowMajor (ix1 (0 : Fin 1))).isLt
    have h2 : (S_.rowMajor ix0).val < 1 := (S_.rowMajor ix0).isLt
    omega
  unfold ReadP.val_main_v24
  rw [shapeCast_apply (ReadP.val_main_v23 (F := F) x6) shapeCasts_S1_S_ ix0 (ix1 (0 : Fin 1)) hk, ReadP.val_main_v23_apply]
  exact congrArg x6 (funext fun a => Fin.ext (by match a with | ⟨0, _⟩ => rfl))

/-- The second layer's weight matrix is the second slab of the weight table. -/
theorem weight2 (x4 : (⟨S3x64x64, .f32⟩ : BufTy).Contents (Elt F)) (k j : Fin 64) :
    ReadP.val_main_v58 (F := F) x4 (ix2 k j) = x4 (ix3 (1 : Fin 3) k j) := by
  rw [ReadP.val_main_v58_apply, ReadP.val_main_v57_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The second layer's bias is the second row of the bias table. -/
theorem bias2 (x5 : (⟨S3x64, .f32⟩ : BufTy).Contents (Elt F)) (j : Fin 64) :
    ReadP.val_main_v74 (F := F) x5 (ix1 j) = x5 (ix2 (1 : Fin 3) j) := by
  rw [ReadP.val_main_v74_apply, ReadP.val_main_v73_apply]
  refine congrArg x5 (funext fun a => Fin.ext ?_)
  match a with
  | ⟨0, _⟩ => rfl
  | ⟨1, _⟩ => exact Nat.mod_eq_of_lt j.isLt

/-- The second layer's scale is the second row of the scale table. -/
theorem scale2 (x7 : (⟨S3x64, .f32⟩ : BufTy).Contents (Elt F)) (j : Fin 64) :
    ReadP.val_main_v97 (F := F) x7 (ix1 j) = x7 (ix2 (1 : Fin 3) j) := by
  rw [ReadP.val_main_v97_apply, ReadP.val_main_v96_apply]
  refine congrArg x7 (funext fun a => Fin.ext ?_)
  match a with
  | ⟨0, _⟩ => rfl
  | ⟨1, _⟩ => exact Nat.mod_eq_of_lt j.isLt

/-- The second layer's shift is the second row of the shift table. -/
theorem shift2 (x8 : (⟨S3x64, .f32⟩ : BufTy).Contents (Elt F)) (j : Fin 64) :
    ReadP.val_main_v111 (F := F) x8 (ix1 j) = x8 (ix2 (1 : Fin 3) j) := by
  rw [ReadP.val_main_v111_apply, ReadP.val_main_v110_apply]
  refine congrArg x8 (funext fun a => Fin.ext ?_)
  match a with
  | ⟨0, _⟩ => rfl
  | ⟨1, _⟩ => exact Nat.mod_eq_of_lt j.isLt

/-- The second layer's slope is the second entry of the slope table. -/
theorem slope2 (x6 : (⟨S3, .f32⟩ : BufTy).Contents (Elt F)) :
    ReadP.val_main_v81 (F := F) x6 ix0 = x6 (ix1 (1 : Fin 3)) := by
  have hk : (S1.rowMajor (ix1 (0 : Fin 1))).val = (S_.rowMajor ix0).val := by
    have h1 : (S1.rowMajor (ix1 (0 : Fin 1))).val < 1 := (S1.rowMajor (ix1 (0 : Fin 1))).isLt
    have h2 : (S_.rowMajor ix0).val < 1 := (S_.rowMajor ix0).isLt
    omega
  unfold ReadP.val_main_v81
  rw [shapeCast_apply (ReadP.val_main_v80 (F := F) x6) shapeCasts_S1_S_ ix0 (ix1 (0 : Fin 1)) hk, ReadP.val_main_v80_apply]
  exact congrArg x6 (funext fun a => Fin.ext (by match a with | ⟨0, _⟩ => rfl))

/-- The third layer's weight matrix is the third slab of the weight table. -/
theorem weight3 (x4 : (⟨S3x64x64, .f32⟩ : BufTy).Contents (Elt F)) (k j : Fin 64) :
    ReadP.val_main_v116 (F := F) x4 (ix2 k j) = x4 (ix3 (2 : Fin 3) k j) := by
  rw [ReadP.val_main_v116_apply, ReadP.val_main_v115_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The third layer's bias is the third row of the bias table. -/
theorem bias3 (x5 : (⟨S3x64, .f32⟩ : BufTy).Contents (Elt F)) (j : Fin 64) :
    ReadP.val_main_v132 (F := F) x5 (ix1 j) = x5 (ix2 (2 : Fin 3) j) := by
  rw [ReadP.val_main_v132_apply, ReadP.val_main_v131_apply]
  refine congrArg x5 (funext fun a => Fin.ext ?_)
  match a with
  | ⟨0, _⟩ => rfl
  | ⟨1, _⟩ => exact Nat.mod_eq_of_lt j.isLt

/-- The third layer's scale is the third row of the scale table. -/
theorem scale3 (x7 : (⟨S3x64, .f32⟩ : BufTy).Contents (Elt F)) (j : Fin 64) :
    ReadP.val_main_v155 (F := F) x7 (ix1 j) = x7 (ix2 (2 : Fin 3) j) := by
  rw [ReadP.val_main_v155_apply, ReadP.val_main_v154_apply]
  refine congrArg x7 (funext fun a => Fin.ext ?_)
  match a with
  | ⟨0, _⟩ => rfl
  | ⟨1, _⟩ => exact Nat.mod_eq_of_lt j.isLt

/-- The third layer's shift is the third row of the shift table. -/
theorem shift3 (x8 : (⟨S3x64, .f32⟩ : BufTy).Contents (Elt F)) (j : Fin 64) :
    ReadP.val_main_v169 (F := F) x8 (ix1 j) = x8 (ix2 (2 : Fin 3) j) := by
  rw [ReadP.val_main_v169_apply, ReadP.val_main_v168_apply]
  refine congrArg x8 (funext fun a => Fin.ext ?_)
  match a with
  | ⟨0, _⟩ => rfl
  | ⟨1, _⟩ => exact Nat.mod_eq_of_lt j.isLt

/-- The third layer's slope is the third entry of the slope table. -/
theorem slope3 (x6 : (⟨S3, .f32⟩ : BufTy).Contents (Elt F)) :
    ReadP.val_main_v139 (F := F) x6 ix0 = x6 (ix1 (2 : Fin 3)) := by
  have hk : (S1.rowMajor (ix1 (0 : Fin 1))).val = (S_.rowMajor ix0).val := by
    have h1 : (S1.rowMajor (ix1 (0 : Fin 1))).val < 1 := (S1.rowMajor (ix1 (0 : Fin 1))).isLt
    have h2 : (S_.rowMajor ix0).val < 1 := (S_.rowMajor ix0).isLt
    omega
  unfold ReadP.val_main_v139
  rw [shapeCast_apply (ReadP.val_main_v138 (F := F) x6) shapeCasts_S1_S_ ix0 (ix1 (0 : Fin 1)) hk, ReadP.val_main_v138_apply]
  exact congrArg x6 (funext fun a => Fin.ext (by match a with | ⟨0, _⟩ => rfl))

end Composition

/-! ## On the extended reals -/

/-- The rectifier's choice: the comparison with the zero word is the order of the extended reals. -/
theorem select_oge_zero (t u : EReal) :
    Scalar.select (FloatOps.cmpf (F := Ideal) (φ := .f32) .oge t (Ideal.ofBits .f32 0x00000000#32)) t u = if 0 ≤ t then t else u := by
  rw [Ideal.cmpf_def, Ideal.ofBits_zero_f32]
  unfold Scalar.select Ideal.cmp
  by_cases h : (0 : EReal) ≤ t <;> simp [h]

/-- The leaky rectifier on the extended reals: `t` where `0 ≤ t`, `a · t` elsewhere. -/
def leaky (a t : EReal) : EReal := if 0 ≤ t then t else a * t

/-- THE BIAS AND THE RECTIFIER AT ROW `r`, COLUMN `j`. -/
theorem act_apply (a : (⟨S_, .f32⟩ : BufTy).Contents (Elt Ideal)) (b : (⟨S64, .f32⟩ : BufTy).Contents (Elt Ideal)) (g : (⟨S50000x64, .f32⟩ : BufTy).Contents (Elt Ideal))
    (r : Fin 50000) (j : Fin 64) :
    act (F := Ideal) a b g (ix2 r j)
      = leaky (a ix0) (g (ix2 r j) + b (ix1 j)) := by
  show Scalar.select (FloatOps.cmpf (F := Ideal) (φ := .f32) .oge (g (ix2 r j) + spread b (ix2 r j)) (Ideal.ofBits .f32 0x00000000#32))
      (g (ix2 r j) + spread b (ix2 r j))
      (broadcastInDim S50000x64 ![] bcast_S_S50000x64 a (ix2 r j) * (g (ix2 r j) + spread b (ix2 r j))) = _
  rw [broadcastInDim_apply _ bcast_S_S50000x64 a (ix2 r j) ix0 (fun x => x.elim0), spread_apply, select_oge_zero]
  rfl

/-- The sum of two arrays at an index. -/
theorem addf_at (x y : FVec Ideal S50000x64 .f32) (i : S50000x64.Idx) :
    addf x y i = (x i : EReal) + (y i : EReal) := rfl

/-- The first layer's product at row `r`, column `j`: the row of the layer's input against the column of its weight matrix. -/
theorem xw1 (x0 : (⟨S50000x64, .f32⟩ : BufTy).Contents (Elt Ideal)) (x4 : (⟨S3x64x64, .f32⟩ : BufTy).Contents (Elt Ideal)) (r : Fin 50000) (j : Fin 64) :
    ReadP.val_main_v2 (F := Ideal) x0 x4 (ix2 r j)
      = ∑ k : Fin 64, x0 (ix2 r k) * x4 (ix3 (0 : Fin 3) k j) := by
  rw [ReadP.val_main_v2_apply]
  refine Finset.sum_congr rfl fun k _ => ?_
  rw [show ReadP.lidx_main_v2 (ix2 r j) k = ix2 r k from
      funext fun a => Fin.ext (by match a with | ⟨0, _⟩ => rfl | ⟨1, _⟩ => rfl),
    show ReadP.ridx_main_v2 (ix2 r j) k = ix2 k j from
      funext fun a => Fin.ext (by match a with | ⟨0, _⟩ => rfl | ⟨1, _⟩ => rfl),
    weight1]

/-- THE ARRAY THE FIRST LAYER NORMALISES, AT ROW `r`, COLUMN `j`: the leaky rectifier, with the layer's slope, of the aggregate
    plus the bias. -/
theorem pre1_apply (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (r : Fin 50000) (j : Fin 64) :
    ReadP.val_main_v27 (F := Ideal) x0 x1 x2 x3 x4 x5 x6 (ix2 r j)
      = leaky (x6 (ix1 (0 : Fin 3))) (agg (ReadP.val_main_v2 (F := Ideal) x0 x4) x1 x2 x3 (ix2 r j) + x5 (ix2 (0 : Fin 3) j)) := by
  rw [pre1, act_apply, agg1, bias1, slope1]

/-- The second layer's product at row `r`, column `j`: the row of the layer's input against the column of its weight matrix. -/
theorem xw2 (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal)) (r : Fin 50000) (j : Fin 64) :
    ReadP.val_main_v59 (F := Ideal) x0 x1 x2 x3 x4 x5 x6 x7 x8 (ix2 r j)
      = ∑ k : Fin 64, ReadP.val_main_v56 (F := Ideal) x0 x1 x2 x3 x4 x5 x6 x7 x8 (ix2 r k) * x4 (ix3 (1 : Fin 3) k j) := by
  rw [ReadP.val_main_v59_apply]
  refine Finset.sum_congr rfl fun k _ => ?_
  rw [show ReadP.lidx_main_v59 (ix2 r j) k = ix2 r k from
      funext fun a => Fin.ext (by match a with | ⟨0, _⟩ => rfl | ⟨1, _⟩ => rfl),
    show ReadP.ridx_main_v59 (ix2 r j) k = ix2 k j from
      funext fun a => Fin.ext (by match a with | ⟨0, _⟩ => rfl | ⟨1, _⟩ => rfl),
    weight2]

/-- THE ARRAY THE SECOND LAYER NORMALISES, AT ROW `r`, COLUMN `j`: the leaky rectifier, with the layer's slope, of the aggregate
    plus the bias, plus the layer's input. -/
theorem pre2_apply (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal)) (r : Fin 50000) (j : Fin 64) :
    ReadP.val_main_v85 (F := Ideal) x0 x1 x2 x3 x4 x5 x6 x7 x8 (ix2 r j)
      = leaky (x6 (ix1 (1 : Fin 3))) (agg (ReadP.val_main_v59 (F := Ideal) x0 x1 x2 x3 x4 x5 x6 x7 x8) x1 x2 x3 (ix2 r j) + x5 (ix2 (1 : Fin 3) j))
        + (ReadP.val_main_v56 (F := Ideal) x0 x1 x2 x3 x4 x5 x6 x7 x8 (ix2 r j) : EReal) := by
  rw [pre2, addf_at, act_apply, agg2, bias2, slope2]

/-- The third layer's product at row `r`, column `j`: the row of the layer's input against the column of its weight matrix. -/
theorem xw3 (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal)) (r : Fin 50000) (j : Fin 64) :
    ReadP.val_main_v117 (F := Ideal) x0 x1 x2 x3 x4 x5 x6 x7 x8 (ix2 r j)
      = ∑ k : Fin 64, ReadP.val_main_v114 (F := Ideal) x0 x1 x2 x3 x4 x5 x6 x7 x8 (ix2 r k) * x4 (ix3 (2 : Fin 3) k j) := by
  rw [ReadP.val_main_v117_apply]
  refine Finset.sum_congr rfl fun k _ => ?_
  rw [show ReadP.lidx_main_v117 (ix2 r j) k = ix2 r k from
      funext fun a => Fin.ext (by match a with | ⟨0, _⟩ => rfl | ⟨1, _⟩ => rfl),
    show ReadP.ridx_main_v117 (ix2 r j) k = ix2 k j from
      funext fun a => Fin.ext (by match a with | ⟨0, _⟩ => rfl | ⟨1, _⟩ => rfl),
    weight3]

/-- THE ARRAY THE THIRD LAYER NORMALISES, AT ROW `r`, COLUMN `j`: the leaky rectifier, with the layer's slope, of the aggregate
    plus the bias, plus the layer's input. -/
theorem pre3_apply (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal)) (r : Fin 50000) (j : Fin 64) :
    ReadP.val_main_v143 (F := Ideal) x0 x1 x2 x3 x4 x5 x6 x7 x8 (ix2 r j)
      = leaky (x6 (ix1 (2 : Fin 3))) (agg (ReadP.val_main_v117 (F := Ideal) x0 x1 x2 x3 x4 x5 x6 x7 x8) x1 x2 x3 (ix2 r j) + x5 (ix2 (2 : Fin 3) j))
        + (ReadP.val_main_v114 (F := Ideal) x0 x1 x2 x3 x4 x5 x6 x7 x8 (ix2 r j) : EReal) := by
  rw [pre3, addf_at, act_apply, agg3, bias3, slope3]

end Cert.ReferenceIdeal.RefPre

end
-- ==== Proof.Bridge.Layer1Host.lean ====
import proofs.«123467_j2559800508646_1_alg».proof.Proof.KI.Boundaries
import proofs.«123467_j2559800508646_1_alg».proof.Proof.Ref.Pre
import Idealize.ShloMosaic.Lib.StableHlo.Run

/-!
# Layer one of the kernel program, between its calls: the host operations

Between the first product and the first statistics call the kernel program's host operations aggregate the product along
the edges exactly as the reference does: the same operations in the same order on the same three edge arrays.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

set_option maxHeartbeats 8000000 in
/-- The aggregated messages of layer one: the edge aggregation of the first product's output. -/
theorem aggregated1 (c : Dev nD) :
    at3 m c (Proc.devRef .tc main_v15)
      = Cert.ReferenceIdeal.RefPre.agg (F := F) (at2 m c (Proc.devRef .tc main_v2)) (at2 m c (Proc.devRef .tc main_arg1))
          (at2 m c (Proc.devRef .tc main_arg2)) (at2 m c (Proc.devRef .tc main_arg3)) := by
  unfold at3
  after_results
  rfl

end Cert.Bridge

end
-- ==== Proof.KI.MatmulValue0.lean ====
import proofs.«123467_j2559800508646_1_alg».proof.Proof.KI.MatmulBody0
import Idealize.ShloMosaic.Lib.Pipeline.Value
import Idealize.ShloMosaic.Lib.ValueIdx
import Idealize.ShloMosaic.PureOps.Ideal.Laws

/-!
# The first matrix product, as one function of the arrays the call is entered with

Read at the extended reals. The call multiplies a `[50000, 64]` array (window 0) by a `[64, 64]` array (window 1),
5000 rows per grid point. At the extended reals the conversions to bf16 are the identity and the product unit's sum into
a zero accumulator is the plain sum, so the block a point stores is, entry `(p, q)`, the sum over `k` of the row
block's `(p, k)` times the weights' `(k, q)`. The row block at point `t` is rows `5000·t … 5000·t + 4999` of the
first array and the weights' block is the whole second array, so what point `t` writes back is block `t` of the
matrix product of the two arrays; the ten blocks cover the output (row `r` is in block `r / 5000`), hence after the
last point the output array is that matrix product.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The dot's operand indices at an output entry `(p, q)` and a contraction index: on the left operand the row is `p`,
    on the right operand the column is `q`; the other coordinate of each is the contraction index. -/
theorem product_lhs_row0 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem product_lhs_col0 (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
theorem product_rhs_row0 (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
theorem product_rhs_col0 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's stored value at entry `(p, q)` of the block: the sum over `k` of the row block's `(p, k)` times the
    weights' `(k, q)`. The conversions to bf16 are the identity on extended reals and the accumulator is zero. -/
theorem product_pay_apply0 (x : Vec Ideal S5000x64 .f32) (wt : Vec Ideal S64x64 .f32) (p : Fin 5000) (q : Fin 64) :
    k0_pay1 x wt (ix2 p q) = ∑ k : Fin 64, x (ix2 p k) * wt (ix2 k q) := by
  unfold k0_pay1
  rw [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact product_lhs_row0 _ _
      | ⟨1, _⟩ => exact (product_lhs_col0 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (product_rhs_row0 _ _).trans hk
      | ⟨1, _⟩ => exact product_rhs_col0 _ _)
  rw [el, er]
  rfl

variable (V : (c : Dev nD) → (b : Ref sig .tc) → Buf (Elt Ideal) ((c : Thread nD τ).loc b))

/-- The two arrays the call is entered with, on core `c`: the rows (window 0) and the weights (window 1). -/
abbrev rowsIn0 (c : Dev nD) : S50000x64.Idx → EReal := V c (Pipeline.arrRef spec0 0)
abbrev weightsIn0 (c : Dev nD) : S64x64.Idx → EReal := V c (Pipeline.arrRef spec0 1)

theorem zero_offsets0 : (![0, 0] : Fin 2 → Nat) = fun _ => 0 := funext fun a => by fin_cases a <;> rfl

/-- The output block after the body, entry by entry: the product of the two blocks the body was handed. -/
theorem product_block_apply0 (x : Vec Ideal S5000x64 .f32) (wt : Vec Ideal S64x64 .f32) (p : Fin 5000) (q : Fin 64) :
    productBlock0 x wt (ix2 p q) = ∑ k : Fin 64, x (ix2 p k) * wt (ix2 k q) := by
  unfold productBlock0
  rw [View.canon_unit_zero zero_offsets0]
  simp only [View.ld_unit_zero (S := S5000x64) zero_offsets0, View.ld_unit_zero (S := S64x64) zero_offsets0]
  exact product_pay_apply0 x wt p q

/-- The windows' block indices over the grid: the row blocks of the input and of the output move together, one block of
    5000 rows per point; the weights' block never moves. -/
theorem product_block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the row block at point `t` is entry `(5000·t + y₀, y₁)` of the input array. -/
theorem rows_read0 (c : Dev nD) (t : Fin cfg0.N) (y : S5000x64.Idx) (i : S50000x64.Idx)
    (h0 : (i 0).val = 5000 * t.val + (y 0).val) (h1 : (i 1).val = (y 1).val) :
    blockAt0 V c 0 t y = rowsIn0 V c i := by
  obtain ⟨e0, e1, -, -, -, -⟩ := product_block_indices0 t
  unfold blockAt0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The weights' block at any point is the whole weight array. -/
theorem weights_read0 (c : Dev nD) (t : Fin cfg0.N) (y : S64x64.Idx) :
    blockAt0 V c 1 t y = weightsIn0 V c y := by
  obtain ⟨-, -, e0, e1, -, -⟩ := product_block_indices0 t
  unfold blockAt0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- What point `t` writes back is block `t` of the matrix product of the two arrays the call was entered with. -/
theorem product_flushed0 (c : Dev nD) (t : Fin cfg0.N) :
    (productData0 (F := Ideal) V c).flushed 2 t
      = ((cfg0.win 2).blk t).view.read (Elt Ideal) (fun i : S50000x64.Idx =>
          (∑ k : Fin 64, rowsIn0 V c (ix2 (i 0) k) * weightsIn0 V c (ix2 k (i 1)) : EReal)) := by
  show (cfg0.win 2).cut (grid0.coords t) ((productData0 V c).after 2 t) = _
  rw [productData0_after_out]
  obtain ⟨-, -, -, -, e0, e1⟩ := product_block_indices0 t
  funext j
  have hj0 : (j 0).val < 5000 := (j 0).isLt
  have hj1 : (j 1).val < 64 := (j 1).isLt
  have hj : (cfg0.win 2).xinj (grid0.coords t) j = ix2 (⟨(j 0).val, hj0⟩ : Fin 5000) (⟨(j 1).val, hj1⟩ : Fin 64) :=
    funext fun a => by match a with | ⟨0, _⟩ => rfl | ⟨1, _⟩ => rfl
  show productBlock0 (blockAt0 V c 0 t) (blockAt0 V c 1 t) ((cfg0.win 2).xinj (grid0.coords t) j)
    = ∑ k : Fin 64, rowsIn0 V c (ix2 ((((cfg0.win 2).blk t).view.emb j) 0) k)
        * weightsIn0 V c (ix2 k ((((cfg0.win 2).blk t).view.emb j) 1))
  rw [hj]
  refine (product_block_apply0 (blockAt0 V c 0 t) (blockAt0 V c 1 t) _ _).trans ?_
  refine Finset.sum_congr rfl fun k _ => ?_
  rw [rows_read0 V c t (ix2 (⟨(j 0).val, hj0⟩ : Fin 5000) k) (ix2 ((((cfg0.win 2).blk t).view.emb j) 0) k)
      (by show win0_2.index t 0 * 5000 + 1 * (j 0).val = 5000 * t.val + (j 0).val; rw [e0]; omega) rfl,
    weights_read0 V c t (ix2 k (⟨(j 1).val, hj1⟩ : Fin 64))]
  refine congrArg (fun z => rowsIn0 V c _ * weightsIn0 V c z) (funext fun a => Fin.ext ?_)
  match a with
  | ⟨0, _⟩ => rfl
  | ⟨1, _⟩ => show (j 1).val = win0_2.index t 1 * 64 + 1 * (j 1).val; rw [e1]; omega

/-- An index of the output array lies in point `t`'s block exactly when each coordinate lies in the block's range. -/
theorem product_mem_block0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v2).slice (win0_2.rect t)).set ↔ _
  rw [View.set_slice_whole, Rect.mem_set_unit]
  exact Iff.rfl

/-- The ten row blocks cover the output array: row `r` lies in the block of point `r / 5000`. -/
theorem product_cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, e0, e1⟩ := product_block_indices0 t
  refine ⟨t, flush0_2 t, ?_⟩
  rw [product_mem_block0]
  intro a
  match a with
  | ⟨0, _⟩ => show win0_2.index t 0 * 5000 ≤ (i 0).val ∧ (i 0).val < win0_2.index t 0 * 5000 + 5000; rw [e0, ht]; omega
  | ⟨1, _⟩ => show win0_2.index t 1 * 64 ≤ (i 1).val ∧ (i 1).val < win0_2.index t 1 * 64 + 64; rw [e1]; omega

/-- After all ten points the output array is the matrix product of the two arrays the call was entered with: the
    [50000, 64] array of window 0 times the [64, 64] array of window 1. -/
theorem product_final0 (c : Dev nD) :
    (productData0 (F := Ideal) V c).arrAt 2 cfg0.N
      = fun i : S50000x64.Idx =>
          (∑ k : Fin 64, rowsIn0 V c (ix2 (i 0) k) * weightsIn0 V c (ix2 k (i 1)) : EReal) :=
  (productData0 (F := Ideal) V c).arrAt_eq_of_cover 2 _ (fun t _ => product_flushed0 V c t) (product_cover0)

end Cert.KernelIdeal.Hand

end
-- ==== Proof.Bridge.Layer1Product.lean ====
import proofs.«123467_j2559800508646_1_alg».proof.Proof.KI.Boundaries
import proofs.«123467_j2559800508646_1_alg».proof.Proof.KI.MatmulValue0
import proofs.«123467_j2559800508646_1_alg».proof.Proof.Ref.Pre
import Idealize.ShloMosaic.Lib.StableHlo.Run

/-!
# Layer one of the kernel program: the product and the aggregation are the reference's

Read over the extended reals, the first call's output array is the reference's first product of the same two arguments:
both are, at row `r` and column `j`, the sum over `k` of the feature `(r, k)` times the weight `(0, k, j)`. The host
operations that follow aggregate it along the edges exactly as the reference does.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

variable (m : (ℓ : Loc nD τ sig) → Buf (Elt Ideal) ℓ)

/-- Before the first call the first argument is as launched. -/
theorem features_at1 (c : Dev nD) : at1 m c (Proc.devRef .tc main_arg0) = m ((c : Thread nD τ).loc main_arg0) := by
  unfold at1
  after_results
  rfl

/-- Before the first call the weight window's array is the first weight matrix, cut out of the table as the reference
    cuts it. -/
theorem weights_at1 (c : Dev nD) :
    at1 m c (Proc.devRef .tc main_v1) = Cert.ReferenceIdeal.ReadP.val_main_v1 (F := Ideal) (m ((c : Thread nD τ).loc main_arg4)) := by
  unfold at1
  after_results
  rfl

/-- After the first call its output array is what its write-backs leave. -/
theorem product_at2 (c : Dev nD) : at2 m c (Proc.devRef .tc main_v2) = (data0 m c).arrAt 2 cfg0.N := by
  unfold at2
  exact Function.update_self _ _ _

set_option maxHeartbeats 2000000 in
/-- THE FIRST PRODUCT IS THE REFERENCE'S. -/
theorem product1 (c : Dev nD) :
    at2 m c (Proc.devRef .tc main_v2)
      = Cert.ReferenceIdeal.ReadP.val_main_v2 (F := Ideal) (m ((c : Thread nD τ).loc main_arg0)) (m ((c : Thread nD τ).loc main_arg4)) := by
  rw [product_at2]
  show (productData0 (F := Ideal) (fun c b => at1 m c b) c).arrAt 2 cfg0.N = _
  rw [product_final0]
  funext i
  obtain ⟨r, j, rfl⟩ : ∃ (r : Fin 50000) (j : Fin 64), i = ix2 r j := ⟨i 0, i 1, eq_ix2 i⟩
  rw [Cert.ReferenceIdeal.RefPre.xw1]
  refine Finset.sum_congr rfl fun k _ => ?_
  have hr : rowsIn0 (fun c b => at1 m c b) c (ix2 r k) = (m ((c : Thread nD τ).loc main_arg0) : S50000x64.Idx → EReal) (ix2 r k) :=
    congrFun (features_at1 m c) _
  have hw : weightsIn0 (fun c b => at1 m c b) c (ix2 k j) = (m ((c : Thread nD τ).loc main_arg4) : S3x64x64.Idx → EReal) (ix3 (0 : Fin 3) k j) :=
    (congrFun (weights_at1 m c) _).trans (Cert.ReferenceIdeal.RefPre.weight1 _ k j)
  show rowsIn0 (fun c b => at1 m c b) c (ix2 r k) * weightsIn0 (fun c b => at1 m c b) c (ix2 k j) = _
  rw [hr, hw]

end Cert.Bridge

end
-- ==== Proof.Bridge.Layer1Aggregate.lean ====
import proofs.«123467_j2559800508646_1_alg».proof.Proof.Bridge.Layer1Host
import proofs.«123467_j2559800508646_1_alg».proof.Proof.Bridge.Layer1Product

/-!
# Layer one of the kernel program: the aggregated messages are the reference's

After the first call the three edge arrays are still as launched, so the host operations aggregate the first product
along the same edges as the reference does; with the product being the reference's, so is the aggregate.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- After the first call an argument array is as launched: the call writes its own output array only, and the host
    operations before it write none of the arguments. -/
theorem arg_at2 (c : Dev nD) (b : Ref sig .tc) (hb : b ≠ main_v2) (h1 : at1 m c (Proc.devRef .tc b) = m ((c : Thread nD τ).loc b)) :
    at2 m c (Proc.devRef .tc b) = m ((c : Thread nD τ).loc b) := by
  unfold at2
  rw [Function.update_of_ne (StableHlo.devRef_ne_of_ne hb)]
  exact h1

theorem sources_at1 (c : Dev nD) : at1 m c (Proc.devRef .tc main_arg1) = m ((c : Thread nD τ).loc main_arg1) := by
  unfold at1; after_results; rfl
theorem targets_at1 (c : Dev nD) : at1 m c (Proc.devRef .tc main_arg2) = m ((c : Thread nD τ).loc main_arg2) := by
  unfold at1; after_results; rfl
theorem edge_weights_at1 (c : Dev nD) : at1 m c (Proc.devRef .tc main_arg3) = m ((c : Thread nD τ).loc main_arg3) := by
  unfold at1; after_results; rfl

/-- THE FIRST AGGREGATE IS THE REFERENCE'S. -/
theorem aggregate1 (c : Dev nD) :
    at3 m c (Proc.devRef .tc main_v15)
      = Cert.ReferenceIdeal.ReadP.val_main_v15 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [aggregated1, product1, arg_at2 m c main_arg1 (by decide) (sources_at1 m c), arg_at2 m c main_arg2 (by decide) (targets_at1 m c),
    arg_at2 m c main_arg3 (by decide) (edge_weights_at1 m c)]
  exact (Cert.ReferenceIdeal.RefPre.agg1 _ _ _ _ _).symm

end Cert.Bridge

end
-- ==== Proof.Bridge.HostWindows1.lean ====
import proofs.«123467_j2559800508646_1_alg».proof.Proof.KI.Boundaries
import proofs.«123467_j2559800508646_1_alg».proof.Proof.Ref.Pre
import Idealize.ShloMosaic.Lib.StableHlo.Run

/-!
# Layer one of the kernel program: what its host operations hand to its calls

Between its calls the kernel program prepares, with host operations, the small arrays the calls read: the layer's bias row
and slope for the statistics call, and for the normalisation call the column means, the column variances, the scale row
and the shift row. They are the same cuts of the same argument tables as the reference's, and the mean and variance are
the column sums `S` and the column sums of squares `Q` that the statistics call leaves, divided by `n`:
`mean = S / n`, `variance = Q / n − mean · mean`. Arguments and arrays that a stretch does not write pass through it.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

variable (m : (ℓ : Loc nD τ sig) → Buf (Elt Ideal) ℓ)

/-! ## Arguments are as launched where they are read -/

/-- After the first call argument 1 is as launched. -/
theorem arg1_at2 (c : Dev nD) : at2 m c (Proc.devRef .tc main_arg1) = (m ((c : Thread nD τ).loc main_arg1)) := by
  rw [← at2_eq m c, V2_of m (boundaryOuts m) c main_arg1 (by decide), V1_of m c main_arg1 (by decide)]

/-- After the first call argument 2 is as launched. -/
theorem arg2_at2 (c : Dev nD) : at2 m c (Proc.devRef .tc main_arg2) = (m ((c : Thread nD τ).loc main_arg2)) := by
  rw [← at2_eq m c, V2_of m (boundaryOuts m) c main_arg2 (by decide), V1_of m c main_arg2 (by decide)]

/-- After the first call argument 3 is as launched. -/
theorem arg3_at2 (c : Dev nD) : at2 m c (Proc.devRef .tc main_arg3) = (m ((c : Thread nD τ).loc main_arg3)) := by
  rw [← at2_eq m c, V2_of m (boundaryOuts m) c main_arg3 (by decide), V1_of m c main_arg3 (by decide)]

/-- After the first call argument 5 is as launched. -/
theorem arg5_at2 (c : Dev nD) : at2 m c (Proc.devRef .tc main_arg5) = (m ((c : Thread nD τ).loc main_arg5)) := by
  rw [← at2_eq m c, V2_of m (boundaryOuts m) c main_arg5 (by decide), V1_of m c main_arg5 (by decide)]

/-- After the first call argument 6 is as launched. -/
theorem arg6_at2 (c : Dev nD) : at2 m c (Proc.devRef .tc main_arg6) = (m ((c : Thread nD τ).loc main_arg6)) := by
  rw [← at2_eq m c, V2_of m (boundaryOuts m) c main_arg6 (by decide), V1_of m c main_arg6 (by decide)]

/-- After the statistics call argument 7 is as launched. -/
theorem arg7_at4 (c : Dev nD) : at4 m c (Proc.devRef .tc main_arg7) = (m ((c : Thread nD τ).loc main_arg7)) := by
  rw [← at4_eq m c, V4_of m (boundaryOuts m) c main_arg7 (by decide), V3_of m (boundaryOuts m) c main_arg7 (by decide),
    V2_of m (boundaryOuts m) c main_arg7 (by decide), V1_of m c main_arg7 (by decide)]

/-- After the statistics call argument 8 is as launched. -/
theorem arg8_at4 (c : Dev nD) : at4 m c (Proc.devRef .tc main_arg8) = (m ((c : Thread nD τ).loc main_arg8)) := by
  rw [← at4_eq m c, V4_of m (boundaryOuts m) c main_arg8 (by decide), V3_of m (boundaryOuts m) c main_arg8 (by decide),
    V2_of m (boundaryOuts m) c main_arg8 (by decide), V1_of m c main_arg8 (by decide)]

/-! ## A row of 64 laid out as one row of a 1 × 64 array -/

/-- A vector of 64 entries recast as a 1 × 64 array, read at row 0, column `j`, is the vector at `j`. -/
theorem row_of_vector {α : Type} (y : S64.Idx → α) (j : Fin 64) :
    shapeCast S1x64 y shapeCasts_S64_S1x64 (ix2 (0 : Fin 1) j) = y (ix1 j) :=
  shapeCast_apply y shapeCasts_S64_S1x64 (ix2 (0 : Fin 1) j) (ix1 j)
    (by rewrite [Shape.rowMajor_val_one, Shape.rowMajor_val_two]; show j.val = 0 * 64 + j.val; omega)

/-- A scalar recast as a 1 × 1 array, read at its one entry, is the scalar. -/
theorem cell_of_scalar {α : Type} (y : S_.Idx → α) :
    shapeCast S1x1 y shapeCasts_S_S1x1 (ix2 (0 : Fin 1) (0 : Fin 1)) = y ix0 :=
  shapeCast_apply y shapeCasts_S_S1x1 (ix2 (0 : Fin 1) (0 : Fin 1)) ix0
    (by
      have h1 : (S_.rowMajor ix0).val < 1 := (S_.rowMajor ix0).isLt
      rewrite [Shape.rowMajor_val_two]
      show (S_.rowMajor ix0).val = 0 * 1 + 0
      omega)

/-! ## The statistics call's bias row and slope -/

set_option maxHeartbeats 8000000 in
/-- The bias window's array is the reference's first bias row, laid out as one row. -/
theorem bias_window1 (c : Dev nD) :
    at3 m c (Proc.devRef .tc main_v18)
      = shapeCast S1x64 (Cert.ReferenceIdeal.ReadP.val_main_v17 (F := Ideal) (at2 m c (Proc.devRef .tc main_arg5))) shapeCasts_S64_S1x64 := by
  unfold at3
  after_results
  rfl

/-- THE BIAS THE STATISTICS CALL READS, at column `j`: the first row of the bias table. -/
theorem bias_at3 (c : Dev nD) (j : Fin 64) :
    (at3 m c (Proc.devRef .tc main_v18) : S1x64.Idx → EReal) (ix2 (0 : Fin 1) j)
      = ((m ((c : Thread nD τ).loc main_arg5)) : S3x64.Idx → EReal) (ix2 (0 : Fin 3) j) := by
  rw [bias_window1, arg5_at2, row_of_vector, Cert.ReferenceIdeal.RefPre.bias1]

set_option maxHeartbeats 8000000 in
/-- The slope window's array is the reference's first slope, laid out as a 1 × 1 array. -/
theorem slope_window1 (c : Dev nD) :
    at3 m c (Proc.devRef .tc main_v21)
      = shapeCast S1x1 (Cert.ReferenceIdeal.ReadP.val_main_v24 (F := Ideal) (at2 m c (Proc.devRef .tc main_arg6))) shapeCasts_S_S1x1 := by
  unfold at3
  after_results
  rfl

/-- THE SLOPE THE STATISTICS CALL READS: the first entry of the slope table. -/
theorem slope_at3 (c : Dev nD) :
    (at3 m c (Proc.devRef .tc main_v21) : S1x1.Idx → EReal) (ix2 (0 : Fin 1) (0 : Fin 1))
      = ((m ((c : Thread nD τ).loc main_arg6)) : S3.Idx → EReal) (ix1 (0 : Fin 3)) := by
  rw [slope_window1, arg6_at2, cell_of_scalar, Cert.ReferenceIdeal.RefPre.slope1]

/-! ## The normalisation call's mean, variance, scale and shift rows -/

set_option maxHeartbeats 8000000 in
/-- THE MEAN ROW THE NORMALISATION CALL READS: the column sums the statistics call left, divided by `n`. -/
theorem mean_at5 (c : Dev nD) (i : S1x64.Idx) :
    (at5 m c (Proc.devRef .tc main_v24) : S1x64.Idx → EReal) i
      = Ideal.div ((at4 m c (Proc.devRef .tc main_v22_1) : S1x64.Idx → EReal) i) (Ideal.ofBits .f32 0x47435000#32) := by
  unfold at5
  after_results
  rfl

set_option maxHeartbeats 8000000 in
/-- THE VARIANCE ROW THE NORMALISATION CALL READS: the column sums of squares over `n`, minus the square of the mean. -/
theorem variance_at5 (c : Dev nD) (i : S1x64.Idx) :
    (at5 m c (Proc.devRef .tc main_v28) : S1x64.Idx → EReal) i
      = Ideal.div ((at4 m c (Proc.devRef .tc main_v22_2) : S1x64.Idx → EReal) i) (Ideal.ofBits .f32 0x47435000#32)
        - Ideal.div ((at4 m c (Proc.devRef .tc main_v22_1) : S1x64.Idx → EReal) i) (Ideal.ofBits .f32 0x47435000#32)
          * Ideal.div ((at4 m c (Proc.devRef .tc main_v22_1) : S1x64.Idx → EReal) i) (Ideal.ofBits .f32 0x47435000#32) := by
  unfold at5
  after_results
  rfl

set_option maxHeartbeats 8000000 in
/-- The scale window's array is the reference's first scale row, laid out as one row. -/
theorem scale_window1 (c : Dev nD) :
    at5 m c (Proc.devRef .tc main_v31)
      = shapeCast S1x64 (Cert.ReferenceIdeal.ReadP.val_main_v39 (F := Ideal) (at4 m c (Proc.devRef .tc main_arg7))) shapeCasts_S64_S1x64 := by
  unfold at5
  after_results
  rfl

/-- THE SCALE THE NORMALISATION CALL READS, at column `j`: the first row of the scale table. -/
theorem scale_at5 (c : Dev nD) (j : Fin 64) :
    (at5 m c (Proc.devRef .tc main_v31) : S1x64.Idx → EReal) (ix2 (0 : Fin 1) j)
      = ((m ((c : Thread nD τ).loc main_arg7)) : S3x64.Idx → EReal) (ix2 (0 : Fin 3) j) := by
  rw [scale_window1, arg7_at4, row_of_vector, Cert.ReferenceIdeal.RefPre.scale1]

set_option maxHeartbeats 8000000 in
/-- The shift window's array is the reference's first shift row, laid out as one row. -/
theorem shift_window1 (c : Dev nD) :
    at5 m c (Proc.devRef .tc main_v34)
      = shapeCast S1x64 (Cert.ReferenceIdeal.ReadP.val_main_v53 (F := Ideal) (at4 m c (Proc.devRef .tc main_arg8))) shapeCasts_S64_S1x64 := by
  unfold at5
  after_results
  rfl

/-- THE SHIFT THE NORMALISATION CALL READS, at column `j`: the first row of the shift table. -/
theorem shift_at5 (c : Dev nD) (j : Fin 64) :
    (at5 m c (Proc.devRef .tc main_v34) : S1x64.Idx → EReal) (ix2 (0 : Fin 1) j)
      = ((m ((c : Thread nD τ).loc main_arg8)) : S3x64.Idx → EReal) (ix2 (0 : Fin 3) j) := by
  rw [shift_window1, arg8_at4, row_of_vector, Cert.ReferenceIdeal.RefPre.shift1]

/-! ## What passes through a stretch unchanged -/

/-- The rectified array the statistics call wrote is still there when the normalisation call starts. -/
theorem rectified_at5 (c : Dev nD) : at5 m c (Proc.devRef .tc main_v22_0) = at4 m c (Proc.devRef .tc main_v22_0) := by
  rw [← at5_eq m c, V5_of m (boundaryOuts m) c main_v22_0 (by decide), at4_eq]

/-- The layer's output is still there when the next layer's product starts. -/
theorem output_at7 (c : Dev nD) : at7 m c (Proc.devRef .tc main_v35) = at6 m c (Proc.devRef .tc main_v35) := by
  rw [← at7_eq m c, V7_of m (boundaryOuts m) c main_v35 (by decide), at6_eq]

end Cert.Bridge

end
-- ==== Proof.KI.StatsValue1.lean ====
import proofs.«123467_j2559800508646_1_alg».proof.Proof.KI.StatsData1
import Idealize.ShloMosaic.Lib.Pipeline.Value

/-!
# The first layer's activation and column statistics: the values

What a run's found pieces hold, read back: the output block is the activated block of the loaded inputs; a running
row after a point is the row it was handed plus the block's column sums (for the second row, of the squares); at the
first point the row it is handed is the zero row the body has just stored; at the last point each row output is a copy
of the running row just stored. So the two running rows after point `n` are an ordered chain of additions — the zero
row, plus block 0's column sums, plus block 1's, … — and the recursion over the cases' pieces is that chain.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem origin2_1 : (![0, 0] : Fin 2 → Nat) = fun _ => 0 := funext fun a => by fin_cases a <;> rfl
local notation "origin2" => origin2_1

/-! ## The cases' pieces, read back -/

/-- A middle point leaves the activated block in the output block. -/
theorem middle_block1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : ¬atLast1 i) (x0 : Vec F S5000x64 .f32) (x1 : Vec F S1x64 .f32) (x2 : Vec F S1x1 .f32) (s q : Vec F S1x64 .f32) :
    blockOfPieces1 (statsRun1_middle (F := F) c i arg1 harg1 arg2 harg2 arg3 harg3 arg4 harg4 arg5 harg5 arg6 harg6 arg7 harg7 arg8 harg8 hc0 hc1 x0 x1 x2 s q).1 = k1_pay3 x0 x1 x2 := by
  unfold blockOfPieces1
  rw [View.read_writes_eq_canon _ _ _ (fun y => View.cover_of_tiledL _ S5000x64.size (by sl_kernel_rfl) y)]
  unfold statsRun1_middle
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- A middle point leaves, in the first running row, the row it was handed plus the block's column sums. -/
theorem middle_sum1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : ¬atLast1 i) (x0 : Vec F S5000x64 .f32) (x1 : Vec F S1x64 .f32) (x2 : Vec F S1x1 .f32) (s q : Vec F S1x64 .f32) :
    rowOfPieces1 (statsRun1_middle (F := F) c i arg1 harg1 arg2 harg2 arg3 harg3 arg4 harg4 arg5 harg5 arg6 harg6 arg7 harg7 arg8 harg8 hc0 hc1 x0 x1 x2 s q).2.1 = k1_pay4 x0 x1 x2 s := by
  unfold rowOfPieces1
  rw [View.read_writes_eq_canon _ _ _ (fun y => View.cover_of_tiledL _ S1x64.size (by sl_kernel_rfl) y)]
  unfold statsRun1_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- A middle point leaves, in the second running row, the row it was handed plus the column sums of the block's squares. -/
theorem middle_sq1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : ¬atLast1 i) (x0 : Vec F S5000x64 .f32) (x1 : Vec F S1x64 .f32) (x2 : Vec F S1x1 .f32) (s q : Vec F S1x64 .f32) :
    rowOfPieces1 (statsRun1_middle (F := F) c i arg1 harg1 arg2 harg2 arg3 harg3 arg4 harg4 arg5 harg5 arg6 harg6 arg7 harg7 arg8 harg8 hc0 hc1 x0 x1 x2 s q).2.2.1 = k1_pay5 x0 x1 x2 q := by
  unfold rowOfPieces1
  rw [View.read_writes_eq_canon _ _ _ (fun y => View.cover_of_tiledL _ S1x64.size (by sl_kernel_rfl) y)]
  unfold statsRun1_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The first point leaves the activated block in the output block. -/
theorem first_block1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : atFirst1 i) (hc1 : ¬atLast1 i) (x0 : Vec F S5000x64 .f32) (x1 : Vec F S1x64 .f32) (x2 : Vec F S1x1 .f32) :
    blockOfPieces1 (statsRun1_first (F := F) c i arg1 harg1 arg2 harg2 arg3 harg3 arg4 harg4 arg5 harg5 arg6 harg6 arg7 harg7 arg8 harg8 hc0 hc1 x0 x1 x2).1 = k1_pay3 x0 x1 x2 := by
  unfold blockOfPieces1
  rw [View.read_writes_eq_canon _ _ _ (fun y => View.cover_of_tiledL _ S5000x64.size (by sl_kernel_rfl) y)]
  unfold statsRun1_first
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The first point leaves, in the first running row, the zero row plus the block's column sums. -/
theorem first_sum1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : atFirst1 i) (hc1 : ¬atLast1 i) (x0 : Vec F S5000x64 .f32) (x1 : Vec F S1x64 .f32) (x2 : Vec F S1x1 .f32) :
    rowOfPieces1 (statsRun1_first (F := F) c i arg1 harg1 arg2 harg2 arg3 harg3 arg4 harg4 arg5 harg5 arg6 harg6 arg7 harg7 arg8 harg8 hc0 hc1 x0 x1 x2).2.1 = k1_pay4 x0 x1 x2 (k1_pay1 (F := F)) := by
  unfold rowOfPieces1
  rw [View.read_writes_eq_canon _ _ _ (fun y => View.cover_of_tiledL _ S1x64.size (by sl_kernel_rfl) y)]
  unfold statsRun1_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The first point leaves, in the second running row, the zero row plus the column sums of the block's squares. -/
theorem first_sq1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : atFirst1 i) (hc1 : ¬atLast1 i) (x0 : Vec F S5000x64 .f32) (x1 : Vec F S1x64 .f32) (x2 : Vec F S1x1 .f32) :
    rowOfPieces1 (statsRun1_first (F := F) c i arg1 harg1 arg2 harg2 arg3 harg3 arg4 harg4 arg5 harg5 arg6 harg6 arg7 harg7 arg8 harg8 hc0 hc1 x0 x1 x2).2.2.1 = k1_pay5 x0 x1 x2 (k1_pay2 (F := F)) := by
  unfold rowOfPieces1
  rw [View.read_writes_eq_canon _ _ _ (fun y => View.cover_of_tiledL _ S1x64.size (by sl_kernel_rfl) y)]
  unfold statsRun1_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The last point leaves the activated block in the output block. -/
theorem last_block1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    blockOfPieces1 (statsRun1_last (F := F) c i arg1 harg1 arg2 harg2 arg3 harg3 arg4 harg4 arg5 harg5 arg6 harg6 arg7 harg7 arg8 harg8 hc0 hc1 x0 x1 x2 s q).1 = k1_pay3 x0 x1 x2 := by
  unfold blockOfPieces1
  rw [View.read_writes_eq_canon _ _ _ (fun y => View.cover_of_tiledL _ S5000x64.size (by sl_kernel_rfl) y)]
  unfold statsRun1_last
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The last point copies the first running row, as just stored, into the first row output. -/
theorem last_out_sum1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.1 = k1_pay4 x0 x1 x2 s := by
  unfold rowOfPieces1
  rw [View.read_writes_eq_canon _ _ _ (fun y => View.cover_of_tiledL _ S1x64.size (by sl_kernel_rfl) y)]
  unfold statsRun1_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The last point copies the second running row, as just stored, into the second row output. -/
theorem last_out_sq1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.2.1 = k1_pay5 x0 x1 x2 q := by
  unfold rowOfPieces1
  rw [View.read_writes_eq_canon _ _ _ (fun y => View.cover_of_tiledL _ S1x64.size (by sl_kernel_rfl) y)]
  unfold statsRun1_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The last point leaves, in the first running row, the row it was handed plus the block's column sums. -/
theorem last_sum1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.2.2.1 = k1_pay4 x0 x1 x2 s := by
  unfold rowOfPieces1
  rw [View.read_writes_eq_canon _ _ _ (fun y => View.cover_of_tiledL _ S1x64.size (by sl_kernel_rfl) y)]
  unfold statsRun1_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- The last point leaves, in the second running row, the row it was handed plus the column sums of the block's squares. -/
theorem last_sq1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.2.2.2.1 = k1_pay5 x0 x1 x2 q := by
  unfold rowOfPieces1
  rw [View.read_writes_eq_canon _ _ _ (fun y => View.cover_of_tiledL _ S1x64.size (by sl_kernel_rfl) y)]
  unfold statsRun1_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, View.ld_unit_zero (S := S5000x64) origin2, View.ld_unit_zero (S := S1x64) origin2, View.ld_unit_zero (S := S1x1) origin2]

/-- At the last point each row output holds what the matching running row holds: it is a copy of it. -/
theorem last_out_is_sum1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.1 = rowOfPieces1 (statsRun1_last (F := F) c i arg1 harg1 arg2 harg2 arg3 harg3 arg4 harg4 arg5 harg5 arg6 harg6 arg7 harg7 arg8 harg8 hc0 hc1 x0 x1 x2 s q).2.2.2.1 :=
  (last_out_sum1 c i arg1 harg1 arg2 harg2 arg3 harg3 arg4 harg4 arg5 harg5 arg6 harg6 arg7 harg7 arg8 harg8 hc0 hc1 x0 x1 x2 s q).trans (last_sum1 c i arg1 harg1 arg2 harg2 arg3 harg3 arg4 harg4 arg5 harg5 arg6 harg6 arg7 harg7 arg8 harg8 hc0 hc1 x0 x1 x2 s q).symm
theorem last_out_is_sq1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬atFirst1 i) (hc1 : atLast1 i) (x0 : Vec F S5000x64 .f32) (x1 : Vec F S1x64 .f32) (x2 : Vec F S1x1 .f32) (s q : Vec F S1x64 .f32) :
    rowOfPieces1 (statsRun1_last (F := F) c i arg1 harg1 arg2 harg2 arg3 harg3 arg4 harg4 arg5 harg5 arg6 harg6 arg7 harg7 arg8 harg8 hc0 hc1 x0 x1 x2 s q).2.2.1 = rowOfPieces1 (statsRun1_last (F := F) c i arg1 harg1 arg2 harg2 arg3 harg3 arg4 harg4 arg5 harg5 arg6 harg6 arg7 harg7 arg8 harg8 hc0 hc1 x0 x1 x2 s q).2.2.2.2.1 :=
  (last_out_sq1 c i arg1 harg1 arg2 harg2 arg3 harg3 arg4 harg4 arg5 harg5 arg6 harg6 arg7 harg7 arg8 harg8 hc0 hc1 x0 x1 x2 s q).trans (last_sq1 c i arg1 harg1 arg2 harg2 arg3 harg3 arg4 harg4 arg5 harg5 arg6 harg6 arg7 harg7 arg8 harg8 hc0 hc1 x0 x1 x2 s q).symm

variable (V : (c : Dev nD) → (b : Ref sig .tc) → Buf (Elt F) ((c : Thread nD τ).loc b))

/-! ## The running rows are an ordered chain -/

/-- The two running rows after point `n`: from the zero rows, one block's column sums (resp. column sums of squares)
    added per point, in point order. -/
def runningRows1 (c : Dev nD) : (n : ℕ) → n < cfg1.N → Vec F S1x64 .f32 × Vec F S1x64 .f32
  | 0, h => (k1_pay4 (blockAt1 V c 0 ⟨0, h⟩) (blockAt1 V c 1 ⟨0, h⟩) (blockAt1 V c 2 ⟨0, h⟩) (k1_pay1 (F := F)), k1_pay5 (blockAt1 V c 0 ⟨0, h⟩) (blockAt1 V c 1 ⟨0, h⟩) (blockAt1 V c 2 ⟨0, h⟩) (k1_pay2 (F := F)))
  | n + 1, h =>
    (k1_pay4 (blockAt1 V c 0 ⟨n + 1, h⟩) (blockAt1 V c 1 ⟨n + 1, h⟩) (blockAt1 V c 2 ⟨n + 1, h⟩) (runningRows1 c n (Nat.lt_of_succ_lt h)).1,
     k1_pay5 (blockAt1 V c 0 ⟨n + 1, h⟩) (blockAt1 V c 1 ⟨n + 1, h⟩) (blockAt1 V c 2 ⟨n + 1, h⟩) (runningRows1 c n (Nat.lt_of_succ_lt h)).2)

set_option maxHeartbeats 2000000 in
/-- What the recursion over the cases' pieces keeps in the two running rows IS that chain: by induction on the point. -/
theorem stateAfter1_rows (c : Dev nD) : ∀ (n : ℕ) (h : n < cfg1.N),
    ((stateAfter1 V c n h).2.2.2.1, (stateAfter1 V c n h).2.2.2.2) = runningRows1 V c n h
  | 0, h => by
    have e := stateAfter1_first V c ⟨0, h⟩ rfl (by show ¬(0 : ℕ) % 10 = 9; decide)
    rw [show stateAfter1 V c 0 h = stateAfter1 V c (⟨0, h⟩ : Fin cfg1.N).val (⟨0, h⟩ : Fin cfg1.N).isLt from rfl, e]
    dsimp only
    refine Prod.ext ?_ ?_
    · show rowOfPieces1 _ = k1_pay4 (blockAt1 V c 0 ⟨0, h⟩) (blockAt1 V c 1 ⟨0, h⟩) (blockAt1 V c 2 ⟨0, h⟩) (k1_pay1 (F := F))
      exact first_sum1 ..
    · show rowOfPieces1 _ = k1_pay5 (blockAt1 V c 0 ⟨0, h⟩) (blockAt1 V c 1 ⟨0, h⟩) (blockAt1 V c 2 ⟨0, h⟩) (k1_pay2 (F := F))
      exact first_sq1 ..
  | n + 1, h => by
    have ih := stateAfter1_rows c n (Nat.lt_of_succ_lt h)
    have ih1 : (stateAfter1 V c n (Nat.lt_of_succ_lt h)).2.2.2.1 = (runningRows1 V c n (Nat.lt_of_succ_lt h)).1 := congrArg Prod.fst ih
    have ih2 : (stateAfter1 V c n (Nat.lt_of_succ_lt h)).2.2.2.2 = (runningRows1 V c n (Nat.lt_of_succ_lt h)).2 := congrArg Prod.snd ih
    by_cases h9 : (n + 1) % 10 = 9
    · have e := stateAfter1_last V c ⟨n + 1, h⟩ (Nat.succ_ne_zero n) h9
      rw [show stateAfter1 V c (n + 1) h = stateAfter1 V c (⟨n + 1, h⟩ : Fin cfg1.N).val (⟨n + 1, h⟩ : Fin cfg1.N).isLt from rfl, e]
      dsimp only
      refine Prod.ext ?_ ?_
      · show rowOfPieces1 _ = k1_pay4 (blockAt1 V c 0 ⟨n + 1, h⟩) (blockAt1 V c 1 ⟨n + 1, h⟩) (blockAt1 V c 2 ⟨n + 1, h⟩) (runningRows1 V c n (Nat.lt_of_succ_lt h)).1
        rw [← ih1]
        exact last_sum1 ..
      · show rowOfPieces1 _ = k1_pay5 (blockAt1 V c 0 ⟨n + 1, h⟩) (blockAt1 V c 1 ⟨n + 1, h⟩) (blockAt1 V c 2 ⟨n + 1, h⟩) (runningRows1 V c n (Nat.lt_of_succ_lt h)).2
        rw [← ih2]
        exact last_sq1 ..
    · have e := stateAfter1_middle V c ⟨n + 1, h⟩ (Nat.succ_ne_zero n) h9
      rw [show stateAfter1 V c (n + 1) h = stateAfter1 V c (⟨n + 1, h⟩ : Fin cfg1.N).val (⟨n + 1, h⟩ : Fin cfg1.N).isLt from rfl, e]
      dsimp only
      refine Prod.ext ?_ ?_
      · show rowOfPieces1 _ = k1_pay4 (blockAt1 V c 0 ⟨n + 1, h⟩) (blockAt1 V c 1 ⟨n + 1, h⟩) (blockAt1 V c 2 ⟨n + 1, h⟩) (runningRows1 V c n (Nat.lt_of_succ_lt h)).1
        rw [← ih1]
        exact middle_sum1 ..
      · show rowOfPieces1 _ = k1_pay5 (blockAt1 V c 0 ⟨n + 1, h⟩) (blockAt1 V c 1 ⟨n + 1, h⟩) (blockAt1 V c 2 ⟨n + 1, h⟩) (runningRows1 V c n (Nat.lt_of_succ_lt h)).2
        rw [← ih2]
        exact middle_sq1 ..

set_option maxHeartbeats 2000000 in
/-- After any point the output block holds the activated block of that point's inputs. -/
theorem stateAfter1_block (c : Dev nD) (t : Fin cfg1.N) :
    (stateAfter1 V c t.val t.isLt).1 = k1_pay3 (blockAt1 V c 0 t) (blockAt1 V c 1 t) (blockAt1 V c 2 t) := by
  by_cases h9 : t.val % 10 = 9
  · have hN : t.val < 10 := lt_of_lt_of_eq t.isLt (show cfg1.N = 10 from N_1)
    have h0 : t.val ≠ 0 := by omega
    rw [stateAfter1_last V c t h0 h9]; dsimp only; exact last_block1 ..
  · by_cases h0 : t.val = 0
    · rw [stateAfter1_first V c t h0 h9]; dsimp only; exact first_block1 ..
    · rw [stateAfter1_middle V c t h0 h9]; dsimp only; exact middle_block1 ..

set_option maxHeartbeats 2000000 in
/-- At the last point the two row outputs hold the two running rows after that point. -/
theorem stateAfter1_outs (c : Dev nD) (t : Fin cfg1.N) (h9 : t.val % 10 = 9) :
    ((stateAfter1 V c t.val t.isLt).2.1, (stateAfter1 V c t.val t.isLt).2.2.1) = runningRows1 V c t.val t.isLt := by
  have hN : t.val < 10 := lt_of_lt_of_eq t.isLt (show cfg1.N = 10 from N_1)
  have h0 : t.val ≠ 0 := by omega
  rw [← stateAfter1_rows V c t.val t.isLt, stateAfter1_last V c t h0 h9]
  dsimp only
  refine Prod.ext ?_ ?_
  · dsimp only
    exact last_out_is_sum1 (F := F) ..
  · dsimp only
    exact last_out_is_sq1 (F := F) ..

/-! ## The two row outputs' arrays after the call -/

/-- The column sums: the first running row after the last point, as the contents of the first row output's array. -/
abbrev sumArray1 (c : Dev nD) : Buf (Elt F) ((c : Thread nD τ).loc main_v22_1) :=
  (runningRows1 V c 9 (by rw [show cfg1.N = 10 from N_1]; decide)).1

/-- The one write-back of window 4, at the last point, writes that row: the block at index (0, 0) of a 1 × 64 array,
    read through zero offsets, is the array. -/
theorem sum_written_back1 (c : Dev nD) (t : Fin cfg1.N) (hf : (cfg1.win 4).flush t = true) :
    (statsData1 V c).flushed 4 t = ((cfg1.win 4).blk t).view.read (Elt F) (sumArray1 V c) := by
  have hN : cfg1.N = 10 := N_1
  have h9 : t.val = 9 := by have := (flush1_4 t).mp hf; have := t.isLt; omega
  obtain rfl : t = t1_9 := Fin.ext h9
  show (cfg1.win 4).cut (grid1.coords t1_9) ((statsData1 V c).after 4 t1_9) = _
  rw [statsData1_after4]
  have hrow := congrArg Prod.fst (stateAfter1_outs V c t1_9 (by decide))
  dsimp only at hrow
  rw [hrow]
  have hz' : (fun a => win1_4.index t1_9 a * main_v22_1.ty.shape.size a) = fun _ => 0 := funext fun a => by fin_cases a <;> decide
  exact (Memref.read_access_unit_zero (Elt F) main_v22_1 hz' (fun a => by rw [congrFun hz' a]; simp) (sumArray1 V c)).symm

/-- So after the call the array of window 4 holds that row: the last point's block covers it. -/
theorem sum_array1 (c : Dev nD) : (statsData1 V c).arrAt 4 cfg1.N = sumArray1 V c :=
  (statsData1 V c).arrAt_eq_of_cover 4 (sumArray1 V c) (sum_written_back1 V c) fun i =>
    ⟨t1_9, (flush1_4 t1_9).mpr (by decide), by
      show i ∈ ((View.whole main_v22_1).slice (win1_4.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_4.index t1_9 0 * win1_4.size 0 ≤ (i 0 : Nat)
          ∧ (i 0 : Nat) < win1_4.index t1_9 0 * win1_4.size 0 + win1_4.xsize (grid1.coords t1_9) 0
        rw [show win1_4.index t1_9 0 * win1_4.size 0 = 0 from by decide +kernel,
          show win1_4.xsize (grid1.coords t1_9) 0 = 1 from by decide +kernel]; omega
      | ⟨1, _⟩ =>
        show win1_4.index t1_9 1 * win1_4.size 1 ≤ (i 1 : Nat)
          ∧ (i 1 : Nat) < win1_4.index t1_9 1 * win1_4.size 1 + win1_4.xsize (grid1.coords t1_9) 1
        rw [show win1_4.index t1_9 1 * win1_4.size 1 = 0 from by decide +kernel,
          show win1_4.xsize (grid1.coords t1_9) 1 = 64 from by decide +kernel]; omega⟩

/-- The column sums of squares: the second running row after the last point, as the contents of the second row output's array. -/
abbrev sqArray1 (c : Dev nD) : Buf (Elt F) ((c : Thread nD τ).loc main_v22_2) :=
  (runningRows1 V c 9 (by rw [show cfg1.N = 10 from N_1]; decide)).2

/-- The one write-back of window 5, at the last point, writes that row: the block at index (0, 0) of a 1 × 64 array,
    read through zero offsets, is the array. -/
theorem sq_written_back1 (c : Dev nD) (t : Fin cfg1.N) (hf : (cfg1.win 5).flush t = true) :
    (statsData1 V c).flushed 5 t = ((cfg1.win 5).blk t).view.read (Elt F) (sqArray1 V c) := by
  have hN : cfg1.N = 10 := N_1
  have h9 : t.val = 9 := by have := (flush1_5 t).mp hf; have := t.isLt; omega
  obtain rfl : t = t1_9 := Fin.ext h9
  show (cfg1.win 5).cut (grid1.coords t1_9) ((statsData1 V c).after 5 t1_9) = _
  rw [statsData1_after5]
  have hrow := congrArg Prod.snd (stateAfter1_outs V c t1_9 (by decide))
  dsimp only at hrow
  rw [hrow]
  have hz' : (fun a => win1_5.index t1_9 a * main_v22_2.ty.shape.size a) = fun _ => 0 := funext fun a => by fin_cases a <;> decide
  exact (Memref.read_access_unit_zero (Elt F) main_v22_2 hz' (fun a => by rw [congrFun hz' a]; simp) (sqArray1 V c)).symm

/-- So after the call the array of window 5 holds that row: the last point's block covers it. -/
theorem sq_array1 (c : Dev nD) : (statsData1 V c).arrAt 5 cfg1.N = sqArray1 V c :=
  (statsData1 V c).arrAt_eq_of_cover 5 (sqArray1 V c) (sq_written_back1 V c) fun i =>
    ⟨t1_9, (flush1_5 t1_9).mpr (by decide), by
      show i ∈ ((View.whole main_v22_2).slice (win1_5.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_5.index t1_9 0 * win1_5.size 0 ≤ (i 0 : Nat)
          ∧ (i 0 : Nat) < win1_5.index t1_9 0 * win1_5.size 0 + win1_5.xsize (grid1.coords t1_9) 0
        rw [show win1_5.index t1_9 0 * win1_5.size 0 = 0 from by decide +kernel,
          show win1_5.xsize (grid1.coords t1_9) 0 = 1 from by decide +kernel]; omega
      | ⟨1, _⟩ =>
        show win1_5.index t1_9 1 * win1_5.size 1 ≤ (i 1 : Nat)
          ∧ (i 1 : Nat) < win1_5.index t1_9 1 * win1_5.size 1 + win1_5.xsize (grid1.coords t1_9) 1
        rw [show win1_5.index t1_9 1 * win1_5.size 1 = 0 from by decide +kernel,
          show win1_5.xsize (grid1.coords t1_9) 1 = 64 from by decide +kernel]; omega⟩

end Cert.KernelIdeal.Hand

end
-- ==== Proof.KI.Leaky.lean ====
import Idealize.ShloMosaic.PureOps.Ideal

/-!
# The leaky rectifier on the extended reals

`leaky a t` is `t` where `t` is at least zero and `a · t` elsewhere: the activation with slope `a` on the negative
side. Every statement about the activation goes through this one definition.
-/

noncomputable section

namespace Cert.KernelIdeal.Hand

/-- The activation with slope `a` below zero. -/
def leaky (a t : EReal) : EReal := if 0 ≤ t then t else a * t

end Cert.KernelIdeal.Hand

end
-- ==== Proof.KI.StatsPay1.lean ====
import proofs.«123467_j2559800508646_1_alg».proof.Proof.Gen.KernelIdeal.Skeleton
import proofs.«123467_j2559800508646_1_alg».proof.Proof.KI.Leaky
import Idealize.ShloMosaic.Lib.Pipeline.Value
import Idealize.ShloMosaic.Lib.ValueIdx
import Idealize.ShloMosaic.Lib.ValueLayout
import Idealize.ShloMosaic.PureOps.Ideal.Laws

/-!
# The first layer's activation and column statistics: what the body stores, entry by entry

Read at the extended reals. The body adds the bias row to its block of 5000 rows, applies the activation with the slope
held in a `[1, 1]` array and stores the result; it adds the column sums of the stored block, and of its
square, onto two running rows, which the first point starts from zero. A reduction over the rows from the zero word is
the plain sum over the 5000 rows, and the reshapes between `[64]` and `[1, 64]` only rename the index.
-/

noncomputable section

namespace Cert.KernelIdeal.Hand

open Cert.KernelIdeal Cert.KernelIdeal.Gen
open Idealize.ShloMosaic Idealize.ShloMosaic.TcCoe Idealize.SL.Sem
open Idealize.ShloMosaic.ValueIdx

/-- The comparison against the zero word followed by the selection between `t` and `a · t` is the activation. -/
theorem select_oge_zero1 (a t : EReal) :
    Scalar.select (FloatOps.cmpf (F := Ideal) (φ := .f32) .oge t (Ideal.ofBits .f32 0x00000000#32)) t (a * t) = leaky a t := by
  rw [Ideal.ofBits_zero_f32]
  unfold leaky
  by_cases h : (0 : EReal) ≤ t
  · rw [if_pos h]; simp [Scalar.select, Ideal.cmpf_def, Ideal.cmp, h]
  · rw [if_neg h]; simp [Scalar.select, Ideal.cmpf_def, Ideal.cmp, h]

/-- The block the body stores, entry `(p, q)`: the activation, with the slope the one entry of `a`, of the block's
    `(p, q)` plus the bias row's entry `q`. -/
theorem act_pay_apply1 (x : Vec Ideal S5000x64 .f32) (b : Vec Ideal S1x64 .f32) (a : Vec Ideal S1x1 .f32)
    (p : Fin 5000) (q : Fin 64) :
    k1_pay3 x b a (ix2 p q)
      = leaky (a (ix2 (0 : Fin 1) (0 : Fin 1))) (x (ix2 p q) + b (ix2 (0 : Fin 1) q)) := by
  unfold k1_pay3
  simp only [shapeCast_self]
  rw [select_apply, cmpf_apply, mulf_apply, addf_apply, broadcast_apply, broadcast_apply, broadcastTo_1b_ab_apply]
  rw [show extractAt ![0, 0] a inpos_S1x1_p0_0 = a (ix2 (0 : Fin 1) (0 : Fin 1)) from
    congrArg a (funext fun d => by match d with | ⟨0, _⟩ => rfl | ⟨1, _⟩ => rfl)]
  exact select_oge_zero1 _ _

/-- The two rows the first point starts the running rows from are zero. -/
theorem zero_sum_row1 (q : Fin 64) : k1_pay1 (F := Ideal) (ix2 (0 : Fin 1) q) = 0 := by
  unfold k1_pay1
  rw [shapeCast_self]
  exact Ideal.ofBits_zero_f32
theorem zero_sq_row1 (q : Fin 64) : k1_pay2 (F := Ideal) (ix2 (0 : Fin 1) q) = 0 := by
  unfold k1_pay2
  rw [shapeCast_self]
  exact Ideal.ofBits_zero_f32

/-- The reduction over the rows, from the zero word, of a 5000 × 64 block is at column `q` the sum of the column. -/
theorem column_sum1 (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  show ∑ p : Fin 5000, src (reduces_S5000x64_S64.lift (ix1 q) p) = _
  refine Finset.sum_congr rfl fun p _ => congrArg src (funext fun d => Fin.ext ?_)
  match d with
  | ⟨0, _⟩ => rfl
  | ⟨1, _⟩ => rfl

/-- The running sum row after a point: what it held plus the column sums of the stored block. -/
theorem sum_pay_apply1 (x : Vec Ideal S5000x64 .f32) (b : Vec Ideal S1x64 .f32) (a : Vec Ideal S1x1 .f32)
    (s : Vec Ideal S1x64 .f32) (q : Fin 64) :
    k1_pay4 x b a s (ix2 (0 : Fin 1) q)
      = s (ix2 (0 : Fin 1) q) + ∑ p : Fin 5000, k1_pay3 x b a (ix2 p q) := by
  unfold k1_pay4
  try simp only [shapeCast_self]
  rw [addf_apply, shapeCast_a_1a_apply]
  exact congrArg (s (ix2 (0 : Fin 1) q) + ·) (column_sum1 _ _ _ q)

/-- The running sum-of-squares row after a point: what it held plus the column sums of the squared stored block. -/
theorem sq_pay_apply1 (x : Vec Ideal S5000x64 .f32) (b : Vec Ideal S1x64 .f32) (a : Vec Ideal S1x1 .f32)
    (s : Vec Ideal S1x64 .f32) (q : Fin 64) :
    k1_pay5 x b a s (ix2 (0 : Fin 1) q)
      = s (ix2 (0 : Fin 1) q)
        + ∑ p : Fin 5000, k1_pay3 x b a (ix2 p q) * k1_pay3 x b a (ix2 p q) := by
  unfold k1_pay5
  try simp only [shapeCast_self]
  rw [addf_apply, shapeCast_a_1a_apply]
  exact congrArg (s (ix2 (0 : Fin 1) q) + ·) (column_sum1 _ _ _ q)

end Cert.KernelIdeal.Hand

end
-- ==== Proof.KI.StatsBlockValue1.lean ====
import proofs.«123467_j2559800508646_1_alg».proof.Proof.KI.StatsValue1
import proofs.«123467_j2559800508646_1_alg».proof.Proof.KI.StatsPay1
import Idealize.ShloMosaic.Lib.Pipeline.Value
import Idealize.ShloMosaic.Lib.ValueIdx

/-!
# The first layer's activated array, as one function of the arrays the call is entered with

Read at the extended reals. After any point the output block holds the activated block of that point's inputs: the
activation, with the slope the one entry of a `[1, 1]` array (window 2), of the aggregated block (window 0) plus the
bias row (window 1). The aggregated block at point `t` is rows `5000·t … 5000·t + 4999` of
its array, the bias row's and the slope's blocks are their whole arrays, so what point `t` writes back is block `t` of one
function of those arrays; the ten blocks cover the output (row `r` is in block `r / 5000`), hence after the last point
the output array is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the call is entered with, on core `c`: the aggregated messages (window 0), the bias row (window 1), the
    slope (window 2). -/
abbrev aggIn1 (c : Dev nD) : S50000x64.Idx → EReal := V c (Pipeline.arrRef spec1 0)
abbrev biasIn1 (c : Dev nD) : S1x64.Idx → EReal := V c (Pipeline.arrRef spec1 1)
abbrev slopeIn1 (c : Dev nD) : S1x1.Idx → EReal := V c (Pipeline.arrRef spec1 2)

/-- The windows' block indices over the grid: the row blocks of the input and of the output move together, one block
    of 5000 rows per point; the bias row's and the slope's blocks never move. -/
theorem stats_block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `y` of the aggregated block at point `t` is entry `(5000·t + y₀, y₁)` of the aggregated array. -/
theorem agg_read1 (c : Dev nD) (t : Fin cfg1.N) (y : S5000x64.Idx) (i : S50000x64.Idx)
    (h0 : (i 0).val = 5000 * t.val + (y 0).val) (h1 : (i 1).val = (y 1).val) :
    blockAt1 V c 0 t y = aggIn1 V c i := by
  have e := stats_block_indices1 t
  unfold blockAt1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 5000 + 1 * (y 0).val = (i 0).val; rw [e.1, h0]; omega
  | ⟨1, _⟩ => show win1_0.index t 1 * 64 + 1 * (y 1).val = (i 1).val; rw [e.2.1, h1]; omega

/-- The bias row's block at any point is the whole bias row. -/
theorem bias_read1 (c : Dev nD) (t : Fin cfg1.N) (y : S1x64.Idx) :
    blockAt1 V c 1 t y = biasIn1 V c y := by
  have e := stats_block_indices1 t
  unfold blockAt1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 1 + 1 * (y 0).val = (y 0).val; rw [e.2.2.1]; omega
  | ⟨1, _⟩ => show win1_1.index t 1 * 64 + 1 * (y 1).val = (y 1).val; rw [e.2.2.2.1]; omega

/-- The slope's block at any point is the whole one-entry array. -/
theorem slope_read1 (c : Dev nD) (t : Fin cfg1.N) (y : S1x1.Idx) :
    blockAt1 V c 2 t y = slopeIn1 V c y := by
  have e := stats_block_indices1 t
  unfold blockAt1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t 0 * 1 + 1 * (y 0).val = (y 0).val; rw [e.2.2.2.2.1]; omega
  | ⟨1, _⟩ => show win1_2.index t 1 * 1 + 1 * (y 1).val = (y 1).val; rw [e.2.2.2.2.2.1]; omega

/-- What point `t` writes back is block `t` of the activated array: one function of the arrays the call was entered
    with. -/
theorem act_flushed1 (c : Dev nD) (t : Fin cfg1.N) :
    (statsData1 (F := Ideal) V c).flushed 3 t
      = ((cfg1.win 3).blk t).view.read (Elt Ideal) (fun i : S50000x64.Idx =>
          (leaky (slopeIn1 V c (ix2 (0 : Fin 1) (0 : Fin 1))) (aggIn1 V c i + biasIn1 V c (ix2 (0 : Fin 1) (i 1))) : EReal)) := by
  show (cfg1.win 3).cut (grid1.coords t) ((statsData1 V c).after 3 t) = _
  rw [statsData1_after3, stateAfter1_block]
  have e := stats_block_indices1 t
  have e0 : win1_3.index t (0 : Fin 2) = t.val := e.2.2.2.2.2.2.1
  have e1 : win1_3.index t (1 : Fin 2) = 0 := e.2.2.2.2.2.2.2
  funext j
  have hj0 : (j 0).val < 5000 := (j 0).isLt
  have hj1 : (j 1).val < 64 := (j 1).isLt
  have hj : (cfg1.win 3).xinj (grid1.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg1.win 3).blk t).view.emb j) 1) :=
    funext fun a => Fin.ext (by
      match a with
      | ⟨0, _⟩ => rfl
      | ⟨1, _⟩ => show (j 1).val = win1_3.index t 1 * 64 + 1 * (j 1).val; rw [e1]; omega)
  show k1_pay3 (blockAt1 V c 0 t) (blockAt1 V c 1 t) (blockAt1 V c 2 t) ((cfg1.win 3).xinj (grid1.coords t) j)
    = (fun i : S50000x64.Idx =>
          (leaky (slopeIn1 V c (ix2 (0 : Fin 1) (0 : Fin 1))) (aggIn1 V c i + biasIn1 V c (ix2 (0 : Fin 1) (i 1))) : EReal)) (((cfg1.win 3).blk t).view.emb j)
  rw [hj]
  refine (act_pay_apply1 (blockAt1 V c 0 t) (blockAt1 V c 1 t) (blockAt1 V c 2 t) _ _).trans ?_
  rw [agg_read1 V c t (ix2 (⟨(j 0).val, hj0⟩ : Fin 5000) (⟨(j 1).val, hj1⟩ : Fin 64)) (((cfg1.win 3).blk t).view.emb j)
      (by show win1_3.index t 0 * 5000 + 1 * (j 0).val = 5000 * t.val + (j 0).val; rw [e0]; omega)
      (by show win1_3.index t 1 * 64 + 1 * (j 1).val = (j 1).val; rw [e1]; omega),
    bias_read1 V c t, slope_read1 V c t, hq]
  rfl

/-- An index of the output array lies in point `t`'s block exactly when each coordinate lies in the block's range. -/
theorem act_mem_block1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v22_0).slice (win1_3.rect t)).set ↔ _
  rw [View.set_slice_whole, Rect.mem_set_unit]
  exact Iff.rfl

/-- The ten row blocks cover the output array: row `r` lies in the block of point `r / 5000`. -/
theorem act_cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  have e := stats_block_indices1 t
  have e0 : win1_3.index t (0 : Fin 2) = t.val := e.2.2.2.2.2.2.1
  have e1 : win1_3.index t (1 : Fin 2) = 0 := e.2.2.2.2.2.2.2
  refine ⟨t, flush1_3 t, ?_⟩
  rw [act_mem_block1]
  intro a
  match a with
  | ⟨0, _⟩ => show win1_3.index t 0 * 5000 ≤ (i 0).val ∧ (i 0).val < win1_3.index t 0 * 5000 + 5000; rw [e0, ht]; omega
  | ⟨1, _⟩ => show win1_3.index t 1 * 64 ≤ (i 1).val ∧ (i 1).val < win1_3.index t 1 * 64 + 64; rw [e1]; omega

/-- After all ten points the output block's array is the activated array: at `(r, j)`, the activation of the aggregated
    entry plus the bias row's entry `j`. -/
theorem act_final1 (c : Dev nD) :
    (statsData1 (F := Ideal) V c).arrAt 3 cfg1.N
      = fun i : S50000x64.Idx =>
          (leaky (slopeIn1 V c (ix2 (0 : Fin 1) (0 : Fin 1))) (aggIn1 V c i + biasIn1 V c (ix2 (0 : Fin 1) (i 1))) : EReal) :=
  (statsData1 (F := Ideal) V c).arrAt_eq_of_cover 3 _ (fun t _ => act_flushed1 V c t) (act_cover1)

/-- The activated array as a named function of the arrays the call is entered with. -/
abbrev activated1 (c : Dev nD) : S50000x64.Idx → EReal := fun i =>
  (leaky (slopeIn1 V c (ix2 (0 : Fin 1) (0 : Fin 1))) (aggIn1 V c i + biasIn1 V c (ix2 (0 : Fin 1) (i 1))) : EReal)

/-- The same, with the function named. -/
theorem act_array1 (c : Dev nD) : (statsData1 (F := Ideal) V c).arrAt 3 cfg1.N = activated1 V c :=
  act_final1 V c

end Cert.KernelIdeal.Hand

end
-- ==== Proof.Bridge.Layer1Pre.lean ====
import proofs.«123467_j2559800508646_1_alg».proof.Proof.Bridge.Layer1Aggregate
import proofs.«123467_j2559800508646_1_alg».proof.Proof.Bridge.HostWindows1
import proofs.«123467_j2559800508646_1_alg».proof.Proof.KI.StatsBlockValue1

/-!
# Layer one of the kernel program: the array it normalises is the reference's

The statistics call stores, row block by row block, the rectified sum of the aggregated messages and the bias; its
three input windows hold the reference's aggregate, the first bias row and the first slope. So its output array is,
entry by entry, the array the reference normalises in its first layer.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The rectifier is one function, however it is named on either side. -/
theorem leaky_same (a t : EReal) : Cert.KernelIdeal.Hand.leaky a t = Cert.ReferenceIdeal.RefPre.leaky a t := rfl

/-- After the statistics call its output block's array is what its write-backs leave. -/
theorem rectified_at4 (c : Dev nD) : at4 m c (Proc.devRef .tc main_v22_0) = (data1 m c).arrAt 3 cfg1.N := by
  unfold at4
  rw [Function.update_of_ne (StableHlo.devRef_ne_of_ne (show (main_v22_0 : Ref sig .tc) ≠ main_v22_2 from by decide)),
    Function.update_of_ne (StableHlo.devRef_ne_of_ne (show (main_v22_0 : Ref sig .tc) ≠ main_v22_1 from by decide)),
    Function.update_self]

set_option maxHeartbeats 2000000 in
/-- THE ARRAY LAYER ONE NORMALISES IS THE REFERENCE'S. -/
theorem rectified1 (c : Dev nD) :
    at4 m c (Proc.devRef .tc main_v22_0)
      = Cert.ReferenceIdeal.ReadP.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [rectified_at4]
  show (statsData1 (F := Ideal) (fun c b => at3 m c b) c).arrAt 3 cfg1.N = _
  rw [act_final1]
  funext i
  obtain ⟨r, j, rfl⟩ : ∃ (r : Fin 50000) (j : Fin 64), i = ix2 r j := ⟨i 0, i 1, eq_ix2 i⟩
  rw [Cert.ReferenceIdeal.RefPre.pre1_apply, ← leaky_same]
  have hs : slopeIn1 (fun c b => at3 m c b) c (ix2 (0 : Fin 1) (0 : Fin 1)) = (m ((c : Thread nD τ).loc main_arg6) : S3.Idx → EReal) (ix1 (0 : Fin 3)) :=
    slope_at3 m c
  have hb : biasIn1 (fun c b => at3 m c b) c (ix2 (0 : Fin 1) j) = (m ((c : Thread nD τ).loc main_arg5) : S3x64.Idx → EReal) (ix2 (0 : Fin 3) j) :=
    bias_at3 m c j
  have ha : aggIn1 (fun c b => at3 m c b) c (ix2 r j)
      = Cert.ReferenceIdeal.RefPre.agg (F := Ideal) (Cert.ReferenceIdeal.ReadP.val_main_v2 (F := Ideal) (m ((c : Thread nD τ).loc main_arg0)) (m ((c : Thread nD τ).loc main_arg4)))
          (m ((c : Thread nD τ).loc main_arg1)) (m ((c : Thread nD τ).loc main_arg2)) (m ((c : Thread nD τ).loc main_arg3)) (ix2 r j) :=
    congrFun ((aggregate1 m c).trans (Cert.ReferenceIdeal.RefPre.agg1 _ _ _ _ _)) _
  show Cert.KernelIdeal.Hand.leaky (slopeIn1 (fun c b => at3 m c b) c (ix2 (0 : Fin 1) (0 : Fin 1)))
      (aggIn1 (fun c b => at3 m c b) c (ix2 r j) + biasIn1 (fun c b => at3 m c b) c (ix2 (0 : Fin 1) j)) = _
  rw [hs, hb, ha]

end Cert.Bridge

end
-- ==== Proof.KI.NormValue2.lean ====
import proofs.«123467_j2559800508646_1_alg».proof.Proof.KI.NormBody2
import Idealize.ShloMosaic.Lib.Pipeline.Value
import Idealize.ShloMosaic.Lib.ValueIdx
import Idealize.ShloMosaic.Lib.ValueLayout
import Idealize.ShloMosaic.PureOps.Ideal.Laws

/-!
# The first batch normalisation, as one function of the arrays the call is entered with

Read at the extended reals. The call normalises a `[50000, 64]` array of activations (window 0) column by column against
four rows of 64 entries — the column means (window 1), the column variances (window 2), the scale (window 3) and the
shift (window 4) — 5000 rows per grid point. The block a point stores is, entry `(p, q)`,
`scale q · (block (p, q) − mean q) · rsqrt (variance q + ε) + shift q`, the products taken in that order, with `ε` the
float whose word is `0x3727C5AC`. The row block at point `t` is rows `5000·t … 5000·t + 4999` of the activations and each
of the four rows' blocks is the whole row, so what point `t` writes back is block `t` of one function of the five
arrays; the ten blocks cover the output (row `r` is in block `r / 5000`), hence after the last point the output array
is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The body's stored value at entry `(p, q)` of the block: the scale's entry `q` times the difference of the block's
    `(p, q)` and the mean's entry `q`, times the reciprocal square root of the variance's entry `q` plus `ε`, plus the
    shift's entry `q` — in that order of association. The four rows are broadcast over the block's rows. -/
theorem norm_pay_apply2 (vr ga : Vec Ideal S1x64 .f32) (x : Vec Ideal S5000x64 .f32) (mu be : Vec Ideal S1x64 .f32)
    (p : Fin 5000) (q : Fin 64) :
    k2_pay1 vr ga x mu be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The five arrays the call is entered with, on core `c`: the activations (window 0), the column means (window 1),
    the column variances (window 2), the scale (window 3) and the shift (window 4). -/
abbrev actIn2 (c : Dev nD) : S50000x64.Idx → EReal := V c (Pipeline.arrRef spec2 0)
abbrev meanIn2 (c : Dev nD) : S1x64.Idx → EReal := V c (Pipeline.arrRef spec2 1)
abbrev varIn2 (c : Dev nD) : S1x64.Idx → EReal := V c (Pipeline.arrRef spec2 2)
abbrev gammaIn2 (c : Dev nD) : S1x64.Idx → EReal := V c (Pipeline.arrRef spec2 3)
abbrev betaIn2 (c : Dev nD) : S1x64.Idx → EReal := V c (Pipeline.arrRef spec2 4)

theorem norm_zero_offsets2 : (![0, 0] : Fin 2 → Nat) = fun _ => 0 := funext fun a => by fin_cases a <;> rfl

/-- The output block after the body, entry by entry. -/
theorem norm_block_apply2 (x : Vec Ideal S5000x64 .f32) (mu vr ga be : Vec Ideal S1x64 .f32) (p : Fin 5000) (q : Fin 64) :
    normalisedBlock2 x mu vr ga be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold normalisedBlock2
  rw [View.canon_unit_zero norm_zero_offsets2]
  simp only [View.ld_unit_zero (S := S5000x64) norm_zero_offsets2, View.ld_unit_zero (S := S1x64) norm_zero_offsets2]
  exact norm_pay_apply2 vr ga x mu be p q

/-- The windows' block indices over the grid: the row blocks of the input and of the output move together, one block of
    5000 rows per point; the four rows' blocks never move. -/
theorem norm_block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry `y` of the row block at point `t` is entry `(5000·t + y₀, y₁)` of the activations. -/
theorem act_read2 (c : Dev nD) (t : Fin cfg2.N) (y : S5000x64.Idx) (i : S50000x64.Idx)
    (h0 : (i 0).val = 5000 * t.val + (y 0).val) (h1 : (i 1).val = (y 1).val) :
    blockAt2 V c 0 t y = actIn2 V c i := by
  obtain ⟨e0, e1, -⟩ := norm_block_indices2 t
  unfold blockAt2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The mean row's block at any point is the whole mean row. -/
theorem mean_read2 (c : Dev nD) (t : Fin cfg2.N) (y : S1x64.Idx) :
    blockAt2 V c 1 t y = meanIn2 V c y := by
  have e := norm_block_indices2 t
  unfold blockAt2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t 0 * 1 + 1 * (y 0).val = (y 0).val; rw [e.2.2.1]; omega
  | ⟨1, _⟩ => show win2_1.index t 1 * 64 + 1 * (y 1).val = (y 1).val; rw [e.2.2.2.1]; omega

/-- The variance row's block at any point is the whole variance row. -/
theorem variance_read2 (c : Dev nD) (t : Fin cfg2.N) (y : S1x64.Idx) :
    blockAt2 V c 2 t y = varIn2 V c y := by
  have e := norm_block_indices2 t
  unfold blockAt2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t 0 * 1 + 1 * (y 0).val = (y 0).val; rw [e.2.2.2.2.1]; omega
  | ⟨1, _⟩ => show win2_2.index t 1 * 64 + 1 * (y 1).val = (y 1).val; rw [e.2.2.2.2.2.1]; omega

/-- The gamma row's block at any point is the whole gamma row. -/
theorem gamma_read2 (c : Dev nD) (t : Fin cfg2.N) (y : S1x64.Idx) :
    blockAt2 V c 3 t y = gammaIn2 V c y := by
  have e := norm_block_indices2 t
  unfold blockAt2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t 0 * 1 + 1 * (y 0).val = (y 0).val; rw [e.2.2.2.2.2.2.1]; omega
  | ⟨1, _⟩ => show win2_3.index t 1 * 64 + 1 * (y 1).val = (y 1).val; rw [e.2.2.2.2.2.2.2.1]; omega

/-- The beta row's block at any point is the whole beta row. -/
theorem beta_read2 (c : Dev nD) (t : Fin cfg2.N) (y : S1x64.Idx) :
    blockAt2 V c 4 t y = betaIn2 V c y := by
  have e := norm_block_indices2 t
  unfold blockAt2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t 0 * 1 + 1 * (y 0).val = (y 0).val; rw [e.2.2.2.2.2.2.2.2.1]; omega
  | ⟨1, _⟩ => show win2_4.index t 1 * 64 + 1 * (y 1).val = (y 1).val; rw [e.2.2.2.2.2.2.2.2.2.1]; omega

/-- What point `t` writes back is block `t` of the normalised activations: one function of the five arrays the call
    was entered with. -/
theorem norm_flushed2 (c : Dev nD) (t : Fin cfg2.N) :
    (normData2 (F := Ideal) V c).flushed 5 t
      = ((cfg2.win 5).blk t).view.read (Elt Ideal) (fun i : S50000x64.Idx =>
          (gammaIn2 V c (ix2 (0 : Fin 1) (i 1)) * (actIn2 V c i - meanIn2 V c (ix2 (0 : Fin 1) (i 1)))
            * Ideal.rsqrt (varIn2 V c (ix2 (0 : Fin 1) (i 1)) + Ideal.ofBits .f32 0x3727C5AC#32)
          + betaIn2 V c (ix2 (0 : Fin 1) (i 1)) : EReal)) := by
  show (cfg2.win 5).cut (grid2.coords t) ((normData2 V c).after 5 t) = _
  rw [normData2_after_out]
  have e := norm_block_indices2 t
  have e0 : win2_5.index t (0 : Fin 2) = t.val := e.2.2.2.2.2.2.2.2.2.2.1
  have e1 : win2_5.index t (1 : Fin 2) = 0 := e.2.2.2.2.2.2.2.2.2.2.2
  funext j
  have hj0 : (j 0).val < 5000 := (j 0).isLt
  have hj1 : (j 1).val < 64 := (j 1).isLt
  have hj : (cfg2.win 5).xinj (grid2.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg2.win 5).blk t).view.emb j) 1) :=
    funext fun a => Fin.ext (by
      match a with
      | ⟨0, _⟩ => rfl
      | ⟨1, _⟩ => show (j 1).val = win2_5.index t 1 * 64 + 1 * (j 1).val; rw [e1]; omega)
  show normalisedBlock2 (blockAt2 V c 0 t) (blockAt2 V c 1 t) (blockAt2 V c 2 t) (blockAt2 V c 3 t)
      (blockAt2 V c 4 t) ((cfg2.win 5).xinj (grid2.coords t) j)
    = (fun i : S50000x64.Idx =>
          (gammaIn2 V c (ix2 (0 : Fin 1) (i 1)) * (actIn2 V c i - meanIn2 V c (ix2 (0 : Fin 1) (i 1)))
            * Ideal.rsqrt (varIn2 V c (ix2 (0 : Fin 1) (i 1)) + Ideal.ofBits .f32 0x3727C5AC#32)
          + betaIn2 V c (ix2 (0 : Fin 1) (i 1)) : EReal)) (((cfg2.win 5).blk t).view.emb j)
  rw [hj]
  refine (norm_block_apply2 (blockAt2 V c 0 t) (blockAt2 V c 1 t) (blockAt2 V c 2 t) (blockAt2 V c 3 t)
    (blockAt2 V c 4 t) _ _).trans ?_
  rw [act_read2 V c t (ix2 (⟨(j 0).val, hj0⟩ : Fin 5000) (⟨(j 1).val, hj1⟩ : Fin 64)) (((cfg2.win 5).blk t).view.emb j)
      (by show win2_5.index t 0 * 5000 + 1 * (j 0).val = 5000 * t.val + (j 0).val; rw [e0]; omega)
      (by show win2_5.index t 1 * 64 + 1 * (j 1).val = (j 1).val; rw [e1]; omega),
    mean_read2 V c t, variance_read2 V c t, gamma_read2 V c t, beta_read2 V c t, hq]
  rfl

/-- An index of the output array lies in point `t`'s block exactly when each coordinate lies in the block's range. -/
theorem norm_mem_block2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v35).slice (win2_5.rect t)).set ↔ _
  rw [View.set_slice_whole, Rect.mem_set_unit]
  exact Iff.rfl

/-- The ten row blocks cover the output array: row `r` lies in the block of point `r / 5000`. -/
theorem norm_cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have ht : t.val = (i 0).val / 5000 := rfl
  have e := norm_block_indices2 t
  have e0 : win2_5.index t (0 : Fin 2) = t.val := e.2.2.2.2.2.2.2.2.2.2.1
  have e1 : win2_5.index t (1 : Fin 2) = 0 := e.2.2.2.2.2.2.2.2.2.2.2
  refine ⟨t, flush2_5 t, ?_⟩
  rw [norm_mem_block2]
  intro a
  match a with
  | ⟨0, _⟩ => show win2_5.index t 0 * 5000 ≤ (i 0).val ∧ (i 0).val < win2_5.index t 0 * 5000 + 5000; rw [e0, ht]; omega
  | ⟨1, _⟩ => show win2_5.index t 1 * 64 ≤ (i 1).val ∧ (i 1).val < win2_5.index t 1 * 64 + 64; rw [e1]; omega

/-- After all ten points the output array is the normalised activations: at `(r, j)`, the scale's entry `j` times the
    difference of the activation and the mean's entry `j`, times the reciprocal square root of the variance's entry `j`
    plus `ε`, plus the shift's entry `j`. -/
theorem norm_final2 (c : Dev nD) :
    (normData2 (F := Ideal) V c).arrAt 5 cfg2.N
      = fun i : S50000x64.Idx =>
          (gammaIn2 V c (ix2 (0 : Fin 1) (i 1)) * (actIn2 V c i - meanIn2 V c (ix2 (0 : Fin 1) (i 1)))
            * Ideal.rsqrt (varIn2 V c (ix2 (0 : Fin 1) (i 1)) + Ideal.ofBits .f32 0x3727C5AC#32)
          + betaIn2 V c (ix2 (0 : Fin 1) (i 1)) : EReal) :=
  (normData2 (F := Ideal) V c).arrAt_eq_of_cover 5 _ (fun t _ => norm_flushed2 V c t) (norm_cover2)

end Cert.KernelIdeal.Hand

end
-- ==== Proof.LibBlockSums.lean ====
import Mathlib.Algebra.BigOperators.Fin
import Mathlib.Logic.Equiv.Fin.Basic
import Mathlib.Tactic

/-!
# Sums taken block by block

A long column is summed in blocks: a running total starts at zero and, block after block, the block's sum is added to
it. Two facts, over any commutative additive monoid (the extended reals are one, infinities included, since only
associativity, commutativity and `0 + x = x` are used):

* the running total after block `n` is the sum of the block sums up to `n` — an induction on `n`, whatever the number of
  blocks;
* a sum over `T` blocks of `B` entries each is the sum over all `T · B` entries, entry `r` of block `t` being entry
  `B · t + r` of the column.
-/

namespace Cert.BlockSums

open scoped BigOperators

variable {M : Type*} [AddCommMonoid M]

/-- A running total that starts from `z = 0`, takes `z + S 0` at the first block and adds `S (n + 1)` at each later one,
    holds after block `n` the sum of `S 0, …, S n`. -/
theorem running_total {T : ℕ} (S : Fin T → M) (c : (n : ℕ) → n < T → M) (z : M) (hz : z = 0)
    (h0 : ∀ h : 0 < T, c 0 h = z + S ⟨0, h⟩)
    (hs : ∀ (n : ℕ) (h : n + 1 < T), c (n + 1) h = c n (Nat.lt_of_succ_lt h) + S ⟨n + 1, h⟩) :
    ∀ (n : ℕ) (h : n < T), c n h = ∑ t : Fin (n + 1), S ⟨t.val, lt_of_lt_of_le t.isLt h⟩
  | 0, h => by
    rw [h0 h, hz, zero_add, Fin.sum_univ_one]
    rfl
  | n + 1, h => by
    rw [hs n h, running_total S c z hz h0 hs n (Nat.lt_of_succ_lt h)]
    conv_rhs => rw [Fin.sum_univ_castSucc]
    rfl

/-- After the last block the running total is the sum of all the block sums. -/
theorem running_total_last {T : ℕ} (S : Fin (T + 1) → M) (c : (n : ℕ) → n < T + 1 → M) (z : M) (hz : z = 0)
    (h0 : ∀ h : 0 < T + 1, c 0 h = z + S ⟨0, h⟩)
    (hs : ∀ (n : ℕ) (h : n + 1 < T + 1), c (n + 1) h = c n (Nat.lt_of_succ_lt h) + S ⟨n + 1, h⟩) :
    c T (Nat.lt_succ_self T) = ∑ t : Fin (T + 1), S t := by
  rw [running_total S c z hz h0 hs T (Nat.lt_succ_self T)]

/-- Block by block is entry by entry: entry `r` of block `t` is entry `B · t + r` of the column. -/
theorem sum_blocks {T B : ℕ} (g : Fin (T * B) → M) :
    ∑ t : Fin T, ∑ r : Fin B, g (finProdFinEquiv (t, r)) = ∑ R : Fin (T * B), g R := by
  rw [← Fintype.sum_prod_type' (f := fun t r => g (finProdFinEquiv (t, r)))]
  exact Equiv.sum_comp finProdFinEquiv g

/-- The position of entry `r` of block `t` in the column. -/
theorem position {T B : ℕ} (t : Fin T) (r : Fin B) : (finProdFinEquiv (t, r) : Fin (T * B)).val = r.val + B * t.val := rfl

end Cert.BlockSums
-- ==== Proof.KI.StatsSums1.lean ====
import proofs.«123467_j2559800508646_1_alg».proof.Proof.KI.StatsValue1
import proofs.«123467_j2559800508646_1_alg».proof.Proof.KI.StatsPay1
import proofs.«123467_j2559800508646_1_alg».proof.Proof.LibBlockSums

/-!
# The column statistics are sums over all the rows

Over the extended reals a running row, read at a column, starts at zero and gains one block's column sum per point; so
after the last point it holds the sum over the ten blocks of the block's column sum (and, for the second row, of the
column sum of squares). No entry needs to be finite for this: only associativity of the sum and `0 + x = x` are used.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (V : (c : Dev nD) → (b : Ref sig .tc) → Buf (Elt Ideal) ((c : Thread nD τ).loc b))

theorem ten_points1 : cfg1.N = 9 + 1 := N_1

/-- The activated entry at row `p` of block `t`, column `q`. -/
abbrev blockEntry1 (c : Dev nD) (t : Fin (9 + 1)) (p : Fin 5000) (q : Fin 64) : EReal :=
  k1_pay3 (F := Ideal) (blockAt1 V c 0 ⟨t.val, lt_of_lt_of_eq t.isLt (ten_points1).symm⟩) (blockAt1 V c 1 ⟨t.val, lt_of_lt_of_eq t.isLt (ten_points1).symm⟩) (blockAt1 V c 2 ⟨t.val, lt_of_lt_of_eq t.isLt (ten_points1).symm⟩) (ix2 p q)

/-- The first running row after the last point, at column `q`: the sum over the ten blocks of the block's column sum. -/
theorem sum_row_total1 (c : Dev nD) (q : Fin 64) :
    (runningRows1 (F := Ideal) V c 9 (by rw [ten_points1]; decide)).1 (ix2 (0 : Fin 1) q)
      = ∑ t : Fin (9 + 1), ∑ p : Fin 5000, blockEntry1 V c t p q := by
  have key := Cert.BlockSums.running_total_last (T := 9)
    (S := fun t : Fin (9 + 1) => ∑ p : Fin 5000, blockEntry1 V c t p q)
    (c := fun n (h : n < 9 + 1) => (runningRows1 (F := Ideal) V c n (lt_of_lt_of_eq h (ten_points1).symm)).1 (ix2 (0 : Fin 1) q))
    (z := k1_pay1 (F := Ideal) (ix2 (0 : Fin 1) q)) (zero_sum_row1 q)
    (fun h => sum_pay_apply1 _ _ _ _ q)
    (fun n h => sum_pay_apply1 _ _ _ _ q)
  exact key

/-- The second running row after the last point, at column `q`: the sum over the ten blocks of the block's column sum of
    squares. -/
theorem sq_row_total1 (c : Dev nD) (q : Fin 64) :
    (runningRows1 (F := Ideal) V c 9 (by rw [ten_points1]; decide)).2 (ix2 (0 : Fin 1) q)
      = ∑ t : Fin (9 + 1), ∑ p : Fin 5000, blockEntry1 V c t p q * blockEntry1 V c t p q := by
  have key := Cert.BlockSums.running_total_last (T := 9)
    (S := fun t : Fin (9 + 1) => ∑ p : Fin 5000, blockEntry1 V c t p q * blockEntry1 V c t p q)
    (c := fun n (h : n < 9 + 1) => (runningRows1 (F := Ideal) V c n (lt_of_lt_of_eq h (ten_points1).symm)).2 (ix2 (0 : Fin 1) q))
    (z := k1_pay2 (F := Ideal) (ix2 (0 : Fin 1) q)) (zero_sq_row1 q)
    (fun h => sq_pay_apply1 _ _ _ _ q)
    (fun n h => sq_pay_apply1 _ _ _ _ q)
  exact key

end Cert.KernelIdeal.Hand

end
-- ==== Proof.KI.StatsTotals1.lean ====
import proofs.«123467_j2559800508646_1_alg».proof.Proof.KI.StatsSums1
import proofs.«123467_j2559800508646_1_alg».proof.Proof.KI.StatsBlockValue1
import proofs.«123467_j2559800508646_1_alg».proof.Proof.LibBlockSums

/-!
# The first layer's column statistics are sums over all the rows of the activated array

Read at the extended reals. The running rows after the last point hold, column by column, the sum over the ten blocks of
the block's column sum (and of its column sum of squares). Entry `p` of block `t` of the stored block is entry
`5000·t + p` of the activated array, and ten blocks of 5000 rows are the 50000 rows; so the two row outputs hold, at
column `q`, the sum over all 50000 rows of the activated array's column `q`, and of its square.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem rows_in_blocks1 : (9 + 1) * 5000 = 50000 := by norm_num

/-- Entry `p` of the block stored at point `t` is the activated array's entry at row `5000·t + p`. -/
theorem block_entry1 (c : Dev nD) (t : Fin (9 + 1)) (p : Fin 5000) (q : Fin 64) (R : Fin 50000)
    (hR : R.val = p.val + 5000 * t.val) :
    blockEntry1 V c t p q = activated1 V c (ix2 R q) := by
  show k1_pay3 (F := Ideal) (blockAt1 V c 0 ⟨t.val, lt_of_lt_of_eq t.isLt (ten_points1).symm⟩) (blockAt1 V c 1 ⟨t.val, lt_of_lt_of_eq t.isLt (ten_points1).symm⟩) (blockAt1 V c 2 ⟨t.val, lt_of_lt_of_eq t.isLt (ten_points1).symm⟩) (ix2 p q) = _
  refine (act_pay_apply1 _ _ _ p q).trans ?_
  rw [agg_read1 V c ⟨t.val, lt_of_lt_of_eq t.isLt (ten_points1).symm⟩ (ix2 p q) (ix2 R q) (by show R.val = 5000 * t.val + p.val; omega) rfl,
    bias_read1 V c ⟨t.val, lt_of_lt_of_eq t.isLt (ten_points1).symm⟩, slope_read1 V c ⟨t.val, lt_of_lt_of_eq t.isLt (ten_points1).symm⟩]

/-- A sum over the ten blocks of a sum over the block's 5000 rows, of a function of the row's place in the array, is the
    sum over the 50000 rows. -/
theorem sum_over_blocks1 (f : Fin 50000 → EReal) (g : Fin (9 + 1) → Fin 5000 → EReal)
    (hg : ∀ (t : Fin (9 + 1)) (p : Fin 5000) (R : Fin 50000), R.val = p.val + 5000 * t.val → g t p = f R) :
    ∑ t : Fin (9 + 1), ∑ p : Fin 5000, g t p = ∑ R : Fin 50000, f R := by
  rw [← Equiv.sum_comp (finCongr rows_in_blocks1) f,
    ← Cert.BlockSums.sum_blocks (T := 9 + 1) (B := 5000) (fun R => f (finCongr rows_in_blocks1 R))]
  refine Finset.sum_congr rfl fun t _ => Finset.sum_congr rfl fun p _ => ?_
  exact hg t p _ (Cert.BlockSums.position t p)

/-- The first running row after the last point, at column `q`: the sum of the activated array's column `q`. -/
theorem sum_row_all1 (c : Dev nD) (q : Fin 64) :
    (runningRows1 (F := Ideal) V c 9 (by rw [ten_points1]; decide)).1 (ix2 (0 : Fin 1) q)
      = ∑ R : Fin 50000, activated1 V c (ix2 R q) :=
  (sum_row_total1 V c q).trans
    (sum_over_blocks1 (fun R => activated1 V c (ix2 R q)) (fun t p => blockEntry1 V c t p q)
      fun t p R hR => block_entry1 V c t p q R hR)

/-- The second running row after the last point, at column `q`: the sum of the squares of the activated array's column
    `q`. -/
theorem sq_row_all1 (c : Dev nD) (q : Fin 64) :
    (runningRows1 (F := Ideal) V c 9 (by rw [ten_points1]; decide)).2 (ix2 (0 : Fin 1) q)
      = ∑ R : Fin 50000, activated1 V c (ix2 R q) * activated1 V c (ix2 R q) :=
  (sq_row_total1 V c q).trans
    (sum_over_blocks1 (fun R => activated1 V c (ix2 R q) * activated1 V c (ix2 R q))
      (fun t p => blockEntry1 V c t p q * blockEntry1 V c t p q)
      fun t p R hR => by rw [block_entry1 V c t p q R hR])

/-- After the call the first row output holds, at column `j`, the sum over all 50000 rows of the activated array's
    column `j`. -/
theorem sum_total1 (c : Dev nD) :
    (statsData1 (F := Ideal) V c).arrAt 4 cfg1.N
      = fun j : S1x64.Idx => (∑ R : Fin 50000, activated1 V c (ix2 R (j 1)) : EReal) := by
  rw [sum_array1]
  funext j
  obtain ⟨u, q, rfl⟩ : ∃ (u : Fin 1) (q : Fin 64), j = ix2 u q := ⟨j 0, j 1, eq_ix2 j⟩
  obtain rfl : u = 0 := Subsingleton.elim _ _
  exact sum_row_all1 V c q

/-- After the call the second row output holds, at column `j`, the sum over all 50000 rows of the square of the
    activated array's column `j`. -/
theorem sq_total1 (c : Dev nD) :
    (statsData1 (F := Ideal) V c).arrAt 5 cfg1.N
      = fun j : S1x64.Idx =>
          (∑ R : Fin 50000, activated1 V c (ix2 R (j 1)) * activated1 V c (ix2 R (j 1)) : EReal) := by
  rw [sq_array1]
  funext j
  obtain ⟨u, q, rfl⟩ : ∃ (u : Fin 1) (q : Fin 64), j = ix2 u q := ⟨j 0, j 1, eq_ix2 j⟩
  obtain rfl : u = 0 := Subsingleton.elim _ _
  exact sq_row_all1 V c q

end Cert.KernelIdeal.Hand

end
-- ==== Proof.LibExtReal.lean ====
/-
  Extended-real facts for attention-style kernels, free of any program.

  * A calculus of "this extended real is a real number", closed under sums, products, maxima and finite sums.
  * A column softmax: entries that are real or minus infinity, at least one real. The column maximum is then real,
    every shifted exponential is a nonnegative real, their sum is a positive real, and each weight
    exp (z i - M) / (0 + sum_j exp (z j - M)) is a NONNEGATIVE REAL.
  * A nonnegative real weight moves across a finite sum of arbitrary extended reals:
    d * (sum_i a i) = sum_i (a i * d). (For an infinite or negative-infinite d this fails; that is why the weight's
    finiteness is needed before a per-node weight can be factored out of a sum over that node's edges.)
-/
import Idealize.ShloMosaic.PureOps.Ideal
import Mathlib.Data.Finset.Fold

namespace Cert.LibExtReal

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊤) (h2 : x ≠ ⊥) : IsReal x :=
  ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A shifted exponential exp (z - M), for a real shift M and an entry z that is real or minus infinity, is a
    nonnegative real, positive when z is real. -/
theorem exp_sub_real {z M : EReal} (hM : IsReal M) (hz : z = ⊥ ∨ IsReal z) :
    ∃ e : ℝ, 0 ≤ e ∧ Ideal.exp (z - M) = (e : EReal) ∧ (IsReal z → 0 < e) := by
  obtain ⟨b, rfl⟩ := hM
  rcases hz with rfl | ⟨a, rfl⟩
  · refine ⟨0, le_rfl, ?_, fun h => absurd rfl h.ne_bot⟩
    rw [EReal.bot_sub]; simp
  · refine ⟨Real.exp (a - b), (Real.exp_pos _).le, ?_, fun _ => Real.exp_pos _⟩
    rw [← EReal.coe_sub]; rfl

/-- THE SOFTMAX WEIGHT IS A NONNEGATIVE REAL: for a real shift M, entries real or minus infinity and one real entry,
    exp (z i - M) / (0 + sum_j exp (z j - M)) is a nonnegative real number. -/
theorem softmax_weight {ι : Type*} [Fintype ι] (z : ι → EReal) (M : EReal) (hM : IsReal M)
    (hz : ∀ i, z i = ⊥ ∨ IsReal (z i)) (i0 : ι) (h0 : IsReal (z i0)) (i : ι) :
    ∃ d : ℝ, 0 ≤ d ∧ Ideal.div (Ideal.exp (z i - M)) (0 + ∑ j, Ideal.exp (z j - M)) = (d : EReal) := by
  choose e he0 hee hpos using fun j => exp_sub_real hM (hz j)
  have hS : (0 : EReal) + ∑ j, Ideal.exp (z j - M) = ((∑ j, e j : ℝ) : EReal) := by
    rw [zero_add, coe_sum]; exact Finset.sum_congr rfl fun j _ => hee j
  have hpos' : 0 < ∑ j, e j :=
    lt_of_lt_of_le (hpos i0 h0) (Finset.single_le_sum (fun j _ => he0 j) (Finset.mem_univ i0))
  refine ⟨e i * (1 / ∑ j, e j), mul_nonneg (he0 i) (one_div_pos.mpr hpos').le, ?_⟩
  rw [hS, Ideal.div_coe hpos'.ne', hee i, ← EReal.coe_mul]

/-- The column maximum, taken as a fold of max from minus infinity and then once more against minus infinity, of
    entries real or minus infinity with one real entry, is a real number. -/
theorem colmax_isReal {ι : Type*} (s : Finset ι) (z : ι → EReal) (hz : ∀ i ∈ s, z i = ⊥ ∨ IsReal (z i))
    (i0 : ι) (hi0 : i0 ∈ s) (h0 : IsReal (z i0)) : IsReal (max ⊥ (s.fold max ⊥ z)) := by
  rw [max_eq_right bot_le]
  refine isReal_of_ne ?_ ?_
  · refine ((Finset.fold_max_lt ⊤).mpr ⟨bot_lt_top, fun i hi => ?_⟩).ne
    rcases hz i hi with h | h
    · rw [h]; exact bot_lt_top
    · exact lt_top_iff_ne_top.mpr h.ne_top
  · have hle : z i0 ≤ s.fold max ⊥ z := (Finset.le_fold_max _).mpr (Or.inr ⟨i0, hi0, le_rfl⟩)
    exact (lt_of_lt_of_le (bot_lt_iff_ne_bot.mpr h0.ne_bot) hle).ne'

/-- A NONNEGATIVE REAL WEIGHT MOVES ACROSS A FINITE SUM of arbitrary extended reals. -/
theorem mul_sum_of_nonneg {ι : Type*} (s : Finset ι) (d : ℝ) (hd : 0 ≤ d) (a : ι → EReal) :
    (d : EReal) * ∑ i ∈ s, a i = ∑ i ∈ s, a i * (d : EReal) := by
  classical
  refine Finset.induction_on s ?_ ?_
  · simp
  · intro j s hj ih
    rw [Finset.sum_insert hj, Finset.sum_insert hj,
      EReal.left_distrib_of_nonneg_of_ne_top (EReal.coe_nonneg.mpr hd) (EReal.coe_ne_top d), ih, mul_comm]

end Cert.LibExtReal
-- ==== Proof.LibBatchVariance.lean ====
import Idealize.ShloMosaic.PureOps.Ideal
import Mathlib.Tactic

/-!
# Batch statistics over the extended reals

A column of a batch is a finite family of entries. When every entry is a real number, the two usual ways of writing
its variance agree on the extended reals:

* the moment form, `(Σ hᵢ²)/n − (Σ hᵢ/n)·(Σ hᵢ/n)`, and
* the centred form, `(Σ (hᵢ − μ)·(hᵢ − μ))/n` with `μ = (Σ hᵢ)/n`,

where `n` is the number of entries. Over the reals this is the expansion of the square,
`Σ (hᵢ − μ)² = Σ hᵢ² − 2μ Σ hᵢ + n μ²`, followed by `Σ hᵢ = n μ`. On the extended reals the expansion uses
distributivity, which fails at the infinities, so the statement is made for families of reals and both sides are shown to
be the coercion of one real number. That number is a mean of squares, hence nonnegative; adding a positive `ε` makes it
positive, and the reciprocal square root of a positive real is again a real. So a normalisation
`γ·(h − μ)·rsqrt(var + ε) + β` of real entries by real `γ`, `β` has real entries.

Everything here is independent of any program: the index type is an arbitrary finite type.
-/

noncomputable section

namespace Idealize.ShloMosaic.BatchStats

open scoped BigOperators

variable {ι : Type*} [Fintype ι]

/-! ## Sums of reals inside the extended reals -/

/-- The coercion of a finite sum of reals is the sum of the coercions. -/
theorem coe_sum (s : Finset ι) (h : ι → ℝ) : ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real (x : ι → EReal) (hx : ∀ i, x i ≠ ⊤ ∧ x i ≠ ⊥) : ∃ h : ι → ℝ, x = fun i => (h i : EReal) :=
  ⟨fun i => (x i).toReal, funext fun i => (EReal.coe_toReal (hx i).1 (hx i).2).symm⟩

/-- The quotient of a real by a nonzero real, as the library's division on the extended reals computes it. -/
theorem div_coe_coe (a n : ℝ) (hn : n ≠ 0) : Ideal.div (a : EReal) (n : EReal) = ((a / n : ℝ) : EReal) := by
  rw [Ideal.div_coe hn, ← EReal.coe_mul, mul_one_div]

/-! ## The expansion of the square, over the reals -/

/-- `Σ (hᵢ − μ)(hᵢ − μ) = Σ hᵢ hᵢ − 2 μ Σ hᵢ + (number of entries) · μ μ`, for any real `μ`. -/
theorem sum_centred_sq (h : ι → ℝ) (μ : ℝ) :
    ∑ i, (h i - μ) * (h i - μ) = ∑ i, h i * h i - 2 * μ * ∑ i, h i + (Fintype.card ι : ℝ) * (μ * μ) := by
  have e : ∀ i, (h i - μ) * (h i - μ) = h i * h i - 2 * μ * h i + μ * μ := fun i => by ring
  simp only [e, Finset.sum_add_distrib, Finset.sum_sub_distrib, ← Finset.mul_sum, Finset.sum_const, Finset.card_univ,
    nsmul_eq_mul]
  ring

/-- The centred form of the variance is the moment form, when `n` is the number of entries and is not zero. -/
theorem centred_eq_moments (h : ι → ℝ) (n : ℝ) (hcard : (Fintype.card ι : ℝ) = n) (hn : n ≠ 0) :
    (∑ i, (h i - (∑ j, h j) / n) * (h i - (∑ j, h j) / n)) / n
      = (∑ i, h i * h i) / n - (∑ j, h j) / n * ((∑ j, h j) / n) := by
  rw [sum_centred_sq, hcard]
  field_simp
  ring

/-- The centred form is a mean of squares: it is not negative. -/
theorem centred_nonneg (h : ι → ℝ) (n : ℝ) (hcard : (Fintype.card ι : ℝ) = n) :
    0 ≤ (∑ i, (h i - (∑ j, h j) / n) * (h i - (∑ j, h j) / n)) / n := by
  have hn : 0 ≤ n := hcard ▸ Nat.cast_nonneg _
  exact div_nonneg (Finset.sum_nonneg fun i _ => mul_self_nonneg _) hn

/-! ## The same on the extended reals, for families of reals -/

/-- The mean of a family of reals, computed on the extended reals. -/
theorem mean_coe (h : ι → ℝ) (n : ℝ) (hn : n ≠ 0) :
    Ideal.div (∑ i, (h i : EReal)) (n : EReal) = (((∑ i, h i) / n : ℝ) : EReal) := by
  rw [← coe_sum, div_coe_coe _ _ hn]

/-- The moment form, computed on the extended reals from real entries, is the coercion of the real moment form. -/
theorem moments_coe (h : ι → ℝ) (n : ℝ) (hn : n ≠ 0) :
    Ideal.div (∑ i, (h i : EReal) * (h i : EReal)) (n : EReal)
        - Ideal.div (∑ i, (h i : EReal)) (n : EReal) * Ideal.div (∑ i, (h i : EReal)) (n : EReal)
      = (((∑ i, h i * h i) / n - (∑ j, h j) / n * ((∑ j, h j) / n) : ℝ) : EReal) := by
  rw [mean_coe h n hn]
  simp only [← EReal.coe_mul]
  rw [← coe_sum, div_coe_coe _ _ hn, ← EReal.coe_sub]

/-- The centred form, computed on the extended reals from real entries, is the coercion of the real centred form. -/
theorem centred_coe (h : ι → ℝ) (n : ℝ) (hn : n ≠ 0) :
    Ideal.div (∑ i, ((h i : EReal) - Ideal.div (∑ j, (h j : EReal)) (n : EReal))
        * ((h i : EReal) - Ideal.div (∑ j, (h j : EReal)) (n : EReal))) (n : EReal)
      = (((∑ i, (h i - (∑ j, h j) / n) * (h i - (∑ j, h j) / n)) / n : ℝ) : EReal) := by
  rw [mean_coe h n hn]
  simp only [← EReal.coe_sub, ← EReal.coe_mul]
  rw [← coe_sum, div_coe_coe _ _ hn]

/-- THE LAW THAT JOINS THE TWO PROGRAMS: on real entries, the variance written through the second moment and the variance
    written through the centred squares are one extended real. -/
theorem moments_eq_centred (h : ι → ℝ) (n : ℝ) (hcard : (Fintype.card ι : ℝ) = n) (hn : n ≠ 0) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
          * ((h i : EReal) - Ideal.div (∑ j, (h j : EReal)) (n : EReal))) (n : EReal) := by
  rw [moments_coe h n hn, centred_coe h n hn, centred_eq_moments h n hcard hn]

/-! ## The reciprocal square root of a variance plus a positive constant -/

/-- The reciprocal square root of a positive real is a real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- A nonnegative real plus a positive real, under the reciprocal square root, is a real: the scale of a batch
    normalisation never leaves the reals. -/
theorem rsqrt_add_eps_coe {v e : ℝ} (hv : 0 ≤ v) (he : 0 < e) :
    Ideal.rsqrt ((v : EReal) + (e : EReal)) = (((Real.sqrt (v + e))⁻¹ : ℝ) : EReal) := by
  rw [← EReal.coe_add]
  exact rsqrt_coe_pos (add_pos_of_nonneg_of_pos hv he)

/-- The normalised entry `γ·(h − μ)·s + β` of reals is a real. -/
theorem normalise_coe (γ h μ s β : ℝ) :
    (γ : EReal) * ((h : EReal) - (μ : EReal)) * (s : EReal) + (β : EReal) = ((γ * (h - μ) * s + β : ℝ) : EReal) := by
  simp only [EReal.coe_sub, EReal.coe_mul, EReal.coe_add]

end Idealize.ShloMosaic.BatchStats

end
-- ==== Proof.Ref.Real.lean ====
import proofs.«123467_j2559800508646_1_alg».proof.Proof.Ref.Pre
import proofs.«123467_j2559800508646_1_alg».proof.Proof.LibExtReal
import proofs.«123467_j2559800508646_1_alg».proof.Proof.LibBatchVariance

/-! # Real entries stay real through the reference

On the extended reals the algebra that joins the two programs (the expansion of a square) holds only where no entry is
infinite. This module follows real entries through the reference: if the float argument arrays hold real numbers, so does
every array the reference computes from them.

* a product `Σ_k h (r, k) · W (k, j)` of real entries is a finite sum of products of reals;
* the edge aggregation reads rows of its operand (whatever the index words are, what is read is an entry of the operand)
  and adds finitely many weighted entries to zero;
* the leaky rectifier returns `t` or `a · t`;
* the normalisation divides finite sums of reals by the real `n ≠ 0`, and takes the reciprocal square root of a mean of
  squares plus the positive real `ε`, which is a positive real.

For a column of real entries the centred variance the reference computes is the mean of the squares minus the square of
the mean (`varAt_eq_moments`: the expansion of the square, which needs every entry to be real); `norm_apply_moments` and
`out1_apply_moments` … `out3_apply_moments` read the normalisation and the three layer outputs at an index in that
arrangement. -/

noncomputable section

namespace Cert.ReferenceIdeal.RefReal

open Cert.ReferenceIdeal Cert.ReferenceIdeal.Gen Cert.ReferenceIdeal.RefNorm Cert.ReferenceIdeal.RefPre
open Idealize.ShloMosaic Idealize.ShloMosaic.ValueIdx Cert.LibExtReal
open scoped BigOperators

/-- The product of two arrays at an index. -/
theorem mulf_at {s : Shape} (x y : FVec Ideal s .f32) (i : s.Idx) : mulf x y i = (x i : EReal) * (y i : EReal) := rfl

/-- The leaky rectifier of reals is a real. -/
theorem leaky_isReal {a t : EReal} (ha : IsReal a) (ht : IsReal t) : IsReal (leaky a t) := by
  unfold leaky
  split
  · exact ht
  · exact ha.mul ht

/-- The accumulating scatter of real updates into real entries has real entries: an entry is the operand's entry plus a
    finite sum of updates, whatever the index words are. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A gathered entry is an entry of the operand, whatever the index words are. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- A broadcast entry is an entry of the operand. -/
theorem broadcastInDim_isReal {s t : Shape} (dims : Fin s.rank → Fin t.rank) (h : s.BroadcastsInDim t dims) (x : s.Idx → EReal)
    (hx : ∀ i, IsReal (x i)) (j : t.Idx) : IsReal (broadcastInDim t dims h x j) := by
  unfold broadcastInDim
  exact hx _

/-- On the extended reals the edge aggregation is the exact accumulating scatter of the weighted gathered rows into zeros. -/
theorem agg_eq (xw : (⟨S50000x64, .f32⟩ : BufTy).Contents (Elt Ideal)) (src dst : (⟨S1000000, .i32⟩ : BufTy).Contents (Elt Ideal)) (w : (⟨S1000000, .f32⟩ : BufTy).Contents (Elt Ideal)) :
    agg (F := Ideal) xw src dst w
      = Ideal.hostScatterAdd scatter_S50000x64_S1000000x1_S1000000x64_1_0_0_1
          (broadcastInDim S50000x64 ![] bcast_S_S50000x64 (constant (F := Ideal) S_ .f32 0x00000000#32))
          (broadcastInDim S1000000x1 ![0] bcast_S1000000_S1000000x1_0 dst)
          (mulf (F := Ideal) (φ := .f32)
            (broadcastInDim S1000000x64 ![0, 1] bcast_S1000000x1_S1000000x64_0_1
              (broadcastInDim S1000000x1 ![0] bcast_S1000000_S1000000x1_0 w))
            (Host.gather gather_S50000x64_S1000000x1_S1000000x64_1_0_n_n_0_1_164 xw
              (broadcastInDim S1000000x1 ![0] bcast_S1000000_S1000000x1_0
                (select (cmpi .slt src (broadcastInDim S1000000 ![] bcast_S_S1000000 (constantI S_ 32 0#32)))
                  (addi src (broadcastInDim S1000000 ![] bcast_S_S1000000 (constantI S_ 32 50000#32))) src)))) := rfl

/-- THE EDGE AGGREGATION KEEPS REAL ENTRIES REAL, for any index words. -/
theorem agg_isReal (xw : (⟨S50000x64, .f32⟩ : BufTy).Contents (Elt Ideal)) (src dst : (⟨S1000000, .i32⟩ : BufTy).Contents (Elt Ideal)) (w : (⟨S1000000, .f32⟩ : BufTy).Contents (Elt Ideal))
    (hxw : ∀ i, IsReal (xw i)) (hw : ∀ e, IsReal (w e)) (i : S50000x64.Idx) :
    IsReal (agg (F := Ideal) xw src dst w i) := by
  rw [agg_eq]
  refine hostScatterAdd_isReal _ _ _ _ (fun i => ?_) (fun j => ?_) i
  · show IsReal (Ideal.ofBits .f32 0x00000000#32)
    rw [Ideal.ofBits_zero_f32]
    exact isReal_zero
  · rw [mulf_at]
    exact (broadcastInDim_isReal _ _ _ (broadcastInDim_isReal _ _ _ hw) j).mul (gather_isReal _ _ _ hxw j)

/-- The first layer's product of real entries is real. -/
theorem xw1_isReal (x0 : (⟨S50000x64, .f32⟩ : BufTy).Contents (Elt Ideal)) (x4 : (⟨S3x64x64, .f32⟩ : BufTy).Contents (Elt Ideal))
    (h0 : ∀ i, IsReal (x0 i)) (h4 : ∀ i, IsReal (x4 i)) (i : S50000x64.Idx) :
    IsReal (ReadP.val_main_v2 (F := Ideal) x0 x4 i) := by
  obtain ⟨r, j, rfl⟩ : ∃ (r : Fin 50000) (j : Fin 64), i = ix2 r j := ⟨i 0, i 1, eq_ix2 i⟩
  rw [xw1]
  exact IsReal.sum _ _ fun k _ => (h0 _).mul (h4 _)

/-- THE ARRAY THE FIRST LAYER NORMALISES HAS REAL ENTRIES when the float arguments it reads do; the two index arrays
    `x1`, `x2` are arbitrary. -/
theorem pre1_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (i : S50000x64.Idx) :
    IsReal (ReadP.val_main_v27 (F := Ideal) x0 x1 x2 x3 x4 x5 x6 i) := by
  obtain ⟨r, j, rfl⟩ : ∃ (r : Fin 50000) (j : Fin 64), i = ix2 r j := ⟨i 0, i 1, eq_ix2 i⟩
  rw [pre1_apply]
  exact leaky_isReal (h6 _) ((agg_isReal _ x1 x2 x3 (xw1_isReal x0 x4 h0 h4) h3 _).add (h5 _))

/-- THE NORMALISATION OF REAL ENTRIES BY REAL SCALE AND SHIFT HAS REAL ENTRIES: the column mean is a real, the centred
    variance is a real that is not negative, so the variance plus `ε` is positive and its reciprocal square root is a real. -/
theorem norm_isReal (γ β : (⟨S64, .f32⟩ : BufTy).Contents (Elt Ideal)) (h : (⟨S50000x64, .f32⟩ : BufTy).Contents (Elt Ideal))
    (hγ : ∀ i, IsReal (γ i)) (hβ : ∀ i, IsReal (β i)) (hh : ∀ i, IsReal (h i)) (i : S50000x64.Idx) :
    IsReal (norm (F := Ideal) γ β h i) := by
  obtain ⟨r, j, rfl⟩ : ∃ (r : Fin 50000) (j : Fin 64), i = ix2 r j := ⟨i 0, i 1, eq_ix2 i⟩
  rw [norm_apply]
  choose H hH using fun k : Fin 50000 => hh (ix2 k j)
  obtain ⟨g, hg⟩ := hγ (ix1 j)
  obtain ⟨b, hb⟩ := hβ (ix1 j)
  have hn : (50000 : ℝ) ≠ 0 := by norm_num
  have hcard : (Fintype.card (Fin 50000) : ℝ) = 50000 := by simp
  have hμ : meanAt h j = (((∑ k, H k) / 50000 : ℝ) : EReal) := by
    unfold meanAt
    simp only [hH]
    rw [n_word]
    exact BatchStats.mean_coe H 50000 hn
  have hv : varAt h j
      = (((∑ k, (H k - (∑ l, H l) / 50000) * (H k - (∑ l, H l) / 50000)) / 50000 : ℝ) : EReal) := by
    unfold varAt meanAt
    simp only [hH]
    rw [n_word]
    exact BatchStats.centred_coe H 50000 hn
  rw [hμ, hv, eps_word, BatchStats.rsqrt_add_eps_coe (BatchStats.centred_nonneg H 50000 hcard) eps_pos, hg, hb, hH r,
    BatchStats.normalise_coe]
  exact isReal_coe _

/-- THE LAW THAT JOINS THE TWO PROGRAMS, ON THE REFERENCE'S SIDE: for a column of real entries the centred variance is the
    mean of the squares minus the square of the mean. -/
theorem varAt_eq_moments (h : (⟨S50000x64, .f32⟩ : BufTy).Contents (Elt Ideal)) (hh : ∀ i, IsReal (h i)) (j : Fin 64) :
    varAt h j
      = Ideal.div (∑ k : Fin 50000, (h (ix2 k j) : EReal) * (h (ix2 k j) : EReal)) (Ideal.ofBits .f32 0x47435000#32)
          - meanAt h j * meanAt h j := by
  choose H hH using fun k : Fin 50000 => hh (ix2 k j)
  have hn : (50000 : ℝ) ≠ 0 := by norm_num
  have hcard : (Fintype.card (Fin 50000) : ℝ) = 50000 := by simp
  unfold varAt meanAt
  simp only [hH]
  rw [n_word]
  exact (BatchStats.moments_eq_centred H 50000 hcard hn).symm

/-- The normalisation of an array of real entries at row `r`, column `j`, with the variance written through the second
    moment: the arrangement of the program that accumulates the column sums of the entries and of their squares. -/
theorem norm_apply_moments (γ β : (⟨S64, .f32⟩ : BufTy).Contents (Elt Ideal)) (h : (⟨S50000x64, .f32⟩ : BufTy).Contents (Elt Ideal)) (hh : ∀ i, IsReal (h i))
    (r : Fin 50000) (j : Fin 64) :
    norm (F := Ideal) γ β h (ix2 r j)
      = γ (ix1 j) * (h (ix2 r j) - meanAt h j)
          * Ideal.rsqrt
              (Ideal.div (∑ k : Fin 50000, (h (ix2 k j) : EReal) * (h (ix2 k j) : EReal)) (Ideal.ofBits .f32 0x47435000#32)
                - meanAt h j * meanAt h j + Ideal.ofBits .f32 0x3727C5AC#32)
          + β (ix1 j) := by
  rw [norm_apply, varAt_eq_moments h hh j]

/-- The first layer's bias row is real when the bias table is. -/
theorem bias1_isReal (x5 : (⟨S3x64, .f32⟩ : BufTy).Contents (Elt Ideal)) (h5 : ∀ i, IsReal (x5 i)) (i : S64.Idx) :
    IsReal (ReadP.val_main_v17 (F := Ideal) x5 i) := by
  obtain ⟨j, rfl⟩ : ∃ j : Fin 64, i = ix1 j := ⟨i 0, eq_ix1 i⟩
  rw [bias1]
  exact h5 _

/-- The first layer's scale row is real when the scale table is. -/
theorem scale1_isReal (x7 : (⟨S3x64, .f32⟩ : BufTy).Contents (Elt Ideal)) (h7 : ∀ i, IsReal (x7 i)) (i : S64.Idx) :
    IsReal (ReadP.val_main_v39 (F := Ideal) x7 i) := by
  obtain ⟨j, rfl⟩ : ∃ j : Fin 64, i = ix1 j := ⟨i 0, eq_ix1 i⟩
  rw [scale1]
  exact h7 _

/-- The first layer's shift row is real when the shift table is. -/
theorem shift1_isReal (x8 : (⟨S3x64, .f32⟩ : BufTy).Contents (Elt Ideal)) (h8 : ∀ i, IsReal (x8 i)) (i : S64.Idx) :
    IsReal (ReadP.val_main_v53 (F := Ideal) x8 i) := by
  obtain ⟨j, rfl⟩ : ∃ j : Fin 64, i = ix1 j := ⟨i 0, eq_ix1 i⟩
  rw [shift1]
  exact h8 _

/-- The second layer's bias row is real when the bias table is. -/
theorem bias2_isReal (x5 : (⟨S3x64, .f32⟩ : BufTy).Contents (Elt Ideal)) (h5 : ∀ i, IsReal (x5 i)) (i : S64.Idx) :
    IsReal (ReadP.val_main_v74 (F := Ideal) x5 i) := by
  obtain ⟨j, rfl⟩ : ∃ j : Fin 64, i = ix1 j := ⟨i 0, eq_ix1 i⟩
  rw [bias2]
  exact h5 _

/-- The second layer's scale row is real when the scale table is. -/
theorem scale2_isReal (x7 : (⟨S3x64, .f32⟩ : BufTy).Contents (Elt Ideal)) (h7 : ∀ i, IsReal (x7 i)) (i : S64.Idx) :
    IsReal (ReadP.val_main_v97 (F := Ideal) x7 i) := by
  obtain ⟨j, rfl⟩ : ∃ j : Fin 64, i = ix1 j := ⟨i 0, eq_ix1 i⟩
  rw [scale2]
  exact h7 _

/-- The second layer's shift row is real when the shift table is. -/
theorem shift2_isReal (x8 : (⟨S3x64, .f32⟩ : BufTy).Contents (Elt Ideal)) (h8 : ∀ i, IsReal (x8 i)) (i : S64.Idx) :
    IsReal (ReadP.val_main_v111 (F := Ideal) x8 i) := by
  obtain ⟨j, rfl⟩ : ∃ j : Fin 64, i = ix1 j := ⟨i 0, eq_ix1 i⟩
  rw [shift2]
  exact h8 _

/-- The third layer's bias row is real when the bias table is. -/
theorem bias3_isReal (x5 : (⟨S3x64, .f32⟩ : BufTy).Contents (Elt Ideal)) (h5 : ∀ i, IsReal (x5 i)) (i : S64.Idx) :
    IsReal (ReadP.val_main_v132 (F := Ideal) x5 i) := by
  obtain ⟨j, rfl⟩ : ∃ j : Fin 64, i = ix1 j := ⟨i 0, eq_ix1 i⟩
  rw [bias3]
  exact h5 _

/-- The third layer's scale row is real when the scale table is. -/
theorem scale3_isReal (x7 : (⟨S3x64, .f32⟩ : BufTy).Contents (Elt Ideal)) (h7 : ∀ i, IsReal (x7 i)) (i : S64.Idx) :
    IsReal (ReadP.val_main_v155 (F := Ideal) x7 i) := by
  obtain ⟨j, rfl⟩ : ∃ j : Fin 64, i = ix1 j := ⟨i 0, eq_ix1 i⟩
  rw [scale3]
  exact h7 _

/-- The third layer's shift row is real when the shift table is. -/
theorem shift3_isReal (x8 : (⟨S3x64, .f32⟩ : BufTy).Contents (Elt Ideal)) (h8 : ∀ i, IsReal (x8 i)) (i : S64.Idx) :
    IsReal (ReadP.val_main_v169 (F := Ideal) x8 i) := by
  obtain ⟨j, rfl⟩ : ∃ j : Fin 64, i = ix1 j := ⟨i 0, eq_ix1 i⟩
  rw [shift3]
  exact h8 _

/-- THE FIRST LAYER'S OUTPUT HAS REAL ENTRIES when the seven float arguments do. -/
theorem out1_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v56 (F := Ideal) x0 x1 x2 x3 x4 x5 x6 x7 x8 i) := by
  rw [layer1]
  exact norm_isReal _ _ _ (scale1_isReal x7 h7) (shift1_isReal x8 h8) (pre1_isReal x0 x1 x2 x3 x4 x5 x6 h0 h3 h4 h5 h6) i

/-- The second layer's product of real entries is real. -/
theorem xw2_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v59 (F := Ideal) x0 x1 x2 x3 x4 x5 x6 x7 x8 i) := by
  obtain ⟨r, j, rfl⟩ : ∃ (r : Fin 50000) (j : Fin 64), i = ix2 r j := ⟨i 0, i 1, eq_ix2 i⟩
  rw [xw2]
  exact IsReal.sum _ _ fun k _ => (out1_isReal x0 x1 x2 x3 x4 x5 x6 x7 x8 h0 h3 h4 h5 h6 h7 h8 _).mul (h4 _)

/-- THE ARRAY THE SECOND LAYER NORMALISES HAS REAL ENTRIES. -/
theorem pre2_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v85 (F := Ideal) x0 x1 x2 x3 x4 x5 x6 x7 x8 i) := by
  obtain ⟨r, j, rfl⟩ : ∃ (r : Fin 50000) (j : Fin 64), i = ix2 r j := ⟨i 0, i 1, eq_ix2 i⟩
  rw [pre2_apply]
  exact (leaky_isReal (h6 _) ((agg_isReal _ x1 x2 x3 (xw2_isReal x0 x1 x2 x3 x4 x5 x6 x7 x8 h0 h3 h4 h5 h6 h7 h8) h3 _).add (h5 _))).add
    (out1_isReal x0 x1 x2 x3 x4 x5 x6 x7 x8 h0 h3 h4 h5 h6 h7 h8 _)

/-- THE SECOND LAYER'S OUTPUT HAS REAL ENTRIES. -/
theorem out2_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v114 (F := Ideal) x0 x1 x2 x3 x4 x5 x6 x7 x8 i) := by
  rw [layer2]
  exact norm_isReal _ _ _ (scale2_isReal x7 h7) (shift2_isReal x8 h8) (pre2_isReal x0 x1 x2 x3 x4 x5 x6 x7 x8 h0 h3 h4 h5 h6 h7 h8) i

/-- The third layer's product of real entries is real. -/
theorem xw3_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v117 (F := Ideal) x0 x1 x2 x3 x4 x5 x6 x7 x8 i) := by
  obtain ⟨r, j, rfl⟩ : ∃ (r : Fin 50000) (j : Fin 64), i = ix2 r j := ⟨i 0, i 1, eq_ix2 i⟩
  rw [xw3]
  exact IsReal.sum _ _ fun k _ => (out2_isReal x0 x1 x2 x3 x4 x5 x6 x7 x8 h0 h3 h4 h5 h6 h7 h8 _).mul (h4 _)

/-- THE ARRAY THE THIRD LAYER NORMALISES HAS REAL ENTRIES. -/
theorem pre3_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v143 (F := Ideal) x0 x1 x2 x3 x4 x5 x6 x7 x8 i) := by
  obtain ⟨r, j, rfl⟩ : ∃ (r : Fin 50000) (j : Fin 64), i = ix2 r j := ⟨i 0, i 1, eq_ix2 i⟩
  rw [pre3_apply]
  exact (leaky_isReal (h6 _) ((agg_isReal _ x1 x2 x3 (xw3_isReal x0 x1 x2 x3 x4 x5 x6 x7 x8 h0 h3 h4 h5 h6 h7 h8) h3 _).add (h5 _))).add
    (out2_isReal x0 x1 x2 x3 x4 x5 x6 x7 x8 h0 h3 h4 h5 h6 h7 h8 _)

/-- THE THIRD LAYER'S OUTPUT HAS REAL ENTRIES: the reference's result is an array of real numbers. -/
theorem out3_isReal (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S50000x64.Idx) :
    IsReal (ReadP.val_main_v172 (F := Ideal) x0 x1 x2 x3 x4 x5 x6 x7 x8 i) := by
  rw [layer3]
  exact norm_isReal _ _ _ (scale3_isReal x7 h7) (shift3_isReal x8 h8) (pre3_isReal x0 x1 x2 x3 x4 x5 x6 x7 x8 h0 h3 h4 h5 h6 h7 h8) i

/-- THE FIRST LAYER'S OUTPUT AT ROW `r`, COLUMN `j`, for real arguments, with the variance written through the second moment of
    the column of the array the layer normalises. -/
theorem out1_apply_moments (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (r : Fin 50000) (j : Fin 64) :
    ReadP.val_main_v56 (F := Ideal) x0 x1 x2 x3 x4 x5 x6 x7 x8 (ix2 r j)
      = x7 (ix2 (0 : Fin 3) j) * (ReadP.val_main_v27 (F := Ideal) x0 x1 x2 x3 x4 x5 x6 (ix2 r j) - meanAt (ReadP.val_main_v27 (F := Ideal) x0 x1 x2 x3 x4 x5 x6) j)
          * Ideal.rsqrt
              (Ideal.div (∑ k : Fin 50000, (ReadP.val_main_v27 (F := Ideal) x0 x1 x2 x3 x4 x5 x6 (ix2 k j) : EReal) * (ReadP.val_main_v27 (F := Ideal) x0 x1 x2 x3 x4 x5 x6 (ix2 k j) : EReal))
                  (Ideal.ofBits .f32 0x47435000#32)
                - meanAt (ReadP.val_main_v27 (F := Ideal) x0 x1 x2 x3 x4 x5 x6) j * meanAt (ReadP.val_main_v27 (F := Ideal) x0 x1 x2 x3 x4 x5 x6) j + Ideal.ofBits .f32 0x3727C5AC#32)
          + x8 (ix2 (0 : Fin 3) j) := by
  rw [layer1, norm_apply_moments _ _ _ (pre1_isReal x0 x1 x2 x3 x4 x5 x6 h0 h3 h4 h5 h6), scale1, shift1]

/-- THE SECOND LAYER'S OUTPUT AT ROW `r`, COLUMN `j`, for real arguments, with the variance written through the second moment of
    the column of the array the layer normalises. -/
theorem out2_apply_moments (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (r : Fin 50000) (j : Fin 64) :
    ReadP.val_main_v114 (F := Ideal) x0 x1 x2 x3 x4 x5 x6 x7 x8 (ix2 r j)
      = x7 (ix2 (1 : Fin 3) j) * (ReadP.val_main_v85 (F := Ideal) x0 x1 x2 x3 x4 x5 x6 x7 x8 (ix2 r j) - meanAt (ReadP.val_main_v85 (F := Ideal) x0 x1 x2 x3 x4 x5 x6 x7 x8) j)
          * Ideal.rsqrt
              (Ideal.div (∑ k : Fin 50000, (ReadP.val_main_v85 (F := Ideal) x0 x1 x2 x3 x4 x5 x6 x7 x8 (ix2 k j) : EReal) * (ReadP.val_main_v85 (F := Ideal) x0 x1 x2 x3 x4 x5 x6 x7 x8 (ix2 k j) : EReal))
                  (Ideal.ofBits .f32 0x47435000#32)
                - meanAt (ReadP.val_main_v85 (F := Ideal) x0 x1 x2 x3 x4 x5 x6 x7 x8) j * meanAt (ReadP.val_main_v85 (F := Ideal) x0 x1 x2 x3 x4 x5 x6 x7 x8) j + Ideal.ofBits .f32 0x3727C5AC#32)
          + x8 (ix2 (1 : Fin 3) j) := by
  rw [layer2, norm_apply_moments _ _ _ (pre2_isReal x0 x1 x2 x3 x4 x5 x6 x7 x8 h0 h3 h4 h5 h6 h7 h8), scale2, shift2]

/-- THE THIRD LAYER'S OUTPUT AT ROW `r`, COLUMN `j`, for real arguments, with the variance written through the second moment of
    the column of the array the layer normalises. -/
theorem out3_apply_moments (x0 : (⟨S50000x64, .f32⟩ : BufTy).Contents (Elt Ideal)) (x1 x2 : (⟨S1000000, .i32⟩ : BufTy).Contents (Elt Ideal)) (x3 : (⟨S1000000, .f32⟩ : BufTy).Contents (Elt Ideal)) (x4 : (⟨S3x64x64, .f32⟩ : BufTy).Contents (Elt Ideal)) (x5 : (⟨S3x64, .f32⟩ : BufTy).Contents (Elt Ideal)) (x6 : (⟨S3, .f32⟩ : BufTy).Contents (Elt Ideal)) (x7 x8 : (⟨S3x64, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (r : Fin 50000) (j : Fin 64) :
    ReadP.val_main_v172 (F := Ideal) x0 x1 x2 x3 x4 x5 x6 x7 x8 (ix2 r j)
      = x7 (ix2 (2 : Fin 3) j) * (ReadP.val_main_v143 (F := Ideal) x0 x1 x2 x3 x4 x5 x6 x7 x8 (ix2 r j) - meanAt (ReadP.val_main_v143 (F := Ideal) x0 x1 x2 x3 x4 x5 x6 x7 x8) j)
          * Ideal.rsqrt
              (Ideal.div (∑ k : Fin 50000, (ReadP.val_main_v143 (F := Ideal) x0 x1 x2 x3 x4 x5 x6 x7 x8 (ix2 k j) : EReal) * (ReadP.val_main_v143 (F := Ideal) x0 x1 x2 x3 x4 x5 x6 x7 x8 (ix2 k j) : EReal))
                  (Ideal.ofBits .f32 0x47435000#32)
                - meanAt (ReadP.val_main_v143 (F := Ideal) x0 x1 x2 x3 x4 x5 x6 x7 x8) j * meanAt (ReadP.val_main_v143 (F := Ideal) x0 x1 x2 x3 x4 x5 x6 x7 x8) j + Ideal.ofBits .f32 0x3727C5AC#32)
          + x8 (ix2 (2 : Fin 3) j) := by
  rw [layer3, norm_apply_moments _ _ _ (pre3_isReal x0 x1 x2 x3 x4 x5 x6 x7 x8 h0 h3 h4 h5 h6 h7 h8), scale3, shift3]

end Cert.ReferenceIdeal.RefReal

end
-- ==== Proof.Bridge.Layer1Out.lean ====
import proofs.«123467_j2559800508646_1_alg».proof.Proof.Bridge.Layer1Pre
import proofs.«123467_j2559800508646_1_alg».proof.Proof.KI.NormValue2
import proofs.«123467_j2559800508646_1_alg».proof.Proof.KI.StatsTotals1
import proofs.«123467_j2559800508646_1_alg».proof.Proof.Ref.Real

/-!
# Layer one of the kernel program: its output is the reference's

The normalisation call scales each entry of the array it is handed by the column's statistics. Its five windows hold:
that array (the reference's, by the previous module); the column means, each the column's sum over all 50000 rows divided
by 50000; the column variances, each the column's sum of squares divided by 50000 less the squared mean; and the first
scale and shift rows. The reference's first layer, read in the same moment form (which is where the variance law and the
finiteness of the float arguments enter), is the same expression entry by entry.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.LibExtReal (IsReal)
open scoped BigOperators

variable (m : (ℓ : Loc nD τ sig) → Buf (Elt Ideal) ℓ)

/-- The array layer one normalises, as the reference names it. -/
abbrev pre1 (c : Dev nD) : S50000x64.Idx → EReal :=
  Cert.ReferenceIdeal.ReadP.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The statistics call's whole-array function is that array. -/
theorem activated1_is_pre1 (c : Dev nD) : activated1 (fun c b => at3 m c b) c = pre1 m c :=
  ((act_array1 (fun c b => at3 m c b) c).symm.trans ((rectified_at4 m c).symm.trans (rectified1 m c)))

/-- After the statistics call the first row output holds the column sums of that array. -/
theorem sums_at4 (c : Dev nD) (j : Fin 64) :
    (at4 m c (Proc.devRef .tc main_v22_1) : S1x64.Idx → EReal) (ix2 (0 : Fin 1) j) = ∑ R : Fin 50000, pre1 m c (ix2 R j) := by
  have e : at4 m c (Proc.devRef .tc main_v22_1) = (data1 m c).arrAt 4 cfg1.N := by
    unfold at4
    rw [Function.update_of_ne (StableHlo.devRef_ne_of_ne (show (main_v22_1 : Ref sig .tc) ≠ main_v22_2 from by decide)), Function.update_self]
  rw [e]
  show ((statsData1 (F := Ideal) (fun c b => at3 m c b) c).arrAt 4 cfg1.N : S1x64.Idx → EReal) (ix2 (0 : Fin 1) j) = _
  rw [sum_total1, activated1_is_pre1]

/-- And the second the column sums of its squares. -/
theorem squares_at4 (c : Dev nD) (j : Fin 64) :
    (at4 m c (Proc.devRef .tc main_v22_2) : S1x64.Idx → EReal) (ix2 (0 : Fin 1) j) = ∑ R : Fin 50000, pre1 m c (ix2 R j) * pre1 m c (ix2 R j) := by
  have e : at4 m c (Proc.devRef .tc main_v22_2) = (data1 m c).arrAt 5 cfg1.N := by
    unfold at4
    rw [Function.update_self]
  rw [e]
  show ((statsData1 (F := Ideal) (fun c b => at3 m c b) c).arrAt 5 cfg1.N : S1x64.Idx → EReal) (ix2 (0 : Fin 1) j) = _
  rw [sq_total1, activated1_is_pre1]

/-- After the normalisation call its output array is what its write-backs leave. -/
theorem output_at6 (c : Dev nD) : at6 m c (Proc.devRef .tc main_v35) = (data2 m c).arrAt 5 cfg2.N := by
  unfold at6
  exact Function.update_self _ _ _

set_option maxHeartbeats 4000000 in
/-- THE FIRST LAYER'S OUTPUT IS THE REFERENCE'S, when the seven float arguments are real. -/
theorem out1 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at6 m c (Proc.devRef .tc main_v35)
      = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [output_at6]
  show (normData2 (F := Ideal) (fun c b => at5 m c b) c).arrAt 5 cfg2.N = _
  rw [norm_final2]
  funext i
  obtain ⟨r, j, rfl⟩ : ∃ (r : Fin 50000) (j : Fin 64), i = ix2 r j := ⟨i 0, i 1, eq_ix2 i⟩
  rw [Cert.ReferenceIdeal.RefReal.out1_apply_moments _ _ _ _ _ _ _ _ _ h0 h3 h4 h5 h6 h7 h8 r j]
  have hact : actIn2 (fun c b => at5 m c b) c (ix2 r j) = pre1 m c (ix2 r j) :=
    congrFun ((rectified_at5 m c).trans (rectified1 m c)) _
  have hmean : meanIn2 (fun c b => at5 m c b) c (ix2 (0 : Fin 1) j) = Cert.ReferenceIdeal.RefNorm.meanAt (pre1 m c) j := by
    show (at5 m c (Proc.devRef .tc main_v24) : S1x64.Idx → EReal) (ix2 (0 : Fin 1) j) = _
    rw [mean_at5, sums_at4]
    rfl
  have hvar : varIn2 (fun c b => at5 m c b) c (ix2 (0 : Fin 1) j)
      = Ideal.div (∑ k : Fin 50000, pre1 m c (ix2 k j) * pre1 m c (ix2 k j)) (Ideal.ofBits .f32 0x47435000#32)
        - Cert.ReferenceIdeal.RefNorm.meanAt (pre1 m c) j * Cert.ReferenceIdeal.RefNorm.meanAt (pre1 m c) j := by
    show (at5 m c (Proc.devRef .tc main_v28) : S1x64.Idx → EReal) (ix2 (0 : Fin 1) j) = _
    rw [variance_at5, sums_at4, squares_at4]
    rfl
  have hγ : gammaIn2 (fun c b => at5 m c b) c (ix2 (0 : Fin 1) j) = (m ((c : Thread nD τ).loc main_arg7) : S3x64.Idx → EReal) (ix2 (0 : Fin 3) j) :=
    scale_at5 m c j
  have hβ : betaIn2 (fun c b => at5 m c b) c (ix2 (0 : Fin 1) j) = (m ((c : Thread nD τ).loc main_arg8) : S3x64.Idx → EReal) (ix2 (0 : Fin 3) j) :=
    shift_at5 m c j
  show gammaIn2 (fun c b => at5 m c b) c (ix2 (0 : Fin 1) j) * (actIn2 (fun c b => at5 m c b) c (ix2 r j) - meanIn2 (fun c b => at5 m c b) c (ix2 (0 : Fin 1) j))
      * Ideal.rsqrt (varIn2 (fun c b => at5 m c b) c (ix2 (0 : Fin 1) j) + Ideal.ofBits .f32 0x3727C5AC#32)
      + betaIn2 (fun c b => at5 m c b) c (ix2 (0 : Fin 1) j) = _
  rw [hγ, hβ, hact, hmean, hvar]

end Cert.Bridge

end
-- ==== Proof.Bridge.HostWindows2.lean ====
import proofs.«123467_j2559800508646_1_alg».proof.Proof.KI.Boundaries
import proofs.«123467_j2559800508646_1_alg».proof.Proof.Ref.Pre
import Idealize.ShloMosaic.Lib.StableHlo.Run

/-!
# Layer two of the kernel program: what its host operations hand to its calls

As in layer one. Before the layer's product the host operations cut the layer's weight matrix out of the weight table; after
it they aggregate the product along the edges and cut the layer's bias row and slope; after the statistics call they divide
its column sums `S` and column sums of squares `Q` by `n` — `mean = S / n`, `variance = Q / n − mean · mean` — and cut the
scale row and the shift row. All cuts are the reference's, of the same argument tables. The previous layer's output, which
the statistics call adds back, passes through the stretches in between unchanged.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

variable (m : (ℓ : Loc nD τ sig) → Buf (Elt Ideal) ℓ)

/-! ## Arguments are as launched where they are read -/

/-- When the second weight matrix is cut, the weight table is as launched. -/
theorem arg4_at6 (c : Dev nD) : at6 m c (Proc.devRef .tc main_arg4) = (m ((c : Thread nD τ).loc main_arg4)) := by
  rw [← at6_eq m c, V6_of m (boundaryOuts m) c main_arg4 (by decide),
    V5_of m (boundaryOuts m) c main_arg4 (by decide),
    V4_of m (boundaryOuts m) c main_arg4 (by decide),
    V3_of m (boundaryOuts m) c main_arg4 (by decide),
    V2_of m (boundaryOuts m) c main_arg4 (by decide),
    V1_of m c main_arg4 (by decide)]

/-- After the second product argument 1 is as launched. -/
theorem arg1_at8 (c : Dev nD) : at8 m c (Proc.devRef .tc main_arg1) = (m ((c : Thread nD τ).loc main_arg1)) := by
  rw [← at8_eq m c, V8_of m (boundaryOuts m) c main_arg1 (by decide),
    V7_of m (boundaryOuts m) c main_arg1 (by decide),
    V6_of m (boundaryOuts m) c main_arg1 (by decide),
    V5_of m (boundaryOuts m) c main_arg1 (by decide),
    V4_of m (boundaryOuts m) c main_arg1 (by decide),
    V3_of m (boundaryOuts m) c main_arg1 (by decide),
    V2_of m (boundaryOuts m) c main_arg1 (by decide),
    V1_of m c main_arg1 (by decide)]

/-- After the second product argument 2 is as launched. -/
theorem arg2_at8 (c : Dev nD) : at8 m c (Proc.devRef .tc main_arg2) = (m ((c : Thread nD τ).loc main_arg2)) := by
  rw [← at8_eq m c, V8_of m (boundaryOuts m) c main_arg2 (by decide),
    V7_of m (boundaryOuts m) c main_arg2 (by decide),
    V6_of m (boundaryOuts m) c main_arg2 (by decide),
    V5_of m (boundaryOuts m) c main_arg2 (by decide),
    V4_of m (boundaryOuts m) c main_arg2 (by decide),
    V3_of m (boundaryOuts m) c main_arg2 (by decide),
    V2_of m (boundaryOuts m) c main_arg2 (by decide),
    V1_of m c main_arg2 (by decide)]

/-- After the second product argument 3 is as launched. -/
theorem arg3_at8 (c : Dev nD) : at8 m c (Proc.devRef .tc main_arg3) = (m ((c : Thread nD τ).loc main_arg3)) := by
  rw [← at8_eq m c, V8_of m (boundaryOuts m) c main_arg3 (by decide),
    V7_of m (boundaryOuts m) c main_arg3 (by decide),
    V6_of m (boundaryOuts m) c main_arg3 (by decide),
    V5_of m (boundaryOuts m) c main_arg3 (by decide),
    V4_of m (boundaryOuts m) c main_arg3 (by decide),
    V3_of m (boundaryOuts m) c main_arg3 (by decide),
    V2_of m (boundaryOuts m) c main_arg3 (by decide),
    V1_of m c main_arg3 (by decide)]

/-- After the second product argument 5 is as launched. -/
theorem arg5_at8 (c : Dev nD) : at8 m c (Proc.devRef .tc main_arg5) = (m ((c : Thread nD τ).loc main_arg5)) := by
  rw [← at8_eq m c, V8_of m (boundaryOuts m) c main_arg5 (by decide),
    V7_of m (boundaryOuts m) c main_arg5 (by decide),
    V6_of m (boundaryOuts m) c main_arg5 (by decide),
    V5_of m (boundaryOuts m) c main_arg5 (by decide),
    V4_of m (boundaryOuts m) c main_arg5 (by decide),
    V3_of m (boundaryOuts m) c main_arg5 (by decide),
    V2_of m (boundaryOuts m) c main_arg5 (by decide),
    V1_of m c main_arg5 (by decide)]

/-- After the second product argument 6 is as launched. -/
theorem arg6_at8 (c : Dev nD) : at8 m c (Proc.devRef .tc main_arg6) = (m ((c : Thread nD τ).loc main_arg6)) := by
  rw [← at8_eq m c, V8_of m (boundaryOuts m) c main_arg6 (by decide),
    V7_of m (boundaryOuts m) c main_arg6 (by decide),
    V6_of m (boundaryOuts m) c main_arg6 (by decide),
    V5_of m (boundaryOuts m) c main_arg6 (by decide),
    V4_of m (boundaryOuts m) c main_arg6 (by decide),
    V3_of m (boundaryOuts m) c main_arg6 (by decide),
    V2_of m (boundaryOuts m) c main_arg6 (by decide),
    V1_of m c main_arg6 (by decide)]

/-- After the second statistics call argument 7 is as launched. -/
theorem arg7_at10 (c : Dev nD) : at10 m c (Proc.devRef .tc main_arg7) = (m ((c : Thread nD τ).loc main_arg7)) := by
  rw [← at10_eq m c, V10_of m (boundaryOuts m) c main_arg7 (by decide),
    V9_of m (boundaryOuts m) c main_arg7 (by decide),
    V8_of m (boundaryOuts m) c main_arg7 (by decide),
    V7_of m (boundaryOuts m) c main_arg7 (by decide),
    V6_of m (boundaryOuts m) c main_arg7 (by decide),
    V5_of m (boundaryOuts m) c main_arg7 (by decide),
    V4_of m (boundaryOuts m) c main_arg7 (by decide),
    V3_of m (boundaryOuts m) c main_arg7 (by decide),
    V2_of m (boundaryOuts m) c main_arg7 (by decide),
    V1_of m c main_arg7 (by decide)]

/-- After the second statistics call argument 8 is as launched. -/
theorem arg8_at10 (c : Dev nD) : at10 m c (Proc.devRef .tc main_arg8) = (m ((c : Thread nD τ).loc main_arg8)) := by
  rw [← at10_eq m c, V10_of m (boundaryOuts m) c main_arg8 (by decide),
    V9_of m (boundaryOuts m) c main_arg8 (by decide),
    V8_of m (boundaryOuts m) c main_arg8 (by decide),
    V7_of m (boundaryOuts m) c main_arg8 (by decide),
    V6_of m (boundaryOuts m) c main_arg8 (by decide),
    V5_of m (boundaryOuts m) c main_arg8 (by decide),
    V4_of m (boundaryOuts m) c main_arg8 (by decide),
    V3_of m (boundaryOuts m) c main_arg8 (by decide),
    V2_of m (boundaryOuts m) c main_arg8 (by decide),
    V1_of m c main_arg8 (by decide)]

/-! ## A row of 64 laid out as one row of a 1 × 64 array -/

/-- A vector of 64 entries recast as a 1 × 64 array, read at row 0, column `j`, is the vector at `j`. -/
private theorem row_of_vector {α : Type} (y : S64.Idx → α) (j : Fin 64) :
    shapeCast S1x64 y shapeCasts_S64_S1x64 (ix2 (0 : Fin 1) j) = y (ix1 j) :=
  shapeCast_apply y shapeCasts_S64_S1x64 (ix2 (0 : Fin 1) j) (ix1 j)
    (by rewrite [Shape.rowMajor_val_one, Shape.rowMajor_val_two]; show j.val = 0 * 64 + j.val; omega)

/-- A scalar recast as a 1 × 1 array, read at its one entry, is the scalar. -/
private theorem cell_of_scalar {α : Type} (y : S_.Idx → α) :
    shapeCast S1x1 y shapeCasts_S_S1x1 (ix2 (0 : Fin 1) (0 : Fin 1)) = y ix0 :=
  shapeCast_apply y shapeCasts_S_S1x1 (ix2 (0 : Fin 1) (0 : Fin 1)) ix0
    (by
      have h1 : (S_.rowMajor ix0).val < 1 := (S_.rowMajor ix0).isLt
      rewrite [Shape.rowMajor_val_two]
      show (S_.rowMajor ix0).val = 0 * 1 + 0
      omega)

/-! ## The product's weight window and the aggregation -/

/-- THE WEIGHT MATRIX THE SECOND PRODUCT READS is the reference's, cut out of the table as the reference cuts it. -/
theorem weights_at7 (c : Dev nD) :
    at7 m c (Proc.devRef .tc main_v37) = Cert.ReferenceIdeal.ReadP.val_main_v58 (F := Ideal) (m ((c : Thread nD τ).loc main_arg4)) := by
  have e : at7 m c (Proc.devRef .tc main_v37)
      = Cert.ReferenceIdeal.ReadP.val_main_v58 (F := Ideal) (at6 m c (Proc.devRef .tc main_arg4)) := by
    unfold at7
    after_results
    rfl
  rw [e, arg4_at6]

set_option maxHeartbeats 8000000 in
/-- THE AGGREGATED MESSAGES OF THE SECOND LAYER: the edge aggregation of the second product's output, along the edge arrays as
    launched. -/
theorem aggregated2 (c : Dev nD) :
    at9 m c (Proc.devRef .tc main_v51)
      = Cert.ReferenceIdeal.RefPre.agg (F := Ideal) (at8 m c (Proc.devRef .tc main_v38)) (m ((c : Thread nD τ).loc main_arg1))
          (m ((c : Thread nD τ).loc main_arg2)) (m ((c : Thread nD τ).loc main_arg3)) := by
  have e : at9 m c (Proc.devRef .tc main_v51)
      = Cert.ReferenceIdeal.RefPre.agg (F := Ideal) (at8 m c (Proc.devRef .tc main_v38)) (at8 m c (Proc.devRef .tc main_arg1))
          (at8 m c (Proc.devRef .tc main_arg2)) (at8 m c (Proc.devRef .tc main_arg3)) := by
    unfold at9
    after_results
    rfl
  rw [e, arg1_at8, arg2_at8, arg3_at8]

/-! ## The statistics call's bias row and slope -/

set_option maxHeartbeats 8000000 in
/-- The bias window's array is the reference's second bias row, laid out as one row. -/
theorem bias_window2 (c : Dev nD) :
    at9 m c (Proc.devRef .tc main_v54)
      = shapeCast S1x64 (Cert.ReferenceIdeal.ReadP.val_main_v74 (F := Ideal) (at8 m c (Proc.devRef .tc main_arg5))) shapeCasts_S64_S1x64 := by
  unfold at9
  after_results
  rfl

/-- THE BIAS THE SECOND STATISTICS CALL READS, at column `j`: the second row of the bias table. -/
theorem bias_at9 (c : Dev nD) (j : Fin 64) :
    (at9 m c (Proc.devRef .tc main_v54) : S1x64.Idx → EReal) (ix2 (0 : Fin 1) j)
      = ((m ((c : Thread nD τ).loc main_arg5)) : S3x64.Idx → EReal) (ix2 (1 : Fin 3) j) := by
  rw [bias_window2, arg5_at8, row_of_vector, Cert.ReferenceIdeal.RefPre.bias2]

set_option maxHeartbeats 8000000 in
/-- The slope window's array is the reference's second slope, laid out as a 1 × 1 array. -/
theorem slope_window2 (c : Dev nD) :
    at9 m c (Proc.devRef .tc main_v57)
      = shapeCast S1x1 (Cert.ReferenceIdeal.ReadP.val_main_v81 (F := Ideal) (at8 m c (Proc.devRef .tc main_arg6))) shapeCasts_S_S1x1 := by
  unfold at9
  after_results
  rfl

/-- THE SLOPE THE SECOND STATISTICS CALL READS: the second entry of the slope table. -/
theorem slope_at9 (c : Dev nD) :
    (at9 m c (Proc.devRef .tc main_v57) : S1x1.Idx → EReal) (ix2 (0 : Fin 1) (0 : Fin 1))
      = ((m ((c : Thread nD τ).loc main_arg6)) : S3.Idx → EReal) (ix1 (1 : Fin 3)) := by
  rw [slope_window2, arg6_at8, cell_of_scalar, Cert.ReferenceIdeal.RefPre.slope2]

/-! ## The normalisation call's mean, variance, scale and shift rows -/

set_option maxHeartbeats 8000000 in
/-- THE MEAN ROW THE SECOND NORMALISATION CALL READS: the column sums the statistics call left, divided by `n`. -/
theorem mean_at11 (c : Dev nD) (i : S1x64.Idx) :
    (at11 m c (Proc.devRef .tc main_v60) : S1x64.Idx → EReal) i
      = Ideal.div ((at10 m c (Proc.devRef .tc main_v58_1) : S1x64.Idx → EReal) i) (Ideal.ofBits .f32 0x47435000#32) := by
  unfold at11
  after_results
  rfl

set_option maxHeartbeats 8000000 in
/-- THE VARIANCE ROW THE SECOND NORMALISATION CALL READS: the column sums of squares over `n`, minus the square of the mean. -/
theorem variance_at11 (c : Dev nD) (i : S1x64.Idx) :
    (at11 m c (Proc.devRef .tc main_v64) : S1x64.Idx → EReal) i
      = Ideal.div ((at10 m c (Proc.devRef .tc main_v58_2) : S1x64.Idx → EReal) i) (Ideal.ofBits .f32 0x47435000#32)
        - Ideal.div ((at10 m c (Proc.devRef .tc main_v58_1) : S1x64.Idx → EReal) i) (Ideal.ofBits .f32 0x47435000#32)
          * Ideal.div ((at10 m c (Proc.devRef .tc main_v58_1) : S1x64.Idx → EReal) i) (Ideal.ofBits .f32 0x47435000#32) := by
  unfold at11
  after_results
  rfl

set_option maxHeartbeats 8000000 in
/-- The scale window's array is the reference's second scale row, laid out as one row. -/
theorem scale_window2 (c : Dev nD) :
    at11 m c (Proc.devRef .tc main_v67)
      = shapeCast S1x64 (Cert.ReferenceIdeal.ReadP.val_main_v97 (F := Ideal) (at10 m c (Proc.devRef .tc main_arg7))) shapeCasts_S64_S1x64 := by
  unfold at11
  after_results
  rfl

/-- THE SCALE THE SECOND NORMALISATION CALL READS, at column `j`: the second row of the scale table. -/
theorem scale_at11 (c : Dev nD) (j : Fin 64) :
    (at11 m c (Proc.devRef .tc main_v67) : S1x64.Idx → EReal) (ix2 (0 : Fin 1) j)
      = ((m ((c : Thread nD τ).loc main_arg7)) : S3x64.Idx → EReal) (ix2 (1 : Fin 3) j) := by
  rw [scale_window2, arg7_at10, row_of_vector, Cert.ReferenceIdeal.RefPre.scale2]

set_option maxHeartbeats 8000000 in
/-- The shift window's array is the reference's second shift row, laid out as one row. -/
theorem shift_window2 (c : Dev nD) :
    at11 m c (Proc.devRef .tc main_v70)
      = shapeCast S1x64 (Cert.ReferenceIdeal.ReadP.val_main_v111 (F := Ideal) (at10 m c (Proc.devRef .tc main_arg8))) shapeCasts_S64_S1x64 := by
  unfold at11
  after_results
  rfl

/-- THE SHIFT THE SECOND NORMALISATION CALL READS, at column `j`: the second row of the shift table. -/
theorem shift_at11 (c : Dev nD) (j : Fin 64) :
    (at11 m c (Proc.devRef .tc main_v70) : S1x64.Idx → EReal) (ix2 (0 : Fin 1) j)
      = ((m ((c : Thread nD τ).loc main_arg8)) : S3x64.Idx → EReal) (ix2 (1 : Fin 3) j) := by
  rw [shift_window2, arg8_at10, row_of_vector, Cert.ReferenceIdeal.RefPre.shift2]

/-! ## What passes through the stretches unchanged -/

/-- The previous layer's output, which the second statistics call adds back, is still there when that call starts. -/
theorem residual_at9 (c : Dev nD) :
    at9 m c (Proc.devRef .tc main_v35) = at6 m c (Proc.devRef .tc main_v35) := by
  rw [← at9_eq m c, V9_of m (boundaryOuts m) c main_v35 (by decide),
    V8_of m (boundaryOuts m) c main_v35 (by decide),
    V7_of m (boundaryOuts m) c main_v35 (by decide), at6_eq]

/-- The rectified array the second statistics call wrote is still there when the normalisation call starts. -/
theorem rectified_at11 (c : Dev nD) :
    at11 m c (Proc.devRef .tc main_v58_0) = at10 m c (Proc.devRef .tc main_v58_0) := by
  rw [← at11_eq m c, V11_of m (boundaryOuts m) c main_v58_0 (by decide), at10_eq]

/-- The layer's output is still there when the next layer's product starts. -/
theorem output_at13 (c : Dev nD) :
    at13 m c (Proc.devRef .tc main_v71) = at12 m c (Proc.devRef .tc main_v71) := by
  rw [← at13_eq m c, V13_of m (boundaryOuts m) c main_v71 (by decide), at12_eq]

end Cert.Bridge

end
-- ==== Proof.KI.MatmulValue3.lean ====
import proofs.«123467_j2559800508646_1_alg».proof.Proof.KI.MatmulBody3
import Idealize.ShloMosaic.Lib.Pipeline.Value
import Idealize.ShloMosaic.Lib.ValueIdx
import Idealize.ShloMosaic.PureOps.Ideal.Laws

/-!
# The second matrix product, as one function of the arrays the call is entered with

Read at the extended reals. The call multiplies a `[50000, 64]` array (window 0) by a `[64, 64]` array (window 1),
5000 rows per grid point. At the extended reals the conversions to bf16 are the identity and the product unit's sum into
a zero accumulator is the plain sum, so the block a point stores is, entry `(p, q)`, the sum over `k` of the row
block's `(p, k)` times the weights' `(k, q)`. The row block at point `t` is rows `5000·t … 5000·t + 4999` of the
first array and the weights' block is the whole second array, so what point `t` writes back is block `t` of the
matrix product of the two arrays; the ten blocks cover the output (row `r` is in block `r / 5000`), hence after the
last point the output array is that matrix product.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The dot's operand indices at an output entry `(p, q)` and a contraction index: on the left operand the row is `p`,
    on the right operand the column is `q`; the other coordinate of each is the contraction index. -/
theorem product_lhs_row3 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem product_lhs_col3 (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
theorem product_rhs_row3 (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
theorem product_rhs_col3 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's stored value at entry `(p, q)` of the block: the sum over `k` of the row block's `(p, k)` times the
    weights' `(k, q)`. The conversions to bf16 are the identity on extended reals and the accumulator is zero. -/
theorem product_pay_apply3 (x : Vec Ideal S5000x64 .f32) (wt : Vec Ideal S64x64 .f32) (p : Fin 5000) (q : Fin 64) :
    k3_pay1 x wt (ix2 p q) = ∑ k : Fin 64, x (ix2 p k) * wt (ix2 k q) := by
  unfold k3_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact product_lhs_row3 _ _
      | ⟨1, _⟩ => exact (product_lhs_col3 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (product_rhs_row3 _ _).trans hk
      | ⟨1, _⟩ => exact product_rhs_col3 _ _)
  rw [el, er]
  rfl

variable (V : (c : Dev nD) → (b : Ref sig .tc) → Buf (Elt Ideal) ((c : Thread nD τ).loc b))

/-- The two arrays the call is entered with, on core `c`: the rows (window 0) and the weights (window 1). -/
abbrev rowsIn3 (c : Dev nD) : S50000x64.Idx → EReal := V c (Pipeline.arrRef spec3 0)
abbrev weightsIn3 (c : Dev nD) : S64x64.Idx → EReal := V c (Pipeline.arrRef spec3 1)

theorem zero_offsets3 : (![0, 0] : Fin 2 → Nat) = fun _ => 0 := funext fun a => by fin_cases a <;> rfl

/-- The output block after the body, entry by entry: the product of the two blocks the body was handed. -/
theorem product_block_apply3 (x : Vec Ideal S5000x64 .f32) (wt : Vec Ideal S64x64 .f32) (p : Fin 5000) (q : Fin 64) :
    productBlock3 x wt (ix2 p q) = ∑ k : Fin 64, x (ix2 p k) * wt (ix2 k q) := by
  unfold productBlock3
  rw [View.canon_unit_zero zero_offsets3]
  simp only [View.ld_unit_zero (S := S5000x64) zero_offsets3, View.ld_unit_zero (S := S64x64) zero_offsets3]
  exact product_pay_apply3 x wt p q

/-- The windows' block indices over the grid: the row blocks of the input and of the output move together, one block of
    5000 rows per point; the weights' block never moves. -/
theorem product_block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `y` of the row block at point `t` is entry `(5000·t + y₀, y₁)` of the input array. -/
theorem rows_read3 (c : Dev nD) (t : Fin cfg3.N) (y : S5000x64.Idx) (i : S50000x64.Idx)
    (h0 : (i 0).val = 5000 * t.val + (y 0).val) (h1 : (i 1).val = (y 1).val) :
    blockAt3 V c 0 t y = rowsIn3 V c i := by
  obtain ⟨e0, e1, -, -, -, -⟩ := product_block_indices3 t
  unfold blockAt3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The weights' block at any point is the whole weight array. -/
theorem weights_read3 (c : Dev nD) (t : Fin cfg3.N) (y : S64x64.Idx) :
    blockAt3 V c 1 t y = weightsIn3 V c y := by
  obtain ⟨-, -, e0, e1, -, -⟩ := product_block_indices3 t
  unfold blockAt3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t 0 * 64 + 1 * (y 0).val = (y 0).val; rw [e0]; omega
  | ⟨1, _⟩ => show win3_1.index t 1 * 64 + 1 * (y 1).val = (y 1).val; rw [e1]; omega

/-- What point `t` writes back is block `t` of the matrix product of the two arrays the call was entered with. -/
theorem product_flushed3 (c : Dev nD) (t : Fin cfg3.N) :
    (productData3 (F := Ideal) V c).flushed 2 t
      = ((cfg3.win 2).blk t).view.read (Elt Ideal) (fun i : S50000x64.Idx =>
          (∑ k : Fin 64, rowsIn3 V c (ix2 (i 0) k) * weightsIn3 V c (ix2 k (i 1)) : EReal)) := by
  show (cfg3.win 2).cut (grid3.coords t) ((productData3 V c).after 2 t) = _
  rw [productData3_after_out]
  obtain ⟨-, -, -, -, e0, e1⟩ := product_block_indices3 t
  funext j
  have hj0 : (j 0).val < 5000 := (j 0).isLt
  have hj1 : (j 1).val < 64 := (j 1).isLt
  have hj : (cfg3.win 2).xinj (grid3.coords t) j = ix2 (⟨(j 0).val, hj0⟩ : Fin 5000) (⟨(j 1).val, hj1⟩ : Fin 64) :=
    funext fun a => by match a with | ⟨0, _⟩ => rfl | ⟨1, _⟩ => rfl
  show productBlock3 (blockAt3 V c 0 t) (blockAt3 V c 1 t) ((cfg3.win 2).xinj (grid3.coords t) j)
    = ∑ k : Fin 64, rowsIn3 V c (ix2 ((((cfg3.win 2).blk t).view.emb j) 0) k)
        * weightsIn3 V c (ix2 k ((((cfg3.win 2).blk t).view.emb j) 1))
  rw [hj]
  refine (product_block_apply3 (blockAt3 V c 0 t) (blockAt3 V c 1 t) _ _).trans ?_
  refine Finset.sum_congr rfl fun k _ => ?_
  rw [rows_read3 V c t (ix2 (⟨(j 0).val, hj0⟩ : Fin 5000) k) (ix2 ((((cfg3.win 2).blk t).view.emb j) 0) k)
      (by show win3_2.index t 0 * 5000 + 1 * (j 0).val = 5000 * t.val + (j 0).val; rw [e0]; omega) rfl,
    weights_read3 V c t (ix2 k (⟨(j 1).val, hj1⟩ : Fin 64))]
  refine congrArg (fun z => rowsIn3 V c _ * weightsIn3 V c z) (funext fun a => Fin.ext ?_)
  match a with
  | ⟨0, _⟩ => rfl
  | ⟨1, _⟩ => show (j 1).val = win3_2.index t 1 * 64 + 1 * (j 1).val; rw [e1]; omega

/-- An index of the output array lies in point `t`'s block exactly when each coordinate lies in the block's range. -/
theorem product_mem_block3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v38).slice (win3_2.rect t)).set ↔ _
  rw [View.set_slice_whole, Rect.mem_set_unit]
  exact Iff.rfl

/-- The ten row blocks cover the output array: row `r` lies in the block of point `r / 5000`. -/
theorem product_cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have ht : t.val = (i 0).val / 5000 := rfl
  obtain ⟨-, -, -, -, e0, e1⟩ := product_block_indices3 t
  refine ⟨t, flush3_2 t, ?_⟩
  rw [product_mem_block3]
  intro a
  match a with
  | ⟨0, _⟩ => show win3_2.index t 0 * 5000 ≤ (i 0).val ∧ (i 0).val < win3_2.index t 0 * 5000 + 5000; rw [e0, ht]; omega
  | ⟨1, _⟩ => show win3_2.index t 1 * 64 ≤ (i 1).val ∧ (i 1).val < win3_2.index t 1 * 64 + 64; rw [e1]; omega

/-- After all ten points the output array is the matrix product of the two arrays the call was entered with: the
    [50000, 64] array of window 0 times the [64, 64] array of window 1. -/
theorem product_final3 (c : Dev nD) :
    (productData3 (F := Ideal) V c).arrAt 2 cfg3.N
      = fun i : S50000x64.Idx =>
          (∑ k : Fin 64, rowsIn3 V c (ix2 (i 0) k) * weightsIn3 V c (ix2 k (i 1)) : EReal) :=
  (productData3 (F := Ideal) V c).arrAt_eq_of_cover 2 _ (fun t _ => product_flushed3 V c t) (product_cover3)

end Cert.KernelIdeal.Hand

end
-- ==== Proof.KI.StatsValue4.lean ====
import proofs.«123467_j2559800508646_1_alg».proof.Proof.KI.StatsData4
import Idealize.ShloMosaic.Lib.Pipeline.Value

/-!
# The second layer's activation and column statistics: the values

What a run's found pieces hold, read back: the output block is the activated block of the loaded inputs; a running
row after a point is the row it was handed plus the block's column sums (for the second row, of the squares); at the
first point the row it is handed is the zero row the body has just stored; at the last point each row output is a copy
of the running row just stored. So the two running rows after point `n` are an ordered chain of additions — the zero
row, plus block 0's column sums, plus block 1's, … — and the recursion over the cases' pieces is that chain.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem origin2_4 : (![0, 0] : Fin 2 → Nat) = fun _ => 0 := funext fun a => by fin_cases a <;> rfl
local notation "origin2" => origin2_4

/-! ## The cases' pieces, read back -/

/-- A middle point leaves the activated block in the output block. -/
theorem middle_block4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : ¬atLast4 i) (x0 : Vec F S5000x64 .f32) (x1 : Vec F S1x64 .f32) (x2 : Vec F S1x1 .f32) (x3 : Vec F S5000x64 .f32) (s q : Vec F S1x64 .f32) :
    blockOfPieces4 (statsRun4_middle (F := F) c i arg1 harg1 arg2 harg2 arg3 harg3 arg4 harg4 arg5 harg5 arg6 harg6 arg7 harg7 arg8 harg8 arg9 harg9 hc0 hc1 x0 x1 x2 x3 s q).1 = k4_pay4 x0 x1 x2 x3 := by
  unfold blockOfPieces4
  rw [View.read_writes_eq_canon _ _ _ (fun y => View.cover_of_tiledL _ S5000x64.size (by sl_kernel_rfl) y)]
  unfold statsRun4_middle
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- A middle point leaves, in the first running row, the row it was handed plus the block's column sums. -/
theorem middle_sum4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : ¬atLast4 i) (x0 : Vec F S5000x64 .f32) (x1 : Vec F S1x64 .f32) (x2 : Vec F S1x1 .f32) (x3 : Vec F S5000x64 .f32) (s q : Vec F S1x64 .f32) :
    rowOfPieces4 (statsRun4_middle (F := F) c i arg1 harg1 arg2 harg2 arg3 harg3 arg4 harg4 arg5 harg5 arg6 harg6 arg7 harg7 arg8 harg8 arg9 harg9 hc0 hc1 x0 x1 x2 x3 s q).2.1 = k4_pay5 x0 x1 x2 x3 s := by
  unfold rowOfPieces4
  rw [View.read_writes_eq_canon _ _ _ (fun y => View.cover_of_tiledL _ S1x64.size (by sl_kernel_rfl) y)]
  unfold statsRun4_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- A middle point leaves, in the second running row, the row it was handed plus the column sums of the block's squares. -/
theorem middle_sq4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : ¬atLast4 i) (x0 : Vec F S5000x64 .f32) (x1 : Vec F S1x64 .f32) (x2 : Vec F S1x1 .f32) (x3 : Vec F S5000x64 .f32) (s q : Vec F S1x64 .f32) :
    rowOfPieces4 (statsRun4_middle (F := F) c i arg1 harg1 arg2 harg2 arg3 harg3 arg4 harg4 arg5 harg5 arg6 harg6 arg7 harg7 arg8 harg8 arg9 harg9 hc0 hc1 x0 x1 x2 x3 s q).2.2.1 = k4_pay6 x0 x1 x2 x3 q := by
  unfold rowOfPieces4
  rw [View.read_writes_eq_canon _ _ _ (fun y => View.cover_of_tiledL _ S1x64.size (by sl_kernel_rfl) y)]
  unfold statsRun4_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The first point leaves the activated block in the output block. -/
theorem first_block4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst4 i) (hc1 : ¬atLast4 i) (x0 : Vec F S5000x64 .f32) (x1 : Vec F S1x64 .f32) (x2 : Vec F S1x1 .f32) (x3 : Vec F S5000x64 .f32) :
    blockOfPieces4 (statsRun4_first (F := F) c i arg1 harg1 arg2 harg2 arg3 harg3 arg4 harg4 arg5 harg5 arg6 harg6 arg7 harg7 arg8 harg8 arg9 harg9 hc0 hc1 x0 x1 x2 x3).1 = k4_pay4 x0 x1 x2 x3 := by
  unfold blockOfPieces4
  rw [View.read_writes_eq_canon _ _ _ (fun y => View.cover_of_tiledL _ S5000x64.size (by sl_kernel_rfl) y)]
  unfold statsRun4_first
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The first point leaves, in the first running row, the zero row plus the block's column sums. -/
theorem first_sum4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst4 i) (hc1 : ¬atLast4 i) (x0 : Vec F S5000x64 .f32) (x1 : Vec F S1x64 .f32) (x2 : Vec F S1x1 .f32) (x3 : Vec F S5000x64 .f32) :
    rowOfPieces4 (statsRun4_first (F := F) c i arg1 harg1 arg2 harg2 arg3 harg3 arg4 harg4 arg5 harg5 arg6 harg6 arg7 harg7 arg8 harg8 arg9 harg9 hc0 hc1 x0 x1 x2 x3).2.1 = k4_pay5 x0 x1 x2 x3 (k4_pay2 (F := F)) := by
  unfold rowOfPieces4
  rw [View.read_writes_eq_canon _ _ _ (fun y => View.cover_of_tiledL _ S1x64.size (by sl_kernel_rfl) y)]
  unfold statsRun4_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The first point leaves, in the second running row, the zero row plus the column sums of the block's squares. -/
theorem first_sq4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst4 i) (hc1 : ¬atLast4 i) (x0 : Vec F S5000x64 .f32) (x1 : Vec F S1x64 .f32) (x2 : Vec F S1x1 .f32) (x3 : Vec F S5000x64 .f32) :
    rowOfPieces4 (statsRun4_first (F := F) c i arg1 harg1 arg2 harg2 arg3 harg3 arg4 harg4 arg5 harg5 arg6 harg6 arg7 harg7 arg8 harg8 arg9 harg9 hc0 hc1 x0 x1 x2 x3).2.2.1 = k4_pay6 x0 x1 x2 x3 (k4_pay3 (F := F)) := by
  unfold rowOfPieces4
  rw [View.read_writes_eq_canon _ _ _ (fun y => View.cover_of_tiledL _ S1x64.size (by sl_kernel_rfl) y)]
  unfold statsRun4_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The last point leaves the activated block in the output block. -/
theorem last_block4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    blockOfPieces4 (statsRun4_last (F := F) c i arg1 harg1 arg2 harg2 arg3 harg3 arg4 harg4 arg5 harg5 arg6 harg6 arg7 harg7 arg8 harg8 arg9 harg9 hc0 hc1 x0 x1 x2 x3 s q).1 = k4_pay4 x0 x1 x2 x3 := by
  unfold blockOfPieces4
  rw [View.read_writes_eq_canon _ _ _ (fun y => View.cover_of_tiledL _ S5000x64.size (by sl_kernel_rfl) y)]
  unfold statsRun4_last
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The last point copies the first running row, as just stored, into the first row output. -/
theorem last_out_sum4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.1 = k4_pay5 x0 x1 x2 x3 s := by
  unfold rowOfPieces4
  rw [View.read_writes_eq_canon _ _ _ (fun y => View.cover_of_tiledL _ S1x64.size (by sl_kernel_rfl) y)]
  unfold statsRun4_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The last point copies the second running row, as just stored, into the second row output. -/
theorem last_out_sq4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.2.1 = k4_pay6 x0 x1 x2 x3 q := by
  unfold rowOfPieces4
  rw [View.read_writes_eq_canon _ _ _ (fun y => View.cover_of_tiledL _ S1x64.size (by sl_kernel_rfl) y)]
  unfold statsRun4_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The last point leaves, in the first running row, the row it was handed plus the block's column sums. -/
theorem last_sum4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.2.2.1 = k4_pay5 x0 x1 x2 x3 s := by
  unfold rowOfPieces4
  rw [View.read_writes_eq_canon _ _ _ (fun y => View.cover_of_tiledL _ S1x64.size (by sl_kernel_rfl) y)]
  unfold statsRun4_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- The last point leaves, in the second running row, the row it was handed plus the column sums of the block's squares. -/
theorem last_sq4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.2.2.2.1 = k4_pay6 x0 x1 x2 x3 q := by
  unfold rowOfPieces4
  rw [View.read_writes_eq_canon _ _ _ (fun y => View.cover_of_tiledL _ S1x64.size (by sl_kernel_rfl) y)]
  unfold statsRun4_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k4_pay1; simp only [shapeCast_self])

/-- At the last point each row output holds what the matching running row holds: it is a copy of it. -/
theorem last_out_is_sum4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.1 = rowOfPieces4 (statsRun4_last (F := F) c i arg1 harg1 arg2 harg2 arg3 harg3 arg4 harg4 arg5 harg5 arg6 harg6 arg7 harg7 arg8 harg8 arg9 harg9 hc0 hc1 x0 x1 x2 x3 s q).2.2.2.1 :=
  (last_out_sum4 c i arg1 harg1 arg2 harg2 arg3 harg3 arg4 harg4 arg5 harg5 arg6 harg6 arg7 harg7 arg8 harg8 arg9 harg9 hc0 hc1 x0 x1 x2 x3 s q).trans (last_sum4 c i arg1 harg1 arg2 harg2 arg3 harg3 arg4 harg4 arg5 harg5 arg6 harg6 arg7 harg7 arg8 harg8 arg9 harg9 hc0 hc1 x0 x1 x2 x3 s q).symm
theorem last_out_is_sq4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst4 i) (hc1 : atLast4 i) (x0 : Vec F S5000x64 .f32) (x1 : Vec F S1x64 .f32) (x2 : Vec F S1x1 .f32) (x3 : Vec F S5000x64 .f32) (s q : Vec F S1x64 .f32) :
    rowOfPieces4 (statsRun4_last (F := F) c i arg1 harg1 arg2 harg2 arg3 harg3 arg4 harg4 arg5 harg5 arg6 harg6 arg7 harg7 arg8 harg8 arg9 harg9 hc0 hc1 x0 x1 x2 x3 s q).2.2.1 = rowOfPieces4 (statsRun4_last (F := F) c i arg1 harg1 arg2 harg2 arg3 harg3 arg4 harg4 arg5 harg5 arg6 harg6 arg7 harg7 arg8 harg8 arg9 harg9 hc0 hc1 x0 x1 x2 x3 s q).2.2.2.2.1 :=
  (last_out_sq4 c i arg1 harg1 arg2 harg2 arg3 harg3 arg4 harg4 arg5 harg5 arg6 harg6 arg7 harg7 arg8 harg8 arg9 harg9 hc0 hc1 x0 x1 x2 x3 s q).trans (last_sq4 c i arg1 harg1 arg2 harg2 arg3 harg3 arg4 harg4 arg5 harg5 arg6 harg6 arg7 harg7 arg8 harg8 arg9 harg9 hc0 hc1 x0 x1 x2 x3 s q).symm

variable (V : (c : Dev nD) → (b : Ref sig .tc) → Buf (Elt F) ((c : Thread nD τ).loc b))

/-! ## The running rows are an ordered chain -/

/-- The two running rows after point `n`: from the zero rows, one block's column sums (resp. column sums of squares)
    added per point, in point order. -/
def runningRows4 (c : Dev nD) : (n : ℕ) → n < cfg4.N → Vec F S1x64 .f32 × Vec F S1x64 .f32
  | 0, h => (k4_pay5 (blockAt4 V c 0 ⟨0, h⟩) (blockAt4 V c 1 ⟨0, h⟩) (blockAt4 V c 2 ⟨0, h⟩) (blockAt4 V c 3 ⟨0, h⟩) (k4_pay2 (F := F)), k4_pay6 (blockAt4 V c 0 ⟨0, h⟩) (blockAt4 V c 1 ⟨0, h⟩) (blockAt4 V c 2 ⟨0, h⟩) (blockAt4 V c 3 ⟨0, h⟩) (k4_pay3 (F := F)))
  | n + 1, h =>
    (k4_pay5 (blockAt4 V c 0 ⟨n + 1, h⟩) (blockAt4 V c 1 ⟨n + 1, h⟩) (blockAt4 V c 2 ⟨n + 1, h⟩) (blockAt4 V c 3 ⟨n + 1, h⟩) (runningRows4 c n (Nat.lt_of_succ_lt h)).1,
     k4_pay6 (blockAt4 V c 0 ⟨n + 1, h⟩) (blockAt4 V c 1 ⟨n + 1, h⟩) (blockAt4 V c 2 ⟨n + 1, h⟩) (blockAt4 V c 3 ⟨n + 1, h⟩) (runningRows4 c n (Nat.lt_of_succ_lt h)).2)

set_option maxHeartbeats 2000000 in
/-- What the recursion over the cases' pieces keeps in the two running rows IS that chain: by induction on the point. -/
theorem stateAfter4_rows (c : Dev nD) : ∀ (n : ℕ) (h : n < cfg4.N),
    ((stateAfter4 V c n h).2.2.2.1, (stateAfter4 V c n h).2.2.2.2) = runningRows4 V c n h
  | 0, h => by
    have e := stateAfter4_first V c ⟨0, h⟩ rfl (by show ¬(0 : ℕ) % 10 = 9; decide)
    rw [show stateAfter4 V c 0 h = stateAfter4 V c (⟨0, h⟩ : Fin cfg4.N).val (⟨0, h⟩ : Fin cfg4.N).isLt from rfl, e]
    dsimp only
    refine Prod.ext ?_ ?_
    · show rowOfPieces4 _ = k4_pay5 (blockAt4 V c 0 ⟨0, h⟩) (blockAt4 V c 1 ⟨0, h⟩) (blockAt4 V c 2 ⟨0, h⟩) (blockAt4 V c 3 ⟨0, h⟩) (k4_pay2 (F := F))
      exact first_sum4 ..
    · show rowOfPieces4 _ = k4_pay6 (blockAt4 V c 0 ⟨0, h⟩) (blockAt4 V c 1 ⟨0, h⟩) (blockAt4 V c 2 ⟨0, h⟩) (blockAt4 V c 3 ⟨0, h⟩) (k4_pay3 (F := F))
      exact first_sq4 ..
  | n + 1, h => by
    have ih := stateAfter4_rows c n (Nat.lt_of_succ_lt h)
    have ih1 : (stateAfter4 V c n (Nat.lt_of_succ_lt h)).2.2.2.1 = (runningRows4 V c n (Nat.lt_of_succ_lt h)).1 := congrArg Prod.fst ih
    have ih2 : (stateAfter4 V c n (Nat.lt_of_succ_lt h)).2.2.2.2 = (runningRows4 V c n (Nat.lt_of_succ_lt h)).2 := congrArg Prod.snd ih
    by_cases h9 : (n + 1) % 10 = 9
    · have e := stateAfter4_last V c ⟨n + 1, h⟩ (Nat.succ_ne_zero n) h9
      rw [show stateAfter4 V c (n + 1) h = stateAfter4 V c (⟨n + 1, h⟩ : Fin cfg4.N).val (⟨n + 1, h⟩ : Fin cfg4.N).isLt from rfl, e]
      dsimp only
      refine Prod.ext ?_ ?_
      · show rowOfPieces4 _ = k4_pay5 (blockAt4 V c 0 ⟨n + 1, h⟩) (blockAt4 V c 1 ⟨n + 1, h⟩) (blockAt4 V c 2 ⟨n + 1, h⟩) (blockAt4 V c 3 ⟨n + 1, h⟩) (runningRows4 V c n (Nat.lt_of_succ_lt h)).1
        rw [← ih1]
        exact last_sum4 ..
      · show rowOfPieces4 _ = k4_pay6 (blockAt4 V c 0 ⟨n + 1, h⟩) (blockAt4 V c 1 ⟨n + 1, h⟩) (blockAt4 V c 2 ⟨n + 1, h⟩) (blockAt4 V c 3 ⟨n + 1, h⟩) (runningRows4 V c n (Nat.lt_of_succ_lt h)).2
        rw [← ih2]
        exact last_sq4 ..
    · have e := stateAfter4_middle V c ⟨n + 1, h⟩ (Nat.succ_ne_zero n) h9
      rw [show stateAfter4 V c (n + 1) h = stateAfter4 V c (⟨n + 1, h⟩ : Fin cfg4.N).val (⟨n + 1, h⟩ : Fin cfg4.N).isLt from rfl, e]
      dsimp only
      refine Prod.ext ?_ ?_
      · show rowOfPieces4 _ = k4_pay5 (blockAt4 V c 0 ⟨n + 1, h⟩) (blockAt4 V c 1 ⟨n + 1, h⟩) (blockAt4 V c 2 ⟨n + 1, h⟩) (blockAt4 V c 3 ⟨n + 1, h⟩) (runningRows4 V c n (Nat.lt_of_succ_lt h)).1
        rw [← ih1]
        exact middle_sum4 ..
      · show rowOfPieces4 _ = k4_pay6 (blockAt4 V c 0 ⟨n + 1, h⟩) (blockAt4 V c 1 ⟨n + 1, h⟩) (blockAt4 V c 2 ⟨n + 1, h⟩) (blockAt4 V c 3 ⟨n + 1, h⟩) (runningRows4 V c n (Nat.lt_of_succ_lt h)).2
        rw [← ih2]
        exact middle_sq4 ..

set_option maxHeartbeats 2000000 in
/-- After any point the output block holds the activated block of that point's inputs. -/
theorem stateAfter4_block (c : Dev nD) (t : Fin cfg4.N) :
    (stateAfter4 V c t.val t.isLt).1 = k4_pay4 (blockAt4 V c 0 t) (blockAt4 V c 1 t) (blockAt4 V c 2 t) (blockAt4 V c 3 t) := by
  by_cases h9 : t.val % 10 = 9
  · have hN : t.val < 10 := lt_of_lt_of_eq t.isLt (show cfg4.N = 10 from N_4)
    have h0 : t.val ≠ 0 := by omega
    rw [stateAfter4_last V c t h0 h9]; dsimp only; exact last_block4 ..
  · by_cases h0 : t.val = 0
    · rw [stateAfter4_first V c t h0 h9]; dsimp only; exact first_block4 ..
    · rw [stateAfter4_middle V c t h0 h9]; dsimp only; exact middle_block4 ..

set_option maxHeartbeats 2000000 in
/-- At the last point the two row outputs hold the two running rows after that point. -/
theorem stateAfter4_outs (c : Dev nD) (t : Fin cfg4.N) (h9 : t.val % 10 = 9) :
    ((stateAfter4 V c t.val t.isLt).2.1, (stateAfter4 V c t.val t.isLt).2.2.1) = runningRows4 V c t.val t.isLt := by
  have hN : t.val < 10 := lt_of_lt_of_eq t.isLt (show cfg4.N = 10 from N_4)
  have h0 : t.val ≠ 0 := by omega
  rw [← stateAfter4_rows V c t.val t.isLt, stateAfter4_last V c t h0 h9]
  dsimp only
  refine Prod.ext ?_ ?_
  · dsimp only
    exact last_out_is_sum4 (F := F) ..
  · dsimp only
    exact last_out_is_sq4 (F := F) ..

/-! ## The two row outputs' arrays after the call -/

/-- The column sums: the first running row after the last point, as the contents of the first row output's array. -/
abbrev sumArray4 (c : Dev nD) : Buf (Elt F) ((c : Thread nD τ).loc main_v58_1) :=
  (runningRows4 V c 9 (by rw [show cfg4.N = 10 from N_4]; decide)).1

/-- The one write-back of window 5, at the last point, writes that row: the block at index (0, 0) of a 1 × 64 array,
    read through zero offsets, is the array. -/
theorem sum_written_back4 (c : Dev nD) (t : Fin cfg4.N) (hf : (cfg4.win 5).flush t = true) :
    (statsData4 V c).flushed 5 t = ((cfg4.win 5).blk t).view.read (Elt F) (sumArray4 V c) := by
  have hN : cfg4.N = 10 := N_4
  have h9 : t.val = 9 := by have := (flush4_5 t).mp hf; have := t.isLt; omega
  obtain rfl : t = t4_9 := Fin.ext h9
  show (cfg4.win 5).cut (grid4.coords t4_9) ((statsData4 V c).after 5 t4_9) = _
  rw [statsData4_after5]
  have hrow := congrArg Prod.fst (stateAfter4_outs V c t4_9 (by decide))
  dsimp only at hrow
  rw [hrow]
  have hz' : (fun a => win4_5.index t4_9 a * main_v58_1.ty.shape.size a) = fun _ => 0 := funext fun a => by fin_cases a <;> decide
  exact (Memref.read_access_unit_zero (Elt F) main_v58_1 hz' (fun a => by rw [congrFun hz' a]; simp) (sumArray4 V c)).symm

/-- So after the call the array of window 5 holds that row: the last point's block covers it. -/
theorem sum_array4 (c : Dev nD) : (statsData4 V c).arrAt 5 cfg4.N = sumArray4 V c :=
  (statsData4 V c).arrAt_eq_of_cover 5 (sumArray4 V c) (sum_written_back4 V c) fun i =>
    ⟨t4_9, (flush4_5 t4_9).mpr (by decide), by
      show i ∈ ((View.whole main_v58_1).slice (win4_5.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_5.index t4_9 0 * win4_5.size 0 ≤ (i 0 : Nat)
          ∧ (i 0 : Nat) < win4_5.index t4_9 0 * win4_5.size 0 + win4_5.xsize (grid4.coords t4_9) 0
        rw [show win4_5.index t4_9 0 * win4_5.size 0 = 0 from by decide +kernel,
          show win4_5.xsize (grid4.coords t4_9) 0 = 1 from by decide +kernel]; omega
      | ⟨1, _⟩ =>
        show win4_5.index t4_9 1 * win4_5.size 1 ≤ (i 1 : Nat)
          ∧ (i 1 : Nat) < win4_5.index t4_9 1 * win4_5.size 1 + win4_5.xsize (grid4.coords t4_9) 1
        rw [show win4_5.index t4_9 1 * win4_5.size 1 = 0 from by decide +kernel,
          show win4_5.xsize (grid4.coords t4_9) 1 = 64 from by decide +kernel]; omega⟩

/-- The column sums of squares: the second running row after the last point, as the contents of the second row output's array. -/
abbrev sqArray4 (c : Dev nD) : Buf (Elt F) ((c : Thread nD τ).loc main_v58_2) :=
  (runningRows4 V c 9 (by rw [show cfg4.N = 10 from N_4]; decide)).2

/-- The one write-back of window 6, at the last point, writes that row: the block at index (0, 0) of a 1 × 64 array,
    read through zero offsets, is the array. -/
theorem sq_written_back4 (c : Dev nD) (t : Fin cfg4.N) (hf : (cfg4.win 6).flush t = true) :
    (statsData4 V c).flushed 6 t = ((cfg4.win 6).blk t).view.read (Elt F) (sqArray4 V c) := by
  have hN : cfg4.N = 10 := N_4
  have h9 : t.val = 9 := by have := (flush4_6 t).mp hf; have := t.isLt; omega
  obtain rfl : t = t4_9 := Fin.ext h9
  show (cfg4.win 6).cut (grid4.coords t4_9) ((statsData4 V c).after 6 t4_9) = _
  rw [statsData4_after6]
  have hrow := congrArg Prod.snd (stateAfter4_outs V c t4_9 (by decide))
  dsimp only at hrow
  rw [hrow]
  have hz' : (fun a => win4_6.index t4_9 a * main_v58_2.ty.shape.size a) = fun _ => 0 := funext fun a => by fin_cases a <;> decide
  exact (Memref.read_access_unit_zero (Elt F) main_v58_2 hz' (fun a => by rw [congrFun hz' a]; simp) (sqArray4 V c)).symm

/-- So after the call the array of window 6 holds that row: the last point's block covers it. -/
theorem sq_array4 (c : Dev nD) : (statsData4 V c).arrAt 6 cfg4.N = sqArray4 V c :=
  (statsData4 V c).arrAt_eq_of_cover 6 (sqArray4 V c) (sq_written_back4 V c) fun i =>
    ⟨t4_9, (flush4_6 t4_9).mpr (by decide), by
      show i ∈ ((View.whole main_v58_2).slice (win4_6.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_6.index t4_9 0 * win4_6.size 0 ≤ (i 0 : Nat)
          ∧ (i 0 : Nat) < win4_6.index t4_9 0 * win4_6.size 0 + win4_6.xsize (grid4.coords t4_9) 0
        rw [show win4_6.index t4_9 0 * win4_6.size 0 = 0 from by decide +kernel,
          show win4_6.xsize (grid4.coords t4_9) 0 = 1 from by decide +kernel]; omega
      | ⟨1, _⟩ =>
        show win4_6.index t4_9 1 * win4_6.size 1 ≤ (i 1 : Nat)
          ∧ (i 1 : Nat) < win4_6.index t4_9 1 * win4_6.size 1 + win4_6.xsize (grid4.coords t4_9) 1
        rw [show win4_6.index t4_9 1 * win4_6.size 1 = 0 from by decide +kernel,
          show win4_6.xsize (grid4.coords t4_9) 1 = 64 from by decide +kernel]; omega⟩

end Cert.KernelIdeal.Hand

end
-- ==== Proof.KI.StatsPay4.lean ====
import proofs.«123467_j2559800508646_1_alg».proof.Proof.Gen.KernelIdeal.Skeleton
import proofs.«123467_j2559800508646_1_alg».proof.Proof.KI.Leaky
import Idealize.ShloMosaic.Lib.Pipeline.Value
import Idealize.ShloMosaic.Lib.ValueIdx
import Idealize.ShloMosaic.Lib.ValueLayout
import Idealize.ShloMosaic.PureOps.Ideal.Laws

/-!
# The second layer's activation and column statistics: what the body stores, entry by entry

Read at the extended reals. The body adds the bias row to its block of 5000 rows, applies the activation with the slope
held in a `[1, 1]` array, adds the residual block and stores the result; it adds the column sums of the stored block, and of its
square, onto two running rows, which the first point starts from zero. A reduction over the rows from the zero word is
the plain sum over the 5000 rows, and the reshapes between `[64]` and `[1, 64]` only rename the index.
-/

noncomputable section

namespace Cert.KernelIdeal.Hand

open Cert.KernelIdeal Cert.KernelIdeal.Gen
open Idealize.ShloMosaic Idealize.ShloMosaic.TcCoe Idealize.SL.Sem
open Idealize.ShloMosaic.ValueIdx

/-- The comparison against the zero word followed by the selection between `t` and `a · t` is the activation. -/
theorem select_oge_zero4 (a t : EReal) :
    Scalar.select (FloatOps.cmpf (F := Ideal) (φ := .f32) .oge t (Ideal.ofBits .f32 0x00000000#32)) t (a * t) = leaky a t := by
  rw [Ideal.ofBits_zero_f32]
  unfold leaky
  by_cases h : (0 : EReal) ≤ t
  · rw [if_pos h]; simp [Scalar.select, Ideal.cmpf_def, Ideal.cmp, h]
  · rw [if_neg h]; simp [Scalar.select, Ideal.cmpf_def, Ideal.cmp, h]

/-- The block the body stores, entry `(p, q)`: the activation, with the slope the one entry of `a`, of the block's
    `(p, q)` plus the bias row's entry `q`, plus the residual block's `(p, q)`. -/
theorem act_pay_apply4 (x : Vec Ideal S5000x64 .f32) (b : Vec Ideal S1x64 .f32) (a : Vec Ideal S1x1 .f32) (r : Vec Ideal S5000x64 .f32)
    (p : Fin 5000) (q : Fin 64) :
    k4_pay4 x b a r (ix2 p q)
      = leaky (a (ix2 (0 : Fin 1) (0 : Fin 1))) (x (ix2 p q) + b (ix2 (0 : Fin 1) q)) + r (ix2 p q) := by
  unfold k4_pay4
  simp only [shapeCast_self]
  rw [addf_apply, select_apply, cmpf_apply, mulf_apply, addf_apply, broadcast_apply, broadcast_apply, broadcastTo_1b_ab_apply]
  refine congrArg (· + r (ix2 p q)) ?_
  rw [show extractAt ![0, 0] a inpos_S1x1_p0_0 = a (ix2 (0 : Fin 1) (0 : Fin 1)) from
    congrArg a (funext fun d => by match d with | ⟨0, _⟩ => rfl | ⟨1, _⟩ => rfl)]
  exact select_oge_zero4 _ _

/-- The two rows the first point starts the running rows from are zero. -/
theorem zero_sum_row4 (q : Fin 64) : k4_pay2 (F := Ideal) (ix2 (0 : Fin 1) q) = 0 := by
  unfold k4_pay2
  rw [shapeCast_self]
  exact Ideal.ofBits_zero_f32
theorem zero_sq_row4 (q : Fin 64) : k4_pay3 (F := Ideal) (ix2 (0 : Fin 1) q) = 0 := by
  unfold k4_pay3
  rw [shapeCast_self]
  exact Ideal.ofBits_zero_f32

/-- The reduction over the rows, from the zero word, of a 5000 × 64 block is at column `q` the sum of the column. -/
theorem column_sum4 (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  show ∑ p : Fin 5000, src (reduces_S5000x64_S64.lift (ix1 q) p) = _
  refine Finset.sum_congr rfl fun p _ => congrArg src (funext fun d => Fin.ext ?_)
  match d with
  | ⟨0, _⟩ => rfl
  | ⟨1, _⟩ => rfl

/-- The running sum row after a point: what it held plus the column sums of the stored block. -/
theorem sum_pay_apply4 (x : Vec Ideal S5000x64 .f32) (b : Vec Ideal S1x64 .f32) (a : Vec Ideal S1x1 .f32) (r : Vec Ideal S5000x64 .f32)
    (s : Vec Ideal S1x64 .f32) (q : Fin 64) :
    k4_pay5 x b a r s (ix2 (0 : Fin 1) q)
      = s (ix2 (0 : Fin 1) q) + ∑ p : Fin 5000, k4_pay4 x b a r (ix2 p q) := by
  unfold k4_pay5
  try simp only [shapeCast_self]
  rw [addf_apply, shapeCast_a_1a_apply]
  exact congrArg (s (ix2 (0 : Fin 1) q) + ·) (column_sum4 _ _ _ q)

/-- The running sum-of-squares row after a point: what it held plus the column sums of the squared stored block. -/
theorem sq_pay_apply4 (x : Vec Ideal S5000x64 .f32) (b : Vec Ideal S1x64 .f32) (a : Vec Ideal S1x1 .f32) (r : Vec Ideal S5000x64 .f32)
    (s : Vec Ideal S1x64 .f32) (q : Fin 64) :
    k4_pay6 x b a r s (ix2 (0 : Fin 1) q)
      = s (ix2 (0 : Fin 1) q)
        + ∑ p : Fin 5000, k4_pay4 x b a r (ix2 p q) * k4_pay4 x b a r (ix2 p q) := by
  unfold k4_pay6
  try simp only [shapeCast_self]
  rw [addf_apply, shapeCast_a_1a_apply]
  exact congrArg (s (ix2 (0 : Fin 1) q) + ·) (column_sum4 _ _ _ q)

/-- The running sum-of-squares row goes back into its buffer as it is. -/
theorem sq_row_stored4 (v : FVec Ideal S1x64 .f32) : k4_pay1 v = v := by
  unfold k4_pay1
  exact shapeCast_self _ _

end Cert.KernelIdeal.Hand

end
-- ==== Proof.KI.StatsSums4.lean ====
import proofs.«123467_j2559800508646_1_alg».proof.Proof.KI.StatsValue4
import proofs.«123467_j2559800508646_1_alg».proof.Proof.KI.StatsPay4
import proofs.«123467_j2559800508646_1_alg».proof.Proof.LibBlockSums

/-!
# The column statistics are sums over all the rows

Over the extended reals a running row, read at a column, starts at zero and gains one block's column sum per point; so
after the last point it holds the sum over the ten blocks of the block's column sum (and, for the second row, of the
column sum of squares). No entry needs to be finite for this: only associativity of the sum and `0 + x = x` are used.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (V : (c : Dev nD) → (b : Ref sig .tc) → Buf (Elt Ideal) ((c : Thread nD τ).loc b))

theorem ten_points4 : cfg4.N = 9 + 1 := N_4

/-- The activated entry at row `p` of block `t`, column `q`. -/
abbrev blockEntry4 (c : Dev nD) (t : Fin (9 + 1)) (p : Fin 5000) (q : Fin 64) : EReal :=
  k4_pay4 (F := Ideal) (blockAt4 V c 0 ⟨t.val, lt_of_lt_of_eq t.isLt (ten_points4).symm⟩) (blockAt4 V c 1 ⟨t.val, lt_of_lt_of_eq t.isLt (ten_points4).symm⟩) (blockAt4 V c 2 ⟨t.val, lt_of_lt_of_eq t.isLt (ten_points4).symm⟩) (blockAt4 V c 3 ⟨t.val, lt_of_lt_of_eq t.isLt (ten_points4).symm⟩) (ix2 p q)

/-- The first running row after the last point, at column `q`: the sum over the ten blocks of the block's column sum. -/
theorem sum_row_total4 (c : Dev nD) (q : Fin 64) :
    (runningRows4 (F := Ideal) V c 9 (by rw [ten_points4]; decide)).1 (ix2 (0 : Fin 1) q)
      = ∑ t : Fin (9 + 1), ∑ p : Fin 5000, blockEntry4 V c t p q := by
  have key := Cert.BlockSums.running_total_last (T := 9)
    (S := fun t : Fin (9 + 1) => ∑ p : Fin 5000, blockEntry4 V c t p q)
    (c := fun n (h : n < 9 + 1) => (runningRows4 (F := Ideal) V c n (lt_of_lt_of_eq h (ten_points4).symm)).1 (ix2 (0 : Fin 1) q))
    (z := k4_pay2 (F := Ideal) (ix2 (0 : Fin 1) q)) (zero_sum_row4 q)
    (fun h => sum_pay_apply4 _ _ _ _ _ q)
    (fun n h => sum_pay_apply4 _ _ _ _ _ q)
  exact key

/-- The second running row after the last point, at column `q`: the sum over the ten blocks of the block's column sum of
    squares. -/
theorem sq_row_total4 (c : Dev nD) (q : Fin 64) :
    (runningRows4 (F := Ideal) V c 9 (by rw [ten_points4]; decide)).2 (ix2 (0 : Fin 1) q)
      = ∑ t : Fin (9 + 1), ∑ p : Fin 5000, blockEntry4 V c t p q * blockEntry4 V c t p q := by
  have key := Cert.BlockSums.running_total_last (T := 9)
    (S := fun t : Fin (9 + 1) => ∑ p : Fin 5000, blockEntry4 V c t p q * blockEntry4 V c t p q)
    (c := fun n (h : n < 9 + 1) => (runningRows4 (F := Ideal) V c n (lt_of_lt_of_eq h (ten_points4).symm)).2 (ix2 (0 : Fin 1) q))
    (z := k4_pay3 (F := Ideal) (ix2 (0 : Fin 1) q)) (zero_sq_row4 q)
    (fun h => sq_pay_apply4 _ _ _ _ _ q)
    (fun n h => sq_pay_apply4 _ _ _ _ _ q)
  exact key

end Cert.KernelIdeal.Hand

end
-- ==== Proof.KI.StatsBlockValue4.lean ====
import proofs.«123467_j2559800508646_1_alg».proof.Proof.KI.StatsValue4
import proofs.«123467_j2559800508646_1_alg».proof.Proof.KI.StatsPay4
import Idealize.ShloMosaic.Lib.Pipeline.Value
import Idealize.ShloMosaic.Lib.ValueIdx

/-!
# The second layer's activated array, as one function of the arrays the call is entered with

Read at the extended reals. After any point the output block holds the activated block of that point's inputs: the
activation, with the slope the one entry of a `[1, 1]` array (window 2), of the aggregated block (window 0) plus the
bias row (window 1), plus the residual block (window 3). The aggregated and residual blocks at point `t` are rows `5000·t … 5000·t + 4999` of
their arrays, the bias row's and the slope's blocks are their whole arrays, so what point `t` writes back is block `t` of one
function of those arrays; the ten blocks cover the output (row `r` is in block `r / 5000`), hence after the last point
the output array is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the call is entered with, on core `c`: the aggregated messages (window 0), the bias row (window 1), the
    slope (window 2) and the layer's input (window 3). -/
abbrev aggIn4 (c : Dev nD) : S50000x64.Idx → EReal := V c (Pipeline.arrRef spec4 0)
abbrev biasIn4 (c : Dev nD) : S1x64.Idx → EReal := V c (Pipeline.arrRef spec4 1)
abbrev slopeIn4 (c : Dev nD) : S1x1.Idx → EReal := V c (Pipeline.arrRef spec4 2)
abbrev residIn4 (c : Dev nD) : S50000x64.Idx → EReal := V c (Pipeline.arrRef spec4 3)

/-- The windows' block indices over the grid: the row blocks of the two inputs and of the output move together, one block
    of 5000 rows per point; the bias row's and the slope's blocks never move. -/
theorem stats_block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Entry `y` of the aggregated block at point `t` is entry `(5000·t + y₀, y₁)` of the aggregated array. -/
theorem agg_read4 (c : Dev nD) (t : Fin cfg4.N) (y : S5000x64.Idx) (i : S50000x64.Idx)
    (h0 : (i 0).val = 5000 * t.val + (y 0).val) (h1 : (i 1).val = (y 1).val) :
    blockAt4 V c 0 t y = aggIn4 V c i := by
  have e := stats_block_indices4 t
  unfold blockAt4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t 0 * 5000 + 1 * (y 0).val = (i 0).val; rw [e.1, h0]; omega
  | ⟨1, _⟩ => show win4_0.index t 1 * 64 + 1 * (y 1).val = (i 1).val; rw [e.2.1, h1]; omega

/-- Entry `y` of the residual block at point `t` is entry `(5000·t + y₀, y₁)` of the layer's input. -/
theorem resid_read4 (c : Dev nD) (t : Fin cfg4.N) (y : S5000x64.Idx) (i : S50000x64.Idx)
    (h0 : (i 0).val = 5000 * t.val + (y 0).val) (h1 : (i 1).val = (y 1).val) :
    blockAt4 V c 3 t y = residIn4 V c i := by
  have e := stats_block_indices4 t
  unfold blockAt4
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t 0 * 5000 + 1 * (y 0).val = (i 0).val; rw [e.2.2.2.2.2.2.1, h0]; omega
  | ⟨1, _⟩ => show win4_3.index t 1 * 64 + 1 * (y 1).val = (i 1).val; rw [e.2.2.2.2.2.2.2.1, h1]; omega

/-- The bias row's block at any point is the whole bias row. -/
theorem bias_read4 (c : Dev nD) (t : Fin cfg4.N) (y : S1x64.Idx) :
    blockAt4 V c 1 t y = biasIn4 V c y := by
  have e := stats_block_indices4 t
  unfold blockAt4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t 0 * 1 + 1 * (y 0).val = (y 0).val; rw [e.2.2.1]; omega
  | ⟨1, _⟩ => show win4_1.index t 1 * 64 + 1 * (y 1).val = (y 1).val; rw [e.2.2.2.1]; omega

/-- The slope's block at any point is the whole one-entry array. -/
theorem slope_read4 (c : Dev nD) (t : Fin cfg4.N) (y : S1x1.Idx) :
    blockAt4 V c 2 t y = slopeIn4 V c y := by
  have e := stats_block_indices4 t
  unfold blockAt4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t 0 * 1 + 1 * (y 0).val = (y 0).val; rw [e.2.2.2.2.1]; omega
  | ⟨1, _⟩ => show win4_2.index t 1 * 1 + 1 * (y 1).val = (y 1).val; rw [e.2.2.2.2.2.1]; omega

/-- What point `t` writes back is block `t` of the activated array: one function of the arrays the call was entered
    with. -/
theorem act_flushed4 (c : Dev nD) (t : Fin cfg4.N) :
    (statsData4 (F := Ideal) V c).flushed 4 t
      = ((cfg4.win 4).blk t).view.read (Elt Ideal) (fun i : S50000x64.Idx =>
          (leaky (slopeIn4 V c (ix2 (0 : Fin 1) (0 : Fin 1))) (aggIn4 V c i + biasIn4 V c (ix2 (0 : Fin 1) (i 1)))
            + residIn4 V c i : EReal)) := by
  show (cfg4.win 4).cut (grid4.coords t) ((statsData4 V c).after 4 t) = _
  rw [statsData4_after4, stateAfter4_block]
  have e := stats_block_indices4 t
  have e0 : win4_4.index t (0 : Fin 2) = t.val := e.2.2.2.2.2.2.2.2.1
  have e1 : win4_4.index t (1 : Fin 2) = 0 := e.2.2.2.2.2.2.2.2.2
  funext j
  have hj0 : (j 0).val < 5000 := (j 0).isLt
  have hj1 : (j 1).val < 64 := (j 1).isLt
  have hj : (cfg4.win 4).xinj (grid4.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg4.win 4).blk t).view.emb j) 1) :=
    funext fun a => Fin.ext (by
      match a with
      | ⟨0, _⟩ => rfl
      | ⟨1, _⟩ => show (j 1).val = win4_4.index t 1 * 64 + 1 * (j 1).val; rw [e1]; omega)
  show k4_pay4 (blockAt4 V c 0 t) (blockAt4 V c 1 t) (blockAt4 V c 2 t) (blockAt4 V c 3 t) ((cfg4.win 4).xinj (grid4.coords t) j)
    = (fun i : S50000x64.Idx =>
          (leaky (slopeIn4 V c (ix2 (0 : Fin 1) (0 : Fin 1))) (aggIn4 V c i + biasIn4 V c (ix2 (0 : Fin 1) (i 1)))
            + residIn4 V c i : EReal)) (((cfg4.win 4).blk t).view.emb j)
  rw [hj]
  refine (act_pay_apply4 (blockAt4 V c 0 t) (blockAt4 V c 1 t) (blockAt4 V c 2 t) (blockAt4 V c 3 t) _ _).trans ?_
  rw [agg_read4 V c t (ix2 (⟨(j 0).val, hj0⟩ : Fin 5000) (⟨(j 1).val, hj1⟩ : Fin 64)) (((cfg4.win 4).blk t).view.emb j)
      (by show win4_4.index t 0 * 5000 + 1 * (j 0).val = 5000 * t.val + (j 0).val; rw [e0]; omega)
      (by show win4_4.index t 1 * 64 + 1 * (j 1).val = (j 1).val; rw [e1]; omega),
    resid_read4 V c t (ix2 (⟨(j 0).val, hj0⟩ : Fin 5000) (⟨(j 1).val, hj1⟩ : Fin 64)) (((cfg4.win 4).blk t).view.emb j)
      (by show win4_4.index t 0 * 5000 + 1 * (j 0).val = 5000 * t.val + (j 0).val; rw [e0]; omega)
      (by show win4_4.index t 1 * 64 + 1 * (j 1).val = (j 1).val; rw [e1]; omega),
    bias_read4 V c t, slope_read4 V c t, hq]
  rfl

/-- An index of the output array lies in point `t`'s block exactly when each coordinate lies in the block's range. -/
theorem act_mem_block4 (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v58_0).slice (win4_4.rect t)).set ↔ _
  rw [View.set_slice_whole, Rect.mem_set_unit]
  exact Iff.rfl

/-- The ten row blocks cover the output array: row `r` lies in the block of point `r / 5000`. -/
theorem act_cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  have ht : t.val = (i 0).val / 5000 := rfl
  have e := stats_block_indices4 t
  have e0 : win4_4.index t (0 : Fin 2) = t.val := e.2.2.2.2.2.2.2.2.1
  have e1 : win4_4.index t (1 : Fin 2) = 0 := e.2.2.2.2.2.2.2.2.2
  refine ⟨t, flush4_4 t, ?_⟩
  rw [act_mem_block4]
  intro a
  match a with
  | ⟨0, _⟩ => show win4_4.index t 0 * 5000 ≤ (i 0).val ∧ (i 0).val < win4_4.index t 0 * 5000 + 5000; rw [e0, ht]; omega
  | ⟨1, _⟩ => show win4_4.index t 1 * 64 ≤ (i 1).val ∧ (i 1).val < win4_4.index t 1 * 64 + 64; rw [e1]; omega

/-- After all ten points the output block's array is the activated array: at `(r, j)`, the activation of the aggregated
    entry plus the bias row's entry `j`, plus the layer's input at `(r, j)`. -/
theorem act_final4 (c : Dev nD) :
    (statsData4 (F := Ideal) V c).arrAt 4 cfg4.N
      = fun i : S50000x64.Idx =>
          (leaky (slopeIn4 V c (ix2 (0 : Fin 1) (0 : Fin 1))) (aggIn4 V c i + biasIn4 V c (ix2 (0 : Fin 1) (i 1)))
            + residIn4 V c i : EReal) :=
  (statsData4 (F := Ideal) V c).arrAt_eq_of_cover 4 _ (fun t _ => act_flushed4 V c t) (act_cover4)

/-- The activated array as a named function of the arrays the call is entered with. -/
abbrev activated4 (c : Dev nD) : S50000x64.Idx → EReal := fun i =>
  (leaky (slopeIn4 V c (ix2 (0 : Fin 1) (0 : Fin 1))) (aggIn4 V c i + biasIn4 V c (ix2 (0 : Fin 1) (i 1)))
            + residIn4 V c i : EReal)

/-- The same, with the function named. -/
theorem act_array4 (c : Dev nD) : (statsData4 (F := Ideal) V c).arrAt 4 cfg4.N = activated4 V c :=
  act_final4 V c

end Cert.KernelIdeal.Hand

end
-- ==== Proof.KI.StatsTotals4.lean ====
import proofs.«123467_j2559800508646_1_alg».proof.Proof.KI.StatsSums4
import proofs.«123467_j2559800508646_1_alg».proof.Proof.KI.StatsBlockValue4
import proofs.«123467_j2559800508646_1_alg».proof.Proof.LibBlockSums

/-!
# The second layer's column statistics are sums over all the rows of the activated array

Read at the extended reals. The running rows after the last point hold, column by column, the sum over the ten blocks of
the block's column sum (and of its column sum of squares). Entry `p` of block `t` of the stored block is entry
`5000·t + p` of the activated array, and ten blocks of 5000 rows are the 50000 rows; so the two row outputs hold, at
column `q`, the sum over all 50000 rows of the activated array's column `q`, and of its square.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem rows_in_blocks4 : (9 + 1) * 5000 = 50000 := by norm_num

/-- Entry `p` of the block stored at point `t` is the activated array's entry at row `5000·t + p`. -/
theorem block_entry4 (c : Dev nD) (t : Fin (9 + 1)) (p : Fin 5000) (q : Fin 64) (R : Fin 50000)
    (hR : R.val = p.val + 5000 * t.val) :
    blockEntry4 V c t p q = activated4 V c (ix2 R q) := by
  show k4_pay4 (F := Ideal) (blockAt4 V c 0 ⟨t.val, lt_of_lt_of_eq t.isLt (ten_points4).symm⟩) (blockAt4 V c 1 ⟨t.val, lt_of_lt_of_eq t.isLt (ten_points4).symm⟩) (blockAt4 V c 2 ⟨t.val, lt_of_lt_of_eq t.isLt (ten_points4).symm⟩) (blockAt4 V c 3 ⟨t.val, lt_of_lt_of_eq t.isLt (ten_points4).symm⟩) (ix2 p q) = _
  refine (act_pay_apply4 _ _ _ _ p q).trans ?_
  rw [agg_read4 V c ⟨t.val, lt_of_lt_of_eq t.isLt (ten_points4).symm⟩ (ix2 p q) (ix2 R q) (by show R.val = 5000 * t.val + p.val; omega) rfl,
    resid_read4 V c ⟨t.val, lt_of_lt_of_eq t.isLt (ten_points4).symm⟩ (ix2 p q) (ix2 R q) (by show R.val = 5000 * t.val + p.val; omega) rfl,
    bias_read4 V c ⟨t.val, lt_of_lt_of_eq t.isLt (ten_points4).symm⟩, slope_read4 V c ⟨t.val, lt_of_lt_of_eq t.isLt (ten_points4).symm⟩]

/-- A sum over the ten blocks of a sum over the block's 5000 rows, of a function of the row's place in the array, is the
    sum over the 50000 rows. -/
theorem sum_over_blocks4 (f : Fin 50000 → EReal) (g : Fin (9 + 1) → Fin 5000 → EReal)
    (hg : ∀ (t : Fin (9 + 1)) (p : Fin 5000) (R : Fin 50000), R.val = p.val + 5000 * t.val → g t p = f R) :
    ∑ t : Fin (9 + 1), ∑ p : Fin 5000, g t p = ∑ R : Fin 50000, f R := by
  rw [← Equiv.sum_comp (finCongr rows_in_blocks4) f,
    ← Cert.BlockSums.sum_blocks (T := 9 + 1) (B := 5000) (fun R => f (finCongr rows_in_blocks4 R))]
  refine Finset.sum_congr rfl fun t _ => Finset.sum_congr rfl fun p _ => ?_
  exact hg t p _ (Cert.BlockSums.position t p)

/-- The first running row after the last point, at column `q`: the sum of the activated array's column `q`. -/
theorem sum_row_all4 (c : Dev nD) (q : Fin 64) :
    (runningRows4 (F := Ideal) V c 9 (by rw [ten_points4]; decide)).1 (ix2 (0 : Fin 1) q)
      = ∑ R : Fin 50000, activated4 V c (ix2 R q) :=
  (sum_row_total4 V c q).trans
    (sum_over_blocks4 (fun R => activated4 V c (ix2 R q)) (fun t p => blockEntry4 V c t p q)
      fun t p R hR => block_entry4 V c t p q R hR)

/-- The second running row after the last point, at column `q`: the sum of the squares of the activated array's column
    `q`. -/
theorem sq_row_all4 (c : Dev nD) (q : Fin 64) :
    (runningRows4 (F := Ideal) V c 9 (by rw [ten_points4]; decide)).2 (ix2 (0 : Fin 1) q)
      = ∑ R : Fin 50000, activated4 V c (ix2 R q) * activated4 V c (ix2 R q) :=
  (sq_row_total4 V c q).trans
    (sum_over_blocks4 (fun R => activated4 V c (ix2 R q) * activated4 V c (ix2 R q))
      (fun t p => blockEntry4 V c t p q * blockEntry4 V c t p q)
      fun t p R hR => by rw [block_entry4 V c t p q R hR])

/-- After the call the first row output holds, at column `j`, the sum over all 50000 rows of the activated array's
    column `j`. -/
theorem sum_total4 (c : Dev nD) :
    (statsData4 (F := Ideal) V c).arrAt 5 cfg4.N
      = fun j : S1x64.Idx => (∑ R : Fin 50000, activated4 V c (ix2 R (j 1)) : EReal) := by
  rw [sum_array4]
  funext j
  obtain ⟨u, q, rfl⟩ : ∃ (u : Fin 1) (q : Fin 64), j = ix2 u q := ⟨j 0, j 1, eq_ix2 j⟩
  obtain rfl : u = 0 := Subsingleton.elim _ _
  exact sum_row_all4 V c q

/-- After the call the second row output holds, at column `j`, the sum over all 50000 rows of the square of the
    activated array's column `j`. -/
theorem sq_total4 (c : Dev nD) :
    (statsData4 (F := Ideal) V c).arrAt 6 cfg4.N
      = fun j : S1x64.Idx =>
          (∑ R : Fin 50000, activated4 V c (ix2 R (j 1)) * activated4 V c (ix2 R (j 1)) : EReal) := by
  rw [sq_array4]
  funext j
  obtain ⟨u, q, rfl⟩ : ∃ (u : Fin 1) (q : Fin 64), j = ix2 u q := ⟨j 0, j 1, eq_ix2 j⟩
  obtain rfl : u = 0 := Subsingleton.elim _ _
  exact sq_row_all4 V c q

end Cert.KernelIdeal.Hand

end
-- ==== Proof.KI.NormValue5.lean ====
import proofs.«123467_j2559800508646_1_alg».proof.Proof.KI.NormBody5
import Idealize.ShloMosaic.Lib.Pipeline.Value
import Idealize.ShloMosaic.Lib.ValueIdx
import Idealize.ShloMosaic.Lib.ValueLayout
import Idealize.ShloMosaic.PureOps.Ideal.Laws

/-!
# The second batch normalisation, as one function of the arrays the call is entered with

Read at the extended reals. The call normalises a `[50000, 64]` array of activations (window 0) column by column against
four rows of 64 entries — the column means (window 1), the column variances (window 2), the scale (window 3) and the
shift (window 4) — 5000 rows per grid point. The block a point stores is, entry `(p, q)`,
`scale q · (block (p, q) − mean q) · rsqrt (variance q + ε) + shift q`, the products taken in that order, with `ε` the
float whose word is `0x3727C5AC`. The row block at point `t` is rows `5000·t … 5000·t + 4999` of the activations and each
of the four rows' blocks is the whole row, so what point `t` writes back is block `t` of one function of the five
arrays; the ten blocks cover the output (row `r` is in block `r / 5000`), hence after the last point the output array
is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The body's stored value at entry `(p, q)` of the block: the scale's entry `q` times the difference of the block's
    `(p, q)` and the mean's entry `q`, times the reciprocal square root of the variance's entry `q` plus `ε`, plus the
    shift's entry `q` — in that order of association. The four rows are broadcast over the block's rows. -/
theorem norm_pay_apply5 (vr ga : Vec Ideal S1x64 .f32) (x : Vec Ideal S5000x64 .f32) (mu be : Vec Ideal S1x64 .f32)
    (p : Fin 5000) (q : Fin 64) :
    k5_pay1 vr ga x mu be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The five arrays the call is entered with, on core `c`: the activations (window 0), the column means (window 1),
    the column variances (window 2), the scale (window 3) and the shift (window 4). -/
abbrev actIn5 (c : Dev nD) : S50000x64.Idx → EReal := V c (Pipeline.arrRef spec5 0)
abbrev meanIn5 (c : Dev nD) : S1x64.Idx → EReal := V c (Pipeline.arrRef spec5 1)
abbrev varIn5 (c : Dev nD) : S1x64.Idx → EReal := V c (Pipeline.arrRef spec5 2)
abbrev gammaIn5 (c : Dev nD) : S1x64.Idx → EReal := V c (Pipeline.arrRef spec5 3)
abbrev betaIn5 (c : Dev nD) : S1x64.Idx → EReal := V c (Pipeline.arrRef spec5 4)

theorem norm_zero_offsets5 : (![0, 0] : Fin 2 → Nat) = fun _ => 0 := funext fun a => by fin_cases a <;> rfl

/-- The output block after the body, entry by entry. -/
theorem norm_block_apply5 (x : Vec Ideal S5000x64 .f32) (mu vr ga be : Vec Ideal S1x64 .f32) (p : Fin 5000) (q : Fin 64) :
    normalisedBlock5 x mu vr ga be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold normalisedBlock5
  rw [View.canon_unit_zero norm_zero_offsets5]
  simp only [View.ld_unit_zero (S := S5000x64) norm_zero_offsets5, View.ld_unit_zero (S := S1x64) norm_zero_offsets5]
  exact norm_pay_apply5 vr ga x mu be p q

/-- The windows' block indices over the grid: the row blocks of the input and of the output move together, one block of
    5000 rows per point; the four rows' blocks never move. -/
theorem norm_block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry `y` of the row block at point `t` is entry `(5000·t + y₀, y₁)` of the activations. -/
theorem act_read5 (c : Dev nD) (t : Fin cfg5.N) (y : S5000x64.Idx) (i : S50000x64.Idx)
    (h0 : (i 0).val = 5000 * t.val + (y 0).val) (h1 : (i 1).val = (y 1).val) :
    blockAt5 V c 0 t y = actIn5 V c i := by
  obtain ⟨e0, e1, -⟩ := norm_block_indices5 t
  unfold blockAt5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t 0 * 5000 + 1 * (y 0).val = (i 0).val; rw [e0, h0]; omega
  | ⟨1, _⟩ => show win5_0.index t 1 * 64 + 1 * (y 1).val = (i 1).val; rw [e1, h1]; omega

/-- The mean row's block at any point is the whole mean row. -/
theorem mean_read5 (c : Dev nD) (t : Fin cfg5.N) (y : S1x64.Idx) :
    blockAt5 V c 1 t y = meanIn5 V c y := by
  have e := norm_block_indices5 t
  unfold blockAt5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t 0 * 1 + 1 * (y 0).val = (y 0).val; rw [e.2.2.1]; omega
  | ⟨1, _⟩ => show win5_1.index t 1 * 64 + 1 * (y 1).val = (y 1).val; rw [e.2.2.2.1]; omega

/-- The variance row's block at any point is the whole variance row. -/
theorem variance_read5 (c : Dev nD) (t : Fin cfg5.N) (y : S1x64.Idx) :
    blockAt5 V c 2 t y = varIn5 V c y := by
  have e := norm_block_indices5 t
  unfold blockAt5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t 0 * 1 + 1 * (y 0).val = (y 0).val; rw [e.2.2.2.2.1]; omega
  | ⟨1, _⟩ => show win5_2.index t 1 * 64 + 1 * (y 1).val = (y 1).val; rw [e.2.2.2.2.2.1]; omega

/-- The gamma row's block at any point is the whole gamma row. -/
theorem gamma_read5 (c : Dev nD) (t : Fin cfg5.N) (y : S1x64.Idx) :
    blockAt5 V c 3 t y = gammaIn5 V c y := by
  have e := norm_block_indices5 t
  unfold blockAt5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t 0 * 1 + 1 * (y 0).val = (y 0).val; rw [e.2.2.2.2.2.2.1]; omega
  | ⟨1, _⟩ => show win5_3.index t 1 * 64 + 1 * (y 1).val = (y 1).val; rw [e.2.2.2.2.2.2.2.1]; omega

/-- The beta row's block at any point is the whole beta row. -/
theorem beta_read5 (c : Dev nD) (t : Fin cfg5.N) (y : S1x64.Idx) :
    blockAt5 V c 4 t y = betaIn5 V c y := by
  have e := norm_block_indices5 t
  unfold blockAt5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t 0 * 1 + 1 * (y 0).val = (y 0).val; rw [e.2.2.2.2.2.2.2.2.1]; omega
  | ⟨1, _⟩ => show win5_4.index t 1 * 64 + 1 * (y 1).val = (y 1).val; rw [e.2.2.2.2.2.2.2.2.2.1]; omega

/-- What point `t` writes back is block `t` of the normalised activations: one function of the five arrays the call
    was entered with. -/
theorem norm_flushed5 (c : Dev nD) (t : Fin cfg5.N) :
    (normData5 (F := Ideal) V c).flushed 5 t
      = ((cfg5.win 5).blk t).view.read (Elt Ideal) (fun i : S50000x64.Idx =>
          (gammaIn5 V c (ix2 (0 : Fin 1) (i 1)) * (actIn5 V c i - meanIn5 V c (ix2 (0 : Fin 1) (i 1)))
            * Ideal.rsqrt (varIn5 V c (ix2 (0 : Fin 1) (i 1)) + Ideal.ofBits .f32 0x3727C5AC#32)
          + betaIn5 V c (ix2 (0 : Fin 1) (i 1)) : EReal)) := by
  show (cfg5.win 5).cut (grid5.coords t) ((normData5 V c).after 5 t) = _
  rw [normData5_after_out]
  have e := norm_block_indices5 t
  have e0 : win5_5.index t (0 : Fin 2) = t.val := e.2.2.2.2.2.2.2.2.2.2.1
  have e1 : win5_5.index t (1 : Fin 2) = 0 := e.2.2.2.2.2.2.2.2.2.2.2
  funext j
  have hj0 : (j 0).val < 5000 := (j 0).isLt
  have hj1 : (j 1).val < 64 := (j 1).isLt
  have hj : (cfg5.win 5).xinj (grid5.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg5.win 5).blk t).view.emb j) 1) :=
    funext fun a => Fin.ext (by
      match a with
      | ⟨0, _⟩ => rfl
      | ⟨1, _⟩ => show (j 1).val = win5_5.index t 1 * 64 + 1 * (j 1).val; rw [e1]; omega)
  show normalisedBlock5 (blockAt5 V c 0 t) (blockAt5 V c 1 t) (blockAt5 V c 2 t) (blockAt5 V c 3 t)
      (blockAt5 V c 4 t) ((cfg5.win 5).xinj (grid5.coords t) j)
    = (fun i : S50000x64.Idx =>
          (gammaIn5 V c (ix2 (0 : Fin 1) (i 1)) * (actIn5 V c i - meanIn5 V c (ix2 (0 : Fin 1) (i 1)))
            * Ideal.rsqrt (varIn5 V c (ix2 (0 : Fin 1) (i 1)) + Ideal.ofBits .f32 0x3727C5AC#32)
          + betaIn5 V c (ix2 (0 : Fin 1) (i 1)) : EReal)) (((cfg5.win 5).blk t).view.emb j)
  rw [hj]
  refine (norm_block_apply5 (blockAt5 V c 0 t) (blockAt5 V c 1 t) (blockAt5 V c 2 t) (blockAt5 V c 3 t)
    (blockAt5 V c 4 t) _ _).trans ?_
  rw [act_read5 V c t (ix2 (⟨(j 0).val, hj0⟩ : Fin 5000) (⟨(j 1).val, hj1⟩ : Fin 64)) (((cfg5.win 5).blk t).view.emb j)
      (by show win5_5.index t 0 * 5000 + 1 * (j 0).val = 5000 * t.val + (j 0).val; rw [e0]; omega)
      (by show win5_5.index t 1 * 64 + 1 * (j 1).val = (j 1).val; rw [e1]; omega),
    mean_read5 V c t, variance_read5 V c t, gamma_read5 V c t, beta_read5 V c t, hq]
  rfl

/-- An index of the output array lies in point `t`'s block exactly when each coordinate lies in the block's range. -/
theorem norm_mem_block5 (t : Fin cfg5.N) (i : S50000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v71).slice (win5_5.rect t)).set ↔ _
  rw [View.set_slice_whole, Rect.mem_set_unit]
  exact Iff.rfl

/-- The ten row blocks cover the output array: row `r` lies in the block of point `r / 5000`. -/
theorem norm_cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  have ht : t.val = (i 0).val / 5000 := rfl
  have e := norm_block_indices5 t
  have e0 : win5_5.index t (0 : Fin 2) = t.val := e.2.2.2.2.2.2.2.2.2.2.1
  have e1 : win5_5.index t (1 : Fin 2) = 0 := e.2.2.2.2.2.2.2.2.2.2.2
  refine ⟨t, flush5_5 t, ?_⟩
  rw [norm_mem_block5]
  intro a
  match a with
  | ⟨0, _⟩ => show win5_5.index t 0 * 5000 ≤ (i 0).val ∧ (i 0).val < win5_5.index t 0 * 5000 + 5000; rw [e0, ht]; omega
  | ⟨1, _⟩ => show win5_5.index t 1 * 64 ≤ (i 1).val ∧ (i 1).val < win5_5.index t 1 * 64 + 64; rw [e1]; omega

/-- After all ten points the output array is the normalised activations: at `(r, j)`, the scale's entry `j` times the
    difference of the activation and the mean's entry `j`, times the reciprocal square root of the variance's entry `j`
    plus `ε`, plus the shift's entry `j`. -/
theorem norm_final5 (c : Dev nD) :
    (normData5 (F := Ideal) V c).arrAt 5 cfg5.N
      = fun i : S50000x64.Idx =>
          (gammaIn5 V c (ix2 (0 : Fin 1) (i 1)) * (actIn5 V c i - meanIn5 V c (ix2 (0 : Fin 1) (i 1)))
            * Ideal.rsqrt (varIn5 V c (ix2 (0 : Fin 1) (i 1)) + Ideal.ofBits .f32 0x3727C5AC#32)
          + betaIn5 V c (ix2 (0 : Fin 1) (i 1)) : EReal) :=
  (normData5 (F := Ideal) V c).arrAt_eq_of_cover 5 _ (fun t _ => norm_flushed5 V c t) (norm_cover5)

end Cert.KernelIdeal.Hand

end
-- ==== Proof.Bridge.Layer2.lean ====
import proofs.«123467_j2559800508646_1_alg».proof.Proof.Bridge.Layer1Out
import proofs.«123467_j2559800508646_1_alg».proof.Proof.Bridge.HostWindows2
import proofs.«123467_j2559800508646_1_alg».proof.Proof.KI.MatmulValue3
import proofs.«123467_j2559800508646_1_alg».proof.Proof.KI.StatsTotals4
import proofs.«123467_j2559800508646_1_alg».proof.Proof.KI.NormValue5
import proofs.«123467_j2559800508646_1_alg».proof.Proof.Ref.Real

/-!
# Layer two of the kernel program is the reference's

The same four links as in layer one, with layer one's output in two places: it is the rows of this layer's product,
and it is added back after the rectifier. Both programs do the same, so with layer one's outputs equal the product,
the aggregate, the array the layer normalises and the layer's output are equal in turn. The float arguments' finiteness
enters through the previous layer's output and through the moment form of the reference's normalisation.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.LibExtReal (IsReal)
open scoped BigOperators

variable (m : (ℓ : Loc nD τ sig) → Buf (Elt Ideal) ℓ)

/-! ## The product -/

theorem product_at8 (c : Dev nD) : at8 m c (Proc.devRef .tc main_v38) = (data3 m c).arrAt 2 cfg3.N := by
  unfold at8
  exact Function.update_self _ _ _

set_option maxHeartbeats 2000000 in
/-- THE PRODUCT OF LAYER TWO IS THE REFERENCE'S. -/
theorem product2 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at8 m c (Proc.devRef .tc main_v38) = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [product_at8]
  show (productData3 (F := Ideal) (fun c b => at7 m c b) c).arrAt 2 cfg3.N = _
  rw [product_final3]
  funext i
  obtain ⟨r, j, rfl⟩ : ∃ (r : Fin 50000) (j : Fin 64), i = ix2 r j := ⟨i 0, i 1, eq_ix2 i⟩
  rw [Cert.ReferenceIdeal.RefPre.xw2]
  refine Finset.sum_congr rfl fun k _ => ?_
  have hr : rowsIn3 (fun c b => at7 m c b) c (ix2 r k)
      = (Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S50000x64.Idx → EReal) (ix2 r k) :=
    congrFun ((output_at7 m c).trans (out1 m c h0 h3 h4 h5 h6 h7 h8)) _
  have hw : weightsIn3 (fun c b => at7 m c b) c (ix2 k j) = (m ((c : Thread nD τ).loc main_arg4) : S3x64x64.Idx → EReal) (ix3 (1 : Fin 3) k j) :=
    (congrFun (weights_at7 m c) _).trans (Cert.ReferenceIdeal.RefPre.weight2 _ k j)
  show rowsIn3 (fun c b => at7 m c b) c (ix2 r k) * weightsIn3 (fun c b => at7 m c b) c (ix2 k j) = _
  rw [hr, hw]

/-! ## The aggregate -/

/-- THE AGGREGATE OF LAYER TWO IS THE REFERENCE'S. -/
theorem aggregate2 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at9 m c (Proc.devRef .tc main_v51) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [aggregated2, product2 m c h0 h3 h4 h5 h6 h7 h8]
  exact (Cert.ReferenceIdeal.RefPre.agg2 _ _ _ _ _ _ _ _ _).symm

/-! ## The array the layer normalises -/

theorem rectified_at10 (c : Dev nD) : at10 m c (Proc.devRef .tc main_v58_0) = (data4 m c).arrAt 4 cfg4.N := by
  unfold at10
  rw [Function.update_of_ne (StableHlo.devRef_ne_of_ne (show (main_v58_0 : Ref sig .tc) ≠ main_v58_2 from by decide)),
    Function.update_of_ne (StableHlo.devRef_ne_of_ne (show (main_v58_0 : Ref sig .tc) ≠ main_v58_1 from by decide)),
    Function.update_self]

/-- The array layer two normalises, as the reference names it. -/
abbrev pre2 (c : Dev nD) : S50000x64.Idx → EReal :=
  Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

set_option maxHeartbeats 2000000 in
/-- The statistics call's whole-array function is that array. -/
theorem activated4_is_pre2 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    activated4 (fun c b => at9 m c b) c = pre2 m c := by
  funext i
  obtain ⟨r, j, rfl⟩ : ∃ (r : Fin 50000) (j : Fin 64), i = ix2 r j := ⟨i 0, i 1, eq_ix2 i⟩
  show _ = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r j)
  rw [Cert.ReferenceIdeal.RefPre.pre2_apply, ← leaky_same]
  have hs : slopeIn4 (fun c b => at9 m c b) c (ix2 (0 : Fin 1) (0 : Fin 1)) = (m ((c : Thread nD τ).loc main_arg6) : S3.Idx → EReal) (ix1 (1 : Fin 3)) :=
    slope_at9 m c
  have hb : biasIn4 (fun c b => at9 m c b) c (ix2 (0 : Fin 1) j) = (m ((c : Thread nD τ).loc main_arg5) : S3x64.Idx → EReal) (ix2 (1 : Fin 3) j) :=
    bias_at9 m c j
  have ha : aggIn4 (fun c b => at9 m c b) c (ix2 r j)
      = Cert.ReferenceIdeal.RefPre.agg (F := Ideal) (Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (m ((c : Thread nD τ).loc main_arg1)) (m ((c : Thread nD τ).loc main_arg2)) (m ((c : Thread nD τ).loc main_arg3)) (ix2 r j) :=
    congrFun ((aggregate2 m c h0 h3 h4 h5 h6 h7 h8).trans (Cert.ReferenceIdeal.RefPre.agg2 _ _ _ _ _ _ _ _ _)) _
  have hres : residIn4 (fun c b => at9 m c b) c (ix2 r j)
      = (Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S50000x64.Idx → EReal) (ix2 r j) :=
    congrFun ((residual_at9 m c).trans (out1 m c h0 h3 h4 h5 h6 h7 h8)) _
  show Cert.KernelIdeal.Hand.leaky (slopeIn4 (fun c b => at9 m c b) c (ix2 (0 : Fin 1) (0 : Fin 1)))
      (aggIn4 (fun c b => at9 m c b) c (ix2 r j) + biasIn4 (fun c b => at9 m c b) c (ix2 (0 : Fin 1) j)) + residIn4 (fun c b => at9 m c b) c (ix2 r j) = _
  rw [hs, hb, ha, hres]

/-- THE ARRAY LAYER TWO NORMALISES IS THE REFERENCE'S. -/
theorem rectified2 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at10 m c (Proc.devRef .tc main_v58_0) = pre2 m c := by
  rw [rectified_at10]
  show (statsData4 (F := Ideal) (fun c b => at9 m c b) c).arrAt 4 cfg4.N = _
  rw [act_array4, activated4_is_pre2 m c h0 h3 h4 h5 h6 h7 h8]

/-! ## The column statistics -/

theorem sums_at10 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) (j : Fin 64) :
    (at10 m c (Proc.devRef .tc main_v58_1) : S1x64.Idx → EReal) (ix2 (0 : Fin 1) j) = ∑ R : Fin 50000, pre2 m c (ix2 R j) := by
  have e : at10 m c (Proc.devRef .tc main_v58_1) = (data4 m c).arrAt 5 cfg4.N := by
    unfold at10
    rw [Function.update_of_ne (StableHlo.devRef_ne_of_ne (show (main_v58_1 : Ref sig .tc) ≠ main_v58_2 from by decide)), Function.update_self]
  rw [e]
  show ((statsData4 (F := Ideal) (fun c b => at9 m c b) c).arrAt 5 cfg4.N : S1x64.Idx → EReal) (ix2 (0 : Fin 1) j) = _
  rw [sum_total4, activated4_is_pre2 m c h0 h3 h4 h5 h6 h7 h8]

theorem squares_at10 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) (j : Fin 64) :
    (at10 m c (Proc.devRef .tc main_v58_2) : S1x64.Idx → EReal) (ix2 (0 : Fin 1) j) = ∑ R : Fin 50000, pre2 m c (ix2 R j) * pre2 m c (ix2 R j) := by
  have e : at10 m c (Proc.devRef .tc main_v58_2) = (data4 m c).arrAt 6 cfg4.N := by
    unfold at10
    rw [Function.update_self]
  rw [e]
  show ((statsData4 (F := Ideal) (fun c b => at9 m c b) c).arrAt 6 cfg4.N : S1x64.Idx → EReal) (ix2 (0 : Fin 1) j) = _
  rw [sq_total4, activated4_is_pre2 m c h0 h3 h4 h5 h6 h7 h8]

/-! ## The output -/

theorem output_at12 (c : Dev nD) : at12 m c (Proc.devRef .tc main_v71) = (data5 m c).arrAt 5 cfg5.N := by
  unfold at12
  exact Function.update_self _ _ _

set_option maxHeartbeats 4000000 in
/-- THE OUTPUT OF LAYER TWO IS THE REFERENCE'S, when the seven float arguments are real. -/
theorem out2 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at12 m c (Proc.devRef .tc main_v71) = Cert.ReferenceIdeal.ReadP.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [output_at12]
  show (normData5 (F := Ideal) (fun c b => at11 m c b) c).arrAt 5 cfg5.N = _
  rw [norm_final5]
  funext i
  obtain ⟨r, j, rfl⟩ : ∃ (r : Fin 50000) (j : Fin 64), i = ix2 r j := ⟨i 0, i 1, eq_ix2 i⟩
  rw [Cert.ReferenceIdeal.RefReal.out2_apply_moments _ _ _ _ _ _ _ _ _ h0 h3 h4 h5 h6 h7 h8 r j]
  have hact : actIn5 (fun c b => at11 m c b) c (ix2 r j) = pre2 m c (ix2 r j) :=
    congrFun ((rectified_at11 m c).trans (rectified2 m c h0 h3 h4 h5 h6 h7 h8)) _
  have hmean : meanIn5 (fun c b => at11 m c b) c (ix2 (0 : Fin 1) j) = Cert.ReferenceIdeal.RefNorm.meanAt (pre2 m c) j := by
    show (at11 m c (Proc.devRef .tc main_v60) : S1x64.Idx → EReal) (ix2 (0 : Fin 1) j) = _
    rw [mean_at11, sums_at10 m c h0 h3 h4 h5 h6 h7 h8]
    rfl
  have hvar : varIn5 (fun c b => at11 m c b) c (ix2 (0 : Fin 1) j)
      = Ideal.div (∑ k : Fin 50000, pre2 m c (ix2 k j) * pre2 m c (ix2 k j)) (Ideal.ofBits .f32 0x47435000#32)
        - Cert.ReferenceIdeal.RefNorm.meanAt (pre2 m c) j * Cert.ReferenceIdeal.RefNorm.meanAt (pre2 m c) j := by
    show (at11 m c (Proc.devRef .tc main_v64) : S1x64.Idx → EReal) (ix2 (0 : Fin 1) j) = _
    rw [variance_at11, sums_at10 m c h0 h3 h4 h5 h6 h7 h8, squares_at10 m c h0 h3 h4 h5 h6 h7 h8]
    rfl
  have hγ : gammaIn5 (fun c b => at11 m c b) c (ix2 (0 : Fin 1) j) = (m ((c : Thread nD τ).loc main_arg7) : S3x64.Idx → EReal) (ix2 (1 : Fin 3) j) :=
    scale_at11 m c j
  have hβ : betaIn5 (fun c b => at11 m c b) c (ix2 (0 : Fin 1) j) = (m ((c : Thread nD τ).loc main_arg8) : S3x64.Idx → EReal) (ix2 (1 : Fin 3) j) :=
    shift_at11 m c j
  show gammaIn5 (fun c b => at11 m c b) c (ix2 (0 : Fin 1) j) * (actIn5 (fun c b => at11 m c b) c (ix2 r j) - meanIn5 (fun c b => at11 m c b) c (ix2 (0 : Fin 1) j))
      * Ideal.rsqrt (varIn5 (fun c b => at11 m c b) c (ix2 (0 : Fin 1) j) + Ideal.ofBits .f32 0x3727C5AC#32)
      + betaIn5 (fun c b => at11 m c b) c (ix2 (0 : Fin 1) j) = _
  rw [hγ, hβ, hact, hmean, hvar]

end Cert.Bridge

end
-- ==== Proof.Bridge.HostWindows3.lean ====
import proofs.«123467_j2559800508646_1_alg».proof.Proof.KI.Boundaries
import proofs.«123467_j2559800508646_1_alg».proof.Proof.Ref.Pre
import Idealize.ShloMosaic.Lib.StableHlo.Run

/-!
# Layer three of the kernel program: what its host operations hand to its calls

As in layer one. Before the layer's product the host operations cut the layer's weight matrix out of the weight table; after
it they aggregate the product along the edges and cut the layer's bias row and slope; after the statistics call they divide
its column sums `S` and column sums of squares `Q` by `n` — `mean = S / n`, `variance = Q / n − mean · mean` — and cut the
scale row and the shift row. All cuts are the reference's, of the same argument tables. The previous layer's output, which
the statistics call adds back, passes through the stretches in between unchanged.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

variable (m : (ℓ : Loc nD τ sig) → Buf (Elt Ideal) ℓ)

/-! ## Arguments are as launched where they are read -/

/-- When the third weight matrix is cut, the weight table is as launched. -/
theorem arg4_at12 (c : Dev nD) : at12 m c (Proc.devRef .tc main_arg4) = (m ((c : Thread nD τ).loc main_arg4)) := by
  rw [← at12_eq m c, V12_of m (boundaryOuts m) c main_arg4 (by decide),
    V11_of m (boundaryOuts m) c main_arg4 (by decide),
    V10_of m (boundaryOuts m) c main_arg4 (by decide),
    V9_of m (boundaryOuts m) c main_arg4 (by decide),
    V8_of m (boundaryOuts m) c main_arg4 (by decide),
    V7_of m (boundaryOuts m) c main_arg4 (by decide),
    V6_of m (boundaryOuts m) c main_arg4 (by decide),
    V5_of m (boundaryOuts m) c main_arg4 (by decide),
    V4_of m (boundaryOuts m) c main_arg4 (by decide),
    V3_of m (boundaryOuts m) c main_arg4 (by decide),
    V2_of m (boundaryOuts m) c main_arg4 (by decide),
    V1_of m c main_arg4 (by decide)]

/-- After the third product argument 1 is as launched. -/
theorem arg1_at14 (c : Dev nD) : at14 m c (Proc.devRef .tc main_arg1) = (m ((c : Thread nD τ).loc main_arg1)) := by
  rw [← at14_eq m c, V14_of m (boundaryOuts m) c main_arg1 (by decide),
    V13_of m (boundaryOuts m) c main_arg1 (by decide),
    V12_of m (boundaryOuts m) c main_arg1 (by decide),
    V11_of m (boundaryOuts m) c main_arg1 (by decide),
    V10_of m (boundaryOuts m) c main_arg1 (by decide),
    V9_of m (boundaryOuts m) c main_arg1 (by decide),
    V8_of m (boundaryOuts m) c main_arg1 (by decide),
    V7_of m (boundaryOuts m) c main_arg1 (by decide),
    V6_of m (boundaryOuts m) c main_arg1 (by decide),
    V5_of m (boundaryOuts m) c main_arg1 (by decide),
    V4_of m (boundaryOuts m) c main_arg1 (by decide),
    V3_of m (boundaryOuts m) c main_arg1 (by decide),
    V2_of m (boundaryOuts m) c main_arg1 (by decide),
    V1_of m c main_arg1 (by decide)]

/-- After the third product argument 2 is as launched. -/
theorem arg2_at14 (c : Dev nD) : at14 m c (Proc.devRef .tc main_arg2) = (m ((c : Thread nD τ).loc main_arg2)) := by
  rw [← at14_eq m c, V14_of m (boundaryOuts m) c main_arg2 (by decide),
    V13_of m (boundaryOuts m) c main_arg2 (by decide),
    V12_of m (boundaryOuts m) c main_arg2 (by decide),
    V11_of m (boundaryOuts m) c main_arg2 (by decide),
    V10_of m (boundaryOuts m) c main_arg2 (by decide),
    V9_of m (boundaryOuts m) c main_arg2 (by decide),
    V8_of m (boundaryOuts m) c main_arg2 (by decide),
    V7_of m (boundaryOuts m) c main_arg2 (by decide),
    V6_of m (boundaryOuts m) c main_arg2 (by decide),
    V5_of m (boundaryOuts m) c main_arg2 (by decide),
    V4_of m (boundaryOuts m) c main_arg2 (by decide),
    V3_of m (boundaryOuts m) c main_arg2 (by decide),
    V2_of m (boundaryOuts m) c main_arg2 (by decide),
    V1_of m c main_arg2 (by decide)]

/-- After the third product argument 3 is as launched. -/
theorem arg3_at14 (c : Dev nD) : at14 m c (Proc.devRef .tc main_arg3) = (m ((c : Thread nD τ).loc main_arg3)) := by
  rw [← at14_eq m c, V14_of m (boundaryOuts m) c main_arg3 (by decide),
    V13_of m (boundaryOuts m) c main_arg3 (by decide),
    V12_of m (boundaryOuts m) c main_arg3 (by decide),
    V11_of m (boundaryOuts m) c main_arg3 (by decide),
    V10_of m (boundaryOuts m) c main_arg3 (by decide),
    V9_of m (boundaryOuts m) c main_arg3 (by decide),
    V8_of m (boundaryOuts m) c main_arg3 (by decide),
    V7_of m (boundaryOuts m) c main_arg3 (by decide),
    V6_of m (boundaryOuts m) c main_arg3 (by decide),
    V5_of m (boundaryOuts m) c main_arg3 (by decide),
    V4_of m (boundaryOuts m) c main_arg3 (by decide),
    V3_of m (boundaryOuts m) c main_arg3 (by decide),
    V2_of m (boundaryOuts m) c main_arg3 (by decide),
    V1_of m c main_arg3 (by decide)]

/-- After the third product argument 5 is as launched. -/
theorem arg5_at14 (c : Dev nD) : at14 m c (Proc.devRef .tc main_arg5) = (m ((c : Thread nD τ).loc main_arg5)) := by
  rw [← at14_eq m c, V14_of m (boundaryOuts m) c main_arg5 (by decide),
    V13_of m (boundaryOuts m) c main_arg5 (by decide),
    V12_of m (boundaryOuts m) c main_arg5 (by decide),
    V11_of m (boundaryOuts m) c main_arg5 (by decide),
    V10_of m (boundaryOuts m) c main_arg5 (by decide),
    V9_of m (boundaryOuts m) c main_arg5 (by decide),
    V8_of m (boundaryOuts m) c main_arg5 (by decide),
    V7_of m (boundaryOuts m) c main_arg5 (by decide),
    V6_of m (boundaryOuts m) c main_arg5 (by decide),
    V5_of m (boundaryOuts m) c main_arg5 (by decide),
    V4_of m (boundaryOuts m) c main_arg5 (by decide),
    V3_of m (boundaryOuts m) c main_arg5 (by decide),
    V2_of m (boundaryOuts m) c main_arg5 (by decide),
    V1_of m c main_arg5 (by decide)]

/-- After the third product argument 6 is as launched. -/
theorem arg6_at14 (c : Dev nD) : at14 m c (Proc.devRef .tc main_arg6) = (m ((c : Thread nD τ).loc main_arg6)) := by
  rw [← at14_eq m c, V14_of m (boundaryOuts m) c main_arg6 (by decide),
    V13_of m (boundaryOuts m) c main_arg6 (by decide),
    V12_of m (boundaryOuts m) c main_arg6 (by decide),
    V11_of m (boundaryOuts m) c main_arg6 (by decide),
    V10_of m (boundaryOuts m) c main_arg6 (by decide),
    V9_of m (boundaryOuts m) c main_arg6 (by decide),
    V8_of m (boundaryOuts m) c main_arg6 (by decide),
    V7_of m (boundaryOuts m) c main_arg6 (by decide),
    V6_of m (boundaryOuts m) c main_arg6 (by decide),
    V5_of m (boundaryOuts m) c main_arg6 (by decide),
    V4_of m (boundaryOuts m) c main_arg6 (by decide),
    V3_of m (boundaryOuts m) c main_arg6 (by decide),
    V2_of m (boundaryOuts m) c main_arg6 (by decide),
    V1_of m c main_arg6 (by decide)]

/-- After the third statistics call argument 7 is as launched. -/
theorem arg7_at16 (c : Dev nD) : at16 m c (Proc.devRef .tc main_arg7) = (m ((c : Thread nD τ).loc main_arg7)) := by
  rw [← at16_eq m c, V16_of m (boundaryOuts m) c main_arg7 (by decide),
    V15_of m (boundaryOuts m) c main_arg7 (by decide),
    V14_of m (boundaryOuts m) c main_arg7 (by decide),
    V13_of m (boundaryOuts m) c main_arg7 (by decide),
    V12_of m (boundaryOuts m) c main_arg7 (by decide),
    V11_of m (boundaryOuts m) c main_arg7 (by decide),
    V10_of m (boundaryOuts m) c main_arg7 (by decide),
    V9_of m (boundaryOuts m) c main_arg7 (by decide),
    V8_of m (boundaryOuts m) c main_arg7 (by decide),
    V7_of m (boundaryOuts m) c main_arg7 (by decide),
    V6_of m (boundaryOuts m) c main_arg7 (by decide),
    V5_of m (boundaryOuts m) c main_arg7 (by decide),
    V4_of m (boundaryOuts m) c main_arg7 (by decide),
    V3_of m (boundaryOuts m) c main_arg7 (by decide),
    V2_of m (boundaryOuts m) c main_arg7 (by decide),
    V1_of m c main_arg7 (by decide)]

/-- After the third statistics call argument 8 is as launched. -/
theorem arg8_at16 (c : Dev nD) : at16 m c (Proc.devRef .tc main_arg8) = (m ((c : Thread nD τ).loc main_arg8)) := by
  rw [← at16_eq m c, V16_of m (boundaryOuts m) c main_arg8 (by decide),
    V15_of m (boundaryOuts m) c main_arg8 (by decide),
    V14_of m (boundaryOuts m) c main_arg8 (by decide),
    V13_of m (boundaryOuts m) c main_arg8 (by decide),
    V12_of m (boundaryOuts m) c main_arg8 (by decide),
    V11_of m (boundaryOuts m) c main_arg8 (by decide),
    V10_of m (boundaryOuts m) c main_arg8 (by decide),
    V9_of m (boundaryOuts m) c main_arg8 (by decide),
    V8_of m (boundaryOuts m) c main_arg8 (by decide),
    V7_of m (boundaryOuts m) c main_arg8 (by decide),
    V6_of m (boundaryOuts m) c main_arg8 (by decide),
    V5_of m (boundaryOuts m) c main_arg8 (by decide),
    V4_of m (boundaryOuts m) c main_arg8 (by decide),
    V3_of m (boundaryOuts m) c main_arg8 (by decide),
    V2_of m (boundaryOuts m) c main_arg8 (by decide),
    V1_of m c main_arg8 (by decide)]

/-! ## A row of 64 laid out as one row of a 1 × 64 array -/

/-- A vector of 64 entries recast as a 1 × 64 array, read at row 0, column `j`, is the vector at `j`. -/
private theorem row_of_vector {α : Type} (y : S64.Idx → α) (j : Fin 64) :
    shapeCast S1x64 y shapeCasts_S64_S1x64 (ix2 (0 : Fin 1) j) = y (ix1 j) :=
  shapeCast_apply y shapeCasts_S64_S1x64 (ix2 (0 : Fin 1) j) (ix1 j)
    (by rewrite [Shape.rowMajor_val_one, Shape.rowMajor_val_two]; show j.val = 0 * 64 + j.val; omega)

/-- A scalar recast as a 1 × 1 array, read at its one entry, is the scalar. -/
private theorem cell_of_scalar {α : Type} (y : S_.Idx → α) :
    shapeCast S1x1 y shapeCasts_S_S1x1 (ix2 (0 : Fin 1) (0 : Fin 1)) = y ix0 :=
  shapeCast_apply y shapeCasts_S_S1x1 (ix2 (0 : Fin 1) (0 : Fin 1)) ix0
    (by
      have h1 : (S_.rowMajor ix0).val < 1 := (S_.rowMajor ix0).isLt
      rewrite [Shape.rowMajor_val_two]
      show (S_.rowMajor ix0).val = 0 * 1 + 0
      omega)

/-! ## The product's weight window and the aggregation -/

/-- THE WEIGHT MATRIX THE THIRD PRODUCT READS is the reference's, cut out of the table as the reference cuts it. -/
theorem weights_at13 (c : Dev nD) :
    at13 m c (Proc.devRef .tc main_v73) = Cert.ReferenceIdeal.ReadP.val_main_v116 (F := Ideal) (m ((c : Thread nD τ).loc main_arg4)) := by
  have e : at13 m c (Proc.devRef .tc main_v73)
      = Cert.ReferenceIdeal.ReadP.val_main_v116 (F := Ideal) (at12 m c (Proc.devRef .tc main_arg4)) := by
    unfold at13
    after_results
    rfl
  rw [e, arg4_at12]

set_option maxHeartbeats 8000000 in
/-- THE AGGREGATED MESSAGES OF THE THIRD LAYER: the edge aggregation of the third product's output, along the edge arrays as
    launched. -/
theorem aggregated3 (c : Dev nD) :
    at15 m c (Proc.devRef .tc main_v87)
      = Cert.ReferenceIdeal.RefPre.agg (F := Ideal) (at14 m c (Proc.devRef .tc main_v74)) (m ((c : Thread nD τ).loc main_arg1))
          (m ((c : Thread nD τ).loc main_arg2)) (m ((c : Thread nD τ).loc main_arg3)) := by
  have e : at15 m c (Proc.devRef .tc main_v87)
      = Cert.ReferenceIdeal.RefPre.agg (F := Ideal) (at14 m c (Proc.devRef .tc main_v74)) (at14 m c (Proc.devRef .tc main_arg1))
          (at14 m c (Proc.devRef .tc main_arg2)) (at14 m c (Proc.devRef .tc main_arg3)) := by
    unfold at15
    after_results
    rfl
  rw [e, arg1_at14, arg2_at14, arg3_at14]

/-! ## The statistics call's bias row and slope -/

set_option maxHeartbeats 8000000 in
/-- The bias window's array is the reference's third bias row, laid out as one row. -/
theorem bias_window3 (c : Dev nD) :
    at15 m c (Proc.devRef .tc main_v90)
      = shapeCast S1x64 (Cert.ReferenceIdeal.ReadP.val_main_v132 (F := Ideal) (at14 m c (Proc.devRef .tc main_arg5))) shapeCasts_S64_S1x64 := by
  unfold at15
  after_results
  rfl

/-- THE BIAS THE THIRD STATISTICS CALL READS, at column `j`: the third row of the bias table. -/
theorem bias_at15 (c : Dev nD) (j : Fin 64) :
    (at15 m c (Proc.devRef .tc main_v90) : S1x64.Idx → EReal) (ix2 (0 : Fin 1) j)
      = ((m ((c : Thread nD τ).loc main_arg5)) : S3x64.Idx → EReal) (ix2 (2 : Fin 3) j) := by
  rw [bias_window3, arg5_at14, row_of_vector, Cert.ReferenceIdeal.RefPre.bias3]

set_option maxHeartbeats 8000000 in
/-- The slope window's array is the reference's third slope, laid out as a 1 × 1 array. -/
theorem slope_window3 (c : Dev nD) :
    at15 m c (Proc.devRef .tc main_v93)
      = shapeCast S1x1 (Cert.ReferenceIdeal.ReadP.val_main_v139 (F := Ideal) (at14 m c (Proc.devRef .tc main_arg6))) shapeCasts_S_S1x1 := by
  unfold at15
  after_results
  rfl

/-- THE SLOPE THE THIRD STATISTICS CALL READS: the third entry of the slope table. -/
theorem slope_at15 (c : Dev nD) :
    (at15 m c (Proc.devRef .tc main_v93) : S1x1.Idx → EReal) (ix2 (0 : Fin 1) (0 : Fin 1))
      = ((m ((c : Thread nD τ).loc main_arg6)) : S3.Idx → EReal) (ix1 (2 : Fin 3)) := by
  rw [slope_window3, arg6_at14, cell_of_scalar, Cert.ReferenceIdeal.RefPre.slope3]

/-! ## The normalisation call's mean, variance, scale and shift rows -/

set_option maxHeartbeats 8000000 in
/-- THE MEAN ROW THE THIRD NORMALISATION CALL READS: the column sums the statistics call left, divided by `n`. -/
theorem mean_at17 (c : Dev nD) (i : S1x64.Idx) :
    (at17 m c (Proc.devRef .tc main_v96) : S1x64.Idx → EReal) i
      = Ideal.div ((at16 m c (Proc.devRef .tc main_v94_1) : S1x64.Idx → EReal) i) (Ideal.ofBits .f32 0x47435000#32) := by
  unfold at17
  after_results
  rfl

set_option maxHeartbeats 8000000 in
/-- THE VARIANCE ROW THE THIRD NORMALISATION CALL READS: the column sums of squares over `n`, minus the square of the mean. -/
theorem variance_at17 (c : Dev nD) (i : S1x64.Idx) :
    (at17 m c (Proc.devRef .tc main_v100) : S1x64.Idx → EReal) i
      = Ideal.div ((at16 m c (Proc.devRef .tc main_v94_2) : S1x64.Idx → EReal) i) (Ideal.ofBits .f32 0x47435000#32)
        - Ideal.div ((at16 m c (Proc.devRef .tc main_v94_1) : S1x64.Idx → EReal) i) (Ideal.ofBits .f32 0x47435000#32)
          * Ideal.div ((at16 m c (Proc.devRef .tc main_v94_1) : S1x64.Idx → EReal) i) (Ideal.ofBits .f32 0x47435000#32) := by
  unfold at17
  after_results
  rfl

set_option maxHeartbeats 8000000 in
/-- The scale window's array is the reference's third scale row, laid out as one row. -/
theorem scale_window3 (c : Dev nD) :
    at17 m c (Proc.devRef .tc main_v103)
      = shapeCast S1x64 (Cert.ReferenceIdeal.ReadP.val_main_v155 (F := Ideal) (at16 m c (Proc.devRef .tc main_arg7))) shapeCasts_S64_S1x64 := by
  unfold at17
  after_results
  rfl

/-- THE SCALE THE THIRD NORMALISATION CALL READS, at column `j`: the third row of the scale table. -/
theorem scale_at17 (c : Dev nD) (j : Fin 64) :
    (at17 m c (Proc.devRef .tc main_v103) : S1x64.Idx → EReal) (ix2 (0 : Fin 1) j)
      = ((m ((c : Thread nD τ).loc main_arg7)) : S3x64.Idx → EReal) (ix2 (2 : Fin 3) j) := by
  rw [scale_window3, arg7_at16, row_of_vector, Cert.ReferenceIdeal.RefPre.scale3]

set_option maxHeartbeats 8000000 in
/-- The shift window's array is the reference's third shift row, laid out as one row. -/
theorem shift_window3 (c : Dev nD) :
    at17 m c (Proc.devRef .tc main_v106)
      = shapeCast S1x64 (Cert.ReferenceIdeal.ReadP.val_main_v169 (F := Ideal) (at16 m c (Proc.devRef .tc main_arg8))) shapeCasts_S64_S1x64 := by
  unfold at17
  after_results
  rfl

/-- THE SHIFT THE THIRD NORMALISATION CALL READS, at column `j`: the third row of the shift table. -/
theorem shift_at17 (c : Dev nD) (j : Fin 64) :
    (at17 m c (Proc.devRef .tc main_v106) : S1x64.Idx → EReal) (ix2 (0 : Fin 1) j)
      = ((m ((c : Thread nD τ).loc main_arg8)) : S3x64.Idx → EReal) (ix2 (2 : Fin 3) j) := by
  rw [shift_window3, arg8_at16, row_of_vector, Cert.ReferenceIdeal.RefPre.shift3]

/-! ## What passes through the stretches unchanged -/

/-- The previous layer's output, which the third statistics call adds back, is still there when that call starts. -/
theorem residual_at15 (c : Dev nD) :
    at15 m c (Proc.devRef .tc main_v71) = at12 m c (Proc.devRef .tc main_v71) := by
  rw [← at15_eq m c, V15_of m (boundaryOuts m) c main_v71 (by decide),
    V14_of m (boundaryOuts m) c main_v71 (by decide),
    V13_of m (boundaryOuts m) c main_v71 (by decide), at12_eq]

/-- The rectified array the third statistics call wrote is still there when the normalisation call starts. -/
theorem rectified_at17 (c : Dev nD) :
    at17 m c (Proc.devRef .tc main_v94_0) = at16 m c (Proc.devRef .tc main_v94_0) := by
  rw [← at17_eq m c, V17_of m (boundaryOuts m) c main_v94_0 (by decide), at16_eq]

end Cert.Bridge

end
-- ==== Proof.KI.MatmulValue6.lean ====
import proofs.«123467_j2559800508646_1_alg».proof.Proof.KI.MatmulBody6
import Idealize.ShloMosaic.Lib.Pipeline.Value
import Idealize.ShloMosaic.Lib.ValueIdx
import Idealize.ShloMosaic.PureOps.Ideal.Laws

/-!
# The third matrix product, as one function of the arrays the call is entered with

Read at the extended reals. The call multiplies a `[50000, 64]` array (window 0) by a `[64, 64]` array (window 1),
5000 rows per grid point. At the extended reals the conversions to bf16 are the identity and the product unit's sum into
a zero accumulator is the plain sum, so the block a point stores is, entry `(p, q)`, the sum over `k` of the row
block's `(p, k)` times the weights' `(k, q)`. The row block at point `t` is rows `5000·t … 5000·t + 4999` of the
first array and the weights' block is the whole second array, so what point `t` writes back is block `t` of the
matrix product of the two arrays; the ten blocks cover the output (row `r` is in block `r / 5000`), hence after the
last point the output array is that matrix product.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The dot's operand indices at an output entry `(p, q)` and a contraction index: on the left operand the row is `p`,
    on the right operand the column is `q`; the other coordinate of each is the contraction index. -/
theorem product_lhs_row6 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem product_lhs_col6 (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
theorem product_rhs_row6 (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
theorem product_rhs_col6 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's stored value at entry `(p, q)` of the block: the sum over `k` of the row block's `(p, k)` times the
    weights' `(k, q)`. The conversions to bf16 are the identity on extended reals and the accumulator is zero. -/
theorem product_pay_apply6 (x : Vec Ideal S5000x64 .f32) (wt : Vec Ideal S64x64 .f32) (p : Fin 5000) (q : Fin 64) :
    k6_pay1 x wt (ix2 p q) = ∑ k : Fin 64, x (ix2 p k) * wt (ix2 k q) := by
  unfold k6_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact product_lhs_row6 _ _
      | ⟨1, _⟩ => exact (product_lhs_col6 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (product_rhs_row6 _ _).trans hk
      | ⟨1, _⟩ => exact product_rhs_col6 _ _)
  rw [el, er]
  rfl

variable (V : (c : Dev nD) → (b : Ref sig .tc) → Buf (Elt Ideal) ((c : Thread nD τ).loc b))

/-- The two arrays the call is entered with, on core `c`: the rows (window 0) and the weights (window 1). -/
abbrev rowsIn6 (c : Dev nD) : S50000x64.Idx → EReal := V c (Pipeline.arrRef spec6 0)
abbrev weightsIn6 (c : Dev nD) : S64x64.Idx → EReal := V c (Pipeline.arrRef spec6 1)

theorem zero_offsets6 : (![0, 0] : Fin 2 → Nat) = fun _ => 0 := funext fun a => by fin_cases a <;> rfl

/-- The output block after the body, entry by entry: the product of the two blocks the body was handed. -/
theorem product_block_apply6 (x : Vec Ideal S5000x64 .f32) (wt : Vec Ideal S64x64 .f32) (p : Fin 5000) (q : Fin 64) :
    productBlock6 x wt (ix2 p q) = ∑ k : Fin 64, x (ix2 p k) * wt (ix2 k q) := by
  unfold productBlock6
  rw [View.canon_unit_zero zero_offsets6]
  simp only [View.ld_unit_zero (S := S5000x64) zero_offsets6, View.ld_unit_zero (S := S64x64) zero_offsets6]
  exact product_pay_apply6 x wt p q

/-- The windows' block indices over the grid: the row blocks of the input and of the output move together, one block of
    5000 rows per point; the weights' block never moves. -/
theorem product_block_indices6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry `y` of the row block at point `t` is entry `(5000·t + y₀, y₁)` of the input array. -/
theorem rows_read6 (c : Dev nD) (t : Fin cfg6.N) (y : S5000x64.Idx) (i : S50000x64.Idx)
    (h0 : (i 0).val = 5000 * t.val + (y 0).val) (h1 : (i 1).val = (y 1).val) :
    blockAt6 V c 0 t y = rowsIn6 V c i := by
  obtain ⟨e0, e1, -, -, -, -⟩ := product_block_indices6 t
  unfold blockAt6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t 0 * 5000 + 1 * (y 0).val = (i 0).val; rw [e0, h0]; omega
  | ⟨1, _⟩ => show win6_0.index t 1 * 64 + 1 * (y 1).val = (i 1).val; rw [e1, h1]; omega

/-- The weights' block at any point is the whole weight array. -/
theorem weights_read6 (c : Dev nD) (t : Fin cfg6.N) (y : S64x64.Idx) :
    blockAt6 V c 1 t y = weightsIn6 V c y := by
  obtain ⟨-, -, e0, e1, -, -⟩ := product_block_indices6 t
  unfold blockAt6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t 0 * 64 + 1 * (y 0).val = (y 0).val; rw [e0]; omega
  | ⟨1, _⟩ => show win6_1.index t 1 * 64 + 1 * (y 1).val = (y 1).val; rw [e1]; omega

/-- What point `t` writes back is block `t` of the matrix product of the two arrays the call was entered with. -/
theorem product_flushed6 (c : Dev nD) (t : Fin cfg6.N) :
    (productData6 (F := Ideal) V c).flushed 2 t
      = ((cfg6.win 2).blk t).view.read (Elt Ideal) (fun i : S50000x64.Idx =>
          (∑ k : Fin 64, rowsIn6 V c (ix2 (i 0) k) * weightsIn6 V c (ix2 k (i 1)) : EReal)) := by
  show (cfg6.win 2).cut (grid6.coords t) ((productData6 V c).after 2 t) = _
  rw [productData6_after_out]
  obtain ⟨-, -, -, -, e0, e1⟩ := product_block_indices6 t
  funext j
  have hj0 : (j 0).val < 5000 := (j 0).isLt
  have hj1 : (j 1).val < 64 := (j 1).isLt
  have hj : (cfg6.win 2).xinj (grid6.coords t) j = ix2 (⟨(j 0).val, hj0⟩ : Fin 5000) (⟨(j 1).val, hj1⟩ : Fin 64) :=
    funext fun a => by match a with | ⟨0, _⟩ => rfl | ⟨1, _⟩ => rfl
  show productBlock6 (blockAt6 V c 0 t) (blockAt6 V c 1 t) ((cfg6.win 2).xinj (grid6.coords t) j)
    = ∑ k : Fin 64, rowsIn6 V c (ix2 ((((cfg6.win 2).blk t).view.emb j) 0) k)
        * weightsIn6 V c (ix2 k ((((cfg6.win 2).blk t).view.emb j) 1))
  rw [hj]
  refine (product_block_apply6 (blockAt6 V c 0 t) (blockAt6 V c 1 t) _ _).trans ?_
  refine Finset.sum_congr rfl fun k _ => ?_
  rw [rows_read6 V c t (ix2 (⟨(j 0).val, hj0⟩ : Fin 5000) k) (ix2 ((((cfg6.win 2).blk t).view.emb j) 0) k)
      (by show win6_2.index t 0 * 5000 + 1 * (j 0).val = 5000 * t.val + (j 0).val; rw [e0]; omega) rfl,
    weights_read6 V c t (ix2 k (⟨(j 1).val, hj1⟩ : Fin 64))]
  refine congrArg (fun z => rowsIn6 V c _ * weightsIn6 V c z) (funext fun a => Fin.ext ?_)
  match a with
  | ⟨0, _⟩ => rfl
  | ⟨1, _⟩ => show (j 1).val = win6_2.index t 1 * 64 + 1 * (j 1).val; rw [e1]; omega

/-- An index of the output array lies in point `t`'s block exactly when each coordinate lies in the block's range. -/
theorem product_mem_block6 (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v74).slice (win6_2.rect t)).set ↔ _
  rw [View.set_slice_whole, Rect.mem_set_unit]
  exact Iff.rfl

/-- The ten row blocks cover the output array: row `r` lies in the block of point `r / 5000`. -/
theorem product_cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  have ht : t.val = (i 0).val / 5000 := rfl
  obtain ⟨-, -, -, -, e0, e1⟩ := product_block_indices6 t
  refine ⟨t, flush6_2 t, ?_⟩
  rw [product_mem_block6]
  intro a
  match a with
  | ⟨0, _⟩ => show win6_2.index t 0 * 5000 ≤ (i 0).val ∧ (i 0).val < win6_2.index t 0 * 5000 + 5000; rw [e0, ht]; omega
  | ⟨1, _⟩ => show win6_2.index t 1 * 64 ≤ (i 1).val ∧ (i 1).val < win6_2.index t 1 * 64 + 64; rw [e1]; omega

/-- After all ten points the output array is the matrix product of the two arrays the call was entered with: the
    [50000, 64] array of window 0 times the [64, 64] array of window 1. -/
theorem product_final6 (c : Dev nD) :
    (productData6 (F := Ideal) V c).arrAt 2 cfg6.N
      = fun i : S50000x64.Idx =>
          (∑ k : Fin 64, rowsIn6 V c (ix2 (i 0) k) * weightsIn6 V c (ix2 k (i 1)) : EReal) :=
  (productData6 (F := Ideal) V c).arrAt_eq_of_cover 2 _ (fun t _ => product_flushed6 V c t) (product_cover6)

end Cert.KernelIdeal.Hand

end
-- ==== Proof.KI.StatsValue7.lean ====
import proofs.«123467_j2559800508646_1_alg».proof.Proof.KI.StatsData7
import Idealize.ShloMosaic.Lib.Pipeline.Value

/-!
# The third layer's activation and column statistics: the values

What a run's found pieces hold, read back: the output block is the activated block of the loaded inputs; a running
row after a point is the row it was handed plus the block's column sums (for the second row, of the squares); at the
first point the row it is handed is the zero row the body has just stored; at the last point each row output is a copy
of the running row just stored. So the two running rows after point `n` are an ordered chain of additions — the zero
row, plus block 0's column sums, plus block 1's, … — and the recursion over the cases' pieces is that chain.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem origin2_7 : (![0, 0] : Fin 2 → Nat) = fun _ => 0 := funext fun a => by fin_cases a <;> rfl
local notation "origin2" => origin2_7

/-! ## The cases' pieces, read back -/

/-- A middle point leaves the activated block in the output block. -/
theorem middle_block7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i) (x0 : Vec F S5000x64 .f32) (x1 : Vec F S1x64 .f32) (x2 : Vec F S1x1 .f32) (x3 : Vec F S5000x64 .f32) (s q : Vec F S1x64 .f32) :
    blockOfPieces7 (statsRun7_middle (F := F) c i arg1 harg1 arg2 harg2 arg3 harg3 arg4 harg4 arg5 harg5 arg6 harg6 arg7 harg7 arg8 harg8 arg9 harg9 hc0 hc1 x0 x1 x2 x3 s q).1 = k7_pay4 x0 x1 x2 x3 := by
  unfold blockOfPieces7
  rw [View.read_writes_eq_canon _ _ _ (fun y => View.cover_of_tiledL _ S5000x64.size (by sl_kernel_rfl) y)]
  unfold statsRun7_middle
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- A middle point leaves, in the first running row, the row it was handed plus the block's column sums. -/
theorem middle_sum7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i) (x0 : Vec F S5000x64 .f32) (x1 : Vec F S1x64 .f32) (x2 : Vec F S1x1 .f32) (x3 : Vec F S5000x64 .f32) (s q : Vec F S1x64 .f32) :
    rowOfPieces7 (statsRun7_middle (F := F) c i arg1 harg1 arg2 harg2 arg3 harg3 arg4 harg4 arg5 harg5 arg6 harg6 arg7 harg7 arg8 harg8 arg9 harg9 hc0 hc1 x0 x1 x2 x3 s q).2.1 = k7_pay5 x0 x1 x2 x3 s := by
  unfold rowOfPieces7
  rw [View.read_writes_eq_canon _ _ _ (fun y => View.cover_of_tiledL _ S1x64.size (by sl_kernel_rfl) y)]
  unfold statsRun7_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- A middle point leaves, in the second running row, the row it was handed plus the column sums of the block's squares. -/
theorem middle_sq7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : ¬atLast7 i) (x0 : Vec F S5000x64 .f32) (x1 : Vec F S1x64 .f32) (x2 : Vec F S1x1 .f32) (x3 : Vec F S5000x64 .f32) (s q : Vec F S1x64 .f32) :
    rowOfPieces7 (statsRun7_middle (F := F) c i arg1 harg1 arg2 harg2 arg3 harg3 arg4 harg4 arg5 harg5 arg6 harg6 arg7 harg7 arg8 harg8 arg9 harg9 hc0 hc1 x0 x1 x2 x3 s q).2.2.1 = k7_pay6 x0 x1 x2 x3 q := by
  unfold rowOfPieces7
  rw [View.read_writes_eq_canon _ _ _ (fun y => View.cover_of_tiledL _ S1x64.size (by sl_kernel_rfl) y)]
  unfold statsRun7_middle
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The first point leaves the activated block in the output block. -/
theorem first_block7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i) (x0 : Vec F S5000x64 .f32) (x1 : Vec F S1x64 .f32) (x2 : Vec F S1x1 .f32) (x3 : Vec F S5000x64 .f32) :
    blockOfPieces7 (statsRun7_first (F := F) c i arg1 harg1 arg2 harg2 arg3 harg3 arg4 harg4 arg5 harg5 arg6 harg6 arg7 harg7 arg8 harg8 arg9 harg9 hc0 hc1 x0 x1 x2 x3).1 = k7_pay4 x0 x1 x2 x3 := by
  unfold blockOfPieces7
  rw [View.read_writes_eq_canon _ _ _ (fun y => View.cover_of_tiledL _ S5000x64.size (by sl_kernel_rfl) y)]
  unfold statsRun7_first
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The first point leaves, in the first running row, the zero row plus the block's column sums. -/
theorem first_sum7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i) (x0 : Vec F S5000x64 .f32) (x1 : Vec F S1x64 .f32) (x2 : Vec F S1x1 .f32) (x3 : Vec F S5000x64 .f32) :
    rowOfPieces7 (statsRun7_first (F := F) c i arg1 harg1 arg2 harg2 arg3 harg3 arg4 harg4 arg5 harg5 arg6 harg6 arg7 harg7 arg8 harg8 arg9 harg9 hc0 hc1 x0 x1 x2 x3).2.1 = k7_pay5 x0 x1 x2 x3 (k7_pay2 (F := F)) := by
  unfold rowOfPieces7
  rw [View.read_writes_eq_canon _ _ _ (fun y => View.cover_of_tiledL _ S1x64.size (by sl_kernel_rfl) y)]
  unfold statsRun7_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The first point leaves, in the second running row, the zero row plus the column sums of the block's squares. -/
theorem first_sq7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : atFirst7 i) (hc1 : ¬atLast7 i) (x0 : Vec F S5000x64 .f32) (x1 : Vec F S1x64 .f32) (x2 : Vec F S1x1 .f32) (x3 : Vec F S5000x64 .f32) :
    rowOfPieces7 (statsRun7_first (F := F) c i arg1 harg1 arg2 harg2 arg3 harg3 arg4 harg4 arg5 harg5 arg6 harg6 arg7 harg7 arg8 harg8 arg9 harg9 hc0 hc1 x0 x1 x2 x3).2.2.1 = k7_pay6 x0 x1 x2 x3 (k7_pay3 (F := F)) := by
  unfold rowOfPieces7
  rw [View.read_writes_eq_canon _ _ _ (fun y => View.cover_of_tiledL _ S1x64.size (by sl_kernel_rfl) y)]
  unfold statsRun7_first
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The last point leaves the activated block in the output block. -/
theorem last_block7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    blockOfPieces7 (statsRun7_last (F := F) c i arg1 harg1 arg2 harg2 arg3 harg3 arg4 harg4 arg5 harg5 arg6 harg6 arg7 harg7 arg8 harg8 arg9 harg9 hc0 hc1 x0 x1 x2 x3 s q).1 = k7_pay4 x0 x1 x2 x3 := by
  unfold blockOfPieces7
  rw [View.read_writes_eq_canon _ _ _ (fun y => View.cover_of_tiledL _ S5000x64.size (by sl_kernel_rfl) y)]
  unfold statsRun7_last
  dsimp only
  try sl_unfold_words
  first
    | rw [View.canon_unit_zero origin2]
    | rw [View.canon_cons_unit_zero (S := S5000x64) origin2, View.readCov_unit_zero (S := S5000x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The last point copies the first running row, as just stored, into the first row output. -/
theorem last_out_sum7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.1 = k7_pay5 x0 x1 x2 x3 s := by
  unfold rowOfPieces7
  rw [View.read_writes_eq_canon _ _ _ (fun y => View.cover_of_tiledL _ S1x64.size (by sl_kernel_rfl) y)]
  unfold statsRun7_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The last point copies the second running row, as just stored, into the second row output. -/
theorem last_out_sq7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.2.1 = k7_pay6 x0 x1 x2 x3 q := by
  unfold rowOfPieces7
  rw [View.read_writes_eq_canon _ _ _ (fun y => View.cover_of_tiledL _ S1x64.size (by sl_kernel_rfl) y)]
  unfold statsRun7_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The last point leaves, in the first running row, the row it was handed plus the block's column sums. -/
theorem last_sum7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.2.2.1 = k7_pay5 x0 x1 x2 x3 s := by
  unfold rowOfPieces7
  rw [View.read_writes_eq_canon _ _ _ (fun y => View.cover_of_tiledL _ S1x64.size (by sl_kernel_rfl) y)]
  unfold statsRun7_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- The last point leaves, in the second running row, the row it was handed plus the column sums of the block's squares. -/
theorem last_sq7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.2.2.2.1 = k7_pay6 x0 x1 x2 x3 q := by
  unfold rowOfPieces7
  rw [View.read_writes_eq_canon _ _ _ (fun y => View.cover_of_tiledL _ S1x64.size (by sl_kernel_rfl) y)]
  unfold statsRun7_last
  dsimp only
  try sl_unfold_words
  first
    | rw [View.canon_unit_zero origin2]
    | rw [View.canon_cons_unit_zero (S := S1x64) origin2, View.readCov_unit_zero (S := S1x64) _ origin2]
  try rw [View.readCov_unit_zero (S := S1x64) _ origin2]
  simp only [View.readAt_eq_ld, harg1.read_unread, harg2.read_unread, harg3.read_unread, harg4.read_unread, harg5.read_unread, harg6.read_unread, harg7.read_unread, harg8.read_unread, harg9.read_unread, View.ld_unit_zero (S := S5000x64) origin2, View.ld_unit_zero (S := S1x64) origin2, View.ld_unit_zero (S := S1x1) origin2]
  try (unfold k7_pay1; simp only [shapeCast_self])

/-- At the last point each row output holds what the matching running row holds: it is a copy of it. -/
theorem last_out_is_sum7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.1 = rowOfPieces7 (statsRun7_last (F := F) c i arg1 harg1 arg2 harg2 arg3 harg3 arg4 harg4 arg5 harg5 arg6 harg6 arg7 harg7 arg8 harg8 arg9 harg9 hc0 hc1 x0 x1 x2 x3 s q).2.2.2.1 :=
  (last_out_sum7 c i arg1 harg1 arg2 harg2 arg3 harg3 arg4 harg4 arg5 harg5 arg6 harg6 arg7 harg7 arg8 harg8 arg9 harg9 hc0 hc1 x0 x1 x2 x3 s q).trans (last_sum7 c i arg1 harg1 arg2 harg2 arg3 harg3 arg4 harg4 arg5 harg5 arg6 harg6 arg7 harg7 arg8 harg8 arg9 harg9 hc0 hc1 x0 x1 x2 x3 s q).symm
theorem last_out_is_sq7 (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
    (hc0 : ¬atFirst7 i) (hc1 : atLast7 i) (x0 : Vec F S5000x64 .f32) (x1 : Vec F S1x64 .f32) (x2 : Vec F S1x1 .f32) (x3 : Vec F S5000x64 .f32) (s q : Vec F S1x64 .f32) :
    rowOfPieces7 (statsRun7_last (F := F) c i arg1 harg1 arg2 harg2 arg3 harg3 arg4 harg4 arg5 harg5 arg6 harg6 arg7 harg7 arg8 harg8 arg9 harg9 hc0 hc1 x0 x1 x2 x3 s q).2.2.1 = rowOfPieces7 (statsRun7_last (F := F) c i arg1 harg1 arg2 harg2 arg3 harg3 arg4 harg4 arg5 harg5 arg6 harg6 arg7 harg7 arg8 harg8 arg9 harg9 hc0 hc1 x0 x1 x2 x3 s q).2.2.2.2.1 :=
  (last_out_sq7 c i arg1 harg1 arg2 harg2 arg3 harg3 arg4 harg4 arg5 harg5 arg6 harg6 arg7 harg7 arg8 harg8 arg9 harg9 hc0 hc1 x0 x1 x2 x3 s q).trans (last_sq7 c i arg1 harg1 arg2 harg2 arg3 harg3 arg4 harg4 arg5 harg5 arg6 harg6 arg7 harg7 arg8 harg8 arg9 harg9 hc0 hc1 x0 x1 x2 x3 s q).symm

variable (V : (c : Dev nD) → (b : Ref sig .tc) → Buf (Elt F) ((c : Thread nD τ).loc b))

/-! ## The running rows are an ordered chain -/

/-- The two running rows after point `n`: from the zero rows, one block's column sums (resp. column sums of squares)
    added per point, in point order. -/
def runningRows7 (c : Dev nD) : (n : ℕ) → n < cfg7.N → Vec F S1x64 .f32 × Vec F S1x64 .f32
  | 0, h => (k7_pay5 (blockAt7 V c 0 ⟨0, h⟩) (blockAt7 V c 1 ⟨0, h⟩) (blockAt7 V c 2 ⟨0, h⟩) (blockAt7 V c 3 ⟨0, h⟩) (k7_pay2 (F := F)), k7_pay6 (blockAt7 V c 0 ⟨0, h⟩) (blockAt7 V c 1 ⟨0, h⟩) (blockAt7 V c 2 ⟨0, h⟩) (blockAt7 V c 3 ⟨0, h⟩) (k7_pay3 (F := F)))
  | n + 1, h =>
    (k7_pay5 (blockAt7 V c 0 ⟨n + 1, h⟩) (blockAt7 V c 1 ⟨n + 1, h⟩) (blockAt7 V c 2 ⟨n + 1, h⟩) (blockAt7 V c 3 ⟨n + 1, h⟩) (runningRows7 c n (Nat.lt_of_succ_lt h)).1,
     k7_pay6 (blockAt7 V c 0 ⟨n + 1, h⟩) (blockAt7 V c 1 ⟨n + 1, h⟩) (blockAt7 V c 2 ⟨n + 1, h⟩) (blockAt7 V c 3 ⟨n + 1, h⟩) (runningRows7 c n (Nat.lt_of_succ_lt h)).2)

set_option maxHeartbeats 2000000 in
/-- What the recursion over the cases' pieces keeps in the two running rows IS that chain: by induction on the point. -/
theorem stateAfter7_rows (c : Dev nD) : ∀ (n : ℕ) (h : n < cfg7.N),
    ((stateAfter7 V c n h).2.2.2.1, (stateAfter7 V c n h).2.2.2.2) = runningRows7 V c n h
  | 0, h => by
    have e := stateAfter7_first V c ⟨0, h⟩ rfl (by show ¬(0 : ℕ) % 10 = 9; decide)
    rw [show stateAfter7 V c 0 h = stateAfter7 V c (⟨0, h⟩ : Fin cfg7.N).val (⟨0, h⟩ : Fin cfg7.N).isLt from rfl, e]
    dsimp only
    refine Prod.ext ?_ ?_
    · show rowOfPieces7 _ = k7_pay5 (blockAt7 V c 0 ⟨0, h⟩) (blockAt7 V c 1 ⟨0, h⟩) (blockAt7 V c 2 ⟨0, h⟩) (blockAt7 V c 3 ⟨0, h⟩) (k7_pay2 (F := F))
      exact first_sum7 ..
    · show rowOfPieces7 _ = k7_pay6 (blockAt7 V c 0 ⟨0, h⟩) (blockAt7 V c 1 ⟨0, h⟩) (blockAt7 V c 2 ⟨0, h⟩) (blockAt7 V c 3 ⟨0, h⟩) (k7_pay3 (F := F))
      exact first_sq7 ..
  | n + 1, h => by
    have ih := stateAfter7_rows c n (Nat.lt_of_succ_lt h)
    have ih1 : (stateAfter7 V c n (Nat.lt_of_succ_lt h)).2.2.2.1 = (runningRows7 V c n (Nat.lt_of_succ_lt h)).1 := congrArg Prod.fst ih
    have ih2 : (stateAfter7 V c n (Nat.lt_of_succ_lt h)).2.2.2.2 = (runningRows7 V c n (Nat.lt_of_succ_lt h)).2 := congrArg Prod.snd ih
    by_cases h9 : (n + 1) % 10 = 9
    · have e := stateAfter7_last V c ⟨n + 1, h⟩ (Nat.succ_ne_zero n) h9
      rw [show stateAfter7 V c (n + 1) h = stateAfter7 V c (⟨n + 1, h⟩ : Fin cfg7.N).val (⟨n + 1, h⟩ : Fin cfg7.N).isLt from rfl, e]
      dsimp only
      refine Prod.ext ?_ ?_
      · show rowOfPieces7 _ = k7_pay5 (blockAt7 V c 0 ⟨n + 1, h⟩) (blockAt7 V c 1 ⟨n + 1, h⟩) (blockAt7 V c 2 ⟨n + 1, h⟩) (blockAt7 V c 3 ⟨n + 1, h⟩) (runningRows7 V c n (Nat.lt_of_succ_lt h)).1
        rw [← ih1]
        exact last_sum7 ..
      · show rowOfPieces7 _ = k7_pay6 (blockAt7 V c 0 ⟨n + 1, h⟩) (blockAt7 V c 1 ⟨n + 1, h⟩) (blockAt7 V c 2 ⟨n + 1, h⟩) (blockAt7 V c 3 ⟨n + 1, h⟩) (runningRows7 V c n (Nat.lt_of_succ_lt h)).2
        rw [← ih2]
        exact last_sq7 ..
    · have e := stateAfter7_middle V c ⟨n + 1, h⟩ (Nat.succ_ne_zero n) h9
      rw [show stateAfter7 V c (n + 1) h = stateAfter7 V c (⟨n + 1, h⟩ : Fin cfg7.N).val (⟨n + 1, h⟩ : Fin cfg7.N).isLt from rfl, e]
      dsimp only
      refine Prod.ext ?_ ?_
      · show rowOfPieces7 _ = k7_pay5 (blockAt7 V c 0 ⟨n + 1, h⟩) (blockAt7 V c 1 ⟨n + 1, h⟩) (blockAt7 V c 2 ⟨n + 1, h⟩) (blockAt7 V c 3 ⟨n + 1, h⟩) (runningRows7 V c n (Nat.lt_of_succ_lt h)).1
        rw [← ih1]
        exact middle_sum7 ..
      · show rowOfPieces7 _ = k7_pay6 (blockAt7 V c 0 ⟨n + 1, h⟩) (blockAt7 V c 1 ⟨n + 1, h⟩) (blockAt7 V c 2 ⟨n + 1, h⟩) (blockAt7 V c 3 ⟨n + 1, h⟩) (runningRows7 V c n (Nat.lt_of_succ_lt h)).2
        rw [← ih2]
        exact middle_sq7 ..

set_option maxHeartbeats 2000000 in
/-- After any point the output block holds the activated block of that point's inputs. -/
theorem stateAfter7_block (c : Dev nD) (t : Fin cfg7.N) :
    (stateAfter7 V c t.val t.isLt).1 = k7_pay4 (blockAt7 V c 0 t) (blockAt7 V c 1 t) (blockAt7 V c 2 t) (blockAt7 V c 3 t) := by
  by_cases h9 : t.val % 10 = 9
  · have hN : t.val < 10 := lt_of_lt_of_eq t.isLt (show cfg7.N = 10 from N_7)
    have h0 : t.val ≠ 0 := by omega
    rw [stateAfter7_last V c t h0 h9]; dsimp only; exact last_block7 ..
  · by_cases h0 : t.val = 0
    · rw [stateAfter7_first V c t h0 h9]; dsimp only; exact first_block7 ..
    · rw [stateAfter7_middle V c t h0 h9]; dsimp only; exact middle_block7 ..

set_option maxHeartbeats 2000000 in
/-- At the last point the two row outputs hold the two running rows after that point. -/
theorem stateAfter7_outs (c : Dev nD) (t : Fin cfg7.N) (h9 : t.val % 10 = 9) :
    ((stateAfter7 V c t.val t.isLt).2.1, (stateAfter7 V c t.val t.isLt).2.2.1) = runningRows7 V c t.val t.isLt := by
  have hN : t.val < 10 := lt_of_lt_of_eq t.isLt (show cfg7.N = 10 from N_7)
  have h0 : t.val ≠ 0 := by omega
  rw [← stateAfter7_rows V c t.val t.isLt, stateAfter7_last V c t h0 h9]
  dsimp only
  refine Prod.ext ?_ ?_
  · dsimp only
    exact last_out_is_sum7 (F := F) ..
  · dsimp only
    exact last_out_is_sq7 (F := F) ..

/-! ## The two row outputs' arrays after the call -/

/-- The column sums: the first running row after the last point, as the contents of the first row output's array. -/
abbrev sumArray7 (c : Dev nD) : Buf (Elt F) ((c : Thread nD τ).loc main_v94_1) :=
  (runningRows7 V c 9 (by rw [show cfg7.N = 10 from N_7]; decide)).1

/-- The one write-back of window 5, at the last point, writes that row: the block at index (0, 0) of a 1 × 64 array,
    read through zero offsets, is the array. -/
theorem sum_written_back7 (c : Dev nD) (t : Fin cfg7.N) (hf : (cfg7.win 5).flush t = true) :
    (statsData7 V c).flushed 5 t = ((cfg7.win 5).blk t).view.read (Elt F) (sumArray7 V c) := by
  have hN : cfg7.N = 10 := N_7
  have h9 : t.val = 9 := by have := (flush7_5 t).mp hf; have := t.isLt; omega
  obtain rfl : t = t7_9 := Fin.ext h9
  show (cfg7.win 5).cut (grid7.coords t7_9) ((statsData7 V c).after 5 t7_9) = _
  rw [statsData7_after5]
  have hrow := congrArg Prod.fst (stateAfter7_outs V c t7_9 (by decide))
  dsimp only at hrow
  rw [hrow]
  have hz' : (fun a => win7_5.index t7_9 a * main_v94_1.ty.shape.size a) = fun _ => 0 := funext fun a => by fin_cases a <;> decide
  exact (Memref.read_access_unit_zero (Elt F) main_v94_1 hz' (fun a => by rw [congrFun hz' a]; simp) (sumArray7 V c)).symm

/-- So after the call the array of window 5 holds that row: the last point's block covers it. -/
theorem sum_array7 (c : Dev nD) : (statsData7 V c).arrAt 5 cfg7.N = sumArray7 V c :=
  (statsData7 V c).arrAt_eq_of_cover 5 (sumArray7 V c) (sum_written_back7 V c) fun i =>
    ⟨t7_9, (flush7_5 t7_9).mpr (by decide), by
      show i ∈ ((View.whole main_v94_1).slice (win7_5.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_5.index t7_9 0 * win7_5.size 0 ≤ (i 0 : Nat)
          ∧ (i 0 : Nat) < win7_5.index t7_9 0 * win7_5.size 0 + win7_5.xsize (grid7.coords t7_9) 0
        rw [show win7_5.index t7_9 0 * win7_5.size 0 = 0 from by decide +kernel,
          show win7_5.xsize (grid7.coords t7_9) 0 = 1 from by decide +kernel]; omega
      | ⟨1, _⟩ =>
        show win7_5.index t7_9 1 * win7_5.size 1 ≤ (i 1 : Nat)
          ∧ (i 1 : Nat) < win7_5.index t7_9 1 * win7_5.size 1 + win7_5.xsize (grid7.coords t7_9) 1
        rw [show win7_5.index t7_9 1 * win7_5.size 1 = 0 from by decide +kernel,
          show win7_5.xsize (grid7.coords t7_9) 1 = 64 from by decide +kernel]; omega⟩

/-- The column sums of squares: the second running row after the last point, as the contents of the second row output's array. -/
abbrev sqArray7 (c : Dev nD) : Buf (Elt F) ((c : Thread nD τ).loc main_v94_2) :=
  (runningRows7 V c 9 (by rw [show cfg7.N = 10 from N_7]; decide)).2

/-- The one write-back of window 6, at the last point, writes that row: the block at index (0, 0) of a 1 × 64 array,
    read through zero offsets, is the array. -/
theorem sq_written_back7 (c : Dev nD) (t : Fin cfg7.N) (hf : (cfg7.win 6).flush t = true) :
    (statsData7 V c).flushed 6 t = ((cfg7.win 6).blk t).view.read (Elt F) (sqArray7 V c) := by
  have hN : cfg7.N = 10 := N_7
  have h9 : t.val = 9 := by have := (flush7_6 t).mp hf; have := t.isLt; omega
  obtain rfl : t = t7_9 := Fin.ext h9
  show (cfg7.win 6).cut (grid7.coords t7_9) ((statsData7 V c).after 6 t7_9) = _
  rw [statsData7_after6]
  have hrow := congrArg Prod.snd (stateAfter7_outs V c t7_9 (by decide))
  dsimp only at hrow
  rw [hrow]
  have hz' : (fun a => win7_6.index t7_9 a * main_v94_2.ty.shape.size a) = fun _ => 0 := funext fun a => by fin_cases a <;> decide
  exact (Memref.read_access_unit_zero (Elt F) main_v94_2 hz' (fun a => by rw [congrFun hz' a]; simp) (sqArray7 V c)).symm

/-- So after the call the array of window 6 holds that row: the last point's block covers it. -/
theorem sq_array7 (c : Dev nD) : (statsData7 V c).arrAt 6 cfg7.N = sqArray7 V c :=
  (statsData7 V c).arrAt_eq_of_cover 6 (sqArray7 V c) (sq_written_back7 V c) fun i =>
    ⟨t7_9, (flush7_6 t7_9).mpr (by decide), by
      show i ∈ ((View.whole main_v94_2).slice (win7_6.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_6.index t7_9 0 * win7_6.size 0 ≤ (i 0 : Nat)
          ∧ (i 0 : Nat) < win7_6.index t7_9 0 * win7_6.size 0 + win7_6.xsize (grid7.coords t7_9) 0
        rw [show win7_6.index t7_9 0 * win7_6.size 0 = 0 from by decide +kernel,
          show win7_6.xsize (grid7.coords t7_9) 0 = 1 from by decide +kernel]; omega
      | ⟨1, _⟩ =>
        show win7_6.index t7_9 1 * win7_6.size 1 ≤ (i 1 : Nat)
          ∧ (i 1 : Nat) < win7_6.index t7_9 1 * win7_6.size 1 + win7_6.xsize (grid7.coords t7_9) 1
        rw [show win7_6.index t7_9 1 * win7_6.size 1 = 0 from by decide +kernel,
          show win7_6.xsize (grid7.coords t7_9) 1 = 64 from by decide +kernel]; omega⟩

end Cert.KernelIdeal.Hand

end
-- ==== Proof.KI.StatsPay7.lean ====
import proofs.«123467_j2559800508646_1_alg».proof.Proof.Gen.KernelIdeal.Skeleton
import proofs.«123467_j2559800508646_1_alg».proof.Proof.KI.Leaky
import Idealize.ShloMosaic.Lib.Pipeline.Value
import Idealize.ShloMosaic.Lib.ValueIdx
import Idealize.ShloMosaic.Lib.ValueLayout
import Idealize.ShloMosaic.PureOps.Ideal.Laws

/-!
# The third layer's activation and column statistics: what the body stores, entry by entry

Read at the extended reals. The body adds the bias row to its block of 5000 rows, applies the activation with the slope
held in a `[1, 1]` array, adds the residual block and stores the result; it adds the column sums of the stored block, and of its
square, onto two running rows, which the first point starts from zero. A reduction over the rows from the zero word is
the plain sum over the 5000 rows, and the reshapes between `[64]` and `[1, 64]` only rename the index.
-/

noncomputable section

namespace Cert.KernelIdeal.Hand

open Cert.KernelIdeal Cert.KernelIdeal.Gen
open Idealize.ShloMosaic Idealize.ShloMosaic.TcCoe Idealize.SL.Sem
open Idealize.ShloMosaic.ValueIdx

/-- The comparison against the zero word followed by the selection between `t` and `a · t` is the activation. -/
theorem select_oge_zero7 (a t : EReal) :
    Scalar.select (FloatOps.cmpf (F := Ideal) (φ := .f32) .oge t (Ideal.ofBits .f32 0x00000000#32)) t (a * t) = leaky a t := by
  rw [Ideal.ofBits_zero_f32]
  unfold leaky
  by_cases h : (0 : EReal) ≤ t
  · rw [if_pos h]; simp [Scalar.select, Ideal.cmpf_def, Ideal.cmp, h]
  · rw [if_neg h]; simp [Scalar.select, Ideal.cmpf_def, Ideal.cmp, h]

/-- The block the body stores, entry `(p, q)`: the activation, with the slope the one entry of `a`, of the block's
    `(p, q)` plus the bias row's entry `q`, plus the residual block's `(p, q)`. -/
theorem act_pay_apply7 (x : Vec Ideal S5000x64 .f32) (b : Vec Ideal S1x64 .f32) (a : Vec Ideal S1x1 .f32) (r : Vec Ideal S5000x64 .f32)
    (p : Fin 5000) (q : Fin 64) :
    k7_pay4 x b a r (ix2 p q)
      = leaky (a (ix2 (0 : Fin 1) (0 : Fin 1))) (x (ix2 p q) + b (ix2 (0 : Fin 1) q)) + r (ix2 p q) := by
  unfold k7_pay4
  simp only [shapeCast_self]
  rw [addf_apply, select_apply, cmpf_apply, mulf_apply, addf_apply, broadcast_apply, broadcast_apply, broadcastTo_1b_ab_apply]
  refine congrArg (· + r (ix2 p q)) ?_
  rw [show extractAt ![0, 0] a inpos_S1x1_p0_0 = a (ix2 (0 : Fin 1) (0 : Fin 1)) from
    congrArg a (funext fun d => by match d with | ⟨0, _⟩ => rfl | ⟨1, _⟩ => rfl)]
  exact select_oge_zero7 _ _

/-- The two rows the first point starts the running rows from are zero. -/
theorem zero_sum_row7 (q : Fin 64) : k7_pay2 (F := Ideal) (ix2 (0 : Fin 1) q) = 0 := by
  unfold k7_pay2
  rw [shapeCast_self]
  exact Ideal.ofBits_zero_f32
theorem zero_sq_row7 (q : Fin 64) : k7_pay3 (F := Ideal) (ix2 (0 : Fin 1) q) = 0 := by
  unfold k7_pay3
  rw [shapeCast_self]
  exact Ideal.ofBits_zero_f32

/-- The reduction over the rows, from the zero word, of a 5000 × 64 block is at column `q` the sum of the column. -/
theorem column_sum7 (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  show ∑ p : Fin 5000, src (reduces_S5000x64_S64.lift (ix1 q) p) = _
  refine Finset.sum_congr rfl fun p _ => congrArg src (funext fun d => Fin.ext ?_)
  match d with
  | ⟨0, _⟩ => rfl
  | ⟨1, _⟩ => rfl

/-- The running sum row after a point: what it held plus the column sums of the stored block. -/
theorem sum_pay_apply7 (x : Vec Ideal S5000x64 .f32) (b : Vec Ideal S1x64 .f32) (a : Vec Ideal S1x1 .f32) (r : Vec Ideal S5000x64 .f32)
    (s : Vec Ideal S1x64 .f32) (q : Fin 64) :
    k7_pay5 x b a r s (ix2 (0 : Fin 1) q)
      = s (ix2 (0 : Fin 1) q) + ∑ p : Fin 5000, k7_pay4 x b a r (ix2 p q) := by
  unfold k7_pay5
  try simp only [shapeCast_self]
  rw [addf_apply, shapeCast_a_1a_apply]
  exact congrArg (s (ix2 (0 : Fin 1) q) + ·) (column_sum7 _ _ _ q)

/-- The running sum-of-squares row after a point: what it held plus the column sums of the squared stored block. -/
theorem sq_pay_apply7 (x : Vec Ideal S5000x64 .f32) (b : Vec Ideal S1x64 .f32) (a : Vec Ideal S1x1 .f32) (r : Vec Ideal S5000x64 .f32)
    (s : Vec Ideal S1x64 .f32) (q : Fin 64) :
    k7_pay6 x b a r s (ix2 (0 : Fin 1) q)
      = s (ix2 (0 : Fin 1) q)
        + ∑ p : Fin 5000, k7_pay4 x b a r (ix2 p q) * k7_pay4 x b a r (ix2 p q) := by
  unfold k7_pay6
  try simp only [shapeCast_self]
  rw [addf_apply, shapeCast_a_1a_apply]
  exact congrArg (s (ix2 (0 : Fin 1) q) + ·) (column_sum7 _ _ _ q)

/-- The running sum-of-squares row goes back into its buffer as it is. -/
theorem sq_row_stored7 (v : FVec Ideal S1x64 .f32) : k7_pay1 v = v := by
  unfold k7_pay1
  exact shapeCast_self _ _

end Cert.KernelIdeal.Hand

end
-- ==== Proof.KI.StatsSums7.lean ====
import proofs.«123467_j2559800508646_1_alg».proof.Proof.KI.StatsValue7
import proofs.«123467_j2559800508646_1_alg».proof.Proof.KI.StatsPay7
import proofs.«123467_j2559800508646_1_alg».proof.Proof.LibBlockSums

/-!
# The column statistics are sums over all the rows

Over the extended reals a running row, read at a column, starts at zero and gains one block's column sum per point; so
after the last point it holds the sum over the ten blocks of the block's column sum (and, for the second row, of the
column sum of squares). No entry needs to be finite for this: only associativity of the sum and `0 + x = x` are used.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (V : (c : Dev nD) → (b : Ref sig .tc) → Buf (Elt Ideal) ((c : Thread nD τ).loc b))

theorem ten_points7 : cfg7.N = 9 + 1 := N_7

/-- The activated entry at row `p` of block `t`, column `q`. -/
abbrev blockEntry7 (c : Dev nD) (t : Fin (9 + 1)) (p : Fin 5000) (q : Fin 64) : EReal :=
  k7_pay4 (F := Ideal) (blockAt7 V c 0 ⟨t.val, lt_of_lt_of_eq t.isLt (ten_points7).symm⟩) (blockAt7 V c 1 ⟨t.val, lt_of_lt_of_eq t.isLt (ten_points7).symm⟩) (blockAt7 V c 2 ⟨t.val, lt_of_lt_of_eq t.isLt (ten_points7).symm⟩) (blockAt7 V c 3 ⟨t.val, lt_of_lt_of_eq t.isLt (ten_points7).symm⟩) (ix2 p q)

/-- The first running row after the last point, at column `q`: the sum over the ten blocks of the block's column sum. -/
theorem sum_row_total7 (c : Dev nD) (q : Fin 64) :
    (runningRows7 (F := Ideal) V c 9 (by rw [ten_points7]; decide)).1 (ix2 (0 : Fin 1) q)
      = ∑ t : Fin (9 + 1), ∑ p : Fin 5000, blockEntry7 V c t p q := by
  have key := Cert.BlockSums.running_total_last (T := 9)
    (S := fun t : Fin (9 + 1) => ∑ p : Fin 5000, blockEntry7 V c t p q)
    (c := fun n (h : n < 9 + 1) => (runningRows7 (F := Ideal) V c n (lt_of_lt_of_eq h (ten_points7).symm)).1 (ix2 (0 : Fin 1) q))
    (z := k7_pay2 (F := Ideal) (ix2 (0 : Fin 1) q)) (zero_sum_row7 q)
    (fun h => sum_pay_apply7 _ _ _ _ _ q)
    (fun n h => sum_pay_apply7 _ _ _ _ _ q)
  exact key

/-- The second running row after the last point, at column `q`: the sum over the ten blocks of the block's column sum of
    squares. -/
theorem sq_row_total7 (c : Dev nD) (q : Fin 64) :
    (runningRows7 (F := Ideal) V c 9 (by rw [ten_points7]; decide)).2 (ix2 (0 : Fin 1) q)
      = ∑ t : Fin (9 + 1), ∑ p : Fin 5000, blockEntry7 V c t p q * blockEntry7 V c t p q := by
  have key := Cert.BlockSums.running_total_last (T := 9)
    (S := fun t : Fin (9 + 1) => ∑ p : Fin 5000, blockEntry7 V c t p q * blockEntry7 V c t p q)
    (c := fun n (h : n < 9 + 1) => (runningRows7 (F := Ideal) V c n (lt_of_lt_of_eq h (ten_points7).symm)).2 (ix2 (0 : Fin 1) q))
    (z := k7_pay3 (F := Ideal) (ix2 (0 : Fin 1) q)) (zero_sq_row7 q)
    (fun h => sq_pay_apply7 _ _ _ _ _ q)
    (fun n h => sq_pay_apply7 _ _ _ _ _ q)
  exact key

end Cert.KernelIdeal.Hand

end
-- ==== Proof.KI.StatsBlockValue7.lean ====
import proofs.«123467_j2559800508646_1_alg».proof.Proof.KI.StatsValue7
import proofs.«123467_j2559800508646_1_alg».proof.Proof.KI.StatsPay7
import Idealize.ShloMosaic.Lib.Pipeline.Value
import Idealize.ShloMosaic.Lib.ValueIdx

/-!
# The third layer's activated array, as one function of the arrays the call is entered with

Read at the extended reals. After any point the output block holds the activated block of that point's inputs: the
activation, with the slope the one entry of a `[1, 1]` array (window 2), of the aggregated block (window 0) plus the
bias row (window 1), plus the residual block (window 3). The aggregated and residual blocks at point `t` are rows `5000·t … 5000·t + 4999` of
their arrays, the bias row's and the slope's blocks are their whole arrays, so what point `t` writes back is block `t` of one
function of those arrays; the ten blocks cover the output (row `r` is in block `r / 5000`), hence after the last point
the output array is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the call is entered with, on core `c`: the aggregated messages (window 0), the bias row (window 1), the
    slope (window 2) and the layer's input (window 3). -/
abbrev aggIn7 (c : Dev nD) : S50000x64.Idx → EReal := V c (Pipeline.arrRef spec7 0)
abbrev biasIn7 (c : Dev nD) : S1x64.Idx → EReal := V c (Pipeline.arrRef spec7 1)
abbrev slopeIn7 (c : Dev nD) : S1x1.Idx → EReal := V c (Pipeline.arrRef spec7 2)
abbrev residIn7 (c : Dev nD) : S50000x64.Idx → EReal := V c (Pipeline.arrRef spec7 3)

/-- The windows' block indices over the grid: the row blocks of the two inputs and of the output move together, one block
    of 5000 rows per point; the bias row's and the slope's blocks never move. -/
theorem stats_block_indices7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Entry `y` of the aggregated block at point `t` is entry `(5000·t + y₀, y₁)` of the aggregated array. -/
theorem agg_read7 (c : Dev nD) (t : Fin cfg7.N) (y : S5000x64.Idx) (i : S50000x64.Idx)
    (h0 : (i 0).val = 5000 * t.val + (y 0).val) (h1 : (i 1).val = (y 1).val) :
    blockAt7 V c 0 t y = aggIn7 V c i := by
  have e := stats_block_indices7 t
  unfold blockAt7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t 0 * 5000 + 1 * (y 0).val = (i 0).val; rw [e.1, h0]; omega
  | ⟨1, _⟩ => show win7_0.index t 1 * 64 + 1 * (y 1).val = (i 1).val; rw [e.2.1, h1]; omega

/-- Entry `y` of the residual block at point `t` is entry `(5000·t + y₀, y₁)` of the layer's input. -/
theorem resid_read7 (c : Dev nD) (t : Fin cfg7.N) (y : S5000x64.Idx) (i : S50000x64.Idx)
    (h0 : (i 0).val = 5000 * t.val + (y 0).val) (h1 : (i 1).val = (y 1).val) :
    blockAt7 V c 3 t y = residIn7 V c i := by
  have e := stats_block_indices7 t
  unfold blockAt7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t 0 * 5000 + 1 * (y 0).val = (i 0).val; rw [e.2.2.2.2.2.2.1, h0]; omega
  | ⟨1, _⟩ => show win7_3.index t 1 * 64 + 1 * (y 1).val = (i 1).val; rw [e.2.2.2.2.2.2.2.1, h1]; omega

/-- The bias row's block at any point is the whole bias row. -/
theorem bias_read7 (c : Dev nD) (t : Fin cfg7.N) (y : S1x64.Idx) :
    blockAt7 V c 1 t y = biasIn7 V c y := by
  have e := stats_block_indices7 t
  unfold blockAt7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t 0 * 1 + 1 * (y 0).val = (y 0).val; rw [e.2.2.1]; omega
  | ⟨1, _⟩ => show win7_1.index t 1 * 64 + 1 * (y 1).val = (y 1).val; rw [e.2.2.2.1]; omega

/-- The slope's block at any point is the whole one-entry array. -/
theorem slope_read7 (c : Dev nD) (t : Fin cfg7.N) (y : S1x1.Idx) :
    blockAt7 V c 2 t y = slopeIn7 V c y := by
  have e := stats_block_indices7 t
  unfold blockAt7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t 0 * 1 + 1 * (y 0).val = (y 0).val; rw [e.2.2.2.2.1]; omega
  | ⟨1, _⟩ => show win7_2.index t 1 * 1 + 1 * (y 1).val = (y 1).val; rw [e.2.2.2.2.2.1]; omega

/-- What point `t` writes back is block `t` of the activated array: one function of the arrays the call was entered
    with. -/
theorem act_flushed7 (c : Dev nD) (t : Fin cfg7.N) :
    (statsData7 (F := Ideal) V c).flushed 4 t
      = ((cfg7.win 4).blk t).view.read (Elt Ideal) (fun i : S50000x64.Idx =>
          (leaky (slopeIn7 V c (ix2 (0 : Fin 1) (0 : Fin 1))) (aggIn7 V c i + biasIn7 V c (ix2 (0 : Fin 1) (i 1)))
            + residIn7 V c i : EReal)) := by
  show (cfg7.win 4).cut (grid7.coords t) ((statsData7 V c).after 4 t) = _
  rw [statsData7_after4, stateAfter7_block]
  have e := stats_block_indices7 t
  have e0 : win7_4.index t (0 : Fin 2) = t.val := e.2.2.2.2.2.2.2.2.1
  have e1 : win7_4.index t (1 : Fin 2) = 0 := e.2.2.2.2.2.2.2.2.2
  funext j
  have hj0 : (j 0).val < 5000 := (j 0).isLt
  have hj1 : (j 1).val < 64 := (j 1).isLt
  have hj : (cfg7.win 4).xinj (grid7.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg7.win 4).blk t).view.emb j) 1) :=
    funext fun a => Fin.ext (by
      match a with
      | ⟨0, _⟩ => rfl
      | ⟨1, _⟩ => show (j 1).val = win7_4.index t 1 * 64 + 1 * (j 1).val; rw [e1]; omega)
  show k7_pay4 (blockAt7 V c 0 t) (blockAt7 V c 1 t) (blockAt7 V c 2 t) (blockAt7 V c 3 t) ((cfg7.win 4).xinj (grid7.coords t) j)
    = (fun i : S50000x64.Idx =>
          (leaky (slopeIn7 V c (ix2 (0 : Fin 1) (0 : Fin 1))) (aggIn7 V c i + biasIn7 V c (ix2 (0 : Fin 1) (i 1)))
            + residIn7 V c i : EReal)) (((cfg7.win 4).blk t).view.emb j)
  rw [hj]
  refine (act_pay_apply7 (blockAt7 V c 0 t) (blockAt7 V c 1 t) (blockAt7 V c 2 t) (blockAt7 V c 3 t) _ _).trans ?_
  rw [agg_read7 V c t (ix2 (⟨(j 0).val, hj0⟩ : Fin 5000) (⟨(j 1).val, hj1⟩ : Fin 64)) (((cfg7.win 4).blk t).view.emb j)
      (by show win7_4.index t 0 * 5000 + 1 * (j 0).val = 5000 * t.val + (j 0).val; rw [e0]; omega)
      (by show win7_4.index t 1 * 64 + 1 * (j 1).val = (j 1).val; rw [e1]; omega),
    resid_read7 V c t (ix2 (⟨(j 0).val, hj0⟩ : Fin 5000) (⟨(j 1).val, hj1⟩ : Fin 64)) (((cfg7.win 4).blk t).view.emb j)
      (by show win7_4.index t 0 * 5000 + 1 * (j 0).val = 5000 * t.val + (j 0).val; rw [e0]; omega)
      (by show win7_4.index t 1 * 64 + 1 * (j 1).val = (j 1).val; rw [e1]; omega),
    bias_read7 V c t, slope_read7 V c t, hq]
  rfl

/-- An index of the output array lies in point `t`'s block exactly when each coordinate lies in the block's range. -/
theorem act_mem_block7 (t : Fin cfg7.N) (i : S50000x64.Idx) :
    i ∈ ((cfg7.win 4).blk t).view.set ↔ ∀ a : Fin 2, win7_4.index t a * S5000x64.size a ≤ (i a).val
      ∧ (i a).val < win7_4.index t a * S5000x64.size a + S5000x64.size a := by
  show i ∈ ((View.whole main_v94_0).slice (win7_4.rect t)).set ↔ _
  rw [View.set_slice_whole, Rect.mem_set_unit]
  exact Iff.rfl

/-- The ten row blocks cover the output array: row `r` lies in the block of point `r / 5000`. -/
theorem act_cover7 (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 10 := N_7
  let t : Fin cfg7.N := ⟨(i 0).val / 5000, by rw [hN]; omega⟩
  have ht : t.val = (i 0).val / 5000 := rfl
  have e := stats_block_indices7 t
  have e0 : win7_4.index t (0 : Fin 2) = t.val := e.2.2.2.2.2.2.2.2.1
  have e1 : win7_4.index t (1 : Fin 2) = 0 := e.2.2.2.2.2.2.2.2.2
  refine ⟨t, flush7_4 t, ?_⟩
  rw [act_mem_block7]
  intro a
  match a with
  | ⟨0, _⟩ => show win7_4.index t 0 * 5000 ≤ (i 0).val ∧ (i 0).val < win7_4.index t 0 * 5000 + 5000; rw [e0, ht]; omega
  | ⟨1, _⟩ => show win7_4.index t 1 * 64 ≤ (i 1).val ∧ (i 1).val < win7_4.index t 1 * 64 + 64; rw [e1]; omega

/-- After all ten points the output block's array is the activated array: at `(r, j)`, the activation of the aggregated
    entry plus the bias row's entry `j`, plus the layer's input at `(r, j)`. -/
theorem act_final7 (c : Dev nD) :
    (statsData7 (F := Ideal) V c).arrAt 4 cfg7.N
      = fun i : S50000x64.Idx =>
          (leaky (slopeIn7 V c (ix2 (0 : Fin 1) (0 : Fin 1))) (aggIn7 V c i + biasIn7 V c (ix2 (0 : Fin 1) (i 1)))
            + residIn7 V c i : EReal) :=
  (statsData7 (F := Ideal) V c).arrAt_eq_of_cover 4 _ (fun t _ => act_flushed7 V c t) (act_cover7)

/-- The activated array as a named function of the arrays the call is entered with. -/
abbrev activated7 (c : Dev nD) : S50000x64.Idx → EReal := fun i =>
  (leaky (slopeIn7 V c (ix2 (0 : Fin 1) (0 : Fin 1))) (aggIn7 V c i + biasIn7 V c (ix2 (0 : Fin 1) (i 1)))
            + residIn7 V c i : EReal)

/-- The same, with the function named. -/
theorem act_array7 (c : Dev nD) : (statsData7 (F := Ideal) V c).arrAt 4 cfg7.N = activated7 V c :=
  act_final7 V c

end Cert.KernelIdeal.Hand

end
-- ==== Proof.KI.StatsTotals7.lean ====
import proofs.«123467_j2559800508646_1_alg».proof.Proof.KI.StatsSums7
import proofs.«123467_j2559800508646_1_alg».proof.Proof.KI.StatsBlockValue7
import proofs.«123467_j2559800508646_1_alg».proof.Proof.LibBlockSums

/-!
# The third layer's column statistics are sums over all the rows of the activated array

Read at the extended reals. The running rows after the last point hold, column by column, the sum over the ten blocks of
the block's column sum (and of its column sum of squares). Entry `p` of block `t` of the stored block is entry
`5000·t + p` of the activated array, and ten blocks of 5000 rows are the 50000 rows; so the two row outputs hold, at
column `q`, the sum over all 50000 rows of the activated array's column `q`, and of its square.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem rows_in_blocks7 : (9 + 1) * 5000 = 50000 := by norm_num

/-- Entry `p` of the block stored at point `t` is the activated array's entry at row `5000·t + p`. -/
theorem block_entry7 (c : Dev nD) (t : Fin (9 + 1)) (p : Fin 5000) (q : Fin 64) (R : Fin 50000)
    (hR : R.val = p.val + 5000 * t.val) :
    blockEntry7 V c t p q = activated7 V c (ix2 R q) := by
  show k7_pay4 (F := Ideal) (blockAt7 V c 0 ⟨t.val, lt_of_lt_of_eq t.isLt (ten_points7).symm⟩) (blockAt7 V c 1 ⟨t.val, lt_of_lt_of_eq t.isLt (ten_points7).symm⟩) (blockAt7 V c 2 ⟨t.val, lt_of_lt_of_eq t.isLt (ten_points7).symm⟩) (blockAt7 V c 3 ⟨t.val, lt_of_lt_of_eq t.isLt (ten_points7).symm⟩) (ix2 p q) = _
  refine (act_pay_apply7 _ _ _ _ p q).trans ?_
  rw [agg_read7 V c ⟨t.val, lt_of_lt_of_eq t.isLt (ten_points7).symm⟩ (ix2 p q) (ix2 R q) (by show R.val = 5000 * t.val + p.val; omega) rfl,
    resid_read7 V c ⟨t.val, lt_of_lt_of_eq t.isLt (ten_points7).symm⟩ (ix2 p q) (ix2 R q) (by show R.val = 5000 * t.val + p.val; omega) rfl,
    bias_read7 V c ⟨t.val, lt_of_lt_of_eq t.isLt (ten_points7).symm⟩, slope_read7 V c ⟨t.val, lt_of_lt_of_eq t.isLt (ten_points7).symm⟩]

/-- A sum over the ten blocks of a sum over the block's 5000 rows, of a function of the row's place in the array, is the
    sum over the 50000 rows. -/
theorem sum_over_blocks7 (f : Fin 50000 → EReal) (g : Fin (9 + 1) → Fin 5000 → EReal)
    (hg : ∀ (t : Fin (9 + 1)) (p : Fin 5000) (R : Fin 50000), R.val = p.val + 5000 * t.val → g t p = f R) :
    ∑ t : Fin (9 + 1), ∑ p : Fin 5000, g t p = ∑ R : Fin 50000, f R := by
  rw [← Equiv.sum_comp (finCongr rows_in_blocks7) f,
    ← Cert.BlockSums.sum_blocks (T := 9 + 1) (B := 5000) (fun R => f (finCongr rows_in_blocks7 R))]
  refine Finset.sum_congr rfl fun t _ => Finset.sum_congr rfl fun p _ => ?_
  exact hg t p _ (Cert.BlockSums.position t p)

/-- The first running row after the last point, at column `q`: the sum of the activated array's column `q`. -/
theorem sum_row_all7 (c : Dev nD) (q : Fin 64) :
    (runningRows7 (F := Ideal) V c 9 (by rw [ten_points7]; decide)).1 (ix2 (0 : Fin 1) q)
      = ∑ R : Fin 50000, activated7 V c (ix2 R q) :=
  (sum_row_total7 V c q).trans
    (sum_over_blocks7 (fun R => activated7 V c (ix2 R q)) (fun t p => blockEntry7 V c t p q)
      fun t p R hR => block_entry7 V c t p q R hR)

/-- The second running row after the last point, at column `q`: the sum of the squares of the activated array's column
    `q`. -/
theorem sq_row_all7 (c : Dev nD) (q : Fin 64) :
    (runningRows7 (F := Ideal) V c 9 (by rw [ten_points7]; decide)).2 (ix2 (0 : Fin 1) q)
      = ∑ R : Fin 50000, activated7 V c (ix2 R q) * activated7 V c (ix2 R q) :=
  (sq_row_total7 V c q).trans
    (sum_over_blocks7 (fun R => activated7 V c (ix2 R q) * activated7 V c (ix2 R q))
      (fun t p => blockEntry7 V c t p q * blockEntry7 V c t p q)
      fun t p R hR => by rw [block_entry7 V c t p q R hR])

/-- After the call the first row output holds, at column `j`, the sum over all 50000 rows of the activated array's
    column `j`. -/
theorem sum_total7 (c : Dev nD) :
    (statsData7 (F := Ideal) V c).arrAt 5 cfg7.N
      = fun j : S1x64.Idx => (∑ R : Fin 50000, activated7 V c (ix2 R (j 1)) : EReal) := by
  rw [sum_array7]
  funext j
  obtain ⟨u, q, rfl⟩ : ∃ (u : Fin 1) (q : Fin 64), j = ix2 u q := ⟨j 0, j 1, eq_ix2 j⟩
  obtain rfl : u = 0 := Subsingleton.elim _ _
  exact sum_row_all7 V c q

/-- After the call the second row output holds, at column `j`, the sum over all 50000 rows of the square of the
    activated array's column `j`. -/
theorem sq_total7 (c : Dev nD) :
    (statsData7 (F := Ideal) V c).arrAt 6 cfg7.N
      = fun j : S1x64.Idx =>
          (∑ R : Fin 50000, activated7 V c (ix2 R (j 1)) * activated7 V c (ix2 R (j 1)) : EReal) := by
  rw [sq_array7]
  funext j
  obtain ⟨u, q, rfl⟩ : ∃ (u : Fin 1) (q : Fin 64), j = ix2 u q := ⟨j 0, j 1, eq_ix2 j⟩
  obtain rfl : u = 0 := Subsingleton.elim _ _
  exact sq_row_all7 V c q

end Cert.KernelIdeal.Hand

end
-- ==== Proof.KI.NormValue8.lean ====
import proofs.«123467_j2559800508646_1_alg».proof.Proof.KI.NormBody8
import Idealize.ShloMosaic.Lib.Pipeline.Value
import Idealize.ShloMosaic.Lib.ValueIdx
import Idealize.ShloMosaic.Lib.ValueLayout
import Idealize.ShloMosaic.PureOps.Ideal.Laws

/-!
# The third batch normalisation, as one function of the arrays the call is entered with

Read at the extended reals. The call normalises a `[50000, 64]` array of activations (window 0) column by column against
four rows of 64 entries — the column means (window 1), the column variances (window 2), the scale (window 3) and the
shift (window 4) — 5000 rows per grid point. The block a point stores is, entry `(p, q)`,
`scale q · (block (p, q) − mean q) · rsqrt (variance q + ε) + shift q`, the products taken in that order, with `ε` the
float whose word is `0x3727C5AC`. The row block at point `t` is rows `5000·t … 5000·t + 4999` of the activations and each
of the four rows' blocks is the whole row, so what point `t` writes back is block `t` of one function of the five
arrays; the ten blocks cover the output (row `r` is in block `r / 5000`), hence after the last point the output array
is that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The body's stored value at entry `(p, q)` of the block: the scale's entry `q` times the difference of the block's
    `(p, q)` and the mean's entry `q`, times the reciprocal square root of the variance's entry `q` plus `ε`, plus the
    shift's entry `q` — in that order of association. The four rows are broadcast over the block's rows. -/
theorem norm_pay_apply8 (vr ga : Vec Ideal S1x64 .f32) (x : Vec Ideal S5000x64 .f32) (mu be : Vec Ideal S1x64 .f32)
    (p : Fin 5000) (q : Fin 64) :
    k8_pay1 vr ga x mu be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold k8_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The five arrays the call is entered with, on core `c`: the activations (window 0), the column means (window 1),
    the column variances (window 2), the scale (window 3) and the shift (window 4). -/
abbrev actIn8 (c : Dev nD) : S50000x64.Idx → EReal := V c (Pipeline.arrRef spec8 0)
abbrev meanIn8 (c : Dev nD) : S1x64.Idx → EReal := V c (Pipeline.arrRef spec8 1)
abbrev varIn8 (c : Dev nD) : S1x64.Idx → EReal := V c (Pipeline.arrRef spec8 2)
abbrev gammaIn8 (c : Dev nD) : S1x64.Idx → EReal := V c (Pipeline.arrRef spec8 3)
abbrev betaIn8 (c : Dev nD) : S1x64.Idx → EReal := V c (Pipeline.arrRef spec8 4)

theorem norm_zero_offsets8 : (![0, 0] : Fin 2 → Nat) = fun _ => 0 := funext fun a => by fin_cases a <;> rfl

/-- The output block after the body, entry by entry. -/
theorem norm_block_apply8 (x : Vec Ideal S5000x64 .f32) (mu vr ga be : Vec Ideal S1x64 .f32) (p : Fin 5000) (q : Fin 64) :
    normalisedBlock8 x mu vr ga be (ix2 p q)
      = ga (ix2 (0 : Fin 1) q) * (x (ix2 p q) - mu (ix2 (0 : Fin 1) q))
          * Ideal.rsqrt (vr (ix2 (0 : Fin 1) q) + Ideal.ofBits .f32 0x3727C5AC#32) + be (ix2 (0 : Fin 1) q) := by
  unfold normalisedBlock8
  rw [View.canon_unit_zero norm_zero_offsets8]
  simp only [View.ld_unit_zero (S := S5000x64) norm_zero_offsets8, View.ld_unit_zero (S := S1x64) norm_zero_offsets8]
  exact norm_pay_apply8 vr ga x mu be p q

/-- The windows' block indices over the grid: the row blocks of the input and of the output move together, one block of
    5000 rows per point; the four rows' blocks never move. -/
theorem norm_block_indices8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Entry `y` of the row block at point `t` is entry `(5000·t + y₀, y₁)` of the activations. -/
theorem act_read8 (c : Dev nD) (t : Fin cfg8.N) (y : S5000x64.Idx) (i : S50000x64.Idx)
    (h0 : (i 0).val = 5000 * t.val + (y 0).val) (h1 : (i 1).val = (y 1).val) :
    blockAt8 V c 0 t y = actIn8 V c i := by
  obtain ⟨e0, e1, -⟩ := norm_block_indices8 t
  unfold blockAt8
  rw [View.read_apply]
  show V c (Pipeline.arrRef spec8 0) _ = V c (Pipeline.arrRef spec8 0) _
  refine congrArg (V c (Pipeline.arrRef spec8 0)) (funext fun a => Fin.ext ?_)
  match a with
  | ⟨0, _⟩ => show win8_0.index t 0 * 5000 + 1 * (y 0).val = (i 0).val; rw [e0, h0]; omega
  | ⟨1, _⟩ => show win8_0.index t 1 * 64 + 1 * (y 1).val = (i 1).val; rw [e1, h1]; omega

/-- The mean row's block at any point is the whole mean row. -/
theorem mean_read8 (c : Dev nD) (t : Fin cfg8.N) (y : S1x64.Idx) :
    blockAt8 V c 1 t y = meanIn8 V c y := by
  have e := norm_block_indices8 t
  unfold blockAt8
  rw [View.read_apply]
  show V c (Pipeline.arrRef spec8 1) _ = V c (Pipeline.arrRef spec8 1) _
  refine congrArg (V c (Pipeline.arrRef spec8 1)) (funext fun a => Fin.ext ?_)
  match a with
  | ⟨0, _⟩ => show win8_1.index t 0 * 1 + 1 * (y 0).val = (y 0).val; rw [e.2.2.1]; omega
  | ⟨1, _⟩ => show win8_1.index t 1 * 64 + 1 * (y 1).val = (y 1).val; rw [e.2.2.2.1]; omega

/-- The variance row's block at any point is the whole variance row. -/
theorem variance_read8 (c : Dev nD) (t : Fin cfg8.N) (y : S1x64.Idx) :
    blockAt8 V c 2 t y = varIn8 V c y := by
  have e := norm_block_indices8 t
  unfold blockAt8
  rw [View.read_apply]
  show V c (Pipeline.arrRef spec8 2) _ = V c (Pipeline.arrRef spec8 2) _
  refine congrArg (V c (Pipeline.arrRef spec8 2)) (funext fun a => Fin.ext ?_)
  match a with
  | ⟨0, _⟩ => show win8_2.index t 0 * 1 + 1 * (y 0).val = (y 0).val; rw [e.2.2.2.2.1]; omega
  | ⟨1, _⟩ => show win8_2.index t 1 * 64 + 1 * (y 1).val = (y 1).val; rw [e.2.2.2.2.2.1]; omega

/-- The gamma row's block at any point is the whole gamma row. -/
theorem gamma_read8 (c : Dev nD) (t : Fin cfg8.N) (y : S1x64.Idx) :
    blockAt8 V c 3 t y = gammaIn8 V c y := by
  have e := norm_block_indices8 t
  unfold blockAt8
  rw [View.read_apply]
  show V c (Pipeline.arrRef spec8 3) _ = V c (Pipeline.arrRef spec8 3) _
  refine congrArg (V c (Pipeline.arrRef spec8 3)) (funext fun a => Fin.ext ?_)
  match a with
  | ⟨0, _⟩ => show win8_3.index t 0 * 1 + 1 * (y 0).val = (y 0).val; rw [e.2.2.2.2.2.2.1]; omega
  | ⟨1, _⟩ => show win8_3.index t 1 * 64 + 1 * (y 1).val = (y 1).val; rw [e.2.2.2.2.2.2.2.1]; omega

/-- The beta row's block at any point is the whole beta row. -/
theorem beta_read8 (c : Dev nD) (t : Fin cfg8.N) (y : S1x64.Idx) :
    blockAt8 V c 4 t y = betaIn8 V c y := by
  have e := norm_block_indices8 t
  unfold blockAt8
  rw [View.read_apply]
  show V c (Pipeline.arrRef spec8 4) _ = V c (Pipeline.arrRef spec8 4) _
  refine congrArg (V c (Pipeline.arrRef spec8 4)) (funext fun a => Fin.ext ?_)
  match a with
  | ⟨0, _⟩ => show win8_4.index t 0 * 1 + 1 * (y 0).val = (y 0).val; rw [e.2.2.2.2.2.2.2.2.1]; omega
  | ⟨1, _⟩ => show win8_4.index t 1 * 64 + 1 * (y 1).val = (y 1).val; rw [e.2.2.2.2.2.2.2.2.2.1]; omega

/-- What point `t` writes back is block `t` of the normalised activations: one function of the five arrays the call
    was entered with. -/
theorem norm_flushed8 (c : Dev nD) (t : Fin cfg8.N) :
    (normData8 (F := Ideal) V c).flushed 5 t
      = ((cfg8.win 5).blk t).view.read (Elt Ideal) (fun i : S50000x64.Idx =>
          (gammaIn8 V c (ix2 (0 : Fin 1) (i 1)) * (actIn8 V c i - meanIn8 V c (ix2 (0 : Fin 1) (i 1)))
            * Ideal.rsqrt (varIn8 V c (ix2 (0 : Fin 1) (i 1)) + Ideal.ofBits .f32 0x3727C5AC#32)
          + betaIn8 V c (ix2 (0 : Fin 1) (i 1)) : EReal)) := by
  show (cfg8.win 5).cut (grid8.coords t) ((normData8 V c).after 5 t) = _
  rw [normData8_after_out]
  have e := norm_block_indices8 t
  have e0 : win8_5.index t (0 : Fin 2) = t.val := e.2.2.2.2.2.2.2.2.2.2.1
  have e1 : win8_5.index t (1 : Fin 2) = 0 := e.2.2.2.2.2.2.2.2.2.2.2
  funext j
  have hj0 : (j 0).val < 5000 := (j 0).isLt
  have hj1 : (j 1).val < 64 := (j 1).isLt
  have hj : (cfg8.win 5).xinj (grid8.coords t) j = ix2 (⟨(j 0).val, hj0⟩ : Fin 5000) (⟨(j 1).val, hj1⟩ : Fin 64) :=
    funext fun a => by match a with | ⟨0, _⟩ => rfl | ⟨1, _⟩ => rfl
  have hq : (ix2 (0 : Fin 1) (⟨(j 1).val, hj1⟩ : Fin 64) : S1x64.Idx)
      = ix2 (0 : Fin 1) ((((cfg8.win 5).blk t).view.emb j) 1) :=
    funext fun a => Fin.ext (by
      match a with
      | ⟨0, _⟩ => rfl
      | ⟨1, _⟩ => show (j 1).val = win8_5.index t 1 * 64 + 1 * (j 1).val; rw [e1]; omega)
  show normalisedBlock8 (blockAt8 V c 0 t) (blockAt8 V c 1 t) (blockAt8 V c 2 t) (blockAt8 V c 3 t)
      (blockAt8 V c 4 t) ((cfg8.win 5).xinj (grid8.coords t) j)
    = (fun i : S50000x64.Idx =>
          (gammaIn8 V c (ix2 (0 : Fin 1) (i 1)) * (actIn8 V c i - meanIn8 V c (ix2 (0 : Fin 1) (i 1)))
            * Ideal.rsqrt (varIn8 V c (ix2 (0 : Fin 1) (i 1)) + Ideal.ofBits .f32 0x3727C5AC#32)
          + betaIn8 V c (ix2 (0 : Fin 1) (i 1)) : EReal)) (((cfg8.win 5).blk t).view.emb j)
  rw [hj]
  refine (norm_block_apply8 (blockAt8 V c 0 t) (blockAt8 V c 1 t) (blockAt8 V c 2 t) (blockAt8 V c 3 t)
    (blockAt8 V c 4 t) _ _).trans ?_
  rw [act_read8 V c t (ix2 (⟨(j 0).val, hj0⟩ : Fin 5000) (⟨(j 1).val, hj1⟩ : Fin 64)) (((cfg8.win 5).blk t).view.emb j)
      (by show win8_5.index t 0 * 5000 + 1 * (j 0).val = 5000 * t.val + (j 0).val; rw [e0]; omega)
      (by show win8_5.index t 1 * 64 + 1 * (j 1).val = (j 1).val; rw [e1]; omega),
    mean_read8 V c t, variance_read8 V c t, gamma_read8 V c t, beta_read8 V c t, hq]
  rfl

/-- An index of the output array lies in point `t`'s block exactly when each coordinate lies in the block's range. -/
theorem norm_mem_block8 (t : Fin cfg8.N) (i : S50000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole main_v107).slice (win8_5.rect t)).set ↔ _
  rw [View.set_slice_whole, Rect.mem_set_unit]
  exact Iff.rfl

/-- The ten row blocks cover the output array: row `r` lies in the block of point `r / 5000`. -/
theorem norm_cover8 (i : S50000x64.Idx) :
    ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 10 := N_8
  let t : Fin cfg8.N := ⟨(i 0).val / 5000, by rw [hN]; omega⟩
  have ht : t.val = (i 0).val / 5000 := rfl
  have e := norm_block_indices8 t
  have e0 : win8_5.index t (0 : Fin 2) = t.val := e.2.2.2.2.2.2.2.2.2.2.1
  have e1 : win8_5.index t (1 : Fin 2) = 0 := e.2.2.2.2.2.2.2.2.2.2.2
  refine ⟨t, flush8_5 t, ?_⟩
  rw [norm_mem_block8]
  intro a
  match a with
  | ⟨0, _⟩ => show win8_5.index t 0 * 5000 ≤ (i 0).val ∧ (i 0).val < win8_5.index t 0 * 5000 + 5000; rw [e0, ht]; omega
  | ⟨1, _⟩ => show win8_5.index t 1 * 64 ≤ (i 1).val ∧ (i 1).val < win8_5.index t 1 * 64 + 64; rw [e1]; omega

/-- After all ten points the output array is the normalised activations: at `(r, j)`, the scale's entry `j` times the
    difference of the activation and the mean's entry `j`, times the reciprocal square root of the variance's entry `j`
    plus `ε`, plus the shift's entry `j`. -/
theorem norm_final8 (c : Dev nD) :
    (normData8 (F := Ideal) V c).arrAt 5 cfg8.N
      = fun i : S50000x64.Idx =>
          (gammaIn8 V c (ix2 (0 : Fin 1) (i 1)) * (actIn8 V c i - meanIn8 V c (ix2 (0 : Fin 1) (i 1)))
            * Ideal.rsqrt (varIn8 V c (ix2 (0 : Fin 1) (i 1)) + Ideal.ofBits .f32 0x3727C5AC#32)
          + betaIn8 V c (ix2 (0 : Fin 1) (i 1)) : EReal) :=
  (normData8 (F := Ideal) V c).arrAt_eq_of_cover 5 _ (fun t _ => norm_flushed8 V c t) (norm_cover8)

end Cert.KernelIdeal.Hand

end
-- ==== Proof.Bridge.Layer3.lean ====
import proofs.«123467_j2559800508646_1_alg».proof.Proof.Bridge.Layer2
import proofs.«123467_j2559800508646_1_alg».proof.Proof.Bridge.HostWindows3
import proofs.«123467_j2559800508646_1_alg».proof.Proof.KI.MatmulValue6
import proofs.«123467_j2559800508646_1_alg».proof.Proof.KI.StatsTotals7
import proofs.«123467_j2559800508646_1_alg».proof.Proof.KI.NormValue8
import proofs.«123467_j2559800508646_1_alg».proof.Proof.Ref.Real

/-!
# Layer three of the kernel program is the reference's

The same four links as in layer one, with layer two's output in two places: it is the rows of this layer's product,
and it is added back after the rectifier. Both programs do the same, so with layer two's outputs equal the product,
the aggregate, the array the layer normalises and the layer's output are equal in turn. The float arguments' finiteness
enters through the previous layer's output and through the moment form of the reference's normalisation.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.LibExtReal (IsReal)
open scoped BigOperators

variable (m : (ℓ : Loc nD τ sig) → Buf (Elt Ideal) ℓ)

/-! ## The product -/

theorem product_at14 (c : Dev nD) : at14 m c (Proc.devRef .tc main_v74) = (data6 m c).arrAt 2 cfg6.N := by
  unfold at14
  exact Function.update_self _ _ _

set_option maxHeartbeats 2000000 in
/-- THE PRODUCT OF LAYER THREE IS THE REFERENCE'S. -/
theorem product3 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at14 m c (Proc.devRef .tc main_v74) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [product_at14]
  show (productData6 (F := Ideal) (fun c b => at13 m c b) c).arrAt 2 cfg6.N = _
  rw [product_final6]
  funext i
  obtain ⟨r, j, rfl⟩ : ∃ (r : Fin 50000) (j : Fin 64), i = ix2 r j := ⟨i 0, i 1, eq_ix2 i⟩
  rw [Cert.ReferenceIdeal.RefPre.xw3]
  refine Finset.sum_congr rfl fun k _ => ?_
  have hr : rowsIn6 (fun c b => at13 m c b) c (ix2 r k)
      = (Cert.ReferenceIdeal.ReadP.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S50000x64.Idx → EReal) (ix2 r k) :=
    congrFun ((output_at13 m c).trans (out2 m c h0 h3 h4 h5 h6 h7 h8)) _
  have hw : weightsIn6 (fun c b => at13 m c b) c (ix2 k j) = (m ((c : Thread nD τ).loc main_arg4) : S3x64x64.Idx → EReal) (ix3 (2 : Fin 3) k j) :=
    (congrFun (weights_at13 m c) _).trans (Cert.ReferenceIdeal.RefPre.weight3 _ k j)
  show rowsIn6 (fun c b => at13 m c b) c (ix2 r k) * weightsIn6 (fun c b => at13 m c b) c (ix2 k j) = _
  rw [hr, hw]

/-! ## The aggregate -/

/-- THE AGGREGATE OF LAYER THREE IS THE REFERENCE'S. -/
theorem aggregate3 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at15 m c (Proc.devRef .tc main_v87) = Cert.ReferenceIdeal.ReadP.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [aggregated3, product3 m c h0 h3 h4 h5 h6 h7 h8]
  exact (Cert.ReferenceIdeal.RefPre.agg3 _ _ _ _ _ _ _ _ _).symm

/-! ## The array the layer normalises -/

theorem rectified_at16 (c : Dev nD) : at16 m c (Proc.devRef .tc main_v94_0) = (data7 m c).arrAt 4 cfg7.N := by
  unfold at16
  rw [Function.update_of_ne (StableHlo.devRef_ne_of_ne (show (main_v94_0 : Ref sig .tc) ≠ main_v94_2 from by decide)),
    Function.update_of_ne (StableHlo.devRef_ne_of_ne (show (main_v94_0 : Ref sig .tc) ≠ main_v94_1 from by decide)),
    Function.update_self]

/-- The array layer three normalises, as the reference names it. -/
abbrev pre3 (c : Dev nD) : S50000x64.Idx → EReal :=
  Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

set_option maxHeartbeats 2000000 in
/-- The statistics call's whole-array function is that array. -/
theorem activated7_is_pre3 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    activated7 (fun c b => at15 m c b) c = pre3 m c := by
  funext i
  obtain ⟨r, j, rfl⟩ : ∃ (r : Fin 50000) (j : Fin 64), i = ix2 r j := ⟨i 0, i 1, eq_ix2 i⟩
  show _ = Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r j)
  rw [Cert.ReferenceIdeal.RefPre.pre3_apply, ← leaky_same]
  have hs : slopeIn7 (fun c b => at15 m c b) c (ix2 (0 : Fin 1) (0 : Fin 1)) = (m ((c : Thread nD τ).loc main_arg6) : S3.Idx → EReal) (ix1 (2 : Fin 3)) :=
    slope_at15 m c
  have hb : biasIn7 (fun c b => at15 m c b) c (ix2 (0 : Fin 1) j) = (m ((c : Thread nD τ).loc main_arg5) : S3x64.Idx → EReal) (ix2 (2 : Fin 3) j) :=
    bias_at15 m c j
  have ha : aggIn7 (fun c b => at15 m c b) c (ix2 r j)
      = Cert.ReferenceIdeal.RefPre.agg (F := Ideal) (Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (m ((c : Thread nD τ).loc main_arg1)) (m ((c : Thread nD τ).loc main_arg2)) (m ((c : Thread nD τ).loc main_arg3)) (ix2 r j) :=
    congrFun ((aggregate3 m c h0 h3 h4 h5 h6 h7 h8).trans (Cert.ReferenceIdeal.RefPre.agg3 _ _ _ _ _ _ _ _ _)) _
  have hres : residIn7 (fun c b => at15 m c b) c (ix2 r j)
      = (Cert.ReferenceIdeal.ReadP.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S50000x64.Idx → EReal) (ix2 r j) :=
    congrFun ((residual_at15 m c).trans (out2 m c h0 h3 h4 h5 h6 h7 h8)) _
  show Cert.KernelIdeal.Hand.leaky (slopeIn7 (fun c b => at15 m c b) c (ix2 (0 : Fin 1) (0 : Fin 1)))
      (aggIn7 (fun c b => at15 m c b) c (ix2 r j) + biasIn7 (fun c b => at15 m c b) c (ix2 (0 : Fin 1) j)) + residIn7 (fun c b => at15 m c b) c (ix2 r j) = _
  rw [hs, hb, ha, hres]

/-- THE ARRAY LAYER THREE NORMALISES IS THE REFERENCE'S. -/
theorem rectified3 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at16 m c (Proc.devRef .tc main_v94_0) = pre3 m c := by
  rw [rectified_at16]
  show (statsData7 (F := Ideal) (fun c b => at15 m c b) c).arrAt 4 cfg7.N = _
  rw [act_array7, activated7_is_pre3 m c h0 h3 h4 h5 h6 h7 h8]

/-! ## The column statistics -/

theorem sums_at16 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) (j : Fin 64) :
    (at16 m c (Proc.devRef .tc main_v94_1) : S1x64.Idx → EReal) (ix2 (0 : Fin 1) j) = ∑ R : Fin 50000, pre3 m c (ix2 R j) := by
  have e : at16 m c (Proc.devRef .tc main_v94_1) = (data7 m c).arrAt 5 cfg7.N := by
    unfold at16
    rw [Function.update_of_ne (StableHlo.devRef_ne_of_ne (show (main_v94_1 : Ref sig .tc) ≠ main_v94_2 from by decide)), Function.update_self]
  rw [e]
  show ((statsData7 (F := Ideal) (fun c b => at15 m c b) c).arrAt 5 cfg7.N : S1x64.Idx → EReal) (ix2 (0 : Fin 1) j) = _
  rw [sum_total7, activated7_is_pre3 m c h0 h3 h4 h5 h6 h7 h8]

theorem squares_at16 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) (j : Fin 64) :
    (at16 m c (Proc.devRef .tc main_v94_2) : S1x64.Idx → EReal) (ix2 (0 : Fin 1) j) = ∑ R : Fin 50000, pre3 m c (ix2 R j) * pre3 m c (ix2 R j) := by
  have e : at16 m c (Proc.devRef .tc main_v94_2) = (data7 m c).arrAt 6 cfg7.N := by
    unfold at16
    rw [Function.update_self]
  rw [e]
  show ((statsData7 (F := Ideal) (fun c b => at15 m c b) c).arrAt 6 cfg7.N : S1x64.Idx → EReal) (ix2 (0 : Fin 1) j) = _
  rw [sq_total7, activated7_is_pre3 m c h0 h3 h4 h5 h6 h7 h8]

/-! ## The output -/

theorem output_at18 (c : Dev nD) : at18 m c (Proc.devRef .tc main_v107) = (data8 m c).arrAt 5 cfg8.N := by
  unfold at18
  exact Function.update_self _ _ _

set_option maxHeartbeats 4000000 in
/-- THE OUTPUT OF LAYER THREE IS THE REFERENCE'S, when the seven float arguments are real. -/
theorem out3 (c : Dev nD)
    (h0 : ∀ i, IsReal ((m ((c : Thread nD τ).loc main_arg0) : S50000x64.Idx → EReal) i))
    (h3 : ∀ i, IsReal ((m ((c : Thread nD τ).loc main_arg3) : S1000000.Idx → EReal) i))
    (h4 : ∀ i, IsReal ((m ((c : Thread nD τ).loc main_arg4) : S3x64x64.Idx → EReal) i))
    (h5 : ∀ i, IsReal ((m ((c : Thread nD τ).loc main_arg5) : S3x64.Idx → EReal) i))
    (h6 : ∀ i, IsReal ((m ((c : Thread nD τ).loc main_arg6) : S3.Idx → EReal) i))
    (h7 : ∀ i, IsReal ((m ((c : Thread nD τ).loc main_arg7) : S3x64.Idx → EReal) i))
    (h8 : ∀ i, IsReal ((m ((c : Thread nD τ).loc main_arg8) : S3x64.Idx → EReal) i)) :
    at18 m c (Proc.devRef .tc main_v107) = Cert.ReferenceIdeal.ReadP.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [output_at18]
  show (normData8 (F := Ideal) (fun c b => at17 m c b) c).arrAt 5 cfg8.N = _
  rw [norm_final8]
  funext i
  obtain ⟨r, j, rfl⟩ : ∃ (r : Fin 50000) (j : Fin 64), i = ix2 r j := ⟨i 0, i 1, eq_ix2 i⟩
  rw [Cert.ReferenceIdeal.RefReal.out3_apply_moments _ _ _ _ _ _ _ _ _ h0 h3 h4 h5 h6 h7 h8 r j]
  have hact : actIn8 (fun c b => at17 m c b) c (ix2 r j) = pre3 m c (ix2 r j) :=
    congrFun ((rectified_at17 m c).trans (rectified3 m c h0 h3 h4 h5 h6 h7 h8)) _
  have hmean : meanIn8 (fun c b => at17 m c b) c (ix2 (0 : Fin 1) j) = Cert.ReferenceIdeal.RefNorm.meanAt (pre3 m c) j := by
    show (at17 m c (Proc.devRef .tc main_v96) : S1x64.Idx → EReal) (ix2 (0 : Fin 1) j) = _
    rw [mean_at17, sums_at16 m c h0 h3 h4 h5 h6 h7 h8]
    rfl
  have hvar : varIn8 (fun c b => at17 m c b) c (ix2 (0 : Fin 1) j)
      = Ideal.div (∑ k : Fin 50000, pre3 m c (ix2 k j) * pre3 m c (ix2 k j)) (Ideal.ofBits .f32 0x47435000#32)
        - Cert.ReferenceIdeal.RefNorm.meanAt (pre3 m c) j * Cert.ReferenceIdeal.RefNorm.meanAt (pre3 m c) j := by
    show (at17 m c (Proc.devRef .tc main_v100) : S1x64.Idx → EReal) (ix2 (0 : Fin 1) j) = _
    rw [variance_at17, sums_at16 m c h0 h3 h4 h5 h6 h7 h8, squares_at16 m c h0 h3 h4 h5 h6 h7 h8]
    rfl
  have hγ : gammaIn8 (fun c b => at17 m c b) c (ix2 (0 : Fin 1) j) = (m ((c : Thread nD τ).loc main_arg7) : S3x64.Idx → EReal) (ix2 (2 : Fin 3) j) :=
    scale_at17 m c j
  have hβ : betaIn8 (fun c b => at17 m c b) c (ix2 (0 : Fin 1) j) = (m ((c : Thread nD τ).loc main_arg8) : S3x64.Idx → EReal) (ix2 (2 : Fin 3) j) :=
    shift_at17 m c j
  show gammaIn8 (fun c b => at17 m c b) c (ix2 (0 : Fin 1) j) * (actIn8 (fun c b => at17 m c b) c (ix2 r j) - meanIn8 (fun c b => at17 m c b) c (ix2 (0 : Fin 1) j))
      * Ideal.rsqrt (varIn8 (fun c b => at17 m c b) c (ix2 (0 : Fin 1) j) + Ideal.ofBits .f32 0x3727C5AC#32)
      + betaIn8 (fun c b => at17 m c b) c (ix2 (0 : Fin 1) j) = _
  rw [hγ, hβ, hact, hmean, hvar]

end Cert.Bridge

end
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.Ref.Finite.lean ====
import proofs.«123467_j2559800508646_1_alg».proof.Pre_finite_inputs
import proofs.«123467_j2559800508646_1_alg».proof.Proof.LibExtReal
import proofs.«123467_j2559800508646_1_alg».proof.Proof.LibFiniteReal

/-! # The precondition read as "every float argument holds real numbers"

The precondition is the `and`, over the seven float arguments, of "every entry's absolute value is below `+∞`". Taken
apart, it says of each float argument that all its entries are real numbers; it says nothing of the two index arrays. -/

noncomputable section

namespace Cert.ReferenceIdeal.RefFinite

open Idealize.ShloMosaic Cert.LibExtReal Cert.Pre_finite_inputs

variable [Cert.Pre_finite_inputs.Facts]

/-- THE PRECONDITION MAKES EVERY FLOAT ARGUMENT AN ARRAY OF REAL NUMBERS. -/
theorem args_isReal (x0 : FVec Ideal S50000x64 .f32) (x1 x2 : IVec S1000000 32) (x3 : FVec Ideal S1000000 .f32)
    (x4 : FVec Ideal S3x64x64 .f32) (x5 : FVec Ideal S3x64 .f32) (x6 : FVec Ideal S3 .f32) (x7 x8 : FVec Ideal S3x64 .f32)
    (h : Cert.Pre_finite_inputs.fn (F := Ideal) x0 x1 x2 x3 x4 x5 x6 x7 x8 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) := by
  have h0 := congrFun h ValueIdx.ix0
  dsimp only [Cert.Pre_finite_inputs.fn, Cert.Pre_finite_inputs.fn_part1] at h0
  obtain ⟨h07, a8⟩ := Cert.Finite.and_split h0
  obtain ⟨h06, a7⟩ := Cert.Finite.and_split h07
  obtain ⟨h05, a6⟩ := Cert.Finite.and_split h06
  obtain ⟨h04, a5⟩ := Cert.Finite.and_split h05
  obtain ⟨h03, a4⟩ := Cert.Finite.and_split h04
  obtain ⟨a0, a3⟩ := Cert.Finite.and_split h03
  exact ⟨Cert.Finite.real_of_all _ _ _ x0 a0, Cert.Finite.real_of_all _ _ _ x3 a3, Cert.Finite.real_of_all _ _ _ x4 a4,
    Cert.Finite.real_of_all _ _ _ x5 a5, Cert.Finite.real_of_all _ _ _ x6 a6, Cert.Finite.real_of_all _ _ _ x7 a7,
    Cert.Finite.real_of_all _ _ _ x8 a8⟩

end Cert.ReferenceIdeal.RefFinite

end
-- ==== Proof.Bridge.Results.lean ====
import proofs.«123467_j2559800508646_1_alg».proof.Proof.Bridge.Layer3
import proofs.«123467_j2559800508646_1_alg».proof.Proof.Ref.Finite
import proofs.«123467_j2559800508646_1_alg».proof.Defs
import proofs.«123467_j2559800508646_1_alg».proof.Proof.Gen.Pre_finite_inputs

/-!
# The two programs' results agree

Under the precondition every float argument is finite, that is, real at every entry. Then layer by layer the kernel
program's arrays are the reference's, and after the third layer the kernel program's result array — the last boundary's
contents at it — is the reference's result term of the same nine arguments.
-/

noncomputable section

namespace Cert.Bridge

open Idealize.ShloMosaic Idealize.ShloMosaic.TcCoe Idealize.SL.Sem

/-- For a memory whose float arguments are finite, the reference's result term of the nine arguments is the kernel
    program's last boundary at the result array. -/
theorem results_agree
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    Cert.ReferenceIdeal.ReadP.val_main_v172 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
      = Cert.KernelIdeal.Hand.at18 m c (Proc.devRef .tc Cert.KernelIdeal.main_v107) := by
  obtain ⟨h0, h3, h4, h5, h6, h7, h8⟩ := Cert.ReferenceIdeal.RefFinite.args_isReal _ _ _ _ _ _ _ _ _ (hpre c)
  exact (out3 m c h0 h3 h4 h5 h6 h7 h8).symm

end Cert.Bridge

end
-- ==== Proof.Ref.RefRun.lean ====
import proofs.«123467_j2559800508646_1_alg».proof.Proof.Ref.Read

/-! The reference's run with its result read as the last stage of the operation-by-operation reading.

The reference is a straight line of two hundred array operations: three layers of a matrix product, a gather of rows
by edge source, a weighted scatter-add by edge destination, a bias, a leaky rectifier (with the previous layer's
output added back in layers two and three) and a normalisation by the batch mean and variance. Every weakly fair
execution of it terminates without a fault; the result array then holds the composition of those operations applied
to the nine argument arrays as they stood at launch, and the argument arrays are unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result array is the last stage, a function of the nine argument arrays at launch, and the arguments are kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172) =
        ReadP.val_main_v172 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (ReadP.val_main_v172_eq m c), (h c).2⟩) (ValueP.run m ρ)

/-- The arguments are kept: the run with the result forgotten. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2) (ValueP.run m ρ)

end Cert.ReferenceIdeal.RefRun

end
-- ==== Proof.lean ====
/-
  The claim of this certificate is five statements about three programs: a three-layer graph-convolution stack written
  as nine kernel calls among host operations, read at the word level and read over the extended reals, and the same
  network in plain array operations.

  * Each of the three programs runs to the end from any memory, nothing faulting, and leaves its nine argument arrays as
    launched. For the two kernel programs this is proved call by call: each call's body is run symbolically at every grid
    point, the calls are chained through the buffers' contents between them, and the host operations in between write
    only their own results. The statistics calls keep two rows of running totals across their ten grid points; their
    invariant names those rows' contents point by point. For the reference it is its run, one host operation after
    another.
  * The kernel's idealization rewrote nothing, so there is nothing to preserve.
  * Read over the extended reals, the two programs compute the same array. They differ in one place: the kernel takes a
    column's variance as the mean of squares minus the squared mean, the reference as the mean of squared deviations.
    On real entries these agree (Proof/LibBatchVariance.lean), and every entry stays real through the three layers when
    the float inputs are finite, whatever the integer indices hold, because a gathered row is always a row of the
    operand. Layer by layer the kernel program's arrays are the reference's (Proof/Bridge/): the product, the edge
    aggregate, the array the layer normalises, its column sums over all 50000 rows, and the normalised output; after the
    third layer the kernel program's result array is the reference's result term (`Bridge.results_agree`).
-/
import proofs.«123467_j2559800508646_1_alg».proof.Defs
import proofs.«123467_j2559800508646_1_alg».proof.Proof.Gen.Kernel
import proofs.«123467_j2559800508646_1_alg».proof.Proof.Gen.KernelIdeal
import proofs.«123467_j2559800508646_1_alg».proof.Proof.Gen.ReferenceIdeal
import proofs.«123467_j2559800508646_1_alg».proof.Proof.Gen.Pre_finite_inputs
import proofs.«123467_j2559800508646_1_alg».proof.Proof.K.Runs
import proofs.«123467_j2559800508646_1_alg».proof.Proof.KI.Runs
import proofs.«123467_j2559800508646_1_alg».proof.Proof.KI.Result
import proofs.«123467_j2559800508646_1_alg».proof.Proof.Bridge.Results
import proofs.«123467_j2559800508646_1_alg».proof.Proof.Ref.RefRun
import proofs.«123467_j2559800508646_1_alg».proof.Proof.LibBatchVariance
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel :=
  fun m ρ _ => Cert.Kernel.Hand.runs_and_keeps_arguments (F := Bits) m ρ

/-- The kernel program read over the extended reals runs and keeps its arguments. -/
theorem frame_kernel_ideal : Cert.frame_KernelIdeal :=
  fun m ρ _ => Cert.KernelIdeal.Hand.runs_and_keeps_arguments (F := Ideal) m ρ

/-- The reference runs and keeps its arguments. -/
theorem frame_reference : Cert.frame_ReferenceIdeal :=
  fun m ρ _ => Cert.ReferenceIdeal.RefRun.frame (F := Ideal) m ρ

/-- The idealization rewrote no operation. -/
theorem preserves : Cert.preserves_Kernel_KernelIdeal := trivial

theorem algebraic : Cert.algebraic_KernelIdeal_ReferenceIdeal := by
  intro m ρ m' ρ' hpre hagree
  refine ⟨fun c => Cert.KernelIdeal.Hand.at18 m c (Proc.devRef .tc Cert.KernelIdeal.main_v107),
    Cert.KernelIdeal.Hand.runs_with_result (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact Cert.Bridge.results_agree m hpre c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
